-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v235)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v235) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S200000x64 : Shape := ⟨2, ![200000, 64]⟩
abbrev S50000x64 : Shape := ⟨2, ![50000, 64]⟩
abbrev S50000 : Shape := ⟨1, ![50000]⟩
abbrev S2000000 : Shape := ⟨1, ![2000000]⟩
abbrev S1000000 : Shape := ⟨1, ![1000000]⟩
abbrev S2048x1 : Shape := ⟨2, ![2048, 1]⟩
abbrev S2048x2 : Shape := ⟨2, ![2048, 2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S50000 : S_.BroadcastsInDim S50000 (![] : Fin 0 → Fin S50000.rank)
  reducesTo_S50000_S_d0 : S50000.ReducesTo [0] S_
  bcast_S_S2000000 : S_.BroadcastsInDim S2000000 (![] : Fin 0 → Fin S2000000.rank)
  reducesTo_S2000000_S_d0 : S2000000.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg4 : FVec F S2000000 .f32) (main_arg5 : FVec F S1000000 .f32) (main_arg6 : FVec F S1000000 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S2000000 .f32 := Host.absf main_arg4
  let main_cst_6 : FVec F S_ .f32 := constant S_ .f32 0x7F800000#32
  let main_v20 : FVec F S2000000 .f32 := broadcastInDim S2000000 ![] bcast_S_S2000000 main_cst_6
  let main_v21 : IVec S2000000 1 := cmpf .olt main_v19 main_v20
  let main_c_7 : IVec S_ 1 := constantI S_ 1 1#1
  let main_v22 : IVec S_ 1 := (fun x v => Host.reduce IntOp.andi x v reducesTo_S2000000_S_d0 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_v29 : FVec F S1000000 .f32 := Host.absf main_arg6
  let main_cst_10 : FVec F S_ .f32 := constant S_ .f32 0x7F800000#32
  let main_v30 : FVec F S1000000 .f32 := broadcastInDim S1000000 ![] bcast_S_S1000000 main_cst_10
  let main_v31 : IVec S1000000 1 := cmpf .olt main_v29 main_v30
  let main_c_11 : IVec S_ 1 := constantI S_ 1 1#1
  let main_v32 : IVec S_ 1 := (fun x v => Host.reduce IntOp.andi x v reducesTo_S1000000_S_d0 h_S_) main_v31 main_c_11
  let main_v33 : IVec S_ 1 := andi main_v28 main_v32
  main_v33

def fn {F : FTy → Type} [FloatOps F] (main_arg0 : FVec F S100000x64 .f32) (main_arg1 : FVec F S200000x64 .f32) (main_arg2 : FVec F S50000x64 .f32) (main_arg3 : FVec F S50000 .f32) (main_arg4 : FVec F S2000000 .f32) (main_arg5 : FVec F S1000000 .f32) (main_arg6 : FVec F S1000000 .f32) (main_arg7 : IVec S2048x1 32) (main_arg8 : IVec S2048x2 32) (main_arg9 : IVec S2000000 32) (main_arg10 : IVec S2000000 32) (main_arg11 : IVec S1000000 32) (main_arg12 : IVec S1000000 32) (main_arg13 : IVec S1000000 32) (main_arg14 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000 .f32 := Host.absf main_arg3
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg4 main_arg5 main_arg6 main_v13 main_v16
-- ==== Kernel.lean ====
abbrev S100000x64 : Shape := ⟨2, ![100000, 64]⟩
abbrev S200000x64 : Shape := ⟨2, ![200000, 64]⟩
abbrev S50000x64 : Shape := ⟨2, ![50000, 64]⟩
abbrev S50000 : Shape := ⟨1, ![50000]⟩
abbrev S2000000 : Shape := ⟨1, ![2000000]⟩
abbrev S1000000 : Shape := ⟨1, ![1000000]⟩
abbrev S2048x1 : Shape := ⟨2, ![2048, 1]⟩
abbrev S2048x2 : Shape := ⟨2, ![2048, 2]⟩
abbrev S300000x64 : Shape := ⟨2, ![300000, 64]⟩
abbrev S2000000x1 : Shape := ⟨2, ![2000000, 1]⟩
abbrev S_ : Shape := ⟨0, ![]⟩
abbrev S2000000x64 : Shape := ⟨2, ![2000000, 64]⟩
abbrev S150000x128 : Shape := ⟨2, ![150000, 128]⟩
abbrev S5000x128 : Shape := ⟨2, ![5000, 128]⟩
abbrev S5000x64 : Shape := ⟨2, ![5000, 64]⟩
abbrev S5000 : Shape := ⟨1, ![5000]⟩
abbrev S5000x1 : Shape := ⟨2, ![5000, 1]⟩
abbrev S150000x64 : Shape := ⟨2, ![150000, 64]⟩
abbrev S1000000x1 : Shape := ⟨2, ![1000000, 1]⟩
abbrev S1000000x64 : Shape := ⟨2, ![1000000, 64]⟩
abbrev S75000x128 : Shape := ⟨2, ![75000, 128]⟩
abbrev S2048x2x1 : Shape := ⟨3, ![2048, 2, 1]⟩
abbrev S2048x2x64 : Shape := ⟨3, ![2048, 2, 64]⟩
abbrev S2048 : Shape := ⟨1, ![2048]⟩
abbrev S2048x1x64 : Shape := ⟨3, ![2048, 1, 64]⟩
abbrev S2048x64 : Shape := ⟨2, ![2048, 64]⟩
abbrev S1x2048 : Shape := ⟨2, ![1, 2048]⟩
abbrev S1x1 : Shape := ⟨2, ![1, 1]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2 : Shape := ⟨1, ![2]⟩

abbrev nBuf : Space → Nat
  | .hbm => 352
  | .vmem => 52
  | .smem => 0
  | _ => 0

abbrev hbmTy0_0 (i : Nat) : BufTy := match i % 128 with
  | 0 => ⟨S100000x64, .f32⟩
  | 1 => ⟨S200000x64, .f32⟩
  | 2 => ⟨S50000x64, .f32⟩
  | 3 => ⟨S50000, .f32⟩
  | 4 => ⟨S2000000, .f32⟩
  | 5 => ⟨S1000000, .f32⟩
  | 6 => ⟨S1000000, .f32⟩
  | 7 => ⟨S2048x1, .i32⟩
  | 8 => ⟨S2048x2, .i32⟩
  | 9 => ⟨S2000000, .i32⟩
  | 10 => ⟨S2000000, .i32⟩
  | 11 => ⟨S1000000, .i32⟩
  | 12 => ⟨S1000000, .i32⟩
  | 13 => ⟨S1000000, .i32⟩
  | 14 => ⟨S1000000, .i32⟩
  | 15 => ⟨S300000x64, .f32⟩
  | 16 => ⟨S2000000x1, .f32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S2000000x64, .f32⟩
  | 26 => ⟨S2000000x64, .f32⟩
  | 27 => ⟨S2000000x64, .f32⟩
  | 28 => ⟨S_, .f32⟩
  | 29 => ⟨S300000x64, .f32⟩
  | 30 => ⟨S2000000x1, .i32⟩
  | 31 => ⟨S300000x64, .f32⟩
  | 32 => ⟨S150000x128, .f32⟩
  | 33 => ⟨S150000x128, .f32⟩
  | 34 => ⟨S150000x128, .f32⟩
  | 35 => ⟨S150000x128, .f32⟩
  | 36 => ⟨S300000x64, .f32⟩
  | 37 => ⟨S300000x64, .f32⟩
  | 38 => ⟨S2000000x1, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x64, .f32⟩
  | 48 => ⟨S2000000x64, .f32⟩
  | 49 => ⟨S2000000x64, .f32⟩
  | 50 => ⟨S_, .f32⟩
  | 51 => ⟨S300000x64, .f32⟩
  | 52 => ⟨S2000000x1, .i32⟩
  | 53 => ⟨S300000x64, .f32⟩
  | 54 => ⟨S150000x128, .f32⟩
  | 55 => ⟨S150000x128, .f32⟩
  | 56 => ⟨S150000x128, .f32⟩
  | 57 => ⟨S300000x64, .f32⟩
  | 58 => ⟨S100000x64, .f32⟩
  | 59 => ⟨S200000x64, .f32⟩
  | 60 => ⟨S150000x64, .f32⟩
  | 61 => ⟨S1000000x1, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x64, .f32⟩
  | 71 => ⟨S1000000x64, .f32⟩
  | 72 => ⟨S1000000x64, .f32⟩
  | 73 => ⟨S_, .f32⟩
  | 74 => ⟨S150000x64, .f32⟩
  | 75 => ⟨S1000000x1, .i32⟩
  | 76 => ⟨S150000x64, .f32⟩
  | 77 => ⟨S75000x128, .f32⟩
  | 78 => ⟨S75000x128, .f32⟩
  | 79 => ⟨S75000x128, .f32⟩
  | 80 => ⟨S75000x128, .f32⟩
  | 81 => ⟨S150000x64, .f32⟩
  | 82 => ⟨S150000x64, .f32⟩
  | 83 => ⟨S1000000x1, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x64, .f32⟩
  | 93 => ⟨S1000000x64, .f32⟩
  | 94 => ⟨S1000000x64, .f32⟩
  | 95 => ⟨S_, .f32⟩
  | 96 => ⟨S150000x64, .f32⟩
  | 97 => ⟨S1000000x1, .i32⟩
  | 98 => ⟨S150000x64, .f32⟩
  | 99 => ⟨S75000x128, .f32⟩
  | 100 => ⟨S75000x128, .f32⟩
  | 101 => ⟨S75000x128, .f32⟩
  | 102 => ⟨S150000x64, .f32⟩
  | 103 => ⟨S100000x64, .f32⟩
  | 104 => ⟨S50000x64, .f32⟩
  | 105 => ⟨S1000000x1, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S1000000x64, .f32⟩
  | 116 => ⟨S1000000x64, .f32⟩
  | 117 => ⟨S_, .f32⟩
  | 118 => ⟨S50000x64, .f32⟩
  | 119 => ⟨S1000000x1, .i32⟩
  | 120 => ⟨S50000x64, .f32⟩
  | 121 => ⟨S_, .i32⟩
  | 122 => ⟨S2048x2, .i32⟩
  | 123 => ⟨S2048x2, .i1⟩
  | 124 => ⟨S_, .i32⟩
  | 125 => ⟨S2048x2, .i32⟩
  | 126 => ⟨S2048x2, .i32⟩
  | 127 => ⟨S2048x2, .i32⟩
  | _ => ⟨S100000x64, .f32⟩

abbrev hbmTy0_1 (i : Nat) : BufTy := match i % 128 with
  | 0 => ⟨S2048x2x1, .i32⟩
  | 1 => ⟨S2048x2x64, .f32⟩
  | 2 => ⟨S_, .i32⟩
  | 3 => ⟨S2048x2, .i32⟩
  | 4 => ⟨S2048x2, .i1⟩
  | 5 => ⟨S_, .i32⟩
  | 6 => ⟨S2048x2, .i32⟩
  | 7 => ⟨S2048x2, .i32⟩
  | 8 => ⟨S2048x2, .i32⟩
  | 9 => ⟨S2048x2x1, .i32⟩
  | 10 => ⟨S2048x2x64, .f32⟩
  | 11 => ⟨S_, .f32⟩
  | 12 => ⟨S50000, .f32⟩
  | 13 => ⟨S50000, .f32⟩
  | 14 => ⟨S50000, .f32⟩
  | 15 => ⟨S_, .i32⟩
  | 16 => ⟨S2048x2, .i32⟩
  | 17 => ⟨S2048x2, .i1⟩
  | 18 => ⟨S_, .i32⟩
  | 19 => ⟨S2048x2, .i32⟩
  | 20 => ⟨S2048x2, .i32⟩
  | 21 => ⟨S2048x2, .i32⟩
  | 22 => ⟨S2048x2x1, .i32⟩
  | 23 => ⟨S2048x2, .f32⟩
  | 24 => ⟨S_, .f32⟩
  | 25 => ⟨S2048x2, .f32⟩
  | 26 => ⟨S2048x2, .f32⟩
  | 27 => ⟨S2048x2x1, .f32⟩
  | 28 => ⟨S2048x2x64, .f32⟩
  | 29 => ⟨S2048x2x64, .f32⟩
  | 30 => ⟨S2048x2x64, .f32⟩
  | 31 => ⟨S_, .f32⟩
  | 32 => ⟨S2048x2, .f32⟩
  | 33 => ⟨S2048x2x1, .f32⟩
  | 34 => ⟨S2048x2x64, .f32⟩
  | 35 => ⟨S2048x2x64, .f32⟩
  | 36 => ⟨S2048x2x64, .f32⟩
  | 37 => ⟨S_, .f32⟩
  | 38 => ⟨S2048x2, .f32⟩
  | 39 => ⟨S2048x2, .f32⟩
  | 40 => ⟨S2048x1, .f32⟩
  | 41 => ⟨S2048, .f32⟩
  | 42 => ⟨S2048x1, .f32⟩
  | 43 => ⟨S2048, .f32⟩
  | 44 => ⟨S2048, .f32⟩
  | 45 => ⟨S2048, .f32⟩
  | 46 => ⟨S_, .f32⟩
  | 47 => ⟨S2048, .f32⟩
  | 48 => ⟨S2048, .f32⟩
  | 49 => ⟨S2048, .f32⟩
  | 50 => ⟨S2048, .f32⟩
  | 51 => ⟨S2048, .i1⟩
  | 52 => ⟨S2048, .f32⟩
  | 53 => ⟨S2048, .f32⟩
  | 54 => ⟨S2048, .f32⟩
  | 55 => ⟨S2048, .f32⟩
  | 56 => ⟨S2048, .f32⟩
  | 57 => ⟨S2048, .f32⟩
  | 58 => ⟨S2048, .f32⟩
  | 59 => ⟨S2048, .f32⟩
  | 60 => ⟨S2048, .f32⟩
  | 61 => ⟨S_, .f32⟩
  | 62 => ⟨S_, .f32⟩
  | 63 => ⟨S_, .f32⟩
  | 64 => ⟨S_, .f32⟩
  | 65 => ⟨S_, .f32⟩
  | 66 => ⟨S2048x1x64, .f32⟩
  | 67 => ⟨S2048x64, .f32⟩
  | 68 => ⟨S2048x1x64, .f32⟩
  | 69 => ⟨S2048x64, .f32⟩
  | 70 => ⟨S2048x64, .f32⟩
  | 71 => ⟨S_, .f32⟩
  | 72 => ⟨S2048, .f32⟩
  | 73 => ⟨S2048x1, .f32⟩
  | 74 => ⟨S2048x1, .f32⟩
  | 75 => ⟨S_, .f32⟩
  | 76 => ⟨S2048x1, .f32⟩
  | 77 => ⟨S2048x1, .f32⟩
  | 78 => ⟨S2048x64, .f32⟩
  | 79 => ⟨S2048x64, .f32⟩
  | 80 => ⟨S2048x64, .f32⟩
  | 81 => ⟨S_, .f32⟩
  | 82 => ⟨S2048, .f32⟩
  | 83 => ⟨S2048x1, .f32⟩
  | 84 => ⟨S2048x1, .f32⟩
  | 85 => ⟨S_, .f32⟩
  | 86 => ⟨S2048x1, .f32⟩
  | 87 => ⟨S2048x1, .f32⟩
  | 88 => ⟨S2048x64, .f32⟩
  | 89 => ⟨S2048x64, .f32⟩
  | 90 => ⟨S2048x64, .f32⟩
  | 91 => ⟨S2048x64, .f32⟩
  | 92 => ⟨S_, .f32⟩
  | 93 => ⟨S2048, .f32⟩
  | 94 => ⟨S_, .f32⟩
  | 95 => ⟨S_, .f32⟩
  | 96 => ⟨S_, .f32⟩
  | 97 => ⟨S_, .f32⟩
  | 98 => ⟨S2048x64, .f32⟩
  | 99 => ⟨S_, .f32⟩
  | 100 => ⟨S2048, .f32⟩
  | 101 => ⟨S2048x1, .f32⟩
  | 102 => ⟨S2048x1, .f32⟩
  | 103 => ⟨S_, .f32⟩
  | 104 => ⟨S2048x1, .f32⟩
  | 105 => ⟨S2048x1, .f32⟩
  | 106 => ⟨S2048x64, .f32⟩
  | 107 => ⟨S2048x64, .f32⟩
  | 108 => ⟨S2048x64, .f32⟩
  | 109 => ⟨S_, .f32⟩
  | 110 => ⟨S2048, .f32⟩
  | 111 => ⟨S1x2048, .f32⟩
  | 112 => ⟨S1x1, .f32⟩
  | 113 => ⟨S_, .f32⟩
  | 114 => ⟨S2048x64, .f32⟩
  | 115 => ⟨S_, .f32⟩
  | 116 => ⟨S2048, .f32⟩
  | 117 => ⟨S2048x1, .f32⟩
  | 118 => ⟨S2048x1, .f32⟩
  | 119 => ⟨S_, .f32⟩
  | 120 => ⟨S2048x1, .f32⟩
  | 121 => ⟨S2048x1, .f32⟩
  | 122 => ⟨S2048x64, .f32⟩
  | 123 => ⟨S2048x64, .f32⟩
  | 124 => ⟨S2048x64, .f32⟩
  | 125 => ⟨S_, .f32⟩
  | 126 => ⟨S2048, .f32⟩
  | 127 => ⟨S1x2048, .f32⟩
  | _ => ⟨S100000x64, .f32⟩

abbrev hbmTy0_2 (i : Nat) : BufTy := match i % 128 with
  | 0 => ⟨S1x1, .f32⟩
  | 1 => ⟨S_, .f32⟩
  | 2 => ⟨S_, .f32⟩
  | 3 => ⟨S_, .f32⟩
  | 4 => ⟨S_, .f32⟩
  | 5 => ⟨S_, .f32⟩
  | 6 => ⟨S2048, .i32⟩
  | 7 => ⟨S_, .i32⟩
  | 8 => ⟨S2048, .i32⟩
  | 9 => ⟨S2048, .i1⟩
  | 10 => ⟨S_, .i32⟩
  | 11 => ⟨S2048, .i32⟩
  | 12 => ⟨S2048, .i32⟩
  | 13 => ⟨S2048, .i32⟩
  | 14 => ⟨S2048x1, .i32⟩
  | 15 => ⟨S2048x64, .f32⟩
  | 16 => ⟨S2048, .i32⟩
  | 17 => ⟨S_, .i32⟩
  | 18 => ⟨S2048, .i32⟩
  | 19 => ⟨S2048, .i1⟩
  | 20 => ⟨S_, .i32⟩
  | 21 => ⟨S2048, .i32⟩
  | 22 => ⟨S2048, .i32⟩
  | 23 => ⟨S2048, .i32⟩
  | 24 => ⟨S2048x1, .i32⟩
  | 25 => ⟨S2048x64, .f32⟩
  | 26 => ⟨S2048x64, .f32⟩
  | 27 => ⟨S_, .f32⟩
  | 28 => ⟨S2048, .f32⟩
  | 29 => ⟨S2048x1, .f32⟩
  | 30 => ⟨S2048x1, .f32⟩
  | 31 => ⟨S_, .f32⟩
  | 32 => ⟨S2048x1, .f32⟩
  | 33 => ⟨S2048x1, .f32⟩
  | 34 => ⟨S2048x64, .f32⟩
  | 35 => ⟨S2048x64, .f32⟩
  | 36 => ⟨S2048x64, .f32⟩
  | 37 => ⟨S_, .f32⟩
  | 38 => ⟨S2048, .f32⟩
  | 39 => ⟨S2048x1, .f32⟩
  | 40 => ⟨S2048x1, .f32⟩
  | 41 => ⟨S_, .f32⟩
  | 42 => ⟨S2048x1, .f32⟩
  | 43 => ⟨S2048x1, .f32⟩
  | 44 => ⟨S2048x64, .f32⟩
  | 45 => ⟨S2048x64, .f32⟩
  | 46 => ⟨S2048x64, .f32⟩
  | 47 => ⟨S2048x64, .f32⟩
  | 48 => ⟨S_, .f32⟩
  | 49 => ⟨S2048, .f32⟩
  | 50 => ⟨S_, .f32⟩
  | 51 => ⟨S_, .f32⟩
  | 52 => ⟨S_, .f32⟩
  | 53 => ⟨S_, .f32⟩
  | 54 => ⟨S2048x64, .f32⟩
  | 55 => ⟨S_, .f32⟩
  | 56 => ⟨S2048, .f32⟩
  | 57 => ⟨S2048x1, .f32⟩
  | 58 => ⟨S2048x1, .f32⟩
  | 59 => ⟨S_, .f32⟩
  | 60 => ⟨S2048x1, .f32⟩
  | 61 => ⟨S2048x1, .f32⟩
  | 62 => ⟨S2048x64, .f32⟩
  | 63 => ⟨S2048x64, .f32⟩
  | 64 => ⟨S2048x64, .f32⟩
  | 65 => ⟨S_, .f32⟩
  | 66 => ⟨S2048, .f32⟩
  | 67 => ⟨S1x2048, .f32⟩
  | 68 => ⟨S1x1, .f32⟩
  | 69 => ⟨S_, .f32⟩
  | 70 => ⟨S2048x64, .f32⟩
  | 71 => ⟨S_, .f32⟩
  | 72 => ⟨S2048, .f32⟩
  | 73 => ⟨S2048x1, .f32⟩
  | 74 => ⟨S2048x1, .f32⟩
  | 75 => ⟨S_, .f32⟩
  | 76 => ⟨S2048x1, .f32⟩
  | 77 => ⟨S2048x1, .f32⟩
  | 78 => ⟨S2048x64, .f32⟩
  | 79 => ⟨S2048x64, .f32⟩
  | 80 => ⟨S2048x64, .f32⟩
  | 81 => ⟨S_, .f32⟩
  | 82 => ⟨S2048, .f32⟩
  | 83 => ⟨S1x2048, .f32⟩
  | 84 => ⟨S1x1, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S1, .f32⟩
  | 94 => ⟨S1, .f32⟩
  | 95 => ⟨S2, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S256x64, .f32⟩
  | .local _ .vmem, ⟨29, _⟩ => ⟨S256x64, .f32⟩
  | .local _ .vmem, ⟨30, _⟩ => ⟨S2048x64, .f32⟩
  | .local _ .vmem, ⟨31, _⟩ => ⟨S1x2048, .f32⟩
  | .local _ .vmem, ⟨32, _⟩ => ⟨S1x1, .f32⟩
  | .local _ .vmem, ⟨33, _⟩ => ⟨S1x1, .f32⟩
  | .local _ .vmem, ⟨34, _⟩ => ⟨S256x64, .f32⟩
  | .local _ .vmem, ⟨35, _⟩ => ⟨S256x64, .f32⟩
  | .local _ .vmem, ⟨36, _⟩ => ⟨S2048x64, .f32⟩
  | .local _ .vmem, ⟨37, _⟩ => ⟨S1x2048, .f32⟩
  | .local _ .vmem, ⟨38, _⟩ => ⟨S1x1, .f32⟩
  | .local _ .vmem, ⟨39, _⟩ => ⟨S1x1, .f32⟩
  | .local _ .vmem, ⟨40, _⟩ => ⟨S256x64, .f32⟩
  | .local _ .vmem, ⟨41, _⟩ => ⟨S256x64, .f32⟩
  | .local _ .vmem, ⟨42, _⟩ => ⟨S2048x64, .f32⟩
  | .local _ .vmem, ⟨43, _⟩ => ⟨S1x2048, .f32⟩
  | .local _ .vmem, ⟨44, _⟩ => ⟨S1x1, .f32⟩
  | .local _ .vmem, ⟨45, _⟩ => ⟨S1x1, .f32⟩
  | .local _ .vmem, ⟨46, _⟩ => ⟨S256x64, .f32⟩
  | .local _ .vmem, ⟨47, _⟩ => ⟨S256x64, .f32⟩
  | .local _ .vmem, ⟨48, _⟩ => ⟨S2048x64, .f32⟩
  | .local _ .vmem, ⟨49, _⟩ => ⟨S1x2048, .f32⟩
  | .local _ .vmem, ⟨50, _⟩ => ⟨S1x1, .f32⟩
  | .local _ .vmem, ⟨51, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_4 : Ref sig .tc := ⟨.hbm, 62, rfl⟩
abbrev main_v40 : Ref sig .tc := ⟨.hbm, 63, rfl⟩
abbrev main_v41 : Ref sig .tc := ⟨.hbm, 64, rfl⟩
abbrev main_c_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54_0 : Ref sig .tc := ⟨.hbm, 79, rfl⟩
abbrev main_v54_1 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_7 : Ref sig .tc := ⟨.hbm, 84, rfl⟩
abbrev main_v58 : Ref sig .tc := ⟨.hbm, 85, rfl⟩
abbrev main_v59 : Ref sig .tc := ⟨.hbm, 86, rfl⟩
abbrev main_c_8 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_9 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_10 : Ref sig .tc := ⟨.hbm, 106, rfl⟩
abbrev main_v77 : Ref sig .tc := ⟨.hbm, 107, rfl⟩
abbrev main_v78 : Ref sig .tc := ⟨.hbm, 108, rfl⟩
abbrev main_c_11 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_12 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_13 : Ref sig .tc := ⟨.hbm, 121, rfl⟩
abbrev main_v89 : Ref sig .tc := ⟨.hbm, 122, rfl⟩
abbrev main_v90 : Ref sig .tc := ⟨.hbm, 123, rfl⟩
abbrev main_c_14 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_15 : Ref sig .tc := ⟨.hbm, 130, rfl⟩
abbrev main_v96 : Ref sig .tc := ⟨.hbm, 131, rfl⟩
abbrev main_v97 : Ref sig .tc := ⟨.hbm, 132, rfl⟩
abbrev main_c_16 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_17 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_18 : Ref sig .tc := ⟨.hbm, 143, rfl⟩
abbrev main_v106 : Ref sig .tc := ⟨.hbm, 144, rfl⟩
abbrev main_v107 : Ref sig .tc := ⟨.hbm, 145, rfl⟩
abbrev main_c_19 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_20 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_21 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_22 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_call0_v0 : Ref sig .tc := ⟨.hbm, 173, rfl⟩
abbrev main_call0_call0_cst : Ref sig .tc := ⟨.hbm, 174, rfl⟩
abbrev main_call0_call0_v0 : Ref sig .tc := ⟨.hbm, 175, rfl⟩
abbrev main_call0_call0_v1 : Ref sig .tc := ⟨.hbm, 176, rfl⟩
abbrev main_call0_call0_v2 : Ref sig .tc := ⟨.hbm, 177, rfl⟩
abbrev main_call0_call0_v3 : Ref sig .tc := ⟨.hbm, 178, rfl⟩
abbrev main_call0_call0_v4 : Ref sig .tc := ⟨.hbm, 179, rfl⟩
abbrev main_call0_call0_v5 : Ref sig .tc := ⟨.hbm, 180, rfl⟩
abbrev main_call0_call0_v6 : Ref sig .tc := ⟨.hbm, 181, rfl⟩
abbrev main_call0_call0_v7 : Ref sig .tc := ⟨.hbm, 182, rfl⟩
abbrev main_call0_call0_v8 : Ref sig .tc := ⟨.hbm, 183, rfl⟩
abbrev main_call0_call0_v9 : Ref sig .tc := ⟨.hbm, 184, rfl⟩
abbrev main_call0_call0_v10 : Ref sig .tc := ⟨.hbm, 185, rfl⟩
abbrev main_call0_call0_v11 : Ref sig .tc := ⟨.hbm, 186, rfl⟩
abbrev main_call0_v1 : Ref sig .tc := ⟨.hbm, 187, rfl⟩
abbrev main_v131 : Ref sig .tc := ⟨.hbm, 188, rfl⟩
abbrev main_cst_23 : Ref sig .tc := ⟨.hbm, 189, rfl⟩
abbrev main_v132 : Ref sig .tc := ⟨.hbm, 190, rfl⟩
abbrev main_cst_24 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_call1_v0 : Ref sig .tc := ⟨.hbm, 198, rfl⟩
abbrev main_call1_cst : Ref sig .tc := ⟨.hbm, 199, rfl⟩
abbrev main_call1_v1 : Ref sig .tc := ⟨.hbm, 200, rfl⟩
abbrev main_call1_v2 : Ref sig .tc := ⟨.hbm, 201, rfl⟩
abbrev main_v139 : Ref sig .tc := ⟨.hbm, 202, rfl⟩
abbrev main_cst_25 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_call2_v0 : Ref sig .tc := ⟨.hbm, 208, rfl⟩
abbrev main_call2_cst : Ref sig .tc := ⟨.hbm, 209, rfl⟩
abbrev main_call2_v1 : Ref sig .tc := ⟨.hbm, 210, rfl⟩
abbrev main_call2_v2 : Ref sig .tc := ⟨.hbm, 211, rfl⟩
abbrev main_v144 : Ref sig .tc := ⟨.hbm, 212, rfl⟩
abbrev main_cst_26 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_cst_27 : Ref sig .tc := ⟨.hbm, 220, rfl⟩
abbrev main_v151 : Ref sig .tc := ⟨.hbm, 221, rfl⟩
abbrev main_cst_28 : Ref sig .tc := ⟨.hbm, 222, rfl⟩
abbrev main_v152 : Ref sig .tc := ⟨.hbm, 223, rfl⟩
abbrev main_cst_29 : Ref sig .tc := ⟨.hbm, 224, rfl⟩
abbrev main_v153 : Ref sig .tc := ⟨.hbm, 225, rfl⟩
abbrev main_call3_v0 : Ref sig .tc := ⟨.hbm, 226, rfl⟩
abbrev main_call3_cst : Ref sig .tc := ⟨.hbm, 227, rfl⟩
abbrev main_call3_v1 : Ref sig .tc := ⟨.hbm, 228, rfl⟩
abbrev main_call3_v2 : Ref sig .tc := ⟨.hbm, 229, rfl⟩
abbrev main_v154 : Ref sig .tc := ⟨.hbm, 230, rfl⟩
abbrev main_cst_30 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_cst_31 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_call4_v0 : Ref sig .tc := ⟨.hbm, 242, rfl⟩
abbrev main_call4_cst : Ref sig .tc := ⟨.hbm, 243, rfl⟩
abbrev main_call4_v1 : Ref sig .tc := ⟨.hbm, 244, rfl⟩
abbrev main_call4_v2 : Ref sig .tc := ⟨.hbm, 245, rfl⟩
abbrev main_v164 : Ref sig .tc := ⟨.hbm, 246, rfl⟩
abbrev main_cst_32 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_cst_33 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_cst_34 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_c_35 : Ref sig .tc := ⟨.hbm, 263, rfl⟩
abbrev main_v178 : Ref sig .tc := ⟨.hbm, 264, rfl⟩
abbrev main_v179 : Ref sig .tc := ⟨.hbm, 265, rfl⟩
abbrev main_c_36 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_c_37 : Ref sig .tc := ⟨.hbm, 273, rfl⟩
abbrev main_v186 : Ref sig .tc := ⟨.hbm, 274, rfl⟩
abbrev main_v187 : Ref sig .tc := ⟨.hbm, 275, rfl⟩
abbrev main_c_38 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_call5_v0 : Ref sig .tc := ⟨.hbm, 282, rfl⟩
abbrev main_call5_cst : Ref sig .tc := ⟨.hbm, 283, rfl⟩
abbrev main_call5_v1 : Ref sig .tc := ⟨.hbm, 284, rfl⟩
abbrev main_call5_v2 : Ref sig .tc := ⟨.hbm, 285, rfl⟩
abbrev main_v193 : Ref sig .tc := ⟨.hbm, 286, rfl⟩
abbrev main_cst_39 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_call6_v0 : Ref sig .tc := ⟨.hbm, 292, rfl⟩
abbrev main_call6_cst : Ref sig .tc := ⟨.hbm, 293, rfl⟩
abbrev main_call6_v1 : Ref sig .tc := ⟨.hbm, 294, rfl⟩
abbrev main_call6_v2 : Ref sig .tc := ⟨.hbm, 295, rfl⟩
abbrev main_v198 : Ref sig .tc := ⟨.hbm, 296, rfl⟩
abbrev main_cst_40 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_cst_41 : Ref sig .tc := ⟨.hbm, 304, rfl⟩
abbrev main_v205 : Ref sig .tc := ⟨.hbm, 305, rfl⟩
abbrev main_cst_42 : Ref sig .tc := ⟨.hbm, 306, rfl⟩
abbrev main_v206 : Ref sig .tc := ⟨.hbm, 307, rfl⟩
abbrev main_cst_43 : Ref sig .tc := ⟨.hbm, 308, rfl⟩
abbrev main_v207 : Ref sig .tc := ⟨.hbm, 309, rfl⟩
abbrev main_call7_v0 : Ref sig .tc := ⟨.hbm, 310, rfl⟩
abbrev main_call7_cst : Ref sig .tc := ⟨.hbm, 311, rfl⟩
abbrev main_call7_v1 : Ref sig .tc := ⟨.hbm, 312, rfl⟩
abbrev main_call7_v2 : Ref sig .tc := ⟨.hbm, 313, rfl⟩
abbrev main_v208 : Ref sig .tc := ⟨.hbm, 314, rfl⟩
abbrev main_cst_44 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩
abbrev main_cst_45 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_call8_v0 : Ref sig .tc := ⟨.hbm, 326, rfl⟩
abbrev main_call8_cst : Ref sig .tc := ⟨.hbm, 327, rfl⟩
abbrev main_call8_v1 : Ref sig .tc := ⟨.hbm, 328, rfl⟩
abbrev main_call8_v2 : Ref sig .tc := ⟨.hbm, 329, rfl⟩
abbrev main_v218 : Ref sig .tc := ⟨.hbm, 330, rfl⟩
abbrev main_cst_46 : Ref sig .tc := ⟨.hbm, 331, rfl⟩
abbrev main_v219 : Ref sig .tc := ⟨.hbm, 332, rfl⟩
abbrev main_v220 : Ref sig .tc := ⟨.hbm, 333, rfl⟩
abbrev main_v221 : Ref sig .tc := ⟨.hbm, 334, rfl⟩
abbrev main_v222 : Ref sig .tc := ⟨.hbm, 335, rfl⟩
abbrev main_v223 : Ref sig .tc := ⟨.hbm, 336, rfl⟩
abbrev main_cst_47 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_cst_48 : Ref sig .tc := ⟨.hbm, 342, rfl⟩
abbrev main_v228 : Ref sig .tc := ⟨.hbm, 343, rfl⟩
abbrev main_v229 : Ref sig .tc := ⟨.hbm, 344, rfl⟩
abbrev main_v230 : Ref sig .tc := ⟨.hbm, 345, rfl⟩
abbrev main_v231 : Ref sig .tc := ⟨.hbm, 346, rfl⟩
abbrev main_cst_49 : Ref sig .tc := ⟨.hbm, 347, rfl⟩
abbrev main_v232 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_scratch0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_scratch0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_scratch0 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg3_0 : Ref sig .tc := ⟨.vmem, 50, rfl⟩
abbrev cc7_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32_17 : BitVec 32 := 0#32
  let v43 : BitVec 1 := Scalar.cmpi .ne v42 c0_i32_17
  v43

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![8], ![false]⟩

def k5_cond2 (i : grid5.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32_17 : BitVec 32 := 0#32
  let v43 : BitVec 1 := Scalar.cmpi .ne v42 c0_i32_17
  v43

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S256x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![8], ![false]⟩

def k6_cond2 (i : grid6.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32_17 : BitVec 32 := 0#32
  let v43 : BitVec 1 := Scalar.cmpi .ne v42 c0_i32_17
  v43

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S256x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2048 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![8], ![false]⟩

def k7_cond2 (i : grid7.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32_17 : BitVec 32 := 0#32
  let v43 : BitVec 1 := Scalar.cmpi .ne v42 c0_i32_17
  v43

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2048x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x2048 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  concatenates_S100000x64_S200000x64_S300000x64_d0 : Shape.Concatenates [S100000x64, S200000x64] S300000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S300000x64 : S_.BroadcastsInDim S300000x64 (![] : Fin 0 → Fin S300000x64.rank)
  shapeCasts_S300000x64_S150000x128 : S300000x64.ShapeCasts S150000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S5000x128_o0_0_S5000x64 : S5000x128.Slices ![0, 0] S5000x64
  reduces_S5000x64_S5000 : S5000x64.Reduces [1] S5000
  shapeCasts_S5000_S5000x1 : S5000.ShapeCasts S5000x1
  slices_S5000x128_o0_64_S5000x64 : S5000x128.Slices ![0, 64] S5000x64
  iota_S5000x128_d1_w32 : S5000x128.Iotas .tc 32 [1]
  shapeCasts_S5000x1_S5000x1 : S5000x1.ShapeCasts S5000x1
  broadcasts_S5000x1_S5000x128 : S5000x1.Broadcasts S5000x128
  shapeCasts_S150000x128_S300000x64 : S150000x128.ShapeCasts S300000x64
  slices_S300000x64_S100000x64_0_0 : S300000x64.Slices ![0, 0] S100000x64
  slices_S300000x64_S200000x64_100000_0 : S300000x64.Slices ![100000, 0] S200000x64
  concatenates_S100000x64_S50000x64_S150000x64_d0 : Shape.Concatenates [S100000x64, S50000x64] S150000x64 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  shapeCasts_S150000x64_S75000x128 : S150000x64.ShapeCasts S75000x128
  shapeCasts_S75000x128_S150000x64 : S75000x128.ShapeCasts S150000x64
  slices_S150000x64_S100000x64_0_0 : S150000x64.Slices ![0, 0] S100000x64
  slices_S150000x64_S50000x64_100000_0 : S150000x64.Slices ![100000, 0] S50000x64
  bcast_S_S50000x64 : S_.BroadcastsInDim S50000x64 (![] : Fin 0 → Fin S50000x64.rank)
  bcast_S_S2048x2 : S_.BroadcastsInDim S2048x2 (![] : Fin 0 → Fin S2048x2.rank)
  bcast_S2048x2_S2048x2x1_0_1 : S2048x2.BroadcastsInDim S2048x2x1 (![0, 1] : Fin 2 → Fin S2048x2x1.rank)
  bcast_S_S50000 : S_.BroadcastsInDim S50000 (![] : Fin 0 → Fin S50000.rank)
  bcast_S2048x2x1_S2048x2x64_0_1_2 : S2048x2x1.BroadcastsInDim S2048x2x64 (![0, 1, 2] : Fin 3 → Fin S2048x2x64.rank)
  reducesTo_S2048x2x64_S2048x2_d2 : S2048x2x64.ReducesTo [2] S2048x2
  h_S_ : 0 < S_.numel
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  reducesTo_S2048_S_d0 : S2048.ReducesTo [0] S_
  slices_S2048x2x64_S2048x1x64_0_0_0 : S2048x2x64.Slices ![0, 0, 0] S2048x1x64
  shapeCasts_S2048x1x64_S2048x64 : S2048x1x64.ShapeCasts S2048x64
  reducesTo_S2048x64_S2048_d1 : S2048x64.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  shapeCasts_S2048_S1x2048 : S2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S256x64_S256 : S256x64.Reduces [1] S256
  shapeCasts_S256_S256x1 : S256.ShapeCasts S256x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  iota_S256x2048_d0_w32 : S256x2048.Iotas .tc 32 [0]
  iota_S256x2048_d1_w32 : S256x2048.Iotas .tc 32 [1]
  reduces_S256x2048_S256 : S256x2048.Reduces [1] S256
  reduces_S256x1_S1 : S256x1.Reduces [0] S1
  shapeCasts_S1_S1x1 : S1.ShapeCasts S1x1
  shapeCasts_S1x1_S_ : S1x1.ShapeCasts S_
  bcast_S_S1 : S_.BroadcastsInDim S1 (![] : Fin 0 → Fin S1.rank)
  concatenates_S1_S1_S2_d0 : Shape.Concatenates [S1, S1] S2 0
  gather_S300000x64_S2000000x1_S2000000x64_1_0_n_n_0_1_164_wf : GatherDims.WF S300000x64 S2000000x1 S2000000x64 [1] [0] [] [0] [] 1 ![1, 64]
  scatter_S300000x64_S2000000x1_S2000000x64_1_0_0_1_wf : ScatterDims.WF S300000x64 S2000000x1 S2000000x64 [1] [0] [0] 1
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  gather_S200000x64_S1000000x1_S1000000x64_1_0_n_n_0_1_164_wf : GatherDims.WF S200000x64 S1000000x1 S1000000x64 [1] [0] [] [0] [] 1 ![1, 64]
  scatter_S50000x64_S1000000x1_S1000000x64_1_0_0_1_wf : ScatterDims.WF S50000x64 S1000000x1 S1000000x64 [1] [0] [0] 1
  gather_S50000x64_S2048x2x1_S2048x2x64_2_0_n_n_0_2_164_wf : GatherDims.WF S50000x64 S2048x2x1 S2048x2x64 [2] [0] [] [0] [] 2 ![1, 64]
  gather_S50000_S2048x2x1_S2048x2_n_0_n_n_0_2_1_wf : GatherDims.WF S50000 S2048x2x1 S2048x2 [] [0] [] [0] [] 2 ![1]
  dot_S256x64_S2048x64_S256x2048_1_1_0_0_n_n_wf : DotDims.WF S256x64 S2048x64 S256x2048 [1] [1] [0] [0] [] []
  gather_S100000x64_S2048x1_S2048x64_1_0_n_n_0_1_164_wf : GatherDims.WF S100000x64 S2048x1 S2048x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S150000x128.size a
  hwx0_0 : ∀ i : grid0.Coords, EltTy.bits .f32 = 32 ∨ (Rect.block (s := S150000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S150000x128.size a
  hwx0_1 : ∀ i : grid0.Coords, EltTy.bits .f32 = 32 ∨ (Rect.block (s := S150000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S150000x128.size a
  hwx0_2 : ∀ i : grid0.Coords, EltTy.bits .f32 = 32 ∨ (Rect.block (s := S150000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S150000x128.size a
  hwx0_3 : ∀ i : grid0.Coords, EltTy.bits .f32 = 32 ∨ (Rect.block (s := S150000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S150000x128.size a
  hwx1_0 : ∀ i : grid1.Coords, EltTy.bits .f32 = 32 ∨ (Rect.block (s := S150000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S150000x128.size a
  hwx1_1 : ∀ i : grid1.Coords, EltTy.bits .f32 = 32 ∨ (Rect.block (s := S150000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S150000x128.size a
  hwx1_2 : ∀ i : grid1.Coords, EltTy.bits .f32 = 32 ∨ (Rect.block (s := S150000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S75000x128.size a
  hwx2_0 : ∀ i : grid2.Coords, EltTy.bits .f32 = 32 ∨ (Rect.block (s := S75000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S75000x128.size a
  hwx2_1 : ∀ i : grid2.Coords, EltTy.bits .f32 = 32 ∨ (Rect.block (s := S75000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S75000x128.size a
  hwx2_2 : ∀ i : grid2.Coords, EltTy.bits .f32 = 32 ∨ (Rect.block (s := S75000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S75000x128.size a
  hwx2_3 : ∀ i : grid2.Coords, EltTy.bits .f32 = 32 ∨ (Rect.block (s := S75000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S75000x128.size a
  hwx3_0 : ∀ i : grid3.Coords, EltTy.bits .f32 = 32 ∨ (Rect.block (s := S75000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S75000x128.size a
  hwx3_1 : ∀ i : grid3.Coords, EltTy.bits .f32 = 32 ∨ (Rect.block (s := S75000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S75000x128.size a
  hwx3_2 : ∀ i : grid3.Coords, EltTy.bits .f32 = 32 ∨ (Rect.block (s := S75000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x64.size a ≤ S2048x64.size a
  hwx4_0 : ∀ i : grid4.Coords, EltTy.bits .f32 = 32 ∨ (Rect.block (s := S2048x64) S256x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S2048x64.size a
  hwx4_1 : ∀ i : grid4.Coords, EltTy.bits .f32 = 32 ∨ (Rect.block (s := S2048x64) S2048x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x64.size a ≤ S2048x64.size a
  hwx5_0 : ∀ i : grid5.Coords, EltTy.bits .f32 = 32 ∨ (Rect.block (s := S2048x64) S256x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x64.size a ≤ S2048x64.size a
  hwx5_1 : ∀ i : grid5.Coords, EltTy.bits .f32 = 32 ∨ (Rect.block (s := S2048x64) S2048x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2048.size a ≤ S1x2048.size a
  hwx5_2 : ∀ i : grid5.Coords, EltTy.bits .f32 = 32 ∨ (Rect.block (s := S1x2048) S1x2048.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x64.size a ≤ S2048x64.size a
  hwx6_0 : ∀ i : grid6.Coords, EltTy.bits .f32 = 32 ∨ (Rect.block (s := S2048x64) S256x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x64.size a ≤ S2048x64.size a
  hwx6_1 : ∀ i : grid6.Coords, EltTy.bits .f32 = 32 ∨ (Rect.block (s := S2048x64) S2048x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2048.size a ≤ S1x2048.size a
  hwx6_2 : ∀ i : grid6.Coords, EltTy.bits .f32 = 32 ∨ (Rect.block (s := S1x2048) S1x2048.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x64.size a ≤ S2048x64.size a
  hwx7_0 : ∀ i : grid7.Coords, EltTy.bits .f32 = 32 ∨ (Rect.block (s := S2048x64) S256x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2048x64.size a ≤ S2048x64.size a
  hwx7_1 : ∀ i : grid7.Coords, EltTy.bits .f32 = 32 ∨ (Rect.block (s := S2048x64) S2048x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x2048.size a ≤ S1x2048.size a
  hwx7_2 : ∀ i : grid7.Coords, EltTy.bits .f32 = 32 ∨ (Rect.block (s := S1x2048) S1x2048.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)

variable [Facts₀]

def gather_S300000x64_S2000000x1_S2000000x64_1_0_n_n_0_1_164 : GatherDims S300000x64 S2000000x1 S2000000x64 where
  offsetDims := [1]
  collapsedSliceDims := [0]
  operandBatchingDims := []
  startIndicesBatchingDims := []
  startIndexMap := [0]
  indexVectorDim := 1
  sliceSizes := ![1, 64]
  wf := gather_S300000x64_S2000000x1_S2000000x64_1_0_n_n_0_1_164_wf
def scatter_S300000x64_S2000000x1_S2000000x64_1_0_0_1 : ScatterDims S300000x64 S2000000x1 S2000000x64 where
  updateWindowDims := [1]
  insertedWindowDims := [0]
  scatterDimsToOperandDims := [0]
  indexVectorDim := 1
  wf := scatter_S300000x64_S2000000x1_S2000000x64_1_0_0_1_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def gather_S50000x64_S2048x2x1_S2048x2x64_2_0_n_n_0_2_164 : GatherDims S50000x64 S2048x2x1 S2048x2x64 where
  offsetDims := [2]
  collapsedSliceDims := [0]
  operandBatchingDims := []
  startIndicesBatchingDims := []
  startIndexMap := [0]
  indexVectorDim := 2
  sliceSizes := ![1, 64]
  wf := gather_S50000x64_S2048x2x1_S2048x2x64_2_0_n_n_0_2_164_wf
def gather_S50000_S2048x2x1_S2048x2_n_0_n_n_0_2_1 : GatherDims S50000 S2048x2x1 S2048x2 where
  offsetDims := []
  collapsedSliceDims := [0]
  operandBatchingDims := []
  startIndicesBatchingDims := []
  startIndexMap := [0]
  indexVectorDim := 2
  sliceSizes := ![1]
  wf := gather_S50000_S2048x2x1_S2048x2_n_0_n_n_0_2_1_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54_1) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v158) S256x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v158) S2048x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v161) S1x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v162) S1x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v168) S256x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v168) S2048x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v171) S1x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v172) S1x1.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v212) S256x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v212) S2048x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v215) S1x2048.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v216) S1x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v222) S256x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v222) S2048x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v225) S1x2048.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v226) S1x1.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

class Facts : Prop extends Facts₀ where

variable [Facts]
-- ==== ReferenceIdeal.lean ====
abbrev S100000x64 : Shape := ⟨2, ![100000, 64]⟩
abbrev S200000x64 : Shape := ⟨2, ![200000, 64]⟩
abbrev S50000x64 : Shape := ⟨2, ![50000, 64]⟩
abbrev S50000 : Shape := ⟨1, ![50000]⟩
abbrev S2000000 : Shape := ⟨1, ![2000000]⟩
abbrev S1000000 : Shape := ⟨1, ![1000000]⟩
abbrev S2048x1 : Shape := ⟨2, ![2048, 1]⟩
abbrev S2048x2 : Shape := ⟨2, ![2048, 2]⟩
abbrev S300000x64 : Shape := ⟨2, ![300000, 64]⟩
abbrev S2000000x1 : Shape := ⟨2, ![2000000, 1]⟩
abbrev S_ : Shape := ⟨0, ![]⟩
abbrev S2000000x64 : Shape := ⟨2, ![2000000, 64]⟩
abbrev S300000 : Shape := ⟨1, ![300000]⟩
abbrev S300000x1 : Shape := ⟨2, ![300000, 1]⟩
abbrev S150000x64 : Shape := ⟨2, ![150000, 64]⟩
abbrev S1000000x1 : Shape := ⟨2, ![1000000, 1]⟩
abbrev S1000000x64 : Shape := ⟨2, ![1000000, 64]⟩
abbrev S150000 : Shape := ⟨1, ![150000]⟩
abbrev S150000x1 : Shape := ⟨2, ![150000, 1]⟩
abbrev S2048x2x1 : Shape := ⟨3, ![2048, 2, 1]⟩
abbrev S2048x2x64 : Shape := ⟨3, ![2048, 2, 64]⟩
abbrev S2048 : Shape := ⟨1, ![2048]⟩
abbrev S2048x1x64 : Shape := ⟨3, ![2048, 1, 64]⟩
abbrev S2048x64 : Shape := ⟨2, ![2048, 64]⟩
abbrev S1x2048 : Shape := ⟨2, ![1, 2048]⟩
abbrev S2048x2048 : Shape := ⟨2, ![2048, 2048]⟩
abbrev S64x2048 : Shape := ⟨2, ![64, 2048]⟩
abbrev S1 : Shape := ⟨1, ![1]⟩
abbrev S2 : Shape := ⟨1, ![2]⟩

abbrev nBuf : Space → Nat
  | .hbm => 528
  | .vmem => 0
  | .smem => 0
  | _ => 0

abbrev hbmTy0_0 (i : Nat) : BufTy := match i % 128 with
  | 0 => ⟨S100000x64, .f32⟩
  | 1 => ⟨S200000x64, .f32⟩
  | 2 => ⟨S50000x64, .f32⟩
  | 3 => ⟨S50000, .f32⟩
  | 4 => ⟨S2000000, .f32⟩
  | 5 => ⟨S1000000, .f32⟩
  | 6 => ⟨S1000000, .f32⟩
  | 7 => ⟨S2048x1, .i32⟩
  | 8 => ⟨S2048x2, .i32⟩
  | 9 => ⟨S2000000, .i32⟩
  | 10 => ⟨S2000000, .i32⟩
  | 11 => ⟨S1000000, .i32⟩
  | 12 => ⟨S1000000, .i32⟩
  | 13 => ⟨S1000000, .i32⟩
  | 14 => ⟨S1000000, .i32⟩
  | 15 => ⟨S300000x64, .f32⟩
  | 16 => ⟨S2000000x1, .f32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S2000000x64, .f32⟩
  | 26 => ⟨S2000000x64, .f32⟩
  | 27 => ⟨S2000000x64, .f32⟩
  | 28 => ⟨S_, .f32⟩
  | 29 => ⟨S300000x64, .f32⟩
  | 30 => ⟨S2000000x1, .i32⟩
  | 31 => ⟨S300000x64, .f32⟩
  | 32 => ⟨S_, .f32⟩
  | 33 => ⟨S300000x64, .f32⟩
  | 34 => ⟨S300000x64, .f32⟩
  | 35 => ⟨S300000x64, .f32⟩
  | 36 => ⟨S_, .f32⟩
  | 37 => ⟨S300000, .f32⟩
  | 38 => ⟨S300000x1, .f32⟩
  | 39 => ⟨S300000x1, .f32⟩
  | 40 => ⟨S_, .f32⟩
  | 41 => ⟨S300000x1, .f32⟩
  | 42 => ⟨S300000x1, .f32⟩
  | 43 => ⟨S300000x64, .f32⟩
  | 44 => ⟨S300000x64, .f32⟩
  | 45 => ⟨S300000x64, .f32⟩
  | 46 => ⟨S2000000x1, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .f32⟩
  | 56 => ⟨S2000000x64, .f32⟩
  | 57 => ⟨S2000000x64, .f32⟩
  | 58 => ⟨S_, .f32⟩
  | 59 => ⟨S300000x64, .f32⟩
  | 60 => ⟨S2000000x1, .i32⟩
  | 61 => ⟨S300000x64, .f32⟩
  | 62 => ⟨S_, .f32⟩
  | 63 => ⟨S300000x64, .f32⟩
  | 64 => ⟨S300000x64, .f32⟩
  | 65 => ⟨S300000x64, .f32⟩
  | 66 => ⟨S_, .f32⟩
  | 67 => ⟨S300000, .f32⟩
  | 68 => ⟨S300000x1, .f32⟩
  | 69 => ⟨S300000x1, .f32⟩
  | 70 => ⟨S_, .f32⟩
  | 71 => ⟨S300000x1, .f32⟩
  | 72 => ⟨S300000x1, .f32⟩
  | 73 => ⟨S300000x64, .f32⟩
  | 74 => ⟨S300000x64, .f32⟩
  | 75 => ⟨S300000x64, .f32⟩
  | 76 => ⟨S100000x64, .f32⟩
  | 77 => ⟨S200000x64, .f32⟩
  | 78 => ⟨S150000x64, .f32⟩
  | 79 => ⟨S1000000x1, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000x64, .f32⟩
  | 89 => ⟨S1000000x64, .f32⟩
  | 90 => ⟨S1000000x64, .f32⟩
  | 91 => ⟨S_, .f32⟩
  | 92 => ⟨S150000x64, .f32⟩
  | 93 => ⟨S1000000x1, .i32⟩
  | 94 => ⟨S150000x64, .f32⟩
  | 95 => ⟨S_, .f32⟩
  | 96 => ⟨S150000x64, .f32⟩
  | 97 => ⟨S150000x64, .f32⟩
  | 98 => ⟨S150000x64, .f32⟩
  | 99 => ⟨S_, .f32⟩
  | 100 => ⟨S150000, .f32⟩
  | 101 => ⟨S150000x1, .f32⟩
  | 102 => ⟨S150000x1, .f32⟩
  | 103 => ⟨S_, .f32⟩
  | 104 => ⟨S150000x1, .f32⟩
  | 105 => ⟨S150000x1, .f32⟩
  | 106 => ⟨S150000x64, .f32⟩
  | 107 => ⟨S150000x64, .f32⟩
  | 108 => ⟨S150000x64, .f32⟩
  | 109 => ⟨S1000000x1, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x64, .f32⟩
  | 119 => ⟨S1000000x64, .f32⟩
  | 120 => ⟨S1000000x64, .f32⟩
  | 121 => ⟨S_, .f32⟩
  | 122 => ⟨S150000x64, .f32⟩
  | 123 => ⟨S1000000x1, .i32⟩
  | 124 => ⟨S150000x64, .f32⟩
  | 125 => ⟨S_, .f32⟩
  | 126 => ⟨S150000x64, .f32⟩
  | 127 => ⟨S150000x64, .f32⟩
  | _ => ⟨S100000x64, .f32⟩

abbrev hbmTy0_1 (i : Nat) : BufTy := match i % 128 with
  | 0 => ⟨S150000x64, .f32⟩
  | 1 => ⟨S_, .f32⟩
  | 2 => ⟨S150000, .f32⟩
  | 3 => ⟨S150000x1, .f32⟩
  | 4 => ⟨S150000x1, .f32⟩
  | 5 => ⟨S_, .f32⟩
  | 6 => ⟨S150000x1, .f32⟩
  | 7 => ⟨S150000x1, .f32⟩
  | 8 => ⟨S150000x64, .f32⟩
  | 9 => ⟨S150000x64, .f32⟩
  | 10 => ⟨S150000x64, .f32⟩
  | 11 => ⟨S100000x64, .f32⟩
  | 12 => ⟨S50000x64, .f32⟩
  | 13 => ⟨S1000000x1, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S1000000x64, .f32⟩
  | 24 => ⟨S1000000x64, .f32⟩
  | 25 => ⟨S_, .f32⟩
  | 26 => ⟨S50000x64, .f32⟩
  | 27 => ⟨S1000000x1, .i32⟩
  | 28 => ⟨S50000x64, .f32⟩
  | 29 => ⟨S_, .i32⟩
  | 30 => ⟨S2048x2, .i32⟩
  | 31 => ⟨S2048x2, .i1⟩
  | 32 => ⟨S_, .i32⟩
  | 33 => ⟨S2048x2, .i32⟩
  | 34 => ⟨S2048x2, .i32⟩
  | 35 => ⟨S2048x2, .i32⟩
  | 36 => ⟨S2048x2x1, .i32⟩
  | 37 => ⟨S2048x2x64, .f32⟩
  | 38 => ⟨S_, .i32⟩
  | 39 => ⟨S2048x2, .i32⟩
  | 40 => ⟨S2048x2, .i1⟩
  | 41 => ⟨S_, .i32⟩
  | 42 => ⟨S2048x2, .i32⟩
  | 43 => ⟨S2048x2, .i32⟩
  | 44 => ⟨S2048x2, .i32⟩
  | 45 => ⟨S2048x2x1, .i32⟩
  | 46 => ⟨S2048x2x64, .f32⟩
  | 47 => ⟨S_, .f32⟩
  | 48 => ⟨S50000, .f32⟩
  | 49 => ⟨S50000, .f32⟩
  | 50 => ⟨S50000, .f32⟩
  | 51 => ⟨S_, .i32⟩
  | 52 => ⟨S2048x2, .i32⟩
  | 53 => ⟨S2048x2, .i1⟩
  | 54 => ⟨S_, .i32⟩
  | 55 => ⟨S2048x2, .i32⟩
  | 56 => ⟨S2048x2, .i32⟩
  | 57 => ⟨S2048x2, .i32⟩
  | 58 => ⟨S2048x2x1, .i32⟩
  | 59 => ⟨S2048x2, .f32⟩
  | 60 => ⟨S_, .f32⟩
  | 61 => ⟨S2048x2, .f32⟩
  | 62 => ⟨S2048x2, .f32⟩
  | 63 => ⟨S2048x2x1, .f32⟩
  | 64 => ⟨S2048x2x64, .f32⟩
  | 65 => ⟨S2048x2x64, .f32⟩
  | 66 => ⟨S2048x2x64, .f32⟩
  | 67 => ⟨S_, .f32⟩
  | 68 => ⟨S2048x2, .f32⟩
  | 69 => ⟨S2048x2x1, .f32⟩
  | 70 => ⟨S2048x2x64, .f32⟩
  | 71 => ⟨S2048x2x64, .f32⟩
  | 72 => ⟨S2048x2x64, .f32⟩
  | 73 => ⟨S_, .f32⟩
  | 74 => ⟨S2048x2, .f32⟩
  | 75 => ⟨S2048x2, .f32⟩
  | 76 => ⟨S2048x1, .f32⟩
  | 77 => ⟨S2048, .f32⟩
  | 78 => ⟨S2048x1, .f32⟩
  | 79 => ⟨S2048, .f32⟩
  | 80 => ⟨S2048, .f32⟩
  | 81 => ⟨S2048, .f32⟩
  | 82 => ⟨S_, .f32⟩
  | 83 => ⟨S2048, .f32⟩
  | 84 => ⟨S2048, .f32⟩
  | 85 => ⟨S2048, .f32⟩
  | 86 => ⟨S2048, .f32⟩
  | 87 => ⟨S2048, .i1⟩
  | 88 => ⟨S2048, .f32⟩
  | 89 => ⟨S2048, .f32⟩
  | 90 => ⟨S2048, .f32⟩
  | 91 => ⟨S2048, .f32⟩
  | 92 => ⟨S2048, .f32⟩
  | 93 => ⟨S2048, .f32⟩
  | 94 => ⟨S2048, .f32⟩
  | 95 => ⟨S2048, .f32⟩
  | 96 => ⟨S2048, .f32⟩
  | 97 => ⟨S_, .f32⟩
  | 98 => ⟨S_, .f32⟩
  | 99 => ⟨S_, .f32⟩
  | 100 => ⟨S_, .f32⟩
  | 101 => ⟨S_, .f32⟩
  | 102 => ⟨S2048x1x64, .f32⟩
  | 103 => ⟨S2048x64, .f32⟩
  | 104 => ⟨S2048x1x64, .f32⟩
  | 105 => ⟨S2048x64, .f32⟩
  | 106 => ⟨S2048x64, .f32⟩
  | 107 => ⟨S_, .f32⟩
  | 108 => ⟨S2048, .f32⟩
  | 109 => ⟨S2048x1, .f32⟩
  | 110 => ⟨S2048x1, .f32⟩
  | 111 => ⟨S_, .f32⟩
  | 112 => ⟨S2048x1, .f32⟩
  | 113 => ⟨S2048x1, .f32⟩
  | 114 => ⟨S2048x64, .f32⟩
  | 115 => ⟨S2048x64, .f32⟩
  | 116 => ⟨S2048x64, .f32⟩
  | 117 => ⟨S_, .f32⟩
  | 118 => ⟨S2048, .f32⟩
  | 119 => ⟨S2048x1, .f32⟩
  | 120 => ⟨S2048x1, .f32⟩
  | 121 => ⟨S_, .f32⟩
  | 122 => ⟨S2048x1, .f32⟩
  | 123 => ⟨S2048x1, .f32⟩
  | 124 => ⟨S2048x64, .f32⟩
  | 125 => ⟨S2048x64, .f32⟩
  | 126 => ⟨S2048x64, .f32⟩
  | 127 => ⟨S2048x64, .f32⟩
  | _ => ⟨S100000x64, .f32⟩

abbrev hbmTy0_2 (i : Nat) : BufTy := match i % 128 with
  | 0 => ⟨S_, .f32⟩
  | 1 => ⟨S2048, .f32⟩
  | 2 => ⟨S_, .f32⟩
  | 3 => ⟨S_, .f32⟩
  | 4 => ⟨S_, .f32⟩
  | 5 => ⟨S_, .f32⟩
  | 6 => ⟨S2048x64, .f32⟩
  | 7 => ⟨S_, .f32⟩
  | 8 => ⟨S2048, .f32⟩
  | 9 => ⟨S2048x1, .f32⟩
  | 10 => ⟨S2048x1, .f32⟩
  | 11 => ⟨S_, .f32⟩
  | 12 => ⟨S2048x1, .f32⟩
  | 13 => ⟨S2048x1, .f32⟩
  | 14 => ⟨S2048x64, .f32⟩
  | 15 => ⟨S2048x64, .f32⟩
  | 16 => ⟨S2048x64, .f32⟩
  | 17 => ⟨S_, .f32⟩
  | 18 => ⟨S2048, .f32⟩
  | 19 => ⟨S2048x1, .f32⟩
  | 20 => ⟨S1x2048, .f32⟩
  | 21 => ⟨S2048x2048, .f32⟩
  | 22 => ⟨S2048x2048, .f32⟩
  | 23 => ⟨S2048x2048, .f32⟩
  | 24 => ⟨S64x2048, .f32⟩
  | 25 => ⟨S2048x2048, .f32⟩
  | 26 => ⟨S_, .f32⟩
  | 27 => ⟨S2048x2048, .f32⟩
  | 28 => ⟨S2048x2048, .f32⟩
  | 29 => ⟨S2048x2048, .f32⟩
  | 30 => ⟨S_, .f32⟩
  | 31 => ⟨S2048x2048, .f32⟩
  | 32 => ⟨S2048x2048, .f32⟩
  | 33 => ⟨S_, .i1⟩
  | 34 => ⟨S2048x2048, .i1⟩
  | 35 => ⟨S2048x2048, .i32⟩
  | 36 => ⟨S_, .i32⟩
  | 37 => ⟨S2048x2048, .i32⟩
  | 38 => ⟨S2048x2048, .i32⟩
  | 39 => ⟨S2048x2048, .i32⟩
  | 40 => ⟨S2048x2048, .i1⟩
  | 41 => ⟨S_, .i1⟩
  | 42 => ⟨S2048x2048, .i1⟩
  | 43 => ⟨S2048x2048, .i1⟩
  | 44 => ⟨S_, .f32⟩
  | 45 => ⟨S2048x2048, .f32⟩
  | 46 => ⟨S2048x2048, .f32⟩
  | 47 => ⟨S2048x2048, .f32⟩
  | 48 => ⟨S_, .f32⟩
  | 49 => ⟨S_, .f32⟩
  | 50 => ⟨S2048x2048, .f32⟩
  | 51 => ⟨S2048x2048, .f32⟩
  | 52 => ⟨S_, .f32⟩
  | 53 => ⟨S_, .f32⟩
  | 54 => ⟨S_, .f32⟩
  | 55 => ⟨S_, .f32⟩
  | 56 => ⟨S_, .f32⟩
  | 57 => ⟨S2048x64, .f32⟩
  | 58 => ⟨S_, .f32⟩
  | 59 => ⟨S2048, .f32⟩
  | 60 => ⟨S2048x1, .f32⟩
  | 61 => ⟨S2048x1, .f32⟩
  | 62 => ⟨S_, .f32⟩
  | 63 => ⟨S2048x1, .f32⟩
  | 64 => ⟨S2048x1, .f32⟩
  | 65 => ⟨S2048x64, .f32⟩
  | 66 => ⟨S2048x64, .f32⟩
  | 67 => ⟨S2048x64, .f32⟩
  | 68 => ⟨S_, .f32⟩
  | 69 => ⟨S2048, .f32⟩
  | 70 => ⟨S2048x1, .f32⟩
  | 71 => ⟨S1x2048, .f32⟩
  | 72 => ⟨S2048x2048, .f32⟩
  | 73 => ⟨S2048x2048, .f32⟩
  | 74 => ⟨S2048x2048, .f32⟩
  | 75 => ⟨S64x2048, .f32⟩
  | 76 => ⟨S2048x2048, .f32⟩
  | 77 => ⟨S_, .f32⟩
  | 78 => ⟨S2048x2048, .f32⟩
  | 79 => ⟨S2048x2048, .f32⟩
  | 80 => ⟨S2048x2048, .f32⟩
  | 81 => ⟨S_, .f32⟩
  | 82 => ⟨S2048x2048, .f32⟩
  | 83 => ⟨S2048x2048, .f32⟩
  | 84 => ⟨S_, .i1⟩
  | 85 => ⟨S2048x2048, .i1⟩
  | 86 => ⟨S2048x2048, .i32⟩
  | 87 => ⟨S_, .i32⟩
  | 88 => ⟨S2048x2048, .i32⟩
  | 89 => ⟨S2048x2048, .i32⟩
  | 90 => ⟨S2048x2048, .i32⟩
  | 91 => ⟨S2048x2048, .i1⟩
  | 92 => ⟨S_, .i1⟩
  | 93 => ⟨S2048x2048, .i1⟩
  | 94 => ⟨S2048x2048, .i1⟩
  | 95 => ⟨S_, .f32⟩
  | 96 => ⟨S2048x2048, .f32⟩
  | 97 => ⟨S2048x2048, .f32⟩
  | 98 => ⟨S2048x2048, .f32⟩
  | 99 => ⟨S_, .f32⟩
  | 100 => ⟨S_, .f32⟩
  | 101 => ⟨S2048x2048, .f32⟩
  | 102 => ⟨S2048x2048, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S2048, .i32⟩
  | 113 => ⟨S_, .i32⟩
  | 114 => ⟨S2048, .i32⟩
  | 115 => ⟨S2048, .i1⟩
  | 116 => ⟨S_, .i32⟩
  | 117 => ⟨S2048, .i32⟩
  | 118 => ⟨S2048, .i32⟩
  | 119 => ⟨S2048, .i32⟩
  | 120 => ⟨S2048x1, .i32⟩
  | 121 => ⟨S2048x64, .f32⟩
  | 122 => ⟨S2048, .i32⟩
  | 123 => ⟨S_, .i32⟩
  | 124 => ⟨S2048, .i32⟩
  | 125 => ⟨S2048, .i1⟩
  | 126 => ⟨S_, .i32⟩
  | 127 => ⟨S2048, .i32⟩
  | _ => ⟨S100000x64, .f32⟩

abbrev hbmTy0_3 (i : Nat) : BufTy := match i % 128 with
  | 0 => ⟨S2048, .i32⟩
  | 1 => ⟨S2048, .i32⟩
  | 2 => ⟨S2048x1, .i32⟩
  | 3 => ⟨S2048x64, .f32⟩
  | 4 => ⟨S2048x64, .f32⟩
  | 5 => ⟨S_, .f32⟩
  | 6 => ⟨S2048, .f32⟩
  | 7 => ⟨S2048x1, .f32⟩
  | 8 => ⟨S2048x1, .f32⟩
  | 9 => ⟨S_, .f32⟩
  | 10 => ⟨S2048x1, .f32⟩
  | 11 => ⟨S2048x1, .f32⟩
  | 12 => ⟨S2048x64, .f32⟩
  | 13 => ⟨S2048x64, .f32⟩
  | 14 => ⟨S2048x64, .f32⟩
  | 15 => ⟨S_, .f32⟩
  | 16 => ⟨S2048, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S2048x64, .f32⟩
  | 23 => ⟨S2048x64, .f32⟩
  | 24 => ⟨S2048x64, .f32⟩
  | 25 => ⟨S2048x64, .f32⟩
  | 26 => ⟨S_, .f32⟩
  | 27 => ⟨S2048, .f32⟩
  | 28 => ⟨S_, .f32⟩
  | 29 => ⟨S_, .f32⟩
  | 30 => ⟨S_, .f32⟩
  | 31 => ⟨S_, .f32⟩
  | 32 => ⟨S2048x64, .f32⟩
  | 33 => ⟨S_, .f32⟩
  | 34 => ⟨S2048, .f32⟩
  | 35 => ⟨S2048x1, .f32⟩
  | 36 => ⟨S2048x1, .f32⟩
  | 37 => ⟨S_, .f32⟩
  | 38 => ⟨S2048x1, .f32⟩
  | 39 => ⟨S2048x1, .f32⟩
  | 40 => ⟨S2048x64, .f32⟩
  | 41 => ⟨S2048x64, .f32⟩
  | 42 => ⟨S2048x64, .f32⟩
  | 43 => ⟨S_, .f32⟩
  | 44 => ⟨S2048, .f32⟩
  | 45 => ⟨S2048x1, .f32⟩
  | 46 => ⟨S1x2048, .f32⟩
  | 47 => ⟨S2048x2048, .f32⟩
  | 48 => ⟨S2048x2048, .f32⟩
  | 49 => ⟨S2048x2048, .f32⟩
  | 50 => ⟨S64x2048, .f32⟩
  | 51 => ⟨S2048x2048, .f32⟩
  | 52 => ⟨S_, .f32⟩
  | 53 => ⟨S2048x2048, .f32⟩
  | 54 => ⟨S2048x2048, .f32⟩
  | 55 => ⟨S2048x2048, .f32⟩
  | 56 => ⟨S_, .f32⟩
  | 57 => ⟨S2048x2048, .f32⟩
  | 58 => ⟨S2048x2048, .f32⟩
  | 59 => ⟨S_, .i1⟩
  | 60 => ⟨S2048x2048, .i1⟩
  | 61 => ⟨S2048x2048, .i32⟩
  | 62 => ⟨S_, .i32⟩
  | 63 => ⟨S2048x2048, .i32⟩
  | 64 => ⟨S2048x2048, .i32⟩
  | 65 => ⟨S2048x2048, .i32⟩
  | 66 => ⟨S2048x2048, .i1⟩
  | 67 => ⟨S_, .i1⟩
  | 68 => ⟨S2048x2048, .i1⟩
  | 69 => ⟨S2048x2048, .i1⟩
  | 70 => ⟨S_, .f32⟩
  | 71 => ⟨S2048x2048, .f32⟩
  | 72 => ⟨S2048x2048, .f32⟩
  | 73 => ⟨S2048x2048, .f32⟩
  | 74 => ⟨S_, .f32⟩
  | 75 => ⟨S_, .f32⟩
  | 76 => ⟨S2048x2048, .f32⟩
  | 77 => ⟨S2048x2048, .f32⟩
  | 78 => ⟨S_, .f32⟩
  | 79 => ⟨S_, .f32⟩
  | 80 => ⟨S_, .f32⟩
  | 81 => ⟨S_, .f32⟩
  | 82 => ⟨S_, .f32⟩
  | 83 => ⟨S2048x64, .f32⟩
  | 84 => ⟨S_, .f32⟩
  | 85 => ⟨S2048, .f32⟩
  | 86 => ⟨S2048x1, .f32⟩
  | 87 => ⟨S2048x1, .f32⟩
  | 88 => ⟨S_, .f32⟩
  | 89 => ⟨S2048x1, .f32⟩
  | 90 => ⟨S2048x1, .f32⟩
  | 91 => ⟨S2048x64, .f32⟩
  | 92 => ⟨S2048x64, .f32⟩
  | 93 => ⟨S2048x64, .f32⟩
  | 94 => ⟨S_, .f32⟩
  | 95 => ⟨S2048, .f32⟩
  | 96 => ⟨S2048x1, .f32⟩
  | 97 => ⟨S1x2048, .f32⟩
  | 98 => ⟨S2048x2048, .f32⟩
  | 99 => ⟨S2048x2048, .f32⟩
  | 100 => ⟨S2048x2048, .f32⟩
  | 101 => ⟨S64x2048, .f32⟩
  | 102 => ⟨S2048x2048, .f32⟩
  | 103 => ⟨S_, .f32⟩
  | 104 => ⟨S2048x2048, .f32⟩
  | 105 => ⟨S2048x2048, .f32⟩
  | 106 => ⟨S2048x2048, .f32⟩
  | 107 => ⟨S_, .f32⟩
  | 108 => ⟨S2048x2048, .f32⟩
  | 109 => ⟨S2048x2048, .f32⟩
  | 110 => ⟨S_, .i1⟩
  | 111 => ⟨S2048x2048, .i1⟩
  | 112 => ⟨S2048x2048, .i32⟩
  | 113 => ⟨S_, .i32⟩
  | 114 => ⟨S2048x2048, .i32⟩
  | 115 => ⟨S2048x2048, .i32⟩
  | 116 => ⟨S2048x2048, .i32⟩
  | 117 => ⟨S2048x2048, .i1⟩
  | 118 => ⟨S_, .i1⟩
  | 119 => ⟨S2048x2048, .i1⟩
  | 120 => ⟨S2048x2048, .i1⟩
  | 121 => ⟨S_, .f32⟩
  | 122 => ⟨S2048x2048, .f32⟩
  | 123 => ⟨S2048x2048, .f32⟩
  | 124 => ⟨S2048x2048, .f32⟩
  | 125 => ⟨S_, .f32⟩
  | 126 => ⟨S_, .f32⟩
  | 127 => ⟨S2048x2048, .f32⟩
  | _ => ⟨S100000x64, .f32⟩

abbrev hbmTy0_4 (i : Nat) : BufTy := match i % 128 with
  | 0 => ⟨S2048x2048, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S1, .f32⟩
  | 14 => ⟨S1, .f32⟩
  | 15 => ⟨S2, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_3 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_call1_v0 : Ref sig .tc := ⟨.hbm, 65, rfl⟩
abbrev main_call1_cst : Ref sig .tc := ⟨.hbm, 66, rfl⟩
abbrev main_call1_v1 : Ref sig .tc := ⟨.hbm, 67, rfl⟩
abbrev main_call1_v2 : Ref sig .tc := ⟨.hbm, 68, rfl⟩
abbrev main_v37 : Ref sig .tc := ⟨.hbm, 69, rfl⟩
abbrev main_cst_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_8 : Ref sig .tc := ⟨.hbm, 80, rfl⟩
abbrev main_v47 : Ref sig .tc := ⟨.hbm, 81, rfl⟩
abbrev main_v48 : Ref sig .tc := ⟨.hbm, 82, rfl⟩
abbrev main_c_9 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_10 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_call2_v0 : Ref sig .tc := ⟨.hbm, 98, rfl⟩
abbrev main_call2_cst : Ref sig .tc := ⟨.hbm, 99, rfl⟩
abbrev main_call2_v1 : Ref sig .tc := ⟨.hbm, 100, rfl⟩
abbrev main_call2_v2 : Ref sig .tc := ⟨.hbm, 101, rfl⟩
abbrev main_v61 : Ref sig .tc := ⟨.hbm, 102, rfl⟩
abbrev main_cst_12 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_c_13 : Ref sig .tc := ⟨.hbm, 110, rfl⟩
abbrev main_v68 : Ref sig .tc := ⟨.hbm, 111, rfl⟩
abbrev main_v69 : Ref sig .tc := ⟨.hbm, 112, rfl⟩
abbrev main_c_14 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_15 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_16 : Ref sig .tc := ⟨.hbm, 125, rfl⟩
abbrev main_v80 : Ref sig .tc := ⟨.hbm, 126, rfl⟩
abbrev main_v81 : Ref sig .tc := ⟨.hbm, 127, rfl⟩
abbrev main_call3_v0 : Ref sig .tc := ⟨.hbm, 128, rfl⟩
abbrev main_call3_cst : Ref sig .tc := ⟨.hbm, 129, rfl⟩
abbrev main_call3_v1 : Ref sig .tc := ⟨.hbm, 130, rfl⟩
abbrev main_call3_v2 : Ref sig .tc := ⟨.hbm, 131, rfl⟩
abbrev main_v82 : Ref sig .tc := ⟨.hbm, 132, rfl⟩
abbrev main_cst_17 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_c_18 : Ref sig .tc := ⟨.hbm, 142, rfl⟩
abbrev main_v91 : Ref sig .tc := ⟨.hbm, 143, rfl⟩
abbrev main_v92 : Ref sig .tc := ⟨.hbm, 144, rfl⟩
abbrev main_c_19 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_20 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_c_21 : Ref sig .tc := ⟨.hbm, 157, rfl⟩
abbrev main_v103 : Ref sig .tc := ⟨.hbm, 158, rfl⟩
abbrev main_v104 : Ref sig .tc := ⟨.hbm, 159, rfl⟩
abbrev main_c_22 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_c_23 : Ref sig .tc := ⟨.hbm, 166, rfl⟩
abbrev main_v110 : Ref sig .tc := ⟨.hbm, 167, rfl⟩
abbrev main_v111 : Ref sig .tc := ⟨.hbm, 168, rfl⟩
abbrev main_c_24 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_25 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_c_26 : Ref sig .tc := ⟨.hbm, 179, rfl⟩
abbrev main_v120 : Ref sig .tc := ⟨.hbm, 180, rfl⟩
abbrev main_v121 : Ref sig .tc := ⟨.hbm, 181, rfl⟩
abbrev main_c_27 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst_28 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_29 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_30 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_call4_v0 : Ref sig .tc := ⟨.hbm, 209, rfl⟩
abbrev main_call4_call0_cst : Ref sig .tc := ⟨.hbm, 210, rfl⟩
abbrev main_call4_call0_v0 : Ref sig .tc := ⟨.hbm, 211, rfl⟩
abbrev main_call4_call0_v1 : Ref sig .tc := ⟨.hbm, 212, rfl⟩
abbrev main_call4_call0_v2 : Ref sig .tc := ⟨.hbm, 213, rfl⟩
abbrev main_call4_call0_v3 : Ref sig .tc := ⟨.hbm, 214, rfl⟩
abbrev main_call4_call0_v4 : Ref sig .tc := ⟨.hbm, 215, rfl⟩
abbrev main_call4_call0_v5 : Ref sig .tc := ⟨.hbm, 216, rfl⟩
abbrev main_call4_call0_v6 : Ref sig .tc := ⟨.hbm, 217, rfl⟩
abbrev main_call4_call0_v7 : Ref sig .tc := ⟨.hbm, 218, rfl⟩
abbrev main_call4_call0_v8 : Ref sig .tc := ⟨.hbm, 219, rfl⟩
abbrev main_call4_call0_v9 : Ref sig .tc := ⟨.hbm, 220, rfl⟩
abbrev main_call4_call0_v10 : Ref sig .tc := ⟨.hbm, 221, rfl⟩
abbrev main_call4_call0_v11 : Ref sig .tc := ⟨.hbm, 222, rfl⟩
abbrev main_call4_v1 : Ref sig .tc := ⟨.hbm, 223, rfl⟩
abbrev main_v145 : Ref sig .tc := ⟨.hbm, 224, rfl⟩
abbrev main_cst_31 : Ref sig .tc := ⟨.hbm, 225, rfl⟩
abbrev main_v146 : Ref sig .tc := ⟨.hbm, 226, rfl⟩
abbrev main_cst_32 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_call5_v0 : Ref sig .tc := ⟨.hbm, 234, rfl⟩
abbrev main_call5_cst : Ref sig .tc := ⟨.hbm, 235, rfl⟩
abbrev main_call5_v1 : Ref sig .tc := ⟨.hbm, 236, rfl⟩
abbrev main_call5_v2 : Ref sig .tc := ⟨.hbm, 237, rfl⟩
abbrev main_v153 : Ref sig .tc := ⟨.hbm, 238, rfl⟩
abbrev main_cst_33 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_call6_v0 : Ref sig .tc := ⟨.hbm, 244, rfl⟩
abbrev main_call6_cst : Ref sig .tc := ⟨.hbm, 245, rfl⟩
abbrev main_call6_v1 : Ref sig .tc := ⟨.hbm, 246, rfl⟩
abbrev main_call6_v2 : Ref sig .tc := ⟨.hbm, 247, rfl⟩
abbrev main_v158 : Ref sig .tc := ⟨.hbm, 248, rfl⟩
abbrev main_cst_34 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_cst_35 : Ref sig .tc := ⟨.hbm, 256, rfl⟩
abbrev main_v165 : Ref sig .tc := ⟨.hbm, 257, rfl⟩
abbrev main_cst_36 : Ref sig .tc := ⟨.hbm, 258, rfl⟩
abbrev main_v166 : Ref sig .tc := ⟨.hbm, 259, rfl⟩
abbrev main_cst_37 : Ref sig .tc := ⟨.hbm, 260, rfl⟩
abbrev main_v167 : Ref sig .tc := ⟨.hbm, 261, rfl⟩
abbrev main_call7_v0 : Ref sig .tc := ⟨.hbm, 262, rfl⟩
abbrev main_call7_cst : Ref sig .tc := ⟨.hbm, 263, rfl⟩
abbrev main_call7_v1 : Ref sig .tc := ⟨.hbm, 264, rfl⟩
abbrev main_call7_v2 : Ref sig .tc := ⟨.hbm, 265, rfl⟩
abbrev main_v168 : Ref sig .tc := ⟨.hbm, 266, rfl⟩
abbrev main_cst_38 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_cst_39 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_cst_40 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_cst_41 : Ref sig .tc := ⟨.hbm, 286, rfl⟩
abbrev main_v185 : Ref sig .tc := ⟨.hbm, 287, rfl⟩
abbrev main_v186 : Ref sig .tc := ⟨.hbm, 288, rfl⟩
abbrev main_c_42 : Ref sig .tc := ⟨.hbm, 289, rfl⟩
abbrev main_v187 : Ref sig .tc := ⟨.hbm, 290, rfl⟩
abbrev main_call8_v0 : Ref sig .tc := ⟨.hbm, 291, rfl⟩
abbrev main_call8_c : Ref sig .tc := ⟨.hbm, 292, rfl⟩
abbrev main_call8_v1 : Ref sig .tc := ⟨.hbm, 293, rfl⟩
abbrev main_call8_v2 : Ref sig .tc := ⟨.hbm, 294, rfl⟩
abbrev main_call8_v3 : Ref sig .tc := ⟨.hbm, 295, rfl⟩
abbrev main_call8_v4 : Ref sig .tc := ⟨.hbm, 296, rfl⟩
abbrev main_call8_c_0 : Ref sig .tc := ⟨.hbm, 297, rfl⟩
abbrev main_call8_v5 : Ref sig .tc := ⟨.hbm, 298, rfl⟩
abbrev main_v188 : Ref sig .tc := ⟨.hbm, 299, rfl⟩
abbrev main_cst_43 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_cst_44 : Ref sig .tc := ⟨.hbm, 304, rfl⟩
abbrev main_call9_v0 : Ref sig .tc := ⟨.hbm, 305, rfl⟩
abbrev main_call9_v1 : Ref sig .tc := ⟨.hbm, 306, rfl⟩
abbrev main_v192 : Ref sig .tc := ⟨.hbm, 307, rfl⟩
abbrev main_cst_45 : Ref sig .tc := ⟨.hbm, 308, rfl⟩
abbrev main_v193 : Ref sig .tc := ⟨.hbm, 309, rfl⟩
abbrev main_cst_46 : Ref sig .tc := ⟨.hbm, 310, rfl⟩
abbrev main_v194 : Ref sig .tc := ⟨.hbm, 311, rfl⟩
abbrev main_v195 : Ref sig .tc := ⟨.hbm, 312, rfl⟩
abbrev main_call10_v0 : Ref sig .tc := ⟨.hbm, 313, rfl⟩
abbrev main_call10_cst : Ref sig .tc := ⟨.hbm, 314, rfl⟩
abbrev main_call10_v1 : Ref sig .tc := ⟨.hbm, 315, rfl⟩
abbrev main_call10_v2 : Ref sig .tc := ⟨.hbm, 316, rfl⟩
abbrev main_v196 : Ref sig .tc := ⟨.hbm, 317, rfl⟩
abbrev main_cst_47 : Ref sig .tc := ⟨.hbm, 318, rfl⟩
abbrev main_v197 : Ref sig .tc := ⟨.hbm, 319, rfl⟩
abbrev main_v198 : Ref sig .tc := ⟨.hbm, 320, rfl⟩
abbrev main_v199 : Ref sig .tc := ⟨.hbm, 321, rfl⟩
abbrev main_v200 : Ref sig .tc := ⟨.hbm, 322, rfl⟩
abbrev main_v201 : Ref sig .tc := ⟨.hbm, 323, rfl⟩
abbrev main_cst_48 : Ref sig .tc := ⟨.hbm, 324, rfl⟩
abbrev main_v202 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_cst_49 : Ref sig .tc := ⟨.hbm, 333, rfl⟩
abbrev main_v210 : Ref sig .tc := ⟨.hbm, 334, rfl⟩
abbrev main_v211 : Ref sig .tc := ⟨.hbm, 335, rfl⟩
abbrev main_v212 : Ref sig .tc := ⟨.hbm, 336, rfl⟩
abbrev main_cst_50 : Ref sig .tc := ⟨.hbm, 337, rfl⟩
abbrev main_v213 : Ref sig .tc := ⟨.hbm, 338, rfl⟩
abbrev main_v214 : Ref sig .tc := ⟨.hbm, 339, rfl⟩
abbrev main_c_51 : Ref sig .tc := ⟨.hbm, 340, rfl⟩
abbrev main_v215 : Ref sig .tc := ⟨.hbm, 341, rfl⟩
abbrev main_call11_v0 : Ref sig .tc := ⟨.hbm, 342, rfl⟩
abbrev main_call11_c : Ref sig .tc := ⟨.hbm, 343, rfl⟩
abbrev main_call11_v1 : Ref sig .tc := ⟨.hbm, 344, rfl⟩
abbrev main_call11_v2 : Ref sig .tc := ⟨.hbm, 345, rfl⟩
abbrev main_call11_v3 : Ref sig .tc := ⟨.hbm, 346, rfl⟩
abbrev main_call11_v4 : Ref sig .tc := ⟨.hbm, 347, rfl⟩
abbrev main_call11_c_0 : Ref sig .tc := ⟨.hbm, 348, rfl⟩
abbrev main_call11_v5 : Ref sig .tc := ⟨.hbm, 349, rfl⟩
abbrev main_v216 : Ref sig .tc := ⟨.hbm, 350, rfl⟩
abbrev main_cst_52 : Ref sig .tc := ⟨.hbm, 351, rfl⟩
abbrev main_v217 : Ref sig .tc := ⟨.hbm, 352, rfl⟩
abbrev main_v218 : Ref sig .tc := ⟨.hbm, 353, rfl⟩
abbrev main_v219 : Ref sig .tc := ⟨.hbm, 354, rfl⟩
abbrev main_cst_53 : Ref sig .tc := ⟨.hbm, 355, rfl⟩
abbrev main_call12_v0 : Ref sig .tc := ⟨.hbm, 356, rfl⟩
abbrev main_call12_v1 : Ref sig .tc := ⟨.hbm, 357, rfl⟩
abbrev main_v220 : Ref sig .tc := ⟨.hbm, 358, rfl⟩
abbrev main_cst_54 : Ref sig .tc := ⟨.hbm, 359, rfl⟩
abbrev main_v221 : Ref sig .tc := ⟨.hbm, 360, rfl⟩
abbrev main_cst_55 : Ref sig .tc := ⟨.hbm, 361, rfl⟩
abbrev main_v222 : Ref sig .tc := ⟨.hbm, 362, rfl⟩
abbrev main_v223 : Ref sig .tc := ⟨.hbm, 363, rfl⟩
abbrev main_cst_56 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_v227 : Ref sig .tc := ⟨.hbm, 368, rfl⟩
abbrev main_c_57 : Ref sig .tc := ⟨.hbm, 369, rfl⟩
abbrev main_v228 : Ref sig .tc := ⟨.hbm, 370, rfl⟩
abbrev main_v229 : Ref sig .tc := ⟨.hbm, 371, rfl⟩
abbrev main_c_58 : Ref sig .tc := ⟨.hbm, 372, rfl⟩
abbrev main_v230 : Ref sig .tc := ⟨.hbm, 373, rfl⟩
abbrev main_v231 : Ref sig .tc := ⟨.hbm, 374, rfl⟩
abbrev main_v232 : Ref sig .tc := ⟨.hbm, 375, rfl⟩
abbrev main_v233 : Ref sig .tc := ⟨.hbm, 376, rfl⟩
abbrev main_v234 : Ref sig .tc := ⟨.hbm, 377, rfl⟩
abbrev main_v235 : Ref sig .tc := ⟨.hbm, 378, rfl⟩
abbrev main_c_59 : Ref sig .tc := ⟨.hbm, 379, rfl⟩
abbrev main_v236 : Ref sig .tc := ⟨.hbm, 380, rfl⟩
abbrev main_v237 : Ref sig .tc := ⟨.hbm, 381, rfl⟩
abbrev main_c_60 : Ref sig .tc := ⟨.hbm, 382, rfl⟩
abbrev main_v238 : Ref sig .tc := ⟨.hbm, 383, rfl⟩
abbrev main_v239 : Ref sig .tc := ⟨.hbm, 384, rfl⟩
abbrev main_v240 : Ref sig .tc := ⟨.hbm, 385, rfl⟩
abbrev main_v241 : Ref sig .tc := ⟨.hbm, 386, rfl⟩
abbrev main_v242 : Ref sig .tc := ⟨.hbm, 387, rfl⟩
abbrev main_call13_v0 : Ref sig .tc := ⟨.hbm, 388, rfl⟩
abbrev main_call13_cst : Ref sig .tc := ⟨.hbm, 389, rfl⟩
abbrev main_call13_v1 : Ref sig .tc := ⟨.hbm, 390, rfl⟩
abbrev main_call13_v2 : Ref sig .tc := ⟨.hbm, 391, rfl⟩
abbrev main_v243 : Ref sig .tc := ⟨.hbm, 392, rfl⟩
abbrev main_cst_61 : Ref sig .tc := ⟨.hbm, 393, rfl⟩
abbrev main_v244 : Ref sig .tc := ⟨.hbm, 394, rfl⟩
abbrev main_v245 : Ref sig .tc := ⟨.hbm, 395, rfl⟩
abbrev main_v246 : Ref sig .tc := ⟨.hbm, 396, rfl⟩
abbrev main_v247 : Ref sig .tc := ⟨.hbm, 397, rfl⟩
abbrev main_call14_v0 : Ref sig .tc := ⟨.hbm, 398, rfl⟩
abbrev main_call14_cst : Ref sig .tc := ⟨.hbm, 399, rfl⟩
abbrev main_call14_v1 : Ref sig .tc := ⟨.hbm, 400, rfl⟩
abbrev main_call14_v2 : Ref sig .tc := ⟨.hbm, 401, rfl⟩
abbrev main_v248 : Ref sig .tc := ⟨.hbm, 402, rfl⟩
abbrev main_cst_62 : Ref sig .tc := ⟨.hbm, 403, rfl⟩
abbrev main_v249 : Ref sig .tc := ⟨.hbm, 404, rfl⟩
abbrev main_v250 : Ref sig .tc := ⟨.hbm, 405, rfl⟩
abbrev main_v251 : Ref sig .tc := ⟨.hbm, 406, rfl⟩
abbrev main_v252 : Ref sig .tc := ⟨.hbm, 407, rfl⟩
abbrev main_v253 : Ref sig .tc := ⟨.hbm, 408, rfl⟩
abbrev main_v254 : Ref sig .tc := ⟨.hbm, 409, rfl⟩
abbrev main_cst_63 : Ref sig .tc := ⟨.hbm, 410, rfl⟩
abbrev main_v255 : Ref sig .tc := ⟨.hbm, 411, rfl⟩
abbrev main_cst_64 : Ref sig .tc := ⟨.hbm, 412, rfl⟩
abbrev main_v256 : Ref sig .tc := ⟨.hbm, 413, rfl⟩
abbrev main_cst_65 : Ref sig .tc := ⟨.hbm, 414, rfl⟩
abbrev main_v257 : Ref sig .tc := ⟨.hbm, 415, rfl⟩
abbrev main_call15_v0 : Ref sig .tc := ⟨.hbm, 416, rfl⟩
abbrev main_call15_cst : Ref sig .tc := ⟨.hbm, 417, rfl⟩
abbrev main_call15_v1 : Ref sig .tc := ⟨.hbm, 418, rfl⟩
abbrev main_call15_v2 : Ref sig .tc := ⟨.hbm, 419, rfl⟩
abbrev main_v258 : Ref sig .tc := ⟨.hbm, 420, rfl⟩
abbrev main_cst_66 : Ref sig .tc := ⟨.hbm, 421, rfl⟩
abbrev main_v259 : Ref sig .tc := ⟨.hbm, 422, rfl⟩
abbrev main_v260 : Ref sig .tc := ⟨.hbm, 423, rfl⟩
abbrev main_v261 : Ref sig .tc := ⟨.hbm, 424, rfl⟩
abbrev main_v262 : Ref sig .tc := ⟨.hbm, 425, rfl⟩
abbrev main_v263 : Ref sig .tc := ⟨.hbm, 426, rfl⟩
abbrev main_cst_67 : Ref sig .tc := ⟨.hbm, 427, rfl⟩
abbrev main_v264 : Ref sig .tc := ⟨.hbm, 428, rfl⟩
abbrev main_v265 : Ref sig .tc := ⟨.hbm, 429, rfl⟩
abbrev main_v266 : Ref sig .tc := ⟨.hbm, 430, rfl⟩
abbrev main_v267 : Ref sig .tc := ⟨.hbm, 431, rfl⟩
abbrev main_v268 : Ref sig .tc := ⟨.hbm, 432, rfl⟩
abbrev main_v269 : Ref sig .tc := ⟨.hbm, 433, rfl⟩
abbrev main_v270 : Ref sig .tc := ⟨.hbm, 434, rfl⟩
abbrev main_v271 : Ref sig .tc := ⟨.hbm, 435, rfl⟩
abbrev main_cst_68 : Ref sig .tc := ⟨.hbm, 436, rfl⟩
abbrev main_v272 : Ref sig .tc := ⟨.hbm, 437, rfl⟩
abbrev main_v273 : Ref sig .tc := ⟨.hbm, 438, rfl⟩
abbrev main_v274 : Ref sig .tc := ⟨.hbm, 439, rfl⟩
abbrev main_cst_69 : Ref sig .tc := ⟨.hbm, 440, rfl⟩
abbrev main_v275 : Ref sig .tc := ⟨.hbm, 441, rfl⟩
abbrev main_v276 : Ref sig .tc := ⟨.hbm, 442, rfl⟩
abbrev main_c_70 : Ref sig .tc := ⟨.hbm, 443, rfl⟩
abbrev main_v277 : Ref sig .tc := ⟨.hbm, 444, rfl⟩
abbrev main_call16_v0 : Ref sig .tc := ⟨.hbm, 445, rfl⟩
abbrev main_call16_c : Ref sig .tc := ⟨.hbm, 446, rfl⟩
abbrev main_call16_v1 : Ref sig .tc := ⟨.hbm, 447, rfl⟩
abbrev main_call16_v2 : Ref sig .tc := ⟨.hbm, 448, rfl⟩
abbrev main_call16_v3 : Ref sig .tc := ⟨.hbm, 449, rfl⟩
abbrev main_call16_v4 : Ref sig .tc := ⟨.hbm, 450, rfl⟩
abbrev main_call16_c_0 : Ref sig .tc := ⟨.hbm, 451, rfl⟩
abbrev main_call16_v5 : Ref sig .tc := ⟨.hbm, 452, rfl⟩
abbrev main_v278 : Ref sig .tc := ⟨.hbm, 453, rfl⟩
abbrev main_cst_71 : Ref sig .tc := ⟨.hbm, 454, rfl⟩
abbrev main_v279 : Ref sig .tc := ⟨.hbm, 455, rfl⟩
abbrev main_v280 : Ref sig .tc := ⟨.hbm, 456, rfl⟩
abbrev main_v281 : Ref sig .tc := ⟨.hbm, 457, rfl⟩
abbrev main_cst_72 : Ref sig .tc := ⟨.hbm, 458, rfl⟩
abbrev main_call17_v0 : Ref sig .tc := ⟨.hbm, 459, rfl⟩
abbrev main_call17_v1 : Ref sig .tc := ⟨.hbm, 460, rfl⟩
abbrev main_v282 : Ref sig .tc := ⟨.hbm, 461, rfl⟩
abbrev main_cst_73 : Ref sig .tc := ⟨.hbm, 462, rfl⟩
abbrev main_v283 : Ref sig .tc := ⟨.hbm, 463, rfl⟩
abbrev main_cst_74 : Ref sig .tc := ⟨.hbm, 464, rfl⟩
abbrev main_v284 : Ref sig .tc := ⟨.hbm, 465, rfl⟩
abbrev main_v285 : Ref sig .tc := ⟨.hbm, 466, rfl⟩
abbrev main_call18_v0 : Ref sig .tc := ⟨.hbm, 467, rfl⟩
abbrev main_call18_cst : Ref sig .tc := ⟨.hbm, 468, rfl⟩
abbrev main_call18_v1 : Ref sig .tc := ⟨.hbm, 469, rfl⟩
abbrev main_call18_v2 : Ref sig .tc := ⟨.hbm, 470, rfl⟩
abbrev main_v286 : Ref sig .tc := ⟨.hbm, 471, rfl⟩
abbrev main_cst_75 : Ref sig .tc := ⟨.hbm, 472, rfl⟩
abbrev main_v287 : Ref sig .tc := ⟨.hbm, 473, rfl⟩
abbrev main_v288 : Ref sig .tc := ⟨.hbm, 474, rfl⟩
abbrev main_v289 : Ref sig .tc := ⟨.hbm, 475, rfl⟩
abbrev main_v290 : Ref sig .tc := ⟨.hbm, 476, rfl⟩
abbrev main_v291 : Ref sig .tc := ⟨.hbm, 477, rfl⟩
abbrev main_cst_76 : Ref sig .tc := ⟨.hbm, 478, rfl⟩
abbrev main_v292 : Ref sig .tc := ⟨.hbm, 479, rfl⟩
abbrev main_v293 : Ref sig .tc := ⟨.hbm, 480, rfl⟩
abbrev main_v294 : Ref sig .tc := ⟨.hbm, 481, rfl⟩
abbrev main_v295 : Ref sig .tc := ⟨.hbm, 482, rfl⟩
abbrev main_v296 : Ref sig .tc := ⟨.hbm, 483, rfl⟩
abbrev main_v297 : Ref sig .tc := ⟨.hbm, 484, rfl⟩
abbrev main_v298 : Ref sig .tc := ⟨.hbm, 485, rfl⟩
abbrev main_v299 : Ref sig .tc := ⟨.hbm, 486, rfl⟩
abbrev main_cst_77 : Ref sig .tc := ⟨.hbm, 487, rfl⟩
abbrev main_v300 : Ref sig .tc := ⟨.hbm, 488, rfl⟩
abbrev main_v301 : Ref sig .tc := ⟨.hbm, 489, rfl⟩
abbrev main_v302 : Ref sig .tc := ⟨.hbm, 490, rfl⟩
abbrev main_cst_78 : Ref sig .tc := ⟨.hbm, 491, rfl⟩
abbrev main_v303 : Ref sig .tc := ⟨.hbm, 492, rfl⟩
abbrev main_v304 : Ref sig .tc := ⟨.hbm, 493, rfl⟩
abbrev main_c_79 : Ref sig .tc := ⟨.hbm, 494, rfl⟩
abbrev main_v305 : Ref sig .tc := ⟨.hbm, 495, rfl⟩
abbrev main_call19_v0 : Ref sig .tc := ⟨.hbm, 496, rfl⟩
abbrev main_call19_c : Ref sig .tc := ⟨.hbm, 497, rfl⟩
abbrev main_call19_v1 : Ref sig .tc := ⟨.hbm, 498, rfl⟩
abbrev main_call19_v2 : Ref sig .tc := ⟨.hbm, 499, rfl⟩
abbrev main_call19_v3 : Ref sig .tc := ⟨.hbm, 500, rfl⟩
abbrev main_call19_v4 : Ref sig .tc := ⟨.hbm, 501, rfl⟩
abbrev main_call19_c_0 : Ref sig .tc := ⟨.hbm, 502, rfl⟩
abbrev main_call19_v5 : Ref sig .tc := ⟨.hbm, 503, rfl⟩
abbrev main_v306 : Ref sig .tc := ⟨.hbm, 504, rfl⟩
abbrev main_cst_80 : Ref sig .tc := ⟨.hbm, 505, rfl⟩
abbrev main_v307 : Ref sig .tc := ⟨.hbm, 506, rfl⟩
abbrev main_v308 : Ref sig .tc := ⟨.hbm, 507, rfl⟩
abbrev main_v309 : Ref sig .tc := ⟨.hbm, 508, rfl⟩
abbrev main_cst_81 : Ref sig .tc := ⟨.hbm, 509, rfl⟩
abbrev main_call20_v0 : Ref sig .tc := ⟨.hbm, 510, rfl⟩
abbrev main_call20_v1 : Ref sig .tc := ⟨.hbm, 511, rfl⟩
abbrev main_v310 : Ref sig .tc := ⟨.hbm, 512, rfl⟩
abbrev main_cst_82 : Ref sig .tc := ⟨.hbm, 513, rfl⟩
abbrev main_v311 : Ref sig .tc := ⟨.hbm, 514, rfl⟩
abbrev main_cst_83 : Ref sig .tc := ⟨.hbm, 515, rfl⟩
abbrev main_v312 : Ref sig .tc := ⟨.hbm, 516, rfl⟩
abbrev main_v313 : Ref sig .tc := ⟨.hbm, 517, rfl⟩
abbrev main_cst_84 : Ref sig .tc := ⟨.hbm, 518, rfl⟩
abbrev main_v314 : Ref sig .tc := ⟨.hbm, 519, rfl⟩
abbrev main_v315 : Ref sig .tc := ⟨.hbm, 520, rfl⟩
abbrev main_v316 : Ref sig .tc := ⟨.hbm, 521, rfl⟩
abbrev main_v317 : Ref sig .tc := ⟨.hbm, 522, rfl⟩
abbrev main_cst_85 : Ref sig .tc := ⟨.hbm, 523, rfl⟩
abbrev main_v318 : Ref sig .tc := ⟨.hbm, 524, rfl⟩
abbrev main_v319 : Ref sig .tc := ⟨.hbm, 525, rfl⟩
abbrev main_v320 : Ref sig .tc := ⟨.hbm, 526, rfl⟩
abbrev main_v321 : Ref sig .tc := ⟨.hbm, 527, rfl⟩

abbrev nD : Nat := 1
abbrev τ : Topo := Topo.v7x

variable {F : FTy → Type} [FloatOps F]

class Facts₀ : Prop where
  concatenates_S100000x64_S200000x64_S300000x64_d0 : Shape.Concatenates [S100000x64, S200000x64] S300000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S300000x64 : S_.BroadcastsInDim S300000x64 (![] : Fin 0 → Fin S300000x64.rank)
  reducesTo_S300000x64_S300000_d1 : S300000x64.ReducesTo [1] S300000
  h_S_ : 0 < S_.numel
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S300000x1_S300000x64_0_1 : S300000x1.BroadcastsInDim S300000x64 (![0, 1] : Fin 2 → Fin S300000x64.rank)
  slices_S300000x64_S100000x64_0_0 : S300000x64.Slices ![0, 0] S100000x64
  slices_S300000x64_S200000x64_100000_0 : S300000x64.Slices ![100000, 0] S200000x64
  concatenates_S100000x64_S50000x64_S150000x64_d0 : Shape.Concatenates [S100000x64, S50000x64] S150000x64 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  reducesTo_S150000x64_S150000_d1 : S150000x64.ReducesTo [1] S150000
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S150000x64_S100000x64_0_0 : S150000x64.Slices ![0, 0] S100000x64
  slices_S150000x64_S50000x64_100000_0 : S150000x64.Slices ![100000, 0] S50000x64
  bcast_S_S50000x64 : S_.BroadcastsInDim S50000x64 (![] : Fin 0 → Fin S50000x64.rank)
  bcast_S_S2048x2 : S_.BroadcastsInDim S2048x2 (![] : Fin 0 → Fin S2048x2.rank)
  bcast_S2048x2_S2048x2x1_0_1 : S2048x2.BroadcastsInDim S2048x2x1 (![0, 1] : Fin 2 → Fin S2048x2x1.rank)
  bcast_S_S50000 : S_.BroadcastsInDim S50000 (![] : Fin 0 → Fin S50000.rank)
  bcast_S2048x2x1_S2048x2x64_0_1_2 : S2048x2x1.BroadcastsInDim S2048x2x64 (![0, 1, 2] : Fin 3 → Fin S2048x2x64.rank)
  reducesTo_S2048x2x64_S2048x2_d2 : S2048x2x64.ReducesTo [2] S2048x2
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  reducesTo_S2048_S_d0 : S2048.ReducesTo [0] S_
  slices_S2048x2x64_S2048x1x64_0_0_0 : S2048x2x64.Slices ![0, 0, 0] S2048x1x64
  shapeCasts_S2048x1x64_S2048x64 : S2048x1x64.ShapeCasts S2048x64
  reducesTo_S2048x64_S2048_d1 : S2048x64.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  transposes_S2048x64_S64x2048_1_0 : S2048x64.Transposes [1, 0] S64x2048
  bcast_S_S2048x2048 : S_.BroadcastsInDim S2048x2048 (![] : Fin 0 → Fin S2048x2048.rank)
  reducesTo_S2048x2048_S_d0_1 : S2048x2048.ReducesTo [0, 1] S_
  bcast_S_S1 : S_.BroadcastsInDim S1 (![] : Fin 0 → Fin S1.rank)
  concatenates_S1_S1_S2_d0 : Shape.Concatenates [S1, S1] S2 0
  gather_S300000x64_S2000000x1_S2000000x64_1_0_n_n_0_1_164_wf : GatherDims.WF S300000x64 S2000000x1 S2000000x64 [1] [0] [] [0] [] 1 ![1, 64]
  scatter_S300000x64_S2000000x1_S2000000x64_1_0_0_1_wf : ScatterDims.WF S300000x64 S2000000x1 S2000000x64 [1] [0] [0] 1
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  gather_S200000x64_S1000000x1_S1000000x64_1_0_n_n_0_1_164_wf : GatherDims.WF S200000x64 S1000000x1 S1000000x64 [1] [0] [] [0] [] 1 ![1, 64]
  scatter_S50000x64_S1000000x1_S1000000x64_1_0_0_1_wf : ScatterDims.WF S50000x64 S1000000x1 S1000000x64 [1] [0] [0] 1
  gather_S50000x64_S2048x2x1_S2048x2x64_2_0_n_n_0_2_164_wf : GatherDims.WF S50000x64 S2048x2x1 S2048x2x64 [2] [0] [] [0] [] 2 ![1, 64]
  gather_S50000_S2048x2x1_S2048x2_n_0_n_n_0_2_1_wf : GatherDims.WF S50000 S2048x2x1 S2048x2 [] [0] [] [0] [] 2 ![1]
  dot_S2048x64_S64x2048_S2048x2048_1_0_0_1_n_n_wf : DotDims.WF S2048x64 S64x2048 S2048x2048 [1] [0] [0] [1] [] []
  gather_S100000x64_S2048x1_S2048x64_1_0_n_n_0_1_164_wf : GatherDims.WF S100000x64 S2048x1 S2048x64 [1] [0] [] [0] [] 1 ![1, 64]

variable [Facts₀]

def gather_S300000x64_S2000000x1_S2000000x64_1_0_n_n_0_1_164 : GatherDims S300000x64 S2000000x1 S2000000x64 where
  offsetDims := [1]
  collapsedSliceDims := [0]
  operandBatchingDims := []
  startIndicesBatchingDims := []
  startIndexMap := [0]
  indexVectorDim := 1
  sliceSizes := ![1, 64]
  wf := gather_S300000x64_S2000000x1_S2000000x64_1_0_n_n_0_1_164_wf
def scatter_S300000x64_S2000000x1_S2000000x64_1_0_0_1 : ScatterDims S300000x64 S2000000x1 S2000000x64 where
  updateWindowDims := [1]
  insertedWindowDims := [0]
  scatterDimsToOperandDims := [0]
  indexVectorDim := 1
  wf := scatter_S300000x64_S2000000x1_S2000000x64_1_0_0_1_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def gather_S50000x64_S2048x2x1_S2048x2x64_2_0_n_n_0_2_164 : GatherDims S50000x64 S2048x2x1 S2048x2x64 where
  offsetDims := [2]
  collapsedSliceDims := [0]
  operandBatchingDims := []
  startIndicesBatchingDims := []
  startIndexMap := [0]
  indexVectorDim := 2
  sliceSizes := ![1, 64]
  wf := gather_S50000x64_S2048x2x1_S2048x2x64_2_0_n_n_0_2_164_wf
def gather_S50000_S2048x2x1_S2048x2_n_0_n_n_0_2_1 : GatherDims S50000 S2048x2x1 S2048x2 where
  offsetDims := []
  collapsedSliceDims := [0]
  operandBatchingDims := []
  startIndicesBatchingDims := []
  startIndexMap := [0]
  indexVectorDim := 2
  sliceSizes := ![1]
  wf := gather_S50000_S2048x2x1_S2048x2_n_0_n_n_0_2_1_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf

class Facts : Prop extends Facts₀ where

variable [Facts]
-- ==== Proof.K.Host.lean ====
/-
  The host side of the kernel program's run, given its eight regions.

  @main is thirty stretches of host operations and eight kernel regions, thirty-eight items in order; the table of
  what a core's unscoped buffers hold between two items is in HostTable, with the fact that a buffer no later item writes keeps its
  contents to the end. Here: a buffer no item writes ends as launched (`kept`); each stretch is a segment of the several-regions launch theorem, run over the
  unscoped buffers from its boundary's contents; and the run itself, GIVEN a segment record for each of the eight
  pallas_calls entered from the thread state before it and left at the one after it: every weakly fair execution
  terminates, nothing faults, and every unscoped buffer ends at the last boundary's contents `B38`.
-/
import proofs.«108982_j38147899523261_2_alg».proof.Proof.K.HostTable

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs F)

/-- A buffer no item writes reaches the end as launched. -/
theorem kept (c : Dev nD) (r : Ref sig .tc) (h : r ∉ writtenFrom0) : B38 m outs c r = m ((c : Thread nD τ).loc r) :=
  from0 m outs c r h

/-! ## The items as segments of the several-regions launch -/

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no pallas_call has a table. -/
abbrev adm : (p : Fin 8) → (pcfgs (F := F) p).Adm := fun p => (cfgs p).toPCfg_adm
/-- What rides beside the buffers through every item: the core's generator register at some state and its `owes`, at nothing. -/
abbrev Rest (c : Dev nD) : sProp 𝕄 := iprop((∃ r, prngReg c r) ∗ ∃ W, owes (c : Thread nD τ) (0 : CellTallies nD τ sig Unit) W)
/-- The thread state between two items: every unscoped buffer whole at the boundary's contents, the rest beside it. -/
abbrev Held (W : Dev nD → Valuation τ sig (Elt F)) (c : Dev nD) : sProp 𝕄 :=
  iprop(StableHlo.held (c : Thread nD τ) (Pipeline.ucRefs τ sig) (W c) ∗ Rest c)
/-- A host stretch as a segment: its operations run over the unscoped buffers from the contents `W`, the rest riding along;
    it ends holding them at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Run

variable (pdats : (p : Fin 8) → (c : Dev nD) → Dat τ (Elt F) Unit ℕ (UR sig nD τ) ℕ (Pipeline.pin (pcfgs (F := F)) adm p) c)
variable (R0 : RegionSeg (pcfgs (F := F)) adm pdats () defs₀ 𝒱₀ L lv 0)
variable (R1 : RegionSeg (pcfgs (F := F)) adm pdats () defs₀ 𝒱₀ L lv 1)
variable (R2 : RegionSeg (pcfgs (F := F)) adm pdats () defs₀ 𝒱₀ L lv 2)
variable (R3 : RegionSeg (pcfgs (F := F)) adm pdats () defs₀ 𝒱₀ L lv 3)
variable (R4 : RegionSeg (pcfgs (F := F)) adm pdats () defs₀ 𝒱₀ L lv 4)
variable (R5 : RegionSeg (pcfgs (F := F)) adm pdats () defs₀ 𝒱₀ L lv 5)
variable (R6 : RegionSeg (pcfgs (F := F)) adm pdats () defs₀ 𝒱₀ L lv 6)
variable (R7 : RegionSeg (pcfgs (F := F)) adm pdats () defs₀ 𝒱₀ L lv 7)

/-- @main's thirty-eight items in order: a host segment per stretch from its boundary's contents, the given record per pallas_call. -/
abbrev segs : List (Seg (pcfgs (F := F)) adm pdats () defs₀ 𝒱₀ L lv) :=
  [ .host (hseg main_part0_ops0 main_part0_ops0_sub main_part0_ops0_fresh (B0 m)),
    .region R0,
    .host (hseg main_part0_ops1 main_part0_ops1_sub main_part0_ops1_fresh (B2 m outs)),
    .region R1,
    .host (hseg main_part0_ops2 main_part0_ops2_sub main_part0_ops2_fresh (B4 m outs)),
    .host (hseg main_part1_ops0 main_part1_ops0_sub main_part1_ops0_fresh (B5 m outs)),
    .region R2,
    .host (hseg main_part1_ops1 main_part1_ops1_sub main_part1_ops1_fresh (B7 m outs)),
    .region R3,
    .host (hseg main_part1_ops2 main_part1_ops2_sub main_part1_ops2_fresh (B9 m outs)),
    .host (hseg main_part2_ops0 main_part2_ops0_sub main_part2_ops0_fresh (B10 m outs)),
    .host (hseg main_part2_ops1 main_part2_ops1_sub main_part2_ops1_fresh (B11 m outs)),
    .host (hseg main_part2_ops2 main_part2_ops2_sub main_part2_ops2_fresh (B12 m outs)),
    .host (hseg main_part2_ops3 main_part2_ops3_sub main_part2_ops3_fresh (B13 m outs)),
    .host (hseg main_part2_ops4 main_part2_ops4_sub main_part2_ops4_fresh (B14 m outs)),
    .host (hseg main_part2_ops5 main_part2_ops5_sub main_part2_ops5_fresh (B15 m outs)),
    .host (hseg main_part2_ops6 main_part2_ops6_sub main_part2_ops6_fresh (B16 m outs)),
    .host (hseg main_part3_ops0 main_part3_ops0_sub main_part3_ops0_fresh (B17 m outs)),
    .host (hseg main_part3_ops1 main_part3_ops1_sub main_part3_ops1_fresh (B18 m outs)),
    .host (hseg main_part3_ops2 main_part3_ops2_sub main_part3_ops2_fresh (B19 m outs)),
    .region R4,
    .host (hseg main_part3_ops3 main_part3_ops3_sub main_part3_ops3_fresh (B21 m outs)),
    .host (hseg main_part3_ops4 main_part3_ops4_sub main_part3_ops4_fresh (B22 m outs)),
    .host (hseg main_part3_ops5 main_part3_ops5_sub main_part3_ops5_fresh (B23 m outs)),
    .region R5,
    .host (hseg main_part3_ops6 main_part3_ops6_sub main_part3_ops6_fresh (B25 m outs)),
    .host (hseg main_part3_ops7 main_part3_ops7_sub main_part3_ops7_fresh (B26 m outs)),
    .host (hseg main_part3_ops8 main_part3_ops8_sub main_part3_ops8_fresh (B27 m outs)),
    .host (hseg main_part4_ops0 main_part4_ops0_sub main_part4_ops0_fresh (B28 m outs)),
    .host (hseg main_part4_ops1 main_part4_ops1_sub main_part4_ops1_fresh (B29 m outs)),
    .host (hseg main_part4_ops2 main_part4_ops2_sub main_part4_ops2_fresh (B30 m outs)),
    .host (hseg main_part4_ops3 main_part4_ops3_sub main_part4_ops3_fresh (B31 m outs)),
    .region R6,
    .host (hseg main_part4_ops4 main_part4_ops4_sub main_part4_ops4_fresh (B33 m outs)),
    .host (hseg main_part4_ops5 main_part4_ops5_sub main_part4_ops5_fresh (B34 m outs)),
    .host (hseg main_part4_ops6 main_part4_ops6_sub main_part4_ops6_fresh (B35 m outs)),
    .region R7,
    .host (hseg main_part4_ops7 main_part4_ops7_sub main_part4_ops7_fresh (B37 m outs)) ]

/-- @main IS the run of the segments: the program as the chain of its items, then the segments' run against that chain. -/
theorem main_run (c : Dev nD) : main (F := F) c = Pipeline.Seg.run (segs m outs pdats R0 R1 R2 R3 R4 R5 R6 R7) :=
  (main_chain_windows c).trans (by chain_rfl)

set_option backward.isDefEq.respectTransparency.types false in
/-- THE RUN, GIVEN THE REGIONS. If each pallas_call's segment record is entered from the thread state this module names
    before it and left at the one after it, then from any memory with zero counters every weakly fair execution of @main
    terminates, nothing faulting, and every unscoped buffer ends at the last boundary's contents. -/
theorem run_cond (ρ : Dev nD → PrngReg)
    (hpre0 : ∀ c : Dev nD, Held (B1 m) c ⊢ R0.pre c) (hpost0 : ∀ c : Dev nD, R0.post c ⊢ Held (B2 m outs) c)
    (hpre1 : ∀ c : Dev nD, Held (B3 m outs) c ⊢ R1.pre c) (hpost1 : ∀ c : Dev nD, R1.post c ⊢ Held (B4 m outs) c)
    (hpre2 : ∀ c : Dev nD, Held (B6 m outs) c ⊢ R2.pre c) (hpost2 : ∀ c : Dev nD, R2.post c ⊢ Held (B7 m outs) c)
    (hpre3 : ∀ c : Dev nD, Held (B8 m outs) c ⊢ R3.pre c) (hpost3 : ∀ c : Dev nD, R3.post c ⊢ Held (B9 m outs) c)
    (hpre4 : ∀ c : Dev nD, Held (B20 m outs) c ⊢ R4.pre c) (hpost4 : ∀ c : Dev nD, R4.post c ⊢ Held (B21 m outs) c)
    (hpre5 : ∀ c : Dev nD, Held (B24 m outs) c ⊢ R5.pre c) (hpost5 : ∀ c : Dev nD, R5.post c ⊢ Held (B25 m outs) c)
    (hpre6 : ∀ c : Dev nD, Held (B32 m outs) c ⊢ R6.pre c) (hpost6 : ∀ c : Dev nD, R6.post c ⊢ Held (B33 m outs) c)
    (hpre7 : ∀ c : Dev nD, Held (B36 m outs) c ⊢ R7.pre c) (hpost7 : ∀ c : Dev nD, R7.post c ⊢ Held (B37 m outs) c) :
    θ_run defs (onTc (τ := τ) (main (F := F))) ⟨m, fun _ => 0, ρ⟩ (fun r => ∀ c : Dev nD,
      ∀ b ∈ Pipeline.ucRefs τ sig, r.2.mem (((c : Thread nD τ)).1, b) = B38 m outs c b) :=
  Pipeline.θ_run_regions_kit (pcfgs (F := F)) adm pdats () cellOf_inj emb₁ defs₀ 𝒱₀ L lv m ρ main (segs m outs pdats R0 R1 R2 R3 R4 R5 R6 R7)
    (fun c Q => by rw [main_run m outs pdats R0 R1 R2 R3 R4 R5 R6 R7 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Held (B0 m))
    (Tₙ := fun c => iprop(StableHlo.held (c : Thread nD τ) (Pipeline.ucRefs τ sig) (B38 m outs c) ∗ ∃ r, prngReg c r))
    (hch := ⟨fun _ => .rfl, hpre0, hpost0, hpre1, hpost1, fun _ => .rfl, hpre2, hpost2, hpre3, hpost3, fun _ => .rfl, fun _ => .rfl, fun _ => .rfl, fun _ => .rfl, fun _ => .rfl, fun _ => .rfl, fun _ => .rfl, fun _ => .rfl, fun _ => .rfl, fun _ => .rfl, hpre4, hpost4, fun _ => .rfl, fun _ => .rfl, hpre5, hpost5, fun _ => .rfl, fun _ => .rfl, fun _ => .rfl, fun _ => .rfl, fun _ => .rfl, fun _ => .rfl, hpre6, hpost6, fun _ => .rfl, fun _ => .rfl, hpre7, hpost7,
      fun c => by
        show iprop(StableHlo.held (c : Thread nD τ) (Pipeline.ucRefs τ sig) (B38 m outs c)
            ∗ (∃ r, prngReg c r) ∗ ∃ W, owes (c : Thread nD τ) (0 : CellTallies nD τ sig Unit) W) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B38 m outs c b)
    (hfin := fun c s' => by
      iintro ⟨⟨Hh, -⟩, HSI⟩
      unfold StableHlo.held
      imodintro
      iapply (pointsTo_read_all (Pipeline.ucRefs τ sig) (fun b => (((c : Thread nD τ)).1, b)) (B38 m outs c) s')
      isplitl [Hh] <;> iassumption)
    (hQ := fun s h c => h c)

end Run

end Cert.Kernel.Hand

end
-- ==== Proof.K.RegionA.lean ====
/-
  A kernel region as one segment of @main's run, between two named boundaries.

  For ANY pipeline of the program and any family of proof data that owe nothing and put no bound on the pairs the core
  may have recorded when the region is entered (every pair is allowed): if the windows' arrays, at their
  entry contents, come out of "every unscoped buffer at `Wpre`" leaving the unscoped rest (`hsplit`), the invariant at
  the first point is made of the generator register and the scoped rest (`hin`) and gives them back at the last
  (`hout`), and the arrays at what the pipeline leaves in them, with that unscoped rest, make "every unscoped buffer at
  `Wpost`" (`hjoin`), then the region is a segment from the thread state at `Wpre` to the one at `Wpost`: the
  generator register goes into the invariant and comes back, and the core's dues pass through untouched
  (`regionWith`). When the windows lie on distinct whole arrays held at the full share and the invariant is the plain
  one at every point, `hsplit` and `hjoin` are the library's splitting and joining of a pipeline's arrays
  (`plainRegion`).
-/
import proofs.«108982_j38147899523261_2_alg».proof.Proof.K.Host
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

/-- A boundary's contents read at the TensorCore's references: what a region's proof data take. -/
abbrev atTc (W : Dev nD → Valuation τ sig (Elt F)) : (c : Dev nD) → (b : Ref sig .tc) → Buf (Elt F) ((c : Thread nD τ).loc b) :=
  fun c b => W c b

variable (pdats : (p : Fin 8) → (c : Dev nD) → Dat τ (Elt F) Unit ℕ (UR sig nD τ) ℕ (Pipeline.pin (pcfgs (F := F)) adm p) c)

set_option backward.isDefEq.respectTransparency.types false in
/-- The segment record of a region from `Wpre` to `Wpost`, given how its arrays leave and rejoin the unscoped buffers
    and what its invariant is made of at the first and the last point. -/
def regionWith (p : Fin 8)
    (hw : Pipeline.WinFacts₀ (Pipeline.pin (pcfgs (F := F)) adm p).spec)
    (hpos : ∀ w, 0 < ((Pipeline.pin (pcfgs (F := F)) adm p).spec w).block.numel)
    (hstage : ∀ w s, (((Pipeline.pin (pcfgs (F := F)) adm p).spec w).stage s).IsWhole)
    (Wpre Wpost : Dev nD → Valuation τ sig (Elt F))
    (howed : ∀ (c : Dev nD) t, (pdats p c).owed t = 0)
    (hrec : ∀ c : Dev nD, (pdats p c).recorded 0 = Set.univ)
    (hbody : ∀ c : Dev nD, BodyObligation (pdats p c) (defs₀ (F := F)) Variants.none () Set.univ)
    (hsplit : ∀ c : Dev nD, (StableHlo.held (c : Thread nD τ) (Pipeline.ucRefs τ sig) (Wpre c) : sProp 𝕄)
      ⊢ iprop((pdats p c).arrays ((pdats p c).arrAt · 0)
          ∗ Pipeline.unscopedRest (Ix := Unit) (Name := ℕ) (U := UR sig nD τ) (Lvl := ℕ) (Pipeline.pin (pcfgs (F := F)) adm p).spec c (atTc Wpre c)))
    (hin : ∀ c : Dev nD, (iprop((∃ r, prngReg c r) ∗ Pipeline.scopedRest (Pipeline.pin (pcfgs (F := F)) adm p).spec c) : sProp 𝕄) ⊢ (pdats p c).Φ 0)
    (hout : ∀ c : Dev nD, (pdats p c).Φ (Fin.last (Pipeline.pin (pcfgs (F := F)) adm p).N)
      ⊢ (iprop((∃ r, prngReg c r) ∗ Pipeline.scopedRest (Pipeline.pin (pcfgs (F := F)) adm p).spec c) : sProp 𝕄))
    (hjoin : ∀ c : Dev nD, iprop((pdats p c).arrays ((pdats p c).arrAt · (Pipeline.pin (pcfgs (F := F)) adm p).N)
          ∗ Pipeline.unscopedRest (Ix := Unit) (Name := ℕ) (U := UR sig nD τ) (Lvl := ℕ) (Pipeline.pin (pcfgs (F := F)) adm p).spec c (atTc Wpre c))
      ⊢ (StableHlo.held (c : Thread nD τ) (Pipeline.ucRefs τ sig) (Wpost c) : sProp 𝕄)) :
    RegionSeg (pcfgs (F := F)) adm pdats () defs₀ 𝒱₀ L lv p where
  win := hw
  block_pos := hpos
  stage_whole := hstage
  K := PEmpty
  osem k := k.elim
  ho := Pipeline.OwnSemFacts.none _
  hbody c := (hbody c).loose
  hwaits := Pipeline.hwaits_of_owed_zero _ _ _ _ L lv p howed
  pre c := Held Wpre c
  post c := Held Wpost c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atTc Wpre c)
  hentry c := by
    -- the arrays come out of the unscoped buffers; the core's dues become the pipeline's, at nothing
    rw [Pipeline.ownSems0_none]
    iintro ⟨⟨Hub, Hp, HO⟩, -, -⟩
    ihave H := hsplit c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; exact Set.mem_univ _)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := hout c $$ H
    icases H' with ⟨Hp, Hr⟩
    isplitl [Hp]; · iexact Hp
    isplitr; · iempintro
    iexact Hr
  hexit c := by
    -- the arrays go back among the unscoped buffers at what the pipeline left in them
    iintro ⟨Ha, HO, HY, Hrest⟩
    imodintro
    isplitl [Ha Hrest]
    · iapply (hjoin c); isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
/-- The segment record of a region of the plain invariant on distinct whole arrays, each held at the full share. -/
def plainRegion (p : Fin 8)
    (hw : Pipeline.WinFacts (Pipeline.pin (pcfgs (F := F)) adm p).spec)
    (hpos : ∀ w, 0 < ((Pipeline.pin (pcfgs (F := F)) adm p).spec w).block.numel)
    (harr : ∀ w, ((Pipeline.pin (pcfgs (F := F)) adm p).spec w).arr.IsWhole)
    (hstage : ∀ w s, (((Pipeline.pin (pcfgs (F := F)) adm p).spec w).stage s).IsWhole)
    (Wpre Wpost : Dev nD → Valuation τ sig (Elt F))
    (hA : ∀ (c : Dev nD) w, (pdats p c).A w = atTc Wpre c (Pipeline.arrRef (Pipeline.pin (pcfgs (F := F)) adm p).spec w))
    (hq : ∀ (c : Dev nD) w, (pdats p c).q w = fullShare)
    (howed : ∀ (c : Dev nD) t, (pdats p c).owed t = 0)
    (hrec : ∀ c : Dev nD, (pdats p c).recorded 0 = Set.univ)
    (hΦ : ∀ (c : Dev nD) t, (pdats p c).Φ t = Pipeline.ΦA (Pipeline.pin (pcfgs (F := F)) adm p).spec c)
    (hbody : ∀ c : Dev nD, BodyObligation (pdats p c) (defs₀ (F := F)) Variants.none () Set.univ)
    (hF : ∀ (c : Dev nD) w, (pdats p c).arrAt w (Pipeline.pin (pcfgs (F := F)) adm p).N = atTc Wpost c (Pipeline.arrRef (Pipeline.pin (pcfgs (F := F)) adm p).spec w))
    (hrest : ∀ (c : Dev nD) b, b ∉ Finset.univ.image (Pipeline.arrRef (Pipeline.pin (pcfgs (F := F)) adm p).spec) → atTc Wpost c b = atTc Wpre c b) :
    RegionSeg (pcfgs (F := F)) adm pdats () defs₀ 𝒱₀ L lv p :=
  regionWith pdats p hw.to₀ hpos hstage Wpre Wpost howed hrec hbody
    (fun c => by
      have h := Pipeline.arrays_of_unscopedBufs (p := p) (pcfgs (F := F)) adm pdats hw harr c
        ((pdats p c).share_full (hq c)) (atTc Wpre c) (hA c)
      rw [Pipeline.unscopedBufs_held] at h
      exact h)
    (fun c => by
      rw [hΦ c 0]; unfold Pipeline.ΦA
      iintro ⟨Hp, Hr⟩
      isplitl [Hr]; · iexact Hr
      iexact Hp)
    (fun c => by
      rw [hΦ c (Fin.last _)]; unfold Pipeline.ΦA
      iintro ⟨Hr, Hp⟩
      isplitl [Hp]; · iexact Hp
      iexact Hr)
    (fun c => by
      have h := Pipeline.unscopedBufs_of_arrays (p := p) (pcfgs (F := F)) adm (Ix := Unit) (Name := ℕ) (U := UR sig nD τ) (Lvl := ℕ)
        hw harr c pdats ((pdats p c).share_full (hq c))
        (atTc Wpre c) (atTc Wpost c) ((pdats p c).arrAt · (Pipeline.pin (pcfgs (F := F)) adm p).N) (hF c) (hrest c)
      rw [Pipeline.unscopedBufs_held] at h
      exact h)

end Cert.Kernel.Hand

end
-- ==== Proof.K.Update0.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body obligation of the layer-update kernel of pallas_call 0, at any contents `V` of the TensorCore's
buffers when the call is entered.

At every grid point the pipeline hands the body one 5000x128 block of each window: the raw features (window 0) and
the running accumulator (window 1) as inputs, the scaled features (window 2) and the new accumulator (window 3) as
outputs. The body reads the two input blocks whole and writes each output block whole, once; the value stored is a
function of the blocks read (a payload of the kernel's skeleton), so after the body each output buffer holds exactly
that payload, whatever it held before. This module names those contents (`feats0`, `accum0`), proves the body's
separation-logic triple (`sound_kernel0`), packs the pipeline's proof data (`dat0`) and discharges the pipeline's
body obligation (`body_obligation0`). Nothing here depends on what the payloads compute. -/

-- membership of an index in the whole 5000x128 rectangle is decided structurally, one step per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered: everything below is stated at this parameter
variable (V : (c : Dev nD) → (b : Ref sig .tc) → Buf (Elt F) ((c : Thread nD τ).loc b))

/-! ## The windows' blocks -/

/-- Window `w`'s block at grid point `t`, read off the window's array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The raw-features window's staging buffer holds its block at every point, whether or not the pipeline fetched it
    there, for any proof data whose array is `V`'s and whose body leaves the block in place: an input window that is
    never cut and never idle is found at the block its index map names. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the accumulator's input window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Every load and every store of the body is of the whole 5000x128 block. -/
abbrev rect0 : Rect S5000x128 := Rect.unit (s := S5000x128) ![0, 0] S5000x128.size inb_S5000x128_S5000x128_0_0

/-! ## What the body leaves in each output window's buffer -/

/-- The scaled-features buffer (window 2) after the body, from the raw block `x0`: its one store, of the skeleton's
    first payload of the raw block as loaded. -/
def feats0 (x0 : Vec F S5000x128 .f32) : Vec F S5000x128 .f32 :=
  View.canon [⟨rect0, k0_pay1 (View.ld x0 rect0)⟩]

/-- The new-accumulator buffer (window 3) after the body, from the raw block `x0` and the accumulator block `x1`:
    its one store, of the skeleton's second payload of the two blocks as loaded. -/
def accum0 (x0 x1 : Vec F S5000x128 .f32) : Vec F S5000x128 .f32 :=
  View.canon [⟨rect0, k0_pay2 (View.ld x0 rect0) (View.ld x1 rect0)⟩]

/-- One store of the whole block tiles the buffer, so it covers every index. -/
theorem cover0 (p0 : Vec F S5000x128 .f32) (y : S5000x128.Idx) :
    ∃ pc ∈ ([⟨rect0, p0⟩] : List (View.Piece (Elt F) S5000x128 .f32)), y ∈ pc.1.set :=
  View.cover_of_tiled [⟨rect0, p0⟩] S5000x128.size (by rfl) y

/-! ## The body's triple -/

set_option maxHeartbeats 1000000 in
/-- The kernel body on whole staging memrefs, the inputs' at contents `x0`, `x1` and the outputs' at anything, runs
    without fault to a state holding the inputs as they were, the scaled-features buffer at `feats0 x0` and the
    new-accumulator buffer at `accum0 x0 x1`. Each output buffer is loaded once before it is stored to; the value
    loaded is used nowhere, so owning the buffer at some contents is all the load asks. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (feats0 x0) ∗ owns (c : Thread nD τ) arg4 fullShare (accum0 x0 x1)) -∗ K ⟨⟩))
      ⊢ wp frame (wpE (defs₀ (F := F)) Variants.none c none) E (cc0__layer_update_kernel_feats i arg1 harg1 arg2 harg2 arg3 harg3 arg4 harg4) K := by
  simp only [cc0__layer_update_kernel_feats_eq_skeleton]; unfold cc0__layer_update_kernel_feats_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The pipeline's proof data -/

/-- The proof data of the call's pipeline on core `c`: the arrays as the call finds them (`V`); after the body at
    point `t` each input's buffer still at its block, the scaled-features buffer at `feats0` of the raw block and the
    new-accumulator buffer at `accum0` of the two input blocks; the invariant that of a body keeping nothing between
    points (the scoped rest of the core and its generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => feats0 (iblk0 V c 0 t)
    | ⟨3, _⟩ => accum0 (iblk0 V c 0 t) (iblk0 V c 1 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window: an input's own block; an output's one store. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = feats0 (iblk0 V c 0 t) := by dsimp only [dat0]
theorem after0_3 (c : Dev nD) (t : Fin cfg0.N) : (dat0 V c).after 3 t = accum0 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_0`, `before0_1`) and the outputs' hold
    something, so `sound_kernel0` applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Update1.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body obligation of the layer-update kernel of pallas_call 1, at any contents `V` of the TensorCore's
buffers when the call is entered.

At every grid point the pipeline hands the body one 5000x128 block of each window: the raw features (window 0) and
the running accumulator (window 1) as inputs, the new accumulator (window 2) as output. The body reads the two input
blocks whole and writes the output block whole, once; the value stored is a function of the blocks read (the payload
of the kernel's skeleton), so after the body the output buffer holds exactly that payload, whatever it held before.
This module names those contents (`accum1`), proves the body's separation-logic triple (`sound_kernel1`), packs the
pipeline's proof data (`dat1`) and discharges the pipeline's body obligation (`body_obligation1`). Nothing here
depends on what the payload computes. -/

-- membership of an index in the whole 5000x128 rectangle is decided structurally, one step per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered: everything below is stated at this parameter
variable (V : (c : Dev nD) → (b : Ref sig .tc) → Buf (Elt F) ((c : Thread nD τ).loc b))

/-! ## The windows' blocks -/

/-- Window `w`'s block at grid point `t`, read off the window's array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The raw-features window's staging buffer holds its block at every point, whether or not the pipeline fetched it
    there, for any proof data whose array is `V`'s and whose body leaves the block in place: an input window that is
    never cut and never idle is found at the block its index map names. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the accumulator's input window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Every load and every store of the body is of the whole 5000x128 block. -/
abbrev rect1 : Rect S5000x128 := Rect.unit (s := S5000x128) ![0, 0] S5000x128.size inb_S5000x128_S5000x128_0_0

/-! ## What the body leaves in the output window's buffer -/

/-- The new-accumulator buffer (window 2) after the body, from the raw block `x0` and the accumulator block `x1`:
    its one store, of the skeleton's payload of the two blocks as loaded. -/
def accum1 (x0 x1 : Vec F S5000x128 .f32) : Vec F S5000x128 .f32 :=
  View.canon [⟨rect1, k1_pay1 (View.ld x0 rect1) (View.ld x1 rect1)⟩]

/-- One store of the whole block tiles the buffer, so it covers every index. -/
theorem cover1 (p0 : Vec F S5000x128 .f32) (y : S5000x128.Idx) :
    ∃ pc ∈ ([⟨rect1, p0⟩] : List (View.Piece (Elt F) S5000x128 .f32)), y ∈ pc.1.set :=
  View.cover_of_tiled [⟨rect1, p0⟩] S5000x128.size (by rfl) y

/-! ## The body's triple -/

set_option maxHeartbeats 1000000 in
/-- The kernel body on whole staging memrefs, the inputs' at contents `x0`, `x1` and the output's at anything, runs
    without fault to a state holding the inputs as they were and the new-accumulator buffer at `accum1 x0 x1`. The
    output buffer is loaded once before it is stored to; the value loaded is used nowhere, so owning the buffer at
    some contents is all the load asks. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (accum1 x0 x1)) -∗ K ⟨⟩))
      ⊢ wp frame (wpE (defs₀ (F := F)) Variants.none c none) E (cc1__layer_update_kernel_acc_only i arg1 harg1 arg2 harg2 arg3 harg3) K := by
  simp only [cc1__layer_update_kernel_acc_only_eq_skeleton]; unfold cc1__layer_update_kernel_acc_only_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- The proof data of the call's pipeline on core `c`: the arrays as the call finds them (`V`); after the body at
    point `t` each input's buffer still at its block and the new-accumulator buffer at `accum1` of the two input
    blocks; the invariant that of a body keeping nothing between points (the scoped rest of the core and its
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accum1 (iblk1 V c 0 t) (iblk1 V c 1 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window: an input's own block; the output's one store. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accum1 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_0`, `before1_1`) and the output's holds
    something, so `sound_kernel1` applies; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Update2.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body obligation of the layer-update kernel of pallas_call 2, at any contents `V` of the TensorCore's
buffers when the call is entered.

At every grid point the pipeline hands the body one 5000x128 block of each window: the raw features (window 0) and
the running accumulator (window 1) as inputs, the scaled features (window 2) and the new accumulator (window 3) as
outputs. The body reads the two input blocks whole and writes each output block whole, once; the value stored is a
function of the blocks read (a payload of the kernel's skeleton), so after the body each output buffer holds exactly
that payload, whatever it held before. This module names those contents (`feats2`, `accum2`), proves the body's
separation-logic triple (`sound_kernel2`), packs the pipeline's proof data (`dat2`) and discharges the pipeline's
body obligation (`body_obligation2`). Nothing here depends on what the payloads compute. -/

-- membership of an index in the whole 5000x128 rectangle is decided structurally, one step per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered: everything below is stated at this parameter
variable (V : (c : Dev nD) → (b : Ref sig .tc) → Buf (Elt F) ((c : Thread nD τ).loc b))

/-! ## The windows' blocks -/

/-- Window `w`'s block at grid point `t`, read off the window's array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The raw-features window's staging buffer holds its block at every point, whether or not the pipeline fetched it
    there, for any proof data whose array is `V`'s and whose body leaves the block in place: an input window that is
    never cut and never idle is found at the block its index map names. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the accumulator's input window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- Every load and every store of the body is of the whole 5000x128 block. -/
abbrev rect2 : Rect S5000x128 := Rect.unit (s := S5000x128) ![0, 0] S5000x128.size inb_S5000x128_S5000x128_0_0

/-! ## What the body leaves in each output window's buffer -/

/-- The scaled-features buffer (window 2) after the body, from the raw block `x0`: its one store, of the skeleton's
    first payload of the raw block as loaded. -/
def feats2 (x0 : Vec F S5000x128 .f32) : Vec F S5000x128 .f32 :=
  View.canon [⟨rect2, k2_pay1 (View.ld x0 rect2)⟩]

/-- The new-accumulator buffer (window 3) after the body, from the raw block `x0` and the accumulator block `x1`:
    its one store, of the skeleton's second payload of the two blocks as loaded. -/
def accum2 (x0 x1 : Vec F S5000x128 .f32) : Vec F S5000x128 .f32 :=
  View.canon [⟨rect2, k2_pay2 (View.ld x0 rect2) (View.ld x1 rect2)⟩]

/-- One store of the whole block tiles the buffer, so it covers every index. -/
theorem cover2 (p0 : Vec F S5000x128 .f32) (y : S5000x128.Idx) :
    ∃ pc ∈ ([⟨rect2, p0⟩] : List (View.Piece (Elt F) S5000x128 .f32)), y ∈ pc.1.set :=
  View.cover_of_tiled [⟨rect2, p0⟩] S5000x128.size (by rfl) y

/-! ## The body's triple -/

set_option maxHeartbeats 1000000 in
/-- The kernel body on whole staging memrefs, the inputs' at contents `x0`, `x1` and the outputs' at anything, runs
    without fault to a state holding the inputs as they were, the scaled-features buffer at `feats2 x0` and the
    new-accumulator buffer at `accum2 x0 x1`. Each output buffer is loaded once before it is stored to; the value
    loaded is used nowhere, so owning the buffer at some contents is all the load asks. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (feats2 x0) ∗ owns (c : Thread nD τ) arg4 fullShare (accum2 x0 x1)) -∗ K ⟨⟩))
      ⊢ wp frame (wpE (defs₀ (F := F)) Variants.none c none) E (cc2__layer_update_kernel_feats i arg1 harg1 arg2 harg2 arg3 harg3 arg4 harg4) K := by
  simp only [cc2__layer_update_kernel_feats_eq_skeleton]; unfold cc2__layer_update_kernel_feats_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  iexists _; isplitr
  swap; · iexact H3
  ipureintro
  exact View.read_writes_eq_canon _ _ _ (cover2 _)

/-! ## The pipeline's proof data -/

/-- The proof data of the call's pipeline on core `c`: the arrays as the call finds them (`V`); after the body at
    point `t` each input's buffer still at its block, the scaled-features buffer at `feats2` of the raw block and the
    new-accumulator buffer at `accum2` of the two input blocks; the invariant that of a body keeping nothing between
    points (the scoped rest of the core and its generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => feats2 (iblk2 V c 0 t)
    | ⟨3, _⟩ => accum2 (iblk2 V c 0 t) (iblk2 V c 1 t)
  Φ _ := Pipeline.ΦA spec2 c
  q _ := fullShare
  owed _ := 0

/-- The proof data's arrays are the contents at entry. -/
theorem A_eq2 (c : Dev nD) (w : Fin cfg2.W) : (dat2 V c).A w = V c (Pipeline.arrRef spec2 w) := by
  dsimp only [dat2]

/-- What the body leaves, window by window: an input's own block; an output's one store. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = feats2 (iblk2 V c 0 t) := by dsimp only [dat2]
theorem after2_3 (c : Dev nD) (t : Fin cfg2.N) : (dat2 V c).after 3 t = accum2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debts, and each window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the same, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_0`, `before2_1`) and the outputs' hold
    something, so `sound_kernel2` applies; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Update3.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body obligation of the layer-update kernel of pallas_call 3, at any contents `V` of the TensorCore's
buffers when the call is entered.

At every grid point the pipeline hands the body one 5000x128 block of each window: the raw features (window 0) and
the running accumulator (window 1) as inputs, the new accumulator (window 2) as output. The body reads the two input
blocks whole and writes the output block whole, once; the value stored is a function of the blocks read (the payload
of the kernel's skeleton), so after the body the output buffer holds exactly that payload, whatever it held before.
This module names those contents (`accum3`), proves the body's separation-logic triple (`sound_kernel3`), packs the
pipeline's proof data (`dat3`) and discharges the pipeline's body obligation (`body_obligation3`). Nothing here
depends on what the payload computes. -/

-- membership of an index in the whole 5000x128 rectangle is decided structurally, one step per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered: everything below is stated at this parameter
variable (V : (c : Dev nD) → (b : Ref sig .tc) → Buf (Elt F) ((c : Thread nD τ).loc b))

/-! ## The windows' blocks -/

/-- Window `w`'s block at grid point `t`, read off the window's array as the call finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The raw-features window's staging buffer holds its block at every point, whether or not the pipeline fetched it
    there, for any proof data whose array is `V`'s and whose body leaves the block in place: an input window that is
    never cut and never idle is found at the block its index map names. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the accumulator's input window. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- Every load and every store of the body is of the whole 5000x128 block. -/
abbrev rect3 : Rect S5000x128 := Rect.unit (s := S5000x128) ![0, 0] S5000x128.size inb_S5000x128_S5000x128_0_0

/-! ## What the body leaves in the output window's buffer -/

/-- The new-accumulator buffer (window 2) after the body, from the raw block `x0` and the accumulator block `x1`:
    its one store, of the skeleton's payload of the two blocks as loaded. -/
def accum3 (x0 x1 : Vec F S5000x128 .f32) : Vec F S5000x128 .f32 :=
  View.canon [⟨rect3, k3_pay1 (View.ld x0 rect3) (View.ld x1 rect3)⟩]

/-- One store of the whole block tiles the buffer, so it covers every index. -/
theorem cover3 (p0 : Vec F S5000x128 .f32) (y : S5000x128.Idx) :
    ∃ pc ∈ ([⟨rect3, p0⟩] : List (View.Piece (Elt F) S5000x128 .f32)), y ∈ pc.1.set :=
  View.cover_of_tiled [⟨rect3, p0⟩] S5000x128.size (by rfl) y

/-! ## The body's triple -/

set_option maxHeartbeats 1000000 in
/-- The kernel body on whole staging memrefs, the inputs' at contents `x0`, `x1` and the output's at anything, runs
    without fault to a state holding the inputs as they were and the new-accumulator buffer at `accum3 x0 x1`. The
    output buffer is loaded once before it is stored to; the value loaded is used nowhere, so owning the buffer at
    some contents is all the load asks. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (accum3 x0 x1)) -∗ K ⟨⟩))
      ⊢ wp frame (wpE (defs₀ (F := F)) Variants.none c none) E (cc3__layer_update_kernel_acc_only i arg1 harg1 arg2 harg2 arg3 harg3) K := by
  simp only [cc3__layer_update_kernel_acc_only_eq_skeleton]; unfold cc3__layer_update_kernel_acc_only_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-! ## The pipeline's proof data -/

/-- The proof data of the call's pipeline on core `c`: the arrays as the call finds them (`V`); after the body at
    point `t` each input's buffer still at its block and the new-accumulator buffer at `accum3` of the two input
    blocks; the invariant that of a body keeping nothing between points (the scoped rest of the core and its
    generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accum3 (iblk3 V c 0 t) (iblk3 V c 1 t)
  Φ _ := Pipeline.ΦA spec3 c
  q _ := fullShare
  owed _ := 0

/-- The proof data's arrays are the contents at entry. -/
theorem A_eq3 (c : Dev nD) (w : Fin cfg3.W) : (dat3 V c).A w = V c (Pipeline.arrRef spec3 w) := by
  dsimp only [dat3]

/-- What the body leaves, window by window: an input's own block; the output's one store. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accum3 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`: the invariant, the core's debts, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: the same, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_0`, `before3_1`) and the output's holds
    something, so `sound_kernel3` applies; the invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.ULoss4Run.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # The pairwise-distance kernel of custom call 4, run once

The kernel body of custom call 4 keeps a one-element accumulator in a scratch buffer across its eight grid
points. On whole staging buffers holding a block `x0` of 256 rows, the whole matrix `x1` and the row of squared
norms `x2`, one execution of the body

* at the first point stores zero into the accumulator and then adds the point's partial sum to it,
* at a middle point adds the point's partial sum to what the accumulator held,
* at the last point does the same and then stores `log (accumulator / 2096128)` into the output block.

The partial sum is the payload `k4_pay4` of the point, the three input blocks and the accumulator's previous
contents; the zero is `k4_pay3`, the logarithm `k4_pay2`. Each theorem below is the body's triple in one of the
three cases, with the contents every buffer ends at stated in closed form over these payloads. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the accumulator is zeroed): the grid coordinate is 0. -/
abbrev cond4_1 (i : grid4.Coords) : Prop := (Scalar.cmpi .ne (Scalar.extui (Scalar.cmpi .eq (BitVec.ofNat 32 (i 0).val) 0#32)) 0#32) = 1#1
/-- The condition of the body's second `scf.if` (the output block is stored): the grid coordinate is 7. -/
abbrev cond4_2 (i : grid4.Coords) : Prop := k4_cond2 i = 1#1

/-- The zero offsets of a rank-two access, as a constant function. -/
theorem hz4 : (![0, 0] : Fin 2 → Nat) = fun _ => 0 := funext fun a => by fin_cases a <;> rfl

/-- The one-element rectangle covers the one-element shape. -/
theorem cover4_unit (y : S1x1.Idx) : y ∈ (Rect.unit (s := S1x1) ![0, 0] S1x1.size inb_S1x1_S1x1_0_0).set :=
  View.mem_set_unit_zero hz4 inb_S1x1_S1x1_0_0 y

set_option maxHeartbeats 1000000 in
/-- A MIDDLE point (neither condition holds): the inputs are read and left as they were, the output block, found at
    `xo`, is handed back at `xo`, and the accumulator, found at `xs`, is left at `xs` plus the point's partial sum. -/
theorem kernelRun4_mid (c : Dev nD) (i : grid4.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond4_1 i) (hc2 : ¬cond4_2 i)
    (x0 : Vec F S256x64 .f32) (x1 : Vec F S2048x64 .f32) (x2 : Vec F S1x2048 .f32) (xo : Vec F S1x1 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k4_pay1 (k4_pay4 i x0 x1 x2 xs))) -∗ K ⟨⟩))
      ⊢ wp frame (wpE (defs₀ (F := F)) Variants.none c none) E (cc4__u_loss_kernel i arg1 harg1 arg2 harg2 arg3 harg3 arg4 harg4 arg5 harg5) K := by
  simp only [cc4__u_loss_kernel_eq_skeleton]; unfold cc4__u_loss_kernel_skel
  simp only [k4_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_singleton_self _, cover4_unit y⟩), View.canon_unit_zero hz4]
  sl_unfold_run_names
  simp only [View.readAt_eq_ld, harg1.read_unread, harg2.read_unread, harg3.read_unread, harg5.read_unread,
    View.ld_unit_zero (S := S256x64) hz4, View.ld_unit_zero (S := S2048x64) hz4, View.ld_unit_zero (S := S1x2048) hz4,
    View.ld_unit_zero (S := S1x1) hz4]

set_option maxHeartbeats 1000000 in
/-- The FIRST point (only the first condition holds): the accumulator, found at anything, is zeroed and then left at
    zero plus the point's partial sum; the inputs are left as they were and the output block, found at `xo`, is handed back at `xo`. -/
theorem kernelRun4_first (c : Dev nD) (i : grid4.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : cond4_1 i) (hc2 : ¬cond4_2 i)
    (x0 : Vec F S256x64 .f32) (x1 : Vec F S2048x64 .f32) (x2 : Vec F S1x2048 .f32) (xo : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k4_pay1 (k4_pay4 i x0 x1 x2 (k4_pay3 (F := F))))) -∗ K ⟨⟩))
      ⊢ wp frame (wpE (defs₀ (F := F)) Variants.none c none) E (cc4__u_loss_kernel i arg1 harg1 arg2 harg2 arg3 harg3 arg4 harg4 arg5 harg5) K := by
  simp only [cc4__u_loss_kernel_eq_skeleton]; unfold cc4__u_loss_kernel_skel
  simp only [k4_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_cons_self, cover4_unit y⟩), View.canon_cons_unit_zero hz4]
  sl_unfold_run_names
  simp only [View.readCov_unit_zero (S := S1x1) _ hz4, View.readAt_eq_ld, harg1.read_unread, harg2.read_unread, harg3.read_unread,
    View.ld_unit_zero (S := S256x64) hz4, View.ld_unit_zero (S := S2048x64) hz4, View.ld_unit_zero (S := S1x2048) hz4]

set_option maxHeartbeats 1000000 in
/-- The LAST point (only the second condition holds): the accumulator, found at `xs`, is left at `xs` plus the
    point's partial sum, and the output block, found at anything, is left at the logarithm payload of that sum; the
    inputs are left as they were. -/
theorem kernelRun4_last (c : Dev nD) (i : grid4.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond4_1 i) (hc2 : cond4_2 i)
    (x0 : Vec F S256x64 .f32) (x1 : Vec F S2048x64 .f32) (x2 : Vec F S1x2048 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k4_pay2 (k4_pay1 (k4_pay4 i x0 x1 x2 xs)))
            ∗ owns (c : Thread nD τ) arg5 fullShare (k4_pay1 (k4_pay4 i x0 x1 x2 xs))) -∗ K ⟨⟩))
      ⊢ wp frame (wpE (defs₀ (F := F)) Variants.none c none) E (cc4__u_loss_kernel i arg1 harg1 arg2 harg2 arg3 harg3 arg4 harg4 arg5 harg5) K := by
  simp only [cc4__u_loss_kernel_eq_skeleton]; unfold cc4__u_loss_kernel_skel
  simp only [k4_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [View.read_writes_eq_canon _ _ _ (fun y => ⟨_, List.mem_singleton_self _, cover4_unit y⟩), View.canon_unit_zero hz4]
    sl_unfold_run_names
    simp only [View.readCov_unit_zero (S := S1x1) _ hz4, View.readAt_eq_ld, harg1.read_unread, harg2.read_unread, harg3.read_unread, harg5.read_unread,
      View.ld_unit_zero (S := S256x64) hz4, View.ld_unit_zero (S := S2048x64) hz4, View.ld_unit_zero (S := S1x2048) hz4,
      View.ld_unit_zero (S := S1x1) hz4]
  iexists _; isplitr
  swap; · iexact HS
  ipureintro
  sl_unfold_run_names
  rw [View.read_writes_eq_canon _ _ _ (fun y => ⟨_, List.mem_singleton_self _, cover4_unit y⟩), View.canon_unit_zero hz4]
  simp only [View.readAt_eq_ld, harg1.read_unread, harg2.read_unread, harg3.read_unread, harg5.read_unread,
    View.ld_unit_zero (S := S256x64) hz4, View.ld_unit_zero (S := S2048x64) hz4, View.ld_unit_zero (S := S1x2048) hz4,
    View.ld_unit_zero (S := S1x1) hz4]

end Cert.Kernel.Hand

end
-- ==== Proof.K.ULoss4.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«108982_j38147899523261_2_alg».proof.Proof.K.ULoss4Run

/-! # Custom call 4 as a pipeline: its proof data and its body obligation

Custom call 4 runs the pairwise-distance kernel over eight grid points. Window 0 hands it one block of 256 rows
of the normalised matrix per point, window 1 the whole matrix and window 2 the row of squared norms (both fetched
once), and window 3 is the one-element result, stored and written back at the last point only. A one-element
scratch buffer carries the running sum from point to point.

This module names what the scratch holds after `t` points (`acc4`: zero, then the partial sums of the points added
in order), what the result block holds at the end (`out4`: the logarithm payload of the full sum), gives the
pipeline's proof data over the region-entry contents `V` (`dat4`), and proves that the kernel body meets the
pipeline's body obligation at every point, from the three single-point runs of the body. Windows 0 and 1 read one
array: the proof data gives window 0 the left half of that array's share and window 1 the right half. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the running sum -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the scratch accumulator holds after `t` points: zero (what the first point's reset stores) before any
    point, and after point `n` what it held before plus that point's partial sum over the three input blocks. -/
def acc4 (c : Dev nD) : ℕ → Vec F S1x1 .f32
  | 0 => k4_pay3 (F := F)
  | n + 1 =>
    if h : n < cfg4.N then
      k4_pay1 (k4_pay4 (grid4.coords ⟨n, h⟩) (iblk4 V c 0 ⟨n, h⟩) (iblk4 V c 1 ⟨n, h⟩) (iblk4 V c 2 ⟨n, h⟩) (acc4 c n))
    else acc4 c n

/-- Before any point the accumulator is the zero the reset stores. -/
theorem acc4_zero (c : Dev nD) : acc4 V c 0 = k4_pay3 (F := F) := rfl

/-- Point `t` adds its partial sum to what the accumulator held. -/
theorem acc4_succ (c : Dev nD) (t : Fin cfg4.N) :
    acc4 V c (t.val + 1)
      = k4_pay1 (k4_pay4 (grid4.coords t) (iblk4 V c 0 t) (iblk4 V c 1 t) (iblk4 V c 2 t) (acc4 V c t.val)) := by
  obtain ⟨n, hn⟩ := t
  exact dif_pos hn

/-- The result block after the last point: the logarithm of the full sum over the pair count. -/
def out4 (c : Dev nD) : Vec F S1x1 .f32 := k4_pay2 (acc4 V c 8)

/-! ## The body's branch conditions, and where the result window is idle -/

/-- The accumulator is reset at the first point only. -/
theorem hcond4_1 : ∀ t : Fin cfg4.N, cond4_1 (grid4.coords t) ↔ t.val = 0 :=
  (by decide +kernel : ∀ t : Fin grid4.N, cond4_1 (grid4.coords t) ↔ t.val = 0)
/-- The result block is stored at the last point only. -/
theorem hcond4_2 : ∀ t : Fin cfg4.N, cond4_2 (grid4.coords t) ↔ t.val = 7 :=
  (by decide +kernel : ∀ t : Fin grid4.N, cond4_2 (grid4.coords t) ↔ t.val = 7)

/-- The input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Where the result block is not stored the result window is idle and is not written back; -/
theorem idleAt4_3 : ∀ t : Fin cfg4.N, ¬cond4_2 (grid4.coords t) → cfg4.idle 3 (grid4.coords t) = true := by decide +kernel
theorem noFlush4_3 : ∀ t : Fin cfg4.N, ¬cond4_2 (grid4.coords t) → (cfg4.win 3).flush t = false := by decide +kernel
/-- where it is stored the window is live. -/
theorem liveAt4_3 : ∀ t : Fin cfg4.N, cond4_2 (grid4.coords t) → cfg4.idle 3 (grid4.coords t) = false := by decide +kernel

/-! ## The invariant: the scratch accumulator between points -/

/-- The scratch accumulator as a memref: a whole scoped buffer of the kernel's own. -/
abbrev scM4 : Memref sig .tc .vmem S1x1 .f32 := Memref.whole cc4_scratch0

/-- The scoped buffers no window stages, the accumulator apart. -/
abbrev rest4 (c : Dev nD) : sProp 𝕄 :=
  Pipeline.scopedRestBut (Ix := Unit) (Name := ℕ) (U := UR sig nD τ) (Lvl := ℕ) (Val := Elt F) spec4 c [cc4_scratch0]

/-- The region invariant before position `n`: before the first point every scoped buffer no window stages at some
    contents and the generator register at some state; afterwards the same with the accumulator at the running
    sum of the points so far. -/
def Phi4 (c : Dev nD) : ℕ → sProp 𝕄
  | 0 => Pipeline.ΦA spec4 c
  | n + 1 => iprop(iprop(owns (c : Thread nD τ) scM4 fullShare (acc4 V c (n + 1)) ∗ rest4 c) ∗ (∃ r, prngReg c r))

/-- Before the first point, with the accumulator split off the scoped rest. -/
theorem PhiA4_eq (c : Dev nD) :
    (Pipeline.ΦA spec4 c : sProp 𝕄)
      = iprop(iprop((∃ d, owns (c : Thread nD τ) scM4 fullShare d) ∗ rest4 c) ∗ (∃ r, prngReg c r)) := by
  unfold Pipeline.ΦA; rw [scopedRest4_split]; simp only [scM4, owns_whole]; rfl

theorem Phi4_zero (c : Dev nD) (n : ℕ) (hz : n = 0) : Phi4 V c n = Pipeline.ΦA spec4 c := by
  subst hz; rfl

theorem Phi4_succ (c : Dev nD) (n : ℕ) :
    Phi4 V c (n + 1) = iprop(iprop(owns (c : Thread nD τ) scM4 fullShare (acc4 V c (n + 1)) ∗ rest4 c) ∗ (∃ r, prngReg c r)) := rfl

theorem Phi4_pos (c : Dev nD) (n : ℕ) (hz : n ≠ 0) :
    Phi4 V c n = iprop(iprop(owns (c : Thread nD τ) scM4 fullShare (acc4 V c n) ∗ rest4 c) ∗ (∃ r, prngReg c r)) := by
  cases n with
  | zero => exact absurd rfl hz
  | succ n => rfl

/-! ## The pipeline's proof data -/

/-- The proof data of custom call 4 on core `c`: the arrays as the region finds them (`V`); after the body at any
    point each input's buffer at its block and the result's at `out4` (read only at the last point: before it the
    window is idle); the invariant `Phi4`; nothing owed; the array windows 0 and 1 share split between them, left
    half and right half. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 V c
  Φ t := Phi4 V c t.val
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 V c := by dsimp only [dat4]

/-- The invariant at a point's start and end, restated at the position's number. -/
theorem Phi4_castSucc (c : Dev nD) (t : Fin cfg4.N) : (dat4 V c).Φ t.castSucc = Phi4 V c t.val := by
  dsimp only [dat4]; simp only [Fin.coe_castSucc]
theorem Phi4_at_succ (c : Dev nD) (t : Fin cfg4.N) : (dat4 V c).Φ t.succ = Phi4 V c (t.val + 1) := by
  dsimp only [dat4]; simp only [Fin.val_succ]

/-- Each input's current staging buffer holds its block at every point, fetched there or not: an input whose body
    leaves its block in place holds what a fetch puts there, and unfetched its block index has not moved. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

/-- The inputs' posts: never idle, each buffer is left at its block. -/
theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (iblk4 V c 2 t) := by
  unfold Dat.leavesExact; rw [liveAt4_2 t, after4_2]

set_option maxHeartbeats 4000000 in
/-- The body at any point. The inputs' buffers hold their blocks; the point's number says which of the three cases it
    is in; the invariant hands the body the accumulator at the running sum of the points before (at anything at the
    first point, which resets it) and takes it back at the running sum with this point's partial sum added; at the
    last point the result block is left at the logarithm payload of the full sum, elsewhere it is handed back
    untouched. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [Phi4_at_succ, Phi4_succ, Phi4_castSucc, leaves4_0, leaves4_1, leaves4_2, acc4_succ V c t]
  have hN : t.val < 8 := lt_of_lt_of_eq t.isLt (show cfg4.N = 8 from N_4)
  by_cases h0 : t.val = 0
  · have hc1 : cond4_1 (grid4.coords t) := (hcond4_1 t).mpr h0
    have hc2 : ¬cond4_2 (grid4.coords t) := fun h => by have := (hcond4_2 t).mp h; omega
    rw [Dat.leavesExact_idle (dat4 V c) 3 t (idleAt4_3 t hc2) (noFlush4_3 t hc2)]
    rw [Phi4_zero V c _ h0, PhiA4_eq, (congrArg (acc4 V c) h0).trans (acc4_zero V c)]
    iintro ⟨⟨⟨HS, HR⟩, Hg⟩, Ho, ⟨%d0, H0⟩, ⟨%d1, H1⟩, ⟨%d2, H2⟩, ⟨%d3, H3⟩⟩
    iapply (kernelRun4_first c (grid4.coords t) _ _ _ _ _ _ _ _ _ _ hc1 hc2 (iblk4 V c 0 t) (iblk4 V c 1 t) (iblk4 V c 2 t) ((dat4 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists d3; iexact H3
  · have hc1 : ¬cond4_1 (grid4.coords t) := fun h => h0 ((hcond4_1 t).mp h)
    rw [Phi4_pos V c _ h0]
    by_cases h7 : t.val = 7
    · have hc2 : cond4_2 (grid4.coords t) := (hcond4_2 t).mpr h7
      rw [show (dat4 V c).leavesExact 3 t = owns (c : Thread nD τ) (st4_3 t) fullShare ((dat4 V c).after 3 t) from by
        unfold Dat.leavesExact; rw [liveAt4_3 t hc2], after4_3]
      unfold out4
      rw [congrArg (acc4 V c) (show 8 = t.val + 1 by omega), acc4_succ V c t]
      iintro ⟨⟨⟨HS, HR⟩, Hg⟩, Ho, ⟨%d0, H0⟩, ⟨%d1, H1⟩, ⟨%d2, H2⟩, ⟨%d3, H3⟩⟩
      iapply (kernelRun4_last c (grid4.coords t) _ _ _ _ _ _ _ _ _ _ hc1 hc2 (iblk4 V c 0 t) (iblk4 V c 1 t) (iblk4 V c 2 t) (acc4 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc2 : ¬cond4_2 (grid4.coords t) := fun h => h7 ((hcond4_2 t).mp h)
      rw [Dat.leavesExact_idle (dat4 V c) 3 t (idleAt4_3 t hc2) (noFlush4_3 t hc2)]
      iintro ⟨⟨⟨HS, HR⟩, Hg⟩, Ho, ⟨%d0, H0⟩, ⟨%d1, H1⟩, ⟨%d2, H2⟩, ⟨%d3, H3⟩⟩
      iapply (kernelRun4_mid c (grid4.coords t) _ _ _ _ _ _ _ _ _ _ hc1 hc2 (iblk4 V c 0 t) (iblk4 V c 1 t) (iblk4 V c 2 t) ((dat4 V c).before 3 t d3) (acc4 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-! ## The region's boundary: the arrays out of the core's unscoped buffers, and back

The four windows stand on three buffers: windows 0 and 1 both on the normalised matrix. At the region's entry the
core holds every unscoped buffer whole at the full share; the matrix's buffer is split in two halves along its
share, one per window, and joined again at the exit, where both halves hold the same contents. -/

/-- A window is one of the four. -/
theorem fin4_cases4 (w : Fin 4) : w = 0 ∨ w = 1 ∨ w = 2 ∨ w = 3 := by
  obtain ⟨w, hw⟩ := w; simp only [Fin.ext_iff]; show w = 0 ∨ w = 1 ∨ w = 2 ∨ w = 3; omega

/-- Windows 0 and 1 read one buffer. -/
theorem arr4_1_eq_0 : Pipeline.arrRef spec4 1 = Pipeline.arrRef spec4 0 := rfl

/-- The three buffers behind the four windows' arrays. -/
theorem image_arr4 : Finset.univ.image (Pipeline.arrRef spec4)
    = ([Pipeline.arrRef spec4 0, Pipeline.arrRef spec4 2, Pipeline.arrRef spec4 3] : List (Ref sig .tc)).toFinset := by
  ext b
  simp only [Finset.mem_image, Finset.mem_univ, true_and, List.mem_toFinset, List.mem_cons, List.not_mem_nil, or_false]
  constructor
  · rintro ⟨w, rfl⟩
    rcases fin4_cases4 w with rfl | rfl | rfl | rfl
    · exact Or.inl rfl
    · exact Or.inl arr4_1_eq_0
    · exact Or.inr (Or.inl rfl)
    · exact Or.inr (Or.inr rfl)
  · rintro (rfl | rfl | rfl)
    · exact ⟨0, rfl⟩
    · exact ⟨2, rfl⟩
    · exact ⟨3, rfl⟩

/-- They are three different buffers. -/
theorem nodup_arr4 : ([Pipeline.arrRef spec4 0, Pipeline.arrRef spec4 2, Pipeline.arrRef spec4 3] : List (Ref sig .tc)).Nodup := by
  decide

/-- A points-to of a buffer named in two ways, at a valuation's contents. -/
theorem pointsTo_ref_congr4 (c : Dev nD) {b b' : Ref sig .tc} (h : b = b') (q : PosShare TreeShare)
    (W : (b : Ref sig .tc) → Buf (Elt F) ((c : Thread nD τ).loc b)) :
    ((((c : Thread nD τ).loc b) ↦{q} W b) : sProp 𝕄) = (((c : Thread nD τ).loc b') ↦{q} W b') := by
  subst h; rfl

/-- The buffers behind the arrays, one by one. -/
theorem arrBufs4_eq (c : Dev nD) (W : (b : Ref sig .tc) → Buf (Elt F) ((c : Thread nD τ).loc b)) :
    (Pipeline.arrBufs spec4 c W : sProp 𝕄)
      = iprop((((c : Thread nD τ).loc (Pipeline.arrRef spec4 0)) ↦{fullShare} W (Pipeline.arrRef spec4 0))
          ∗ (((c : Thread nD τ).loc (Pipeline.arrRef spec4 2)) ↦{fullShare} W (Pipeline.arrRef spec4 2))
          ∗ (((c : Thread nD τ).loc (Pipeline.arrRef spec4 3)) ↦{fullShare} W (Pipeline.arrRef spec4 3))) := by
  unfold Pipeline.arrBufs
  exact bigSep_eq_bigSepL_of_eq _ image_arr4 nodup_arr4 _

/-- The shares the proof data holds the arrays at. -/
theorem share4_0 (c : Dev nD) : (dat4 V c).share 0 = fullShare.left := rfl
theorem share4_1 (c : Dev nD) : (dat4 V c).share 1 = fullShare.right := rfl
theorem share4_2 (c : Dev nD) : (dat4 V c).share 2 = fullShare := rfl
theorem share4_3 (c : Dev nD) : (dat4 V c).share 3 = fullShare := rfl

/-- The proof data's arrays, window by window, as points-tos of whole buffers. -/
theorem arrays4_eq (c : Dev nD) (G : (w : Fin cfg4.W) → Buf (Elt F) ((cfg4.win w).arr.view.loc (c : Thread nD τ))) :
    (dat4 V c).arrays G
      = iprop((((c : Thread nD τ).loc (Pipeline.arrRef spec4 0)) ↦{fullShare.left} G 0)
          ∗ (((c : Thread nD τ).loc (Pipeline.arrRef spec4 1)) ↦{fullShare.right} G 1)
          ∗ (((c : Thread nD τ).loc (Pipeline.arrRef spec4 2)) ↦{fullShare} G 2)
          ∗ (((c : Thread nD τ).loc (Pipeline.arrRef spec4 3)) ↦{fullShare} G 3)) := by
  have h : (dat4 V c).arrays G
      = bigSep Finset.univ fun w : Fin cfg4.W => ((((c : Thread nD τ).loc (Pipeline.arrRef spec4 w)) ↦{(dat4 V c).share w} G w) : sProp 𝕄) := by
    unfold Dat.arrays
    exact bigSep_congr fun w _ => by rw [(arr_whole4 w).set_eq_univ]
  rw [h, bigSep_W4]
  simp only [share4_0, share4_1, share4_2, share4_3]

set_option maxHeartbeats 2000000 in
/-- ENTRY: the core's unscoped buffers at `V c` are the proof data's arrays at their entry contents — the matrix's
    buffer split between windows 0 and 1 along its share — and the unscoped rest. -/
theorem entry4 (c : Dev nD) :
    (unscopedBufs c (V c) : sProp 𝕄)
      ⊢ iprop((dat4 V c).arrays ((dat4 V c).arrAt · 0) ∗ Pipeline.unscopedRest spec4 c (V c)) := by
  rewrite [Pipeline.PerCore.unscopedBufs_split₀ (fun (_ : Dev nD) (_ : Unit) => cfg4) () c winFacts₀4.arr_unscoped (V c), arrBufs4_eq, arrays4_eq,
    show (dat4 V c).arrAt 0 0 = V c (Pipeline.arrRef spec4 0) from A_eq4 V c 0, show (dat4 V c).arrAt 1 0 = V c (Pipeline.arrRef spec4 1) from A_eq4 V c 1,
    show (dat4 V c).arrAt 2 0 = V c (Pipeline.arrRef spec4 2) from A_eq4 V c 2, show (dat4 V c).arrAt 3 0 = V c (Pipeline.arrRef spec4 3) from A_eq4 V c 3]
  have hconv : ((((c : Thread nD τ).loc (Pipeline.arrRef spec4 0)) ↦{fullShare.right} V c (Pipeline.arrRef spec4 0)) : sProp 𝕄)
      ⊢ (((c : Thread nD τ).loc (Pipeline.arrRef spec4 1)) ↦{fullShare.right} V c (Pipeline.arrRef spec4 1)) :=
    Entails.of_eq (pointsTo_ref_congr4 c arr4_1_eq_0.symm fullShare.right (V c))
  have hsplit : ((((c : Thread nD τ).loc (Pipeline.arrRef spec4 0)) ↦{fullShare} V c (Pipeline.arrRef spec4 0)) : sProp 𝕄)
      ⊢ iprop((((c : Thread nD τ).loc (Pipeline.arrRef spec4 0)) ↦{fullShare.left} V c (Pipeline.arrRef spec4 0))
          ∗ (((c : Thread nD τ).loc (Pipeline.arrRef spec4 0)) ↦{fullShare.right} V c (Pipeline.arrRef spec4 0))) :=
    (pointsTo_share (PosShare.mem_left_op_right fullShare)).1
  iintro ⟨⟨H0, H2, H3⟩, Hrest⟩
  ihave H01 := hsplit $$ H0
  icases H01 with ⟨H0l, H0r⟩
  isplitr [Hrest]
  · isplitl [H0l]; · iexact H0l
    isplitl [H0r]; · iapply hconv; iexact H0r
    isplitl [H2]; · iexact H2
    iexact H3
  iexact Hrest

set_option maxHeartbeats 2000000 in
/-- EXIT: the arrays at their final contents and the unscoped rest are the core's unscoped buffers at any valuation
    `W'` that has every array at its final contents and agrees with `V c` elsewhere: the two halves of the matrix's
    buffer hold the same contents and join. -/
theorem exit4 (c : Dev nD) (W' : (b : Ref sig .tc) → Buf (Elt F) ((c : Thread nD τ).loc b))
    (hF : ∀ w, (dat4 V c).arrAt w cfg4.N = W' (Pipeline.arrRef spec4 w))
    (hrest : ∀ b, b ∉ Finset.univ.image (Pipeline.arrRef spec4) → W' b = V c b) :
    iprop((dat4 V c).arrays ((dat4 V c).arrAt · cfg4.N) ∗ Pipeline.unscopedRest spec4 c (V c))
      ⊢ (unscopedBufs c W' : sProp 𝕄) := by
  rewrite [Pipeline.PerCore.unscopedBufs_split₀ (fun (_ : Dev nD) (_ : Unit) => cfg4) () c winFacts₀4.arr_unscoped W', arrBufs4_eq, arrays4_eq,
    hF 0, hF 1, hF 2, hF 3]
  have hconv : ((((c : Thread nD τ).loc (Pipeline.arrRef spec4 1)) ↦{fullShare.right} W' (Pipeline.arrRef spec4 1)) : sProp 𝕄)
      ⊢ (((c : Thread nD τ).loc (Pipeline.arrRef spec4 0)) ↦{fullShare.right} W' (Pipeline.arrRef spec4 0)) :=
    Entails.of_eq (pointsTo_ref_congr4 c arr4_1_eq_0 fullShare.right W')
  have hjoin : (iprop((((c : Thread nD τ).loc (Pipeline.arrRef spec4 0)) ↦{fullShare.left} W' (Pipeline.arrRef spec4 0))
          ∗ (((c : Thread nD τ).loc (Pipeline.arrRef spec4 0)) ↦{fullShare.right} W' (Pipeline.arrRef spec4 0))) : sProp 𝕄)
      ⊢ (((c : Thread nD τ).loc (Pipeline.arrRef spec4 0)) ↦{fullShare} W' (Pipeline.arrRef spec4 0)) :=
    (pointsTo_share (PosShare.mem_left_op_right fullShare)).2
  have hR : (Pipeline.unscopedRest spec4 c (V c) : sProp 𝕄) = Pipeline.unscopedRest spec4 c W' := by
    unfold Pipeline.unscopedRest
    exact bigSep_congr fun b hb => by rw [hrest b (Finset.mem_sdiff.mp hb).2]
  rewrite [hR]
  iintro ⟨⟨H0l, H0r, H2, H3⟩, Hrest⟩
  isplitr [Hrest]
  · isplitl [H0l H0r]
    · iapply hjoin
      isplitl [H0l]; · iexact H0l
      iapply hconv; iexact H0r
    isplitl [H2]; · iexact H2
    iexact H3
  iexact Hrest
/-- The invariant at the first point, from the generator register and the scoped buffers no window stages. -/
theorem hin4 (c : Dev nD) :
    (iprop((∃ r, prngReg c r) ∗ Pipeline.scopedRest spec4 c) : sProp 𝕄) ⊢ (dat4 V c).Φ 0 := by
  rw [show (dat4 V c).Φ 0 = Pipeline.ΦA spec4 c from rfl]; unfold Pipeline.ΦA
  iintro ⟨Hp, Hr⟩
  isplitl [Hr]; · iexact Hr
  iexact Hp

/-- The invariant at the last point gives them back: the accumulator's contents are forgotten. -/
theorem hout4 (c : Dev nD) :
    (dat4 V c).Φ (Fin.last cfg4.N) ⊢ (iprop((∃ r, prngReg c r) ∗ Pipeline.scopedRest spec4 c) : sProp 𝕄) := by
  rw [show (dat4 V c).Φ (Fin.last cfg4.N) = Phi4 V c cfg4.N from rfl,
    Phi4_pos V c _ (by rw [show cfg4.N = 8 from N_4]; decide), scopedRest4_split]
  iintro ⟨⟨HS, HR⟩, Hg⟩
  isplitl [Hg]; · iexact Hg
  isplitl [HS]
  · simp only [scM4, owns_whole]; iexists _; iexact HS
  iexact HR

/-! ## The arrays after the run -/

/-- The input arrays are never written. -/
theorem arrAt4_0 (c : Dev nD) (n : ℕ) : (dat4 V c).arrAt 0 n = V c (Pipeline.arrRef spec4 0) :=
  ((dat4 V c).arrAt_in 0 rfl n).trans (A_eq4 V c 0)
theorem arrAt4_1 (c : Dev nD) (n : ℕ) : (dat4 V c).arrAt 1 n = V c (Pipeline.arrRef spec4 1) :=
  ((dat4 V c).arrAt_in 1 rfl n).trans (A_eq4 V c 1)
theorem arrAt4_2 (c : Dev nD) (n : ℕ) : (dat4 V c).arrAt 2 n = V c (Pipeline.arrRef spec4 2) :=
  ((dat4 V c).arrAt_in 2 rfl n).trans (A_eq4 V c 2)

/-- The last point of the grid. -/
def tl4 : Fin cfg4.N := ⟨7, by rw [show cfg4.N = 8 from N_4]; decide⟩

/-- The result array after the run, read through the result window's one block, is `out4`: only the last point
    writes the block back, and it writes what the body left there. -/
theorem final4 (c : Dev nD) :
    ((cfg4.win 3).blk tl4).view.read (Elt F) ((dat4 V c).arrAt 3 cfg4.N) = out4 V c := by
  have hfl : ∀ t : Fin cfg4.N, (cfg4.win 3).flush t = true → t = tl4 := fun t h => by
    have h7 := (flush4_3 t).mp h
    have hlt := t.isLt
    have hN : cfg4.N = 8 := N_4
    apply Fin.ext; show t.val = 7; omega
  rw [(dat4 V c).read_blk_arrAt_eq_flushed 3 (fun t t' h h' hne => absurd ((hfl t h).trans (hfl t' h').symm) hne)
    cfg4.N tl4 tl4.isLt ((flush4_3 tl4).mpr rfl)]
  unfold Dat.flushed
  rw [after4_3]
  rfl

end Cert.Kernel.Hand

end
-- ==== Proof.K.ULoss5Run.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # The pairwise-distance kernel of custom call 5, run once

The kernel body of custom call 5 keeps a one-element accumulator in a scratch buffer across its eight grid
points. On whole staging buffers holding a block `x0` of 256 rows, the whole matrix `x1` and the row of squared
norms `x2`, one execution of the body

* at the first point stores zero into the accumulator and then adds the point's partial sum to it,
* at a middle point adds the point's partial sum to what the accumulator held,
* at the last point does the same and then stores `log (accumulator / 2096128)` into the output block.

The partial sum is the payload `k5_pay4` of the point, the three input blocks and the accumulator's previous
contents; the zero is `k5_pay3`, the logarithm `k5_pay2`. Each theorem below is the body's triple in one of the
three cases, with the contents every buffer ends at stated in closed form over these payloads. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the accumulator is zeroed): the grid coordinate is 0. -/
abbrev cond5_1 (i : grid5.Coords) : Prop := (Scalar.cmpi .ne (Scalar.extui (Scalar.cmpi .eq (BitVec.ofNat 32 (i 0).val) 0#32)) 0#32) = 1#1
/-- The condition of the body's second `scf.if` (the output block is stored): the grid coordinate is 7. -/
abbrev cond5_2 (i : grid5.Coords) : Prop := k5_cond2 i = 1#1

/-- The zero offsets of a rank-two access, as a constant function. -/
theorem hz5 : (![0, 0] : Fin 2 → Nat) = fun _ => 0 := funext fun a => by fin_cases a <;> rfl

/-- The one-element rectangle covers the one-element shape. -/
theorem cover5_unit (y : S1x1.Idx) : y ∈ (Rect.unit (s := S1x1) ![0, 0] S1x1.size inb_S1x1_S1x1_0_0).set :=
  View.mem_set_unit_zero hz5 inb_S1x1_S1x1_0_0 y

set_option maxHeartbeats 1000000 in
/-- A MIDDLE point (neither condition holds): the inputs are read and left as they were, the output block, found at
    `xo`, is handed back at `xo`, and the accumulator, found at `xs`, is left at `xs` plus the point's partial sum. -/
theorem kernelRun5_mid (c : Dev nD) (i : grid5.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond5_1 i) (hc2 : ¬cond5_2 i)
    (x0 : Vec F S256x64 .f32) (x1 : Vec F S2048x64 .f32) (x2 : Vec F S1x2048 .f32) (xo : Vec F S1x1 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k5_pay1 (k5_pay4 i x0 x1 x2 xs))) -∗ K ⟨⟩))
      ⊢ wp frame (wpE (defs₀ (F := F)) Variants.none c none) E (cc5__u_loss_kernel i arg1 harg1 arg2 harg2 arg3 harg3 arg4 harg4 arg5 harg5) K := by
  simp only [cc5__u_loss_kernel_eq_skeleton]; unfold cc5__u_loss_kernel_skel
  simp only [k5_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_singleton_self _, cover5_unit y⟩), View.canon_unit_zero hz5]
  sl_unfold_run_names
  simp only [View.readAt_eq_ld, harg1.read_unread, harg2.read_unread, harg3.read_unread, harg5.read_unread,
    View.ld_unit_zero (S := S256x64) hz5, View.ld_unit_zero (S := S2048x64) hz5, View.ld_unit_zero (S := S1x2048) hz5,
    View.ld_unit_zero (S := S1x1) hz5]

set_option maxHeartbeats 1000000 in
/-- The FIRST point (only the first condition holds): the accumulator, found at anything, is zeroed and then left at
    zero plus the point's partial sum; the inputs are left as they were and the output block, found at `xo`, is handed back at `xo`. -/
theorem kernelRun5_first (c : Dev nD) (i : grid5.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : cond5_1 i) (hc2 : ¬cond5_2 i)
    (x0 : Vec F S256x64 .f32) (x1 : Vec F S2048x64 .f32) (x2 : Vec F S1x2048 .f32) (xo : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k5_pay1 (k5_pay4 i x0 x1 x2 (k5_pay3 (F := F))))) -∗ K ⟨⟩))
      ⊢ wp frame (wpE (defs₀ (F := F)) Variants.none c none) E (cc5__u_loss_kernel i arg1 harg1 arg2 harg2 arg3 harg3 arg4 harg4 arg5 harg5) K := by
  simp only [cc5__u_loss_kernel_eq_skeleton]; unfold cc5__u_loss_kernel_skel
  simp only [k5_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_cons_self, cover5_unit y⟩), View.canon_cons_unit_zero hz5]
  sl_unfold_run_names
  simp only [View.readCov_unit_zero (S := S1x1) _ hz5, View.readAt_eq_ld, harg1.read_unread, harg2.read_unread, harg3.read_unread,
    View.ld_unit_zero (S := S256x64) hz5, View.ld_unit_zero (S := S2048x64) hz5, View.ld_unit_zero (S := S1x2048) hz5]

set_option maxHeartbeats 1000000 in
/-- The LAST point (only the second condition holds): the accumulator, found at `xs`, is left at `xs` plus the
    point's partial sum, and the output block, found at anything, is left at the logarithm payload of that sum; the
    inputs are left as they were. -/
theorem kernelRun5_last (c : Dev nD) (i : grid5.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond5_1 i) (hc2 : cond5_2 i)
    (x0 : Vec F S256x64 .f32) (x1 : Vec F S2048x64 .f32) (x2 : Vec F S1x2048 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k5_pay2 (k5_pay1 (k5_pay4 i x0 x1 x2 xs)))
            ∗ owns (c : Thread nD τ) arg5 fullShare (k5_pay1 (k5_pay4 i x0 x1 x2 xs))) -∗ K ⟨⟩))
      ⊢ wp frame (wpE (defs₀ (F := F)) Variants.none c none) E (cc5__u_loss_kernel i arg1 harg1 arg2 harg2 arg3 harg3 arg4 harg4 arg5 harg5) K := by
  simp only [cc5__u_loss_kernel_eq_skeleton]; unfold cc5__u_loss_kernel_skel
  simp only [k5_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [View.read_writes_eq_canon _ _ _ (fun y => ⟨_, List.mem_singleton_self _, cover5_unit y⟩), View.canon_unit_zero hz5]
    sl_unfold_run_names
    simp only [View.readCov_unit_zero (S := S1x1) _ hz5, View.readAt_eq_ld, harg1.read_unread, harg2.read_unread, harg3.read_unread, harg5.read_unread,
      View.ld_unit_zero (S := S256x64) hz5, View.ld_unit_zero (S := S2048x64) hz5, View.ld_unit_zero (S := S1x2048) hz5,
      View.ld_unit_zero (S := S1x1) hz5]
  iexists _; isplitr
  swap; · iexact HS
  ipureintro
  sl_unfold_run_names
  rw [View.read_writes_eq_canon _ _ _ (fun y => ⟨_, List.mem_singleton_self _, cover5_unit y⟩), View.canon_unit_zero hz5]
  simp only [View.readAt_eq_ld, harg1.read_unread, harg2.read_unread, harg3.read_unread, harg5.read_unread,
    View.ld_unit_zero (S := S256x64) hz5, View.ld_unit_zero (S := S2048x64) hz5, View.ld_unit_zero (S := S1x2048) hz5,
    View.ld_unit_zero (S := S1x1) hz5]

end Cert.Kernel.Hand

end
-- ==== Proof.K.ULoss5.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«108982_j38147899523261_2_alg».proof.Proof.K.ULoss5Run

/-! # Custom call 5 as a pipeline: its proof data and its body obligation

Custom call 5 runs the pairwise-distance kernel over eight grid points. Window 0 hands it one block of 256 rows
of the normalised matrix per point, window 1 the whole matrix and window 2 the row of squared norms (both fetched
once), and window 3 is the one-element result, stored and written back at the last point only. A one-element
scratch buffer carries the running sum from point to point.

This module names what the scratch holds after `t` points (`acc5`: zero, then the partial sums of the points added
in order), what the result block holds at the end (`out5`: the logarithm payload of the full sum), gives the
pipeline's proof data over the region-entry contents `V` (`dat5`), and proves that the kernel body meets the
pipeline's body obligation at every point, from the three single-point runs of the body. Windows 0 and 1 read one
array: the proof data gives window 0 the left half of that array's share and window 1 the right half. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the running sum -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the scratch accumulator holds after `t` points: zero (what the first point's reset stores) before any
    point, and after point `n` what it held before plus that point's partial sum over the three input blocks. -/
def acc5 (c : Dev nD) : ℕ → Vec F S1x1 .f32
  | 0 => k5_pay3 (F := F)
  | n + 1 =>
    if h : n < cfg5.N then
      k5_pay1 (k5_pay4 (grid5.coords ⟨n, h⟩) (iblk5 V c 0 ⟨n, h⟩) (iblk5 V c 1 ⟨n, h⟩) (iblk5 V c 2 ⟨n, h⟩) (acc5 c n))
    else acc5 c n

/-- Before any point the accumulator is the zero the reset stores. -/
theorem acc5_zero (c : Dev nD) : acc5 V c 0 = k5_pay3 (F := F) := rfl

/-- Point `t` adds its partial sum to what the accumulator held. -/
theorem acc5_succ (c : Dev nD) (t : Fin cfg5.N) :
    acc5 V c (t.val + 1)
      = k5_pay1 (k5_pay4 (grid5.coords t) (iblk5 V c 0 t) (iblk5 V c 1 t) (iblk5 V c 2 t) (acc5 V c t.val)) := by
  obtain ⟨n, hn⟩ := t
  exact dif_pos hn

/-- The result block after the last point: the logarithm of the full sum over the pair count. -/
def out5 (c : Dev nD) : Vec F S1x1 .f32 := k5_pay2 (acc5 V c 8)

/-! ## The body's branch conditions, and where the result window is idle -/

/-- The accumulator is reset at the first point only. -/
theorem hcond5_1 : ∀ t : Fin cfg5.N, cond5_1 (grid5.coords t) ↔ t.val = 0 :=
  (by decide +kernel : ∀ t : Fin grid5.N, cond5_1 (grid5.coords t) ↔ t.val = 0)
/-- The result block is stored at the last point only. -/
theorem hcond5_2 : ∀ t : Fin cfg5.N, cond5_2 (grid5.coords t) ↔ t.val = 7 :=
  (by decide +kernel : ∀ t : Fin grid5.N, cond5_2 (grid5.coords t) ↔ t.val = 7)

/-- The input windows are never idle. -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Where the result block is not stored the result window is idle and is not written back; -/
theorem idleAt5_3 : ∀ t : Fin cfg5.N, ¬cond5_2 (grid5.coords t) → cfg5.idle 3 (grid5.coords t) = true := by decide +kernel
theorem noFlush5_3 : ∀ t : Fin cfg5.N, ¬cond5_2 (grid5.coords t) → (cfg5.win 3).flush t = false := by decide +kernel
/-- where it is stored the window is live. -/
theorem liveAt5_3 : ∀ t : Fin cfg5.N, cond5_2 (grid5.coords t) → cfg5.idle 3 (grid5.coords t) = false := by decide +kernel

/-! ## The invariant: the scratch accumulator between points -/

/-- The scratch accumulator as a memref: a whole scoped buffer of the kernel's own. -/
abbrev scM5 : Memref sig .tc .vmem S1x1 .f32 := Memref.whole cc5_scratch0

/-- The scoped buffers no window stages, the accumulator apart. -/
abbrev rest5 (c : Dev nD) : sProp 𝕄 :=
  Pipeline.scopedRestBut (Ix := Unit) (Name := ℕ) (U := UR sig nD τ) (Lvl := ℕ) (Val := Elt F) spec5 c [cc5_scratch0]

/-- The region invariant before position `n`: before the first point every scoped buffer no window stages at some
    contents and the generator register at some state; afterwards the same with the accumulator at the running
    sum of the points so far. -/
def Phi5 (c : Dev nD) : ℕ → sProp 𝕄
  | 0 => Pipeline.ΦA spec5 c
  | n + 1 => iprop(iprop(owns (c : Thread nD τ) scM5 fullShare (acc5 V c (n + 1)) ∗ rest5 c) ∗ (∃ r, prngReg c r))

/-- Before the first point, with the accumulator split off the scoped rest. -/
theorem PhiA5_eq (c : Dev nD) :
    (Pipeline.ΦA spec5 c : sProp 𝕄)
      = iprop(iprop((∃ d, owns (c : Thread nD τ) scM5 fullShare d) ∗ rest5 c) ∗ (∃ r, prngReg c r)) := by
  unfold Pipeline.ΦA; rw [scopedRest5_split]; simp only [scM5, owns_whole]; rfl

theorem Phi5_zero (c : Dev nD) (n : ℕ) (hz : n = 0) : Phi5 V c n = Pipeline.ΦA spec5 c := by
  subst hz; rfl

theorem Phi5_succ (c : Dev nD) (n : ℕ) :
    Phi5 V c (n + 1) = iprop(iprop(owns (c : Thread nD τ) scM5 fullShare (acc5 V c (n + 1)) ∗ rest5 c) ∗ (∃ r, prngReg c r)) := rfl

theorem Phi5_pos (c : Dev nD) (n : ℕ) (hz : n ≠ 0) :
    Phi5 V c n = iprop(iprop(owns (c : Thread nD τ) scM5 fullShare (acc5 V c n) ∗ rest5 c) ∗ (∃ r, prngReg c r)) := by
  cases n with
  | zero => exact absurd rfl hz
  | succ n => rfl

/-! ## The pipeline's proof data -/

/-- The proof data of custom call 5 on core `c`: the arrays as the region finds them (`V`); after the body at any
    point each input's buffer at its block and the result's at `out5` (read only at the last point: before it the
    window is idle); the invariant `Phi5`; nothing owed; the array windows 0 and 1 share split between them, left
    half and right half. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 V c
  Φ t := Phi5 V c t.val
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 V c := by dsimp only [dat5]

/-- The invariant at a point's start and end, restated at the position's number. -/
theorem Phi5_castSucc (c : Dev nD) (t : Fin cfg5.N) : (dat5 V c).Φ t.castSucc = Phi5 V c t.val := by
  dsimp only [dat5]; simp only [Fin.coe_castSucc]
theorem Phi5_at_succ (c : Dev nD) (t : Fin cfg5.N) : (dat5 V c).Φ t.succ = Phi5 V c (t.val + 1) := by
  dsimp only [dat5]; simp only [Fin.val_succ]

/-- Each input's current staging buffer holds its block at every point, fetched there or not: an input whose body
    leaves its block in place holds what a fetch puts there, and unfetched its block index has not moved. -/
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

/-- The inputs' posts: never idle, each buffer is left at its block. -/
theorem leaves5_0 (c : Dev nD) (t : Fin cfg5.N) :
    (dat5 V c).leavesExact 0 t = owns (c : Thread nD τ) (st5_0 t) fullShare (iblk5 V c 0 t) := by
  unfold Dat.leavesExact; rw [liveAt5_0 t, after5_0]
theorem leaves5_1 (c : Dev nD) (t : Fin cfg5.N) :
    (dat5 V c).leavesExact 1 t = owns (c : Thread nD τ) (st5_1 t) fullShare (iblk5 V c 1 t) := by
  unfold Dat.leavesExact; rw [liveAt5_1 t, after5_1]
theorem leaves5_2 (c : Dev nD) (t : Fin cfg5.N) :
    (dat5 V c).leavesExact 2 t = owns (c : Thread nD τ) (st5_2 t) fullShare (iblk5 V c 2 t) := by
  unfold Dat.leavesExact; rw [liveAt5_2 t, after5_2]

set_option maxHeartbeats 4000000 in
/-- The body at any point. The inputs' buffers hold their blocks; the point's number says which of the three cases it
    is in; the invariant hands the body the accumulator at the running sum of the points before (at anything at the
    first point, which resets it) and takes it back at the running sum with this point's partial sum added; at the
    last point the result block is left at the logarithm payload of the full sum, elsewhere it is handed back
    untouched. The core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [Phi5_at_succ, Phi5_succ, Phi5_castSucc, leaves5_0, leaves5_1, leaves5_2, acc5_succ V c t]
  have hN : t.val < 8 := lt_of_lt_of_eq t.isLt (show cfg5.N = 8 from N_5)
  by_cases h0 : t.val = 0
  · have hc1 : cond5_1 (grid5.coords t) := (hcond5_1 t).mpr h0
    have hc2 : ¬cond5_2 (grid5.coords t) := fun h => by have := (hcond5_2 t).mp h; omega
    rw [Dat.leavesExact_idle (dat5 V c) 3 t (idleAt5_3 t hc2) (noFlush5_3 t hc2)]
    rw [Phi5_zero V c _ h0, PhiA5_eq, (congrArg (acc5 V c) h0).trans (acc5_zero V c)]
    iintro ⟨⟨⟨HS, HR⟩, Hg⟩, Ho, ⟨%d0, H0⟩, ⟨%d1, H1⟩, ⟨%d2, H2⟩, ⟨%d3, H3⟩⟩
    iapply (kernelRun5_first c (grid5.coords t) _ _ _ _ _ _ _ _ _ _ hc1 hc2 (iblk5 V c 0 t) (iblk5 V c 1 t) (iblk5 V c 2 t) ((dat5 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists d3; iexact H3
  · have hc1 : ¬cond5_1 (grid5.coords t) := fun h => h0 ((hcond5_1 t).mp h)
    rw [Phi5_pos V c _ h0]
    by_cases h7 : t.val = 7
    · have hc2 : cond5_2 (grid5.coords t) := (hcond5_2 t).mpr h7
      rw [show (dat5 V c).leavesExact 3 t = owns (c : Thread nD τ) (st5_3 t) fullShare ((dat5 V c).after 3 t) from by
        unfold Dat.leavesExact; rw [liveAt5_3 t hc2], after5_3]
      unfold out5
      rw [congrArg (acc5 V c) (show 8 = t.val + 1 by omega), acc5_succ V c t]
      iintro ⟨⟨⟨HS, HR⟩, Hg⟩, Ho, ⟨%d0, H0⟩, ⟨%d1, H1⟩, ⟨%d2, H2⟩, ⟨%d3, H3⟩⟩
      iapply (kernelRun5_last c (grid5.coords t) _ _ _ _ _ _ _ _ _ _ hc1 hc2 (iblk5 V c 0 t) (iblk5 V c 1 t) (iblk5 V c 2 t) (acc5 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc2 : ¬cond5_2 (grid5.coords t) := fun h => h7 ((hcond5_2 t).mp h)
      rw [Dat.leavesExact_idle (dat5 V c) 3 t (idleAt5_3 t hc2) (noFlush5_3 t hc2)]
      iintro ⟨⟨⟨HS, HR⟩, Hg⟩, Ho, ⟨%d0, H0⟩, ⟨%d1, H1⟩, ⟨%d2, H2⟩, ⟨%d3, H3⟩⟩
      iapply (kernelRun5_mid c (grid5.coords t) _ _ _ _ _ _ _ _ _ _ hc1 hc2 (iblk5 V c 0 t) (iblk5 V c 1 t) (iblk5 V c 2 t) ((dat5 V c).before 3 t d3) (acc5 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

/-! ## The region's boundary: the arrays out of the core's unscoped buffers, and back

The four windows stand on three buffers: windows 0 and 1 both on the normalised matrix. At the region's entry the
core holds every unscoped buffer whole at the full share; the matrix's buffer is split in two halves along its
share, one per window, and joined again at the exit, where both halves hold the same contents. -/

/-- A window is one of the four. -/
theorem fin4_cases5 (w : Fin 4) : w = 0 ∨ w = 1 ∨ w = 2 ∨ w = 3 := by
  obtain ⟨w, hw⟩ := w; simp only [Fin.ext_iff]; show w = 0 ∨ w = 1 ∨ w = 2 ∨ w = 3; omega

/-- Windows 0 and 1 read one buffer. -/
theorem arr5_1_eq_0 : Pipeline.arrRef spec5 1 = Pipeline.arrRef spec5 0 := rfl

/-- The three buffers behind the four windows' arrays. -/
theorem image_arr5 : Finset.univ.image (Pipeline.arrRef spec5)
    = ([Pipeline.arrRef spec5 0, Pipeline.arrRef spec5 2, Pipeline.arrRef spec5 3] : List (Ref sig .tc)).toFinset := by
  ext b
  simp only [Finset.mem_image, Finset.mem_univ, true_and, List.mem_toFinset, List.mem_cons, List.not_mem_nil, or_false]
  constructor
  · rintro ⟨w, rfl⟩
    rcases fin4_cases5 w with rfl | rfl | rfl | rfl
    · exact Or.inl rfl
    · exact Or.inl arr5_1_eq_0
    · exact Or.inr (Or.inl rfl)
    · exact Or.inr (Or.inr rfl)
  · rintro (rfl | rfl | rfl)
    · exact ⟨0, rfl⟩
    · exact ⟨2, rfl⟩
    · exact ⟨3, rfl⟩

/-- They are three different buffers. -/
theorem nodup_arr5 : ([Pipeline.arrRef spec5 0, Pipeline.arrRef spec5 2, Pipeline.arrRef spec5 3] : List (Ref sig .tc)).Nodup := by
  decide

/-- A points-to of a buffer named in two ways, at a valuation's contents. -/
theorem pointsTo_ref_congr5 (c : Dev nD) {b b' : Ref sig .tc} (h : b = b') (q : PosShare TreeShare)
    (W : (b : Ref sig .tc) → Buf (Elt F) ((c : Thread nD τ).loc b)) :
    ((((c : Thread nD τ).loc b) ↦{q} W b) : sProp 𝕄) = (((c : Thread nD τ).loc b') ↦{q} W b') := by
  subst h; rfl

/-- The buffers behind the arrays, one by one. -/
theorem arrBufs5_eq (c : Dev nD) (W : (b : Ref sig .tc) → Buf (Elt F) ((c : Thread nD τ).loc b)) :
    (Pipeline.arrBufs spec5 c W : sProp 𝕄)
      = iprop((((c : Thread nD τ).loc (Pipeline.arrRef spec5 0)) ↦{fullShare} W (Pipeline.arrRef spec5 0))
          ∗ (((c : Thread nD τ).loc (Pipeline.arrRef spec5 2)) ↦{fullShare} W (Pipeline.arrRef spec5 2))
          ∗ (((c : Thread nD τ).loc (Pipeline.arrRef spec5 3)) ↦{fullShare} W (Pipeline.arrRef spec5 3))) := by
  unfold Pipeline.arrBufs
  exact bigSep_eq_bigSepL_of_eq _ image_arr5 nodup_arr5 _

/-- The shares the proof data holds the arrays at. -/
theorem share5_0 (c : Dev nD) : (dat5 V c).share 0 = fullShare.left := rfl
theorem share5_1 (c : Dev nD) : (dat5 V c).share 1 = fullShare.right := rfl
theorem share5_2 (c : Dev nD) : (dat5 V c).share 2 = fullShare := rfl
theorem share5_3 (c : Dev nD) : (dat5 V c).share 3 = fullShare := rfl

/-- The proof data's arrays, window by window, as points-tos of whole buffers. -/
theorem arrays5_eq (c : Dev nD) (G : (w : Fin cfg5.W) → Buf (Elt F) ((cfg5.win w).arr.view.loc (c : Thread nD τ))) :
    (dat5 V c).arrays G
      = iprop((((c : Thread nD τ).loc (Pipeline.arrRef spec5 0)) ↦{fullShare.left} G 0)
          ∗ (((c : Thread nD τ).loc (Pipeline.arrRef spec5 1)) ↦{fullShare.right} G 1)
          ∗ (((c : Thread nD τ).loc (Pipeline.arrRef spec5 2)) ↦{fullShare} G 2)
          ∗ (((c : Thread nD τ).loc (Pipeline.arrRef spec5 3)) ↦{fullShare} G 3)) := by
  have h : (dat5 V c).arrays G
      = bigSep Finset.univ fun w : Fin cfg5.W => ((((c : Thread nD τ).loc (Pipeline.arrRef spec5 w)) ↦{(dat5 V c).share w} G w) : sProp 𝕄) := by
    unfold Dat.arrays
    exact bigSep_congr fun w _ => by rw [(arr_whole5 w).set_eq_univ]
  rw [h, bigSep_W5]
  simp only [share5_0, share5_1, share5_2, share5_3]

set_option maxHeartbeats 2000000 in
/-- ENTRY: the core's unscoped buffers at `V c` are the proof data's arrays at their entry contents — the matrix's
    buffer split between windows 0 and 1 along its share — and the unscoped rest. -/
theorem entry5 (c : Dev nD) :
    (unscopedBufs c (V c) : sProp 𝕄)
      ⊢ iprop((dat5 V c).arrays ((dat5 V c).arrAt · 0) ∗ Pipeline.unscopedRest spec5 c (V c)) := by
  rewrite [Pipeline.PerCore.unscopedBufs_split₀ (fun (_ : Dev nD) (_ : Unit) => cfg5) () c winFacts₀5.arr_unscoped (V c), arrBufs5_eq, arrays5_eq,
    show (dat5 V c).arrAt 0 0 = V c (Pipeline.arrRef spec5 0) from A_eq5 V c 0, show (dat5 V c).arrAt 1 0 = V c (Pipeline.arrRef spec5 1) from A_eq5 V c 1,
    show (dat5 V c).arrAt 2 0 = V c (Pipeline.arrRef spec5 2) from A_eq5 V c 2, show (dat5 V c).arrAt 3 0 = V c (Pipeline.arrRef spec5 3) from A_eq5 V c 3]
  have hconv : ((((c : Thread nD τ).loc (Pipeline.arrRef spec5 0)) ↦{fullShare.right} V c (Pipeline.arrRef spec5 0)) : sProp 𝕄)
      ⊢ (((c : Thread nD τ).loc (Pipeline.arrRef spec5 1)) ↦{fullShare.right} V c (Pipeline.arrRef spec5 1)) :=
    Entails.of_eq (pointsTo_ref_congr5 c arr5_1_eq_0.symm fullShare.right (V c))
  have hsplit : ((((c : Thread nD τ).loc (Pipeline.arrRef spec5 0)) ↦{fullShare} V c (Pipeline.arrRef spec5 0)) : sProp 𝕄)
      ⊢ iprop((((c : Thread nD τ).loc (Pipeline.arrRef spec5 0)) ↦{fullShare.left} V c (Pipeline.arrRef spec5 0))
          ∗ (((c : Thread nD τ).loc (Pipeline.arrRef spec5 0)) ↦{fullShare.right} V c (Pipeline.arrRef spec5 0))) :=
    (pointsTo_share (PosShare.mem_left_op_right fullShare)).1
  iintro ⟨⟨H0, H2, H3⟩, Hrest⟩
  ihave H01 := hsplit $$ H0
  icases H01 with ⟨H0l, H0r⟩
  isplitr [Hrest]
  · isplitl [H0l]; · iexact H0l
    isplitl [H0r]; · iapply hconv; iexact H0r
    isplitl [H2]; · iexact H2
    iexact H3
  iexact Hrest

set_option maxHeartbeats 2000000 in
/-- EXIT: the arrays at their final contents and the unscoped rest are the core's unscoped buffers at any valuation
    `W'` that has every array at its final contents and agrees with `V c` elsewhere: the two halves of the matrix's
    buffer hold the same contents and join. -/
theorem exit5 (c : Dev nD) (W' : (b : Ref sig .tc) → Buf (Elt F) ((c : Thread nD τ).loc b))
    (hF : ∀ w, (dat5 V c).arrAt w cfg5.N = W' (Pipeline.arrRef spec5 w))
    (hrest : ∀ b, b ∉ Finset.univ.image (Pipeline.arrRef spec5) → W' b = V c b) :
    iprop((dat5 V c).arrays ((dat5 V c).arrAt · cfg5.N) ∗ Pipeline.unscopedRest spec5 c (V c))
      ⊢ (unscopedBufs c W' : sProp 𝕄) := by
  rewrite [Pipeline.PerCore.unscopedBufs_split₀ (fun (_ : Dev nD) (_ : Unit) => cfg5) () c winFacts₀5.arr_unscoped W', arrBufs5_eq, arrays5_eq,
    hF 0, hF 1, hF 2, hF 3]
  have hconv : ((((c : Thread nD τ).loc (Pipeline.arrRef spec5 1)) ↦{fullShare.right} W' (Pipeline.arrRef spec5 1)) : sProp 𝕄)
      ⊢ (((c : Thread nD τ).loc (Pipeline.arrRef spec5 0)) ↦{fullShare.right} W' (Pipeline.arrRef spec5 0)) :=
    Entails.of_eq (pointsTo_ref_congr5 c arr5_1_eq_0 fullShare.right W')
  have hjoin : (iprop((((c : Thread nD τ).loc (Pipeline.arrRef spec5 0)) ↦{fullShare.left} W' (Pipeline.arrRef spec5 0))
          ∗ (((c : Thread nD τ).loc (Pipeline.arrRef spec5 0)) ↦{fullShare.right} W' (Pipeline.arrRef spec5 0))) : sProp 𝕄)
      ⊢ (((c : Thread nD τ).loc (Pipeline.arrRef spec5 0)) ↦{fullShare} W' (Pipeline.arrRef spec5 0)) :=
    (pointsTo_share (PosShare.mem_left_op_right fullShare)).2
  have hR : (Pipeline.unscopedRest spec5 c (V c) : sProp 𝕄) = Pipeline.unscopedRest spec5 c W' := by
    unfold Pipeline.unscopedRest
    exact bigSep_congr fun b hb => by rw [hrest b (Finset.mem_sdiff.mp hb).2]
  rewrite [hR]
  iintro ⟨⟨H0l, H0r, H2, H3⟩, Hrest⟩
  isplitr [Hrest]
  · isplitl [H0l H0r]
    · iapply hjoin
      isplitl [H0l]; · iexact H0l
      iapply hconv; iexact H0r
    isplitl [H2]; · iexact H2
    iexact H3
  iexact Hrest
/-- The invariant at the first point, from the generator register and the scoped buffers no window stages. -/
theorem hin5 (c : Dev nD) :
    (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- The invariant at the last point gives them back: the accumulator's contents are forgotten. -/
theorem hout5 (c : Dev nD) :
    (dat5 V c).Φ (Fin.last cfg5.N) ⊢ (iprop((∃ r, prngReg c r) ∗ Pipeline.scopedRest spec5 c) : sProp 𝕄) := by
  rw [show (dat5 V c).Φ (Fin.last cfg5.N) = Phi5 V c cfg5.N from rfl,
    Phi5_pos V c _ (by rw [show cfg5.N = 8 from N_5]; decide), scopedRest5_split]
  iintro ⟨⟨HS, HR⟩, Hg⟩
  isplitl [Hg]; · iexact Hg
  isplitl [HS]
  · simp only [scM5, owns_whole]; iexists _; iexact HS
  iexact HR

/-! ## The arrays after the run -/

/-- The input arrays are never written. -/
theorem arrAt5_0 (c : Dev nD) (n : ℕ) : (dat5 V c).arrAt 0 n = V c (Pipeline.arrRef spec5 0) :=
  ((dat5 V c).arrAt_in 0 rfl n).trans (A_eq5 V c 0)
theorem arrAt5_1 (c : Dev nD) (n : ℕ) : (dat5 V c).arrAt 1 n = V c (Pipeline.arrRef spec5 1) :=
  ((dat5 V c).arrAt_in 1 rfl n).trans (A_eq5 V c 1)
theorem arrAt5_2 (c : Dev nD) (n : ℕ) : (dat5 V c).arrAt 2 n = V c (Pipeline.arrRef spec5 2) :=
  ((dat5 V c).arrAt_in 2 rfl n).trans (A_eq5 V c 2)

/-- The last point of the grid. -/
def tl5 : Fin cfg5.N := ⟨7, by rw [show cfg5.N = 8 from N_5]; decide⟩

/-- The result array after the run, read through the result window's one block, is `out5`: only the last point
    writes the block back, and it writes what the body left there. -/
theorem final5 (c : Dev nD) :
    ((cfg5.win 3).blk tl5).view.read (Elt F) ((dat5 V c).arrAt 3 cfg5.N) = out5 V c := by
  have hfl : ∀ t : Fin cfg5.N, (cfg5.win 3).flush t = true → t = tl5 := fun t h => by
    have h7 := (flush5_3 t).mp h
    have hlt := t.isLt
    have hN : cfg5.N = 8 := N_5
    apply Fin.ext; show t.val = 7; omega
  rw [(dat5 V c).read_blk_arrAt_eq_flushed 3 (fun t t' h h' hne => absurd ((hfl t h).trans (hfl t' h').symm) hne)
    cfg5.N tl5 tl5.isLt ((flush5_3 tl5).mpr rfl)]
  unfold Dat.flushed
  rw [after5_3]
  rfl

end Cert.Kernel.Hand

end
-- ==== Proof.K.ULoss6Run.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # The pairwise-distance kernel of custom call 6, run once

The kernel body of custom call 6 keeps a one-element accumulator in a scratch buffer across its eight grid
points. On whole staging buffers holding a block `x0` of 256 rows, the whole matrix `x1` and the row of squared
norms `x2`, one execution of the body

* at the first point stores zero into the accumulator and then adds the point's partial sum to it,
* at a middle point adds the point's partial sum to what the accumulator held,
* at the last point does the same and then stores `log (accumulator / 2096128)` into the output block.

The partial sum is the payload `k6_pay4` of the point, the three input blocks and the accumulator's previous
contents; the zero is `k6_pay3`, the logarithm `k6_pay2`. Each theorem below is the body's triple in one of the
three cases, with the contents every buffer ends at stated in closed form over these payloads. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the accumulator is zeroed): the grid coordinate is 0. -/
abbrev cond6_1 (i : grid6.Coords) : Prop := (Scalar.cmpi .ne (Scalar.extui (Scalar.cmpi .eq (BitVec.ofNat 32 (i 0).val) 0#32)) 0#32) = 1#1
/-- The condition of the body's second `scf.if` (the output block is stored): the grid coordinate is 7. -/
abbrev cond6_2 (i : grid6.Coords) : Prop := k6_cond2 i = 1#1

/-- The zero offsets of a rank-two access, as a constant function. -/
theorem hz6 : (![0, 0] : Fin 2 → Nat) = fun _ => 0 := funext fun a => by fin_cases a <;> rfl

/-- The one-element rectangle covers the one-element shape. -/
theorem cover6_unit (y : S1x1.Idx) : y ∈ (Rect.unit (s := S1x1) ![0, 0] S1x1.size inb_S1x1_S1x1_0_0).set :=
  View.mem_set_unit_zero hz6 inb_S1x1_S1x1_0_0 y

set_option maxHeartbeats 1000000 in
/-- A MIDDLE point (neither condition holds): the inputs are read and left as they were, the output block, found at
    `xo`, is handed back at `xo`, and the accumulator, found at `xs`, is left at `xs` plus the point's partial sum. -/
theorem kernelRun6_mid (c : Dev nD) (i : grid6.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond6_1 i) (hc2 : ¬cond6_2 i)
    (x0 : Vec F S256x64 .f32) (x1 : Vec F S2048x64 .f32) (x2 : Vec F S1x2048 .f32) (xo : Vec F S1x1 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k6_pay1 (k6_pay4 i x0 x1 x2 xs))) -∗ K ⟨⟩))
      ⊢ wp frame (wpE (defs₀ (F := F)) Variants.none c none) E (cc6__u_loss_kernel i arg1 harg1 arg2 harg2 arg3 harg3 arg4 harg4 arg5 harg5) K := by
  simp only [cc6__u_loss_kernel_eq_skeleton]; unfold cc6__u_loss_kernel_skel
  simp only [k6_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_singleton_self _, cover6_unit y⟩), View.canon_unit_zero hz6]
  sl_unfold_run_names
  simp only [View.readAt_eq_ld, harg1.read_unread, harg2.read_unread, harg3.read_unread, harg5.read_unread,
    View.ld_unit_zero (S := S256x64) hz6, View.ld_unit_zero (S := S2048x64) hz6, View.ld_unit_zero (S := S1x2048) hz6,
    View.ld_unit_zero (S := S1x1) hz6]

set_option maxHeartbeats 1000000 in
/-- The FIRST point (only the first condition holds): the accumulator, found at anything, is zeroed and then left at
    zero plus the point's partial sum; the inputs are left as they were and the output block, found at `xo`, is handed back at `xo`. -/
theorem kernelRun6_first (c : Dev nD) (i : grid6.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : cond6_1 i) (hc2 : ¬cond6_2 i)
    (x0 : Vec F S256x64 .f32) (x1 : Vec F S2048x64 .f32) (x2 : Vec F S1x2048 .f32) (xo : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k6_pay1 (k6_pay4 i x0 x1 x2 (k6_pay3 (F := F))))) -∗ K ⟨⟩))
      ⊢ wp frame (wpE (defs₀ (F := F)) Variants.none c none) E (cc6__u_loss_kernel i arg1 harg1 arg2 harg2 arg3 harg3 arg4 harg4 arg5 harg5) K := by
  simp only [cc6__u_loss_kernel_eq_skeleton]; unfold cc6__u_loss_kernel_skel
  simp only [k6_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_cons_self, cover6_unit y⟩), View.canon_cons_unit_zero hz6]
  sl_unfold_run_names
  simp only [View.readCov_unit_zero (S := S1x1) _ hz6, View.readAt_eq_ld, harg1.read_unread, harg2.read_unread, harg3.read_unread,
    View.ld_unit_zero (S := S256x64) hz6, View.ld_unit_zero (S := S2048x64) hz6, View.ld_unit_zero (S := S1x2048) hz6]

set_option maxHeartbeats 1000000 in
/-- The LAST point (only the second condition holds): the accumulator, found at `xs`, is left at `xs` plus the
    point's partial sum, and the output block, found at anything, is left at the logarithm payload of that sum; the
    inputs are left as they were. -/
theorem kernelRun6_last (c : Dev nD) (i : grid6.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond6_1 i) (hc2 : cond6_2 i)
    (x0 : Vec F S256x64 .f32) (x1 : Vec F S2048x64 .f32) (x2 : Vec F S1x2048 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k6_pay2 (k6_pay1 (k6_pay4 i x0 x1 x2 xs)))
            ∗ owns (c : Thread nD τ) arg5 fullShare (k6_pay1 (k6_pay4 i x0 x1 x2 xs))) -∗ K ⟨⟩))
      ⊢ wp frame (wpE (defs₀ (F := F)) Variants.none c none) E (cc6__u_loss_kernel i arg1 harg1 arg2 harg2 arg3 harg3 arg4 harg4 arg5 harg5) K := by
  simp only [cc6__u_loss_kernel_eq_skeleton]; unfold cc6__u_loss_kernel_skel
  simp only [k6_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [View.read_writes_eq_canon _ _ _ (fun y => ⟨_, List.mem_singleton_self _, cover6_unit y⟩), View.canon_unit_zero hz6]
    sl_unfold_run_names
    simp only [View.readCov_unit_zero (S := S1x1) _ hz6, View.readAt_eq_ld, harg1.read_unread, harg2.read_unread, harg3.read_unread, harg5.read_unread,
      View.ld_unit_zero (S := S256x64) hz6, View.ld_unit_zero (S := S2048x64) hz6, View.ld_unit_zero (S := S1x2048) hz6,
      View.ld_unit_zero (S := S1x1) hz6]
  iexists _; isplitr
  swap; · iexact HS
  ipureintro
  sl_unfold_run_names
  rw [View.read_writes_eq_canon _ _ _ (fun y => ⟨_, List.mem_singleton_self _, cover6_unit y⟩), View.canon_unit_zero hz6]
  simp only [View.readAt_eq_ld, harg1.read_unread, harg2.read_unread, harg3.read_unread, harg5.read_unread,
    View.ld_unit_zero (S := S256x64) hz6, View.ld_unit_zero (S := S2048x64) hz6, View.ld_unit_zero (S := S1x2048) hz6,
    View.ld_unit_zero (S := S1x1) hz6]

end Cert.Kernel.Hand

end
-- ==== Proof.K.ULoss6.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«108982_j38147899523261_2_alg».proof.Proof.K.ULoss6Run

/-! # Custom call 6 as a pipeline: its proof data and its body obligation

Custom call 6 runs the pairwise-distance kernel over eight grid points. Window 0 hands it one block of 256 rows
of the normalised matrix per point, window 1 the whole matrix and window 2 the row of squared norms (both fetched
once), and window 3 is the one-element result, stored and written back at the last point only. A one-element
scratch buffer carries the running sum from point to point.

This module names what the scratch holds after `t` points (`acc6`: zero, then the partial sums of the points added
in order), what the result block holds at the end (`out6`: the logarithm payload of the full sum), gives the
pipeline's proof data over the region-entry contents `V` (`dat6`), and proves that the kernel body meets the
pipeline's body obligation at every point, from the three single-point runs of the body. Windows 0 and 1 read one
array: the proof data gives window 0 the left half of that array's share and window 1 the right half. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the running sum -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What the scratch accumulator holds after `t` points: zero (what the first point's reset stores) before any
    point, and after point `n` what it held before plus that point's partial sum over the three input blocks. -/
def acc6 (c : Dev nD) : ℕ → Vec F S1x1 .f32
  | 0 => k6_pay3 (F := F)
  | n + 1 =>
    if h : n < cfg6.N then
      k6_pay1 (k6_pay4 (grid6.coords ⟨n, h⟩) (iblk6 V c 0 ⟨n, h⟩) (iblk6 V c 1 ⟨n, h⟩) (iblk6 V c 2 ⟨n, h⟩) (acc6 c n))
    else acc6 c n

/-- Before any point the accumulator is the zero the reset stores. -/
theorem acc6_zero (c : Dev nD) : acc6 V c 0 = k6_pay3 (F := F) := rfl

/-- Point `t` adds its partial sum to what the accumulator held. -/
theorem acc6_succ (c : Dev nD) (t : Fin cfg6.N) :
    acc6 V c (t.val + 1)
      = k6_pay1 (k6_pay4 (grid6.coords t) (iblk6 V c 0 t) (iblk6 V c 1 t) (iblk6 V c 2 t) (acc6 V c t.val)) := by
  obtain ⟨n, hn⟩ := t
  exact dif_pos hn

/-- The result block after the last point: the logarithm of the full sum over the pair count. -/
def out6 (c : Dev nD) : Vec F S1x1 .f32 := k6_pay2 (acc6 V c 8)

/-! ## The body's branch conditions, and where the result window is idle -/

/-- The accumulator is reset at the first point only. -/
theorem hcond6_1 : ∀ t : Fin cfg6.N, cond6_1 (grid6.coords t) ↔ t.val = 0 :=
  (by decide +kernel : ∀ t : Fin grid6.N, cond6_1 (grid6.coords t) ↔ t.val = 0)
/-- The result block is stored at the last point only. -/
theorem hcond6_2 : ∀ t : Fin cfg6.N, cond6_2 (grid6.coords t) ↔ t.val = 7 :=
  (by decide +kernel : ∀ t : Fin grid6.N, cond6_2 (grid6.coords t) ↔ t.val = 7)

/-- The input windows are never idle. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- Where the result block is not stored the result window is idle and is not written back; -/
theorem idleAt6_3 : ∀ t : Fin cfg6.N, ¬cond6_2 (grid6.coords t) → cfg6.idle 3 (grid6.coords t) = true := by decide +kernel
theorem noFlush6_3 : ∀ t : Fin cfg6.N, ¬cond6_2 (grid6.coords t) → (cfg6.win 3).flush t = false := by decide +kernel
/-- where it is stored the window is live. -/
theorem liveAt6_3 : ∀ t : Fin cfg6.N, cond6_2 (grid6.coords t) → cfg6.idle 3 (grid6.coords t) = false := by decide +kernel

/-! ## The invariant: the scratch accumulator between points -/

/-- The scratch accumulator as a memref: a whole scoped buffer of the kernel's own. -/
abbrev scM6 : Memref sig .tc .vmem S1x1 .f32 := Memref.whole cc6_scratch0

/-- The scoped buffers no window stages, the accumulator apart. -/
abbrev rest6 (c : Dev nD) : sProp 𝕄 :=
  Pipeline.scopedRestBut (Ix := Unit) (Name := ℕ) (U := UR sig nD τ) (Lvl := ℕ) (Val := Elt F) spec6 c [cc6_scratch0]

/-- The region invariant before position `n`: before the first point every scoped buffer no window stages at some
    contents and the generator register at some state; afterwards the same with the accumulator at the running
    sum of the points so far. -/
def Phi6 (c : Dev nD) : ℕ → sProp 𝕄
  | 0 => Pipeline.ΦA spec6 c
  | n + 1 => iprop(iprop(owns (c : Thread nD τ) scM6 fullShare (acc6 V c (n + 1)) ∗ rest6 c) ∗ (∃ r, prngReg c r))

/-- Before the first point, with the accumulator split off the scoped rest. -/
theorem PhiA6_eq (c : Dev nD) :
    (Pipeline.ΦA spec6 c : sProp 𝕄)
      = iprop(iprop((∃ d, owns (c : Thread nD τ) scM6 fullShare d) ∗ rest6 c) ∗ (∃ r, prngReg c r)) := by
  unfold Pipeline.ΦA; rw [scopedRest6_split]; simp only [scM6, owns_whole]; rfl

theorem Phi6_zero (c : Dev nD) (n : ℕ) (hz : n = 0) : Phi6 V c n = Pipeline.ΦA spec6 c := by
  subst hz; rfl

theorem Phi6_succ (c : Dev nD) (n : ℕ) :
    Phi6 V c (n + 1) = iprop(iprop(owns (c : Thread nD τ) scM6 fullShare (acc6 V c (n + 1)) ∗ rest6 c) ∗ (∃ r, prngReg c r)) := rfl

theorem Phi6_pos (c : Dev nD) (n : ℕ) (hz : n ≠ 0) :
    Phi6 V c n = iprop(iprop(owns (c : Thread nD τ) scM6 fullShare (acc6 V c n) ∗ rest6 c) ∗ (∃ r, prngReg c r)) := by
  cases n with
  | zero => exact absurd rfl hz
  | succ n => rfl

/-! ## The pipeline's proof data -/

/-- The proof data of custom call 6 on core `c`: the arrays as the region finds them (`V`); after the body at any
    point each input's buffer at its block and the result's at `out6` (read only at the last point: before it the
    window is idle); the invariant `Phi6`; nothing owed; the array windows 0 and 1 share split between them, left
    half and right half. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 V c
  Φ t := Phi6 V c t.val
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6 V c := by dsimp only [dat6]

/-- The invariant at a point's start and end, restated at the position's number. -/
theorem Phi6_castSucc (c : Dev nD) (t : Fin cfg6.N) : (dat6 V c).Φ t.castSucc = Phi6 V c t.val := by
  dsimp only [dat6]; simp only [Fin.coe_castSucc]
theorem Phi6_at_succ (c : Dev nD) (t : Fin cfg6.N) : (dat6 V c).Φ t.succ = Phi6 V c (t.val + 1) := by
  dsimp only [dat6]; simp only [Fin.val_succ]

/-- Each input's current staging buffer holds its block at every point, fetched there or not: an input whose body
    leaves its block in place holds what a fetch puts there, and unfetched its block index has not moved. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

/-- The inputs' posts: never idle, each buffer is left at its block. -/
theorem leaves6_0 (c : Dev nD) (t : Fin cfg6.N) :
    (dat6 V c).leavesExact 0 t = owns (c : Thread nD τ) (st6_0 t) fullShare (iblk6 V c 0 t) := by
  unfold Dat.leavesExact; rw [liveAt6_0 t, after6_0]
theorem leaves6_1 (c : Dev nD) (t : Fin cfg6.N) :
    (dat6 V c).leavesExact 1 t = owns (c : Thread nD τ) (st6_1 t) fullShare (iblk6 V c 1 t) := by
  unfold Dat.leavesExact; rw [liveAt6_1 t, after6_1]
theorem leaves6_2 (c : Dev nD) (t : Fin cfg6.N) :
    (dat6 V c).leavesExact 2 t = owns (c : Thread nD τ) (st6_2 t) fullShare (iblk6 V c 2 t) := by
  unfold Dat.leavesExact; rw [liveAt6_2 t, after6_2]

set_option maxHeartbeats 4000000 in
/-- The body at any point. The inputs' buffers hold their blocks; the point's number says which of the three cases it
    is in; the invariant hands the body the accumulator at the running sum of the points before (at anything at the
    first point, which resets it) and takes it back at the running sum with this point's partial sum added; at the
    last point the result block is left at the logarithm payload of the full sum, elsewhere it is handed back
    untouched. The core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [Phi6_at_succ, Phi6_succ, Phi6_castSucc, leaves6_0, leaves6_1, leaves6_2, acc6_succ V c t]
  have hN : t.val < 8 := lt_of_lt_of_eq t.isLt (show cfg6.N = 8 from N_6)
  by_cases h0 : t.val = 0
  · have hc1 : cond6_1 (grid6.coords t) := (hcond6_1 t).mpr h0
    have hc2 : ¬cond6_2 (grid6.coords t) := fun h => by have := (hcond6_2 t).mp h; omega
    rw [Dat.leavesExact_idle (dat6 V c) 3 t (idleAt6_3 t hc2) (noFlush6_3 t hc2)]
    rw [Phi6_zero V c _ h0, PhiA6_eq, (congrArg (acc6 V c) h0).trans (acc6_zero V c)]
    iintro ⟨⟨⟨HS, HR⟩, Hg⟩, Ho, ⟨%d0, H0⟩, ⟨%d1, H1⟩, ⟨%d2, H2⟩, ⟨%d3, H3⟩⟩
    iapply (kernelRun6_first c (grid6.coords t) _ _ _ _ _ _ _ _ _ _ hc1 hc2 (iblk6 V c 0 t) (iblk6 V c 1 t) (iblk6 V c 2 t) ((dat6 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists d3; iexact H3
  · have hc1 : ¬cond6_1 (grid6.coords t) := fun h => h0 ((hcond6_1 t).mp h)
    rw [Phi6_pos V c _ h0]
    by_cases h7 : t.val = 7
    · have hc2 : cond6_2 (grid6.coords t) := (hcond6_2 t).mpr h7
      rw [show (dat6 V c).leavesExact 3 t = owns (c : Thread nD τ) (st6_3 t) fullShare ((dat6 V c).after 3 t) from by
        unfold Dat.leavesExact; rw [liveAt6_3 t hc2], after6_3]
      unfold out6
      rw [congrArg (acc6 V c) (show 8 = t.val + 1 by omega), acc6_succ V c t]
      iintro ⟨⟨⟨HS, HR⟩, Hg⟩, Ho, ⟨%d0, H0⟩, ⟨%d1, H1⟩, ⟨%d2, H2⟩, ⟨%d3, H3⟩⟩
      iapply (kernelRun6_last c (grid6.coords t) _ _ _ _ _ _ _ _ _ _ hc1 hc2 (iblk6 V c 0 t) (iblk6 V c 1 t) (iblk6 V c 2 t) (acc6 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc2 : ¬cond6_2 (grid6.coords t) := fun h => h7 ((hcond6_2 t).mp h)
      rw [Dat.leavesExact_idle (dat6 V c) 3 t (idleAt6_3 t hc2) (noFlush6_3 t hc2)]
      iintro ⟨⟨⟨HS, HR⟩, Hg⟩, Ho, ⟨%d0, H0⟩, ⟨%d1, H1⟩, ⟨%d2, H2⟩, ⟨%d3, H3⟩⟩
      iapply (kernelRun6_mid c (grid6.coords t) _ _ _ _ _ _ _ _ _ _ hc1 hc2 (iblk6 V c 0 t) (iblk6 V c 1 t) (iblk6 V c 2 t) ((dat6 V c).before 3 t d3) (acc6 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

/-! ## The region's boundary: the arrays out of the core's unscoped buffers, and back

The four windows stand on three buffers: windows 0 and 1 both on the normalised matrix. At the region's entry the
core holds every unscoped buffer whole at the full share; the matrix's buffer is split in two halves along its
share, one per window, and joined again at the exit, where both halves hold the same contents. -/

/-- A window is one of the four. -/
theorem fin4_cases6 (w : Fin 4) : w = 0 ∨ w = 1 ∨ w = 2 ∨ w = 3 := by
  obtain ⟨w, hw⟩ := w; simp only [Fin.ext_iff]; show w = 0 ∨ w = 1 ∨ w = 2 ∨ w = 3; omega

/-- Windows 0 and 1 read one buffer. -/
theorem arr6_1_eq_0 : Pipeline.arrRef spec6 1 = Pipeline.arrRef spec6 0 := rfl

/-- The three buffers behind the four windows' arrays. -/
theorem image_arr6 : Finset.univ.image (Pipeline.arrRef spec6)
    = ([Pipeline.arrRef spec6 0, Pipeline.arrRef spec6 2, Pipeline.arrRef spec6 3] : List (Ref sig .tc)).toFinset := by
  ext b
  simp only [Finset.mem_image, Finset.mem_univ, true_and, List.mem_toFinset, List.mem_cons, List.not_mem_nil, or_false]
  constructor
  · rintro ⟨w, rfl⟩
    rcases fin4_cases6 w with rfl | rfl | rfl | rfl
    · exact Or.inl rfl
    · exact Or.inl arr6_1_eq_0
    · exact Or.inr (Or.inl rfl)
    · exact Or.inr (Or.inr rfl)
  · rintro (rfl | rfl | rfl)
    · exact ⟨0, rfl⟩
    · exact ⟨2, rfl⟩
    · exact ⟨3, rfl⟩

/-- They are three different buffers. -/
theorem nodup_arr6 : ([Pipeline.arrRef spec6 0, Pipeline.arrRef spec6 2, Pipeline.arrRef spec6 3] : List (Ref sig .tc)).Nodup := by
  decide

/-- A points-to of a buffer named in two ways, at a valuation's contents. -/
theorem pointsTo_ref_congr6 (c : Dev nD) {b b' : Ref sig .tc} (h : b = b') (q : PosShare TreeShare)
    (W : (b : Ref sig .tc) → Buf (Elt F) ((c : Thread nD τ).loc b)) :
    ((((c : Thread nD τ).loc b) ↦{q} W b) : sProp 𝕄) = (((c : Thread nD τ).loc b') ↦{q} W b') := by
  subst h; rfl

/-- The buffers behind the arrays, one by one. -/
theorem arrBufs6_eq (c : Dev nD) (W : (b : Ref sig .tc) → Buf (Elt F) ((c : Thread nD τ).loc b)) :
    (Pipeline.arrBufs spec6 c W : sProp 𝕄)
      = iprop((((c : Thread nD τ).loc (Pipeline.arrRef spec6 0)) ↦{fullShare} W (Pipeline.arrRef spec6 0))
          ∗ (((c : Thread nD τ).loc (Pipeline.arrRef spec6 2)) ↦{fullShare} W (Pipeline.arrRef spec6 2))
          ∗ (((c : Thread nD τ).loc (Pipeline.arrRef spec6 3)) ↦{fullShare} W (Pipeline.arrRef spec6 3))) := by
  unfold Pipeline.arrBufs
  exact bigSep_eq_bigSepL_of_eq _ image_arr6 nodup_arr6 _

/-- The shares the proof data holds the arrays at. -/
theorem share6_0 (c : Dev nD) : (dat6 V c).share 0 = fullShare.left := rfl
theorem share6_1 (c : Dev nD) : (dat6 V c).share 1 = fullShare.right := rfl
theorem share6_2 (c : Dev nD) : (dat6 V c).share 2 = fullShare := rfl
theorem share6_3 (c : Dev nD) : (dat6 V c).share 3 = fullShare := rfl

/-- The proof data's arrays, window by window, as points-tos of whole buffers. -/
theorem arrays6_eq (c : Dev nD) (G : (w : Fin cfg6.W) → Buf (Elt F) ((cfg6.win w).arr.view.loc (c : Thread nD τ))) :
    (dat6 V c).arrays G
      = iprop((((c : Thread nD τ).loc (Pipeline.arrRef spec6 0)) ↦{fullShare.left} G 0)
          ∗ (((c : Thread nD τ).loc (Pipeline.arrRef spec6 1)) ↦{fullShare.right} G 1)
          ∗ (((c : Thread nD τ).loc (Pipeline.arrRef spec6 2)) ↦{fullShare} G 2)
          ∗ (((c : Thread nD τ).loc (Pipeline.arrRef spec6 3)) ↦{fullShare} G 3)) := by
  have h : (dat6 V c).arrays G
      = bigSep Finset.univ fun w : Fin cfg6.W => ((((c : Thread nD τ).loc (Pipeline.arrRef spec6 w)) ↦{(dat6 V c).share w} G w) : sProp 𝕄) := by
    unfold Dat.arrays
    exact bigSep_congr fun w _ => by rw [(arr_whole6 w).set_eq_univ]
  rw [h, bigSep_W6]
  simp only [share6_0, share6_1, share6_2, share6_3]

set_option maxHeartbeats 2000000 in
/-- ENTRY: the core's unscoped buffers at `V c` are the proof data's arrays at their entry contents — the matrix's
    buffer split between windows 0 and 1 along its share — and the unscoped rest. -/
theorem entry6 (c : Dev nD) :
    (unscopedBufs c (V c) : sProp 𝕄)
      ⊢ iprop((dat6 V c).arrays ((dat6 V c).arrAt · 0) ∗ Pipeline.unscopedRest spec6 c (V c)) := by
  rewrite [Pipeline.PerCore.unscopedBufs_split₀ (fun (_ : Dev nD) (_ : Unit) => cfg6) () c winFacts₀6.arr_unscoped (V c), arrBufs6_eq, arrays6_eq,
    show (dat6 V c).arrAt 0 0 = V c (Pipeline.arrRef spec6 0) from A_eq6 V c 0, show (dat6 V c).arrAt 1 0 = V c (Pipeline.arrRef spec6 1) from A_eq6 V c 1,
    show (dat6 V c).arrAt 2 0 = V c (Pipeline.arrRef spec6 2) from A_eq6 V c 2, show (dat6 V c).arrAt 3 0 = V c (Pipeline.arrRef spec6 3) from A_eq6 V c 3]
  have hconv : ((((c : Thread nD τ).loc (Pipeline.arrRef spec6 0)) ↦{fullShare.right} V c (Pipeline.arrRef spec6 0)) : sProp 𝕄)
      ⊢ (((c : Thread nD τ).loc (Pipeline.arrRef spec6 1)) ↦{fullShare.right} V c (Pipeline.arrRef spec6 1)) :=
    Entails.of_eq (pointsTo_ref_congr6 c arr6_1_eq_0.symm fullShare.right (V c))
  have hsplit : ((((c : Thread nD τ).loc (Pipeline.arrRef spec6 0)) ↦{fullShare} V c (Pipeline.arrRef spec6 0)) : sProp 𝕄)
      ⊢ iprop((((c : Thread nD τ).loc (Pipeline.arrRef spec6 0)) ↦{fullShare.left} V c (Pipeline.arrRef spec6 0))
          ∗ (((c : Thread nD τ).loc (Pipeline.arrRef spec6 0)) ↦{fullShare.right} V c (Pipeline.arrRef spec6 0))) :=
    (pointsTo_share (PosShare.mem_left_op_right fullShare)).1
  iintro ⟨⟨H0, H2, H3⟩, Hrest⟩
  ihave H01 := hsplit $$ H0
  icases H01 with ⟨H0l, H0r⟩
  isplitr [Hrest]
  · isplitl [H0l]; · iexact H0l
    isplitl [H0r]; · iapply hconv; iexact H0r
    isplitl [H2]; · iexact H2
    iexact H3
  iexact Hrest

set_option maxHeartbeats 2000000 in
/-- EXIT: the arrays at their final contents and the unscoped rest are the core's unscoped buffers at any valuation
    `W'` that has every array at its final contents and agrees with `V c` elsewhere: the two halves of the matrix's
    buffer hold the same contents and join. -/
theorem exit6 (c : Dev nD) (W' : (b : Ref sig .tc) → Buf (Elt F) ((c : Thread nD τ).loc b))
    (hF : ∀ w, (dat6 V c).arrAt w cfg6.N = W' (Pipeline.arrRef spec6 w))
    (hrest : ∀ b, b ∉ Finset.univ.image (Pipeline.arrRef spec6) → W' b = V c b) :
    iprop((dat6 V c).arrays ((dat6 V c).arrAt · cfg6.N) ∗ Pipeline.unscopedRest spec6 c (V c))
      ⊢ (unscopedBufs c W' : sProp 𝕄) := by
  rewrite [Pipeline.PerCore.unscopedBufs_split₀ (fun (_ : Dev nD) (_ : Unit) => cfg6) () c winFacts₀6.arr_unscoped W', arrBufs6_eq, arrays6_eq,
    hF 0, hF 1, hF 2, hF 3]
  have hconv : ((((c : Thread nD τ).loc (Pipeline.arrRef spec6 1)) ↦{fullShare.right} W' (Pipeline.arrRef spec6 1)) : sProp 𝕄)
      ⊢ (((c : Thread nD τ).loc (Pipeline.arrRef spec6 0)) ↦{fullShare.right} W' (Pipeline.arrRef spec6 0)) :=
    Entails.of_eq (pointsTo_ref_congr6 c arr6_1_eq_0 fullShare.right W')
  have hjoin : (iprop((((c : Thread nD τ).loc (Pipeline.arrRef spec6 0)) ↦{fullShare.left} W' (Pipeline.arrRef spec6 0))
          ∗ (((c : Thread nD τ).loc (Pipeline.arrRef spec6 0)) ↦{fullShare.right} W' (Pipeline.arrRef spec6 0))) : sProp 𝕄)
      ⊢ (((c : Thread nD τ).loc (Pipeline.arrRef spec6 0)) ↦{fullShare} W' (Pipeline.arrRef spec6 0)) :=
    (pointsTo_share (PosShare.mem_left_op_right fullShare)).2
  have hR : (Pipeline.unscopedRest spec6 c (V c) : sProp 𝕄) = Pipeline.unscopedRest spec6 c W' := by
    unfold Pipeline.unscopedRest
    exact bigSep_congr fun b hb => by rw [hrest b (Finset.mem_sdiff.mp hb).2]
  rewrite [hR]
  iintro ⟨⟨H0l, H0r, H2, H3⟩, Hrest⟩
  isplitr [Hrest]
  · isplitl [H0l H0r]
    · iapply hjoin
      isplitl [H0l]; · iexact H0l
      iapply hconv; iexact H0r
    isplitl [H2]; · iexact H2
    iexact H3
  iexact Hrest
/-- The invariant at the first point, from the generator register and the scoped buffers no window stages. -/
theorem hin6 (c : Dev nD) :
    (iprop((∃ r, prngReg c r) ∗ Pipeline.scopedRest spec6 c) : sProp 𝕄) ⊢ (dat6 V c).Φ 0 := by
  rw [show (dat6 V c).Φ 0 = Pipeline.ΦA spec6 c from rfl]; unfold Pipeline.ΦA
  iintro ⟨Hp, Hr⟩
  isplitl [Hr]; · iexact Hr
  iexact Hp

/-- The invariant at the last point gives them back: the accumulator's contents are forgotten. -/
theorem hout6 (c : Dev nD) :
    (dat6 V c).Φ (Fin.last cfg6.N) ⊢ (iprop((∃ r, prngReg c r) ∗ Pipeline.scopedRest spec6 c) : sProp 𝕄) := by
  rw [show (dat6 V c).Φ (Fin.last cfg6.N) = Phi6 V c cfg6.N from rfl,
    Phi6_pos V c _ (by rw [show cfg6.N = 8 from N_6]; decide), scopedRest6_split]
  iintro ⟨⟨HS, HR⟩, Hg⟩
  isplitl [Hg]; · iexact Hg
  isplitl [HS]
  · simp only [scM6, owns_whole]; iexists _; iexact HS
  iexact HR

/-! ## The arrays after the run -/

/-- The input arrays are never written. -/
theorem arrAt6_0 (c : Dev nD) (n : ℕ) : (dat6 V c).arrAt 0 n = V c (Pipeline.arrRef spec6 0) :=
  ((dat6 V c).arrAt_in 0 rfl n).trans (A_eq6 V c 0)
theorem arrAt6_1 (c : Dev nD) (n : ℕ) : (dat6 V c).arrAt 1 n = V c (Pipeline.arrRef spec6 1) :=
  ((dat6 V c).arrAt_in 1 rfl n).trans (A_eq6 V c 1)
theorem arrAt6_2 (c : Dev nD) (n : ℕ) : (dat6 V c).arrAt 2 n = V c (Pipeline.arrRef spec6 2) :=
  ((dat6 V c).arrAt_in 2 rfl n).trans (A_eq6 V c 2)

/-- The last point of the grid. -/
def tl6 : Fin cfg6.N := ⟨7, by rw [show cfg6.N = 8 from N_6]; decide⟩

/-- The result array after the run, read through the result window's one block, is `out6`: only the last point
    writes the block back, and it writes what the body left there. -/
theorem final6 (c : Dev nD) :
    ((cfg6.win 3).blk tl6).view.read (Elt F) ((dat6 V c).arrAt 3 cfg6.N) = out6 V c := by
  have hfl : ∀ t : Fin cfg6.N, (cfg6.win 3).flush t = true → t = tl6 := fun t h => by
    have h7 := (flush6_3 t).mp h
    have hlt := t.isLt
    have hN : cfg6.N = 8 := N_6
    apply Fin.ext; show t.val = 7; omega
  rw [(dat6 V c).read_blk_arrAt_eq_flushed 3 (fun t t' h h' hne => absurd ((hfl t h).trans (hfl t' h').symm) hne)
    cfg6.N tl6 tl6.isLt ((flush6_3 tl6).mpr rfl)]
  unfold Dat.flushed
  rw [after6_3]
  rfl

end Cert.Kernel.Hand

end
-- ==== Proof.K.ULoss7Run.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # The pairwise-distance kernel of custom call 7, run once

The kernel body of custom call 7 keeps a one-element accumulator in a scratch buffer across its eight grid
points. On whole staging buffers holding a block `x0` of 256 rows, the whole matrix `x1` and the row of squared
norms `x2`, one execution of the body

* at the first point stores zero into the accumulator and then adds the point's partial sum to it,
* at a middle point adds the point's partial sum to what the accumulator held,
* at the last point does the same and then stores `log (accumulator / 2096128)` into the output block.

The partial sum is the payload `k7_pay4` of the point, the three input blocks and the accumulator's previous
contents; the zero is `k7_pay3`, the logarithm `k7_pay2`. Each theorem below is the body's triple in one of the
three cases, with the contents every buffer ends at stated in closed form over these payloads. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the accumulator is zeroed): the grid coordinate is 0. -/
abbrev cond7_1 (i : grid7.Coords) : Prop := (Scalar.cmpi .ne (Scalar.extui (Scalar.cmpi .eq (BitVec.ofNat 32 (i 0).val) 0#32)) 0#32) = 1#1
/-- The condition of the body's second `scf.if` (the output block is stored): the grid coordinate is 7. -/
abbrev cond7_2 (i : grid7.Coords) : Prop := k7_cond2 i = 1#1

/-- The zero offsets of a rank-two access, as a constant function. -/
theorem hz7 : (![0, 0] : Fin 2 → Nat) = fun _ => 0 := funext fun a => by fin_cases a <;> rfl

/-- The one-element rectangle covers the one-element shape. -/
theorem cover7_unit (y : S1x1.Idx) : y ∈ (Rect.unit (s := S1x1) ![0, 0] S1x1.size inb_S1x1_S1x1_0_0).set :=
  View.mem_set_unit_zero hz7 inb_S1x1_S1x1_0_0 y

set_option maxHeartbeats 1000000 in
/-- A MIDDLE point (neither condition holds): the inputs are read and left as they were, the output block, found at
    `xo`, is handed back at `xo`, and the accumulator, found at `xs`, is left at `xs` plus the point's partial sum. -/
theorem kernelRun7_mid (c : Dev nD) (i : grid7.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond7_1 i) (hc2 : ¬cond7_2 i)
    (x0 : Vec F S256x64 .f32) (x1 : Vec F S2048x64 .f32) (x2 : Vec F S1x2048 .f32) (xo : Vec F S1x1 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k7_pay1 (k7_pay4 i x0 x1 x2 xs))) -∗ K ⟨⟩))
      ⊢ wp frame (wpE (defs₀ (F := F)) Variants.none c none) E (cc7__u_loss_kernel i arg1 harg1 arg2 harg2 arg3 harg3 arg4 harg4 arg5 harg5) K := by
  simp only [cc7__u_loss_kernel_eq_skeleton]; unfold cc7__u_loss_kernel_skel
  simp only [k7_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_singleton_self _, cover7_unit y⟩), View.canon_unit_zero hz7]
  sl_unfold_run_names
  simp only [View.readAt_eq_ld, harg1.read_unread, harg2.read_unread, harg3.read_unread, harg5.read_unread,
    View.ld_unit_zero (S := S256x64) hz7, View.ld_unit_zero (S := S2048x64) hz7, View.ld_unit_zero (S := S1x2048) hz7,
    View.ld_unit_zero (S := S1x1) hz7]

set_option maxHeartbeats 1000000 in
/-- The FIRST point (only the first condition holds): the accumulator, found at anything, is zeroed and then left at
    zero plus the point's partial sum; the inputs are left as they were and the output block, found at `xo`, is handed back at `xo`. -/
theorem kernelRun7_first (c : Dev nD) (i : grid7.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : cond7_1 i) (hc2 : ¬cond7_2 i)
    (x0 : Vec F S256x64 .f32) (x1 : Vec F S2048x64 .f32) (x2 : Vec F S1x2048 .f32) (xo : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k7_pay1 (k7_pay4 i x0 x1 x2 (k7_pay3 (F := F))))) -∗ K ⟨⟩))
      ⊢ wp frame (wpE (defs₀ (F := F)) Variants.none c none) E (cc7__u_loss_kernel i arg1 harg1 arg2 harg2 arg3 harg3 arg4 harg4 arg5 harg5) K := by
  simp only [cc7__u_loss_kernel_eq_skeleton]; unfold cc7__u_loss_kernel_skel
  simp only [k7_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_cons_self, cover7_unit y⟩), View.canon_cons_unit_zero hz7]
  sl_unfold_run_names
  simp only [View.readCov_unit_zero (S := S1x1) _ hz7, View.readAt_eq_ld, harg1.read_unread, harg2.read_unread, harg3.read_unread,
    View.ld_unit_zero (S := S256x64) hz7, View.ld_unit_zero (S := S2048x64) hz7, View.ld_unit_zero (S := S1x2048) hz7]

set_option maxHeartbeats 1000000 in
/-- The LAST point (only the second condition holds): the accumulator, found at `xs`, is left at `xs` plus the
    point's partial sum, and the output block, found at anything, is left at the logarithm payload of that sum; the
    inputs are left as they were. -/
theorem kernelRun7_last (c : Dev nD) (i : grid7.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond7_1 i) (hc2 : cond7_2 i)
    (x0 : Vec F S256x64 .f32) (x1 : Vec F S2048x64 .f32) (x2 : Vec F S1x2048 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k7_pay2 (k7_pay1 (k7_pay4 i x0 x1 x2 xs)))
            ∗ owns (c : Thread nD τ) arg5 fullShare (k7_pay1 (k7_pay4 i x0 x1 x2 xs))) -∗ K ⟨⟩))
      ⊢ wp frame (wpE (defs₀ (F := F)) Variants.none c none) E (cc7__u_loss_kernel i arg1 harg1 arg2 harg2 arg3 harg3 arg4 harg4 arg5 harg5) K := by
  simp only [cc7__u_loss_kernel_eq_skeleton]; unfold cc7__u_loss_kernel_skel
  simp only [k7_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [View.read_writes_eq_canon _ _ _ (fun y => ⟨_, List.mem_singleton_self _, cover7_unit y⟩), View.canon_unit_zero hz7]
    sl_unfold_run_names
    simp only [View.readCov_unit_zero (S := S1x1) _ hz7, View.readAt_eq_ld, harg1.read_unread, harg2.read_unread, harg3.read_unread, harg5.read_unread,
      View.ld_unit_zero (S := S256x64) hz7, View.ld_unit_zero (S := S2048x64) hz7, View.ld_unit_zero (S := S1x2048) hz7,
      View.ld_unit_zero (S := S1x1) hz7]
  iexists _; isplitr
  swap; · iexact HS
  ipureintro
  sl_unfold_run_names
  rw [View.read_writes_eq_canon _ _ _ (fun y => ⟨_, List.mem_singleton_self _, cover7_unit y⟩), View.canon_unit_zero hz7]
  simp only [View.readAt_eq_ld, harg1.read_unread, harg2.read_unread, harg3.read_unread, harg5.read_unread,
    View.ld_unit_zero (S := S256x64) hz7, View.ld_unit_zero (S := S2048x64) hz7, View.ld_unit_zero (S := S1x2048) hz7,
    View.ld_unit_zero (S := S1x1) hz7]

end Cert.Kernel.Hand

end
-- ==== Proof.K.ULoss7.lean ====
import proofs.«108982_j38147899523261_2_alg».proof.Proof.Gen.Kernel.Launch
import proofs.«108982_j38147899523261_2_alg».proof.Proof.Gen.Kernel.Skeleton
import proofs.«108982_j38147899523261_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«108982_j38147899523261_2_alg».proof.Proof.K.ULoss7Run

/-! # Custom call 7 as a pipeline: its proof data and its body obligation

Custom call 7 runs the pairwise-distance kernel over eight grid points. Window 0 hands it one block of 256 rows
of the normalised matrix per point, window 1 the whole matrix and window 2 the row of squared norms (both fetched
once), and window 3 is the one-element result, stored and written back at the last point only. A one-element
scratch buffer carries the running sum from point to point.

This module names what the scratch holds after `t` points (`acc7`: zero, then the partial sums of the points added
in order), what the result block holds at the end (`out7`: the logarithm payload of the full sum), gives the
pipeline's proof data over the region-entry contents `V` (`dat7`), and proves that the kernel body meets the
pipeline's body obligation at every point, from the three single-point runs of the body. Windows 0 and 1 read one
array: the proof data gives window 0 the left half of that array's share and window 1 the right half. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the running sum -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- What the scratch accumulator holds after `t` points: zero (what the first point's reset stores) before any
    point, and after point `n` what it held before plus that point's partial sum over the three input blocks. -/
def acc7 (c : Dev nD) : ℕ → Vec F S1x1 .f32
  | 0 => k7_pay3 (F := F)
  | n + 1 =>
    if h : n < cfg7.N then
      k7_pay1 (k7_pay4 (grid7.coords ⟨n, h⟩) (iblk7 V c 0 ⟨n, h⟩) (iblk7 V c 1 ⟨n, h⟩) (iblk7 V c 2 ⟨n, h⟩) (acc7 c n))
    else acc7 c n

/-- Before any point the accumulator is the zero the reset stores. -/
theorem acc7_zero (c : Dev nD) : acc7 V c 0 = k7_pay3 (F := F) := rfl

/-- Point `t` adds its partial sum to what the accumulator held. -/
theorem acc7_succ (c : Dev nD) (t : Fin cfg7.N) :
    acc7 V c (t.val + 1)
      = k7_pay1 (k7_pay4 (grid7.coords t) (iblk7 V c 0 t) (iblk7 V c 1 t) (iblk7 V c 2 t) (acc7 V c t.val)) := by
  obtain ⟨n, hn⟩ := t
  exact dif_pos hn

/-- The result block after the last point: the logarithm of the full sum over the pair count. -/
def out7 (c : Dev nD) : Vec F S1x1 .f32 := k7_pay2 (acc7 V c 8)

/-! ## The body's branch conditions, and where the result window is idle -/

/-- The accumulator is reset at the first point only. -/
theorem hcond7_1 : ∀ t : Fin cfg7.N, cond7_1 (grid7.coords t) ↔ t.val = 0 :=
  (by decide +kernel : ∀ t : Fin grid7.N, cond7_1 (grid7.coords t) ↔ t.val = 0)
/-- The result block is stored at the last point only. -/
theorem hcond7_2 : ∀ t : Fin cfg7.N, cond7_2 (grid7.coords t) ↔ t.val = 7 :=
  (by decide +kernel : ∀ t : Fin grid7.N, cond7_2 (grid7.coords t) ↔ t.val = 7)

/-- The input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- Where the result block is not stored the result window is idle and is not written back; -/
theorem idleAt7_3 : ∀ t : Fin cfg7.N, ¬cond7_2 (grid7.coords t) → cfg7.idle 3 (grid7.coords t) = true := by decide +kernel
theorem noFlush7_3 : ∀ t : Fin cfg7.N, ¬cond7_2 (grid7.coords t) → (cfg7.win 3).flush t = false := by decide +kernel
/-- where it is stored the window is live. -/
theorem liveAt7_3 : ∀ t : Fin cfg7.N, cond7_2 (grid7.coords t) → cfg7.idle 3 (grid7.coords t) = false := by decide +kernel

/-! ## The invariant: the scratch accumulator between points -/

/-- The scratch accumulator as a memref: a whole scoped buffer of the kernel's own. -/
abbrev scM7 : Memref sig .tc .vmem S1x1 .f32 := Memref.whole cc7_scratch0

/-- The scoped buffers no window stages, the accumulator apart. -/
abbrev rest7 (c : Dev nD) : sProp 𝕄 :=
  Pipeline.scopedRestBut (Ix := Unit) (Name := ℕ) (U := UR sig nD τ) (Lvl := ℕ) (Val := Elt F) spec7 c [cc7_scratch0]

/-- The region invariant before position `n`: before the first point every scoped buffer no window stages at some
    contents and the generator register at some state; afterwards the same with the accumulator at the running
    sum of the points so far. -/
def Phi7 (c : Dev nD) : ℕ → sProp 𝕄
  | 0 => Pipeline.ΦA spec7 c
  | n + 1 => iprop(iprop(owns (c : Thread nD τ) scM7 fullShare (acc7 V c (n + 1)) ∗ rest7 c) ∗ (∃ r, prngReg c r))

/-- Before the first point, with the accumulator split off the scoped rest. -/
theorem PhiA7_eq (c : Dev nD) :
    (Pipeline.ΦA spec7 c : sProp 𝕄)
      = iprop(iprop((∃ d, owns (c : Thread nD τ) scM7 fullShare d) ∗ rest7 c) ∗ (∃ r, prngReg c r)) := by
  unfold Pipeline.ΦA; rw [scopedRest7_split]; simp only [scM7, owns_whole]; rfl

theorem Phi7_zero (c : Dev nD) (n : ℕ) (hz : n = 0) : Phi7 V c n = Pipeline.ΦA spec7 c := by
  subst hz; rfl

theorem Phi7_succ (c : Dev nD) (n : ℕ) :
    Phi7 V c (n + 1) = iprop(iprop(owns (c : Thread nD τ) scM7 fullShare (acc7 V c (n + 1)) ∗ rest7 c) ∗ (∃ r, prngReg c r)) := rfl

theorem Phi7_pos (c : Dev nD) (n : ℕ) (hz : n ≠ 0) :
    Phi7 V c n = iprop(iprop(owns (c : Thread nD τ) scM7 fullShare (acc7 V c n) ∗ rest7 c) ∗ (∃ r, prngReg c r)) := by
  cases n with
  | zero => exact absurd rfl hz
  | succ n => rfl

/-! ## The pipeline's proof data -/

/-- The proof data of custom call 7 on core `c`: the arrays as the region finds them (`V`); after the body at any
    point each input's buffer at its block and the result's at `out7` (read only at the last point: before it the
    window is idle); the invariant `Phi7`; nothing owed; the array windows 0 and 1 share split between them, left
    half and right half. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 V c
  Φ t := Phi7 V c t.val
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7 V c := by dsimp only [dat7]

/-- The invariant at a point's start and end, restated at the position's number. -/
theorem Phi7_castSucc (c : Dev nD) (t : Fin cfg7.N) : (dat7 V c).Φ t.castSucc = Phi7 V c t.val := by
  dsimp only [dat7]; simp only [Fin.coe_castSucc]
theorem Phi7_at_succ (c : Dev nD) (t : Fin cfg7.N) : (dat7 V c).Φ t.succ = Phi7 V c (t.val + 1) := by
  dsimp only [dat7]; simp only [Fin.val_succ]

/-- Each input's current staging buffer holds its block at every point, fetched there or not: an input whose body
    leaves its block in place holds what a fetch puts there, and unfetched its block index has not moved. -/
theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

/-- The inputs' posts: never idle, each buffer is left at its block. -/
theorem leaves7_0 (c : Dev nD) (t : Fin cfg7.N) :
    (dat7 V c).leavesExact 0 t = owns (c : Thread nD τ) (st7_0 t) fullShare (iblk7 V c 0 t) := by
  unfold Dat.leavesExact; rw [liveAt7_0 t, after7_0]
theorem leaves7_1 (c : Dev nD) (t : Fin cfg7.N) :
    (dat7 V c).leavesExact 1 t = owns (c : Thread nD τ) (st7_1 t) fullShare (iblk7 V c 1 t) := by
  unfold Dat.leavesExact; rw [liveAt7_1 t, after7_1]
theorem leaves7_2 (c : Dev nD) (t : Fin cfg7.N) :
    (dat7 V c).leavesExact 2 t = owns (c : Thread nD τ) (st7_2 t) fullShare (iblk7 V c 2 t) := by
  unfold Dat.leavesExact; rw [liveAt7_2 t, after7_2]

set_option maxHeartbeats 4000000 in
/-- The body at any point. The inputs' buffers hold their blocks; the point's number says which of the three cases it
    is in; the invariant hands the body the accumulator at the running sum of the points before (at anything at the
    first point, which resets it) and takes it back at the running sum with this point's partial sum added; at the
    last point the result block is left at the logarithm payload of the full sum, elsewhere it is handed back
    untouched. The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [Phi7_at_succ, Phi7_succ, Phi7_castSucc, leaves7_0, leaves7_1, leaves7_2, acc7_succ V c t]
  have hN : t.val < 8 := lt_of_lt_of_eq t.isLt (show cfg7.N = 8 from N_7)
  by_cases h0 : t.val = 0
  · have hc1 : cond7_1 (grid7.coords t) := (hcond7_1 t).mpr h0
    have hc2 : ¬cond7_2 (grid7.coords t) := fun h => by have := (hcond7_2 t).mp h; omega
    rw [Dat.leavesExact_idle (dat7 V c) 3 t (idleAt7_3 t hc2) (noFlush7_3 t hc2)]
    rw [Phi7_zero V c _ h0, PhiA7_eq, (congrArg (acc7 V c) h0).trans (acc7_zero V c)]
    iintro ⟨⟨⟨HS, HR⟩, Hg⟩, Ho, ⟨%d0, H0⟩, ⟨%d1, H1⟩, ⟨%d2, H2⟩, ⟨%d3, H3⟩⟩
    iapply (kernelRun7_first c (grid7.coords t) _ _ _ _ _ _ _ _ _ _ hc1 hc2 (iblk7 V c 0 t) (iblk7 V c 1 t) (iblk7 V c 2 t) ((dat7 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists d3; iexact H3
  · have hc1 : ¬cond7_1 (grid7.coords t) := fun h => h0 ((hcond7_1 t).mp h)
    rw [Phi7_pos V c _ h0]
    by_cases h7 : t.val = 7
    · have hc2 : cond7_2 (grid7.coords t) := (hcond7_2 t).mpr h7
      rw [show (dat7 V c).leavesExact 3 t = owns (c : Thread nD τ) (st7_3 t) fullShare ((dat7 V c).after 3 t) from by
        unfold Dat.leavesExact; rw [liveAt7_3 t hc2], after7_3]
      unfold out7
      rw [congrArg (acc7 V c) (show 8 = t.val + 1 by omega), acc7_succ V c t]
      iintro ⟨⟨⟨HS, HR⟩, Hg⟩, Ho, ⟨%d0, H0⟩, ⟨%d1, H1⟩, ⟨%d2, H2⟩, ⟨%d3, H3⟩⟩
      iapply (kernelRun7_last c (grid7.coords t) _ _ _ _ _ _ _ _ _ _ hc1 hc2 (iblk7 V c 0 t) (iblk7 V c 1 t) (iblk7 V c 2 t) (acc7 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc2 : ¬cond7_2 (grid7.coords t) := fun h => h7 ((hcond7_2 t).mp h)
      rw [Dat.leavesExact_idle (dat7 V c) 3 t (idleAt7_3 t hc2) (noFlush7_3 t hc2)]
      iintro ⟨⟨⟨HS, HR⟩, Hg⟩, Ho, ⟨%d0, H0⟩, ⟨%d1, H1⟩, ⟨%d2, H2⟩, ⟨%d3, H3⟩⟩
      iapply (kernelRun7_mid c (grid7.coords t) _ _ _ _ _ _ _ _ _ _ hc1 hc2 (iblk7 V c 0 t) (iblk7 V c 1 t) (iblk7 V c 2 t) ((dat7 V c).before 3 t d3) (acc7 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

/-! ## The region's boundary: the arrays out of the core's unscoped buffers, and back

The four windows stand on three buffers: windows 0 and 1 both on the normalised matrix. At the region's entry the
core holds every unscoped buffer whole at the full share; the matrix's buffer is split in two halves along its
share, one per window, and joined again at the exit, where both halves hold the same contents. -/

/-- A window is one of the four. -/
theorem fin4_cases7 (w : Fin 4) : w = 0 ∨ w = 1 ∨ w = 2 ∨ w = 3 := by
  obtain ⟨w, hw⟩ := w; simp only [Fin.ext_iff]; show w = 0 ∨ w = 1 ∨ w = 2 ∨ w = 3; omega

/-- Windows 0 and 1 read one buffer. -/
theorem arr7_1_eq_0 : Pipeline.arrRef spec7 1 = Pipeline.arrRef spec7 0 := rfl

/-- The three buffers behind the four windows' arrays. -/
theorem image_arr7 : Finset.univ.image (Pipeline.arrRef spec7)
    = ([Pipeline.arrRef spec7 0, Pipeline.arrRef spec7 2, Pipeline.arrRef spec7 3] : List (Ref sig .tc)).toFinset := by
  ext b
  simp only [Finset.mem_image, Finset.mem_univ, true_and, List.mem_toFinset, List.mem_cons, List.not_mem_nil, or_false]
  constructor
  · rintro ⟨w, rfl⟩
    rcases fin4_cases7 w with rfl | rfl | rfl | rfl
    · exact Or.inl rfl
    · exact Or.inl arr7_1_eq_0
    · exact Or.inr (Or.inl rfl)
    · exact Or.inr (Or.inr rfl)
  · rintro (rfl | rfl | rfl)
    · exact ⟨0, rfl⟩
    · exact ⟨2, rfl⟩
    · exact ⟨3, rfl⟩

/-- They are three different buffers. -/
theorem nodup_arr7 : ([Pipeline.arrRef spec7 0, Pipeline.arrRef spec7 2, Pipeline.arrRef spec7 3] : List (Ref sig .tc)).Nodup := by
  decide

/-- A points-to of a buffer named in two ways, at a valuation's contents. -/
theorem pointsTo_ref_congr7 (c : Dev nD) {b b' : Ref sig .tc} (h : b = b') (q : PosShare TreeShare)
    (W : (b : Ref sig .tc) → Buf (Elt F) ((c : Thread nD τ).loc b)) :
    ((((c : Thread nD τ).loc b) ↦{q} W b) : sProp 𝕄) = (((c : Thread nD τ).loc b') ↦{q} W b') := by
  subst h; rfl

/-- The buffers behind the arrays, one by one. -/
theorem arrBufs7_eq (c : Dev nD) (W : (b : Ref sig .tc) → Buf (Elt F) ((c : Thread nD τ).loc b)) :
    (Pipeline.arrBufs spec7 c W : sProp 𝕄)
      = iprop((((c : Thread nD τ).loc (Pipeline.arrRef spec7 0)) ↦{fullShare} W (Pipeline.arrRef spec7 0))
          ∗ (((c : Thread nD τ).loc (Pipeline.arrRef spec7 2)) ↦{fullShare} W (Pipeline.arrRef spec7 2))
          ∗ (((c : Thread nD τ).loc (Pipeline.arrRef spec7 3)) ↦{fullShare} W (Pipeline.arrRef spec7 3))) := by
  unfold Pipeline.arrBufs
  exact bigSep_eq_bigSepL_of_eq _ image_arr7 nodup_arr7 _

/-- The shares the proof data holds the arrays at. -/
theorem share7_0 (c : Dev nD) : (dat7 V c).share 0 = fullShare.left := rfl
theorem share7_1 (c : Dev nD) : (dat7 V c).share 1 = fullShare.right := rfl
theorem share7_2 (c : Dev nD) : (dat7 V c).share 2 = fullShare := rfl
theorem share7_3 (c : Dev nD) : (dat7 V c).share 3 = fullShare := rfl

/-- The proof data's arrays, window by window, as points-tos of whole buffers. -/
theorem arrays7_eq (c : Dev nD) (G : (w : Fin cfg7.W) → Buf (Elt F) ((cfg7.win w).arr.view.loc (c : Thread nD τ))) :
    (dat7 V c).arrays G
      = iprop((((c : Thread nD τ).loc (Pipeline.arrRef spec7 0)) ↦{fullShare.left} G 0)
          ∗ (((c : Thread nD τ).loc (Pipeline.arrRef spec7 1)) ↦{fullShare.right} G 1)
          ∗ (((c : Thread nD τ).loc (Pipeline.arrRef spec7 2)) ↦{fullShare} G 2)
          ∗ (((c : Thread nD τ).loc (Pipeline.arrRef spec7 3)) ↦{fullShare} G 3)) := by
  have h : (dat7 V c).arrays G
      = bigSep Finset.univ fun w : Fin cfg7.W => ((((c : Thread nD τ).loc (Pipeline.arrRef spec7 w)) ↦{(dat7 V c).share w} G w) : sProp 𝕄) := by
    unfold Dat.arrays
    exact bigSep_congr fun w _ => by rw [(arr_whole7 w).set_eq_univ]
  rw [h, bigSep_W7]
  simp only [share7_0, share7_1, share7_2, share7_3]

set_option maxHeartbeats 2000000 in
/-- ENTRY: the core's unscoped buffers at `V c` are the proof data's arrays at their entry contents — the matrix's
    buffer split between windows 0 and 1 along its share — and the unscoped rest. -/
theorem entry7 (c : Dev nD) :
    (unscopedBufs c (V c) : sProp 𝕄)
      ⊢ iprop((dat7 V c).arrays ((dat7 V c).arrAt · 0) ∗ Pipeline.unscopedRest spec7 c (V c)) := by
  rewrite [Pipeline.PerCore.unscopedBufs_split₀ (fun (_ : Dev nD) (_ : Unit) => cfg7) () c winFacts₀7.arr_unscoped (V c), arrBufs7_eq, arrays7_eq,
    show (dat7 V c).arrAt 0 0 = V c (Pipeline.arrRef spec7 0) from A_eq7 V c 0, show (dat7 V c).arrAt 1 0 = V c (Pipeline.arrRef spec7 1) from A_eq7 V c 1,
    show (dat7 V c).arrAt 2 0 = V c (Pipeline.arrRef spec7 2) from A_eq7 V c 2, show (dat7 V c).arrAt 3 0 = V c (Pipeline.arrRef spec7 3) from A_eq7 V c 3]
  have hconv : ((((c : Thread nD τ).loc (Pipeline.arrRef spec7 0)) ↦{fullShare.right} V c (Pipeline.arrRef spec7 0)) : sProp 𝕄)
      ⊢ (((c : Thread nD τ).loc (Pipeline.arrRef spec7 1)) ↦{fullShare.right} V c (Pipeline.arrRef spec7 1)) :=
    Entails.of_eq (pointsTo_ref_congr7 c arr7_1_eq_0.symm fullShare.right (V c))
  have hsplit : ((((c : Thread nD τ).loc (Pipeline.arrRef spec7 0)) ↦{fullShare} V c (Pipeline.arrRef spec7 0)) : sProp 𝕄)
      ⊢ iprop((((c : Thread nD τ).loc (Pipeline.arrRef spec7 0)) ↦{fullShare.left} V c (Pipeline.arrRef spec7 0))
          ∗ (((c : Thread nD τ).loc (Pipeline.arrRef spec7 0)) ↦{fullShare.right} V c (Pipeline.arrRef spec7 0))) :=
    (pointsTo_share (PosShare.mem_left_op_right fullShare)).1
  iintro ⟨⟨H0, H2, H3⟩, Hrest⟩
  ihave H01 := hsplit $$ H0
  icases H01 with ⟨H0l, H0r⟩
  isplitr [Hrest]
  · isplitl [H0l]; · iexact H0l
    isplitl [H0r]; · iapply hconv; iexact H0r
    isplitl [H2]; · iexact H2
    iexact H3
  iexact Hrest

set_option maxHeartbeats 2000000 in
/-- EXIT: the arrays at their final contents and the unscoped rest are the core's unscoped buffers at any valuation
    `W'` that has every array at its final contents and agrees with `V c` elsewhere: the two halves of the matrix's
    buffer hold the same contents and join. -/
theorem exit7 (c : Dev nD) (W' : (b : Ref sig .tc) → Buf (Elt F) ((c : Thread nD τ).loc b))
    (hF : ∀ w, (dat7 V c).arrAt w cfg7.N = W' (Pipeline.arrRef spec7 w))
    (hrest : ∀ b, b ∉ Finset.univ.image (Pipeline.arrRef spec7) → W' b = V c b) :
    iprop((dat7 V c).arrays ((dat7 V c).arrAt · cfg7.N) ∗ Pipeline.unscopedRest spec7 c (V c))
      ⊢ (unscopedBufs c W' : sProp 𝕄) := by
  rewrite [Pipeline.PerCore.unscopedBufs_split₀ (fun (_ : Dev nD) (_ : Unit) => cfg7) () c winFacts₀7.arr_unscoped W', arrBufs7_eq, arrays7_eq,
    hF 0, hF 1, hF 2, hF 3]
  have hconv : ((((c : Thread nD τ).loc (Pipeline.arrRef spec7 1)) ↦{fullShare.right} W' (Pipeline.arrRef spec7 1)) : sProp 𝕄)
      ⊢ (((c : Thread nD τ).loc (Pipeline.arrRef spec7 0)) ↦{fullShare.right} W' (Pipeline.arrRef spec7 0)) :=
    Entails.of_eq (pointsTo_ref_congr7 c arr7_1_eq_0 fullShare.right W')
  have hjoin : (iprop((((c : Thread nD τ).loc (Pipeline.arrRef spec7 0)) ↦{fullShare.left} W' (Pipeline.arrRef spec7 0))
          ∗ (((c : Thread nD τ).loc (Pipeline.arrRef spec7 0)) ↦{fullShare.right} W' (Pipeline.arrRef spec7 0))) : sProp 𝕄)
      ⊢ (((c : Thread nD τ).loc (Pipeline.arrRef spec7 0)) ↦{fullShare} W' (Pipeline.arrRef spec7 0)) :=
    (pointsTo_share (PosShare.mem_left_op_right fullShare)).2
  have hR : (Pipeline.unscopedRest spec7 c (V c) : sProp 𝕄) = Pipeline.unscopedRest spec7 c W' := by
    unfold Pipeline.unscopedRest
    exact bigSep_congr fun b hb => by rw [hrest b (Finset.mem_sdiff.mp hb).2]
  rewrite [hR]
  iintro ⟨⟨H0l, H0r, H2, H3⟩, Hrest⟩
  isplitr [Hrest]
  · isplitl [H0l H0r]
    · iapply hjoin
      isplitl [H0l]; · iexact H0l
      iapply hconv; iexact H0r
    isplitl [H2]; · iexact H2
    iexact H3
  iexact Hrest
/-- The invariant at the first point, from the generator register and the scoped buffers no window stages. -/
theorem hin7 (c : Dev nD) :
    (iprop((∃ r, prngReg c r) ∗ Pipeline.scopedRest spec7 c) : sProp 𝕄) ⊢ (dat7 V c).Φ 0 := by
  rw [show (dat7 V c).Φ 0 = Pipeline.ΦA spec7 c from rfl]; unfold Pipeline.ΦA
  iintro ⟨Hp, Hr⟩
  isplitl [Hr]; · iexact Hr
  iexact Hp

/-- The invariant at the last point gives them back: the accumulator's contents are forgotten. -/
theorem hout7 (c : Dev nD) :
    (dat7 V c).Φ (Fin.last cfg7.N) ⊢ (iprop((∃ r, prngReg c r) ∗ Pipeline.scopedRest spec7 c) : sProp 𝕄) := by
  rw [show (dat7 V c).Φ (Fin.last cfg7.N) = Phi7 V c cfg7.N from rfl,
    Phi7_pos V c _ (by rw [show cfg7.N = 8 from N_7]; decide), scopedRest7_split]
  iintro ⟨⟨HS, HR⟩, Hg⟩
  isplitl [Hg]; · iexact Hg
  isplitl [HS]
  · simp only [scM7, owns_whole]; iexists _; iexact HS
  iexact HR

/-! ## The arrays after the run -/

/-- The input arrays are never written. -/
theorem arrAt7_0 (c : Dev nD) (n : ℕ) : (dat7 V c).arrAt 0 n = V c (Pipeline.arrRef spec7 0) :=
  ((dat7 V c).arrAt_in 0 rfl n).trans (A_eq7 V c 0)
theorem arrAt7_1 (c : Dev nD) (n : ℕ) : (dat7 V c).arrAt 1 n = V c (Pipeline.arrRef spec7 1) :=
  ((dat7 V c).arrAt_in 1 rfl n).trans (A_eq7 V c 1)
theorem arrAt7_2 (c : Dev nD) (n : ℕ) : (dat7 V c).arrAt 2 n = V c (Pipeline.arrRef spec7 2) :=
  ((dat7 V c).arrAt_in 2 rfl n).trans (A_eq7 V c 2)

/-- The last point of the grid. -/
def tl7 : Fin cfg7.N := ⟨7, by rw [show cfg7.N = 8 from N_7]; decide⟩

/-- The result array after the run, read through the result window's one block, is `out7`: only the last point
    writes the block back, and it writes what the body left there. -/
theorem final7 (c : Dev nD) :
    ((cfg7.win 3).blk tl7).view.read (Elt F) ((dat7 V c).arrAt 3 cfg7.N) = out7 V c := by
  have hfl : ∀ t : Fin cfg7.N, (cfg7.win 3).flush t = true → t = tl7 := fun t h => by
    have h7 := (flush7_3 t).mp h
    have hlt := t.isLt
    have hN : cfg7.N = 8 := N_7
    apply Fin.ext; show t.val = 7; omega
  rw [(dat7 V c).read_blk_arrAt_eq_flushed 3 (fun t t' h h' hne => absurd ((hfl t h).trans (hfl t' h').symm) hne)
    cfg7.N tl7 tl7.isLt ((flush7_3 tl7).mpr rfl)]
  unfold Dat.flushed
  rw [after7_3]
  rfl

end Cert.Kernel.Hand

end
-- ==== Proof.K.Segs.lean ====
/-
  The kernel program's eight regions as segments of its run, and the run.

  Each pallas_call is entered from the thread state the host side names before it and left at the one after it. What a
  region leaves in its result arrays is its output windows' write-backs folded over the grid (`Dat.arrAt … N`), a
  function of the contents it is entered at: that is `outs`. The four layer-update regions keep the pipeline's plain
  invariant (`plainRegion`); the four pairwise-distance regions carry their accumulator in theirs. With the eight
  records the host side's conditional run is the run of @main: every weakly fair execution terminates, nothing faults, and
  every unscoped buffer ends at the last boundary's contents.
-/
import proofs.«108982_j38147899523261_2_alg».proof.Proof.K.RegionA
import proofs.«108982_j38147899523261_2_alg».proof.Proof.K.Update0
import proofs.«108982_j38147899523261_2_alg».proof.Proof.K.Update1
import proofs.«108982_j38147899523261_2_alg».proof.Proof.K.Update2
import proofs.«108982_j38147899523261_2_alg».proof.Proof.K.Update3
import proofs.«108982_j38147899523261_2_alg».proof.Proof.K.ULoss4
import proofs.«108982_j38147899523261_2_alg».proof.Proof.K.ULoss5
import proofs.«108982_j38147899523261_2_alg».proof.Proof.K.ULoss6
import proofs.«108982_j38147899523261_2_alg».proof.Proof.K.ULoss7

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- What each pallas_call leaves in its result arrays, from the contents it is entered at: its output windows'
    write-backs folded over the grid. -/
def outs : Outs F where
  v16_0 c W := (dat0 (atTc W) c).arrAt 2 cfg0.N
  v16_1 c W := (dat0 (atTc W) c).arrAt 3 cfg0.N
  v34 c W := (dat1 (atTc W) c).arrAt 2 cfg1.N
  v54_0 c W := (dat2 (atTc W) c).arrAt 2 cfg2.N
  v54_1 c W := (dat2 (atTc W) c).arrAt 3 cfg2.N
  v72 c W := (dat3 (atTc W) c).arrAt 2 cfg3.N
  v162 c W := (dat4 (atTc W) c).arrAt 3 cfg4.N
  v172 c W := (dat5 (atTc W) c).arrAt 3 cfg5.N
  v216 c W := (dat6 (atTc W) c).arrAt 3 cfg6.N
  v226 c W := (dat7 (atTc W) c).arrAt 3 cfg7.N

variable (m : (ℓ : Loc nD τ sig) → Buf (Elt F) ℓ)

/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (atTc (B1 m)) c
  | ⟨1, _⟩ => fun c => dat1 (atTc (B3 m outs)) c
  | ⟨2, _⟩ => fun c => dat2 (atTc (B6 m outs)) c
  | ⟨3, _⟩ => fun c => dat3 (atTc (B8 m outs)) c
  | ⟨4, _⟩ => fun c => dat4 (atTc (B20 m outs)) c
  | ⟨5, _⟩ => fun c => dat5 (atTc (B24 m outs)) c
  | ⟨6, _⟩ => fun c => dat6 (atTc (B32 m outs)) c
  | ⟨7, _⟩ => fun c => dat7 (atTc (B36 m outs)) c

/-! ## The four layer-update regions

Region 0 reads `main_v14`, `main_v15` and writes `main_v16_0`, `main_v16_1`; region 1 reads `main_v32`, `main_v33` and
writes `main_v34`; regions 2 and 3 are the same on the second graph. At a region's exit an input array holds its entry
contents (no window writes it, and the next boundary differs from the entry only at the result arrays) and an output
array the folded write-backs, which is by definition what the next boundary holds there; every other buffer is as at
entry. -/

theorem B2_v16_0 (c : Dev nD) : B2 m outs c main_v16_0 = (dat0 (atTc (B1 m)) c).arrAt 2 cfg0.N :=
  (Function.update_of_ne (StableHlo.devRef_ne_of_ne (by decide : main_v16_0 ≠ main_v16_1)) _ _).trans (Function.update_self _ _ _)
theorem B2_v16_1 (c : Dev nD) : B2 m outs c main_v16_1 = (dat0 (atTc (B1 m)) c).arrAt 3 cfg0.N :=
  Function.update_self _ _ _

theorem exitArr0 (c : Dev nD) : ∀ w : Fin cfg0.W, (pdats m 0 c).arrAt w cfg0.N = atTc (B2 m outs) c (Pipeline.arrRef spec0 w)
  | ⟨0, _⟩ => ((pdats m 0 c).arrAt_in 0 rfl _).trans (B2_of m outs c main_v14 (by decide)).symm
  | ⟨1, _⟩ => ((pdats m 0 c).arrAt_in 1 rfl _).trans (B2_of m outs c main_v15 (by decide)).symm
  | ⟨2, _⟩ => (B2_v16_0 m c).symm
  | ⟨3, _⟩ => (B2_v16_1 m c).symm

theorem exitRest0 (c : Dev nD) (b : Ref sig .tc) (hb : b ∉ Finset.univ.image (Pipeline.arrRef spec0)) : atTc (B2 m outs) c b = atTc (B1 m) c b :=
  B2_of m outs c b fun h => hb (by
    rcases List.mem_cons.mp h with rfl | h
    · exact Finset.mem_image.mpr ⟨2, Finset.mem_univ _, rfl⟩
    rcases List.mem_cons.mp h with rfl | h
    · exact Finset.mem_image.mpr ⟨3, Finset.mem_univ _, rfl⟩
    · exact absurd h List.not_mem_nil)

/-- Region 0: the first layer update of the first graph. -/
def reg0 : RegionSeg (pcfgs (F := F)) adm (pdats m) () defs₀ 𝒱₀ L lv 0 :=
  plainRegion (pdats m) 0 launch0.win launch0.block_pos launch0.arr_whole launch0.stage_whole (B1 m) (B2 m outs)
    (fun _ _ => rfl) (fun _ _ => rfl) (fun _ _ => rfl) (fun _ => rfl) (fun _ _ => rfl)
    (fun c => body_obligation0 (atTc (B1 m)) c) (exitArr0 m) (exitRest0 m)

theorem B4_v34 (c : Dev nD) : B4 m outs c main_v34 = (dat1 (atTc (B3 m outs)) c).arrAt 2 cfg1.N :=
  Function.update_self _ _ _

theorem exitArr1 (c : Dev nD) : ∀ w : Fin cfg1.W, (pdats m 1 c).arrAt w cfg1.N = atTc (B4 m outs) c (Pipeline.arrRef spec1 w)
  | ⟨0, _⟩ => ((pdats m 1 c).arrAt_in 0 rfl _).trans (B4_of m outs c main_v32 (by decide)).symm
  | ⟨1, _⟩ => ((pdats m 1 c).arrAt_in 1 rfl _).trans (B4_of m outs c main_v33 (by decide)).symm
  | ⟨2, _⟩ => (B4_v34 m c).symm

theorem exitRest1 (c : Dev nD) (b : Ref sig .tc) (hb : b ∉ Finset.univ.image (Pipeline.arrRef spec1)) : atTc (B4 m outs) c b = atTc (B3 m outs) c b :=
  B4_of m outs c b fun h => hb (by
    rcases List.mem_cons.mp h with rfl | h
    · exact Finset.mem_image.mpr ⟨2, Finset.mem_univ _, rfl⟩
    · exact absurd h List.not_mem_nil)

/-- Region 1: the second layer update of the first graph (the accumulator only). -/
def reg1 : RegionSeg (pcfgs (F := F)) adm (pdats m) () defs₀ 𝒱₀ L lv 1 :=
  plainRegion (pdats m) 1 launch1.win launch1.block_pos launch1.arr_whole launch1.stage_whole (B3 m outs) (B4 m outs)
    (fun _ _ => rfl) (fun _ _ => rfl) (fun _ _ => rfl) (fun _ => rfl) (fun _ _ => rfl)
    (fun c => body_obligation1 (atTc (B3 m outs)) c) (exitArr1 m) (exitRest1 m)

theorem B7_v54_0 (c : Dev nD) : B7 m outs c main_v54_0 = (dat2 (atTc (B6 m outs)) c).arrAt 2 cfg2.N :=
  (Function.update_of_ne (StableHlo.devRef_ne_of_ne (by decide : main_v54_0 ≠ main_v54_1)) _ _).trans (Function.update_self _ _ _)
theorem B7_v54_1 (c : Dev nD) : B7 m outs c main_v54_1 = (dat2 (atTc (B6 m outs)) c).arrAt 3 cfg2.N :=
  Function.update_self _ _ _

theorem exitArr2 (c : Dev nD) : ∀ w : Fin cfg2.W, (pdats m 2 c).arrAt w cfg2.N = atTc (B7 m outs) c (Pipeline.arrRef spec2 w)
  | ⟨0, _⟩ => ((pdats m 2 c).arrAt_in 0 rfl _).trans (B7_of m outs c main_v52 (by decide)).symm
  | ⟨1, _⟩ => ((pdats m 2 c).arrAt_in 1 rfl _).trans (B7_of m outs c main_v53 (by decide)).symm
  | ⟨2, _⟩ => (B7_v54_0 m c).symm
  | ⟨3, _⟩ => (B7_v54_1 m c).symm

theorem exitRest2 (c : Dev nD) (b : Ref sig .tc) (hb : b ∉ Finset.univ.image (Pipeline.arrRef spec2)) : atTc (B7 m outs) c b = atTc (B6 m outs) c b :=
  B7_of m outs c b fun h => hb (by
    rcases List.mem_cons.mp h with rfl | h
    · exact Finset.mem_image.mpr ⟨2, Finset.mem_univ _, rfl⟩
    rcases List.mem_cons.mp h with rfl | h
    · exact Finset.mem_image.mpr ⟨3, Finset.mem_univ _, rfl⟩
    · exact absurd h List.not_mem_nil)

/-- Region 2: the first layer update of the second graph. -/
def reg2 : RegionSeg (pcfgs (F := F)) adm (pdats m) () defs₀ 𝒱₀ L lv 2 :=
  plainRegion (pdats m) 2 launch2.win launch2.block_pos launch2.arr_whole launch2.stage_whole (B6 m outs) (B7 m outs)
    (fun _ _ => rfl) (fun _ _ => rfl) (fun _ _ => rfl) (fun _ => rfl) (fun _ _ => rfl)
    (fun c => body_obligation2 (atTc (B6 m outs)) c) (exitArr2 m) (exitRest2 m)

theorem B9_v72 (c : Dev nD) : B9 m outs c main_v72 = (dat3 (atTc (B8 m outs)) c).arrAt 2 cfg3.N :=
  Function.update_self _ _ _

theorem exitArr3 (c : Dev nD) : ∀ w : Fin cfg3.W, (pdats m 3 c).arrAt w cfg3.N = atTc (B9 m outs) c (Pipeline.arrRef spec3 w)
  | ⟨0, _⟩ => ((pdats m 3 c).arrAt_in 0 rfl _).trans (B9_of m outs c main_v70 (by decide)).symm
  | ⟨1, _⟩ => ((pdats m 3 c).arrAt_in 1 rfl _).trans (B9_of m outs c main_v71 (by decide)).symm
  | ⟨2, _⟩ => (B9_v72 m c).symm

theorem exitRest3 (c : Dev nD) (b : Ref sig .tc) (hb : b ∉ Finset.univ.image (Pipeline.arrRef spec3)) : atTc (B9 m outs) c b = atTc (B8 m outs) c b :=
  B9_of m outs c b fun h => hb (by
    rcases List.mem_cons.mp h with rfl | h
    · exact Finset.mem_image.mpr ⟨2, Finset.mem_univ _, rfl⟩
    · exact absurd h List.not_mem_nil)

/-- Region 3: the second layer update of the second graph (the accumulator only). -/
def reg3 : RegionSeg (pcfgs (F := F)) adm (pdats m) () defs₀ 𝒱₀ L lv 3 :=
  plainRegion (pdats m) 3 launch3.win launch3.block_pos launch3.arr_whole launch3.stage_whole (B8 m outs) (B9 m outs)
    (fun _ _ => rfl) (fun _ _ => rfl) (fun _ _ => rfl) (fun _ => rfl) (fun _ _ => rfl)
    (fun c => body_obligation3 (atTc (B8 m outs)) c) (exitArr3 m) (exitRest3 m)

/-! ## The four pairwise-distance regions

Region 4 reads `main_v158` (through two windows) and `main_v161` and writes `main_v162`; regions 5, 6, 7 are the same
kernel on `main_v168`, `main_v171` → `main_v172`; `main_v212`, `main_v215` → `main_v216`; `main_v222`, `main_v225` →
`main_v226`. Their invariant carries the accumulator and two of their windows share one array, so how the arrays
leave and rejoin the unscoped buffers is proved with the kernel (its `entry` and `exit`); here the exit contents are
read off the table as for the other regions. -/

theorem B21_v162 (c : Dev nD) : B21 m outs c main_v162 = (dat4 (atTc (B20 m outs)) c).arrAt 3 cfg4.N :=
  Function.update_self _ _ _

theorem exitArr4 (c : Dev nD) : ∀ w : Fin cfg4.W, (pdats m 4 c).arrAt w cfg4.N = atTc (B21 m outs) c (Pipeline.arrRef spec4 w)
  | ⟨0, _⟩ => ((pdats m 4 c).arrAt_in 0 rfl _).trans (B21_of m outs c main_v158 (by decide)).symm
  | ⟨1, _⟩ => ((pdats m 4 c).arrAt_in 1 rfl _).trans (B21_of m outs c main_v158 (by decide)).symm
  | ⟨2, _⟩ => ((pdats m 4 c).arrAt_in 2 rfl _).trans (B21_of m outs c main_v161 (by decide)).symm
  | ⟨3, _⟩ => (B21_v162 m c).symm

theorem exitRest4 (c : Dev nD) (b : Ref sig .tc) (hb : b ∉ Finset.univ.image (Pipeline.arrRef spec4)) : atTc (B21 m outs) c b = atTc (B20 m outs) c b :=
  B21_of m outs c b fun h => hb (by
    rcases List.mem_cons.mp h with rfl | h
    · exact Finset.mem_image.mpr ⟨3, Finset.mem_univ _, rfl⟩
    · exact absurd h List.not_mem_nil)

/-- Region 4: the pairwise-distance term of the first bundle view. -/
def reg4 : RegionSeg (pcfgs (F := F)) adm (pdats m) () defs₀ 𝒱₀ L lv 4 :=
  regionWith (pdats m) 4 winFacts₀4 block_pos4 stage_whole4 (B20 m outs) (B21 m outs) (fun _ _ => rfl) (fun _ => rfl)
    (fun c => body_obligation4 (atTc (B20 m outs)) c)
    (fun c => by have h := entry4 (atTc (B20 m outs)) c; rw [Pipeline.unscopedBufs_held] at h; exact h)
    (fun c => hin4 (atTc (B20 m outs)) c) (fun c => hout4 (atTc (B20 m outs)) c)
    (fun c => by
      have h := exit4 (atTc (B20 m outs)) c (atTc (B21 m outs) c) (exitArr4 m c) (exitRest4 m c)
      rw [Pipeline.unscopedBufs_held] at h; exact h)

theorem B25_v172 (c : Dev nD) : B25 m outs c main_v172 = (dat5 (atTc (B24 m outs)) c).arrAt 3 cfg5.N :=
  Function.update_self _ _ _

theorem exitArr5 (c : Dev nD) : ∀ w : Fin cfg5.W, (pdats m 5 c).arrAt w cfg5.N = atTc (B25 m outs) c (Pipeline.arrRef spec5 w)
  | ⟨0, _⟩ => ((pdats m 5 c).arrAt_in 0 rfl _).trans (B25_of m outs c main_v168 (by decide)).symm
  | ⟨1, _⟩ => ((pdats m 5 c).arrAt_in 1 rfl _).trans (B25_of m outs c main_v168 (by decide)).symm
  | ⟨2, _⟩ => ((pdats m 5 c).arrAt_in 2 rfl _).trans (B25_of m outs c main_v171 (by decide)).symm
  | ⟨3, _⟩ => (B25_v172 m c).symm

theorem exitRest5 (c : Dev nD) (b : Ref sig .tc) (hb : b ∉ Finset.univ.image (Pipeline.arrRef spec5)) : atTc (B25 m outs) c b = atTc (B24 m outs) c b :=
  B25_of m outs c b fun h => hb (by
    rcases List.mem_cons.mp h with rfl | h
    · exact Finset.mem_image.mpr ⟨3, Finset.mem_univ _, rfl⟩
    · exact absurd h List.not_mem_nil)

/-- Region 5: the pairwise-distance term of the second bundle view. -/
def reg5 : RegionSeg (pcfgs (F := F)) adm (pdats m) () defs₀ 𝒱₀ L lv 5 :=
  regionWith (pdats m) 5 winFacts₀5 block_pos5 stage_whole5 (B24 m outs) (B25 m outs) (fun _ _ => rfl) (fun _ => rfl)
    (fun c => body_obligation5 (atTc (B24 m outs)) c)
    (fun c => by have h := entry5 (atTc (B24 m outs)) c; rw [Pipeline.unscopedBufs_held] at h; exact h)
    (fun c => hin5 (atTc (B24 m outs)) c) (fun c => hout5 (atTc (B24 m outs)) c)
    (fun c => by
      have h := exit5 (atTc (B24 m outs)) c (atTc (B25 m outs) c) (exitArr5 m c) (exitRest5 m c)
      rw [Pipeline.unscopedBufs_held] at h; exact h)

theorem B33_v216 (c : Dev nD) : B33 m outs c main_v216 = (dat6 (atTc (B32 m outs)) c).arrAt 3 cfg6.N :=
  Function.update_self _ _ _

theorem exitArr6 (c : Dev nD) : ∀ w : Fin cfg6.W, (pdats m 6 c).arrAt w cfg6.N = atTc (B33 m outs) c (Pipeline.arrRef spec6 w)
  | ⟨0, _⟩ => ((pdats m 6 c).arrAt_in 0 rfl _).trans (B33_of m outs c main_v212 (by decide)).symm
  | ⟨1, _⟩ => ((pdats m 6 c).arrAt_in 1 rfl _).trans (B33_of m outs c main_v212 (by decide)).symm
  | ⟨2, _⟩ => ((pdats m 6 c).arrAt_in 2 rfl _).trans (B33_of m outs c main_v215 (by decide)).symm
  | ⟨3, _⟩ => (B33_v216 m c).symm

theorem exitRest6 (c : Dev nD) (b : Ref sig .tc) (hb : b ∉ Finset.univ.image (Pipeline.arrRef spec6)) : atTc (B33 m outs) c b = atTc (B32 m outs) c b :=
  B33_of m outs c b fun h => hb (by
    rcases List.mem_cons.mp h with rfl | h
    · exact Finset.mem_image.mpr ⟨3, Finset.mem_univ _, rfl⟩
    · exact absurd h List.not_mem_nil)

/-- Region 6: the pairwise-distance term of the first user view. -/
def reg6 : RegionSeg (pcfgs (F := F)) adm (pdats m) () defs₀ 𝒱₀ L lv 6 :=
  regionWith (pdats m) 6 winFacts₀6 block_pos6 stage_whole6 (B32 m outs) (B33 m outs) (fun _ _ => rfl) (fun _ => rfl)
    (fun c => body_obligation6 (atTc (B32 m outs)) c)
    (fun c => by have h := entry6 (atTc (B32 m outs)) c; rw [Pipeline.unscopedBufs_held] at h; exact h)
    (fun c => hin6 (atTc (B32 m outs)) c) (fun c => hout6 (atTc (B32 m outs)) c)
    (fun c => by
      have h := exit6 (atTc (B32 m outs)) c (atTc (B33 m outs) c) (exitArr6 m c) (exitRest6 m c)
      rw [Pipeline.unscopedBufs_held] at h; exact h)

theorem B37_v226 (c : Dev nD) : B37 m outs c main_v226 = (dat7 (atTc (B36 m outs)) c).arrAt 3 cfg7.N :=
  Function.update_self _ _ _

theorem exitArr7 (c : Dev nD) : ∀ w : Fin cfg7.W, (pdats m 7 c).arrAt w cfg7.N = atTc (B37 m outs) c (Pipeline.arrRef spec7 w)
  | ⟨0, _⟩ => ((pdats m 7 c).arrAt_in 0 rfl _).trans (B37_of m outs c main_v222 (by decide)).symm
  | ⟨1, _⟩ => ((pdats m 7 c).arrAt_in 1 rfl _).trans (B37_of m outs c main_v222 (by decide)).symm
  | ⟨2, _⟩ => ((pdats m 7 c).arrAt_in 2 rfl _).trans (B37_of m outs c main_v225 (by decide)).symm
  | ⟨3, _⟩ => (B37_v226 m c).symm

theorem exitRest7 (c : Dev nD) (b : Ref sig .tc) (hb : b ∉ Finset.univ.image (Pipeline.arrRef spec7)) : atTc (B37 m outs) c b = atTc (B36 m outs) c b :=
  B37_of m outs c b fun h => hb (by
    rcases List.mem_cons.mp h with rfl | h
    · exact Finset.mem_image.mpr ⟨3, Finset.mem_univ _, rfl⟩
    · exact absurd h List.not_mem_nil)

/-- Region 7: the pairwise-distance term of the second user view. -/
def reg7 : RegionSeg (pcfgs (F := F)) adm (pdats m) () defs₀ 𝒱₀ L lv 7 :=
  regionWith (pdats m) 7 winFacts₀7 block_pos7 stage_whole7 (B36 m outs) (B37 m outs) (fun _ _ => rfl) (fun _ => rfl)
    (fun c => body_obligation7 (atTc (B36 m outs)) c)
    (fun c => by have h := entry7 (atTc (B36 m outs)) c; rw [Pipeline.unscopedBufs_held] at h; exact h)
    (fun c => hin7 (atTc (B36 m outs)) c) (fun c => hout7 (atTc (B36 m outs)) c)
    (fun c => by
      have h := exit7 (atTc (B36 m outs)) c (atTc (B37 m outs) c) (exitArr7 m c) (exitRest7 m c)
      rw [Pipeline.unscopedBufs_held] at h; exact h)

/-! ## The run -/

/-- THE RUN of the kernel program: from any memory with zero counters every weakly fair execution of @main terminates,
    nothing faulting, and every unscoped buffer ends at the last boundary's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = B38 m outs c b) :=
  run_cond m outs (pdats m) (reg0 m) (reg1 m) (reg2 m) (reg3 m) (reg4 m) (reg5 m) (reg6 m) (reg7 m) ρ
    (fun _ => .rfl) (fun _ => .rfl) (fun _ => .rfl) (fun _ => .rfl) (fun _ => .rfl) (fun _ => .rfl) (fun _ => .rfl) (fun _ => .rfl)
    (fun _ => .rfl) (fun _ => .rfl) (fun _ => .rfl) (fun _ => .rfl) (fun _ => .rfl) (fun _ => .rfl) (fun _ => .rfl) (fun _ => .rfl)

/-- THE FRAME: the program runs to the end, faults nowhere, and every argument array ends as launched — no host
    operation and no region writes an argument. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (kept m outs c main_arg0 (by decide)),
     (h c _ (mem_uc main_arg1 (by decide))).trans (kept m outs c main_arg1 (by decide)),
     (h c _ (mem_uc main_arg2 (by decide))).trans (kept m outs c main_arg2 (by decide)),
     (h c _ (mem_uc main_arg3 (by decide))).trans (kept m outs c main_arg3 (by decide)),
     (h c _ (mem_uc main_arg4 (by decide))).trans (kept m outs c main_arg4 (by decide)),
     (h c _ (mem_uc main_arg5 (by decide))).trans (kept m outs c main_arg5 (by decide)),
     (h c _ (mem_uc main_arg6 (by decide))).trans (kept m outs c main_arg6 (by decide)),
     (h c _ (mem_uc main_arg7 (by decide))).trans (kept m outs c main_arg7 (by decide)),
     (h c _ (mem_uc main_arg8 (by decide))).trans (kept m outs c main_arg8 (by decide)),
     (h c _ (mem_uc main_arg9 (by decide))).trans (kept m outs c main_arg9 (by decide)),
     (h c _ (mem_uc main_arg10 (by decide))).trans (kept m outs c main_arg10 (by decide)),
     (h c _ (mem_uc main_arg11 (by decide))).trans (kept m outs c main_arg11 (by decide)),
     (h c _ (mem_uc main_arg12 (by decide))).trans (kept m outs c main_arg12 (by decide)),
     (h c _ (mem_uc main_arg13 (by decide))).trans (kept m outs c main_arg13 (by decide)),
     (h c _ (mem_uc main_arg14 (by decide))).trans (kept m outs c main_arg14 (by decide))⟩) (run m ρ)

/-- The run with the result named: the result buffer ends at the last boundary's contents, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v235) = B38 m outs c main_v235
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v235 (by decide)),
     (h c _ (mem_uc main_arg0 (by decide))).trans (kept m outs c main_arg0 (by decide)),
     (h c _ (mem_uc main_arg1 (by decide))).trans (kept m outs c main_arg1 (by decide)),
     (h c _ (mem_uc main_arg2 (by decide))).trans (kept m outs c main_arg2 (by decide)),
     (h c _ (mem_uc main_arg3 (by decide))).trans (kept m outs c main_arg3 (by decide)),
     (h c _ (mem_uc main_arg4 (by decide))).trans (kept m outs c main_arg4 (by decide)),
     (h c _ (mem_uc main_arg5 (by decide))).trans (kept m outs c main_arg5 (by decide)),
     (h c _ (mem_uc main_arg6 (by decide))).trans (kept m outs c main_arg6 (by decide)),
     (h c _ (mem_uc main_arg7 (by decide))).trans (kept m outs c main_arg7 (by decide)),
     (h c _ (mem_uc main_arg8 (by decide))).trans (kept m outs c main_arg8 (by decide)),
     (h c _ (mem_uc main_arg9 (by decide))).trans (kept m outs c main_arg9 (by decide)),
     (h c _ (mem_uc main_arg10 (by decide))).trans (kept m outs c main_arg10 (by decide)),
     (h c _ (mem_uc main_arg11 (by decide))).trans (kept m outs c main_arg11 (by decide)),
     (h c _ (mem_uc main_arg12 (by decide))).trans (kept m outs c main_arg12 (by decide)),
     (h c _ (mem_uc main_arg13 (by decide))).trans (kept m outs c main_arg13 (by decide)),
     (h c _ (mem_uc main_arg14 (by decide))).trans (kept m outs c main_arg14 (by decide))⟩) (run m ρ)

end Cert.Kernel.Hand

end
-- ==== Proof.KI.Host.lean ====
/-
  The host side of the kernel program's run, given its eight regions.

  @main is thirty stretches of host operations and eight kernel regions, thirty-eight items in order; the table of
  what a core's unscoped buffers hold between two items is in HostTable, with the fact that a buffer no later item writes keeps its
  contents to the end. Here: a buffer no item writes ends as launched (`kept`); each stretch is a segment of the several-regions launch theorem, run over the
  unscoped buffers from its boundary's contents; and the run itself, GIVEN a segment record for each of the eight
  pallas_calls entered from the thread state before it and left at the one after it: every weakly fair execution
  terminates, nothing faults, and every unscoped buffer ends at the last boundary's contents `B38`.
-/
import proofs.«108982_j38147899523261_2_alg».proof.Proof.KI.HostTable

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (outs : Outs F)

/-- A buffer no item writes reaches the end as launched. -/
theorem kept (c : Dev nD) (r : Ref sig .tc) (h : r ∉ writtenFrom0) : B38 m outs c r = m ((c : Thread nD τ).loc r) :=
  from0 m outs c r h

/-! ## The items as segments of the several-regions launch -/

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no pallas_call has a table. -/
abbrev adm : (p : Fin 8) → (pcfgs (F := F) p).Adm := fun p => (cfgs p).toPCfg_adm
/-- What rides beside the buffers through every item: the core's generator register at some state and its `owes`, at nothing. -/
abbrev Rest (c : Dev nD) : sProp 𝕄 := iprop((∃ r, prngReg c r) ∗ ∃ W, owes (c : Thread nD τ) (0 : CellTallies nD τ sig Unit) W)
/-- The thread state between two items: every unscoped buffer whole at the boundary's contents, the rest beside it. -/
abbrev Held (W : Dev nD → Valuation τ sig (Elt F)) (c : Dev nD) : sProp 𝕄 :=
  iprop(StableHlo.held (c : Thread nD τ) (Pipeline.ucRefs τ sig) (W c) ∗ Rest c)
/-- A host stretch as a segment: its operations run over the unscoped buffers from the contents `W`, the rest riding along;
    it ends holding them at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Run

variable (pdats : (p : Fin 8) → (c : Dev nD) → Dat τ (Elt F) Unit ℕ (UR sig nD τ) ℕ (Pipeline.pin (pcfgs (F := F)) adm p) c)
variable (R0 : RegionSeg (pcfgs (F := F)) adm pdats () defs₀ 𝒱₀ L lv 0)
variable (R1 : RegionSeg (pcfgs (F := F)) adm pdats () defs₀ 𝒱₀ L lv 1)
variable (R2 : RegionSeg (pcfgs (F := F)) adm pdats () defs₀ 𝒱₀ L lv 2)
variable (R3 : RegionSeg (pcfgs (F := F)) adm pdats () defs₀ 𝒱₀ L lv 3)
variable (R4 : RegionSeg (pcfgs (F := F)) adm pdats () defs₀ 𝒱₀ L lv 4)
variable (R5 : RegionSeg (pcfgs (F := F)) adm pdats () defs₀ 𝒱₀ L lv 5)
variable (R6 : RegionSeg (pcfgs (F := F)) adm pdats () defs₀ 𝒱₀ L lv 6)
variable (R7 : RegionSeg (pcfgs (F := F)) adm pdats () defs₀ 𝒱₀ L lv 7)

/-- @main's thirty-eight items in order: a host segment per stretch from its boundary's contents, the given record per pallas_call. -/
abbrev segs : List (Seg (pcfgs (F := F)) adm pdats () defs₀ 𝒱₀ L lv) :=
  [ .host (hseg main_part0_ops0 main_part0_ops0_sub main_part0_ops0_fresh (B0 m)),
    .region R0,
    .host (hseg main_part0_ops1 main_part0_ops1_sub main_part0_ops1_fresh (B2 m outs)),
    .region R1,
    .host (hseg main_part0_ops2 main_part0_ops2_sub main_part0_ops2_fresh (B4 m outs)),
    .host (hseg main_part1_ops0 main_part1_ops0_sub main_part1_ops0_fresh (B5 m outs)),
    .region R2,
    .host (hseg main_part1_ops1 main_part1_ops1_sub main_part1_ops1_fresh (B7 m outs)),
    .region R3,
    .host (hseg main_part1_ops2 main_part1_ops2_sub main_part1_ops2_fresh (B9 m outs)),
    .host (hseg main_part2_ops0 main_part2_ops0_sub main_part2_ops0_fresh (B10 m outs)),
    .host (hseg main_part2_ops1 main_part2_ops1_sub main_part2_ops1_fresh (B11 m outs)),
    .host (hseg main_part2_ops2 main_part2_ops2_sub main_part2_ops2_fresh (B12 m outs)),
    .host (hseg main_part2_ops3 main_part2_ops3_sub main_part2_ops3_fresh (B13 m outs)),
    .host (hseg main_part2_ops4 main_part2_ops4_sub main_part2_ops4_fresh (B14 m outs)),
    .host (hseg main_part2_ops5 main_part2_ops5_sub main_part2_ops5_fresh (B15 m outs)),
    .host (hseg main_part2_ops6 main_part2_ops6_sub main_part2_ops6_fresh (B16 m outs)),
    .host (hseg main_part3_ops0 main_part3_ops0_sub main_part3_ops0_fresh (B17 m outs)),
    .host (hseg main_part3_ops1 main_part3_ops1_sub main_part3_ops1_fresh (B18 m outs)),
    .host (hseg main_part3_ops2 main_part3_ops2_sub main_part3_ops2_fresh (B19 m outs)),
    .region R4,
    .host (hseg main_part3_ops3 main_part3_ops3_sub main_part3_ops3_fresh (B21 m outs)),
    .host (hseg main_part3_ops4 main_part3_ops4_sub main_part3_ops4_fresh (B22 m outs)),
    .host (hseg main_part3_ops5 main_part3_ops5_sub main_part3_ops5_fresh (B23 m outs)),
    .region R5,
    .host (hseg main_part3_ops6 main_part3_ops6_sub main_part3_ops6_fresh (B25 m outs)),
    .host (hseg main_part3_ops7 main_part3_ops7_sub main_part3_ops7_fresh (B26 m outs)),
    .host (hseg main_part3_ops8 main_part3_ops8_sub main_part3_ops8_fresh (B27 m outs)),
    .host (hseg main_part4_ops0 main_part4_ops0_sub main_part4_ops0_fresh (B28 m outs)),
    .host (hseg main_part4_ops1 main_part4_ops1_sub main_part4_ops1_fresh (B29 m outs)),
    .host (hseg main_part4_ops2 main_part4_ops2_sub main_part4_ops2_fresh (B30 m outs)),
    .host (hseg main_part4_ops3 main_part4_ops3_sub main_part4_ops3_fresh (B31 m outs)),
    .region R6,
    .host (hseg main_part4_ops4 main_part4_ops4_sub main_part4_ops4_fresh (B33 m outs)),
    .host (hseg main_part4_ops5 main_part4_ops5_sub main_part4_ops5_fresh (B34 m outs)),
    .host (hseg main_part4_ops6 main_part4_ops6_sub main_part4_ops6_fresh (B35 m outs)),
    .region R7,
    .host (hseg main_part4_ops7 main_part4_ops7_sub main_part4_ops7_fresh (B37 m outs)) ]

/-- @main IS the run of the segments: the program as the chain of its items, then the segments' run against that chain. -/
theorem main_run (c : Dev nD) : main (F := F) c = Pipeline.Seg.run (segs m outs pdats R0 R1 R2 R3 R4 R5 R6 R7) :=
  (main_chain_windows c).trans (by chain_rfl)

set_option backward.isDefEq.respectTransparency.types false in
/-- THE RUN, GIVEN THE REGIONS. If each pallas_call's segment record is entered from the thread state this module names
    before it and left at the one after it, then from any memory with zero counters every weakly fair execution of @main
    terminates, nothing faulting, and every unscoped buffer ends at the last boundary's contents. -/
theorem run_cond (ρ : Dev nD → PrngReg)
    (hpre0 : ∀ c : Dev nD, Held (B1 m) c ⊢ R0.pre c) (hpost0 : ∀ c : Dev nD, R0.post c ⊢ Held (B2 m outs) c)
    (hpre1 : ∀ c : Dev nD, Held (B3 m outs) c ⊢ R1.pre c) (hpost1 : ∀ c : Dev nD, R1.post c ⊢ Held (B4 m outs) c)
    (hpre2 : ∀ c : Dev nD, Held (B6 m outs) c ⊢ R2.pre c) (hpost2 : ∀ c : Dev nD, R2.post c ⊢ Held (B7 m outs) c)
    (hpre3 : ∀ c : Dev nD, Held (B8 m outs) c ⊢ R3.pre c) (hpost3 : ∀ c : Dev nD, R3.post c ⊢ Held (B9 m outs) c)
    (hpre4 : ∀ c : Dev nD, Held (B20 m outs) c ⊢ R4.pre c) (hpost4 : ∀ c : Dev nD, R4.post c ⊢ Held (B21 m outs) c)
    (hpre5 : ∀ c : Dev nD, Held (B24 m outs) c ⊢ R5.pre c) (hpost5 : ∀ c : Dev nD, R5.post c ⊢ Held (B25 m outs) c)
    (hpre6 : ∀ c : Dev nD, Held (B32 m outs) c ⊢ R6.pre c) (hpost6 : ∀ c : Dev nD, R6.post c ⊢ Held (B33 m outs) c)
    (hpre7 : ∀ c : Dev nD, Held (B36 m outs) c ⊢ R7.pre c) (hpost7 : ∀ c : Dev nD, R7.post c ⊢ Held (B37 m outs) c) :
    θ_run defs (onTc (τ := τ) (main (F := F))) ⟨m, fun _ => 0, ρ⟩ (fun r => ∀ c : Dev nD,
      ∀ b ∈ Pipeline.ucRefs τ sig, r.2.mem (((c : Thread nD τ)).1, b) = B38 m outs c b) :=
  Pipeline.θ_run_regions_kit (pcfgs (F := F)) adm pdats () cellOf_inj emb₁ defs₀ 𝒱₀ L lv m ρ main (segs m outs pdats R0 R1 R2 R3 R4 R5 R6 R7)
    (fun c Q => by rw [main_run m outs pdats R0 R1 R2 R3 R4 R5 R6 R7 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Held (B0 m))
    (Tₙ := fun c => iprop(StableHlo.held (c : Thread nD τ) (Pipeline.ucRefs τ sig) (B38 m outs c) ∗ ∃ r, prngReg c r))
    (hch := ⟨fun _ => .rfl, hpre0, hpost0, hpre1, hpost1, fun _ => .rfl, hpre2, hpost2, hpre3, hpost3, fun _ => .rfl, fun _ => .rfl, fun _ => .rfl, fun _ => .rfl, fun _ => .rfl, fun _ => .rfl, fun _ => .rfl, fun _ => .rfl, fun _ => .rfl, fun _ => .rfl, hpre4, hpost4, fun _ => .rfl, fun _ => .rfl, hpre5, hpost5, fun _ => .rfl, fun _ => .rfl, fun _ => .rfl, fun _ => .rfl, fun _ => .rfl, fun _ => .rfl, hpre6, hpost6, fun _ => .rfl, fun _ => .rfl, hpre7, hpost7,
      fun c => by
        show iprop(StableHlo.held (c : Thread nD τ) (Pipeline.ucRefs τ sig) (B38 m outs c)
            ∗ (∃ r, prngReg c r) ∗ ∃ W, owes (c : Thread nD τ) (0 : CellTallies nD τ sig Unit) W) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B38 m outs c b)
    (hfin := fun c s' => by
      iintro ⟨⟨Hh, -⟩, HSI⟩
      unfold StableHlo.held
      imodintro
      iapply (pointsTo_read_all (Pipeline.ucRefs τ sig) (fun b => (((c : Thread nD τ)).1, b)) (B38 m outs c) s')
      isplitl [Hh] <;> iassumption)
    (hQ := fun s h c => h c)

end Run

end Cert.KernelIdeal.Hand

end
-- ==== Proof.KI.RegionA.lean ====
/-
  A kernel region as one segment of @main's run, between two named boundaries.

  For ANY pipeline of the program and any family of proof data that owe nothing and put no bound on the pairs the core
  may have recorded when the region is entered (every pair is allowed): if the windows' arrays, at their
  entry contents, come out of "every unscoped buffer at `Wpre`" leaving the unscoped rest (`hsplit`), the invariant at
  the first point is made of the generator register and the scoped rest (`hin`) and gives them back at the last
  (`hout`), and the arrays at what the pipeline leaves in them, with that unscoped rest, make "every unscoped buffer at
  `Wpost`" (`hjoin`), then the region is a segment from the thread state at `Wpre` to the one at `Wpost`: the
  generator register goes into the invariant and comes back, and the core's dues pass through untouched
  (`regionWith`). When the windows lie on distinct whole arrays held at the full share and the invariant is the plain
  one at every point, `hsplit` and `hjoin` are the library's splitting and joining of a pipeline's arrays
  (`plainRegion`).
-/
import proofs.«108982_j38147899523261_2_alg».proof.Proof.KI.Host
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

/-- A boundary's contents read at the TensorCore's references: what a region's proof data take. -/
abbrev atTc (W : Dev nD → Valuation τ sig (Elt F)) : (c : Dev nD) → (b : Ref sig .tc) → Buf (Elt F) ((c : Thread nD τ).loc b) :=
  fun c b => W c b

variable (pdats : (p : Fin 8) → (c : Dev nD) → Dat τ (Elt F) Unit ℕ (UR sig nD τ) ℕ (Pipeline.pin (pcfgs (F := F)) adm p) c)

set_option backward.isDefEq.respectTransparency.types false in
/-- The segment record of a region from `Wpre` to `Wpost`, given how its arrays leave and rejoin the unscoped buffers
    and what its invariant is made of at the first and the last point. -/
def regionWith (p : Fin 8)
    (hw : Pipeline.WinFacts₀ (Pipeline.pin (pcfgs (F := F)) adm p).spec)
    (hpos : ∀ w, 0 < ((Pipeline.pin (pcfgs (F := F)) adm p).spec w).block.numel)
    (hstage : ∀ w s, (((Pipeline.pin (pcfgs (F := F)) adm p).spec w).stage s).IsWhole)
    (Wpre Wpost : Dev nD → Valuation τ sig (Elt F))
    (howed : ∀ (c : Dev nD) t, (pdats p c).owed t = 0)
    (hrec : ∀ c : Dev nD, (pdats p c).recorded 0 = Set.univ)
    (hbody : ∀ c : Dev nD, BodyObligation (pdats p c) (defs₀ (F := F)) Variants.none () Set.univ)
    (hsplit : ∀ c : Dev nD, (StableHlo.held (c : Thread nD τ) (Pipeline.ucRefs τ sig) (Wpre c) : sProp 𝕄)
      ⊢ iprop((pdats p c).arrays ((pdats p c).arrAt · 0)
          ∗ Pipeline.unscopedRest (Ix := Unit) (Name := ℕ) (U := UR sig nD τ) (Lvl := ℕ) (Pipeline.pin (pcfgs (F := F)) adm p).spec c (atTc Wpre c)))
    (hin : ∀ c : Dev nD, (iprop((∃ r, prngReg c r) ∗ Pipeline.scopedRest (Pipeline.pin (pcfgs (F := F)) adm p).spec c) : sProp 𝕄) ⊢ (pdats p c).Φ 0)
    (hout : ∀ c : Dev nD, (pdats p c).Φ (Fin.last (Pipeline.pin (pcfgs (F := F)) adm p).N)
      ⊢ (iprop((∃ r, prngReg c r) ∗ Pipeline.scopedRest (Pipeline.pin (pcfgs (F := F)) adm p).spec c) : sProp 𝕄))
    (hjoin : ∀ c : Dev nD, iprop((pdats p c).arrays ((pdats p c).arrAt · (Pipeline.pin (pcfgs (F := F)) adm p).N)
          ∗ Pipeline.unscopedRest (Ix := Unit) (Name := ℕ) (U := UR sig nD τ) (Lvl := ℕ) (Pipeline.pin (pcfgs (F := F)) adm p).spec c (atTc Wpre c))
      ⊢ (StableHlo.held (c : Thread nD τ) (Pipeline.ucRefs τ sig) (Wpost c) : sProp 𝕄)) :
    RegionSeg (pcfgs (F := F)) adm pdats () defs₀ 𝒱₀ L lv p where
  win := hw
  block_pos := hpos
  stage_whole := hstage
  K := PEmpty
  osem k := k.elim
  ho := Pipeline.OwnSemFacts.none _
  hbody c := (hbody c).loose
  hwaits := Pipeline.hwaits_of_owed_zero _ _ _ _ L lv p howed
  pre c := Held Wpre c
  post c := Held Wpost c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atTc Wpre c)
  hentry c := by
    -- the arrays come out of the unscoped buffers; the core's dues become the pipeline's, at nothing
    rw [Pipeline.ownSems0_none]
    iintro ⟨⟨Hub, Hp, HO⟩, -, -⟩
    ihave H := hsplit c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; exact Set.mem_univ _)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := hout c $$ H
    icases H' with ⟨Hp, Hr⟩
    isplitl [Hp]; · iexact Hp
    isplitr; · iempintro
    iexact Hr
  hexit c := by
    -- the arrays go back among the unscoped buffers at what the pipeline left in them
    iintro ⟨Ha, HO, HY, Hrest⟩
    imodintro
    isplitl [Ha Hrest]
    · iapply (hjoin c); isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
/-- The segment record of a region of the plain invariant on distinct whole arrays, each held at the full share. -/
def plainRegion (p : Fin 8)
    (hw : Pipeline.WinFacts (Pipeline.pin (pcfgs (F := F)) adm p).spec)
    (hpos : ∀ w, 0 < ((Pipeline.pin (pcfgs (F := F)) adm p).spec w).block.numel)
    (harr : ∀ w, ((Pipeline.pin (pcfgs (F := F)) adm p).spec w).arr.IsWhole)
    (hstage : ∀ w s, (((Pipeline.pin (pcfgs (F := F)) adm p).spec w).stage s).IsWhole)
    (Wpre Wpost : Dev nD → Valuation τ sig (Elt F))
    (hA : ∀ (c : Dev nD) w, (pdats p c).A w = atTc Wpre c (Pipeline.arrRef (Pipeline.pin (pcfgs (F := F)) adm p).spec w))
    (hq : ∀ (c : Dev nD) w, (pdats p c).q w = fullShare)
    (howed : ∀ (c : Dev nD) t, (pdats p c).owed t = 0)
    (hrec : ∀ c : Dev nD, (pdats p c).recorded 0 = Set.univ)
    (hΦ : ∀ (c : Dev nD) t, (pdats p c).Φ t = Pipeline.ΦA (Pipeline.pin (pcfgs (F := F)) adm p).spec c)
    (hbody : ∀ c : Dev nD, BodyObligation (pdats p c) (defs₀ (F := F)) Variants.none () Set.univ)
    (hF : ∀ (c : Dev nD) w, (pdats p c).arrAt w (Pipeline.pin (pcfgs (F := F)) adm p).N = atTc Wpost c (Pipeline.arrRef (Pipeline.pin (pcfgs (F := F)) adm p).spec w))
    (hrest : ∀ (c : Dev nD) b, b ∉ Finset.univ.image (Pipeline.arrRef (Pipeline.pin (pcfgs (F := F)) adm p).spec) → atTc Wpost c b = atTc Wpre c b) :
    RegionSeg (pcfgs (F := F)) adm pdats () defs₀ 𝒱₀ L lv p :=
  regionWith pdats p hw.to₀ hpos hstage Wpre Wpost howed hrec hbody
    (fun c => by
      have h := Pipeline.arrays_of_unscopedBufs (p := p) (pcfgs (F := F)) adm pdats hw harr c
        ((pdats p c).share_full (hq c)) (atTc Wpre c) (hA c)
      rw [Pipeline.unscopedBufs_held] at h
      exact h)
    (fun c => by
      rw [hΦ c 0]; unfold Pipeline.ΦA
      iintro ⟨Hp, Hr⟩
      isplitl [Hr]; · iexact Hr
      iexact Hp)
    (fun c => by
      rw [hΦ c (Fin.last _)]; unfold Pipeline.ΦA
      iintro ⟨Hr, Hp⟩
      isplitl [Hp]; · iexact Hp
      iexact Hr)
    (fun c => by
      have h := Pipeline.unscopedBufs_of_arrays (p := p) (pcfgs (F := F)) adm (Ix := Unit) (Name := ℕ) (U := UR sig nD τ) (Lvl := ℕ)
        hw harr c pdats ((pdats p c).share_full (hq c))
        (atTc Wpre c) (atTc Wpost c) ((pdats p c).arrAt · (Pipeline.pin (pcfgs (F := F)) adm p).N) (hF c) (hrest c)
      rw [Pipeline.unscopedBufs_held] at h
      exact h)

end Cert.KernelIdeal.Hand

end
-- ==== Proof.KI.Update0.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body obligation of the layer-update kernel of pallas_call 0, at any contents `V` of the TensorCore's
buffers when the call is entered.

At every grid point the pipeline hands the body one 5000x128 block of each window: the raw features (window 0) and
the running accumulator (window 1) as inputs, the scaled features (window 2) and the new accumulator (window 3) as
outputs. The body reads the two input blocks whole and writes each output block whole, once; the value stored is a
function of the blocks read (a payload of the kernel's skeleton), so after the body each output buffer holds exactly
that payload, whatever it held before. This module names those contents (`feats0`, `accum0`), proves the body's
separation-logic triple (`sound_kernel0`), packs the pipeline's proof data (`dat0`) and discharges the pipeline's
body obligation (`body_obligation0`). Nothing here depends on what the payloads compute. -/

-- membership of an index in the whole 5000x128 rectangle is decided structurally, one step per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the call is entered: everything below is stated at this parameter
variable (V : (c : Dev nD) → (b : Ref sig .tc) → Buf (Elt F) ((c : Thread nD τ).loc b))

/-! ## The windows' blocks -/

/-- Window `w`'s block at grid point `t`, read off the window's array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The raw-features window's staging buffer holds its block at every point, whether or not the pipeline fetched it
    there, for any proof data whose array is `V`'s and whose body leaves the block in place: an input window that is
    never cut and never idle is found at the block its index map names. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the accumulator's input window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Every load and every store of the body is of the whole 5000x128 block. -/
abbrev rect0 : Rect S5000x128 := Rect.unit (s := S5000x128) ![0, 0] S5000x128.size inb_S5000x128_S5000x128_0_0

/-! ## What the body leaves in each output window's buffer -/

/-- The scaled-features buffer (window 2) after the body, from the raw block `x0`: its one store, of the skeleton's
    first payload of the raw block as loaded. -/
def feats0 (x0 : Vec F S5000x128 .f32) : Vec F S5000x128 .f32 :=
  View.canon [⟨rect0, k0_pay1 (View.ld x0 rect0)⟩]

/-- The new-accumulator buffer (window 3) after the body, from the raw block `x0` and the accumulator block `x1`:
    its one store, of the skeleton's second payload of the two blocks as loaded. -/
def accum0 (x0 x1 : Vec F S5000x128 .f32) : Vec F S5000x128 .f32 :=
  View.canon [⟨rect0, k0_pay2 (View.ld x0 rect0) (View.ld x1 rect0)⟩]

/-- One store of the whole block tiles the buffer, so it covers every index. -/
theorem cover0 (p0 : Vec F S5000x128 .f32) (y : S5000x128.Idx) :
    ∃ pc ∈ ([⟨rect0, p0⟩] : List (View.Piece (Elt F) S5000x128 .f32)), y ∈ pc.1.set :=
  View.cover_of_tiled [⟨rect0, p0⟩] S5000x128.size (by rfl) y

/-! ## The body's triple -/

set_option maxHeartbeats 1000000 in
/-- The kernel body on whole staging memrefs, the inputs' at contents `x0`, `x1` and the outputs' at anything, runs
    without fault to a state holding the inputs as they were, the scaled-features buffer at `feats0 x0` and the
    new-accumulator buffer at `accum0 x0 x1`. Each output buffer is loaded once before it is stored to; the value
    loaded is used nowhere, so owning the buffer at some contents is all the load asks. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (feats0 x0) ∗ owns (c : Thread nD τ) arg4 fullShare (accum0 x0 x1)) -∗ K ⟨⟩))
      ⊢ wp frame (wpE (defs₀ (F := F)) Variants.none c none) E (cc0__layer_update_kernel_feats i arg1 harg1 arg2 harg2 arg3 harg3 arg4 harg4) K := by
  simp only [cc0__layer_update_kernel_feats_eq_skeleton]; unfold cc0__layer_update_kernel_feats_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The pipeline's proof data -/

/-- The proof data of the call's pipeline on core `c`: the arrays as the call finds them (`V`); after the body at
    point `t` each input's buffer still at its block, the scaled-features buffer at `feats0` of the raw block and the
    new-accumulator buffer at `accum0` of the two input blocks; the invariant that of a body keeping nothing between
    points (the scoped rest of the core and its generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => feats0 (iblk0 V c 0 t)
    | ⟨3, _⟩ => accum0 (iblk0 V c 0 t) (iblk0 V c 1 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window: an input's own block; an output's one store. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = feats0 (iblk0 V c 0 t) := by dsimp only [dat0]
theorem after0_3 (c : Dev nD) (t : Fin cfg0.N) : (dat0 V c).after 3 t = accum0 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_0`, `before0_1`) and the outputs' hold
    something, so `sound_kernel0` applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Update1.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body obligation of the layer-update kernel of pallas_call 1, at any contents `V` of the TensorCore's
buffers when the call is entered.

At every grid point the pipeline hands the body one 5000x128 block of each window: the raw features (window 0) and
the running accumulator (window 1) as inputs, the new accumulator (window 2) as output. The body reads the two input
blocks whole and writes the output block whole, once; the value stored is a function of the blocks read (the payload
of the kernel's skeleton), so after the body the output buffer holds exactly that payload, whatever it held before.
This module names those contents (`accum1`), proves the body's separation-logic triple (`sound_kernel1`), packs the
pipeline's proof data (`dat1`) and discharges the pipeline's body obligation (`body_obligation1`). Nothing here
depends on what the payload computes. -/

-- membership of an index in the whole 5000x128 rectangle is decided structurally, one step per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the call is entered: everything below is stated at this parameter
variable (V : (c : Dev nD) → (b : Ref sig .tc) → Buf (Elt F) ((c : Thread nD τ).loc b))

/-! ## The windows' blocks -/

/-- Window `w`'s block at grid point `t`, read off the window's array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The raw-features window's staging buffer holds its block at every point, whether or not the pipeline fetched it
    there, for any proof data whose array is `V`'s and whose body leaves the block in place: an input window that is
    never cut and never idle is found at the block its index map names. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the accumulator's input window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Every load and every store of the body is of the whole 5000x128 block. -/
abbrev rect1 : Rect S5000x128 := Rect.unit (s := S5000x128) ![0, 0] S5000x128.size inb_S5000x128_S5000x128_0_0

/-! ## What the body leaves in the output window's buffer -/

/-- The new-accumulator buffer (window 2) after the body, from the raw block `x0` and the accumulator block `x1`:
    its one store, of the skeleton's payload of the two blocks as loaded. -/
def accum1 (x0 x1 : Vec F S5000x128 .f32) : Vec F S5000x128 .f32 :=
  View.canon [⟨rect1, k1_pay1 (View.ld x0 rect1) (View.ld x1 rect1)⟩]

/-- One store of the whole block tiles the buffer, so it covers every index. -/
theorem cover1 (p0 : Vec F S5000x128 .f32) (y : S5000x128.Idx) :
    ∃ pc ∈ ([⟨rect1, p0⟩] : List (View.Piece (Elt F) S5000x128 .f32)), y ∈ pc.1.set :=
  View.cover_of_tiled [⟨rect1, p0⟩] S5000x128.size (by rfl) y

/-! ## The body's triple -/

set_option maxHeartbeats 1000000 in
/-- The kernel body on whole staging memrefs, the inputs' at contents `x0`, `x1` and the output's at anything, runs
    without fault to a state holding the inputs as they were and the new-accumulator buffer at `accum1 x0 x1`. The
    output buffer is loaded once before it is stored to; the value loaded is used nowhere, so owning the buffer at
    some contents is all the load asks. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (accum1 x0 x1)) -∗ K ⟨⟩))
      ⊢ wp frame (wpE (defs₀ (F := F)) Variants.none c none) E (cc1__layer_update_kernel_acc_only i arg1 harg1 arg2 harg2 arg3 harg3) K := by
  simp only [cc1__layer_update_kernel_acc_only_eq_skeleton]; unfold cc1__layer_update_kernel_acc_only_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- The proof data of the call's pipeline on core `c`: the arrays as the call finds them (`V`); after the body at
    point `t` each input's buffer still at its block and the new-accumulator buffer at `accum1` of the two input
    blocks; the invariant that of a body keeping nothing between points (the scoped rest of the core and its
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accum1 (iblk1 V c 0 t) (iblk1 V c 1 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window: an input's own block; the output's one store. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accum1 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_0`, `before1_1`) and the output's holds
    something, so `sound_kernel1` applies; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Update2.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body obligation of the layer-update kernel of pallas_call 2, at any contents `V` of the TensorCore's
buffers when the call is entered.

At every grid point the pipeline hands the body one 5000x128 block of each window: the raw features (window 0) and
the running accumulator (window 1) as inputs, the scaled features (window 2) and the new accumulator (window 3) as
outputs. The body reads the two input blocks whole and writes each output block whole, once; the value stored is a
function of the blocks read (a payload of the kernel's skeleton), so after the body each output buffer holds exactly
that payload, whatever it held before. This module names those contents (`feats2`, `accum2`), proves the body's
separation-logic triple (`sound_kernel2`), packs the pipeline's proof data (`dat2`) and discharges the pipeline's
body obligation (`body_obligation2`). Nothing here depends on what the payloads compute. -/

-- membership of an index in the whole 5000x128 rectangle is decided structurally, one step per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the call is entered: everything below is stated at this parameter
variable (V : (c : Dev nD) → (b : Ref sig .tc) → Buf (Elt F) ((c : Thread nD τ).loc b))

/-! ## The windows' blocks -/

/-- Window `w`'s block at grid point `t`, read off the window's array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The raw-features window's staging buffer holds its block at every point, whether or not the pipeline fetched it
    there, for any proof data whose array is `V`'s and whose body leaves the block in place: an input window that is
    never cut and never idle is found at the block its index map names. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the accumulator's input window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- Every load and every store of the body is of the whole 5000x128 block. -/
abbrev rect2 : Rect S5000x128 := Rect.unit (s := S5000x128) ![0, 0] S5000x128.size inb_S5000x128_S5000x128_0_0

/-! ## What the body leaves in each output window's buffer -/

/-- The scaled-features buffer (window 2) after the body, from the raw block `x0`: its one store, of the skeleton's
    first payload of the raw block as loaded. -/
def feats2 (x0 : Vec F S5000x128 .f32) : Vec F S5000x128 .f32 :=
  View.canon [⟨rect2, k2_pay1 (View.ld x0 rect2)⟩]

/-- The new-accumulator buffer (window 3) after the body, from the raw block `x0` and the accumulator block `x1`:
    its one store, of the skeleton's second payload of the two blocks as loaded. -/
def accum2 (x0 x1 : Vec F S5000x128 .f32) : Vec F S5000x128 .f32 :=
  View.canon [⟨rect2, k2_pay2 (View.ld x0 rect2) (View.ld x1 rect2)⟩]

/-- One store of the whole block tiles the buffer, so it covers every index. -/
theorem cover2 (p0 : Vec F S5000x128 .f32) (y : S5000x128.Idx) :
    ∃ pc ∈ ([⟨rect2, p0⟩] : List (View.Piece (Elt F) S5000x128 .f32)), y ∈ pc.1.set :=
  View.cover_of_tiled [⟨rect2, p0⟩] S5000x128.size (by rfl) y

/-! ## The body's triple -/

set_option maxHeartbeats 1000000 in
/-- The kernel body on whole staging memrefs, the inputs' at contents `x0`, `x1` and the outputs' at anything, runs
    without fault to a state holding the inputs as they were, the scaled-features buffer at `feats2 x0` and the
    new-accumulator buffer at `accum2 x0 x1`. Each output buffer is loaded once before it is stored to; the value
    loaded is used nowhere, so owning the buffer at some contents is all the load asks. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (feats2 x0) ∗ owns (c : Thread nD τ) arg4 fullShare (accum2 x0 x1)) -∗ K ⟨⟩))
      ⊢ wp frame (wpE (defs₀ (F := F)) Variants.none c none) E (cc2__layer_update_kernel_feats i arg1 harg1 arg2 harg2 arg3 harg3 arg4 harg4) K := by
  simp only [cc2__layer_update_kernel_feats_eq_skeleton]; unfold cc2__layer_update_kernel_feats_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  iexists _; isplitr
  swap; · iexact H3
  ipureintro
  exact View.read_writes_eq_canon _ _ _ (cover2 _)

/-! ## The pipeline's proof data -/

/-- The proof data of the call's pipeline on core `c`: the arrays as the call finds them (`V`); after the body at
    point `t` each input's buffer still at its block, the scaled-features buffer at `feats2` of the raw block and the
    new-accumulator buffer at `accum2` of the two input blocks; the invariant that of a body keeping nothing between
    points (the scoped rest of the core and its generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => feats2 (iblk2 V c 0 t)
    | ⟨3, _⟩ => accum2 (iblk2 V c 0 t) (iblk2 V c 1 t)
  Φ _ := Pipeline.ΦA spec2 c
  q _ := fullShare
  owed _ := 0

/-- The proof data's arrays are the contents at entry. -/
theorem A_eq2 (c : Dev nD) (w : Fin cfg2.W) : (dat2 V c).A w = V c (Pipeline.arrRef spec2 w) := by
  dsimp only [dat2]

/-- What the body leaves, window by window: an input's own block; an output's one store. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = feats2 (iblk2 V c 0 t) := by dsimp only [dat2]
theorem after2_3 (c : Dev nD) (t : Fin cfg2.N) : (dat2 V c).after 3 t = accum2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debts, and each window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the same, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_0`, `before2_1`) and the outputs' hold
    something, so `sound_kernel2` applies; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Update3.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The body obligation of the layer-update kernel of pallas_call 3, at any contents `V` of the TensorCore's
buffers when the call is entered.

At every grid point the pipeline hands the body one 5000x128 block of each window: the raw features (window 0) and
the running accumulator (window 1) as inputs, the new accumulator (window 2) as output. The body reads the two input
blocks whole and writes the output block whole, once; the value stored is a function of the blocks read (the payload
of the kernel's skeleton), so after the body the output buffer holds exactly that payload, whatever it held before.
This module names those contents (`accum3`), proves the body's separation-logic triple (`sound_kernel3`), packs the
pipeline's proof data (`dat3`) and discharges the pipeline's body obligation (`body_obligation3`). Nothing here
depends on what the payload computes. -/

-- membership of an index in the whole 5000x128 rectangle is decided structurally, one step per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the call is entered: everything below is stated at this parameter
variable (V : (c : Dev nD) → (b : Ref sig .tc) → Buf (Elt F) ((c : Thread nD τ).loc b))

/-! ## The windows' blocks -/

/-- Window `w`'s block at grid point `t`, read off the window's array as the call finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The raw-features window's staging buffer holds its block at every point, whether or not the pipeline fetched it
    there, for any proof data whose array is `V`'s and whose body leaves the block in place: an input window that is
    never cut and never idle is found at the block its index map names. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the accumulator's input window. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- Every load and every store of the body is of the whole 5000x128 block. -/
abbrev rect3 : Rect S5000x128 := Rect.unit (s := S5000x128) ![0, 0] S5000x128.size inb_S5000x128_S5000x128_0_0

/-! ## What the body leaves in the output window's buffer -/

/-- The new-accumulator buffer (window 2) after the body, from the raw block `x0` and the accumulator block `x1`:
    its one store, of the skeleton's payload of the two blocks as loaded. -/
def accum3 (x0 x1 : Vec F S5000x128 .f32) : Vec F S5000x128 .f32 :=
  View.canon [⟨rect3, k3_pay1 (View.ld x0 rect3) (View.ld x1 rect3)⟩]

/-- One store of the whole block tiles the buffer, so it covers every index. -/
theorem cover3 (p0 : Vec F S5000x128 .f32) (y : S5000x128.Idx) :
    ∃ pc ∈ ([⟨rect3, p0⟩] : List (View.Piece (Elt F) S5000x128 .f32)), y ∈ pc.1.set :=
  View.cover_of_tiled [⟨rect3, p0⟩] S5000x128.size (by rfl) y

/-! ## The body's triple -/

set_option maxHeartbeats 1000000 in
/-- The kernel body on whole staging memrefs, the inputs' at contents `x0`, `x1` and the output's at anything, runs
    without fault to a state holding the inputs as they were and the new-accumulator buffer at `accum3 x0 x1`. The
    output buffer is loaded once before it is stored to; the value loaded is used nowhere, so owning the buffer at
    some contents is all the load asks. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (accum3 x0 x1)) -∗ K ⟨⟩))
      ⊢ wp frame (wpE (defs₀ (F := F)) Variants.none c none) E (cc3__layer_update_kernel_acc_only i arg1 harg1 arg2 harg2 arg3 harg3) K := by
  simp only [cc3__layer_update_kernel_acc_only_eq_skeleton]; unfold cc3__layer_update_kernel_acc_only_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-! ## The pipeline's proof data -/

/-- The proof data of the call's pipeline on core `c`: the arrays as the call finds them (`V`); after the body at
    point `t` each input's buffer still at its block and the new-accumulator buffer at `accum3` of the two input
    blocks; the invariant that of a body keeping nothing between points (the scoped rest of the core and its
    generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accum3 (iblk3 V c 0 t) (iblk3 V c 1 t)
  Φ _ := Pipeline.ΦA spec3 c
  q _ := fullShare
  owed _ := 0

/-- The proof data's arrays are the contents at entry. -/
theorem A_eq3 (c : Dev nD) (w : Fin cfg3.W) : (dat3 V c).A w = V c (Pipeline.arrRef spec3 w) := by
  dsimp only [dat3]

/-- What the body leaves, window by window: an input's own block; the output's one store. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accum3 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`: the invariant, the core's debts, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: the same, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_0`, `before3_1`) and the output's holds
    something, so `sound_kernel3` applies; the invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.ULoss4Run.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # The pairwise-distance kernel of custom call 4, run once

The kernel body of custom call 4 keeps a one-element accumulator in a scratch buffer across its eight grid
points. On whole staging buffers holding a block `x0` of 256 rows, the whole matrix `x1` and the row of squared
norms `x2`, one execution of the body

* at the first point stores zero into the accumulator and then adds the point's partial sum to it,
* at a middle point adds the point's partial sum to what the accumulator held,
* at the last point does the same and then stores `log (accumulator / 2096128)` into the output block.

The partial sum is the payload `k4_pay4` of the point, the three input blocks and the accumulator's previous
contents; the zero is `k4_pay3`, the logarithm `k4_pay2`. Each theorem below is the body's triple in one of the
three cases, with the contents every buffer ends at stated in closed form over these payloads. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first `scf.if` (the accumulator is zeroed): the grid coordinate is 0. -/
abbrev cond4_1 (i : grid4.Coords) : Prop := (Scalar.cmpi .ne (Scalar.extui (Scalar.cmpi .eq (BitVec.ofNat 32 (i 0).val) 0#32)) 0#32) = 1#1
/-- The condition of the body's second `scf.if` (the output block is stored): the grid coordinate is 7. -/
abbrev cond4_2 (i : grid4.Coords) : Prop := k4_cond2 i = 1#1

/-- The zero offsets of a rank-two access, as a constant function. -/
theorem hz4 : (![0, 0] : Fin 2 → Nat) = fun _ => 0 := funext fun a => by fin_cases a <;> rfl

/-- The one-element rectangle covers the one-element shape. -/
theorem cover4_unit (y : S1x1.Idx) : y ∈ (Rect.unit (s := S1x1) ![0, 0] S1x1.size inb_S1x1_S1x1_0_0).set :=
  View.mem_set_unit_zero hz4 inb_S1x1_S1x1_0_0 y

set_option maxHeartbeats 1000000 in
/-- A MIDDLE point (neither condition holds): the inputs are read and left as they were, the output block, found at
    `xo`, is handed back at `xo`, and the accumulator, found at `xs`, is left at `xs` plus the point's partial sum. -/
theorem kernelRun4_mid (c : Dev nD) (i : grid4.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond4_1 i) (hc2 : ¬cond4_2 i)
    (x0 : Vec F S256x64 .f32) (x1 : Vec F S2048x64 .f32) (x2 : Vec F S1x2048 .f32) (xo : Vec F S1x1 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k4_pay1 (k4_pay4 i x0 x1 x2 xs))) -∗ K ⟨⟩))
      ⊢ wp frame (wpE (defs₀ (F := F)) Variants.none c none) E (cc4__u_loss_kernel i arg1 harg1 arg2 harg2 arg3 harg3 arg4 harg4 arg5 harg5) K := by
  simp only [cc4__u_loss_kernel_eq_skeleton]; unfold cc4__u_loss_kernel_skel
  simp only [k4_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_singleton_self _, cover4_unit y⟩), View.canon_unit_zero hz4]
  sl_unfold_run_names
  simp only [View.readAt_eq_ld, harg1.read_unread, harg2.read_unread, harg3.read_unread, harg5.read_unread,
    View.ld_unit_zero (S := S256x64) hz4, View.ld_unit_zero (S := S2048x64) hz4, View.ld_unit_zero (S := S1x2048) hz4,
    View.ld_unit_zero (S := S1x1) hz4]

set_option maxHeartbeats 1000000 in
/-- The FIRST point (only the first condition holds): the accumulator, found at anything, is zeroed and then left at
    zero plus the point's partial sum; the inputs are left as they were and the output block, found at `xo`, is handed back at `xo`. -/
theorem kernelRun4_first (c : Dev nD) (i : grid4.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : cond4_1 i) (hc2 : ¬cond4_2 i)
    (x0 : Vec F S256x64 .f32) (x1 : Vec F S2048x64 .f32) (x2 : Vec F S1x2048 .f32) (xo : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k4_pay1 (k4_pay4 i x0 x1 x2 (k4_pay3 (F := F))))) -∗ K ⟨⟩))
      ⊢ wp frame (wpE (defs₀ (F := F)) Variants.none c none) E (cc4__u_loss_kernel i arg1 harg1 arg2 harg2 arg3 harg3 arg4 harg4 arg5 harg5) K := by
  simp only [cc4__u_loss_kernel_eq_skeleton]; unfold cc4__u_loss_kernel_skel
  simp only [k4_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_cons_self, cover4_unit y⟩), View.canon_cons_unit_zero hz4]
  sl_unfold_run_names
  simp only [View.readCov_unit_zero (S := S1x1) _ hz4, View.readAt_eq_ld, harg1.read_unread, harg2.read_unread, harg3.read_unread,
    View.ld_unit_zero (S := S256x64) hz4, View.ld_unit_zero (S := S2048x64) hz4, View.ld_unit_zero (S := S1x2048) hz4]

set_option maxHeartbeats 1000000 in
/-- The LAST point (only the second condition holds): the accumulator, found at `xs`, is left at `xs` plus the
    point's partial sum, and the output block, found at anything, is left at the logarithm payload of that sum; the
    inputs are left as they were. -/
theorem kernelRun4_last (c : Dev nD) (i : grid4.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond4_1 i) (hc2 : cond4_2 i)
    (x0 : Vec F S256x64 .f32) (x1 : Vec F S2048x64 .f32) (x2 : Vec F S1x2048 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k4_pay2 (k4_pay1 (k4_pay4 i x0 x1 x2 xs)))
            ∗ owns (c : Thread nD τ) arg5 fullShare (k4_pay1 (k4_pay4 i x0 x1 x2 xs))) -∗ K ⟨⟩))
      ⊢ wp frame (wpE (defs₀ (F := F)) Variants.none c none) E (cc4__u_loss_kernel i arg1 harg1 arg2 harg2 arg3 harg3 arg4 harg4 arg5 harg5) K := by
  simp only [cc4__u_loss_kernel_eq_skeleton]; unfold cc4__u_loss_kernel_skel
  simp only [k4_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [View.read_writes_eq_canon _ _ _ (fun y => ⟨_, List.mem_singleton_self _, cover4_unit y⟩), View.canon_unit_zero hz4]
    sl_unfold_run_names
    simp only [View.readCov_unit_zero (S := S1x1) _ hz4, View.readAt_eq_ld, harg1.read_unread, harg2.read_unread, harg3.read_unread, harg5.read_unread,
      View.ld_unit_zero (S := S256x64) hz4, View.ld_unit_zero (S := S2048x64) hz4, View.ld_unit_zero (S := S1x2048) hz4,
      View.ld_unit_zero (S := S1x1) hz4]
  iexists _; isplitr
  swap; · iexact HS
  ipureintro
  sl_unfold_run_names
  rw [View.read_writes_eq_canon _ _ _ (fun y => ⟨_, List.mem_singleton_self _, cover4_unit y⟩), View.canon_unit_zero hz4]
  simp only [View.readAt_eq_ld, harg1.read_unread, harg2.read_unread, harg3.read_unread, harg5.read_unread,
    View.ld_unit_zero (S := S256x64) hz4, View.ld_unit_zero (S := S2048x64) hz4, View.ld_unit_zero (S := S1x2048) hz4,
    View.ld_unit_zero (S := S1x1) hz4]

end Cert.KernelIdeal.Hand

end
-- ==== Proof.KI.ULoss4.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«108982_j38147899523261_2_alg».proof.Proof.KI.ULoss4Run

/-! # Custom call 4 as a pipeline: its proof data and its body obligation

Custom call 4 runs the pairwise-distance kernel over eight grid points. Window 0 hands it one block of 256 rows
of the normalised matrix per point, window 1 the whole matrix and window 2 the row of squared norms (both fetched
once), and window 3 is the one-element result, stored and written back at the last point only. A one-element
scratch buffer carries the running sum from point to point.

This module names what the scratch holds after `t` points (`acc4`: zero, then the partial sums of the points added
in order), what the result block holds at the end (`out4`: the logarithm payload of the full sum), gives the
pipeline's proof data over the region-entry contents `V` (`dat4`), and proves that the kernel body meets the
pipeline's body obligation at every point, from the three single-point runs of the body. Windows 0 and 1 read one
array: the proof data gives window 0 the left half of that array's share and window 1 the right half. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks and the running sum -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the scratch accumulator holds after `t` points: zero (what the first point's reset stores) before any
    point, and after point `n` what it held before plus that point's partial sum over the three input blocks. -/
def acc4 (c : Dev nD) : ℕ → Vec F S1x1 .f32
  | 0 => k4_pay3 (F := F)
  | n + 1 =>
    if h : n < cfg4.N then
      k4_pay1 (k4_pay4 (grid4.coords ⟨n, h⟩) (iblk4 V c 0 ⟨n, h⟩) (iblk4 V c 1 ⟨n, h⟩) (iblk4 V c 2 ⟨n, h⟩) (acc4 c n))
    else acc4 c n

/-- Before any point the accumulator is the zero the reset stores. -/
theorem acc4_zero (c : Dev nD) : acc4 V c 0 = k4_pay3 (F := F) := rfl

/-- Point `t` adds its partial sum to what the accumulator held. -/
theorem acc4_succ (c : Dev nD) (t : Fin cfg4.N) :
    acc4 V c (t.val + 1)
      = k4_pay1 (k4_pay4 (grid4.coords t) (iblk4 V c 0 t) (iblk4 V c 1 t) (iblk4 V c 2 t) (acc4 V c t.val)) := by
  obtain ⟨n, hn⟩ := t
  exact dif_pos hn

/-- The result block after the last point: the logarithm of the full sum over the pair count. -/
def out4 (c : Dev nD) : Vec F S1x1 .f32 := k4_pay2 (acc4 V c 8)

/-! ## The body's branch conditions, and where the result window is idle -/

/-- The accumulator is reset at the first point only. -/
theorem hcond4_1 : ∀ t : Fin cfg4.N, cond4_1 (grid4.coords t) ↔ t.val = 0 :=
  (by decide +kernel : ∀ t : Fin grid4.N, cond4_1 (grid4.coords t) ↔ t.val = 0)
/-- The result block is stored at the last point only. -/
theorem hcond4_2 : ∀ t : Fin cfg4.N, cond4_2 (grid4.coords t) ↔ t.val = 7 :=
  (by decide +kernel : ∀ t : Fin grid4.N, cond4_2 (grid4.coords t) ↔ t.val = 7)

/-- The input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Where the result block is not stored the result window is idle and is not written back; -/
theorem idleAt4_3 : ∀ t : Fin cfg4.N, ¬cond4_2 (grid4.coords t) → cfg4.idle 3 (grid4.coords t) = true := by decide +kernel
theorem noFlush4_3 : ∀ t : Fin cfg4.N, ¬cond4_2 (grid4.coords t) → (cfg4.win 3).flush t = false := by decide +kernel
/-- where it is stored the window is live. -/
theorem liveAt4_3 : ∀ t : Fin cfg4.N, cond4_2 (grid4.coords t) → cfg4.idle 3 (grid4.coords t) = false := by decide +kernel

/-! ## The invariant: the scratch accumulator between points -/

/-- The scratch accumulator as a memref: a whole scoped buffer of the kernel's own. -/
abbrev scM4 : Memref sig .tc .vmem S1x1 .f32 := Memref.whole cc4_scratch0

/-- The scoped buffers no window stages, the accumulator apart. -/
abbrev rest4 (c : Dev nD) : sProp 𝕄 :=
  Pipeline.scopedRestBut (Ix := Unit) (Name := ℕ) (U := UR sig nD τ) (Lvl := ℕ) (Val := Elt F) spec4 c [cc4_scratch0]

/-- The region invariant before position `n`: before the first point every scoped buffer no window stages at some
    contents and the generator register at some state; afterwards the same with the accumulator at the running
    sum of the points so far. -/
def Phi4 (c : Dev nD) : ℕ → sProp 𝕄
  | 0 => Pipeline.ΦA spec4 c
  | n + 1 => iprop(iprop(owns (c : Thread nD τ) scM4 fullShare (acc4 V c (n + 1)) ∗ rest4 c) ∗ (∃ r, prngReg c r))

/-- Before the first point, with the accumulator split off the scoped rest. -/
theorem PhiA4_eq (c : Dev nD) :
    (Pipeline.ΦA spec4 c : sProp 𝕄)
      = iprop(iprop((∃ d, owns (c : Thread nD τ) scM4 fullShare d) ∗ rest4 c) ∗ (∃ r, prngReg c r)) := by
  unfold Pipeline.ΦA; rw [scopedRest4_split]; simp only [scM4, owns_whole]; rfl

theorem Phi4_zero (c : Dev nD) (n : ℕ) (hz : n = 0) : Phi4 V c n = Pipeline.ΦA spec4 c := by
  subst hz; rfl

theorem Phi4_succ (c : Dev nD) (n : ℕ) :
    Phi4 V c (n + 1) = iprop(iprop(owns (c : Thread nD τ) scM4 fullShare (acc4 V c (n + 1)) ∗ rest4 c) ∗ (∃ r, prngReg c r)) := rfl

theorem Phi4_pos (c : Dev nD) (n : ℕ) (hz : n ≠ 0) :
    Phi4 V c n = iprop(iprop(owns (c : Thread nD τ) scM4 fullShare (acc4 V c n) ∗ rest4 c) ∗ (∃ r, prngReg c r)) := by
  cases n with
  | zero => exact absurd rfl hz
  | succ n => rfl

/-! ## The pipeline's proof data -/

/-- The proof data of custom call 4 on core `c`: the arrays as the region finds them (`V`); after the body at any
    point each input's buffer at its block and the result's at `out4` (read only at the last point: before it the
    window is idle); the invariant `Phi4`; nothing owed; the array windows 0 and 1 share split between them, left
    half and right half. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 V c
  Φ t := Phi4 V c t.val
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 V c := by dsimp only [dat4]

/-- The invariant at a point's start and end, restated at the position's number. -/
theorem Phi4_castSucc (c : Dev nD) (t : Fin cfg4.N) : (dat4 V c).Φ t.castSucc = Phi4 V c t.val := by
  dsimp only [dat4]; simp only [Fin.coe_castSucc]
theorem Phi4_at_succ (c : Dev nD) (t : Fin cfg4.N) : (dat4 V c).Φ t.succ = Phi4 V c (t.val + 1) := by
  dsimp only [dat4]; simp only [Fin.val_succ]

/-- Each input's current staging buffer holds its block at every point, fetched there or not: an input whose body
    leaves its block in place holds what a fetch puts there, and unfetched its block index has not moved. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

/-- The inputs' posts: never idle, each buffer is left at its block. -/
theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (iblk4 V c 2 t) := by
  unfold Dat.leavesExact; rw [liveAt4_2 t, after4_2]

set_option maxHeartbeats 4000000 in
/-- The body at any point. The inputs' buffers hold their blocks; the point's number says which of the three cases it
    is in; the invariant hands the body the accumulator at the running sum of the points before (at anything at the
    first point, which resets it) and takes it back at the running sum with this point's partial sum added; at the
    last point the result block is left at the logarithm payload of the full sum, elsewhere it is handed back
    untouched. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [Phi4_at_succ, Phi4_succ, Phi4_castSucc, leaves4_0, leaves4_1, leaves4_2, acc4_succ V c t]
  have hN : t.val < 8 := lt_of_lt_of_eq t.isLt (show cfg4.N = 8 from N_4)
  by_cases h0 : t.val = 0
  · have hc1 : cond4_1 (grid4.coords t) := (hcond4_1 t).mpr h0
    have hc2 : ¬cond4_2 (grid4.coords t) := fun h => by have := (hcond4_2 t).mp h; omega
    rw [Dat.leavesExact_idle (dat4 V c) 3 t (idleAt4_3 t hc2) (noFlush4_3 t hc2)]
    rw [Phi4_zero V c _ h0, PhiA4_eq, (congrArg (acc4 V c) h0).trans (acc4_zero V c)]
    iintro ⟨⟨⟨HS, HR⟩, Hg⟩, Ho, ⟨%d0, H0⟩, ⟨%d1, H1⟩, ⟨%d2, H2⟩, ⟨%d3, H3⟩⟩
    iapply (kernelRun4_first c (grid4.coords t) _ _ _ _ _ _ _ _ _ _ hc1 hc2 (iblk4 V c 0 t) (iblk4 V c 1 t) (iblk4 V c 2 t) ((dat4 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists d3; iexact H3
  · have hc1 : ¬cond4_1 (grid4.coords t) := fun h => h0 ((hcond4_1 t).mp h)
    rw [Phi4_pos V c _ h0]
    by_cases h7 : t.val = 7
    · have hc2 : cond4_2 (grid4.coords t) := (hcond4_2 t).mpr h7
      rw [show (dat4 V c).leavesExact 3 t = owns (c : Thread nD τ) (st4_3 t) fullShare ((dat4 V c).after 3 t) from by
        unfold Dat.leavesExact; rw [liveAt4_3 t hc2], after4_3]
      unfold out4
      rw [congrArg (acc4 V c) (show 8 = t.val + 1 by omega), acc4_succ V c t]
      iintro ⟨⟨⟨HS, HR⟩, Hg⟩, Ho, ⟨%d0, H0⟩, ⟨%d1, H1⟩, ⟨%d2, H2⟩, ⟨%d3, H3⟩⟩
      iapply (kernelRun4_last c (grid4.coords t) _ _ _ _ _ _ _ _ _ _ hc1 hc2 (iblk4 V c 0 t) (iblk4 V c 1 t) (iblk4 V c 2 t) (acc4 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc2 : ¬cond4_2 (grid4.coords t) := fun h => h7 ((hcond4_2 t).mp h)
      rw [Dat.leavesExact_idle (dat4 V c) 3 t (idleAt4_3 t hc2) (noFlush4_3 t hc2)]
      iintro ⟨⟨⟨HS, HR⟩, Hg⟩, Ho, ⟨%d0, H0⟩, ⟨%d1, H1⟩, ⟨%d2, H2⟩, ⟨%d3, H3⟩⟩
      iapply (kernelRun4_mid c (grid4.coords t) _ _ _ _ _ _ _ _ _ _ hc1 hc2 (iblk4 V c 0 t) (iblk4 V c 1 t) (iblk4 V c 2 t) ((dat4 V c).before 3 t d3) (acc4 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-! ## The region's boundary: the arrays out of the core's unscoped buffers, and back

The four windows stand on three buffers: windows 0 and 1 both on the normalised matrix. At the region's entry the
core holds every unscoped buffer whole at the full share; the matrix's buffer is split in two halves along its
share, one per window, and joined again at the exit, where both halves hold the same contents. -/

/-- A window is one of the four. -/
theorem fin4_cases4 (w : Fin 4) : w = 0 ∨ w = 1 ∨ w = 2 ∨ w = 3 := by
  obtain ⟨w, hw⟩ := w; simp only [Fin.ext_iff]; show w = 0 ∨ w = 1 ∨ w = 2 ∨ w = 3; omega

/-- Windows 0 and 1 read one buffer. -/
theorem arr4_1_eq_0 : Pipeline.arrRef spec4 1 = Pipeline.arrRef spec4 0 := rfl

/-- The three buffers behind the four windows' arrays. -/
theorem image_arr4 : Finset.univ.image (Pipeline.arrRef spec4)
    = ([Pipeline.arrRef spec4 0, Pipeline.arrRef spec4 2, Pipeline.arrRef spec4 3] : List (Ref sig .tc)).toFinset := by
  ext b
  simp only [Finset.mem_image, Finset.mem_univ, true_and, List.mem_toFinset, List.mem_cons, List.not_mem_nil, or_false]
  constructor
  · rintro ⟨w, rfl⟩
    rcases fin4_cases4 w with rfl | rfl | rfl | rfl
    · exact Or.inl rfl
    · exact Or.inl arr4_1_eq_0
    · exact Or.inr (Or.inl rfl)
    · exact Or.inr (Or.inr rfl)
  · rintro (rfl | rfl | rfl)
    · exact ⟨0, rfl⟩
    · exact ⟨2, rfl⟩
    · exact ⟨3, rfl⟩

/-- They are three different buffers. -/
theorem nodup_arr4 : ([Pipeline.arrRef spec4 0, Pipeline.arrRef spec4 2, Pipeline.arrRef spec4 3] : List (Ref sig .tc)).Nodup := by
  decide

/-- A points-to of a buffer named in two ways, at a valuation's contents. -/
theorem pointsTo_ref_congr4 (c : Dev nD) {b b' : Ref sig .tc} (h : b = b') (q : PosShare TreeShare)
    (W : (b : Ref sig .tc) → Buf (Elt F) ((c : Thread nD τ).loc b)) :
    ((((c : Thread nD τ).loc b) ↦{q} W b) : sProp 𝕄) = (((c : Thread nD τ).loc b') ↦{q} W b') := by
  subst h; rfl

/-- The buffers behind the arrays, one by one. -/
theorem arrBufs4_eq (c : Dev nD) (W : (b : Ref sig .tc) → Buf (Elt F) ((c : Thread nD τ).loc b)) :
    (Pipeline.arrBufs spec4 c W : sProp 𝕄)
      = iprop((((c : Thread nD τ).loc (Pipeline.arrRef spec4 0)) ↦{fullShare} W (Pipeline.arrRef spec4 0))
          ∗ (((c : Thread nD τ).loc (Pipeline.arrRef spec4 2)) ↦{fullShare} W (Pipeline.arrRef spec4 2))
          ∗ (((c : Thread nD τ).loc (Pipeline.arrRef spec4 3)) ↦{fullShare} W (Pipeline.arrRef spec4 3))) := by
  unfold Pipeline.arrBufs
  exact bigSep_eq_bigSepL_of_eq _ image_arr4 nodup_arr4 _

/-- The shares the proof data holds the arrays at. -/
theorem share4_0 (c : Dev nD) : (dat4 V c).share 0 = fullShare.left := rfl
theorem share4_1 (c : Dev nD) : (dat4 V c).share 1 = fullShare.right := rfl
theorem share4_2 (c : Dev nD) : (dat4 V c).share 2 = fullShare := rfl
theorem share4_3 (c : Dev nD) : (dat4 V c).share 3 = fullShare := rfl

/-- The proof data's arrays, window by window, as points-tos of whole buffers. -/
theorem arrays4_eq (c : Dev nD) (G : (w : Fin cfg4.W) → Buf (Elt F) ((cfg4.win w).arr.view.loc (c : Thread nD τ))) :
    (dat4 V c).arrays G
      = iprop((((c : Thread nD τ).loc (Pipeline.arrRef spec4 0)) ↦{fullShare.left} G 0)
          ∗ (((c : Thread nD τ).loc (Pipeline.arrRef spec4 1)) ↦{fullShare.right} G 1)
          ∗ (((c : Thread nD τ).loc (Pipeline.arrRef spec4 2)) ↦{fullShare} G 2)
          ∗ (((c : Thread nD τ).loc (Pipeline.arrRef spec4 3)) ↦{fullShare} G 3)) := by
  have h : (dat4 V c).arrays G
      = bigSep Finset.univ fun w : Fin cfg4.W => ((((c : Thread nD τ).loc (Pipeline.arrRef spec4 w)) ↦{(dat4 V c).share w} G w) : sProp 𝕄) := by
    unfold Dat.arrays
    exact bigSep_congr fun w _ => by rw [(arr_whole4 w).set_eq_univ]
  rw [h, bigSep_W4]
  simp only [share4_0, share4_1, share4_2, share4_3]

set_option maxHeartbeats 2000000 in
/-- ENTRY: the core's unscoped buffers at `V c` are the proof data's arrays at their entry contents — the matrix's
    buffer split between windows 0 and 1 along its share — and the unscoped rest. -/
theorem entry4 (c : Dev nD) :
    (unscopedBufs c (V c) : sProp 𝕄)
      ⊢ iprop((dat4 V c).arrays ((dat4 V c).arrAt · 0) ∗ Pipeline.unscopedRest spec4 c (V c)) := by
  rewrite [Pipeline.PerCore.unscopedBufs_split₀ (fun (_ : Dev nD) (_ : Unit) => cfg4) () c winFacts₀4.arr_unscoped (V c), arrBufs4_eq, arrays4_eq,
    show (dat4 V c).arrAt 0 0 = V c (Pipeline.arrRef spec4 0) from A_eq4 V c 0, show (dat4 V c).arrAt 1 0 = V c (Pipeline.arrRef spec4 1) from A_eq4 V c 1,
    show (dat4 V c).arrAt 2 0 = V c (Pipeline.arrRef spec4 2) from A_eq4 V c 2, show (dat4 V c).arrAt 3 0 = V c (Pipeline.arrRef spec4 3) from A_eq4 V c 3]
  have hconv : ((((c : Thread nD τ).loc (Pipeline.arrRef spec4 0)) ↦{fullShare.right} V c (Pipeline.arrRef spec4 0)) : sProp 𝕄)
      ⊢ (((c : Thread nD τ).loc (Pipeline.arrRef spec4 1)) ↦{fullShare.right} V c (Pipeline.arrRef spec4 1)) :=
    Entails.of_eq (pointsTo_ref_congr4 c arr4_1_eq_0.symm fullShare.right (V c))
  have hsplit : ((((c : Thread nD τ).loc (Pipeline.arrRef spec4 0)) ↦{fullShare} V c (Pipeline.arrRef spec4 0)) : sProp 𝕄)
      ⊢ iprop((((c : Thread nD τ).loc (Pipeline.arrRef spec4 0)) ↦{fullShare.left} V c (Pipeline.arrRef spec4 0))
          ∗ (((c : Thread nD τ).loc (Pipeline.arrRef spec4 0)) ↦{fullShare.right} V c (Pipeline.arrRef spec4 0))) :=
    (pointsTo_share (PosShare.mem_left_op_right fullShare)).1
  iintro ⟨⟨H0, H2, H3⟩, Hrest⟩
  ihave H01 := hsplit $$ H0
  icases H01 with ⟨H0l, H0r⟩
  isplitr [Hrest]
  · isplitl [H0l]; · iexact H0l
    isplitl [H0r]; · iapply hconv; iexact H0r
    isplitl [H2]; · iexact H2
    iexact H3
  iexact Hrest

set_option maxHeartbeats 2000000 in
/-- EXIT: the arrays at their final contents and the unscoped rest are the core's unscoped buffers at any valuation
    `W'` that has every array at its final contents and agrees with `V c` elsewhere: the two halves of the matrix's
    buffer hold the same contents and join. -/
theorem exit4 (c : Dev nD) (W' : (b : Ref sig .tc) → Buf (Elt F) ((c : Thread nD τ).loc b))
    (hF : ∀ w, (dat4 V c).arrAt w cfg4.N = W' (Pipeline.arrRef spec4 w))
    (hrest : ∀ b, b ∉ Finset.univ.image (Pipeline.arrRef spec4) → W' b = V c b) :
    iprop((dat4 V c).arrays ((dat4 V c).arrAt · cfg4.N) ∗ Pipeline.unscopedRest spec4 c (V c))
      ⊢ (unscopedBufs c W' : sProp 𝕄) := by
  rewrite [Pipeline.PerCore.unscopedBufs_split₀ (fun (_ : Dev nD) (_ : Unit) => cfg4) () c winFacts₀4.arr_unscoped W', arrBufs4_eq, arrays4_eq,
    hF 0, hF 1, hF 2, hF 3]
  have hconv : ((((c : Thread nD τ).loc (Pipeline.arrRef spec4 1)) ↦{fullShare.right} W' (Pipeline.arrRef spec4 1)) : sProp 𝕄)
      ⊢ (((c : Thread nD τ).loc (Pipeline.arrRef spec4 0)) ↦{fullShare.right} W' (Pipeline.arrRef spec4 0)) :=
    Entails.of_eq (pointsTo_ref_congr4 c arr4_1_eq_0 fullShare.right W')
  have hjoin : (iprop((((c : Thread nD τ).loc (Pipeline.arrRef spec4 0)) ↦{fullShare.left} W' (Pipeline.arrRef spec4 0))
          ∗ (((c : Thread nD τ).loc (Pipeline.arrRef spec4 0)) ↦{fullShare.right} W' (Pipeline.arrRef spec4 0))) : sProp 𝕄)
      ⊢ (((c : Thread nD τ).loc (Pipeline.arrRef spec4 0)) ↦{fullShare} W' (Pipeline.arrRef spec4 0)) :=
    (pointsTo_share (PosShare.mem_left_op_right fullShare)).2
  have hR : (Pipeline.unscopedRest spec4 c (V c) : sProp 𝕄) = Pipeline.unscopedRest spec4 c W' := by
    unfold Pipeline.unscopedRest
    exact bigSep_congr fun b hb => by rw [hrest b (Finset.mem_sdiff.mp hb).2]
  rewrite [hR]
  iintro ⟨⟨H0l, H0r, H2, H3⟩, Hrest⟩
  isplitr [Hrest]
  · isplitl [H0l H0r]
    · iapply hjoin
      isplitl [H0l]; · iexact H0l
      iapply hconv; iexact H0r
    isplitl [H2]; · iexact H2
    iexact H3
  iexact Hrest
/-- The invariant at the first point, from the generator register and the scoped buffers no window stages. -/
theorem hin4 (c : Dev nD) :
    (iprop((∃ r, prngReg c r) ∗ Pipeline.scopedRest spec4 c) : sProp 𝕄) ⊢ (dat4 V c).Φ 0 := by
  rw [show (dat4 V c).Φ 0 = Pipeline.ΦA spec4 c from rfl]; unfold Pipeline.ΦA
  iintro ⟨Hp, Hr⟩
  isplitl [Hr]; · iexact Hr
  iexact Hp

/-- The invariant at the last point gives them back: the accumulator's contents are forgotten. -/
theorem hout4 (c : Dev nD) :
    (dat4 V c).Φ (Fin.last cfg4.N) ⊢ (iprop((∃ r, prngReg c r) ∗ Pipeline.scopedRest spec4 c) : sProp 𝕄) := by
  rw [show (dat4 V c).Φ (Fin.last cfg4.N) = Phi4 V c cfg4.N from rfl,
    Phi4_pos V c _ (by rw [show cfg4.N = 8 from N_4]; decide), scopedRest4_split]
  iintro ⟨⟨HS, HR⟩, Hg⟩
  isplitl [Hg]; · iexact Hg
  isplitl [HS]
  · simp only [scM4, owns_whole]; iexists _; iexact HS
  iexact HR

/-! ## The arrays after the run -/

/-- The input arrays are never written. -/
theorem arrAt4_0 (c : Dev nD) (n : ℕ) : (dat4 V c).arrAt 0 n = V c (Pipeline.arrRef spec4 0) :=
  ((dat4 V c).arrAt_in 0 rfl n).trans (A_eq4 V c 0)
theorem arrAt4_1 (c : Dev nD) (n : ℕ) : (dat4 V c).arrAt 1 n = V c (Pipeline.arrRef spec4 1) :=
  ((dat4 V c).arrAt_in 1 rfl n).trans (A_eq4 V c 1)
theorem arrAt4_2 (c : Dev nD) (n : ℕ) : (dat4 V c).arrAt 2 n = V c (Pipeline.arrRef spec4 2) :=
  ((dat4 V c).arrAt_in 2 rfl n).trans (A_eq4 V c 2)

/-- The last point of the grid. -/
def tl4 : Fin cfg4.N := ⟨7, by rw [show cfg4.N = 8 from N_4]; decide⟩

/-- The result array after the run, read through the result window's one block, is `out4`: only the last point
    writes the block back, and it writes what the body left there. -/
theorem final4 (c : Dev nD) :
    ((cfg4.win 3).blk tl4).view.read (Elt F) ((dat4 V c).arrAt 3 cfg4.N) = out4 V c := by
  have hfl : ∀ t : Fin cfg4.N, (cfg4.win 3).flush t = true → t = tl4 := fun t h => by
    have h7 := (flush4_3 t).mp h
    have hlt := t.isLt
    have hN : cfg4.N = 8 := N_4
    apply Fin.ext; show t.val = 7; omega
  rw [(dat4 V c).read_blk_arrAt_eq_flushed 3 (fun t t' h h' hne => absurd ((hfl t h).trans (hfl t' h').symm) hne)
    cfg4.N tl4 tl4.isLt ((flush4_3 tl4).mpr rfl)]
  unfold Dat.flushed
  rw [after4_3]
  rfl

end Cert.KernelIdeal.Hand

end
-- ==== Proof.KI.ULoss5Run.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # The pairwise-distance kernel of custom call 5, run once

The kernel body of custom call 5 keeps a one-element accumulator in a scratch buffer across its eight grid
points. On whole staging buffers holding a block `x0` of 256 rows, the whole matrix `x1` and the row of squared
norms `x2`, one execution of the body

* at the first point stores zero into the accumulator and then adds the point's partial sum to it,
* at a middle point adds the point's partial sum to what the accumulator held,
* at the last point does the same and then stores `log (accumulator / 2096128)` into the output block.

The partial sum is the payload `k5_pay4` of the point, the three input blocks and the accumulator's previous
contents; the zero is `k5_pay3`, the logarithm `k5_pay2`. Each theorem below is the body's triple in one of the
three cases, with the contents every buffer ends at stated in closed form over these payloads. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first `scf.if` (the accumulator is zeroed): the grid coordinate is 0. -/
abbrev cond5_1 (i : grid5.Coords) : Prop := (Scalar.cmpi .ne (Scalar.extui (Scalar.cmpi .eq (BitVec.ofNat 32 (i 0).val) 0#32)) 0#32) = 1#1
/-- The condition of the body's second `scf.if` (the output block is stored): the grid coordinate is 7. -/
abbrev cond5_2 (i : grid5.Coords) : Prop := k5_cond2 i = 1#1

/-- The zero offsets of a rank-two access, as a constant function. -/
theorem hz5 : (![0, 0] : Fin 2 → Nat) = fun _ => 0 := funext fun a => by fin_cases a <;> rfl

/-- The one-element rectangle covers the one-element shape. -/
theorem cover5_unit (y : S1x1.Idx) : y ∈ (Rect.unit (s := S1x1) ![0, 0] S1x1.size inb_S1x1_S1x1_0_0).set :=
  View.mem_set_unit_zero hz5 inb_S1x1_S1x1_0_0 y

set_option maxHeartbeats 1000000 in
/-- A MIDDLE point (neither condition holds): the inputs are read and left as they were, the output block, found at
    `xo`, is handed back at `xo`, and the accumulator, found at `xs`, is left at `xs` plus the point's partial sum. -/
theorem kernelRun5_mid (c : Dev nD) (i : grid5.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond5_1 i) (hc2 : ¬cond5_2 i)
    (x0 : Vec F S256x64 .f32) (x1 : Vec F S2048x64 .f32) (x2 : Vec F S1x2048 .f32) (xo : Vec F S1x1 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k5_pay1 (k5_pay4 i x0 x1 x2 xs))) -∗ K ⟨⟩))
      ⊢ wp frame (wpE (defs₀ (F := F)) Variants.none c none) E (cc5__u_loss_kernel i arg1 harg1 arg2 harg2 arg3 harg3 arg4 harg4 arg5 harg5) K := by
  simp only [cc5__u_loss_kernel_eq_skeleton]; unfold cc5__u_loss_kernel_skel
  simp only [k5_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_singleton_self _, cover5_unit y⟩), View.canon_unit_zero hz5]
  sl_unfold_run_names
  simp only [View.readAt_eq_ld, harg1.read_unread, harg2.read_unread, harg3.read_unread, harg5.read_unread,
    View.ld_unit_zero (S := S256x64) hz5, View.ld_unit_zero (S := S2048x64) hz5, View.ld_unit_zero (S := S1x2048) hz5,
    View.ld_unit_zero (S := S1x1) hz5]

set_option maxHeartbeats 1000000 in
/-- The FIRST point (only the first condition holds): the accumulator, found at anything, is zeroed and then left at
    zero plus the point's partial sum; the inputs are left as they were and the output block, found at `xo`, is handed back at `xo`. -/
theorem kernelRun5_first (c : Dev nD) (i : grid5.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : cond5_1 i) (hc2 : ¬cond5_2 i)
    (x0 : Vec F S256x64 .f32) (x1 : Vec F S2048x64 .f32) (x2 : Vec F S1x2048 .f32) (xo : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k5_pay1 (k5_pay4 i x0 x1 x2 (k5_pay3 (F := F))))) -∗ K ⟨⟩))
      ⊢ wp frame (wpE (defs₀ (F := F)) Variants.none c none) E (cc5__u_loss_kernel i arg1 harg1 arg2 harg2 arg3 harg3 arg4 harg4 arg5 harg5) K := by
  simp only [cc5__u_loss_kernel_eq_skeleton]; unfold cc5__u_loss_kernel_skel
  simp only [k5_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_cons_self, cover5_unit y⟩), View.canon_cons_unit_zero hz5]
  sl_unfold_run_names
  simp only [View.readCov_unit_zero (S := S1x1) _ hz5, View.readAt_eq_ld, harg1.read_unread, harg2.read_unread, harg3.read_unread,
    View.ld_unit_zero (S := S256x64) hz5, View.ld_unit_zero (S := S2048x64) hz5, View.ld_unit_zero (S := S1x2048) hz5]

set_option maxHeartbeats 1000000 in
/-- The LAST point (only the second condition holds): the accumulator, found at `xs`, is left at `xs` plus the
    point's partial sum, and the output block, found at anything, is left at the logarithm payload of that sum; the
    inputs are left as they were. -/
theorem kernelRun5_last (c : Dev nD) (i : grid5.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond5_1 i) (hc2 : cond5_2 i)
    (x0 : Vec F S256x64 .f32) (x1 : Vec F S2048x64 .f32) (x2 : Vec F S1x2048 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k5_pay2 (k5_pay1 (k5_pay4 i x0 x1 x2 xs)))
            ∗ owns (c : Thread nD τ) arg5 fullShare (k5_pay1 (k5_pay4 i x0 x1 x2 xs))) -∗ K ⟨⟩))
      ⊢ wp frame (wpE (defs₀ (F := F)) Variants.none c none) E (cc5__u_loss_kernel i arg1 harg1 arg2 harg2 arg3 harg3 arg4 harg4 arg5 harg5) K := by
  simp only [cc5__u_loss_kernel_eq_skeleton]; unfold cc5__u_loss_kernel_skel
  simp only [k5_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [View.read_writes_eq_canon _ _ _ (fun y => ⟨_, List.mem_singleton_self _, cover5_unit y⟩), View.canon_unit_zero hz5]
    sl_unfold_run_names
    simp only [View.readCov_unit_zero (S := S1x1) _ hz5, View.readAt_eq_ld, harg1.read_unread, harg2.read_unread, harg3.read_unread, harg5.read_unread,
      View.ld_unit_zero (S := S256x64) hz5, View.ld_unit_zero (S := S2048x64) hz5, View.ld_unit_zero (S := S1x2048) hz5,
      View.ld_unit_zero (S := S1x1) hz5]
  iexists _; isplitr
  swap; · iexact HS
  ipureintro
  sl_unfold_run_names
  rw [View.read_writes_eq_canon _ _ _ (fun y => ⟨_, List.mem_singleton_self _, cover5_unit y⟩), View.canon_unit_zero hz5]
  simp only [View.readAt_eq_ld, harg1.read_unread, harg2.read_unread, harg3.read_unread, harg5.read_unread,
    View.ld_unit_zero (S := S256x64) hz5, View.ld_unit_zero (S := S2048x64) hz5, View.ld_unit_zero (S := S1x2048) hz5,
    View.ld_unit_zero (S := S1x1) hz5]

end Cert.KernelIdeal.Hand

end
-- ==== Proof.KI.ULoss5.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«108982_j38147899523261_2_alg».proof.Proof.KI.ULoss5Run

/-! # Custom call 5 as a pipeline: its proof data and its body obligation

Custom call 5 runs the pairwise-distance kernel over eight grid points. Window 0 hands it one block of 256 rows
of the normalised matrix per point, window 1 the whole matrix and window 2 the row of squared norms (both fetched
once), and window 3 is the one-element result, stored and written back at the last point only. A one-element
scratch buffer carries the running sum from point to point.

This module names what the scratch holds after `t` points (`acc5`: zero, then the partial sums of the points added
in order), what the result block holds at the end (`out5`: the logarithm payload of the full sum), gives the
pipeline's proof data over the region-entry contents `V` (`dat5`), and proves that the kernel body meets the
pipeline's body obligation at every point, from the three single-point runs of the body. Windows 0 and 1 read one
array: the proof data gives window 0 the left half of that array's share and window 1 the right half. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks and the running sum -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the scratch accumulator holds after `t` points: zero (what the first point's reset stores) before any
    point, and after point `n` what it held before plus that point's partial sum over the three input blocks. -/
def acc5 (c : Dev nD) : ℕ → Vec F S1x1 .f32
  | 0 => k5_pay3 (F := F)
  | n + 1 =>
    if h : n < cfg5.N then
      k5_pay1 (k5_pay4 (grid5.coords ⟨n, h⟩) (iblk5 V c 0 ⟨n, h⟩) (iblk5 V c 1 ⟨n, h⟩) (iblk5 V c 2 ⟨n, h⟩) (acc5 c n))
    else acc5 c n

/-- Before any point the accumulator is the zero the reset stores. -/
theorem acc5_zero (c : Dev nD) : acc5 V c 0 = k5_pay3 (F := F) := rfl

/-- Point `t` adds its partial sum to what the accumulator held. -/
theorem acc5_succ (c : Dev nD) (t : Fin cfg5.N) :
    acc5 V c (t.val + 1)
      = k5_pay1 (k5_pay4 (grid5.coords t) (iblk5 V c 0 t) (iblk5 V c 1 t) (iblk5 V c 2 t) (acc5 V c t.val)) := by
  obtain ⟨n, hn⟩ := t
  exact dif_pos hn

/-- The result block after the last point: the logarithm of the full sum over the pair count. -/
def out5 (c : Dev nD) : Vec F S1x1 .f32 := k5_pay2 (acc5 V c 8)

/-! ## The body's branch conditions, and where the result window is idle -/

/-- The accumulator is reset at the first point only. -/
theorem hcond5_1 : ∀ t : Fin cfg5.N, cond5_1 (grid5.coords t) ↔ t.val = 0 :=
  (by decide +kernel : ∀ t : Fin grid5.N, cond5_1 (grid5.coords t) ↔ t.val = 0)
/-- The result block is stored at the last point only. -/
theorem hcond5_2 : ∀ t : Fin cfg5.N, cond5_2 (grid5.coords t) ↔ t.val = 7 :=
  (by decide +kernel : ∀ t : Fin grid5.N, cond5_2 (grid5.coords t) ↔ t.val = 7)

/-- The input windows are never idle. -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Where the result block is not stored the result window is idle and is not written back; -/
theorem idleAt5_3 : ∀ t : Fin cfg5.N, ¬cond5_2 (grid5.coords t) → cfg5.idle 3 (grid5.coords t) = true := by decide +kernel
theorem noFlush5_3 : ∀ t : Fin cfg5.N, ¬cond5_2 (grid5.coords t) → (cfg5.win 3).flush t = false := by decide +kernel
/-- where it is stored the window is live. -/
theorem liveAt5_3 : ∀ t : Fin cfg5.N, cond5_2 (grid5.coords t) → cfg5.idle 3 (grid5.coords t) = false := by decide +kernel

/-! ## The invariant: the scratch accumulator between points -/

/-- The scratch accumulator as a memref: a whole scoped buffer of the kernel's own. -/
abbrev scM5 : Memref sig .tc .vmem S1x1 .f32 := Memref.whole cc5_scratch0

/-- The scoped buffers no window stages, the accumulator apart. -/
abbrev rest5 (c : Dev nD) : sProp 𝕄 :=
  Pipeline.scopedRestBut (Ix := Unit) (Name := ℕ) (U := UR sig nD τ) (Lvl := ℕ) (Val := Elt F) spec5 c [cc5_scratch0]

/-- The region invariant before position `n`: before the first point every scoped buffer no window stages at some
    contents and the generator register at some state; afterwards the same with the accumulator at the running
    sum of the points so far. -/
def Phi5 (c : Dev nD) : ℕ → sProp 𝕄
  | 0 => Pipeline.ΦA spec5 c
  | n + 1 => iprop(iprop(owns (c : Thread nD τ) scM5 fullShare (acc5 V c (n + 1)) ∗ rest5 c) ∗ (∃ r, prngReg c r))

/-- Before the first point, with the accumulator split off the scoped rest. -/
theorem PhiA5_eq (c : Dev nD) :
    (Pipeline.ΦA spec5 c : sProp 𝕄)
      = iprop(iprop((∃ d, owns (c : Thread nD τ) scM5 fullShare d) ∗ rest5 c) ∗ (∃ r, prngReg c r)) := by
  unfold Pipeline.ΦA; rw [scopedRest5_split]; simp only [scM5, owns_whole]; rfl

theorem Phi5_zero (c : Dev nD) (n : ℕ) (hz : n = 0) : Phi5 V c n = Pipeline.ΦA spec5 c := by
  subst hz; rfl

theorem Phi5_succ (c : Dev nD) (n : ℕ) :
    Phi5 V c (n + 1) = iprop(iprop(owns (c : Thread nD τ) scM5 fullShare (acc5 V c (n + 1)) ∗ rest5 c) ∗ (∃ r, prngReg c r)) := rfl

theorem Phi5_pos (c : Dev nD) (n : ℕ) (hz : n ≠ 0) :
    Phi5 V c n = iprop(iprop(owns (c : Thread nD τ) scM5 fullShare (acc5 V c n) ∗ rest5 c) ∗ (∃ r, prngReg c r)) := by
  cases n with
  | zero => exact absurd rfl hz
  | succ n => rfl

/-! ## The pipeline's proof data -/

/-- The proof data of custom call 5 on core `c`: the arrays as the region finds them (`V`); after the body at any
    point each input's buffer at its block and the result's at `out5` (read only at the last point: before it the
    window is idle); the invariant `Phi5`; nothing owed; the array windows 0 and 1 share split between them, left
    half and right half. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 V c
  Φ t := Phi5 V c t.val
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 V c := by dsimp only [dat5]

/-- The invariant at a point's start and end, restated at the position's number. -/
theorem Phi5_castSucc (c : Dev nD) (t : Fin cfg5.N) : (dat5 V c).Φ t.castSucc = Phi5 V c t.val := by
  dsimp only [dat5]; simp only [Fin.coe_castSucc]
theorem Phi5_at_succ (c : Dev nD) (t : Fin cfg5.N) : (dat5 V c).Φ t.succ = Phi5 V c (t.val + 1) := by
  dsimp only [dat5]; simp only [Fin.val_succ]

/-- Each input's current staging buffer holds its block at every point, fetched there or not: an input whose body
    leaves its block in place holds what a fetch puts there, and unfetched its block index has not moved. -/
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

/-- The inputs' posts: never idle, each buffer is left at its block. -/
theorem leaves5_0 (c : Dev nD) (t : Fin cfg5.N) :
    (dat5 V c).leavesExact 0 t = owns (c : Thread nD τ) (st5_0 t) fullShare (iblk5 V c 0 t) := by
  unfold Dat.leavesExact; rw [liveAt5_0 t, after5_0]
theorem leaves5_1 (c : Dev nD) (t : Fin cfg5.N) :
    (dat5 V c).leavesExact 1 t = owns (c : Thread nD τ) (st5_1 t) fullShare (iblk5 V c 1 t) := by
  unfold Dat.leavesExact; rw [liveAt5_1 t, after5_1]
theorem leaves5_2 (c : Dev nD) (t : Fin cfg5.N) :
    (dat5 V c).leavesExact 2 t = owns (c : Thread nD τ) (st5_2 t) fullShare (iblk5 V c 2 t) := by
  unfold Dat.leavesExact; rw [liveAt5_2 t, after5_2]

set_option maxHeartbeats 4000000 in
/-- The body at any point. The inputs' buffers hold their blocks; the point's number says which of the three cases it
    is in; the invariant hands the body the accumulator at the running sum of the points before (at anything at the
    first point, which resets it) and takes it back at the running sum with this point's partial sum added; at the
    last point the result block is left at the logarithm payload of the full sum, elsewhere it is handed back
    untouched. The core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [Phi5_at_succ, Phi5_succ, Phi5_castSucc, leaves5_0, leaves5_1, leaves5_2, acc5_succ V c t]
  have hN : t.val < 8 := lt_of_lt_of_eq t.isLt (show cfg5.N = 8 from N_5)
  by_cases h0 : t.val = 0
  · have hc1 : cond5_1 (grid5.coords t) := (hcond5_1 t).mpr h0
    have hc2 : ¬cond5_2 (grid5.coords t) := fun h => by have := (hcond5_2 t).mp h; omega
    rw [Dat.leavesExact_idle (dat5 V c) 3 t (idleAt5_3 t hc2) (noFlush5_3 t hc2)]
    rw [Phi5_zero V c _ h0, PhiA5_eq, (congrArg (acc5 V c) h0).trans (acc5_zero V c)]
    iintro ⟨⟨⟨HS, HR⟩, Hg⟩, Ho, ⟨%d0, H0⟩, ⟨%d1, H1⟩, ⟨%d2, H2⟩, ⟨%d3, H3⟩⟩
    iapply (kernelRun5_first c (grid5.coords t) _ _ _ _ _ _ _ _ _ _ hc1 hc2 (iblk5 V c 0 t) (iblk5 V c 1 t) (iblk5 V c 2 t) ((dat5 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists d3; iexact H3
  · have hc1 : ¬cond5_1 (grid5.coords t) := fun h => h0 ((hcond5_1 t).mp h)
    rw [Phi5_pos V c _ h0]
    by_cases h7 : t.val = 7
    · have hc2 : cond5_2 (grid5.coords t) := (hcond5_2 t).mpr h7
      rw [show (dat5 V c).leavesExact 3 t = owns (c : Thread nD τ) (st5_3 t) fullShare ((dat5 V c).after 3 t) from by
        unfold Dat.leavesExact; rw [liveAt5_3 t hc2], after5_3]
      unfold out5
      rw [congrArg (acc5 V c) (show 8 = t.val + 1 by omega), acc5_succ V c t]
      iintro ⟨⟨⟨HS, HR⟩, Hg⟩, Ho, ⟨%d0, H0⟩, ⟨%d1, H1⟩, ⟨%d2, H2⟩, ⟨%d3, H3⟩⟩
      iapply (kernelRun5_last c (grid5.coords t) _ _ _ _ _ _ _ _ _ _ hc1 hc2 (iblk5 V c 0 t) (iblk5 V c 1 t) (iblk5 V c 2 t) (acc5 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc2 : ¬cond5_2 (grid5.coords t) := fun h => h7 ((hcond5_2 t).mp h)
      rw [Dat.leavesExact_idle (dat5 V c) 3 t (idleAt5_3 t hc2) (noFlush5_3 t hc2)]
      iintro ⟨⟨⟨HS, HR⟩, Hg⟩, Ho, ⟨%d0, H0⟩, ⟨%d1, H1⟩, ⟨%d2, H2⟩, ⟨%d3, H3⟩⟩
      iapply (kernelRun5_mid c (grid5.coords t) _ _ _ _ _ _ _ _ _ _ hc1 hc2 (iblk5 V c 0 t) (iblk5 V c 1 t) (iblk5 V c 2 t) ((dat5 V c).before 3 t d3) (acc5 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

/-! ## The region's boundary: the arrays out of the core's unscoped buffers, and back

The four windows stand on three buffers: windows 0 and 1 both on the normalised matrix. At the region's entry the
core holds every unscoped buffer whole at the full share; the matrix's buffer is split in two halves along its
share, one per window, and joined again at the exit, where both halves hold the same contents. -/

/-- A window is one of the four. -/
theorem fin4_cases5 (w : Fin 4) : w = 0 ∨ w = 1 ∨ w = 2 ∨ w = 3 := by
  obtain ⟨w, hw⟩ := w; simp only [Fin.ext_iff]; show w = 0 ∨ w = 1 ∨ w = 2 ∨ w = 3; omega

/-- Windows 0 and 1 read one buffer. -/
theorem arr5_1_eq_0 : Pipeline.arrRef spec5 1 = Pipeline.arrRef spec5 0 := rfl

/-- The three buffers behind the four windows' arrays. -/
theorem image_arr5 : Finset.univ.image (Pipeline.arrRef spec5)
    = ([Pipeline.arrRef spec5 0, Pipeline.arrRef spec5 2, Pipeline.arrRef spec5 3] : List (Ref sig .tc)).toFinset := by
  ext b
  simp only [Finset.mem_image, Finset.mem_univ, true_and, List.mem_toFinset, List.mem_cons, List.not_mem_nil, or_false]
  constructor
  · rintro ⟨w, rfl⟩
    rcases fin4_cases5 w with rfl | rfl | rfl | rfl
    · exact Or.inl rfl
    · exact Or.inl arr5_1_eq_0
    · exact Or.inr (Or.inl rfl)
    · exact Or.inr (Or.inr rfl)
  · rintro (rfl | rfl | rfl)
    · exact ⟨0, rfl⟩
    · exact ⟨2, rfl⟩
    · exact ⟨3, rfl⟩

/-- They are three different buffers. -/
theorem nodup_arr5 : ([Pipeline.arrRef spec5 0, Pipeline.arrRef spec5 2, Pipeline.arrRef spec5 3] : List (Ref sig .tc)).Nodup := by
  decide

/-- A points-to of a buffer named in two ways, at a valuation's contents. -/
theorem pointsTo_ref_congr5 (c : Dev nD) {b b' : Ref sig .tc} (h : b = b') (q : PosShare TreeShare)
    (W : (b : Ref sig .tc) → Buf (Elt F) ((c : Thread nD τ).loc b)) :
    ((((c : Thread nD τ).loc b) ↦{q} W b) : sProp 𝕄) = (((c : Thread nD τ).loc b') ↦{q} W b') := by
  subst h; rfl

/-- The buffers behind the arrays, one by one. -/
theorem arrBufs5_eq (c : Dev nD) (W : (b : Ref sig .tc) → Buf (Elt F) ((c : Thread nD τ).loc b)) :
    (Pipeline.arrBufs spec5 c W : sProp 𝕄)
      = iprop((((c : Thread nD τ).loc (Pipeline.arrRef spec5 0)) ↦{fullShare} W (Pipeline.arrRef spec5 0))
          ∗ (((c : Thread nD τ).loc (Pipeline.arrRef spec5 2)) ↦{fullShare} W (Pipeline.arrRef spec5 2))
          ∗ (((c : Thread nD τ).loc (Pipeline.arrRef spec5 3)) ↦{fullShare} W (Pipeline.arrRef spec5 3))) := by
  unfold Pipeline.arrBufs
  exact bigSep_eq_bigSepL_of_eq _ image_arr5 nodup_arr5 _

/-- The shares the proof data holds the arrays at. -/
theorem share5_0 (c : Dev nD) : (dat5 V c).share 0 = fullShare.left := rfl
theorem share5_1 (c : Dev nD) : (dat5 V c).share 1 = fullShare.right := rfl
theorem share5_2 (c : Dev nD) : (dat5 V c).share 2 = fullShare := rfl
theorem share5_3 (c : Dev nD) : (dat5 V c).share 3 = fullShare := rfl

/-- The proof data's arrays, window by window, as points-tos of whole buffers. -/
theorem arrays5_eq (c : Dev nD) (G : (w : Fin cfg5.W) → Buf (Elt F) ((cfg5.win w).arr.view.loc (c : Thread nD τ))) :
    (dat5 V c).arrays G
      = iprop((((c : Thread nD τ).loc (Pipeline.arrRef spec5 0)) ↦{fullShare.left} G 0)
          ∗ (((c : Thread nD τ).loc (Pipeline.arrRef spec5 1)) ↦{fullShare.right} G 1)
          ∗ (((c : Thread nD τ).loc (Pipeline.arrRef spec5 2)) ↦{fullShare} G 2)
          ∗ (((c : Thread nD τ).loc (Pipeline.arrRef spec5 3)) ↦{fullShare} G 3)) := by
  have h : (dat5 V c).arrays G
      = bigSep Finset.univ fun w : Fin cfg5.W => ((((c : Thread nD τ).loc (Pipeline.arrRef spec5 w)) ↦{(dat5 V c).share w} G w) : sProp 𝕄) := by
    unfold Dat.arrays
    exact bigSep_congr fun w _ => by rw [(arr_whole5 w).set_eq_univ]
  rw [h, bigSep_W5]
  simp only [share5_0, share5_1, share5_2, share5_3]

set_option maxHeartbeats 2000000 in
/-- ENTRY: the core's unscoped buffers at `V c` are the proof data's arrays at their entry contents — the matrix's
    buffer split between windows 0 and 1 along its share — and the unscoped rest. -/
theorem entry5 (c : Dev nD) :
    (unscopedBufs c (V c) : sProp 𝕄)
      ⊢ iprop((dat5 V c).arrays ((dat5 V c).arrAt · 0) ∗ Pipeline.unscopedRest spec5 c (V c)) := by
  rewrite [Pipeline.PerCore.unscopedBufs_split₀ (fun (_ : Dev nD) (_ : Unit) => cfg5) () c winFacts₀5.arr_unscoped (V c), arrBufs5_eq, arrays5_eq,
    show (dat5 V c).arrAt 0 0 = V c (Pipeline.arrRef spec5 0) from A_eq5 V c 0, show (dat5 V c).arrAt 1 0 = V c (Pipeline.arrRef spec5 1) from A_eq5 V c 1,
    show (dat5 V c).arrAt 2 0 = V c (Pipeline.arrRef spec5 2) from A_eq5 V c 2, show (dat5 V c).arrAt 3 0 = V c (Pipeline.arrRef spec5 3) from A_eq5 V c 3]
  have hconv : ((((c : Thread nD τ).loc (Pipeline.arrRef spec5 0)) ↦{fullShare.right} V c (Pipeline.arrRef spec5 0)) : sProp 𝕄)
      ⊢ (((c : Thread nD τ).loc (Pipeline.arrRef spec5 1)) ↦{fullShare.right} V c (Pipeline.arrRef spec5 1)) :=
    Entails.of_eq (pointsTo_ref_congr5 c arr5_1_eq_0.symm fullShare.right (V c))
  have hsplit : ((((c : Thread nD τ).loc (Pipeline.arrRef spec5 0)) ↦{fullShare} V c (Pipeline.arrRef spec5 0)) : sProp 𝕄)
      ⊢ iprop((((c : Thread nD τ).loc (Pipeline.arrRef spec5 0)) ↦{fullShare.left} V c (Pipeline.arrRef spec5 0))
          ∗ (((c : Thread nD τ).loc (Pipeline.arrRef spec5 0)) ↦{fullShare.right} V c (Pipeline.arrRef spec5 0))) :=
    (pointsTo_share (PosShare.mem_left_op_right fullShare)).1
  iintro ⟨⟨H0, H2, H3⟩, Hrest⟩
  ihave H01 := hsplit $$ H0
  icases H01 with ⟨H0l, H0r⟩
  isplitr [Hrest]
  · isplitl [H0l]; · iexact H0l
    isplitl [H0r]; · iapply hconv; iexact H0r
    isplitl [H2]; · iexact H2
    iexact H3
  iexact Hrest

set_option maxHeartbeats 2000000 in
/-- EXIT: the arrays at their final contents and the unscoped rest are the core's unscoped buffers at any valuation
    `W'` that has every array at its final contents and agrees with `V c` elsewhere: the two halves of the matrix's
    buffer hold the same contents and join. -/
theorem exit5 (c : Dev nD) (W' : (b : Ref sig .tc) → Buf (Elt F) ((c : Thread nD τ).loc b))
    (hF : ∀ w, (dat5 V c).arrAt w cfg5.N = W' (Pipeline.arrRef spec5 w))
    (hrest : ∀ b, b ∉ Finset.univ.image (Pipeline.arrRef spec5) → W' b = V c b) :
    iprop((dat5 V c).arrays ((dat5 V c).arrAt · cfg5.N) ∗ Pipeline.unscopedRest spec5 c (V c))
      ⊢ (unscopedBufs c W' : sProp 𝕄) := by
  rewrite [Pipeline.PerCore.unscopedBufs_split₀ (fun (_ : Dev nD) (_ : Unit) => cfg5) () c winFacts₀5.arr_unscoped W', arrBufs5_eq, arrays5_eq,
    hF 0, hF 1, hF 2, hF 3]
  have hconv : ((((c : Thread nD τ).loc (Pipeline.arrRef spec5 1)) ↦{fullShare.right} W' (Pipeline.arrRef spec5 1)) : sProp 𝕄)
      ⊢ (((c : Thread nD τ).loc (Pipeline.arrRef spec5 0)) ↦{fullShare.right} W' (Pipeline.arrRef spec5 0)) :=
    Entails.of_eq (pointsTo_ref_congr5 c arr5_1_eq_0 fullShare.right W')
  have hjoin : (iprop((((c : Thread nD τ).loc (Pipeline.arrRef spec5 0)) ↦{fullShare.left} W' (Pipeline.arrRef spec5 0))
          ∗ (((c : Thread nD τ).loc (Pipeline.arrRef spec5 0)) ↦{fullShare.right} W' (Pipeline.arrRef spec5 0))) : sProp 𝕄)
      ⊢ (((c : Thread nD τ).loc (Pipeline.arrRef spec5 0)) ↦{fullShare} W' (Pipeline.arrRef spec5 0)) :=
    (pointsTo_share (PosShare.mem_left_op_right fullShare)).2
  have hR : (Pipeline.unscopedRest spec5 c (V c) : sProp 𝕄) = Pipeline.unscopedRest spec5 c W' := by
    unfold Pipeline.unscopedRest
    exact bigSep_congr fun b hb => by rw [hrest b (Finset.mem_sdiff.mp hb).2]
  rewrite [hR]
  iintro ⟨⟨H0l, H0r, H2, H3⟩, Hrest⟩
  isplitr [Hrest]
  · isplitl [H0l H0r]
    · iapply hjoin
      isplitl [H0l]; · iexact H0l
      iapply hconv; iexact H0r
    isplitl [H2]; · iexact H2
    iexact H3
  iexact Hrest
/-- The invariant at the first point, from the generator register and the scoped buffers no window stages. -/
theorem hin5 (c : Dev nD) :
    (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- The invariant at the last point gives them back: the accumulator's contents are forgotten. -/
theorem hout5 (c : Dev nD) :
    (dat5 V c).Φ (Fin.last cfg5.N) ⊢ (iprop((∃ r, prngReg c r) ∗ Pipeline.scopedRest spec5 c) : sProp 𝕄) := by
  rw [show (dat5 V c).Φ (Fin.last cfg5.N) = Phi5 V c cfg5.N from rfl,
    Phi5_pos V c _ (by rw [show cfg5.N = 8 from N_5]; decide), scopedRest5_split]
  iintro ⟨⟨HS, HR⟩, Hg⟩
  isplitl [Hg]; · iexact Hg
  isplitl [HS]
  · simp only [scM5, owns_whole]; iexists _; iexact HS
  iexact HR

/-! ## The arrays after the run -/

/-- The input arrays are never written. -/
theorem arrAt5_0 (c : Dev nD) (n : ℕ) : (dat5 V c).arrAt 0 n = V c (Pipeline.arrRef spec5 0) :=
  ((dat5 V c).arrAt_in 0 rfl n).trans (A_eq5 V c 0)
theorem arrAt5_1 (c : Dev nD) (n : ℕ) : (dat5 V c).arrAt 1 n = V c (Pipeline.arrRef spec5 1) :=
  ((dat5 V c).arrAt_in 1 rfl n).trans (A_eq5 V c 1)
theorem arrAt5_2 (c : Dev nD) (n : ℕ) : (dat5 V c).arrAt 2 n = V c (Pipeline.arrRef spec5 2) :=
  ((dat5 V c).arrAt_in 2 rfl n).trans (A_eq5 V c 2)

/-- The last point of the grid. -/
def tl5 : Fin cfg5.N := ⟨7, by rw [show cfg5.N = 8 from N_5]; decide⟩

/-- The result array after the run, read through the result window's one block, is `out5`: only the last point
    writes the block back, and it writes what the body left there. -/
theorem final5 (c : Dev nD) :
    ((cfg5.win 3).blk tl5).view.read (Elt F) ((dat5 V c).arrAt 3 cfg5.N) = out5 V c := by
  have hfl : ∀ t : Fin cfg5.N, (cfg5.win 3).flush t = true → t = tl5 := fun t h => by
    have h7 := (flush5_3 t).mp h
    have hlt := t.isLt
    have hN : cfg5.N = 8 := N_5
    apply Fin.ext; show t.val = 7; omega
  rw [(dat5 V c).read_blk_arrAt_eq_flushed 3 (fun t t' h h' hne => absurd ((hfl t h).trans (hfl t' h').symm) hne)
    cfg5.N tl5 tl5.isLt ((flush5_3 tl5).mpr rfl)]
  unfold Dat.flushed
  rw [after5_3]
  rfl

end Cert.KernelIdeal.Hand

end
-- ==== Proof.KI.ULoss6Run.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # The pairwise-distance kernel of custom call 6, run once

The kernel body of custom call 6 keeps a one-element accumulator in a scratch buffer across its eight grid
points. On whole staging buffers holding a block `x0` of 256 rows, the whole matrix `x1` and the row of squared
norms `x2`, one execution of the body

* at the first point stores zero into the accumulator and then adds the point's partial sum to it,
* at a middle point adds the point's partial sum to what the accumulator held,
* at the last point does the same and then stores `log (accumulator / 2096128)` into the output block.

The partial sum is the payload `k6_pay4` of the point, the three input blocks and the accumulator's previous
contents; the zero is `k6_pay3`, the logarithm `k6_pay2`. Each theorem below is the body's triple in one of the
three cases, with the contents every buffer ends at stated in closed form over these payloads. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first `scf.if` (the accumulator is zeroed): the grid coordinate is 0. -/
abbrev cond6_1 (i : grid6.Coords) : Prop := (Scalar.cmpi .ne (Scalar.extui (Scalar.cmpi .eq (BitVec.ofNat 32 (i 0).val) 0#32)) 0#32) = 1#1
/-- The condition of the body's second `scf.if` (the output block is stored): the grid coordinate is 7. -/
abbrev cond6_2 (i : grid6.Coords) : Prop := k6_cond2 i = 1#1

/-- The zero offsets of a rank-two access, as a constant function. -/
theorem hz6 : (![0, 0] : Fin 2 → Nat) = fun _ => 0 := funext fun a => by fin_cases a <;> rfl

/-- The one-element rectangle covers the one-element shape. -/
theorem cover6_unit (y : S1x1.Idx) : y ∈ (Rect.unit (s := S1x1) ![0, 0] S1x1.size inb_S1x1_S1x1_0_0).set :=
  View.mem_set_unit_zero hz6 inb_S1x1_S1x1_0_0 y

set_option maxHeartbeats 1000000 in
/-- A MIDDLE point (neither condition holds): the inputs are read and left as they were, the output block, found at
    `xo`, is handed back at `xo`, and the accumulator, found at `xs`, is left at `xs` plus the point's partial sum. -/
theorem kernelRun6_mid (c : Dev nD) (i : grid6.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond6_1 i) (hc2 : ¬cond6_2 i)
    (x0 : Vec F S256x64 .f32) (x1 : Vec F S2048x64 .f32) (x2 : Vec F S1x2048 .f32) (xo : Vec F S1x1 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k6_pay1 (k6_pay4 i x0 x1 x2 xs))) -∗ K ⟨⟩))
      ⊢ wp frame (wpE (defs₀ (F := F)) Variants.none c none) E (cc6__u_loss_kernel i arg1 harg1 arg2 harg2 arg3 harg3 arg4 harg4 arg5 harg5) K := by
  simp only [cc6__u_loss_kernel_eq_skeleton]; unfold cc6__u_loss_kernel_skel
  simp only [k6_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_singleton_self _, cover6_unit y⟩), View.canon_unit_zero hz6]
  sl_unfold_run_names
  simp only [View.readAt_eq_ld, harg1.read_unread, harg2.read_unread, harg3.read_unread, harg5.read_unread,
    View.ld_unit_zero (S := S256x64) hz6, View.ld_unit_zero (S := S2048x64) hz6, View.ld_unit_zero (S := S1x2048) hz6,
    View.ld_unit_zero (S := S1x1) hz6]

set_option maxHeartbeats 1000000 in
/-- The FIRST point (only the first condition holds): the accumulator, found at anything, is zeroed and then left at
    zero plus the point's partial sum; the inputs are left as they were and the output block, found at `xo`, is handed back at `xo`. -/
theorem kernelRun6_first (c : Dev nD) (i : grid6.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : cond6_1 i) (hc2 : ¬cond6_2 i)
    (x0 : Vec F S256x64 .f32) (x1 : Vec F S2048x64 .f32) (x2 : Vec F S1x2048 .f32) (xo : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k6_pay1 (k6_pay4 i x0 x1 x2 (k6_pay3 (F := F))))) -∗ K ⟨⟩))
      ⊢ wp frame (wpE (defs₀ (F := F)) Variants.none c none) E (cc6__u_loss_kernel i arg1 harg1 arg2 harg2 arg3 harg3 arg4 harg4 arg5 harg5) K := by
  simp only [cc6__u_loss_kernel_eq_skeleton]; unfold cc6__u_loss_kernel_skel
  simp only [k6_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_cons_self, cover6_unit y⟩), View.canon_cons_unit_zero hz6]
  sl_unfold_run_names
  simp only [View.readCov_unit_zero (S := S1x1) _ hz6, View.readAt_eq_ld, harg1.read_unread, harg2.read_unread, harg3.read_unread,
    View.ld_unit_zero (S := S256x64) hz6, View.ld_unit_zero (S := S2048x64) hz6, View.ld_unit_zero (S := S1x2048) hz6]

set_option maxHeartbeats 1000000 in
/-- The LAST point (only the second condition holds): the accumulator, found at `xs`, is left at `xs` plus the
    point's partial sum, and the output block, found at anything, is left at the logarithm payload of that sum; the
    inputs are left as they were. -/
theorem kernelRun6_last (c : Dev nD) (i : grid6.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond6_1 i) (hc2 : cond6_2 i)
    (x0 : Vec F S256x64 .f32) (x1 : Vec F S2048x64 .f32) (x2 : Vec F S1x2048 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k6_pay2 (k6_pay1 (k6_pay4 i x0 x1 x2 xs)))
            ∗ owns (c : Thread nD τ) arg5 fullShare (k6_pay1 (k6_pay4 i x0 x1 x2 xs))) -∗ K ⟨⟩))
      ⊢ wp frame (wpE (defs₀ (F := F)) Variants.none c none) E (cc6__u_loss_kernel i arg1 harg1 arg2 harg2 arg3 harg3 arg4 harg4 arg5 harg5) K := by
  simp only [cc6__u_loss_kernel_eq_skeleton]; unfold cc6__u_loss_kernel_skel
  simp only [k6_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [View.read_writes_eq_canon _ _ _ (fun y => ⟨_, List.mem_singleton_self _, cover6_unit y⟩), View.canon_unit_zero hz6]
    sl_unfold_run_names
    simp only [View.readCov_unit_zero (S := S1x1) _ hz6, View.readAt_eq_ld, harg1.read_unread, harg2.read_unread, harg3.read_unread, harg5.read_unread,
      View.ld_unit_zero (S := S256x64) hz6, View.ld_unit_zero (S := S2048x64) hz6, View.ld_unit_zero (S := S1x2048) hz6,
      View.ld_unit_zero (S := S1x1) hz6]
  iexists _; isplitr
  swap; · iexact HS
  ipureintro
  sl_unfold_run_names
  rw [View.read_writes_eq_canon _ _ _ (fun y => ⟨_, List.mem_singleton_self _, cover6_unit y⟩), View.canon_unit_zero hz6]
  simp only [View.readAt_eq_ld, harg1.read_unread, harg2.read_unread, harg3.read_unread, harg5.read_unread,
    View.ld_unit_zero (S := S256x64) hz6, View.ld_unit_zero (S := S2048x64) hz6, View.ld_unit_zero (S := S1x2048) hz6,
    View.ld_unit_zero (S := S1x1) hz6]

end Cert.KernelIdeal.Hand

end
-- ==== Proof.KI.ULoss6.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«108982_j38147899523261_2_alg».proof.Proof.KI.ULoss6Run

/-! # Custom call 6 as a pipeline: its proof data and its body obligation

Custom call 6 runs the pairwise-distance kernel over eight grid points. Window 0 hands it one block of 256 rows
of the normalised matrix per point, window 1 the whole matrix and window 2 the row of squared norms (both fetched
once), and window 3 is the one-element result, stored and written back at the last point only. A one-element
scratch buffer carries the running sum from point to point.

This module names what the scratch holds after `t` points (`acc6`: zero, then the partial sums of the points added
in order), what the result block holds at the end (`out6`: the logarithm payload of the full sum), gives the
pipeline's proof data over the region-entry contents `V` (`dat6`), and proves that the kernel body meets the
pipeline's body obligation at every point, from the three single-point runs of the body. Windows 0 and 1 read one
array: the proof data gives window 0 the left half of that array's share and window 1 the right half. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks and the running sum -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What the scratch accumulator holds after `t` points: zero (what the first point's reset stores) before any
    point, and after point `n` what it held before plus that point's partial sum over the three input blocks. -/
def acc6 (c : Dev nD) : ℕ → Vec F S1x1 .f32
  | 0 => k6_pay3 (F := F)
  | n + 1 =>
    if h : n < cfg6.N then
      k6_pay1 (k6_pay4 (grid6.coords ⟨n, h⟩) (iblk6 V c 0 ⟨n, h⟩) (iblk6 V c 1 ⟨n, h⟩) (iblk6 V c 2 ⟨n, h⟩) (acc6 c n))
    else acc6 c n

/-- Before any point the accumulator is the zero the reset stores. -/
theorem acc6_zero (c : Dev nD) : acc6 V c 0 = k6_pay3 (F := F) := rfl

/-- Point `t` adds its partial sum to what the accumulator held. -/
theorem acc6_succ (c : Dev nD) (t : Fin cfg6.N) :
    acc6 V c (t.val + 1)
      = k6_pay1 (k6_pay4 (grid6.coords t) (iblk6 V c 0 t) (iblk6 V c 1 t) (iblk6 V c 2 t) (acc6 V c t.val)) := by
  obtain ⟨n, hn⟩ := t
  exact dif_pos hn

/-- The result block after the last point: the logarithm of the full sum over the pair count. -/
def out6 (c : Dev nD) : Vec F S1x1 .f32 := k6_pay2 (acc6 V c 8)

/-! ## The body's branch conditions, and where the result window is idle -/

/-- The accumulator is reset at the first point only. -/
theorem hcond6_1 : ∀ t : Fin cfg6.N, cond6_1 (grid6.coords t) ↔ t.val = 0 :=
  (by decide +kernel : ∀ t : Fin grid6.N, cond6_1 (grid6.coords t) ↔ t.val = 0)
/-- The result block is stored at the last point only. -/
theorem hcond6_2 : ∀ t : Fin cfg6.N, cond6_2 (grid6.coords t) ↔ t.val = 7 :=
  (by decide +kernel : ∀ t : Fin grid6.N, cond6_2 (grid6.coords t) ↔ t.val = 7)

/-- The input windows are never idle. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- Where the result block is not stored the result window is idle and is not written back; -/
theorem idleAt6_3 : ∀ t : Fin cfg6.N, ¬cond6_2 (grid6.coords t) → cfg6.idle 3 (grid6.coords t) = true := by decide +kernel
theorem noFlush6_3 : ∀ t : Fin cfg6.N, ¬cond6_2 (grid6.coords t) → (cfg6.win 3).flush t = false := by decide +kernel
/-- where it is stored the window is live. -/
theorem liveAt6_3 : ∀ t : Fin cfg6.N, cond6_2 (grid6.coords t) → cfg6.idle 3 (grid6.coords t) = false := by decide +kernel

/-! ## The invariant: the scratch accumulator between points -/

/-- The scratch accumulator as a memref: a whole scoped buffer of the kernel's own. -/
abbrev scM6 : Memref sig .tc .vmem S1x1 .f32 := Memref.whole cc6_scratch0

/-- The scoped buffers no window stages, the accumulator apart. -/
abbrev rest6 (c : Dev nD) : sProp 𝕄 :=
  Pipeline.scopedRestBut (Ix := Unit) (Name := ℕ) (U := UR sig nD τ) (Lvl := ℕ) (Val := Elt F) spec6 c [cc6_scratch0]

/-- The region invariant before position `n`: before the first point every scoped buffer no window stages at some
    contents and the generator register at some state; afterwards the same with the accumulator at the running
    sum of the points so far. -/
def Phi6 (c : Dev nD) : ℕ → sProp 𝕄
  | 0 => Pipeline.ΦA spec6 c
  | n + 1 => iprop(iprop(owns (c : Thread nD τ) scM6 fullShare (acc6 V c (n + 1)) ∗ rest6 c) ∗ (∃ r, prngReg c r))

/-- Before the first point, with the accumulator split off the scoped rest. -/
theorem PhiA6_eq (c : Dev nD) :
    (Pipeline.ΦA spec6 c : sProp 𝕄)
      = iprop(iprop((∃ d, owns (c : Thread nD τ) scM6 fullShare d) ∗ rest6 c) ∗ (∃ r, prngReg c r)) := by
  unfold Pipeline.ΦA; rw [scopedRest6_split]; simp only [scM6, owns_whole]; rfl

theorem Phi6_zero (c : Dev nD) (n : ℕ) (hz : n = 0) : Phi6 V c n = Pipeline.ΦA spec6 c := by
  subst hz; rfl

theorem Phi6_succ (c : Dev nD) (n : ℕ) :
    Phi6 V c (n + 1) = iprop(iprop(owns (c : Thread nD τ) scM6 fullShare (acc6 V c (n + 1)) ∗ rest6 c) ∗ (∃ r, prngReg c r)) := rfl

theorem Phi6_pos (c : Dev nD) (n : ℕ) (hz : n ≠ 0) :
    Phi6 V c n = iprop(iprop(owns (c : Thread nD τ) scM6 fullShare (acc6 V c n) ∗ rest6 c) ∗ (∃ r, prngReg c r)) := by
  cases n with
  | zero => exact absurd rfl hz
  | succ n => rfl

/-! ## The pipeline's proof data -/

/-- The proof data of custom call 6 on core `c`: the arrays as the region finds them (`V`); after the body at any
    point each input's buffer at its block and the result's at `out6` (read only at the last point: before it the
    window is idle); the invariant `Phi6`; nothing owed; the array windows 0 and 1 share split between them, left
    half and right half. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 V c
  Φ t := Phi6 V c t.val
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6 V c := by dsimp only [dat6]

/-- The invariant at a point's start and end, restated at the position's number. -/
theorem Phi6_castSucc (c : Dev nD) (t : Fin cfg6.N) : (dat6 V c).Φ t.castSucc = Phi6 V c t.val := by
  dsimp only [dat6]; simp only [Fin.coe_castSucc]
theorem Phi6_at_succ (c : Dev nD) (t : Fin cfg6.N) : (dat6 V c).Φ t.succ = Phi6 V c (t.val + 1) := by
  dsimp only [dat6]; simp only [Fin.val_succ]

/-- Each input's current staging buffer holds its block at every point, fetched there or not: an input whose body
    leaves its block in place holds what a fetch puts there, and unfetched its block index has not moved. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

/-- The inputs' posts: never idle, each buffer is left at its block. -/
theorem leaves6_0 (c : Dev nD) (t : Fin cfg6.N) :
    (dat6 V c).leavesExact 0 t = owns (c : Thread nD τ) (st6_0 t) fullShare (iblk6 V c 0 t) := by
  unfold Dat.leavesExact; rw [liveAt6_0 t, after6_0]
theorem leaves6_1 (c : Dev nD) (t : Fin cfg6.N) :
    (dat6 V c).leavesExact 1 t = owns (c : Thread nD τ) (st6_1 t) fullShare (iblk6 V c 1 t) := by
  unfold Dat.leavesExact; rw [liveAt6_1 t, after6_1]
theorem leaves6_2 (c : Dev nD) (t : Fin cfg6.N) :
    (dat6 V c).leavesExact 2 t = owns (c : Thread nD τ) (st6_2 t) fullShare (iblk6 V c 2 t) := by
  unfold Dat.leavesExact; rw [liveAt6_2 t, after6_2]

set_option maxHeartbeats 4000000 in
/-- The body at any point. The inputs' buffers hold their blocks; the point's number says which of the three cases it
    is in; the invariant hands the body the accumulator at the running sum of the points before (at anything at the
    first point, which resets it) and takes it back at the running sum with this point's partial sum added; at the
    last point the result block is left at the logarithm payload of the full sum, elsewhere it is handed back
    untouched. The core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [Phi6_at_succ, Phi6_succ, Phi6_castSucc, leaves6_0, leaves6_1, leaves6_2, acc6_succ V c t]
  have hN : t.val < 8 := lt_of_lt_of_eq t.isLt (show cfg6.N = 8 from N_6)
  by_cases h0 : t.val = 0
  · have hc1 : cond6_1 (grid6.coords t) := (hcond6_1 t).mpr h0
    have hc2 : ¬cond6_2 (grid6.coords t) := fun h => by have := (hcond6_2 t).mp h; omega
    rw [Dat.leavesExact_idle (dat6 V c) 3 t (idleAt6_3 t hc2) (noFlush6_3 t hc2)]
    rw [Phi6_zero V c _ h0, PhiA6_eq, (congrArg (acc6 V c) h0).trans (acc6_zero V c)]
    iintro ⟨⟨⟨HS, HR⟩, Hg⟩, Ho, ⟨%d0, H0⟩, ⟨%d1, H1⟩, ⟨%d2, H2⟩, ⟨%d3, H3⟩⟩
    iapply (kernelRun6_first c (grid6.coords t) _ _ _ _ _ _ _ _ _ _ hc1 hc2 (iblk6 V c 0 t) (iblk6 V c 1 t) (iblk6 V c 2 t) ((dat6 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists d3; iexact H3
  · have hc1 : ¬cond6_1 (grid6.coords t) := fun h => h0 ((hcond6_1 t).mp h)
    rw [Phi6_pos V c _ h0]
    by_cases h7 : t.val = 7
    · have hc2 : cond6_2 (grid6.coords t) := (hcond6_2 t).mpr h7
      rw [show (dat6 V c).leavesExact 3 t = owns (c : Thread nD τ) (st6_3 t) fullShare ((dat6 V c).after 3 t) from by
        unfold Dat.leavesExact; rw [liveAt6_3 t hc2], after6_3]
      unfold out6
      rw [congrArg (acc6 V c) (show 8 = t.val + 1 by omega), acc6_succ V c t]
      iintro ⟨⟨⟨HS, HR⟩, Hg⟩, Ho, ⟨%d0, H0⟩, ⟨%d1, H1⟩, ⟨%d2, H2⟩, ⟨%d3, H3⟩⟩
      iapply (kernelRun6_last c (grid6.coords t) _ _ _ _ _ _ _ _ _ _ hc1 hc2 (iblk6 V c 0 t) (iblk6 V c 1 t) (iblk6 V c 2 t) (acc6 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc2 : ¬cond6_2 (grid6.coords t) := fun h => h7 ((hcond6_2 t).mp h)
      rw [Dat.leavesExact_idle (dat6 V c) 3 t (idleAt6_3 t hc2) (noFlush6_3 t hc2)]
      iintro ⟨⟨⟨HS, HR⟩, Hg⟩, Ho, ⟨%d0, H0⟩, ⟨%d1, H1⟩, ⟨%d2, H2⟩, ⟨%d3, H3⟩⟩
      iapply (kernelRun6_mid c (grid6.coords t) _ _ _ _ _ _ _ _ _ _ hc1 hc2 (iblk6 V c 0 t) (iblk6 V c 1 t) (iblk6 V c 2 t) ((dat6 V c).before 3 t d3) (acc6 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

/-! ## The region's boundary: the arrays out of the core's unscoped buffers, and back

The four windows stand on three buffers: windows 0 and 1 both on the normalised matrix. At the region's entry the
core holds every unscoped buffer whole at the full share; the matrix's buffer is split in two halves along its
share, one per window, and joined again at the exit, where both halves hold the same contents. -/

/-- A window is one of the four. -/
theorem fin4_cases6 (w : Fin 4) : w = 0 ∨ w = 1 ∨ w = 2 ∨ w = 3 := by
  obtain ⟨w, hw⟩ := w; simp only [Fin.ext_iff]; show w = 0 ∨ w = 1 ∨ w = 2 ∨ w = 3; omega

/-- Windows 0 and 1 read one buffer. -/
theorem arr6_1_eq_0 : Pipeline.arrRef spec6 1 = Pipeline.arrRef spec6 0 := rfl

/-- The three buffers behind the four windows' arrays. -/
theorem image_arr6 : Finset.univ.image (Pipeline.arrRef spec6)
    = ([Pipeline.arrRef spec6 0, Pipeline.arrRef spec6 2, Pipeline.arrRef spec6 3] : List (Ref sig .tc)).toFinset := by
  ext b
  simp only [Finset.mem_image, Finset.mem_univ, true_and, List.mem_toFinset, List.mem_cons, List.not_mem_nil, or_false]
  constructor
  · rintro ⟨w, rfl⟩
    rcases fin4_cases6 w with rfl | rfl | rfl | rfl
    · exact Or.inl rfl
    · exact Or.inl arr6_1_eq_0
    · exact Or.inr (Or.inl rfl)
    · exact Or.inr (Or.inr rfl)
  · rintro (rfl | rfl | rfl)
    · exact ⟨0, rfl⟩
    · exact ⟨2, rfl⟩
    · exact ⟨3, rfl⟩

/-- They are three different buffers. -/
theorem nodup_arr6 : ([Pipeline.arrRef spec6 0, Pipeline.arrRef spec6 2, Pipeline.arrRef spec6 3] : List (Ref sig .tc)).Nodup := by
  decide

/-- A points-to of a buffer named in two ways, at a valuation's contents. -/
theorem pointsTo_ref_congr6 (c : Dev nD) {b b' : Ref sig .tc} (h : b = b') (q : PosShare TreeShare)
    (W : (b : Ref sig .tc) → Buf (Elt F) ((c : Thread nD τ).loc b)) :
    ((((c : Thread nD τ).loc b) ↦{q} W b) : sProp 𝕄) = (((c : Thread nD τ).loc b') ↦{q} W b') := by
  subst h; rfl

/-- The buffers behind the arrays, one by one. -/
theorem arrBufs6_eq (c : Dev nD) (W : (b : Ref sig .tc) → Buf (Elt F) ((c : Thread nD τ).loc b)) :
    (Pipeline.arrBufs spec6 c W : sProp 𝕄)
      = iprop((((c : Thread nD τ).loc (Pipeline.arrRef spec6 0)) ↦{fullShare} W (Pipeline.arrRef spec6 0))
          ∗ (((c : Thread nD τ).loc (Pipeline.arrRef spec6 2)) ↦{fullShare} W (Pipeline.arrRef spec6 2))
          ∗ (((c : Thread nD τ).loc (Pipeline.arrRef spec6 3)) ↦{fullShare} W (Pipeline.arrRef spec6 3))) := by
  unfold Pipeline.arrBufs
  exact bigSep_eq_bigSepL_of_eq _ image_arr6 nodup_arr6 _

/-- The shares the proof data holds the arrays at. -/
theorem share6_0 (c : Dev nD) : (dat6 V c).share 0 = fullShare.left := rfl
theorem share6_1 (c : Dev nD) : (dat6 V c).share 1 = fullShare.right := rfl
theorem share6_2 (c : Dev nD) : (dat6 V c).share 2 = fullShare := rfl
theorem share6_3 (c : Dev nD) : (dat6 V c).share 3 = fullShare := rfl

/-- The proof data's arrays, window by window, as points-tos of whole buffers. -/
theorem arrays6_eq (c : Dev nD) (G : (w : Fin cfg6.W) → Buf (Elt F) ((cfg6.win w).arr.view.loc (c : Thread nD τ))) :
    (dat6 V c).arrays G
      = iprop((((c : Thread nD τ).loc (Pipeline.arrRef spec6 0)) ↦{fullShare.left} G 0)
          ∗ (((c : Thread nD τ).loc (Pipeline.arrRef spec6 1)) ↦{fullShare.right} G 1)
          ∗ (((c : Thread nD τ).loc (Pipeline.arrRef spec6 2)) ↦{fullShare} G 2)
          ∗ (((c : Thread nD τ).loc (Pipeline.arrRef spec6 3)) ↦{fullShare} G 3)) := by
  have h : (dat6 V c).arrays G
      = bigSep Finset.univ fun w : Fin cfg6.W => ((((c : Thread nD τ).loc (Pipeline.arrRef spec6 w)) ↦{(dat6 V c).share w} G w) : sProp 𝕄) := by
    unfold Dat.arrays
    exact bigSep_congr fun w _ => by rw [(arr_whole6 w).set_eq_univ]
  rw [h, bigSep_W6]
  simp only [share6_0, share6_1, share6_2, share6_3]

set_option maxHeartbeats 2000000 in
/-- ENTRY: the core's unscoped buffers at `V c` are the proof data's arrays at their entry contents — the matrix's
    buffer split between windows 0 and 1 along its share — and the unscoped rest. -/
theorem entry6 (c : Dev nD) :
    (unscopedBufs c (V c) : sProp 𝕄)
      ⊢ iprop((dat6 V c).arrays ((dat6 V c).arrAt · 0) ∗ Pipeline.unscopedRest spec6 c (V c)) := by
  rewrite [Pipeline.PerCore.unscopedBufs_split₀ (fun (_ : Dev nD) (_ : Unit) => cfg6) () c winFacts₀6.arr_unscoped (V c), arrBufs6_eq, arrays6_eq,
    show (dat6 V c).arrAt 0 0 = V c (Pipeline.arrRef spec6 0) from A_eq6 V c 0, show (dat6 V c).arrAt 1 0 = V c (Pipeline.arrRef spec6 1) from A_eq6 V c 1,
    show (dat6 V c).arrAt 2 0 = V c (Pipeline.arrRef spec6 2) from A_eq6 V c 2, show (dat6 V c).arrAt 3 0 = V c (Pipeline.arrRef spec6 3) from A_eq6 V c 3]
  have hconv : ((((c : Thread nD τ).loc (Pipeline.arrRef spec6 0)) ↦{fullShare.right} V c (Pipeline.arrRef spec6 0)) : sProp 𝕄)
      ⊢ (((c : Thread nD τ).loc (Pipeline.arrRef spec6 1)) ↦{fullShare.right} V c (Pipeline.arrRef spec6 1)) :=
    Entails.of_eq (pointsTo_ref_congr6 c arr6_1_eq_0.symm fullShare.right (V c))
  have hsplit : ((((c : Thread nD τ).loc (Pipeline.arrRef spec6 0)) ↦{fullShare} V c (Pipeline.arrRef spec6 0)) : sProp 𝕄)
      ⊢ iprop((((c : Thread nD τ).loc (Pipeline.arrRef spec6 0)) ↦{fullShare.left} V c (Pipeline.arrRef spec6 0))
          ∗ (((c : Thread nD τ).loc (Pipeline.arrRef spec6 0)) ↦{fullShare.right} V c (Pipeline.arrRef spec6 0))) :=
    (pointsTo_share (PosShare.mem_left_op_right fullShare)).1
  iintro ⟨⟨H0, H2, H3⟩, Hrest⟩
  ihave H01 := hsplit $$ H0
  icases H01 with ⟨H0l, H0r⟩
  isplitr [Hrest]
  · isplitl [H0l]; · iexact H0l
    isplitl [H0r]; · iapply hconv; iexact H0r
    isplitl [H2]; · iexact H2
    iexact H3
  iexact Hrest

set_option maxHeartbeats 2000000 in
/-- EXIT: the arrays at their final contents and the unscoped rest are the core's unscoped buffers at any valuation
    `W'` that has every array at its final contents and agrees with `V c` elsewhere: the two halves of the matrix's
    buffer hold the same contents and join. -/
theorem exit6 (c : Dev nD) (W' : (b : Ref sig .tc) → Buf (Elt F) ((c : Thread nD τ).loc b))
    (hF : ∀ w, (dat6 V c).arrAt w cfg6.N = W' (Pipeline.arrRef spec6 w))
    (hrest : ∀ b, b ∉ Finset.univ.image (Pipeline.arrRef spec6) → W' b = V c b) :
    iprop((dat6 V c).arrays ((dat6 V c).arrAt · cfg6.N) ∗ Pipeline.unscopedRest spec6 c (V c))
      ⊢ (unscopedBufs c W' : sProp 𝕄) := by
  rewrite [Pipeline.PerCore.unscopedBufs_split₀ (fun (_ : Dev nD) (_ : Unit) => cfg6) () c winFacts₀6.arr_unscoped W', arrBufs6_eq, arrays6_eq,
    hF 0, hF 1, hF 2, hF 3]
  have hconv : ((((c : Thread nD τ).loc (Pipeline.arrRef spec6 1)) ↦{fullShare.right} W' (Pipeline.arrRef spec6 1)) : sProp 𝕄)
      ⊢ (((c : Thread nD τ).loc (Pipeline.arrRef spec6 0)) ↦{fullShare.right} W' (Pipeline.arrRef spec6 0)) :=
    Entails.of_eq (pointsTo_ref_congr6 c arr6_1_eq_0 fullShare.right W')
  have hjoin : (iprop((((c : Thread nD τ).loc (Pipeline.arrRef spec6 0)) ↦{fullShare.left} W' (Pipeline.arrRef spec6 0))
          ∗ (((c : Thread nD τ).loc (Pipeline.arrRef spec6 0)) ↦{fullShare.right} W' (Pipeline.arrRef spec6 0))) : sProp 𝕄)
      ⊢ (((c : Thread nD τ).loc (Pipeline.arrRef spec6 0)) ↦{fullShare} W' (Pipeline.arrRef spec6 0)) :=
    (pointsTo_share (PosShare.mem_left_op_right fullShare)).2
  have hR : (Pipeline.unscopedRest spec6 c (V c) : sProp 𝕄) = Pipeline.unscopedRest spec6 c W' := by
    unfold Pipeline.unscopedRest
    exact bigSep_congr fun b hb => by rw [hrest b (Finset.mem_sdiff.mp hb).2]
  rewrite [hR]
  iintro ⟨⟨H0l, H0r, H2, H3⟩, Hrest⟩
  isplitr [Hrest]
  · isplitl [H0l H0r]
    · iapply hjoin
      isplitl [H0l]; · iexact H0l
      iapply hconv; iexact H0r
    isplitl [H2]; · iexact H2
    iexact H3
  iexact Hrest
/-- The invariant at the first point, from the generator register and the scoped buffers no window stages. -/
theorem hin6 (c : Dev nD) :
    (iprop((∃ r, prngReg c r) ∗ Pipeline.scopedRest spec6 c) : sProp 𝕄) ⊢ (dat6 V c).Φ 0 := by
  rw [show (dat6 V c).Φ 0 = Pipeline.ΦA spec6 c from rfl]; unfold Pipeline.ΦA
  iintro ⟨Hp, Hr⟩
  isplitl [Hr]; · iexact Hr
  iexact Hp

/-- The invariant at the last point gives them back: the accumulator's contents are forgotten. -/
theorem hout6 (c : Dev nD) :
    (dat6 V c).Φ (Fin.last cfg6.N) ⊢ (iprop((∃ r, prngReg c r) ∗ Pipeline.scopedRest spec6 c) : sProp 𝕄) := by
  rw [show (dat6 V c).Φ (Fin.last cfg6.N) = Phi6 V c cfg6.N from rfl,
    Phi6_pos V c _ (by rw [show cfg6.N = 8 from N_6]; decide), scopedRest6_split]
  iintro ⟨⟨HS, HR⟩, Hg⟩
  isplitl [Hg]; · iexact Hg
  isplitl [HS]
  · simp only [scM6, owns_whole]; iexists _; iexact HS
  iexact HR

/-! ## The arrays after the run -/

/-- The input arrays are never written. -/
theorem arrAt6_0 (c : Dev nD) (n : ℕ) : (dat6 V c).arrAt 0 n = V c (Pipeline.arrRef spec6 0) :=
  ((dat6 V c).arrAt_in 0 rfl n).trans (A_eq6 V c 0)
theorem arrAt6_1 (c : Dev nD) (n : ℕ) : (dat6 V c).arrAt 1 n = V c (Pipeline.arrRef spec6 1) :=
  ((dat6 V c).arrAt_in 1 rfl n).trans (A_eq6 V c 1)
theorem arrAt6_2 (c : Dev nD) (n : ℕ) : (dat6 V c).arrAt 2 n = V c (Pipeline.arrRef spec6 2) :=
  ((dat6 V c).arrAt_in 2 rfl n).trans (A_eq6 V c 2)

/-- The last point of the grid. -/
def tl6 : Fin cfg6.N := ⟨7, by rw [show cfg6.N = 8 from N_6]; decide⟩

/-- The result array after the run, read through the result window's one block, is `out6`: only the last point
    writes the block back, and it writes what the body left there. -/
theorem final6 (c : Dev nD) :
    ((cfg6.win 3).blk tl6).view.read (Elt F) ((dat6 V c).arrAt 3 cfg6.N) = out6 V c := by
  have hfl : ∀ t : Fin cfg6.N, (cfg6.win 3).flush t = true → t = tl6 := fun t h => by
    have h7 := (flush6_3 t).mp h
    have hlt := t.isLt
    have hN : cfg6.N = 8 := N_6
    apply Fin.ext; show t.val = 7; omega
  rw [(dat6 V c).read_blk_arrAt_eq_flushed 3 (fun t t' h h' hne => absurd ((hfl t h).trans (hfl t' h').symm) hne)
    cfg6.N tl6 tl6.isLt ((flush6_3 tl6).mpr rfl)]
  unfold Dat.flushed
  rw [after6_3]
  rfl

end Cert.KernelIdeal.Hand

end
-- ==== Proof.KI.ULoss7Run.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # The pairwise-distance kernel of custom call 7, run once

The kernel body of custom call 7 keeps a one-element accumulator in a scratch buffer across its eight grid
points. On whole staging buffers holding a block `x0` of 256 rows, the whole matrix `x1` and the row of squared
norms `x2`, one execution of the body

* at the first point stores zero into the accumulator and then adds the point's partial sum to it,
* at a middle point adds the point's partial sum to what the accumulator held,
* at the last point does the same and then stores `log (accumulator / 2096128)` into the output block.

The partial sum is the payload `k7_pay4` of the point, the three input blocks and the accumulator's previous
contents; the zero is `k7_pay3`, the logarithm `k7_pay2`. Each theorem below is the body's triple in one of the
three cases, with the contents every buffer ends at stated in closed form over these payloads. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first `scf.if` (the accumulator is zeroed): the grid coordinate is 0. -/
abbrev cond7_1 (i : grid7.Coords) : Prop := (Scalar.cmpi .ne (Scalar.extui (Scalar.cmpi .eq (BitVec.ofNat 32 (i 0).val) 0#32)) 0#32) = 1#1
/-- The condition of the body's second `scf.if` (the output block is stored): the grid coordinate is 7. -/
abbrev cond7_2 (i : grid7.Coords) : Prop := k7_cond2 i = 1#1

/-- The zero offsets of a rank-two access, as a constant function. -/
theorem hz7 : (![0, 0] : Fin 2 → Nat) = fun _ => 0 := funext fun a => by fin_cases a <;> rfl

/-- The one-element rectangle covers the one-element shape. -/
theorem cover7_unit (y : S1x1.Idx) : y ∈ (Rect.unit (s := S1x1) ![0, 0] S1x1.size inb_S1x1_S1x1_0_0).set :=
  View.mem_set_unit_zero hz7 inb_S1x1_S1x1_0_0 y

set_option maxHeartbeats 1000000 in
/-- A MIDDLE point (neither condition holds): the inputs are read and left as they were, the output block, found at
    `xo`, is handed back at `xo`, and the accumulator, found at `xs`, is left at `xs` plus the point's partial sum. -/
theorem kernelRun7_mid (c : Dev nD) (i : grid7.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond7_1 i) (hc2 : ¬cond7_2 i)
    (x0 : Vec F S256x64 .f32) (x1 : Vec F S2048x64 .f32) (x2 : Vec F S1x2048 .f32) (xo : Vec F S1x1 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k7_pay1 (k7_pay4 i x0 x1 x2 xs))) -∗ K ⟨⟩))
      ⊢ wp frame (wpE (defs₀ (F := F)) Variants.none c none) E (cc7__u_loss_kernel i arg1 harg1 arg2 harg2 arg3 harg3 arg4 harg4 arg5 harg5) K := by
  simp only [cc7__u_loss_kernel_eq_skeleton]; unfold cc7__u_loss_kernel_skel
  simp only [k7_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_singleton_self _, cover7_unit y⟩), View.canon_unit_zero hz7]
  sl_unfold_run_names
  simp only [View.readAt_eq_ld, harg1.read_unread, harg2.read_unread, harg3.read_unread, harg5.read_unread,
    View.ld_unit_zero (S := S256x64) hz7, View.ld_unit_zero (S := S2048x64) hz7, View.ld_unit_zero (S := S1x2048) hz7,
    View.ld_unit_zero (S := S1x1) hz7]

set_option maxHeartbeats 1000000 in
/-- The FIRST point (only the first condition holds): the accumulator, found at anything, is zeroed and then left at
    zero plus the point's partial sum; the inputs are left as they were and the output block, found at `xo`, is handed back at `xo`. -/
theorem kernelRun7_first (c : Dev nD) (i : grid7.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : cond7_1 i) (hc2 : ¬cond7_2 i)
    (x0 : Vec F S256x64 .f32) (x1 : Vec F S2048x64 .f32) (x2 : Vec F S1x2048 .f32) (xo : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k7_pay1 (k7_pay4 i x0 x1 x2 (k7_pay3 (F := F))))) -∗ K ⟨⟩))
      ⊢ wp frame (wpE (defs₀ (F := F)) Variants.none c none) E (cc7__u_loss_kernel i arg1 harg1 arg2 harg2 arg3 harg3 arg4 harg4 arg5 harg5) K := by
  simp only [cc7__u_loss_kernel_eq_skeleton]; unfold cc7__u_loss_kernel_skel
  simp only [k7_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_cons_self, cover7_unit y⟩), View.canon_cons_unit_zero hz7]
  sl_unfold_run_names
  simp only [View.readCov_unit_zero (S := S1x1) _ hz7, View.readAt_eq_ld, harg1.read_unread, harg2.read_unread, harg3.read_unread,
    View.ld_unit_zero (S := S256x64) hz7, View.ld_unit_zero (S := S2048x64) hz7, View.ld_unit_zero (S := S1x2048) hz7]

set_option maxHeartbeats 1000000 in
/-- The LAST point (only the second condition holds): the accumulator, found at `xs`, is left at `xs` plus the
    point's partial sum, and the output block, found at anything, is left at the logarithm payload of that sum; the
    inputs are left as they were. -/
theorem kernelRun7_last (c : Dev nD) (i : grid7.Coords) (arg1 : Memref sig .tc .vmem S256x64 .f32) (harg1 : arg1.IsWhole) (arg2 : Memref sig .tc .vmem S2048x64 .f32) (harg2 : arg2.IsWhole) (arg3 : Memref sig .tc .vmem S1x2048 .f32) (harg3 : arg3.IsWhole) (arg4 : Memref sig .tc .vmem S1x1 .f32) (harg4 : arg4.IsWhole) (arg5 : Memref sig .tc .vmem S1x1 .f32) (harg5 : arg5.IsWhole)
    (hc1 : ¬cond7_1 i) (hc2 : cond7_2 i)
    (x0 : Vec F S256x64 .f32) (x1 : Vec F S2048x64 .f32) (x2 : Vec F S1x2048 .f32) (xs : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k7_pay2 (k7_pay1 (k7_pay4 i x0 x1 x2 xs)))
            ∗ owns (c : Thread nD τ) arg5 fullShare (k7_pay1 (k7_pay4 i x0 x1 x2 xs))) -∗ K ⟨⟩))
      ⊢ wp frame (wpE (defs₀ (F := F)) Variants.none c none) E (cc7__u_loss_kernel i arg1 harg1 arg2 harg2 arg3 harg3 arg4 harg4 arg5 harg5) K := by
  simp only [cc7__u_loss_kernel_eq_skeleton]; unfold cc7__u_loss_kernel_skel
  simp only [k7_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [View.read_writes_eq_canon _ _ _ (fun y => ⟨_, List.mem_singleton_self _, cover7_unit y⟩), View.canon_unit_zero hz7]
    sl_unfold_run_names
    simp only [View.readCov_unit_zero (S := S1x1) _ hz7, View.readAt_eq_ld, harg1.read_unread, harg2.read_unread, harg3.read_unread, harg5.read_unread,
      View.ld_unit_zero (S := S256x64) hz7, View.ld_unit_zero (S := S2048x64) hz7, View.ld_unit_zero (S := S1x2048) hz7,
      View.ld_unit_zero (S := S1x1) hz7]
  iexists _; isplitr
  swap; · iexact HS
  ipureintro
  sl_unfold_run_names
  rw [View.read_writes_eq_canon _ _ _ (fun y => ⟨_, List.mem_singleton_self _, cover7_unit y⟩), View.canon_unit_zero hz7]
  simp only [View.readAt_eq_ld, harg1.read_unread, harg2.read_unread, harg3.read_unread, harg5.read_unread,
    View.ld_unit_zero (S := S256x64) hz7, View.ld_unit_zero (S := S2048x64) hz7, View.ld_unit_zero (S := S1x2048) hz7,
    View.ld_unit_zero (S := S1x1) hz7]

end Cert.KernelIdeal.Hand

end
-- ==== Proof.KI.ULoss7.lean ====
import proofs.«108982_j38147899523261_2_alg».proof.Proof.Gen.KernelIdeal.Launch
import proofs.«108982_j38147899523261_2_alg».proof.Proof.Gen.KernelIdeal.Skeleton
import proofs.«108982_j38147899523261_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«108982_j38147899523261_2_alg».proof.Proof.KI.ULoss7Run

/-! # Custom call 7 as a pipeline: its proof data and its body obligation

Custom call 7 runs the pairwise-distance kernel over eight grid points. Window 0 hands it one block of 256 rows
of the normalised matrix per point, window 1 the whole matrix and window 2 the row of squared norms (both fetched
once), and window 3 is the one-element result, stored and written back at the last point only. A one-element
scratch buffer carries the running sum from point to point.

This module names what the scratch holds after `t` points (`acc7`: zero, then the partial sums of the points added
in order), what the result block holds at the end (`out7`: the logarithm payload of the full sum), gives the
pipeline's proof data over the region-entry contents `V` (`dat7`), and proves that the kernel body meets the
pipeline's body obligation at every point, from the three single-point runs of the body. Windows 0 and 1 read one
array: the proof data gives window 0 the left half of that array's share and window 1 the right half. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks and the running sum -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- What the scratch accumulator holds after `t` points: zero (what the first point's reset stores) before any
    point, and after point `n` what it held before plus that point's partial sum over the three input blocks. -/
def acc7 (c : Dev nD) : ℕ → Vec F S1x1 .f32
  | 0 => k7_pay3 (F := F)
  | n + 1 =>
    if h : n < cfg7.N then
      k7_pay1 (k7_pay4 (grid7.coords ⟨n, h⟩) (iblk7 V c 0 ⟨n, h⟩) (iblk7 V c 1 ⟨n, h⟩) (iblk7 V c 2 ⟨n, h⟩) (acc7 c n))
    else acc7 c n

/-- Before any point the accumulator is the zero the reset stores. -/
theorem acc7_zero (c : Dev nD) : acc7 V c 0 = k7_pay3 (F := F) := rfl

/-- Point `t` adds its partial sum to what the accumulator held. -/
theorem acc7_succ (c : Dev nD) (t : Fin cfg7.N) :
    acc7 V c (t.val + 1)
      = k7_pay1 (k7_pay4 (grid7.coords t) (iblk7 V c 0 t) (iblk7 V c 1 t) (iblk7 V c 2 t) (acc7 V c t.val)) := by
  obtain ⟨n, hn⟩ := t
  exact dif_pos hn

/-- The result block after the last point: the logarithm of the full sum over the pair count. -/
def out7 (c : Dev nD) : Vec F S1x1 .f32 := k7_pay2 (acc7 V c 8)

/-! ## The body's branch conditions, and where the result window is idle -/

/-- The accumulator is reset at the first point only. -/
theorem hcond7_1 : ∀ t : Fin cfg7.N, cond7_1 (grid7.coords t) ↔ t.val = 0 :=
  (by decide +kernel : ∀ t : Fin grid7.N, cond7_1 (grid7.coords t) ↔ t.val = 0)
/-- The result block is stored at the last point only. -/
theorem hcond7_2 : ∀ t : Fin cfg7.N, cond7_2 (grid7.coords t) ↔ t.val = 7 :=
  (by decide +kernel : ∀ t : Fin grid7.N, cond7_2 (grid7.coords t) ↔ t.val = 7)

/-- The input windows are never idle. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- Where the result block is not stored the result window is idle and is not written back; -/
theorem idleAt7_3 : ∀ t : Fin cfg7.N, ¬cond7_2 (grid7.coords t) → cfg7.idle 3 (grid7.coords t) = true := by decide +kernel
theorem noFlush7_3 : ∀ t : Fin cfg7.N, ¬cond7_2 (grid7.coords t) → (cfg7.win 3).flush t = false := by decide +kernel
/-- where it is stored the window is live. -/
theorem liveAt7_3 : ∀ t : Fin cfg7.N, cond7_2 (grid7.coords t) → cfg7.idle 3 (grid7.coords t) = false := by decide +kernel

/-! ## The invariant: the scratch accumulator between points -/

/-- The scratch accumulator as a memref: a whole scoped buffer of the kernel's own. -/
abbrev scM7 : Memref sig .tc .vmem S1x1 .f32 := Memref.whole cc7_scratch0

/-- The scoped buffers no window stages, the accumulator apart. -/
abbrev rest7 (c : Dev nD) : sProp 𝕄 :=
  Pipeline.scopedRestBut (Ix := Unit) (Name := ℕ) (U := UR sig nD τ) (Lvl := ℕ) (Val := Elt F) spec7 c [cc7_scratch0]

/-- The region invariant before position `n`: before the first point every scoped buffer no window stages at some
    contents and the generator register at some state; afterwards the same with the accumulator at the running
    sum of the points so far. -/
def Phi7 (c : Dev nD) : ℕ → sProp 𝕄
  | 0 => Pipeline.ΦA spec7 c
  | n + 1 => iprop(iprop(owns (c : Thread nD τ) scM7 fullShare (acc7 V c (n + 1)) ∗ rest7 c) ∗ (∃ r, prngReg c r))

/-- Before the first point, with the accumulator split off the scoped rest. -/
theorem PhiA7_eq (c : Dev nD) :
    (Pipeline.ΦA spec7 c : sProp 𝕄)
      = iprop(iprop((∃ d, owns (c : Thread nD τ) scM7 fullShare d) ∗ rest7 c) ∗ (∃ r, prngReg c r)) := by
  unfold Pipeline.ΦA; rw [scopedRest7_split]; simp only [scM7, owns_whole]; rfl

theorem Phi7_zero (c : Dev nD) (n : ℕ) (hz : n = 0) : Phi7 V c n = Pipeline.ΦA spec7 c := by
  subst hz; rfl

theorem Phi7_succ (c : Dev nD) (n : ℕ) :
    Phi7 V c (n + 1) = iprop(iprop(owns (c : Thread nD τ) scM7 fullShare (acc7 V c (n + 1)) ∗ rest7 c) ∗ (∃ r, prngReg c r)) := rfl

theorem Phi7_pos (c : Dev nD) (n : ℕ) (hz : n ≠ 0) :
    Phi7 V c n = iprop(iprop(owns (c : Thread nD τ) scM7 fullShare (acc7 V c n) ∗ rest7 c) ∗ (∃ r, prngReg c r)) := by
  cases n with
  | zero => exact absurd rfl hz
  | succ n => rfl

/-! ## The pipeline's proof data -/

/-- The proof data of custom call 7 on core `c`: the arrays as the region finds them (`V`); after the body at any
    point each input's buffer at its block and the result's at `out7` (read only at the last point: before it the
    window is idle); the invariant `Phi7`; nothing owed; the array windows 0 and 1 share split between them, left
    half and right half. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 V c
  Φ t := Phi7 V c t.val
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7 V c := by dsimp only [dat7]

/-- The invariant at a point's start and end, restated at the position's number. -/
theorem Phi7_castSucc (c : Dev nD) (t : Fin cfg7.N) : (dat7 V c).Φ t.castSucc = Phi7 V c t.val := by
  dsimp only [dat7]; simp only [Fin.coe_castSucc]
theorem Phi7_at_succ (c : Dev nD) (t : Fin cfg7.N) : (dat7 V c).Φ t.succ = Phi7 V c (t.val + 1) := by
  dsimp only [dat7]; simp only [Fin.val_succ]

/-- Each input's current staging buffer holds its block at every point, fetched there or not: an input whose body
    leaves its block in place holds what a fetch puts there, and unfetched its block index has not moved. -/
theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

/-- The inputs' posts: never idle, each buffer is left at its block. -/
theorem leaves7_0 (c : Dev nD) (t : Fin cfg7.N) :
    (dat7 V c).leavesExact 0 t = owns (c : Thread nD τ) (st7_0 t) fullShare (iblk7 V c 0 t) := by
  unfold Dat.leavesExact; rw [liveAt7_0 t, after7_0]
theorem leaves7_1 (c : Dev nD) (t : Fin cfg7.N) :
    (dat7 V c).leavesExact 1 t = owns (c : Thread nD τ) (st7_1 t) fullShare (iblk7 V c 1 t) := by
  unfold Dat.leavesExact; rw [liveAt7_1 t, after7_1]
theorem leaves7_2 (c : Dev nD) (t : Fin cfg7.N) :
    (dat7 V c).leavesExact 2 t = owns (c : Thread nD τ) (st7_2 t) fullShare (iblk7 V c 2 t) := by
  unfold Dat.leavesExact; rw [liveAt7_2 t, after7_2]

set_option maxHeartbeats 4000000 in
/-- The body at any point. The inputs' buffers hold their blocks; the point's number says which of the three cases it
    is in; the invariant hands the body the accumulator at the running sum of the points before (at anything at the
    first point, which resets it) and takes it back at the running sum with this point's partial sum added; at the
    last point the result block is left at the logarithm payload of the full sum, elsewhere it is handed back
    untouched. The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [Phi7_at_succ, Phi7_succ, Phi7_castSucc, leaves7_0, leaves7_1, leaves7_2, acc7_succ V c t]
  have hN : t.val < 8 := lt_of_lt_of_eq t.isLt (show cfg7.N = 8 from N_7)
  by_cases h0 : t.val = 0
  · have hc1 : cond7_1 (grid7.coords t) := (hcond7_1 t).mpr h0
    have hc2 : ¬cond7_2 (grid7.coords t) := fun h => by have := (hcond7_2 t).mp h; omega
    rw [Dat.leavesExact_idle (dat7 V c) 3 t (idleAt7_3 t hc2) (noFlush7_3 t hc2)]
    rw [Phi7_zero V c _ h0, PhiA7_eq, (congrArg (acc7 V c) h0).trans (acc7_zero V c)]
    iintro ⟨⟨⟨HS, HR⟩, Hg⟩, Ho, ⟨%d0, H0⟩, ⟨%d1, H1⟩, ⟨%d2, H2⟩, ⟨%d3, H3⟩⟩
    iapply (kernelRun7_first c (grid7.coords t) _ _ _ _ _ _ _ _ _ _ hc1 hc2 (iblk7 V c 0 t) (iblk7 V c 1 t) (iblk7 V c 2 t) ((dat7 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists d3; iexact H3
  · have hc1 : ¬cond7_1 (grid7.coords t) := fun h => h0 ((hcond7_1 t).mp h)
    rw [Phi7_pos V c _ h0]
    by_cases h7 : t.val = 7
    · have hc2 : cond7_2 (grid7.coords t) := (hcond7_2 t).mpr h7
      rw [show (dat7 V c).leavesExact 3 t = owns (c : Thread nD τ) (st7_3 t) fullShare ((dat7 V c).after 3 t) from by
        unfold Dat.leavesExact; rw [liveAt7_3 t hc2], after7_3]
      unfold out7
      rw [congrArg (acc7 V c) (show 8 = t.val + 1 by omega), acc7_succ V c t]
      iintro ⟨⟨⟨HS, HR⟩, Hg⟩, Ho, ⟨%d0, H0⟩, ⟨%d1, H1⟩, ⟨%d2, H2⟩, ⟨%d3, H3⟩⟩
      iapply (kernelRun7_last c (grid7.coords t) _ _ _ _ _ _ _ _ _ _ hc1 hc2 (iblk7 V c 0 t) (iblk7 V c 1 t) (iblk7 V c 2 t) (acc7 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc2 : ¬cond7_2 (grid7.coords t) := fun h => h7 ((hcond7_2 t).mp h)
      rw [Dat.leavesExact_idle (dat7 V c) 3 t (idleAt7_3 t hc2) (noFlush7_3 t hc2)]
      iintro ⟨⟨⟨HS, HR⟩, Hg⟩, Ho, ⟨%d0, H0⟩, ⟨%d1, H1⟩, ⟨%d2, H2⟩, ⟨%d3, H3⟩⟩
      iapply (kernelRun7_mid c (grid7.coords t) _ _ _ _ _ _ _ _ _ _ hc1 hc2 (iblk7 V c 0 t) (iblk7 V c 1 t) (iblk7 V c 2 t) ((dat7 V c).before 3 t d3) (acc7 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists d3; iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

/-! ## The region's boundary: the arrays out of the core's unscoped buffers, and back

The four windows stand on three buffers: windows 0 and 1 both on the normalised matrix. At the region's entry the
core holds every unscoped buffer whole at the full share; the matrix's buffer is split in two halves along its
share, one per window, and joined again at the exit, where both halves hold the same contents. -/

/-- A window is one of the four. -/
theorem fin4_cases7 (w : Fin 4) : w = 0 ∨ w = 1 ∨ w = 2 ∨ w = 3 := by
  obtain ⟨w, hw⟩ := w; simp only [Fin.ext_iff]; show w = 0 ∨ w = 1 ∨ w = 2 ∨ w = 3; omega

/-- Windows 0 and 1 read one buffer. -/
theorem arr7_1_eq_0 : Pipeline.arrRef spec7 1 = Pipeline.arrRef spec7 0 := rfl

/-- The three buffers behind the four windows' arrays. -/
theorem image_arr7 : Finset.univ.image (Pipeline.arrRef spec7)
    = ([Pipeline.arrRef spec7 0, Pipeline.arrRef spec7 2, Pipeline.arrRef spec7 3] : List (Ref sig .tc)).toFinset := by
  ext b
  simp only [Finset.mem_image, Finset.mem_univ, true_and, List.mem_toFinset, List.mem_cons, List.not_mem_nil, or_false]
  constructor
  · rintro ⟨w, rfl⟩
    rcases fin4_cases7 w with rfl | rfl | rfl | rfl
    · exact Or.inl rfl
    · exact Or.inl arr7_1_eq_0
    · exact Or.inr (Or.inl rfl)
    · exact Or.inr (Or.inr rfl)
  · rintro (rfl | rfl | rfl)
    · exact ⟨0, rfl⟩
    · exact ⟨2, rfl⟩
    · exact ⟨3, rfl⟩

/-- They are three different buffers. -/
theorem nodup_arr7 : ([Pipeline.arrRef spec7 0, Pipeline.arrRef spec7 2, Pipeline.arrRef spec7 3] : List (Ref sig .tc)).Nodup := by
  decide

/-- A points-to of a buffer named in two ways, at a valuation's contents. -/
theorem pointsTo_ref_congr7 (c : Dev nD) {b b' : Ref sig .tc} (h : b = b') (q : PosShare TreeShare)
    (W : (b : Ref sig .tc) → Buf (Elt F) ((c : Thread nD τ).loc b)) :
    ((((c : Thread nD τ).loc b) ↦{q} W b) : sProp 𝕄) = (((c : Thread nD τ).loc b') ↦{q} W b') := by
  subst h; rfl

/-- The buffers behind the arrays, one by one. -/
theorem arrBufs7_eq (c : Dev nD) (W : (b : Ref sig .tc) → Buf (Elt F) ((c : Thread nD τ).loc b)) :
    (Pipeline.arrBufs spec7 c W : sProp 𝕄)
      = iprop((((c : Thread nD τ).loc (Pipeline.arrRef spec7 0)) ↦{fullShare} W (Pipeline.arrRef spec7 0))
          ∗ (((c : Thread nD τ).loc (Pipeline.arrRef spec7 2)) ↦{fullShare} W (Pipeline.arrRef spec7 2))
          ∗ (((c : Thread nD τ).loc (Pipeline.arrRef spec7 3)) ↦{fullShare} W (Pipeline.arrRef spec7 3))) := by
  unfold Pipeline.arrBufs
  exact bigSep_eq_bigSepL_of_eq _ image_arr7 nodup_arr7 _

/-- The shares the proof data holds the arrays at. -/
theorem share7_0 (c : Dev nD) : (dat7 V c).share 0 = fullShare.left := rfl
theorem share7_1 (c : Dev nD) : (dat7 V c).share 1 = fullShare.right := rfl
theorem share7_2 (c : Dev nD) : (dat7 V c).share 2 = fullShare := rfl
theorem share7_3 (c : Dev nD) : (dat7 V c).share 3 = fullShare := rfl

/-- The proof data's arrays, window by window, as points-tos of whole buffers. -/
theorem arrays7_eq (c : Dev nD) (G : (w : Fin cfg7.W) → Buf (Elt F) ((cfg7.win w).arr.view.loc (c : Thread nD τ))) :
    (dat7 V c).arrays G
      = iprop((((c : Thread nD τ).loc (Pipeline.arrRef spec7 0)) ↦{fullShare.left} G 0)
          ∗ (((c : Thread nD τ).loc (Pipeline.arrRef spec7 1)) ↦{fullShare.right} G 1)
          ∗ (((c : Thread nD τ).loc (Pipeline.arrRef spec7 2)) ↦{fullShare} G 2)
          ∗ (((c : Thread nD τ).loc (Pipeline.arrRef spec7 3)) ↦{fullShare} G 3)) := by
  have h : (dat7 V c).arrays G
      = bigSep Finset.univ fun w : Fin cfg7.W => ((((c : Thread nD τ).loc (Pipeline.arrRef spec7 w)) ↦{(dat7 V c).share w} G w) : sProp 𝕄) := by
    unfold Dat.arrays
    exact bigSep_congr fun w _ => by rw [(arr_whole7 w).set_eq_univ]
  rw [h, bigSep_W7]
  simp only [share7_0, share7_1, share7_2, share7_3]

set_option maxHeartbeats 2000000 in
/-- ENTRY: the core's unscoped buffers at `V c` are the proof data's arrays at their entry contents — the matrix's
    buffer split between windows 0 and 1 along its share — and the unscoped rest. -/
theorem entry7 (c : Dev nD) :
    (unscopedBufs c (V c) : sProp 𝕄)
      ⊢ iprop((dat7 V c).arrays ((dat7 V c).arrAt · 0) ∗ Pipeline.unscopedRest spec7 c (V c)) := by
  rewrite [Pipeline.PerCore.unscopedBufs_split₀ (fun (_ : Dev nD) (_ : Unit) => cfg7) () c winFacts₀7.arr_unscoped (V c), arrBufs7_eq, arrays7_eq,
    show (dat7 V c).arrAt 0 0 = V c (Pipeline.arrRef spec7 0) from A_eq7 V c 0, show (dat7 V c).arrAt 1 0 = V c (Pipeline.arrRef spec7 1) from A_eq7 V c 1,
    show (dat7 V c).arrAt 2 0 = V c (Pipeline.arrRef spec7 2) from A_eq7 V c 2, show (dat7 V c).arrAt 3 0 = V c (Pipeline.arrRef spec7 3) from A_eq7 V c 3]
  have hconv : ((((c : Thread nD τ).loc (Pipeline.arrRef spec7 0)) ↦{fullShare.right} V c (Pipeline.arrRef spec7 0)) : sProp 𝕄)
      ⊢ (((c : Thread nD τ).loc (Pipeline.arrRef spec7 1)) ↦{fullShare.right} V c (Pipeline.arrRef spec7 1)) :=
    Entails.of_eq (pointsTo_ref_congr7 c arr7_1_eq_0.symm fullShare.right (V c))
  have hsplit : ((((c : Thread nD τ).loc (Pipeline.arrRef spec7 0)) ↦{fullShare} V c (Pipeline.arrRef spec7 0)) : sProp 𝕄)
      ⊢ iprop((((c : Thread nD τ).loc (Pipeline.arrRef spec7 0)) ↦{fullShare.left} V c (Pipeline.arrRef spec7 0))
          ∗ (((c : Thread nD τ).loc (Pipeline.arrRef spec7 0)) ↦{fullShare.right} V c (Pipeline.arrRef spec7 0))) :=
    (pointsTo_share (PosShare.mem_left_op_right fullShare)).1
  iintro ⟨⟨H0, H2, H3⟩, Hrest⟩
  ihave H01 := hsplit $$ H0
  icases H01 with ⟨H0l, H0r⟩
  isplitr [Hrest]
  · isplitl [H0l]; · iexact H0l
    isplitl [H0r]; · iapply hconv; iexact H0r
    isplitl [H2]; · iexact H2
    iexact H3
  iexact Hrest

set_option maxHeartbeats 2000000 in
/-- EXIT: the arrays at their final contents and the unscoped rest are the core's unscoped buffers at any valuation
    `W'` that has every array at its final contents and agrees with `V c` elsewhere: the two halves of the matrix's
    buffer hold the same contents and join. -/
theorem exit7 (c : Dev nD) (W' : (b : Ref sig .tc) → Buf (Elt F) ((c : Thread nD τ).loc b))
    (hF : ∀ w, (dat7 V c).arrAt w cfg7.N = W' (Pipeline.arrRef spec7 w))
    (hrest : ∀ b, b ∉ Finset.univ.image (Pipeline.arrRef spec7) → W' b = V c b) :
    iprop((dat7 V c).arrays ((dat7 V c).arrAt · cfg7.N) ∗ Pipeline.unscopedRest spec7 c (V c))
      ⊢ (unscopedBufs c W' : sProp 𝕄) := by
  rewrite [Pipeline.PerCore.unscopedBufs_split₀ (fun (_ : Dev nD) (_ : Unit) => cfg7) () c winFacts₀7.arr_unscoped W', arrBufs7_eq, arrays7_eq,
    hF 0, hF 1, hF 2, hF 3]
  have hconv : ((((c : Thread nD τ).loc (Pipeline.arrRef spec7 1)) ↦{fullShare.right} W' (Pipeline.arrRef spec7 1)) : sProp 𝕄)
      ⊢ (((c : Thread nD τ).loc (Pipeline.arrRef spec7 0)) ↦{fullShare.right} W' (Pipeline.arrRef spec7 0)) :=
    Entails.of_eq (pointsTo_ref_congr7 c arr7_1_eq_0 fullShare.right W')
  have hjoin : (iprop((((c : Thread nD τ).loc (Pipeline.arrRef spec7 0)) ↦{fullShare.left} W' (Pipeline.arrRef spec7 0))
          ∗ (((c : Thread nD τ).loc (Pipeline.arrRef spec7 0)) ↦{fullShare.right} W' (Pipeline.arrRef spec7 0))) : sProp 𝕄)
      ⊢ (((c : Thread nD τ).loc (Pipeline.arrRef spec7 0)) ↦{fullShare} W' (Pipeline.arrRef spec7 0)) :=
    (pointsTo_share (PosShare.mem_left_op_right fullShare)).2
  have hR : (Pipeline.unscopedRest spec7 c (V c) : sProp 𝕄) = Pipeline.unscopedRest spec7 c W' := by
    unfold Pipeline.unscopedRest
    exact bigSep_congr fun b hb => by rw [hrest b (Finset.mem_sdiff.mp hb).2]
  rewrite [hR]
  iintro ⟨⟨H0l, H0r, H2, H3⟩, Hrest⟩
  isplitr [Hrest]
  · isplitl [H0l H0r]
    · iapply hjoin
      isplitl [H0l]; · iexact H0l
      iapply hconv; iexact H0r
    isplitl [H2]; · iexact H2
    iexact H3
  iexact Hrest
/-- The invariant at the first point, from the generator register and the scoped buffers no window stages. -/
theorem hin7 (c : Dev nD) :
    (iprop((∃ r, prngReg c r) ∗ Pipeline.scopedRest spec7 c) : sProp 𝕄) ⊢ (dat7 V c).Φ 0 := by
  rw [show (dat7 V c).Φ 0 = Pipeline.ΦA spec7 c from rfl]; unfold Pipeline.ΦA
  iintro ⟨Hp, Hr⟩
  isplitl [Hr]; · iexact Hr
  iexact Hp

/-- The invariant at the last point gives them back: the accumulator's contents are forgotten. -/
theorem hout7 (c : Dev nD) :
    (dat7 V c).Φ (Fin.last cfg7.N) ⊢ (iprop((∃ r, prngReg c r) ∗ Pipeline.scopedRest spec7 c) : sProp 𝕄) := by
  rw [show (dat7 V c).Φ (Fin.last cfg7.N) = Phi7 V c cfg7.N from rfl,
    Phi7_pos V c _ (by rw [show cfg7.N = 8 from N_7]; decide), scopedRest7_split]
  iintro ⟨⟨HS, HR⟩, Hg⟩
  isplitl [Hg]; · iexact Hg
  isplitl [HS]
  · simp only [scM7, owns_whole]; iexists _; iexact HS
  iexact HR

/-! ## The arrays after the run -/

/-- The input arrays are never written. -/
theorem arrAt7_0 (c : Dev nD) (n : ℕ) : (dat7 V c).arrAt 0 n = V c (Pipeline.arrRef spec7 0) :=
  ((dat7 V c).arrAt_in 0 rfl n).trans (A_eq7 V c 0)
theorem arrAt7_1 (c : Dev nD) (n : ℕ) : (dat7 V c).arrAt 1 n = V c (Pipeline.arrRef spec7 1) :=
  ((dat7 V c).arrAt_in 1 rfl n).trans (A_eq7 V c 1)
theorem arrAt7_2 (c : Dev nD) (n : ℕ) : (dat7 V c).arrAt 2 n = V c (Pipeline.arrRef spec7 2) :=
  ((dat7 V c).arrAt_in 2 rfl n).trans (A_eq7 V c 2)

/-- The last point of the grid. -/
def tl7 : Fin cfg7.N := ⟨7, by rw [show cfg7.N = 8 from N_7]; decide⟩

/-- The result array after the run, read through the result window's one block, is `out7`: only the last point
    writes the block back, and it writes what the body left there. -/
theorem final7 (c : Dev nD) :
    ((cfg7.win 3).blk tl7).view.read (Elt F) ((dat7 V c).arrAt 3 cfg7.N) = out7 V c := by
  have hfl : ∀ t : Fin cfg7.N, (cfg7.win 3).flush t = true → t = tl7 := fun t h => by
    have h7 := (flush7_3 t).mp h
    have hlt := t.isLt
    have hN : cfg7.N = 8 := N_7
    apply Fin.ext; show t.val = 7; omega
  rw [(dat7 V c).read_blk_arrAt_eq_flushed 3 (fun t t' h h' hne => absurd ((hfl t h).trans (hfl t' h').symm) hne)
    cfg7.N tl7 tl7.isLt ((flush7_3 tl7).mpr rfl)]
  unfold Dat.flushed
  rw [after7_3]
  rfl

end Cert.KernelIdeal.Hand

end
-- ==== Proof.KI.Segs.lean ====
/-
  The kernel program's eight regions as segments of its run, and the run.

  Each pallas_call is entered from the thread state the host side names before it and left at the one after it. What a
  region leaves in its result arrays is its output windows' write-backs folded over the grid (`Dat.arrAt … N`), a
  function of the contents it is entered at: that is `outs`. The four layer-update regions keep the pipeline's plain
  invariant (`plainRegion`); the four pairwise-distance regions carry their accumulator in theirs. With the eight
  records the host side's conditional run is the run of @main: every weakly fair execution terminates, nothing faults, and
  every unscoped buffer ends at the last boundary's contents.
-/
import proofs.«108982_j38147899523261_2_alg».proof.Proof.KI.RegionA
import proofs.«108982_j38147899523261_2_alg».proof.Proof.KI.Update0
import proofs.«108982_j38147899523261_2_alg».proof.Proof.KI.Update1
import proofs.«108982_j38147899523261_2_alg».proof.Proof.KI.Update2
import proofs.«108982_j38147899523261_2_alg».proof.Proof.KI.Update3
import proofs.«108982_j38147899523261_2_alg».proof.Proof.KI.ULoss4
import proofs.«108982_j38147899523261_2_alg».proof.Proof.KI.ULoss5
import proofs.«108982_j38147899523261_2_alg».proof.Proof.KI.ULoss6
import proofs.«108982_j38147899523261_2_alg».proof.Proof.KI.ULoss7

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

/-- What each pallas_call leaves in its result arrays, from the contents it is entered at: its output windows'
    write-backs folded over the grid. -/
def outs : Outs F where
  v16_0 c W := (dat0 (atTc W) c).arrAt 2 cfg0.N
  v16_1 c W := (dat0 (atTc W) c).arrAt 3 cfg0.N
  v34 c W := (dat1 (atTc W) c).arrAt 2 cfg1.N
  v54_0 c W := (dat2 (atTc W) c).arrAt 2 cfg2.N
  v54_1 c W := (dat2 (atTc W) c).arrAt 3 cfg2.N
  v72 c W := (dat3 (atTc W) c).arrAt 2 cfg3.N
  v162 c W := (dat4 (atTc W) c).arrAt 3 cfg4.N
  v172 c W := (dat5 (atTc W) c).arrAt 3 cfg5.N
  v216 c W := (dat6 (atTc W) c).arrAt 3 cfg6.N
  v226 c W := (dat7 (atTc W) c).arrAt 3 cfg7.N

variable (m : (ℓ : Loc nD τ sig) → Buf (Elt F) ℓ)

/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (atTc (B1 m)) c
  | ⟨1, _⟩ => fun c => dat1 (atTc (B3 m outs)) c
  | ⟨2, _⟩ => fun c => dat2 (atTc (B6 m outs)) c
  | ⟨3, _⟩ => fun c => dat3 (atTc (B8 m outs)) c
  | ⟨4, _⟩ => fun c => dat4 (atTc (B20 m outs)) c
  | ⟨5, _⟩ => fun c => dat5 (atTc (B24 m outs)) c
  | ⟨6, _⟩ => fun c => dat6 (atTc (B32 m outs)) c
  | ⟨7, _⟩ => fun c => dat7 (atTc (B36 m outs)) c

/-! ## The four layer-update regions

Region 0 reads `main_v14`, `main_v15` and writes `main_v16_0`, `main_v16_1`; region 1 reads `main_v32`, `main_v33` and
writes `main_v34`; regions 2 and 3 are the same on the second graph. At a region's exit an input array holds its entry
contents (no window writes it, and the next boundary differs from the entry only at the result arrays) and an output
array the folded write-backs, which is by definition what the next boundary holds there; every other buffer is as at
entry. -/

theorem B2_v16_0 (c : Dev nD) : B2 m outs c main_v16_0 = (dat0 (atTc (B1 m)) c).arrAt 2 cfg0.N :=
  (Function.update_of_ne (StableHlo.devRef_ne_of_ne (by decide : main_v16_0 ≠ main_v16_1)) _ _).trans (Function.update_self _ _ _)
theorem B2_v16_1 (c : Dev nD) : B2 m outs c main_v16_1 = (dat0 (atTc (B1 m)) c).arrAt 3 cfg0.N :=
  Function.update_self _ _ _

theorem exitArr0 (c : Dev nD) : ∀ w : Fin cfg0.W, (pdats m 0 c).arrAt w cfg0.N = atTc (B2 m outs) c (Pipeline.arrRef spec0 w)
  | ⟨0, _⟩ => ((pdats m 0 c).arrAt_in 0 rfl _).trans (B2_of m outs c main_v14 (by decide)).symm
  | ⟨1, _⟩ => ((pdats m 0 c).arrAt_in 1 rfl _).trans (B2_of m outs c main_v15 (by decide)).symm
  | ⟨2, _⟩ => (B2_v16_0 m c).symm
  | ⟨3, _⟩ => (B2_v16_1 m c).symm

theorem exitRest0 (c : Dev nD) (b : Ref sig .tc) (hb : b ∉ Finset.univ.image (Pipeline.arrRef spec0)) : atTc (B2 m outs) c b = atTc (B1 m) c b :=
  B2_of m outs c b fun h => hb (by
    rcases List.mem_cons.mp h with rfl | h
    · exact Finset.mem_image.mpr ⟨2, Finset.mem_univ _, rfl⟩
    rcases List.mem_cons.mp h with rfl | h
    · exact Finset.mem_image.mpr ⟨3, Finset.mem_univ _, rfl⟩
    · exact absurd h List.not_mem_nil)

/-- Region 0: the first layer update of the first graph. -/
def reg0 : RegionSeg (pcfgs (F := F)) adm (pdats m) () defs₀ 𝒱₀ L lv 0 :=
  plainRegion (pdats m) 0 launch0.win launch0.block_pos launch0.arr_whole launch0.stage_whole (B1 m) (B2 m outs)
    (fun _ _ => rfl) (fun _ _ => rfl) (fun _ _ => rfl) (fun _ => rfl) (fun _ _ => rfl)
    (fun c => body_obligation0 (atTc (B1 m)) c) (exitArr0 m) (exitRest0 m)

theorem B4_v34 (c : Dev nD) : B4 m outs c main_v34 = (dat1 (atTc (B3 m outs)) c).arrAt 2 cfg1.N :=
  Function.update_self _ _ _

theorem exitArr1 (c : Dev nD) : ∀ w : Fin cfg1.W, (pdats m 1 c).arrAt w cfg1.N = atTc (B4 m outs) c (Pipeline.arrRef spec1 w)
  | ⟨0, _⟩ => ((pdats m 1 c).arrAt_in 0 rfl _).trans (B4_of m outs c main_v32 (by decide)).symm
  | ⟨1, _⟩ => ((pdats m 1 c).arrAt_in 1 rfl _).trans (B4_of m outs c main_v33 (by decide)).symm
  | ⟨2, _⟩ => (B4_v34 m c).symm

theorem exitRest1 (c : Dev nD) (b : Ref sig .tc) (hb : b ∉ Finset.univ.image (Pipeline.arrRef spec1)) : atTc (B4 m outs) c b = atTc (B3 m outs) c b :=
  B4_of m outs c b fun h => hb (by
    rcases List.mem_cons.mp h with rfl | h
    · exact Finset.mem_image.mpr ⟨2, Finset.mem_univ _, rfl⟩
    · exact absurd h List.not_mem_nil)

/-- Region 1: the second layer update of the first graph (the accumulator only). -/
def reg1 : RegionSeg (pcfgs (F := F)) adm (pdats m) () defs₀ 𝒱₀ L lv 1 :=
  plainRegion (pdats m) 1 launch1.win launch1.block_pos launch1.arr_whole launch1.stage_whole (B3 m outs) (B4 m outs)
    (fun _ _ => rfl) (fun _ _ => rfl) (fun _ _ => rfl) (fun _ => rfl) (fun _ _ => rfl)
    (fun c => body_obligation1 (atTc (B3 m outs)) c) (exitArr1 m) (exitRest1 m)

theorem B7_v54_0 (c : Dev nD) : B7 m outs c main_v54_0 = (dat2 (atTc (B6 m outs)) c).arrAt 2 cfg2.N :=
  (Function.update_of_ne (StableHlo.devRef_ne_of_ne (by decide : main_v54_0 ≠ main_v54_1)) _ _).trans (Function.update_self _ _ _)
theorem B7_v54_1 (c : Dev nD) : B7 m outs c main_v54_1 = (dat2 (atTc (B6 m outs)) c).arrAt 3 cfg2.N :=
  Function.update_self _ _ _

theorem exitArr2 (c : Dev nD) : ∀ w : Fin cfg2.W, (pdats m 2 c).arrAt w cfg2.N = atTc (B7 m outs) c (Pipeline.arrRef spec2 w)
  | ⟨0, _⟩ => ((pdats m 2 c).arrAt_in 0 rfl _).trans (B7_of m outs c main_v52 (by decide)).symm
  | ⟨1, _⟩ => ((pdats m 2 c).arrAt_in 1 rfl _).trans (B7_of m outs c main_v53 (by decide)).symm
  | ⟨2, _⟩ => (B7_v54_0 m c).symm
  | ⟨3, _⟩ => (B7_v54_1 m c).symm

theorem exitRest2 (c : Dev nD) (b : Ref sig .tc) (hb : b ∉ Finset.univ.image (Pipeline.arrRef spec2)) : atTc (B7 m outs) c b = atTc (B6 m outs) c b :=
  B7_of m outs c b fun h => hb (by
    rcases List.mem_cons.mp h with rfl | h
    · exact Finset.mem_image.mpr ⟨2, Finset.mem_univ _, rfl⟩
    rcases List.mem_cons.mp h with rfl | h
    · exact Finset.mem_image.mpr ⟨3, Finset.mem_univ _, rfl⟩
    · exact absurd h List.not_mem_nil)

/-- Region 2: the first layer update of the second graph. -/
def reg2 : RegionSeg (pcfgs (F := F)) adm (pdats m) () defs₀ 𝒱₀ L lv 2 :=
  plainRegion (pdats m) 2 launch2.win launch2.block_pos launch2.arr_whole launch2.stage_whole (B6 m outs) (B7 m outs)
    (fun _ _ => rfl) (fun _ _ => rfl) (fun _ _ => rfl) (fun _ => rfl) (fun _ _ => rfl)
    (fun c => body_obligation2 (atTc (B6 m outs)) c) (exitArr2 m) (exitRest2 m)

theorem B9_v72 (c : Dev nD) : B9 m outs c main_v72 = (dat3 (atTc (B8 m outs)) c).arrAt 2 cfg3.N :=
  Function.update_self _ _ _

theorem exitArr3 (c : Dev nD) : ∀ w : Fin cfg3.W, (pdats m 3 c).arrAt w cfg3.N = atTc (B9 m outs) c (Pipeline.arrRef spec3 w)
  | ⟨0, _⟩ => ((pdats m 3 c).arrAt_in 0 rfl _).trans (B9_of m outs c main_v70 (by decide)).symm
  | ⟨1, _⟩ => ((pdats m 3 c).arrAt_in 1 rfl _).trans (B9_of m outs c main_v71 (by decide)).symm
  | ⟨2, _⟩ => (B9_v72 m c).symm

theorem exitRest3 (c : Dev nD) (b : Ref sig .tc) (hb : b ∉ Finset.univ.image (Pipeline.arrRef spec3)) : atTc (B9 m outs) c b = atTc (B8 m outs) c b :=
  B9_of m outs c b fun h => hb (by
    rcases List.mem_cons.mp h with rfl | h
    · exact Finset.mem_image.mpr ⟨2, Finset.mem_univ _, rfl⟩
    · exact absurd h List.not_mem_nil)

/-- Region 3: the second layer update of the second graph (the accumulator only). -/
def reg3 : RegionSeg (pcfgs (F := F)) adm (pdats m) () defs₀ 𝒱₀ L lv 3 :=
  plainRegion (pdats m) 3 launch3.win launch3.block_pos launch3.arr_whole launch3.stage_whole (B8 m outs) (B9 m outs)
    (fun _ _ => rfl) (fun _ _ => rfl) (fun _ _ => rfl) (fun _ => rfl) (fun _ _ => rfl)
    (fun c => body_obligation3 (atTc (B8 m outs)) c) (exitArr3 m) (exitRest3 m)

/-! ## The four pairwise-distance regions

Region 4 reads `main_v158` (through two windows) and `main_v161` and writes `main_v162`; regions 5, 6, 7 are the same
kernel on `main_v168`, `main_v171` → `main_v172`; `main_v212`, `main_v215` → `main_v216`; `main_v222`, `main_v225` →
`main_v226`. Their invariant carries the accumulator and two of their windows share one array, so how the arrays
leave and rejoin the unscoped buffers is proved with the kernel (its `entry` and `exit`); here the exit contents are
read off the table as for the other regions. -/

theorem B21_v162 (c : Dev nD) : B21 m outs c main_v162 = (dat4 (atTc (B20 m outs)) c).arrAt 3 cfg4.N :=
  Function.update_self _ _ _

theorem exitArr4 (c : Dev nD) : ∀ w : Fin cfg4.W, (pdats m 4 c).arrAt w cfg4.N = atTc (B21 m outs) c (Pipeline.arrRef spec4 w)
  | ⟨0, _⟩ => ((pdats m 4 c).arrAt_in 0 rfl _).trans (B21_of m outs c main_v158 (by decide)).symm
  | ⟨1, _⟩ => ((pdats m 4 c).arrAt_in 1 rfl _).trans (B21_of m outs c main_v158 (by decide)).symm
  | ⟨2, _⟩ => ((pdats m 4 c).arrAt_in 2 rfl _).trans (B21_of m outs c main_v161 (by decide)).symm
  | ⟨3, _⟩ => (B21_v162 m c).symm

theorem exitRest4 (c : Dev nD) (b : Ref sig .tc) (hb : b ∉ Finset.univ.image (Pipeline.arrRef spec4)) : atTc (B21 m outs) c b = atTc (B20 m outs) c b :=
  B21_of m outs c b fun h => hb (by
    rcases List.mem_cons.mp h with rfl | h
    · exact Finset.mem_image.mpr ⟨3, Finset.mem_univ _, rfl⟩
    · exact absurd h List.not_mem_nil)

/-- Region 4: the pairwise-distance term of the first bundle view. -/
def reg4 : RegionSeg (pcfgs (F := F)) adm (pdats m) () defs₀ 𝒱₀ L lv 4 :=
  regionWith (pdats m) 4 winFacts₀4 block_pos4 stage_whole4 (B20 m outs) (B21 m outs) (fun _ _ => rfl) (fun _ => rfl)
    (fun c => body_obligation4 (atTc (B20 m outs)) c)
    (fun c => by have h := entry4 (atTc (B20 m outs)) c; rw [Pipeline.unscopedBufs_held] at h; exact h)
    (fun c => hin4 (atTc (B20 m outs)) c) (fun c => hout4 (atTc (B20 m outs)) c)
    (fun c => by
      have h := exit4 (atTc (B20 m outs)) c (atTc (B21 m outs) c) (exitArr4 m c) (exitRest4 m c)
      rw [Pipeline.unscopedBufs_held] at h; exact h)

theorem B25_v172 (c : Dev nD) : B25 m outs c main_v172 = (dat5 (atTc (B24 m outs)) c).arrAt 3 cfg5.N :=
  Function.update_self _ _ _

theorem exitArr5 (c : Dev nD) : ∀ w : Fin cfg5.W, (pdats m 5 c).arrAt w cfg5.N = atTc (B25 m outs) c (Pipeline.arrRef spec5 w)
  | ⟨0, _⟩ => ((pdats m 5 c).arrAt_in 0 rfl _).trans (B25_of m outs c main_v168 (by decide)).symm
  | ⟨1, _⟩ => ((pdats m 5 c).arrAt_in 1 rfl _).trans (B25_of m outs c main_v168 (by decide)).symm
  | ⟨2, _⟩ => ((pdats m 5 c).arrAt_in 2 rfl _).trans (B25_of m outs c main_v171 (by decide)).symm
  | ⟨3, _⟩ => (B25_v172 m c).symm

theorem exitRest5 (c : Dev nD) (b : Ref sig .tc) (hb : b ∉ Finset.univ.image (Pipeline.arrRef spec5)) : atTc (B25 m outs) c b = atTc (B24 m outs) c b :=
  B25_of m outs c b fun h => hb (by
    rcases List.mem_cons.mp h with rfl | h
    · exact Finset.mem_image.mpr ⟨3, Finset.mem_univ _, rfl⟩
    · exact absurd h List.not_mem_nil)

/-- Region 5: the pairwise-distance term of the second bundle view. -/
def reg5 : RegionSeg (pcfgs (F := F)) adm (pdats m) () defs₀ 𝒱₀ L lv 5 :=
  regionWith (pdats m) 5 winFacts₀5 block_pos5 stage_whole5 (B24 m outs) (B25 m outs) (fun _ _ => rfl) (fun _ => rfl)
    (fun c => body_obligation5 (atTc (B24 m outs)) c)
    (fun c => by have h := entry5 (atTc (B24 m outs)) c; rw [Pipeline.unscopedBufs_held] at h; exact h)
    (fun c => hin5 (atTc (B24 m outs)) c) (fun c => hout5 (atTc (B24 m outs)) c)
    (fun c => by
      have h := exit5 (atTc (B24 m outs)) c (atTc (B25 m outs) c) (exitArr5 m c) (exitRest5 m c)
      rw [Pipeline.unscopedBufs_held] at h; exact h)

theorem B33_v216 (c : Dev nD) : B33 m outs c main_v216 = (dat6 (atTc (B32 m outs)) c).arrAt 3 cfg6.N :=
  Function.update_self _ _ _

theorem exitArr6 (c : Dev nD) : ∀ w : Fin cfg6.W, (pdats m 6 c).arrAt w cfg6.N = atTc (B33 m outs) c (Pipeline.arrRef spec6 w)
  | ⟨0, _⟩ => ((pdats m 6 c).arrAt_in 0 rfl _).trans (B33_of m outs c main_v212 (by decide)).symm
  | ⟨1, _⟩ => ((pdats m 6 c).arrAt_in 1 rfl _).trans (B33_of m outs c main_v212 (by decide)).symm
  | ⟨2, _⟩ => ((pdats m 6 c).arrAt_in 2 rfl _).trans (B33_of m outs c main_v215 (by decide)).symm
  | ⟨3, _⟩ => (B33_v216 m c).symm

theorem exitRest6 (c : Dev nD) (b : Ref sig .tc) (hb : b ∉ Finset.univ.image (Pipeline.arrRef spec6)) : atTc (B33 m outs) c b = atTc (B32 m outs) c b :=
  B33_of m outs c b fun h => hb (by
    rcases List.mem_cons.mp h with rfl | h
    · exact Finset.mem_image.mpr ⟨3, Finset.mem_univ _, rfl⟩
    · exact absurd h List.not_mem_nil)

/-- Region 6: the pairwise-distance term of the first user view. -/
def reg6 : RegionSeg (pcfgs (F := F)) adm (pdats m) () defs₀ 𝒱₀ L lv 6 :=
  regionWith (pdats m) 6 winFacts₀6 block_pos6 stage_whole6 (B32 m outs) (B33 m outs) (fun _ _ => rfl) (fun _ => rfl)
    (fun c => body_obligation6 (atTc (B32 m outs)) c)
    (fun c => by have h := entry6 (atTc (B32 m outs)) c; rw [Pipeline.unscopedBufs_held] at h; exact h)
    (fun c => hin6 (atTc (B32 m outs)) c) (fun c => hout6 (atTc (B32 m outs)) c)
    (fun c => by
      have h := exit6 (atTc (B32 m outs)) c (atTc (B33 m outs) c) (exitArr6 m c) (exitRest6 m c)
      rw [Pipeline.unscopedBufs_held] at h; exact h)

theorem B37_v226 (c : Dev nD) : B37 m outs c main_v226 = (dat7 (atTc (B36 m outs)) c).arrAt 3 cfg7.N :=
  Function.update_self _ _ _

theorem exitArr7 (c : Dev nD) : ∀ w : Fin cfg7.W, (pdats m 7 c).arrAt w cfg7.N = atTc (B37 m outs) c (Pipeline.arrRef spec7 w)
  | ⟨0, _⟩ => ((pdats m 7 c).arrAt_in 0 rfl _).trans (B37_of m outs c main_v222 (by decide)).symm
  | ⟨1, _⟩ => ((pdats m 7 c).arrAt_in 1 rfl _).trans (B37_of m outs c main_v222 (by decide)).symm
  | ⟨2, _⟩ => ((pdats m 7 c).arrAt_in 2 rfl _).trans (B37_of m outs c main_v225 (by decide)).symm
  | ⟨3, _⟩ => (B37_v226 m c).symm

theorem exitRest7 (c : Dev nD) (b : Ref sig .tc) (hb : b ∉ Finset.univ.image (Pipeline.arrRef spec7)) : atTc (B37 m outs) c b = atTc (B36 m outs) c b :=
  B37_of m outs c b fun h => hb (by
    rcases List.mem_cons.mp h with rfl | h
    · exact Finset.mem_image.mpr ⟨3, Finset.mem_univ _, rfl⟩
    · exact absurd h List.not_mem_nil)

/-- Region 7: the pairwise-distance term of the second user view. -/
def reg7 : RegionSeg (pcfgs (F := F)) adm (pdats m) () defs₀ 𝒱₀ L lv 7 :=
  regionWith (pdats m) 7 winFacts₀7 block_pos7 stage_whole7 (B36 m outs) (B37 m outs) (fun _ _ => rfl) (fun _ => rfl)
    (fun c => body_obligation7 (atTc (B36 m outs)) c)
    (fun c => by have h := entry7 (atTc (B36 m outs)) c; rw [Pipeline.unscopedBufs_held] at h; exact h)
    (fun c => hin7 (atTc (B36 m outs)) c) (fun c => hout7 (atTc (B36 m outs)) c)
    (fun c => by
      have h := exit7 (atTc (B36 m outs)) c (atTc (B37 m outs) c) (exitArr7 m c) (exitRest7 m c)
      rw [Pipeline.unscopedBufs_held] at h; exact h)

/-! ## The run -/

/-- THE RUN of the kernel program: from any memory with zero counters every weakly fair execution of @main terminates,
    nothing faulting, and every unscoped buffer ends at the last boundary's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = B38 m outs c b) :=
  run_cond m outs (pdats m) (reg0 m) (reg1 m) (reg2 m) (reg3 m) (reg4 m) (reg5 m) (reg6 m) (reg7 m) ρ
    (fun _ => .rfl) (fun _ => .rfl) (fun _ => .rfl) (fun _ => .rfl) (fun _ => .rfl) (fun _ => .rfl) (fun _ => .rfl) (fun _ => .rfl)
    (fun _ => .rfl) (fun _ => .rfl) (fun _ => .rfl) (fun _ => .rfl) (fun _ => .rfl) (fun _ => .rfl) (fun _ => .rfl) (fun _ => .rfl)

/-- THE FRAME: the program runs to the end, faults nowhere, and every argument array ends as launched — no host
    operation and no region writes an argument. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (kept m outs c main_arg0 (by decide)),
     (h c _ (mem_uc main_arg1 (by decide))).trans (kept m outs c main_arg1 (by decide)),
     (h c _ (mem_uc main_arg2 (by decide))).trans (kept m outs c main_arg2 (by decide)),
     (h c _ (mem_uc main_arg3 (by decide))).trans (kept m outs c main_arg3 (by decide)),
     (h c _ (mem_uc main_arg4 (by decide))).trans (kept m outs c main_arg4 (by decide)),
     (h c _ (mem_uc main_arg5 (by decide))).trans (kept m outs c main_arg5 (by decide)),
     (h c _ (mem_uc main_arg6 (by decide))).trans (kept m outs c main_arg6 (by decide)),
     (h c _ (mem_uc main_arg7 (by decide))).trans (kept m outs c main_arg7 (by decide)),
     (h c _ (mem_uc main_arg8 (by decide))).trans (kept m outs c main_arg8 (by decide)),
     (h c _ (mem_uc main_arg9 (by decide))).trans (kept m outs c main_arg9 (by decide)),
     (h c _ (mem_uc main_arg10 (by decide))).trans (kept m outs c main_arg10 (by decide)),
     (h c _ (mem_uc main_arg11 (by decide))).trans (kept m outs c main_arg11 (by decide)),
     (h c _ (mem_uc main_arg12 (by decide))).trans (kept m outs c main_arg12 (by decide)),
     (h c _ (mem_uc main_arg13 (by decide))).trans (kept m outs c main_arg13 (by decide)),
     (h c _ (mem_uc main_arg14 (by decide))).trans (kept m outs c main_arg14 (by decide))⟩) (run m ρ)

/-- The run with the result named: the result buffer ends at the last boundary's contents, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v235) = B38 m outs c main_v235
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v235 (by decide)),
     (h c _ (mem_uc main_arg0 (by decide))).trans (kept m outs c main_arg0 (by decide)),
     (h c _ (mem_uc main_arg1 (by decide))).trans (kept m outs c main_arg1 (by decide)),
     (h c _ (mem_uc main_arg2 (by decide))).trans (kept m outs c main_arg2 (by decide)),
     (h c _ (mem_uc main_arg3 (by decide))).trans (kept m outs c main_arg3 (by decide)),
     (h c _ (mem_uc main_arg4 (by decide))).trans (kept m outs c main_arg4 (by decide)),
     (h c _ (mem_uc main_arg5 (by decide))).trans (kept m outs c main_arg5 (by decide)),
     (h c _ (mem_uc main_arg6 (by decide))).trans (kept m outs c main_arg6 (by decide)),
     (h c _ (mem_uc main_arg7 (by decide))).trans (kept m outs c main_arg7 (by decide)),
     (h c _ (mem_uc main_arg8 (by decide))).trans (kept m outs c main_arg8 (by decide)),
     (h c _ (mem_uc main_arg9 (by decide))).trans (kept m outs c main_arg9 (by decide)),
     (h c _ (mem_uc main_arg10 (by decide))).trans (kept m outs c main_arg10 (by decide)),
     (h c _ (mem_uc main_arg11 (by decide))).trans (kept m outs c main_arg11 (by decide)),
     (h c _ (mem_uc main_arg12 (by decide))).trans (kept m outs c main_arg12 (by decide)),
     (h c _ (mem_uc main_arg13 (by decide))).trans (kept m outs c main_arg13 (by decide)),
     (h c _ (mem_uc main_arg14 (by decide))).trans (kept m outs c main_arg14 (by decide))⟩) (run m ρ)

end Cert.KernelIdeal.Hand

end
-- ==== Proof.Ref.Ops0.lean ====
import proofs.«108982_j38147899523261_2_alg».proof.Proof.Gen.ReferenceIdeal
import Idealize.ShloMosaic.Lib.StableHlo.Run

/-! The reference program's statements 1 … 60 as a list of host operations.

`ops_part0` lists, in program order, the StableHLO operations that window 0 of the reference's
`@main` performs, each as the operation builder the program itself applies; where the program calls
one of its outlined functions (a row norm, the upper-triangle mask, a masked select, the log-sigmoid),
the callee's operations stand at the call site over that call's own buffers, which is what running the
call does. `main_part0_eq` says the window IS the straight line `seq ops_part0`, and
`ops_part0_sub` that every operation touches TensorCore references only. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 68 operations of window 0, in order. -/
abbrev ops_part0 : List (HloOp τ sig (Elt F)) :=
  [ binary main_arg0 main_arg1 main_v0 ((fun a b => concatenate S300000x64 0 [⟨S100000x64, a⟩, ⟨S200000x64, b⟩] concatenates_S100000x64_S200000x64_S300000x64_d0) : (⟨S100000x64, .f32⟩ : BufTy).Contents (Elt F) → (⟨S200000x64, .f32⟩ : BufTy).Contents (Elt F) → (⟨S300000x64, .f32⟩ : BufTy).Contents (Elt F)),
    unary main_arg4 main_v1 (broadcastInDim S2000000x1 ![0] bcast_S2000000_S2000000x1_0 : (⟨S2000000, .f32⟩ : BufTy).Contents (Elt F) → (⟨S2000000x1, .f32⟩ : BufTy).Contents (Elt F)),
    nullary main_c (constantI S_ 32 0#32),
    unary main_c main_v2 (broadcastInDim S2000000 ![] bcast_S_S2000000 : (⟨S_, .i32⟩ : BufTy).Contents (Elt F) → (⟨S2000000, .i32⟩ : BufTy).Contents (Elt F)),
    binary main_arg10 main_v2 main_v3 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 300000#32),
    unary main_c_0 main_v4 (broadcastInDim S2000000 ![] bcast_S_S2000000 : (⟨S_, .i32⟩ : BufTy).Contents (Elt F) → (⟨S2000000, .i32⟩ : BufTy).Contents (Elt F)),
    binary main_arg10 main_v4 main_v5 (addi : (⟨S2000000, .i32⟩ : BufTy).Contents (Elt F) → (⟨S2000000, .i32⟩ : BufTy).Contents (Elt F) → (⟨S2000000, .i32⟩ : BufTy).Contents (Elt F)),
    ternary main_v3 main_v5 main_arg10 main_v6 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v6 main_v7 (broadcastInDim S2000000x1 ![0] bcast_S2000000_S2000000x1_0 : (⟨S2000000, .i32⟩ : BufTy).Contents (Elt F) → (⟨S2000000x1, .i32⟩ : BufTy).Contents (Elt F)),
    binary main_v0 main_v7 main_v8 ((fun x i => Host.gather gather_S300000x64_S2000000x1_S2000000x64_1_0_n_n_0_1_164 x i) : (⟨S300000x64, .f32⟩ : BufTy).Contents (Elt F) → (⟨S2000000x1, .i32⟩ : BufTy).Contents (Elt F) → (⟨S2000000x64, .f32⟩ : BufTy).Contents (Elt F)),
    unary main_v1 main_v9 (broadcastInDim S2000000x64 ![0, 1] bcast_S2000000x1_S2000000x64_0_1 : (⟨S2000000x1, .f32⟩ : BufTy).Contents (Elt F) → (⟨S2000000x64, .f32⟩ : BufTy).Contents (Elt F)),
    binary main_v9 main_v8 main_v10 (mulf : (⟨S2000000x64, .f32⟩ : BufTy).Contents (Elt F) → (⟨S2000000x64, .f32⟩ : BufTy).Contents (Elt F) → (⟨S2000000x64, .f32⟩ : BufTy).Contents (Elt F)),
    nullary main_cst (constant S_ .f32 0x00000000#32),
    unary main_cst main_v11 (broadcastInDim S300000x64 ![] bcast_S_S300000x64 : (⟨S_, .f32⟩ : BufTy).Contents (Elt F) → (⟨S300000x64, .f32⟩ : BufTy).Contents (Elt F)),
    unary main_arg9 main_v12 (broadcastInDim S2000000x1 ![0] bcast_S2000000_S2000000x1_0 : (⟨S2000000, .i32⟩ : BufTy).Contents (Elt F) → (⟨S2000000x1, .i32⟩ : BufTy).Contents (Elt F)),
    ternary main_v11 main_v12 main_v10 main_v13 ((fun x i u => Host.scatterAdd scatter_S300000x64_S2000000x1_S2000000x64_1_0_0_1 x i u) : (⟨S300000x64, .f32⟩ : BufTy).Contents (Elt F) → (⟨S2000000x1, .i32⟩ : BufTy).Contents (Elt F) → (⟨S2000000x64, .f32⟩ : BufTy).Contents (Elt F) → (⟨S300000x64, .f32⟩ : BufTy).Contents (Elt F)),
    nullary main_cst_1 (constant S_ .f32 0x40000000#32),
    unary main_cst_1 main_v14 (broadcastInDim S300000x64 ![] bcast_S_S300000x64 : (⟨S_, .f32⟩ : BufTy).Contents (Elt F) → (⟨S300000x64, .f32⟩ : BufTy).Contents (Elt F)),
    binary main_v13 main_v14 main_v15 (Host.divf : (⟨S300000x64, .f32⟩ : BufTy).Contents (Elt F) → (⟨S300000x64, .f32⟩ : BufTy).Contents (Elt F) → (⟨S300000x64, .f32⟩ : BufTy).Contents (Elt F)),
    TRef.binary (.of main_v15) (.of main_v15) main_call0.v0 mulf,
    TRef.nullary main_call0.cst (constant S_ .f32 0x00000000#32),
    TRef.binary main_call0.v0 main_call0.cst main_call0.v1 (fun x v => Host.reduceAdd x v reducesTo_S300000x64_S300000_d1 h_S_),
    TRef.unary main_call0.v1 main_call0.v2 (broadcastInDim S300000x1 ![0] bcast_S300000_S300000x1_0),
    TRef.unary main_call0.v2 main_call0.v3 Host.sqrt,
    nullary main_cst_2 (constant S_ .f32 0x2B8CBCCC#32),
    unary main_cst_2 main_v17 (broadcastInDim S300000x1 ![] bcast_S_S300000x1 : (⟨S_, .f32⟩ : BufTy).Contents (Elt F) → (⟨S300000x1, .f32⟩ : BufTy).Contents (Elt F)),
    binary main_v16 main_v17 main_v18 (maximumf : (⟨S300000x1, .f32⟩ : BufTy).Contents (Elt F) → (⟨S300000x1, .f32⟩ : BufTy).Contents (Elt F) → (⟨S300000x1, .f32⟩ : BufTy).Contents (Elt F)),
    unary main_v18 main_v19 (broadcastInDim S300000x64 ![0, 1] bcast_S300000x1_S300000x64_0_1 : (⟨S300000x1, .f32⟩ : BufTy).Contents (Elt F) → (⟨S300000x64, .f32⟩ : BufTy).Contents (Elt F)),
    binary main_v15 main_v19 main_v20 (Host.divf : (⟨S300000x64, .f32⟩ : BufTy).Contents (Elt F) → (⟨S300000x64, .f32⟩ : BufTy).Contents (Elt F) → (⟨S300000x64, .f32⟩ : BufTy).Contents (Elt F)),
    binary main_v0 main_v20 main_v21 (addf : (⟨S300000x64, .f32⟩ : BufTy).Contents (Elt F) → (⟨S300000x64, .f32⟩ : BufTy).Contents (Elt F) → (⟨S300000x64, .f32⟩ : BufTy).Contents (Elt F)),
    unary main_arg4 main_v22 (broadcastInDim S2000000x1 ![0] bcast_S2000000_S2000000x1_0 : (⟨S2000000, .f32⟩ : BufTy).Contents (Elt F) → (⟨S2000000x1, .f32⟩ : BufTy).Contents (Elt F)),
    nullary main_c_3 (constantI S_ 32 0#32),
    unary main_c_3 main_v23 (broadcastInDim S2000000 ![] bcast_S_S2000000 : (⟨S_, .i32⟩ : BufTy).Contents (Elt F) → (⟨S2000000, .i32⟩ : BufTy).Contents (Elt F)),
    binary main_arg10 main_v23 main_v24 (cmpi .slt : (⟨S2000000, .i32⟩ : BufTy).Contents (Elt F) → (⟨S2000000, .i32⟩ : BufTy).Contents (Elt F) → (⟨S2000000, .i1⟩ : BufTy).Contents (Elt F)),
    nullary main_c_4 (constantI S_ 32 300000#32),
    unary main_c_4 main_v25 (broadcastInDim S2000000 ![] bcast_S_S2000000 : (⟨S_, .i32⟩ : BufTy).Contents (Elt F) → (⟨S2000000, .i32⟩ : BufTy).Contents (Elt F)),
    binary main_arg10 main_v25 main_v26 (addi : (⟨S2000000, .i32⟩ : BufTy).Contents (Elt F) → (⟨S2000000, .i32⟩ : BufTy).Contents (Elt F) → (⟨S2000000, .i32⟩ : BufTy).Contents (Elt F)),
    ternary main_v24 main_v26 main_arg10 main_v27 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v27 main_v28 (broadcastInDim S2000000x1 ![0] bcast_S2000000_S2000000x1_0 : (⟨S2000000, .i32⟩ : BufTy).Contents (Elt F) → (⟨S2000000x1, .i32⟩ : BufTy).Contents (Elt F)),
    binary main_v15 main_v28 main_v29 ((fun x i => Host.gather gather_S300000x64_S2000000x1_S2000000x64_1_0_n_n_0_1_164 x i) : (⟨S300000x64, .f32⟩ : BufTy).Contents (Elt F) → (⟨S2000000x1, .i32⟩ : BufTy).Contents (Elt F) → (⟨S2000000x64, .f32⟩ : BufTy).Contents (Elt F)),
    unary main_v22 main_v30 (broadcastInDim S2000000x64 ![0, 1] bcast_S2000000x1_S2000000x64_0_1 : (⟨S2000000x1, .f32⟩ : BufTy).Contents (Elt F) → (⟨S2000000x64, .f32⟩ : BufTy).Contents (Elt F)),
    binary main_v30 main_v29 main_v31 (mulf : (⟨S2000000x64, .f32⟩ : BufTy).Contents (Elt F) → (⟨S2000000x64, .f32⟩ : BufTy).Contents (Elt F) → (⟨S2000000x64, .f32⟩ : BufTy).Contents (Elt F)),
    nullary main_cst_5 (constant S_ .f32 0x00000000#32),
    unary main_cst_5 main_v32 (broadcastInDim S300000x64 ![] bcast_S_S300000x64 : (⟨S_, .f32⟩ : BufTy).Contents (Elt F) → (⟨S300000x64, .f32⟩ : BufTy).Contents (Elt F)),
    unary main_arg9 main_v33 (broadcastInDim S2000000x1 ![0] bcast_S2000000_S2000000x1_0 : (⟨S2000000, .i32⟩ : BufTy).Contents (Elt F) → (⟨S2000000x1, .i32⟩ : BufTy).Contents (Elt F)),
    ternary main_v32 main_v33 main_v31 main_v34 ((fun x i u => Host.scatterAdd scatter_S300000x64_S2000000x1_S2000000x64_1_0_0_1 x i u) : (⟨S300000x64, .f32⟩ : BufTy).Contents (Elt F) → (⟨S2000000x1, .i32⟩ : BufTy).Contents (Elt F) → (⟨S2000000x64, .f32⟩ : BufTy).Contents (Elt F) → (⟨S300000x64, .f32⟩ : BufTy).Contents (Elt F)),
    nullary main_cst_6 (constant S_ .f32 0x40400000#32),
    unary main_cst_6 main_v35 (broadcastInDim S300000x64 ![] bcast_S_S300000x64 : (⟨S_, .f32⟩ : BufTy).Contents (Elt F) → (⟨S300000x64, .f32⟩ : BufTy).Contents (Elt F)),
    binary main_v34 main_v35 main_v36 (Host.divf : (⟨S300000x64, .f32⟩ : BufTy).Contents (Elt F) → (⟨S300000x64, .f32⟩ : BufTy).Contents (Elt F) → (⟨S300000x64, .f32⟩ : BufTy).Contents (Elt F)),
    TRef.binary (.of main_v36) (.of main_v36) main_call1.v0 mulf,
    TRef.nullary main_call1.cst (constant S_ .f32 0x00000000#32),
    TRef.binary main_call1.v0 main_call1.cst main_call1.v1 (fun x v => Host.reduceAdd x v reducesTo_S300000x64_S300000_d1 h_S_),
    TRef.unary main_call1.v1 main_call1.v2 (broadcastInDim S300000x1 ![0] bcast_S300000_S300000x1_0),
    TRef.unary main_call1.v2 main_call1.v3 Host.sqrt,
    nullary main_cst_7 (constant S_ .f32 0x2B8CBCCC#32),
    unary main_cst_7 main_v38 (broadcastInDim S300000x1 ![] bcast_S_S300000x1 : (⟨S_, .f32⟩ : BufTy).Contents (Elt F) → (⟨S300000x1, .f32⟩ : BufTy).Contents (Elt F)),
    binary main_v37 main_v38 main_v39 (maximumf : (⟨S300000x1, .f32⟩ : BufTy).Contents (Elt F) → (⟨S300000x1, .f32⟩ : BufTy).Contents (Elt F) → (⟨S300000x1, .f32⟩ : BufTy).Contents (Elt F)),
    unary main_v39 main_v40 (broadcastInDim S300000x64 ![0, 1] bcast_S300000x1_S300000x64_0_1 : (⟨S300000x1, .f32⟩ : BufTy).Contents (Elt F) → (⟨S300000x64, .f32⟩ : BufTy).Contents (Elt F)),
    binary main_v36 main_v40 main_v41 (Host.divf : (⟨S300000x64, .f32⟩ : BufTy).Contents (Elt F) → (⟨S300000x64, .f32⟩ : BufTy).Contents (Elt F) → (⟨S300000x64, .f32⟩ : BufTy).Contents (Elt F)),
    binary main_v21 main_v41 main_v42 (addf : (⟨S300000x64, .f32⟩ : BufTy).Contents (Elt F) → (⟨S300000x64, .f32⟩ : BufTy).Contents (Elt F) → (⟨S300000x64, .f32⟩ : BufTy).Contents (Elt F)),
    unary main_v42 main_v43 ((extractStridedSlice S100000x64 ![0, 0] · slices_S300000x64_S100000x64_0_0) : (⟨S300000x64, .f32⟩ : BufTy).Contents (Elt F) → (⟨S100000x64, .f32⟩ : BufTy).Contents (Elt F)),
    unary main_v42 main_v44 ((extractStridedSlice S200000x64 ![100000, 0] · slices_S300000x64_S200000x64_100000_0) : (⟨S300000x64, .f32⟩ : BufTy).Contents (Elt F) → (⟨S200000x64, .f32⟩ : BufTy).Contents (Elt F)),
    binary main_arg0 main_arg2 main_v45 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    unary main_arg5 main_v46 (broadcastInDim S1000000x1 ![0] bcast_S1000000_S1000000x1_0 : (⟨S1000000, .f32⟩ : BufTy).Contents (Elt F) → (⟨S1000000x1, .f32⟩ : BufTy).Contents (Elt F)),
    nullary main_c_8 (constantI S_ 32 0#32),
    unary main_c_8 main_v47 (broadcastInDim S1000000 ![] bcast_S_S1000000 : (⟨S_, .i32⟩ : BufTy).Contents (Elt F) → (⟨S1000000, .i32⟩ : BufTy).Contents (Elt F)),
    binary main_arg12 main_v47 main_v48 (cmpi .slt : (⟨S1000000, .i32⟩ : BufTy).Contents (Elt F) → (⟨S1000000, .i32⟩ : BufTy).Contents (Elt F) → (⟨S1000000, .i1⟩ : BufTy).Contents (Elt F)) ]

set_option maxRecDepth 8192 in
set_option maxHeartbeats 4000000 in
/-- Window 0 is that straight line: each statement is one `hlo` step, and a call is its callee's steps. -/
theorem main_part0_eq (c : Dev nD) : main_part0 (F := F) c = seq ops_part0 := rfl

set_option maxRecDepth 8192 in
/-- Every operation of window 0 touches TensorCore references only. -/
theorem ops_part0_sub : (ops_part0 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., binary_bufs_sub .., unary_bufs_sub .., nullary_bufs_sub .., unary_bufs_sub .., binary_bufs_sub ..⟩

end Cert.ReferenceIdeal.Hand

end
-- ==== Proof.Ref.Ops1.lean ====
import proofs.«108982_j38147899523261_2_alg».proof.Proof.Gen.ReferenceIdeal
import Idealize.ShloMosaic.Lib.StableHlo.Run

/-! The reference program's statements 61 … 120 as a list of host operations.

`ops_part1` lists, in program order, the StableHLO operations that window 1 of the reference's
`@main` performs, each as the operation builder the program itself applies; where the program calls
one of its outlined functions (a row norm, the upper-triangle mask, a masked select, the log-sigmoid),
the callee's operations stand at the call site over that call's own buffers, which is what running the
call does. `main_part1_eq` says the window IS the straight line `seq ops_part1`, and
`ops_part1_sub` that every operation touches TensorCore references only. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 68 operations of window 1, in order. -/
abbrev ops_part1 : List (HloOp τ sig (Elt F)) :=
  [ nullary main_c_9 (constantI S_ 32 150000#32),
    unary main_c_9 main_v49 (broadcastInDim S1000000 ![] bcast_S_S1000000 : (⟨S_, .i32⟩ : BufTy).Contents (Elt F) → (⟨S1000000, .i32⟩ : BufTy).Contents (Elt F)),
    binary main_arg12 main_v49 main_v50 (addi : (⟨S1000000, .i32⟩ : BufTy).Contents (Elt F) → (⟨S1000000, .i32⟩ : BufTy).Contents (Elt F) → (⟨S1000000, .i32⟩ : BufTy).Contents (Elt F)),
    ternary main_v48 main_v50 main_arg12 main_v51 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v51 main_v52 (broadcastInDim S1000000x1 ![0] bcast_S1000000_S1000000x1_0 : (⟨S1000000, .i32⟩ : BufTy).Contents (Elt F) → (⟨S1000000x1, .i32⟩ : BufTy).Contents (Elt F)),
    binary main_v45 main_v52 main_v53 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v46 main_v54 (broadcastInDim S1000000x64 ![0, 1] bcast_S1000000x1_S1000000x64_0_1 : (⟨S1000000x1, .f32⟩ : BufTy).Contents (Elt F) → (⟨S1000000x64, .f32⟩ : BufTy).Contents (Elt F)),
    binary main_v54 main_v53 main_v55 (mulf : (⟨S1000000x64, .f32⟩ : BufTy).Contents (Elt F) → (⟨S1000000x64, .f32⟩ : BufTy).Contents (Elt F) → (⟨S1000000x64, .f32⟩ : BufTy).Contents (Elt F)),
    nullary main_cst_10 (constant S_ .f32 0x00000000#32),
    unary main_cst_10 main_v56 (broadcastInDim S150000x64 ![] bcast_S_S150000x64 : (⟨S_, .f32⟩ : BufTy).Contents (Elt F) → (⟨S150000x64, .f32⟩ : BufTy).Contents (Elt F)),
    unary main_arg11 main_v57 (broadcastInDim S1000000x1 ![0] bcast_S1000000_S1000000x1_0 : (⟨S1000000, .i32⟩ : BufTy).Contents (Elt F) → (⟨S1000000x1, .i32⟩ : BufTy).Contents (Elt F)),
    ternary main_v56 main_v57 main_v55 main_v58 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    nullary main_cst_11 (constant S_ .f32 0x40000000#32),
    unary main_cst_11 main_v59 (broadcastInDim S150000x64 ![] bcast_S_S150000x64 : (⟨S_, .f32⟩ : BufTy).Contents (Elt F) → (⟨S150000x64, .f32⟩ : BufTy).Contents (Elt F)),
    binary main_v58 main_v59 main_v60 (Host.divf : (⟨S150000x64, .f32⟩ : BufTy).Contents (Elt F) → (⟨S150000x64, .f32⟩ : BufTy).Contents (Elt F) → (⟨S150000x64, .f32⟩ : BufTy).Contents (Elt F)),
    TRef.binary (.of main_v60) (.of main_v60) main_call2.v0 mulf,
    TRef.nullary main_call2.cst (constant S_ .f32 0x00000000#32),
    TRef.binary main_call2.v0 main_call2.cst main_call2.v1 (fun x v => Host.reduceAdd x v reducesTo_S150000x64_S150000_d1 h_S_),
    TRef.unary main_call2.v1 main_call2.v2 (broadcastInDim S150000x1 ![0] bcast_S150000_S150000x1_0),
    TRef.unary main_call2.v2 main_call2.v3 Host.sqrt,
    nullary main_cst_12 (constant S_ .f32 0x2B8CBCCC#32),
    unary main_cst_12 main_v62 (broadcastInDim S150000x1 ![] bcast_S_S150000x1 : (⟨S_, .f32⟩ : BufTy).Contents (Elt F) → (⟨S150000x1, .f32⟩ : BufTy).Contents (Elt F)),
    binary main_v61 main_v62 main_v63 (maximumf : (⟨S150000x1, .f32⟩ : BufTy).Contents (Elt F) → (⟨S150000x1, .f32⟩ : BufTy).Contents (Elt F) → (⟨S150000x1, .f32⟩ : BufTy).Contents (Elt F)),
    unary main_v63 main_v64 (broadcastInDim S150000x64 ![0, 1] bcast_S150000x1_S150000x64_0_1 : (⟨S150000x1, .f32⟩ : BufTy).Contents (Elt F) → (⟨S150000x64, .f32⟩ : BufTy).Contents (Elt F)),
    binary main_v60 main_v64 main_v65 (Host.divf : (⟨S150000x64, .f32⟩ : BufTy).Contents (Elt F) → (⟨S150000x64, .f32⟩ : BufTy).Contents (Elt F) → (⟨S150000x64, .f32⟩ : BufTy).Contents (Elt F)),
    binary main_v45 main_v65 main_v66 (addf : (⟨S150000x64, .f32⟩ : BufTy).Contents (Elt F) → (⟨S150000x64, .f32⟩ : BufTy).Contents (Elt F) → (⟨S150000x64, .f32⟩ : BufTy).Contents (Elt F)),
    unary main_arg5 main_v67 (broadcastInDim S1000000x1 ![0] bcast_S1000000_S1000000x1_0 : (⟨S1000000, .f32⟩ : BufTy).Contents (Elt F) → (⟨S1000000x1, .f32⟩ : BufTy).Contents (Elt F)),
    nullary main_c_13 (constantI S_ 32 0#32),
    unary main_c_13 main_v68 (broadcastInDim S1000000 ![] bcast_S_S1000000 : (⟨S_, .i32⟩ : BufTy).Contents (Elt F) → (⟨S1000000, .i32⟩ : BufTy).Contents (Elt F)),
    binary main_arg12 main_v68 main_v69 (cmpi .slt : (⟨S1000000, .i32⟩ : BufTy).Contents (Elt F) → (⟨S1000000, .i32⟩ : BufTy).Contents (Elt F) → (⟨S1000000, .i1⟩ : BufTy).Contents (Elt F)),
    nullary main_c_14 (constantI S_ 32 150000#32),
    unary main_c_14 main_v70 (broadcastInDim S1000000 ![] bcast_S_S1000000 : (⟨S_, .i32⟩ : BufTy).Contents (Elt F) → (⟨S1000000, .i32⟩ : BufTy).Contents (Elt F)),
    binary main_arg12 main_v70 main_v71 (addi : (⟨S1000000, .i32⟩ : BufTy).Contents (Elt F) → (⟨S1000000, .i32⟩ : BufTy).Contents (Elt F) → (⟨S1000000, .i32⟩ : BufTy).Contents (Elt F)),
    ternary main_v69 main_v71 main_arg12 main_v72 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v72 main_v73 (broadcastInDim S1000000x1 ![0] bcast_S1000000_S1000000x1_0 : (⟨S1000000, .i32⟩ : BufTy).Contents (Elt F) → (⟨S1000000x1, .i32⟩ : BufTy).Contents (Elt F)),
    binary main_v60 main_v73 main_v74 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v67 main_v75 (broadcastInDim S1000000x64 ![0, 1] bcast_S1000000x1_S1000000x64_0_1 : (⟨S1000000x1, .f32⟩ : BufTy).Contents (Elt F) → (⟨S1000000x64, .f32⟩ : BufTy).Contents (Elt F)),
    binary main_v75 main_v74 main_v76 (mulf : (⟨S1000000x64, .f32⟩ : BufTy).Contents (Elt F) → (⟨S1000000x64, .f32⟩ : BufTy).Contents (Elt F) → (⟨S1000000x64, .f32⟩ : BufTy).Contents (Elt F)),
    nullary main_cst_15 (constant S_ .f32 0x00000000#32),
    unary main_cst_15 main_v77 (broadcastInDim S150000x64 ![] bcast_S_S150000x64 : (⟨S_, .f32⟩ : BufTy).Contents (Elt F) → (⟨S150000x64, .f32⟩ : BufTy).Contents (Elt F)),
    unary main_arg11 main_v78 (broadcastInDim S1000000x1 ![0] bcast_S1000000_S1000000x1_0 : (⟨S1000000, .i32⟩ : BufTy).Contents (Elt F) → (⟨S1000000x1, .i32⟩ : BufTy).Contents (Elt F)),
    ternary main_v77 main_v78 main_v76 main_v79 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    nullary main_cst_16 (constant S_ .f32 0x40400000#32),
    unary main_cst_16 main_v80 (broadcastInDim S150000x64 ![] bcast_S_S150000x64 : (⟨S_, .f32⟩ : BufTy).Contents (Elt F) → (⟨S150000x64, .f32⟩ : BufTy).Contents (Elt F)),
    binary main_v79 main_v80 main_v81 (Host.divf : (⟨S150000x64, .f32⟩ : BufTy).Contents (Elt F) → (⟨S150000x64, .f32⟩ : BufTy).Contents (Elt F) → (⟨S150000x64, .f32⟩ : BufTy).Contents (Elt F)),
    TRef.binary (.of main_v81) (.of main_v81) main_call3.v0 mulf,
    TRef.nullary main_call3.cst (constant S_ .f32 0x00000000#32),
    TRef.binary main_call3.v0 main_call3.cst main_call3.v1 (fun x v => Host.reduceAdd x v reducesTo_S150000x64_S150000_d1 h_S_),
    TRef.unary main_call3.v1 main_call3.v2 (broadcastInDim S150000x1 ![0] bcast_S150000_S150000x1_0),
    TRef.unary main_call3.v2 main_call3.v3 Host.sqrt,
    nullary main_cst_17 (constant S_ .f32 0x2B8CBCCC#32),
    unary main_cst_17 main_v83 (broadcastInDim S150000x1 ![] bcast_S_S150000x1 : (⟨S_, .f32⟩ : BufTy).Contents (Elt F) → (⟨S150000x1, .f32⟩ : BufTy).Contents (Elt F)),
    binary main_v82 main_v83 main_v84 (maximumf : (⟨S150000x1, .f32⟩ : BufTy).Contents (Elt F) → (⟨S150000x1, .f32⟩ : BufTy).Contents (Elt F) → (⟨S150000x1, .f32⟩ : BufTy).Contents (Elt F)),
    unary main_v84 main_v85 (broadcastInDim S150000x64 ![0, 1] bcast_S150000x1_S150000x64_0_1 : (⟨S150000x1, .f32⟩ : BufTy).Contents (Elt F) → (⟨S150000x64, .f32⟩ : BufTy).Contents (Elt F)),
    binary main_v81 main_v85 main_v86 (Host.divf : (⟨S150000x64, .f32⟩ : BufTy).Contents (Elt F) → (⟨S150000x64, .f32⟩ : BufTy).Contents (Elt F) → (⟨S150000x64, .f32⟩ : BufTy).Contents (Elt F)),
    binary main_v66 main_v86 main_v87 (addf : (⟨S150000x64, .f32⟩ : BufTy).Contents (Elt F) → (⟨S150000x64, .f32⟩ : BufTy).Contents (Elt F) → (⟨S150000x64, .f32⟩ : BufTy).Contents (Elt F)),
    unary main_v87 main_v88 ((extractStridedSlice S100000x64 ![0, 0] · slices_S150000x64_S100000x64_0_0) : (⟨S150000x64, .f32⟩ : BufTy).Contents (Elt F) → (⟨S100000x64, .f32⟩ : BufTy).Contents (Elt F)),
    unary main_v87 main_v89 ((extractStridedSlice S50000x64 ![100000, 0] · slices_S150000x64_S50000x64_100000_0) : (⟨S150000x64, .f32⟩ : BufTy).Contents (Elt F) → (⟨S50000x64, .f32⟩ : BufTy).Contents (Elt F)),
    unary main_arg6 main_v90 (broadcastInDim S1000000x1 ![0] bcast_S1000000_S1000000x1_0 : (⟨S1000000, .f32⟩ : BufTy).Contents (Elt F) → (⟨S1000000x1, .f32⟩ : BufTy).Contents (Elt F)),
    nullary main_c_18 (constantI S_ 32 0#32),
    unary main_c_18 main_v91 (broadcastInDim S1000000 ![] bcast_S_S1000000 : (⟨S_, .i32⟩ : BufTy).Contents (Elt F) → (⟨S1000000, .i32⟩ : BufTy).Contents (Elt F)),
    binary main_arg14 main_v91 main_v92 (cmpi .slt : (⟨S1000000, .i32⟩ : BufTy).Contents (Elt F) → (⟨S1000000, .i32⟩ : BufTy).Contents (Elt F) → (⟨S1000000, .i1⟩ : BufTy).Contents (Elt F)),
    nullary main_c_19 (constantI S_ 32 200000#32),
    unary main_c_19 main_v93 (broadcastInDim S1000000 ![] bcast_S_S1000000 : (⟨S_, .i32⟩ : BufTy).Contents (Elt F) → (⟨S1000000, .i32⟩ : BufTy).Contents (Elt F)),
    binary main_arg14 main_v93 main_v94 (addi : (⟨S1000000, .i32⟩ : BufTy).Contents (Elt F) → (⟨S1000000, .i32⟩ : BufTy).Contents (Elt F) → (⟨S1000000, .i32⟩ : BufTy).Contents (Elt F)),
    ternary main_v92 main_v94 main_arg14 main_v95 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v95 main_v96 (broadcastInDim S1000000x1 ![0] bcast_S1000000_S1000000x1_0 : (⟨S1000000, .i32⟩ : BufTy).Contents (Elt F) → (⟨S1000000x1, .i32⟩ : BufTy).Contents (Elt F)),
    binary main_v44 main_v96 main_v97 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)) ]

set_option maxRecDepth 8192 in
set_option maxHeartbeats 4000000 in
/-- Window 1 is that straight line: each statement is one `hlo` step, and a call is its callee's steps. -/
theorem main_part1_eq (c : Dev nD) : main_part1 (F := F) c = seq ops_part1 := rfl

set_option maxRecDepth 8192 in
/-- Every operation of window 1 touches TensorCore references only. -/
theorem ops_part1_sub : (ops_part1 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

end Cert.ReferenceIdeal.Hand

end
-- ==== Proof.Ref.Ops2.lean ====
import proofs.«108982_j38147899523261_2_alg».proof.Proof.Gen.ReferenceIdeal
import Idealize.ShloMosaic.Lib.StableHlo.Run

/-! The reference program's statements 121 … 180 as a list of host operations.

`ops_part2` lists, in program order, the StableHLO operations that window 2 of the reference's
`@main` performs, each as the operation builder the program itself applies; where the program calls
one of its outlined functions (a row norm, the upper-triangle mask, a masked select, the log-sigmoid),
the callee's operations stand at the call site over that call's own buffers, which is what running the
call does. `main_part2_eq` says the window IS the straight line `seq ops_part2`, and
`ops_part2_sub` that every operation touches TensorCore references only. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 75 operations of window 2, in order. -/
abbrev ops_part2 : List (HloOp τ sig (Elt F)) :=
  [ unary main_v90 main_v98 (broadcastInDim S1000000x64 ![0, 1] bcast_S1000000x1_S1000000x64_0_1 : (⟨S1000000x1, .f32⟩ : BufTy).Contents (Elt F) → (⟨S1000000x64, .f32⟩ : BufTy).Contents (Elt F)),
    binary main_v98 main_v97 main_v99 (mulf : (⟨S1000000x64, .f32⟩ : BufTy).Contents (Elt F) → (⟨S1000000x64, .f32⟩ : BufTy).Contents (Elt F) → (⟨S1000000x64, .f32⟩ : BufTy).Contents (Elt F)),
    nullary main_cst_20 (constant S_ .f32 0x00000000#32),
    unary main_cst_20 main_v100 (broadcastInDim S50000x64 ![] bcast_S_S50000x64 : (⟨S_, .f32⟩ : BufTy).Contents (Elt F) → (⟨S50000x64, .f32⟩ : BufTy).Contents (Elt F)),
    unary main_arg13 main_v101 (broadcastInDim S1000000x1 ![0] bcast_S1000000_S1000000x1_0 : (⟨S1000000, .i32⟩ : BufTy).Contents (Elt F) → (⟨S1000000x1, .i32⟩ : BufTy).Contents (Elt F)),
    ternary main_v100 main_v101 main_v99 main_v102 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    nullary main_c_21 (constantI S_ 32 0#32),
    unary main_c_21 main_v103 (broadcastInDim S2048x2 ![] bcast_S_S2048x2 : (⟨S_, .i32⟩ : BufTy).Contents (Elt F) → (⟨S2048x2, .i32⟩ : BufTy).Contents (Elt F)),
    binary main_arg8 main_v103 main_v104 (cmpi .slt : (⟨S2048x2, .i32⟩ : BufTy).Contents (Elt F) → (⟨S2048x2, .i32⟩ : BufTy).Contents (Elt F) → (⟨S2048x2, .i1⟩ : BufTy).Contents (Elt F)),
    nullary main_c_22 (constantI S_ 32 50000#32),
    unary main_c_22 main_v105 (broadcastInDim S2048x2 ![] bcast_S_S2048x2 : (⟨S_, .i32⟩ : BufTy).Contents (Elt F) → (⟨S2048x2, .i32⟩ : BufTy).Contents (Elt F)),
    binary main_arg8 main_v105 main_v106 (addi : (⟨S2048x2, .i32⟩ : BufTy).Contents (Elt F) → (⟨S2048x2, .i32⟩ : BufTy).Contents (Elt F) → (⟨S2048x2, .i32⟩ : BufTy).Contents (Elt F)),
    ternary main_v104 main_v106 main_arg8 main_v107 (select : (⟨S2048x2, .i1⟩ : BufTy).Contents (Elt F) → (⟨S2048x2, .i32⟩ : BufTy).Contents (Elt F) → (⟨S2048x2, .i32⟩ : BufTy).Contents (Elt F) → (⟨S2048x2, .i32⟩ : BufTy).Contents (Elt F)),
    unary main_v107 main_v108 (broadcastInDim S2048x2x1 ![0, 1] bcast_S2048x2_S2048x2x1_0_1 : (⟨S2048x2, .i32⟩ : BufTy).Contents (Elt F) → (⟨S2048x2x1, .i32⟩ : BufTy).Contents (Elt F)),
    binary main_v102 main_v108 main_v109 ((fun x i => Host.gather gather_S50000x64_S2048x2x1_S2048x2x64_2_0_n_n_0_2_164 x i) : (⟨S50000x64, .f32⟩ : BufTy).Contents (Elt F) → (⟨S2048x2x1, .i32⟩ : BufTy).Contents (Elt F) → (⟨S2048x2x64, .f32⟩ : BufTy).Contents (Elt F)),
    nullary main_c_23 (constantI S_ 32 0#32),
    unary main_c_23 main_v110 (broadcastInDim S2048x2 ![] bcast_S_S2048x2 : (⟨S_, .i32⟩ : BufTy).Contents (Elt F) → (⟨S2048x2, .i32⟩ : BufTy).Contents (Elt F)),
    binary main_arg8 main_v110 main_v111 (cmpi .slt : (⟨S2048x2, .i32⟩ : BufTy).Contents (Elt F) → (⟨S2048x2, .i32⟩ : BufTy).Contents (Elt F) → (⟨S2048x2, .i1⟩ : BufTy).Contents (Elt F)),
    nullary main_c_24 (constantI S_ 32 50000#32),
    unary main_c_24 main_v112 (broadcastInDim S2048x2 ![] bcast_S_S2048x2 : (⟨S_, .i32⟩ : BufTy).Contents (Elt F) → (⟨S2048x2, .i32⟩ : BufTy).Contents (Elt F)),
    binary main_arg8 main_v112 main_v113 (addi : (⟨S2048x2, .i32⟩ : BufTy).Contents (Elt F) → (⟨S2048x2, .i32⟩ : BufTy).Contents (Elt F) → (⟨S2048x2, .i32⟩ : BufTy).Contents (Elt F)),
    ternary main_v111 main_v113 main_arg8 main_v114 (select : (⟨S2048x2, .i1⟩ : BufTy).Contents (Elt F) → (⟨S2048x2, .i32⟩ : BufTy).Contents (Elt F) → (⟨S2048x2, .i32⟩ : BufTy).Contents (Elt F) → (⟨S2048x2, .i32⟩ : BufTy).Contents (Elt F)),
    unary main_v114 main_v115 (broadcastInDim S2048x2x1 ![0, 1] bcast_S2048x2_S2048x2x1_0_1 : (⟨S2048x2, .i32⟩ : BufTy).Contents (Elt F) → (⟨S2048x2x1, .i32⟩ : BufTy).Contents (Elt F)),
    binary main_v89 main_v115 main_v116 ((fun x i => Host.gather gather_S50000x64_S2048x2x1_S2048x2x64_2_0_n_n_0_2_164 x i) : (⟨S50000x64, .f32⟩ : BufTy).Contents (Elt F) → (⟨S2048x2x1, .i32⟩ : BufTy).Contents (Elt F) → (⟨S2048x2x64, .f32⟩ : BufTy).Contents (Elt F)),
    nullary main_cst_25 (constant S_ .f32 0x3F800000#32),
    unary main_cst_25 main_v117 (broadcastInDim S50000 ![] bcast_S_S50000 : (⟨S_, .f32⟩ : BufTy).Contents (Elt F) → (⟨S50000, .f32⟩ : BufTy).Contents (Elt F)),
    binary main_arg3 main_v117 main_v118 (Host.divf : (⟨S50000, .f32⟩ : BufTy).Contents (Elt F) → (⟨S50000, .f32⟩ : BufTy).Contents (Elt F) → (⟨S50000, .f32⟩ : BufTy).Contents (Elt F)),
    unary main_v118 main_v119 (Host.tanh : (⟨S50000, .f32⟩ : BufTy).Contents (Elt F) → (⟨S50000, .f32⟩ : BufTy).Contents (Elt F)),
    nullary main_c_26 (constantI S_ 32 0#32),
    unary main_c_26 main_v120 (broadcastInDim S2048x2 ![] bcast_S_S2048x2 : (⟨S_, .i32⟩ : BufTy).Contents (Elt F) → (⟨S2048x2, .i32⟩ : BufTy).Contents (Elt F)),
    binary main_arg8 main_v120 main_v121 (cmpi .slt : (⟨S2048x2, .i32⟩ : BufTy).Contents (Elt F) → (⟨S2048x2, .i32⟩ : BufTy).Contents (Elt F) → (⟨S2048x2, .i1⟩ : BufTy).Contents (Elt F)),
    nullary main_c_27 (constantI S_ 32 50000#32),
    unary main_c_27 main_v122 (broadcastInDim S2048x2 ![] bcast_S_S2048x2 : (⟨S_, .i32⟩ : BufTy).Contents (Elt F) → (⟨S2048x2, .i32⟩ : BufTy).Contents (Elt F)),
    binary main_arg8 main_v122 main_v123 (addi : (⟨S2048x2, .i32⟩ : BufTy).Contents (Elt F) → (⟨S2048x2, .i32⟩ : BufTy).Contents (Elt F) → (⟨S2048x2, .i32⟩ : BufTy).Contents (Elt F)),
    ternary main_v121 main_v123 main_arg8 main_v124 (select : (⟨S2048x2, .i1⟩ : BufTy).Contents (Elt F) → (⟨S2048x2, .i32⟩ : BufTy).Contents (Elt F) → (⟨S2048x2, .i32⟩ : BufTy).Contents (Elt F) → (⟨S2048x2, .i32⟩ : BufTy).Contents (Elt F)),
    unary main_v124 main_v125 (broadcastInDim S2048x2x1 ![0, 1] bcast_S2048x2_S2048x2x1_0_1 : (⟨S2048x2, .i32⟩ : BufTy).Contents (Elt F) → (⟨S2048x2x1, .i32⟩ : BufTy).Contents (Elt F)),
    binary main_v119 main_v125 main_v126 ((fun x i => Host.gather gather_S50000_S2048x2x1_S2048x2_n_0_n_n_0_2_1 x i) : (⟨S50000, .f32⟩ : BufTy).Contents (Elt F) → (⟨S2048x2x1, .i32⟩ : BufTy).Contents (Elt F) → (⟨S2048x2, .f32⟩ : BufTy).Contents (Elt F)),
    nullary main_cst_28 (constant S_ .f32 0x3F800000#32),
    unary main_cst_28 main_v127 (broadcastInDim S2048x2 ![] bcast_S_S2048x2 : (⟨S_, .f32⟩ : BufTy).Contents (Elt F) → (⟨S2048x2, .f32⟩ : BufTy).Contents (Elt F)),
    binary main_v127 main_v126 main_v128 (subf : (⟨S2048x2, .f32⟩ : BufTy).Contents (Elt F) → (⟨S2048x2, .f32⟩ : BufTy).Contents (Elt F) → (⟨S2048x2, .f32⟩ : BufTy).Contents (Elt F)),
    unary main_v128 main_v129 (broadcastInDim S2048x2x1 ![0, 1] bcast_S2048x2_S2048x2x1_0_1 : (⟨S2048x2, .f32⟩ : BufTy).Contents (Elt F) → (⟨S2048x2x1, .f32⟩ : BufTy).Contents (Elt F)),
    unary main_v129 main_v130 (broadcastInDim S2048x2x64 ![0, 1, 2] bcast_S2048x2x1_S2048x2x64_0_1_2 : (⟨S2048x2x1, .f32⟩ : BufTy).Contents (Elt F) → (⟨S2048x2x64, .f32⟩ : BufTy).Contents (Elt F)),
    binary main_v109 main_v130 main_v131 (mulf : (⟨S2048x2x64, .f32⟩ : BufTy).Contents (Elt F) → (⟨S2048x2x64, .f32⟩ : BufTy).Contents (Elt F) → (⟨S2048x2x64, .f32⟩ : BufTy).Contents (Elt F)),
    binary main_v109 main_v131 main_v132 (mulf : (⟨S2048x2x64, .f32⟩ : BufTy).Contents (Elt F) → (⟨S2048x2x64, .f32⟩ : BufTy).Contents (Elt F) → (⟨S2048x2x64, .f32⟩ : BufTy).Contents (Elt F)),
    nullary main_cst_29 (constant S_ .f32 0x00000000#32),
    binary main_v132 main_cst_29 main_v133 ((fun x v => Host.reduceAdd x v reducesTo_S2048x2x64_S2048x2_d2 h_S_) : (⟨S2048x2x64, .f32⟩ : BufTy).Contents (Elt F) → (⟨S_, .f32⟩ : BufTy).Contents (Elt F) → (⟨S2048x2, .f32⟩ : BufTy).Contents (Elt F)),
    unary main_v126 main_v134 (broadcastInDim S2048x2x1 ![0, 1] bcast_S2048x2_S2048x2x1_0_1 : (⟨S2048x2, .f32⟩ : BufTy).Contents (Elt F) → (⟨S2048x2x1, .f32⟩ : BufTy).Contents (Elt F)),
    unary main_v134 main_v135 (broadcastInDim S2048x2x64 ![0, 1, 2] bcast_S2048x2x1_S2048x2x64_0_1_2 : (⟨S2048x2x1, .f32⟩ : BufTy).Contents (Elt F) → (⟨S2048x2x64, .f32⟩ : BufTy).Contents (Elt F)),
    binary main_v116 main_v135 main_v136 (mulf : (⟨S2048x2x64, .f32⟩ : BufTy).Contents (Elt F) → (⟨S2048x2x64, .f32⟩ : BufTy).Contents (Elt F) → (⟨S2048x2x64, .f32⟩ : BufTy).Contents (Elt F)),
    binary main_v116 main_v136 main_v137 (mulf : (⟨S2048x2x64, .f32⟩ : BufTy).Contents (Elt F) → (⟨S2048x2x64, .f32⟩ : BufTy).Contents (Elt F) → (⟨S2048x2x64, .f32⟩ : BufTy).Contents (Elt F)),
    nullary main_cst_30 (constant S_ .f32 0x00000000#32),
    binary main_v137 main_cst_30 main_v138 ((fun x v => Host.reduceAdd x v reducesTo_S2048x2x64_S2048x2_d2 h_S_) : (⟨S2048x2x64, .f32⟩ : BufTy).Contents (Elt F) → (⟨S_, .f32⟩ : BufTy).Contents (Elt F) → (⟨S2048x2, .f32⟩ : BufTy).Contents (Elt F)),
    binary main_v133 main_v138 main_v139 (addf : (⟨S2048x2, .f32⟩ : BufTy).Contents (Elt F) → (⟨S2048x2, .f32⟩ : BufTy).Contents (Elt F) → (⟨S2048x2, .f32⟩ : BufTy).Contents (Elt F)),
    unary main_v139 main_v140 ((extractStridedSlice S2048x1 ![0, 0] · slices_S2048x2_S2048x1_0_0) : (⟨S2048x2, .f32⟩ : BufTy).Contents (Elt F) → (⟨S2048x1, .f32⟩ : BufTy).Contents (Elt F)),
    reshape main_v140 main_v141 rfl shapeCasts_S2048x1_S2048,
    unary main_v139 main_v142 ((extractStridedSlice S2048x1 ![0, 1] · slices_S2048x2_S2048x1_0_1) : (⟨S2048x2, .f32⟩ : BufTy).Contents (Elt F) → (⟨S2048x1, .f32⟩ : BufTy).Contents (Elt F)),
    reshape main_v142 main_v143 rfl shapeCasts_S2048x1_S2048,
    binary main_v141 main_v143 main_v144 (subf : (⟨S2048, .f32⟩ : BufTy).Contents (Elt F) → (⟨S2048, .f32⟩ : BufTy).Contents (Elt F) → (⟨S2048, .f32⟩ : BufTy).Contents (Elt F)),
    TRef.unary (.of main_v144) main_call4.v0 Host.negf,
    TRef.nullary main_call4.call0.cst (constant S_ .f32 0x00000000#32),
    TRef.unary main_call4.call0.cst main_call4.call0.v0 (broadcastInDim S2048 ![] bcast_S_S2048),
    TRef.binary main_call4.v0 main_call4.call0.v0 main_call4.call0.v1 maximumf,
    TRef.unary main_call4.call0.cst main_call4.call0.v2 (broadcastInDim S2048 ![] bcast_S_S2048),
    TRef.binary main_call4.v0 main_call4.call0.v2 main_call4.call0.v3 subf,
    TRef.binary main_call4.call0.v3 main_call4.call0.v3 main_call4.call0.v4 (cmpf .une),
    TRef.unary main_call4.call0.cst main_call4.call0.v5 (broadcastInDim S2048 ![] bcast_S_S2048),
    TRef.binary main_call4.v0 main_call4.call0.v5 main_call4.call0.v6 addf,
    TRef.unary main_call4.call0.v3 main_call4.call0.v7 Host.absf,
    TRef.unary main_call4.call0.v7 main_call4.call0.v8 Host.negf,
    TRef.unary main_call4.call0.v8 main_call4.call0.v9 Host.exp,
    TRef.unary main_call4.call0.v9 main_call4.call0.v10 Host.log1p,
    TRef.binary main_call4.call0.v1 main_call4.call0.v10 main_call4.call0.v11 addf,
    TRef.ternary main_call4.call0.v4 main_call4.call0.v6 main_call4.call0.v11 main_call4.call0.v12 select,
    TRef.unary main_call4.call0.v12 main_call4.v2 Host.negf,
    nullary main_cst_31 (constant S_ .f32 0x00000000#32) ]

set_option maxRecDepth 8192 in
set_option maxHeartbeats 4000000 in
/-- Window 2 is that straight line: each statement is one `hlo` step, and a call is its callee's steps. -/
theorem main_part2_eq (c : Dev nD) : main_part2 (F := F) c = seq ops_part2 := rfl

set_option maxRecDepth 8192 in
/-- Every operation of window 2 touches TensorCore references only. -/
theorem ops_part2_sub : (ops_part2 : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., nullary_bufs_sub .., binary_bufs_sub .., binary_bufs_sub .., unary_bufs_sub .., reshape_bufs_sub .., unary_bufs_sub .., reshape_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub ..⟩

end Cert.ReferenceIdeal.Hand

end
-- ==== Proof.Ref.Ops3.lean ====
import proofs.«108982_j38147899523261_2_alg».proof.Proof.Gen.ReferenceIdeal
import Idealize.ShloMosaic.Lib.StableHlo.Run

/-! The reference program's statements 181 … 240 as a list of host operations.

`ops_part3` lists, in program order, the StableHLO operations that window 3 of the reference's
`@main` performs, each as the operation builder the program itself applies; where the program calls
one of its outlined functions (a row norm, the upper-triangle mask, a masked select, the log-sigmoid),
the callee's operations stand at the call site over that call's own buffers, which is what running the
call does. `main_part3_eq` says the window IS the straight line `seq ops_part3`, and
`ops_part3_sub` that every operation touches TensorCore references only. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 82 operations of window 3, in order. -/
abbrev ops_part3 : List (HloOp τ sig (Elt F)) :=
  [ binary main_v145 main_cst_31 main_v146 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_32 (constant S_ .f32 0x45000000#32),
    binary main_v146 main_cst_32 main_v147 (Host.divf : (⟨S_, .f32⟩ : BufTy).Contents (Elt F) → (⟨S_, .f32⟩ : BufTy).Contents (Elt F) → (⟨S_, .f32⟩ : BufTy).Contents (Elt F)),
    unary main_v147 main_v148 (Host.negf : (⟨S_, .f32⟩ : BufTy).Contents (Elt F) → (⟨S_, .f32⟩ : BufTy).Contents (Elt F)),
    unary main_v109 main_v149 ((extractStridedSlice S2048x1x64 ![0, 0, 0] · slices_S2048x2x64_S2048x1x64_0_0_0) : (⟨S2048x2x64, .f32⟩ : BufTy).Contents (Elt F) → (⟨S2048x1x64, .f32⟩ : BufTy).Contents (Elt F)),
    reshape main_v149 main_v150 rfl shapeCasts_S2048x1x64_S2048x64,
    unary main_v116 main_v151 ((extractStridedSlice S2048x1x64 ![0, 0, 0] · slices_S2048x2x64_S2048x1x64_0_0_0) : (⟨S2048x2x64, .f32⟩ : BufTy).Contents (Elt F) → (⟨S2048x1x64, .f32⟩ : BufTy).Contents (Elt F)),
    reshape main_v151 main_v152 rfl shapeCasts_S2048x1x64_S2048x64,
    TRef.binary (.of main_v150) (.of main_v150) main_call5.v0 mulf,
    TRef.nullary main_call5.cst (constant S_ .f32 0x00000000#32),
    TRef.binary main_call5.v0 main_call5.cst main_call5.v1 (fun x v => Host.reduceAdd x v reducesTo_S2048x64_S2048_d1 h_S_),
    TRef.unary main_call5.v1 main_call5.v2 (broadcastInDim S2048x1 ![0] bcast_S2048_S2048x1_0),
    TRef.unary main_call5.v2 main_call5.v3 Host.sqrt,
    nullary main_cst_33 (constant S_ .f32 0x2B8CBCCC#32),
    unary main_cst_33 main_v154 (broadcastInDim S2048x1 ![] bcast_S_S2048x1 : (⟨S_, .f32⟩ : BufTy).Contents (Elt F) → (⟨S2048x1, .f32⟩ : BufTy).Contents (Elt F)),
    binary main_v153 main_v154 main_v155 (maximumf : (⟨S2048x1, .f32⟩ : BufTy).Contents (Elt F) → (⟨S2048x1, .f32⟩ : BufTy).Contents (Elt F) → (⟨S2048x1, .f32⟩ : BufTy).Contents (Elt F)),
    unary main_v155 main_v156 (broadcastInDim S2048x64 ![0, 1] bcast_S2048x1_S2048x64_0_1 : (⟨S2048x1, .f32⟩ : BufTy).Contents (Elt F) → (⟨S2048x64, .f32⟩ : BufTy).Contents (Elt F)),
    binary main_v150 main_v156 main_v157 (Host.divf : (⟨S2048x64, .f32⟩ : BufTy).Contents (Elt F) → (⟨S2048x64, .f32⟩ : BufTy).Contents (Elt F) → (⟨S2048x64, .f32⟩ : BufTy).Contents (Elt F)),
    TRef.binary (.of main_v152) (.of main_v152) main_call6.v0 mulf,
    TRef.nullary main_call6.cst (constant S_ .f32 0x00000000#32),
    TRef.binary main_call6.v0 main_call6.cst main_call6.v1 (fun x v => Host.reduceAdd x v reducesTo_S2048x64_S2048_d1 h_S_),
    TRef.unary main_call6.v1 main_call6.v2 (broadcastInDim S2048x1 ![0] bcast_S2048_S2048x1_0),
    TRef.unary main_call6.v2 main_call6.v3 Host.sqrt,
    nullary main_cst_34 (constant S_ .f32 0x2B8CBCCC#32),
    unary main_cst_34 main_v159 (broadcastInDim S2048x1 ![] bcast_S_S2048x1 : (⟨S_, .f32⟩ : BufTy).Contents (Elt F) → (⟨S2048x1, .f32⟩ : BufTy).Contents (Elt F)),
    binary main_v158 main_v159 main_v160 (maximumf : (⟨S2048x1, .f32⟩ : BufTy).Contents (Elt F) → (⟨S2048x1, .f32⟩ : BufTy).Contents (Elt F) → (⟨S2048x1, .f32⟩ : BufTy).Contents (Elt F)),
    unary main_v160 main_v161 (broadcastInDim S2048x64 ![0, 1] bcast_S2048x1_S2048x64_0_1 : (⟨S2048x1, .f32⟩ : BufTy).Contents (Elt F) → (⟨S2048x64, .f32⟩ : BufTy).Contents (Elt F)),
    binary main_v152 main_v161 main_v162 (Host.divf : (⟨S2048x64, .f32⟩ : BufTy).Contents (Elt F) → (⟨S2048x64, .f32⟩ : BufTy).Contents (Elt F) → (⟨S2048x64, .f32⟩ : BufTy).Contents (Elt F)),
    binary main_v157 main_v162 main_v163 (subf : (⟨S2048x64, .f32⟩ : BufTy).Contents (Elt F) → (⟨S2048x64, .f32⟩ : BufTy).Contents (Elt F) → (⟨S2048x64, .f32⟩ : BufTy).Contents (Elt F)),
    binary main_v163 main_v163 main_v164 (mulf : (⟨S2048x64, .f32⟩ : BufTy).Contents (Elt F) → (⟨S2048x64, .f32⟩ : BufTy).Contents (Elt F) → (⟨S2048x64, .f32⟩ : BufTy).Contents (Elt F)),
    nullary main_cst_35 (constant S_ .f32 0x00000000#32),
    binary main_v164 main_cst_35 main_v165 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    nullary main_cst_36 (constant S_ .f32 0x00000000#32),
    binary main_v165 main_cst_36 main_v166 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_37 (constant S_ .f32 0x45000000#32),
    binary main_v166 main_cst_37 main_v167 (Host.divf : (⟨S_, .f32⟩ : BufTy).Contents (Elt F) → (⟨S_, .f32⟩ : BufTy).Contents (Elt F) → (⟨S_, .f32⟩ : BufTy).Contents (Elt F)),
    TRef.binary (.of main_v150) (.of main_v150) main_call7.v0 mulf,
    TRef.nullary main_call7.cst (constant S_ .f32 0x00000000#32),
    TRef.binary main_call7.v0 main_call7.cst main_call7.v1 (fun x v => Host.reduceAdd x v reducesTo_S2048x64_S2048_d1 h_S_),
    TRef.unary main_call7.v1 main_call7.v2 (broadcastInDim S2048x1 ![0] bcast_S2048_S2048x1_0),
    TRef.unary main_call7.v2 main_call7.v3 Host.sqrt,
    nullary main_cst_38 (constant S_ .f32 0x2B8CBCCC#32),
    unary main_cst_38 main_v169 (broadcastInDim S2048x1 ![] bcast_S_S2048x1 : (⟨S_, .f32⟩ : BufTy).Contents (Elt F) → (⟨S2048x1, .f32⟩ : BufTy).Contents (Elt F)),
    binary main_v168 main_v169 main_v170 (maximumf : (⟨S2048x1, .f32⟩ : BufTy).Contents (Elt F) → (⟨S2048x1, .f32⟩ : BufTy).Contents (Elt F) → (⟨S2048x1, .f32⟩ : BufTy).Contents (Elt F)),
    unary main_v170 main_v171 (broadcastInDim S2048x64 ![0, 1] bcast_S2048x1_S2048x64_0_1 : (⟨S2048x1, .f32⟩ : BufTy).Contents (Elt F) → (⟨S2048x64, .f32⟩ : BufTy).Contents (Elt F)),
    binary main_v150 main_v171 main_v172 (Host.divf : (⟨S2048x64, .f32⟩ : BufTy).Contents (Elt F) → (⟨S2048x64, .f32⟩ : BufTy).Contents (Elt F) → (⟨S2048x64, .f32⟩ : BufTy).Contents (Elt F)),
    binary main_v172 main_v172 main_v173 (mulf : (⟨S2048x64, .f32⟩ : BufTy).Contents (Elt F) → (⟨S2048x64, .f32⟩ : BufTy).Contents (Elt F) → (⟨S2048x64, .f32⟩ : BufTy).Contents (Elt F)),
    nullary main_cst_39 (constant S_ .f32 0x00000000#32),
    binary main_v173 main_cst_39 main_v174 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v174 main_v175 (broadcastInDim S2048x1 ![0] bcast_S2048_S2048x1_0 : (⟨S2048, .f32⟩ : BufTy).Contents (Elt F) → (⟨S2048x1, .f32⟩ : BufTy).Contents (Elt F)),
    unary main_v174 main_v176 (broadcastInDim S1x2048 ![1] bcast_S2048_S1x2048_1 : (⟨S2048, .f32⟩ : BufTy).Contents (Elt F) → (⟨S1x2048, .f32⟩ : BufTy).Contents (Elt F)),
    unary main_v175 main_v177 (broadcastInDim S2048x2048 ![0, 1] bcast_S2048x1_S2048x2048_0_1 : (⟨S2048x1, .f32⟩ : BufTy).Contents (Elt F) → (⟨S2048x2048, .f32⟩ : BufTy).Contents (Elt F)),
    unary main_v176 main_v178 (broadcastInDim S2048x2048 ![0, 1] bcast_S1x2048_S2048x2048_0_1 : (⟨S1x2048, .f32⟩ : BufTy).Contents (Elt F) → (⟨S2048x2048, .f32⟩ : BufTy).Contents (Elt F)),
    binary main_v177 main_v178 main_v179 (addf : (⟨S2048x2048, .f32⟩ : BufTy).Contents (Elt F) → (⟨S2048x2048, .f32⟩ : BufTy).Contents (Elt F) → (⟨S2048x2048, .f32⟩ : BufTy).Contents (Elt F)),
    unary main_v172 main_v180 ((transpose S64x2048 [1, 0] · transposes_S2048x64_S64x2048_1_0) : (⟨S2048x64, .f32⟩ : BufTy).Contents (Elt F) → (⟨S64x2048, .f32⟩ : BufTy).Contents (Elt F)),
    binary main_v172 main_v180 main_v181 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_40 (constant S_ .f32 0x40000000#32),
    unary main_cst_40 main_v182 (broadcastInDim S2048x2048 ![] bcast_S_S2048x2048 : (⟨S_, .f32⟩ : BufTy).Contents (Elt F) → (⟨S2048x2048, .f32⟩ : BufTy).Contents (Elt F)),
    binary main_v182 main_v181 main_v183 (mulf : (⟨S2048x2048, .f32⟩ : BufTy).Contents (Elt F) → (⟨S2048x2048, .f32⟩ : BufTy).Contents (Elt F) → (⟨S2048x2048, .f32⟩ : BufTy).Contents (Elt F)),
    binary main_v179 main_v183 main_v184 (subf : (⟨S2048x2048, .f32⟩ : BufTy).Contents (Elt F) → (⟨S2048x2048, .f32⟩ : BufTy).Contents (Elt F) → (⟨S2048x2048, .f32⟩ : BufTy).Contents (Elt F)),
    nullary main_cst_41 (constant S_ .f32 0x00000000#32),
    unary main_cst_41 main_v185 (broadcastInDim S2048x2048 ![] bcast_S_S2048x2048 : (⟨S_, .f32⟩ : BufTy).Contents (Elt F) → (⟨S2048x2048, .f32⟩ : BufTy).Contents (Elt F)),
    binary main_v184 main_v185 main_v186 (maximumf : (⟨S2048x2048, .f32⟩ : BufTy).Contents (Elt F) → (⟨S2048x2048, .f32⟩ : BufTy).Contents (Elt F) → (⟨S2048x2048, .f32⟩ : BufTy).Contents (Elt F)),
    nullary main_c_42 (constantI S_ 1 1#1),
    unary main_c_42 main_v187 (broadcastInDim S2048x2048 ![] bcast_S_S2048x2048 : (⟨S_, .i1⟩ : BufTy).Contents (Elt F) → (⟨S2048x2048, .i1⟩ : BufTy).Contents (Elt F)),
    TRef.nullary main_call8.v0 (iotaInDim S2048x2048 32 0),
    TRef.nullary main_call8.c (constantI S_ 32 0#32),
    TRef.unary main_call8.c main_call8.v1 (broadcastInDim S2048x2048 ![] bcast_S_S2048x2048),
    TRef.binary main_call8.v0 main_call8.v1 main_call8.v2 addi,
    TRef.nullary main_call8.v3 (iotaInDim S2048x2048 32 1),
    TRef.binary main_call8.v2 main_call8.v3 main_call8.v4 (cmpi .sge),
    TRef.nullary main_call8.c_0 (constantI S_ 1 0#1),
    TRef.unary main_call8.c_0 main_call8.v5 (broadcastInDim S2048x2048 ![] bcast_S_S2048x2048),
    TRef.ternary main_call8.v4 main_call8.v5 (.of main_v187) main_call8.v6 select,
    nullary main_cst_43 (constant S_ .f32 0xC0000000#32),
    unary main_cst_43 main_v189 (broadcastInDim S2048x2048 ![] bcast_S_S2048x2048 : (⟨S_, .f32⟩ : BufTy).Contents (Elt F) → (⟨S2048x2048, .f32⟩ : BufTy).Contents (Elt F)),
    binary main_v189 main_v186 main_v190 (mulf : (⟨S2048x2048, .f32⟩ : BufTy).Contents (Elt F) → (⟨S2048x2048, .f32⟩ : BufTy).Contents (Elt F) → (⟨S2048x2048, .f32⟩ : BufTy).Contents (Elt F)),
    unary main_v190 main_v191 (Host.exp : (⟨S2048x2048, .f32⟩ : BufTy).Contents (Elt F) → (⟨S2048x2048, .f32⟩ : BufTy).Contents (Elt F)),
    nullary main_cst_44 (constant S_ .f32 0x00000000#32),
    TRef.unary (.of main_cst_44) main_call9.v0 id,
    TRef.unary main_call9.v0 main_call9.v1 (broadcastInDim S2048x2048 ![] bcast_S_S2048x2048),
    TRef.ternary (.of main_v188) (.of main_v191) main_call9.v1 main_call9.v2 select ]

set_option maxRecDepth 8192 in
set_option maxHeartbeats 4000000 in
/-- Window 3 is that straight line: each statement is one `hlo` step, and a call is its callee's steps. -/
theorem main_part3_eq (c : Dev nD) : main_part3 (F := F) c = seq ops_part3 := rfl

set_option maxRecDepth 8192 in
/-- Every operation of window 3 touches TensorCore references only. -/
theorem ops_part3_sub : (ops_part3 : List (HloOp τ sig (Elt F))).Forall fun op => op.bufs ⊆ tcRefs τ sig :=
  ⟨binary_bufs_sub .., nullary_bufs_sub .., binary_bufs_sub .., unary_bufs_sub .., unary_bufs_sub .., reshape_bufs_sub .., unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩

end Cert.ReferenceIdeal.Hand

end
-- ==== Proof.Ref.Ops4.lean ====
import proofs.«108982_j38147899523261_2_alg».proof.Proof.Gen.ReferenceIdeal
import Idealize.ShloMosaic.Lib.StableHlo.Run

/-! The reference program's statements 241 … 300 as a list of host operations.

`ops_part4` lists, in program order, the StableHLO operations that window 4 of the reference's
`@main` performs, each as the operation builder the program itself applies; where the program calls
one of its outlined functions (a row norm, the upper-triangle mask, a masked select, the log-sigmoid),
the callee's operations stand at the call site over that call's own buffers, which is what running the
call does. `main_part4_eq` says the window IS the straight line `seq ops_part4`, and
`ops_part4_sub` that every operation touches TensorCore references only. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 74 operations of window 4, in order. -/
abbrev ops_part4 : List (HloOp τ sig (Elt F)) :=
  [ nullary main_cst_45 (constant S_ .f32 0x00000000#32),
    binary main_v192 main_cst_45 main_v193 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    nullary main_cst_46 (constant S_ .f32 0x49FFE000#32),
    binary main_v193 main_cst_46 main_v194 (Host.divf : (⟨S_, .f32⟩ : BufTy).Contents (Elt F) → (⟨S_, .f32⟩ : BufTy).Contents (Elt F) → (⟨S_, .f32⟩ : BufTy).Contents (Elt F)),
    unary main_v194 main_v195 (Host.log : (⟨S_, .f32⟩ : BufTy).Contents (Elt F) → (⟨S_, .f32⟩ : BufTy).Contents (Elt F)),
    TRef.binary (.of main_v152) (.of main_v152) main_call10.v0 mulf,
    TRef.nullary main_call10.cst (constant S_ .f32 0x00000000#32),
    TRef.binary main_call10.v0 main_call10.cst main_call10.v1 (fun x v => Host.reduceAdd x v reducesTo_S2048x64_S2048_d1 h_S_),
    TRef.unary main_call10.v1 main_call10.v2 (broadcastInDim S2048x1 ![0] bcast_S2048_S2048x1_0),
    TRef.unary main_call10.v2 main_call10.v3 Host.sqrt,
    nullary main_cst_47 (constant S_ .f32 0x2B8CBCCC#32),
    unary main_cst_47 main_v197 (broadcastInDim S2048x1 ![] bcast_S_S2048x1 : (⟨S_, .f32⟩ : BufTy).Contents (Elt F) → (⟨S2048x1, .f32⟩ : BufTy).Contents (Elt F)),
    binary main_v196 main_v197 main_v198 (maximumf : (⟨S2048x1, .f32⟩ : BufTy).Contents (Elt F) → (⟨S2048x1, .f32⟩ : BufTy).Contents (Elt F) → (⟨S2048x1, .f32⟩ : BufTy).Contents (Elt F)),
    unary main_v198 main_v199 (broadcastInDim S2048x64 ![0, 1] bcast_S2048x1_S2048x64_0_1 : (⟨S2048x1, .f32⟩ : BufTy).Contents (Elt F) → (⟨S2048x64, .f32⟩ : BufTy).Contents (Elt F)),
    binary main_v152 main_v199 main_v200 (Host.divf : (⟨S2048x64, .f32⟩ : BufTy).Contents (Elt F) → (⟨S2048x64, .f32⟩ : BufTy).Contents (Elt F) → (⟨S2048x64, .f32⟩ : BufTy).Contents (Elt F)),
    binary main_v200 main_v200 main_v201 (mulf : (⟨S2048x64, .f32⟩ : BufTy).Contents (Elt F) → (⟨S2048x64, .f32⟩ : BufTy).Contents (Elt F) → (⟨S2048x64, .f32⟩ : BufTy).Contents (Elt F)),
    nullary main_cst_48 (constant S_ .f32 0x00000000#32),
    binary main_v201 main_cst_48 main_v202 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v202 main_v203 (broadcastInDim S2048x1 ![0] bcast_S2048_S2048x1_0 : (⟨S2048, .f32⟩ : BufTy).Contents (Elt F) → (⟨S2048x1, .f32⟩ : BufTy).Contents (Elt F)),
    unary main_v202 main_v204 (broadcastInDim S1x2048 ![1] bcast_S2048_S1x2048_1 : (⟨S2048, .f32⟩ : BufTy).Contents (Elt F) → (⟨S1x2048, .f32⟩ : BufTy).Contents (Elt F)),
    unary main_v203 main_v205 (broadcastInDim S2048x2048 ![0, 1] bcast_S2048x1_S2048x2048_0_1 : (⟨S2048x1, .f32⟩ : BufTy).Contents (Elt F) → (⟨S2048x2048, .f32⟩ : BufTy).Contents (Elt F)),
    unary main_v204 main_v206 (broadcastInDim S2048x2048 ![0, 1] bcast_S1x2048_S2048x2048_0_1 : (⟨S1x2048, .f32⟩ : BufTy).Contents (Elt F) → (⟨S2048x2048, .f32⟩ : BufTy).Contents (Elt F)),
    binary main_v205 main_v206 main_v207 (addf : (⟨S2048x2048, .f32⟩ : BufTy).Contents (Elt F) → (⟨S2048x2048, .f32⟩ : BufTy).Contents (Elt F) → (⟨S2048x2048, .f32⟩ : BufTy).Contents (Elt F)),
    unary main_v200 main_v208 ((transpose S64x2048 [1, 0] · transposes_S2048x64_S64x2048_1_0) : (⟨S2048x64, .f32⟩ : BufTy).Contents (Elt F) → (⟨S64x2048, .f32⟩ : BufTy).Contents (Elt F)),
    binary main_v200 main_v208 main_v209 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_49 (constant S_ .f32 0x40000000#32),
    unary main_cst_49 main_v210 (broadcastInDim S2048x2048 ![] bcast_S_S2048x2048 : (⟨S_, .f32⟩ : BufTy).Contents (Elt F) → (⟨S2048x2048, .f32⟩ : BufTy).Contents (Elt F)),
    binary main_v210 main_v209 main_v211 (mulf : (⟨S2048x2048, .f32⟩ : BufTy).Contents (Elt F) → (⟨S2048x2048, .f32⟩ : BufTy).Contents (Elt F) → (⟨S2048x2048, .f32⟩ : BufTy).Contents (Elt F)),
    binary main_v207 main_v211 main_v212 (subf : (⟨S2048x2048, .f32⟩ : BufTy).Contents (Elt F) → (⟨S2048x2048, .f32⟩ : BufTy).Contents (Elt F) → (⟨S2048x2048, .f32⟩ : BufTy).Contents (Elt F)),
    nullary main_cst_50 (constant S_ .f32 0x00000000#32),
    unary main_cst_50 main_v213 (broadcastInDim S2048x2048 ![] bcast_S_S2048x2048 : (⟨S_, .f32⟩ : BufTy).Contents (Elt F) → (⟨S2048x2048, .f32⟩ : BufTy).Contents (Elt F)),
    binary main_v212 main_v213 main_v214 (maximumf : (⟨S2048x2048, .f32⟩ : BufTy).Contents (Elt F) → (⟨S2048x2048, .f32⟩ : BufTy).Contents (Elt F) → (⟨S2048x2048, .f32⟩ : BufTy).Contents (Elt F)),
    nullary main_c_51 (constantI S_ 1 1#1),
    unary main_c_51 main_v215 (broadcastInDim S2048x2048 ![] bcast_S_S2048x2048 : (⟨S_, .i1⟩ : BufTy).Contents (Elt F) → (⟨S2048x2048, .i1⟩ : BufTy).Contents (Elt F)),
    TRef.nullary main_call11.v0 (iotaInDim S2048x2048 32 0),
    TRef.nullary main_call11.c (constantI S_ 32 0#32),
    TRef.unary main_call11.c main_call11.v1 (broadcastInDim S2048x2048 ![] bcast_S_S2048x2048),
    TRef.binary main_call11.v0 main_call11.v1 main_call11.v2 addi,
    TRef.nullary main_call11.v3 (iotaInDim S2048x2048 32 1),
    TRef.binary main_call11.v2 main_call11.v3 main_call11.v4 (cmpi .sge),
    TRef.nullary main_call11.c_0 (constantI S_ 1 0#1),
    TRef.unary main_call11.c_0 main_call11.v5 (broadcastInDim S2048x2048 ![] bcast_S_S2048x2048),
    TRef.ternary main_call11.v4 main_call11.v5 (.of main_v215) main_call11.v6 select,
    nullary main_cst_52 (constant S_ .f32 0xC0000000#32),
    unary main_cst_52 main_v217 (broadcastInDim S2048x2048 ![] bcast_S_S2048x2048 : (⟨S_, .f32⟩ : BufTy).Contents (Elt F) → (⟨S2048x2048, .f32⟩ : BufTy).Contents (Elt F)),
    binary main_v217 main_v214 main_v218 (mulf : (⟨S2048x2048, .f32⟩ : BufTy).Contents (Elt F) → (⟨S2048x2048, .f32⟩ : BufTy).Contents (Elt F) → (⟨S2048x2048, .f32⟩ : BufTy).Contents (Elt F)),
    unary main_v218 main_v219 (Host.exp : (⟨S2048x2048, .f32⟩ : BufTy).Contents (Elt F) → (⟨S2048x2048, .f32⟩ : BufTy).Contents (Elt F)),
    nullary main_cst_53 (constant S_ .f32 0x00000000#32),
    TRef.unary (.of main_cst_53) main_call12.v0 id,
    TRef.unary main_call12.v0 main_call12.v1 (broadcastInDim S2048x2048 ![] bcast_S_S2048x2048),
    TRef.ternary (.of main_v216) (.of main_v219) main_call12.v1 main_call12.v2 select,
    nullary main_cst_54 (constant S_ .f32 0x00000000#32),
    binary main_v220 main_cst_54 main_v221 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    nullary main_cst_55 (constant S_ .f32 0x49FFE000#32),
    binary main_v221 main_cst_55 main_v222 (Host.divf : (⟨S_, .f32⟩ : BufTy).Contents (Elt F) → (⟨S_, .f32⟩ : BufTy).Contents (Elt F) → (⟨S_, .f32⟩ : BufTy).Contents (Elt F)),
    unary main_v222 main_v223 (Host.log : (⟨S_, .f32⟩ : BufTy).Contents (Elt F) → (⟨S_, .f32⟩ : BufTy).Contents (Elt F)),
    nullary main_cst_56 (constant S_ .f32 0x40000000#32),
    binary main_v223 main_cst_56 main_v224 (Host.divf : (⟨S_, .f32⟩ : BufTy).Contents (Elt F) → (⟨S_, .f32⟩ : BufTy).Contents (Elt F) → (⟨S_, .f32⟩ : BufTy).Contents (Elt F)),
    binary main_v195 main_v224 main_v225 (addf : (⟨S_, .f32⟩ : BufTy).Contents (Elt F) → (⟨S_, .f32⟩ : BufTy).Contents (Elt F) → (⟨S_, .f32⟩ : BufTy).Contents (Elt F)),
    binary main_v167 main_v225 main_v226 (addf : (⟨S_, .f32⟩ : BufTy).Contents (Elt F) → (⟨S_, .f32⟩ : BufTy).Contents (Elt F) → (⟨S_, .f32⟩ : BufTy).Contents (Elt F)),
    reshape main_arg7 main_v227 rfl shapeCasts_S2048x1_S2048,
    nullary main_c_57 (constantI S_ 32 0#32),
    unary main_c_57 main_v228 (broadcastInDim S2048 ![] bcast_S_S2048 : (⟨S_, .i32⟩ : BufTy).Contents (Elt F) → (⟨S2048, .i32⟩ : BufTy).Contents (Elt F)),
    binary main_v227 main_v228 main_v229 (cmpi .slt : (⟨S2048, .i32⟩ : BufTy).Contents (Elt F) → (⟨S2048, .i32⟩ : BufTy).Contents (Elt F) → (⟨S2048, .i1⟩ : BufTy).Contents (Elt F)),
    nullary main_c_58 (constantI S_ 32 100000#32),
    unary main_c_58 main_v230 (broadcastInDim S2048 ![] bcast_S_S2048 : (⟨S_, .i32⟩ : BufTy).Contents (Elt F) → (⟨S2048, .i32⟩ : BufTy).Contents (Elt F)),
    binary main_v227 main_v230 main_v231 (addi : (⟨S2048, .i32⟩ : BufTy).Contents (Elt F) → (⟨S2048, .i32⟩ : BufTy).Contents (Elt F) → (⟨S2048, .i32⟩ : BufTy).Contents (Elt F)),
    ternary main_v229 main_v231 main_v227 main_v232 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v232 main_v233 (broadcastInDim S2048x1 ![0] bcast_S2048_S2048x1_0 : (⟨S2048, .i32⟩ : BufTy).Contents (Elt F) → (⟨S2048x1, .i32⟩ : BufTy).Contents (Elt F)),
    binary main_v43 main_v233 main_v234 ((fun x i => Host.gather gather_S100000x64_S2048x1_S2048x64_1_0_n_n_0_1_164 x i) : (⟨S100000x64, .f32⟩ : BufTy).Contents (Elt F) → (⟨S2048x1, .i32⟩ : BufTy).Contents (Elt F) → (⟨S2048x64, .f32⟩ : BufTy).Contents (Elt F)),
    reshape main_arg7 main_v235 rfl shapeCasts_S2048x1_S2048,
    nullary main_c_59 (constantI S_ 32 0#32),
    unary main_c_59 main_v236 (broadcastInDim S2048 ![] bcast_S_S2048 : (⟨S_, .i32⟩ : BufTy).Contents (Elt F) → (⟨S2048, .i32⟩ : BufTy).Contents (Elt F)),
    binary main_v235 main_v236 main_v237 (cmpi .slt : (⟨S2048, .i32⟩ : BufTy).Contents (Elt F) → (⟨S2048, .i32⟩ : BufTy).Contents (Elt F) → (⟨S2048, .i1⟩ : BufTy).Contents (Elt F)) ]

set_option maxRecDepth 8192 in
set_option maxHeartbeats 4000000 in
/-- Window 4 is that straight line: each statement is one `hlo` step, and a call is its callee's steps. -/
theorem main_part4_eq (c : Dev nD) : main_part4 (F := F) c = seq ops_part4 := rfl

set_option maxRecDepth 8192 in
/-- Every operation of window 4 touches TensorCore references only. -/
theorem ops_part4_sub : (ops_part4 : List (HloOp τ sig (Elt F))).Forall fun op => op.bufs ⊆ tcRefs τ sig :=
  ⟨nullary_bufs_sub .., binary_bufs_sub .., nullary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., binary_bufs_sub .., nullary_bufs_sub .., binary_bufs_sub .., unary_bufs_sub .., nullary_bufs_sub .., binary_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub ..⟩

end Cert.ReferenceIdeal.Hand

end
-- ==== Proof.Ref.Ops5.lean ====
import proofs.«108982_j38147899523261_2_alg».proof.Proof.Gen.ReferenceIdeal
import Idealize.ShloMosaic.Lib.StableHlo.Run

/-! The reference program's statements 301 … 360 as a list of host operations.

`ops_part5` lists, in program order, the StableHLO operations that window 5 of the reference's
`@main` performs, each as the operation builder the program itself applies; where the program calls
one of its outlined functions (a row norm, the upper-triangle mask, a masked select, the log-sigmoid),
the callee's operations stand at the call site over that call's own buffers, which is what running the
call does. `main_part5_eq` says the window IS the straight line `seq ops_part5`, and
`ops_part5_sub` that every operation touches TensorCore references only. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 82 operations of window 5, in order. -/
abbrev ops_part5 : List (HloOp τ sig (Elt F)) :=
  [ nullary main_c_60 (constantI S_ 32 100000#32),
    unary main_c_60 main_v238 (broadcastInDim S2048 ![] bcast_S_S2048 : (⟨S_, .i32⟩ : BufTy).Contents (Elt F) → (⟨S2048, .i32⟩ : BufTy).Contents (Elt F)),
    binary main_v235 main_v238 main_v239 (addi : (⟨S2048, .i32⟩ : BufTy).Contents (Elt F) → (⟨S2048, .i32⟩ : BufTy).Contents (Elt F) → (⟨S2048, .i32⟩ : BufTy).Contents (Elt F)),
    ternary main_v237 main_v239 main_v235 main_v240 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v240 main_v241 (broadcastInDim S2048x1 ![0] bcast_S2048_S2048x1_0 : (⟨S2048, .i32⟩ : BufTy).Contents (Elt F) → (⟨S2048x1, .i32⟩ : BufTy).Contents (Elt F)),
    binary main_v88 main_v241 main_v242 ((fun x i => Host.gather gather_S100000x64_S2048x1_S2048x64_1_0_n_n_0_1_164 x i) : (⟨S100000x64, .f32⟩ : BufTy).Contents (Elt F) → (⟨S2048x1, .i32⟩ : BufTy).Contents (Elt F) → (⟨S2048x64, .f32⟩ : BufTy).Contents (Elt F)),
    TRef.binary (.of main_v234) (.of main_v234) main_call13.v0 mulf,
    TRef.nullary main_call13.cst (constant S_ .f32 0x00000000#32),
    TRef.binary main_call13.v0 main_call13.cst main_call13.v1 (fun x v => Host.reduceAdd x v reducesTo_S2048x64_S2048_d1 h_S_),
    TRef.unary main_call13.v1 main_call13.v2 (broadcastInDim S2048x1 ![0] bcast_S2048_S2048x1_0),
    TRef.unary main_call13.v2 main_call13.v3 Host.sqrt,
    nullary main_cst_61 (constant S_ .f32 0x2B8CBCCC#32),
    unary main_cst_61 main_v244 (broadcastInDim S2048x1 ![] bcast_S_S2048x1 : (⟨S_, .f32⟩ : BufTy).Contents (Elt F) → (⟨S2048x1, .f32⟩ : BufTy).Contents (Elt F)),
    binary main_v243 main_v244 main_v245 (maximumf : (⟨S2048x1, .f32⟩ : BufTy).Contents (Elt F) → (⟨S2048x1, .f32⟩ : BufTy).Contents (Elt F) → (⟨S2048x1, .f32⟩ : BufTy).Contents (Elt F)),
    unary main_v245 main_v246 (broadcastInDim S2048x64 ![0, 1] bcast_S2048x1_S2048x64_0_1 : (⟨S2048x1, .f32⟩ : BufTy).Contents (Elt F) → (⟨S2048x64, .f32⟩ : BufTy).Contents (Elt F)),
    binary main_v234 main_v246 main_v247 (Host.divf : (⟨S2048x64, .f32⟩ : BufTy).Contents (Elt F) → (⟨S2048x64, .f32⟩ : BufTy).Contents (Elt F) → (⟨S2048x64, .f32⟩ : BufTy).Contents (Elt F)),
    TRef.binary (.of main_v242) (.of main_v242) main_call14.v0 mulf,
    TRef.nullary main_call14.cst (constant S_ .f32 0x00000000#32),
    TRef.binary main_call14.v0 main_call14.cst main_call14.v1 (fun x v => Host.reduceAdd x v reducesTo_S2048x64_S2048_d1 h_S_),
    TRef.unary main_call14.v1 main_call14.v2 (broadcastInDim S2048x1 ![0] bcast_S2048_S2048x1_0),
    TRef.unary main_call14.v2 main_call14.v3 Host.sqrt,
    nullary main_cst_62 (constant S_ .f32 0x2B8CBCCC#32),
    unary main_cst_62 main_v249 (broadcastInDim S2048x1 ![] bcast_S_S2048x1 : (⟨S_, .f32⟩ : BufTy).Contents (Elt F) → (⟨S2048x1, .f32⟩ : BufTy).Contents (Elt F)),
    binary main_v248 main_v249 main_v250 (maximumf : (⟨S2048x1, .f32⟩ : BufTy).Contents (Elt F) → (⟨S2048x1, .f32⟩ : BufTy).Contents (Elt F) → (⟨S2048x1, .f32⟩ : BufTy).Contents (Elt F)),
    unary main_v250 main_v251 (broadcastInDim S2048x64 ![0, 1] bcast_S2048x1_S2048x64_0_1 : (⟨S2048x1, .f32⟩ : BufTy).Contents (Elt F) → (⟨S2048x64, .f32⟩ : BufTy).Contents (Elt F)),
    binary main_v242 main_v251 main_v252 (Host.divf : (⟨S2048x64, .f32⟩ : BufTy).Contents (Elt F) → (⟨S2048x64, .f32⟩ : BufTy).Contents (Elt F) → (⟨S2048x64, .f32⟩ : BufTy).Contents (Elt F)),
    binary main_v247 main_v252 main_v253 (subf : (⟨S2048x64, .f32⟩ : BufTy).Contents (Elt F) → (⟨S2048x64, .f32⟩ : BufTy).Contents (Elt F) → (⟨S2048x64, .f32⟩ : BufTy).Contents (Elt F)),
    binary main_v253 main_v253 main_v254 (mulf : (⟨S2048x64, .f32⟩ : BufTy).Contents (Elt F) → (⟨S2048x64, .f32⟩ : BufTy).Contents (Elt F) → (⟨S2048x64, .f32⟩ : BufTy).Contents (Elt F)),
    nullary main_cst_63 (constant S_ .f32 0x00000000#32),
    binary main_v254 main_cst_63 main_v255 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    nullary main_cst_64 (constant S_ .f32 0x00000000#32),
    binary main_v255 main_cst_64 main_v256 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_65 (constant S_ .f32 0x45000000#32),
    binary main_v256 main_cst_65 main_v257 (Host.divf : (⟨S_, .f32⟩ : BufTy).Contents (Elt F) → (⟨S_, .f32⟩ : BufTy).Contents (Elt F) → (⟨S_, .f32⟩ : BufTy).Contents (Elt F)),
    TRef.binary (.of main_v234) (.of main_v234) main_call15.v0 mulf,
    TRef.nullary main_call15.cst (constant S_ .f32 0x00000000#32),
    TRef.binary main_call15.v0 main_call15.cst main_call15.v1 (fun x v => Host.reduceAdd x v reducesTo_S2048x64_S2048_d1 h_S_),
    TRef.unary main_call15.v1 main_call15.v2 (broadcastInDim S2048x1 ![0] bcast_S2048_S2048x1_0),
    TRef.unary main_call15.v2 main_call15.v3 Host.sqrt,
    nullary main_cst_66 (constant S_ .f32 0x2B8CBCCC#32),
    unary main_cst_66 main_v259 (broadcastInDim S2048x1 ![] bcast_S_S2048x1 : (⟨S_, .f32⟩ : BufTy).Contents (Elt F) → (⟨S2048x1, .f32⟩ : BufTy).Contents (Elt F)),
    binary main_v258 main_v259 main_v260 (maximumf : (⟨S2048x1, .f32⟩ : BufTy).Contents (Elt F) → (⟨S2048x1, .f32⟩ : BufTy).Contents (Elt F) → (⟨S2048x1, .f32⟩ : BufTy).Contents (Elt F)),
    unary main_v260 main_v261 (broadcastInDim S2048x64 ![0, 1] bcast_S2048x1_S2048x64_0_1 : (⟨S2048x1, .f32⟩ : BufTy).Contents (Elt F) → (⟨S2048x64, .f32⟩ : BufTy).Contents (Elt F)),
    binary main_v234 main_v261 main_v262 (Host.divf : (⟨S2048x64, .f32⟩ : BufTy).Contents (Elt F) → (⟨S2048x64, .f32⟩ : BufTy).Contents (Elt F) → (⟨S2048x64, .f32⟩ : BufTy).Contents (Elt F)),
    binary main_v262 main_v262 main_v263 (mulf : (⟨S2048x64, .f32⟩ : BufTy).Contents (Elt F) → (⟨S2048x64, .f32⟩ : BufTy).Contents (Elt F) → (⟨S2048x64, .f32⟩ : BufTy).Contents (Elt F)),
    nullary main_cst_67 (constant S_ .f32 0x00000000#32),
    binary main_v263 main_cst_67 main_v264 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v264 main_v265 (broadcastInDim S2048x1 ![0] bcast_S2048_S2048x1_0 : (⟨S2048, .f32⟩ : BufTy).Contents (Elt F) → (⟨S2048x1, .f32⟩ : BufTy).Contents (Elt F)),
    unary main_v264 main_v266 (broadcastInDim S1x2048 ![1] bcast_S2048_S1x2048_1 : (⟨S2048, .f32⟩ : BufTy).Contents (Elt F) → (⟨S1x2048, .f32⟩ : BufTy).Contents (Elt F)),
    unary main_v265 main_v267 (broadcastInDim S2048x2048 ![0, 1] bcast_S2048x1_S2048x2048_0_1 : (⟨S2048x1, .f32⟩ : BufTy).Contents (Elt F) → (⟨S2048x2048, .f32⟩ : BufTy).Contents (Elt F)),
    unary main_v266 main_v268 (broadcastInDim S2048x2048 ![0, 1] bcast_S1x2048_S2048x2048_0_1 : (⟨S1x2048, .f32⟩ : BufTy).Contents (Elt F) → (⟨S2048x2048, .f32⟩ : BufTy).Contents (Elt F)),
    binary main_v267 main_v268 main_v269 (addf : (⟨S2048x2048, .f32⟩ : BufTy).Contents (Elt F) → (⟨S2048x2048, .f32⟩ : BufTy).Contents (Elt F) → (⟨S2048x2048, .f32⟩ : BufTy).Contents (Elt F)),
    unary main_v262 main_v270 ((transpose S64x2048 [1, 0] · transposes_S2048x64_S64x2048_1_0) : (⟨S2048x64, .f32⟩ : BufTy).Contents (Elt F) → (⟨S64x2048, .f32⟩ : BufTy).Contents (Elt F)),
    binary main_v262 main_v270 main_v271 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_68 (constant S_ .f32 0x40000000#32),
    unary main_cst_68 main_v272 (broadcastInDim S2048x2048 ![] bcast_S_S2048x2048 : (⟨S_, .f32⟩ : BufTy).Contents (Elt F) → (⟨S2048x2048, .f32⟩ : BufTy).Contents (Elt F)),
    binary main_v272 main_v271 main_v273 (mulf : (⟨S2048x2048, .f32⟩ : BufTy).Contents (Elt F) → (⟨S2048x2048, .f32⟩ : BufTy).Contents (Elt F) → (⟨S2048x2048, .f32⟩ : BufTy).Contents (Elt F)),
    binary main_v269 main_v273 main_v274 (subf : (⟨S2048x2048, .f32⟩ : BufTy).Contents (Elt F) → (⟨S2048x2048, .f32⟩ : BufTy).Contents (Elt F) → (⟨S2048x2048, .f32⟩ : BufTy).Contents (Elt F)),
    nullary main_cst_69 (constant S_ .f32 0x00000000#32),
    unary main_cst_69 main_v275 (broadcastInDim S2048x2048 ![] bcast_S_S2048x2048 : (⟨S_, .f32⟩ : BufTy).Contents (Elt F) → (⟨S2048x2048, .f32⟩ : BufTy).Contents (Elt F)),
    binary main_v274 main_v275 main_v276 (maximumf : (⟨S2048x2048, .f32⟩ : BufTy).Contents (Elt F) → (⟨S2048x2048, .f32⟩ : BufTy).Contents (Elt F) → (⟨S2048x2048, .f32⟩ : BufTy).Contents (Elt F)),
    nullary main_c_70 (constantI S_ 1 1#1),
    unary main_c_70 main_v277 (broadcastInDim S2048x2048 ![] bcast_S_S2048x2048 : (⟨S_, .i1⟩ : BufTy).Contents (Elt F) → (⟨S2048x2048, .i1⟩ : BufTy).Contents (Elt F)),
    TRef.nullary main_call16.v0 (iotaInDim S2048x2048 32 0),
    TRef.nullary main_call16.c (constantI S_ 32 0#32),
    TRef.unary main_call16.c main_call16.v1 (broadcastInDim S2048x2048 ![] bcast_S_S2048x2048),
    TRef.binary main_call16.v0 main_call16.v1 main_call16.v2 addi,
    TRef.nullary main_call16.v3 (iotaInDim S2048x2048 32 1),
    TRef.binary main_call16.v2 main_call16.v3 main_call16.v4 (cmpi .sge),
    TRef.nullary main_call16.c_0 (constantI S_ 1 0#1),
    TRef.unary main_call16.c_0 main_call16.v5 (broadcastInDim S2048x2048 ![] bcast_S_S2048x2048),
    TRef.ternary main_call16.v4 main_call16.v5 (.of main_v277) main_call16.v6 select,
    nullary main_cst_71 (constant S_ .f32 0xC0000000#32),
    unary main_cst_71 main_v279 (broadcastInDim S2048x2048 ![] bcast_S_S2048x2048 : (⟨S_, .f32⟩ : BufTy).Contents (Elt F) → (⟨S2048x2048, .f32⟩ : BufTy).Contents (Elt F)),
    binary main_v279 main_v276 main_v280 (mulf : (⟨S2048x2048, .f32⟩ : BufTy).Contents (Elt F) → (⟨S2048x2048, .f32⟩ : BufTy).Contents (Elt F) → (⟨S2048x2048, .f32⟩ : BufTy).Contents (Elt F)),
    unary main_v280 main_v281 (Host.exp : (⟨S2048x2048, .f32⟩ : BufTy).Contents (Elt F) → (⟨S2048x2048, .f32⟩ : BufTy).Contents (Elt F)),
    nullary main_cst_72 (constant S_ .f32 0x00000000#32),
    TRef.unary (.of main_cst_72) main_call17.v0 id,
    TRef.unary main_call17.v0 main_call17.v1 (broadcastInDim S2048x2048 ![] bcast_S_S2048x2048),
    TRef.ternary (.of main_v278) (.of main_v281) main_call17.v1 main_call17.v2 select,
    nullary main_cst_73 (constant S_ .f32 0x00000000#32),
    binary main_v282 main_cst_73 main_v283 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)) ]

set_option maxRecDepth 8192 in
set_option maxHeartbeats 4000000 in
/-- Window 5 is that straight line: each statement is one `hlo` step, and a call is its callee's steps. -/
theorem main_part5_eq (c : Dev nD) : main_part5 (F := F) c = seq ops_part5 := rfl

set_option maxRecDepth 8192 in
/-- Every operation of window 5 touches TensorCore references only. -/
theorem ops_part5_sub : (ops_part5 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., binary_bufs_sub ..⟩

end Cert.ReferenceIdeal.Hand

end
-- ==== Proof.Ref.Ops6.lean ====
import proofs.«108982_j38147899523261_2_alg».proof.Proof.Gen.ReferenceIdeal
import Idealize.ShloMosaic.Lib.StableHlo.Run

/-! The reference program's statements 361 … 411 as a list of host operations.

`ops_part6` lists, in program order, the StableHLO operations that window 6 of the reference's
`@main` performs, each as the operation builder the program itself applies; where the program calls
one of its outlined functions (a row norm, the upper-triangle mask, a masked select, the log-sigmoid),
the callee's operations stand at the call site over that call's own buffers, which is what running the
call does. `main_part6_eq` says the window IS the straight line `seq ops_part6`, and
`ops_part6_sub` that every operation touches TensorCore references only. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 64 operations of window 6, in order. -/
abbrev ops_part6 : List (HloOp τ sig (Elt F)) :=
  [ nullary main_cst_74 (constant S_ .f32 0x49FFE000#32),
    binary main_v283 main_cst_74 main_v284 (Host.divf : (⟨S_, .f32⟩ : BufTy).Contents (Elt F) → (⟨S_, .f32⟩ : BufTy).Contents (Elt F) → (⟨S_, .f32⟩ : BufTy).Contents (Elt F)),
    unary main_v284 main_v285 (Host.log : (⟨S_, .f32⟩ : BufTy).Contents (Elt F) → (⟨S_, .f32⟩ : BufTy).Contents (Elt F)),
    TRef.binary (.of main_v242) (.of main_v242) main_call18.v0 mulf,
    TRef.nullary main_call18.cst (constant S_ .f32 0x00000000#32),
    TRef.binary main_call18.v0 main_call18.cst main_call18.v1 (fun x v => Host.reduceAdd x v reducesTo_S2048x64_S2048_d1 h_S_),
    TRef.unary main_call18.v1 main_call18.v2 (broadcastInDim S2048x1 ![0] bcast_S2048_S2048x1_0),
    TRef.unary main_call18.v2 main_call18.v3 Host.sqrt,
    nullary main_cst_75 (constant S_ .f32 0x2B8CBCCC#32),
    unary main_cst_75 main_v287 (broadcastInDim S2048x1 ![] bcast_S_S2048x1 : (⟨S_, .f32⟩ : BufTy).Contents (Elt F) → (⟨S2048x1, .f32⟩ : BufTy).Contents (Elt F)),
    binary main_v286 main_v287 main_v288 (maximumf : (⟨S2048x1, .f32⟩ : BufTy).Contents (Elt F) → (⟨S2048x1, .f32⟩ : BufTy).Contents (Elt F) → (⟨S2048x1, .f32⟩ : BufTy).Contents (Elt F)),
    unary main_v288 main_v289 (broadcastInDim S2048x64 ![0, 1] bcast_S2048x1_S2048x64_0_1 : (⟨S2048x1, .f32⟩ : BufTy).Contents (Elt F) → (⟨S2048x64, .f32⟩ : BufTy).Contents (Elt F)),
    binary main_v242 main_v289 main_v290 (Host.divf : (⟨S2048x64, .f32⟩ : BufTy).Contents (Elt F) → (⟨S2048x64, .f32⟩ : BufTy).Contents (Elt F) → (⟨S2048x64, .f32⟩ : BufTy).Contents (Elt F)),
    binary main_v290 main_v290 main_v291 (mulf : (⟨S2048x64, .f32⟩ : BufTy).Contents (Elt F) → (⟨S2048x64, .f32⟩ : BufTy).Contents (Elt F) → (⟨S2048x64, .f32⟩ : BufTy).Contents (Elt F)),
    nullary main_cst_76 (constant S_ .f32 0x00000000#32),
    binary main_v291 main_cst_76 main_v292 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v292 main_v293 (broadcastInDim S2048x1 ![0] bcast_S2048_S2048x1_0 : (⟨S2048, .f32⟩ : BufTy).Contents (Elt F) → (⟨S2048x1, .f32⟩ : BufTy).Contents (Elt F)),
    unary main_v292 main_v294 (broadcastInDim S1x2048 ![1] bcast_S2048_S1x2048_1 : (⟨S2048, .f32⟩ : BufTy).Contents (Elt F) → (⟨S1x2048, .f32⟩ : BufTy).Contents (Elt F)),
    unary main_v293 main_v295 (broadcastInDim S2048x2048 ![0, 1] bcast_S2048x1_S2048x2048_0_1 : (⟨S2048x1, .f32⟩ : BufTy).Contents (Elt F) → (⟨S2048x2048, .f32⟩ : BufTy).Contents (Elt F)),
    unary main_v294 main_v296 (broadcastInDim S2048x2048 ![0, 1] bcast_S1x2048_S2048x2048_0_1 : (⟨S1x2048, .f32⟩ : BufTy).Contents (Elt F) → (⟨S2048x2048, .f32⟩ : BufTy).Contents (Elt F)),
    binary main_v295 main_v296 main_v297 (addf : (⟨S2048x2048, .f32⟩ : BufTy).Contents (Elt F) → (⟨S2048x2048, .f32⟩ : BufTy).Contents (Elt F) → (⟨S2048x2048, .f32⟩ : BufTy).Contents (Elt F)),
    unary main_v290 main_v298 ((transpose S64x2048 [1, 0] · transposes_S2048x64_S64x2048_1_0) : (⟨S2048x64, .f32⟩ : BufTy).Contents (Elt F) → (⟨S64x2048, .f32⟩ : BufTy).Contents (Elt F)),
    binary main_v290 main_v298 main_v299 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_77 (constant S_ .f32 0x40000000#32),
    unary main_cst_77 main_v300 (broadcastInDim S2048x2048 ![] bcast_S_S2048x2048 : (⟨S_, .f32⟩ : BufTy).Contents (Elt F) → (⟨S2048x2048, .f32⟩ : BufTy).Contents (Elt F)),
    binary main_v300 main_v299 main_v301 (mulf : (⟨S2048x2048, .f32⟩ : BufTy).Contents (Elt F) → (⟨S2048x2048, .f32⟩ : BufTy).Contents (Elt F) → (⟨S2048x2048, .f32⟩ : BufTy).Contents (Elt F)),
    binary main_v297 main_v301 main_v302 (subf : (⟨S2048x2048, .f32⟩ : BufTy).Contents (Elt F) → (⟨S2048x2048, .f32⟩ : BufTy).Contents (Elt F) → (⟨S2048x2048, .f32⟩ : BufTy).Contents (Elt F)),
    nullary main_cst_78 (constant S_ .f32 0x00000000#32),
    unary main_cst_78 main_v303 (broadcastInDim S2048x2048 ![] bcast_S_S2048x2048 : (⟨S_, .f32⟩ : BufTy).Contents (Elt F) → (⟨S2048x2048, .f32⟩ : BufTy).Contents (Elt F)),
    binary main_v302 main_v303 main_v304 (maximumf : (⟨S2048x2048, .f32⟩ : BufTy).Contents (Elt F) → (⟨S2048x2048, .f32⟩ : BufTy).Contents (Elt F) → (⟨S2048x2048, .f32⟩ : BufTy).Contents (Elt F)),
    nullary main_c_79 (constantI S_ 1 1#1),
    unary main_c_79 main_v305 (broadcastInDim S2048x2048 ![] bcast_S_S2048x2048 : (⟨S_, .i1⟩ : BufTy).Contents (Elt F) → (⟨S2048x2048, .i1⟩ : BufTy).Contents (Elt F)),
    TRef.nullary main_call19.v0 (iotaInDim S2048x2048 32 0),
    TRef.nullary main_call19.c (constantI S_ 32 0#32),
    TRef.unary main_call19.c main_call19.v1 (broadcastInDim S2048x2048 ![] bcast_S_S2048x2048),
    TRef.binary main_call19.v0 main_call19.v1 main_call19.v2 addi,
    TRef.nullary main_call19.v3 (iotaInDim S2048x2048 32 1),
    TRef.binary main_call19.v2 main_call19.v3 main_call19.v4 (cmpi .sge),
    TRef.nullary main_call19.c_0 (constantI S_ 1 0#1),
    TRef.unary main_call19.c_0 main_call19.v5 (broadcastInDim S2048x2048 ![] bcast_S_S2048x2048),
    TRef.ternary main_call19.v4 main_call19.v5 (.of main_v305) main_call19.v6 select,
    nullary main_cst_80 (constant S_ .f32 0xC0000000#32),
    unary main_cst_80 main_v307 (broadcastInDim S2048x2048 ![] bcast_S_S2048x2048 : (⟨S_, .f32⟩ : BufTy).Contents (Elt F) → (⟨S2048x2048, .f32⟩ : BufTy).Contents (Elt F)),
    binary main_v307 main_v304 main_v308 (mulf : (⟨S2048x2048, .f32⟩ : BufTy).Contents (Elt F) → (⟨S2048x2048, .f32⟩ : BufTy).Contents (Elt F) → (⟨S2048x2048, .f32⟩ : BufTy).Contents (Elt F)),
    unary main_v308 main_v309 (Host.exp : (⟨S2048x2048, .f32⟩ : BufTy).Contents (Elt F) → (⟨S2048x2048, .f32⟩ : BufTy).Contents (Elt F)),
    nullary main_cst_81 (constant S_ .f32 0x00000000#32),
    TRef.unary (.of main_cst_81) main_call20.v0 id,
    TRef.unary main_call20.v0 main_call20.v1 (broadcastInDim S2048x2048 ![] bcast_S_S2048x2048),
    TRef.ternary (.of main_v306) (.of main_v309) main_call20.v1 main_call20.v2 select,
    nullary main_cst_82 (constant S_ .f32 0x00000000#32),
    binary main_v310 main_cst_82 main_v311 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    nullary main_cst_83 (constant S_ .f32 0x49FFE000#32),
    binary main_v311 main_cst_83 main_v312 (Host.divf : (⟨S_, .f32⟩ : BufTy).Contents (Elt F) → (⟨S_, .f32⟩ : BufTy).Contents (Elt F) → (⟨S_, .f32⟩ : BufTy).Contents (Elt F)),
    unary main_v312 main_v313 (Host.log : (⟨S_, .f32⟩ : BufTy).Contents (Elt F) → (⟨S_, .f32⟩ : BufTy).Contents (Elt F)),
    nullary main_cst_84 (constant S_ .f32 0x40000000#32),
    binary main_v313 main_cst_84 main_v314 (Host.divf : (⟨S_, .f32⟩ : BufTy).Contents (Elt F) → (⟨S_, .f32⟩ : BufTy).Contents (Elt F) → (⟨S_, .f32⟩ : BufTy).Contents (Elt F)),
    binary main_v285 main_v314 main_v315 (addf : (⟨S_, .f32⟩ : BufTy).Contents (Elt F) → (⟨S_, .f32⟩ : BufTy).Contents (Elt F) → (⟨S_, .f32⟩ : BufTy).Contents (Elt F)),
    binary main_v257 main_v315 main_v316 (addf : (⟨S_, .f32⟩ : BufTy).Contents (Elt F) → (⟨S_, .f32⟩ : BufTy).Contents (Elt F) → (⟨S_, .f32⟩ : BufTy).Contents (Elt F)),
    binary main_v226 main_v316 main_v317 (addf : (⟨S_, .f32⟩ : BufTy).Contents (Elt F) → (⟨S_, .f32⟩ : BufTy).Contents (Elt F) → (⟨S_, .f32⟩ : BufTy).Contents (Elt F)),
    nullary main_cst_85 (constant S_ .f32 0x40000000#32),
    binary main_v317 main_cst_85 main_v318 (Host.divf : (⟨S_, .f32⟩ : BufTy).Contents (Elt F) → (⟨S_, .f32⟩ : BufTy).Contents (Elt F) → (⟨S_, .f32⟩ : BufTy).Contents (Elt F)),
    unary main_v148 main_v319 (broadcastInDim S1 ![] bcast_S_S1 : (⟨S_, .f32⟩ : BufTy).Contents (Elt F) → (⟨S1, .f32⟩ : BufTy).Contents (Elt F)),
    unary main_v318 main_v320 (broadcastInDim S1 ![] bcast_S_S1 : (⟨S_, .f32⟩ : BufTy).Contents (Elt F) → (⟨S1, .f32⟩ : BufTy).Contents (Elt F)),
    binary main_v319 main_v320 main_v321 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) ]

set_option maxRecDepth 8192 in
set_option maxHeartbeats 4000000 in
/-- Window 6 is that straight line: each statement is one `hlo` step, and a call is its callee's steps. -/
theorem main_part6_eq (c : Dev nD) : main_part6 (F := F) c = seq ops_part6 := rfl

set_option maxRecDepth 8192 in
/-- Every operation of window 6 touches TensorCore references only. -/
theorem ops_part6_sub : (ops_part6 : List (HloOp τ sig (Elt F))).Forall fun op => op.bufs ⊆ tcRefs τ sig :=
  ⟨nullary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., binary_bufs_sub .., nullary_bufs_sub .., binary_bufs_sub .., unary_bufs_sub .., nullary_bufs_sub .., binary_bufs_sub .., binary_bufs_sub .., binary_bufs_sub .., binary_bufs_sub .., nullary_bufs_sub .., binary_bufs_sub .., unary_bufs_sub .., unary_bufs_sub .., binary_bufs_sub ..⟩

end Cert.ReferenceIdeal.Hand

end
-- ==== Proof.Ref.Ops.lean ====
import proofs.«108982_j38147899523261_2_alg».proof.Proof.Gen.ReferenceIdeal
import Idealize.ShloMosaic.Lib.StableHlo.Run
import proofs.«108982_j38147899523261_2_alg».proof.Proof.Ref.Ops0
import proofs.«108982_j38147899523261_2_alg».proof.Proof.Ref.Ops1
import proofs.«108982_j38147899523261_2_alg».proof.Proof.Ref.Ops2
import proofs.«108982_j38147899523261_2_alg».proof.Proof.Ref.Ops3
import proofs.«108982_j38147899523261_2_alg».proof.Proof.Ref.Ops4
import proofs.«108982_j38147899523261_2_alg».proof.Proof.Ref.Ops5
import proofs.«108982_j38147899523261_2_alg».proof.Proof.Ref.Ops6

/-! The reference program as ONE list of host operations.

`ops` is the concatenation of the seven windows' operation lists, `main_eq` says the reference's
`@main` is the straight line `seq ops` (each window is its own straight line, and running two lines one
after the other is running their concatenation), `ops_sub` that every operation touches TensorCore
references only, `ops_fresh` that every operation determines what it writes, and the two scope facts
say the signature scopes no TensorCore buffer and no semaphore: together, what the library's statement
about straight-line programs asks. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's operations, in program order: window 0's, then window 1's, … -/
abbrev ops : List (HloOp τ sig (Elt F)) :=
  ops_part0 ++ (ops_part1 ++ (ops_part2 ++ (ops_part3 ++ (ops_part4 ++ (ops_part5 ++ ops_part6)))))

/-- `@main` runs its windows in order, each window is the straight line of its operations, and
    straight lines run in sequence are the straight line of the concatenation. -/
theorem main_eq (c : Dev nD) : main (F := F) c = seq ops := by
  simp only [ops, seq_append, ← main_part0_eq c, ← main_part1_eq c, ← main_part2_eq c, ← main_part3_eq c,
    ← main_part4_eq c, ← main_part5_eq c, ← main_part6_eq c]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops_part0_sub op h,
      List.forall_iff_forall_mem.mp ops_part1_sub op h,
      List.forall_iff_forall_mem.mp ops_part2_sub op h,
      List.forall_iff_forall_mem.mp ops_part3_sub op h,
      List.forall_iff_forall_mem.mp ops_part4_sub op h,
      List.forall_iff_forall_mem.mp ops_part5_sub op h,
      List.forall_iff_forall_mem.mp ops_part6_sub op h]

set_option maxRecDepth 8192 in
/-- Every operation of window 0 determines what it writes (none allocates a buffer of unspecified contents). -/
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 1 determines what it writes (none allocates a buffer of unspecified contents). -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 2 determines what it writes (none allocates a buffer of unspecified contents). -/
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 3 determines what it writes (none allocates a buffer of unspecified contents). -/
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 4 determines what it writes (none allocates a buffer of unspecified contents). -/
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 5 determines what it writes (none allocates a buffer of unspecified contents). -/
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of window 6 determines what it writes (none allocates a buffer of unspecified contents). -/
theorem ops_part6_fresh : (ops_part6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the program determines what it writes. -/
theorem ops_fresh : ∀ op ∈ (ops : List (HloOp τ sig (Elt F))), op.fresh = ∅ := fun op h => by
  simp only [ops, List.mem_append] at h
  rcases h with h | h | h | h | h | h | h
  exacts [List.forall_iff_forall_mem.mp ops_part0_fresh op h,
    List.forall_iff_forall_mem.mp ops_part1_fresh op h,
    List.forall_iff_forall_mem.mp ops_part2_fresh op h,
    List.forall_iff_forall_mem.mp ops_part3_fresh op h,
    List.forall_iff_forall_mem.mp ops_part4_fresh op h,
    List.forall_iff_forall_mem.mp ops_part5_fresh op h,
    List.forall_iff_forall_mem.mp ops_part6_fresh op h]

end Cert.ReferenceIdeal.Hand

end
-- ==== Proof.Ref.Run.lean ====
import proofs.«108982_j38147899523261_2_alg».proof.Proof.Ref.Ops
import proofs.«108982_j38147899523261_2_alg».proof.Defs
import Idealize.ShloMosaic.Lib.Pipeline.Frame

/-! The reference program's run, and its frame.

`run_fold`: from any memory with zero counters, every weakly fair execution of the reference's `@main`
terminates without fault, and each TensorCore buffer ends at the fold of the operations' results over the
launch contents (`after ops`), left unevaluated. `after_main_arg<K>`: no operation writes an argument
array — every operation writes only its own result buffer, and the argument buffers are not among the
result buffers of any window — so the fold at an argument is the launch contents. `frame`: the reference
runs and its fifteen argument arrays end as launched. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- From any memory with zero counters, for any float values: every weakly fair execution of `@main` on the
    TensorCores terminates, and every final state has each TensorCore buffer at the operations' fold over
    the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (hfresh := fun _ => ops_fresh)

/-! ## No operation writes an argument

Each operation writes exactly its result buffer. `ops_part<N>_W` lists the result buffers of window `N`;
a reference outside that list keeps its contents through the window. -/

/-- A one-buffer write set lies in the device buffers of a list that holds the buffer. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The buffers that window 0's operations write: one result buffer each. -/
abbrev ops_part0_W : List (Ref sig .tc) :=
  [main_v0, main_v1, main_c, main_v2, main_v3, main_c_0, main_v4, main_v5, main_v6, main_v7, main_v8, main_v9, main_v10, main_cst, main_v11, main_v12, main_v13, main_cst_1, main_v14, main_v15, main_call0.v0.ref, main_call0.cst.ref, main_call0.v1.ref, main_call0.v2.ref, main_call0.v3.ref, main_cst_2, main_v17, main_v18, main_v19, main_v20, main_v21, main_v22, main_c_3, main_v23, main_v24, main_c_4, main_v25, main_v26, main_v27, main_v28, main_v29, main_v30, main_v31, main_cst_5, main_v32, main_v33, main_v34, main_cst_6, main_v35, main_v36, main_call1.v0.ref, main_call1.cst.ref, main_call1.v1.ref, main_call1.v2.ref, main_call1.v3.ref, main_cst_7, main_v38, main_v39, main_v40, main_v41, main_v42, main_v43, main_v44, main_v45, main_v46, main_c_8, main_v47, main_v48]

set_option maxRecDepth 8192 in
/-- Each operation of window 0 writes only its result buffer, which the list holds. -/
theorem ops_part0_writes : (ops_part0 : List (HloOp τ sig (Elt F))).Forall fun op =>
    op.writes ⊆ (ops_part0_W.map (Proc.devRef (τ := τ) .tc)).toFinset :=
  ⟨single_sub_of_mem (y := main_v0) (by decide),
   single_sub_of_mem (y := main_v1) (by decide),
   single_sub_of_mem (y := main_c) (by decide),
   single_sub_of_mem (y := main_v2) (by decide),
   single_sub_of_mem (y := main_v3) (by decide),
   single_sub_of_mem (y := main_c_0) (by decide),
   single_sub_of_mem (y := main_v4) (by decide),
   single_sub_of_mem (y := main_v5) (by decide),
   single_sub_of_mem (y := main_v6) (by decide),
   single_sub_of_mem (y := main_v7) (by decide),
   single_sub_of_mem (y := main_v8) (by decide),
   single_sub_of_mem (y := main_v9) (by decide),
   single_sub_of_mem (y := main_v10) (by decide),
   single_sub_of_mem (y := main_cst) (by decide),
   single_sub_of_mem (y := main_v11) (by decide),
   single_sub_of_mem (y := main_v12) (by decide),
   single_sub_of_mem (y := main_v13) (by decide),
   single_sub_of_mem (y := main_cst_1) (by decide),
   single_sub_of_mem (y := main_v14) (by decide),
   single_sub_of_mem (y := main_v15) (by decide),
   single_sub_of_mem (y := main_call0.v0.ref) (by decide),
   single_sub_of_mem (y := main_call0.cst.ref) (by decide),
   single_sub_of_mem (y := main_call0.v1.ref) (by decide),
   single_sub_of_mem (y := main_call0.v2.ref) (by decide),
   single_sub_of_mem (y := main_call0.v3.ref) (by decide),
   single_sub_of_mem (y := main_cst_2) (by decide),
   single_sub_of_mem (y := main_v17) (by decide),
   single_sub_of_mem (y := main_v18) (by decide),
   single_sub_of_mem (y := main_v19) (by decide),
   single_sub_of_mem (y := main_v20) (by decide),
   single_sub_of_mem (y := main_v21) (by decide),
   single_sub_of_mem (y := main_v22) (by decide),
   single_sub_of_mem (y := main_c_3) (by decide),
   single_sub_of_mem (y := main_v23) (by decide),
   single_sub_of_mem (y := main_v24) (by decide),
   single_sub_of_mem (y := main_c_4) (by decide),
   single_sub_of_mem (y := main_v25) (by decide),
   single_sub_of_mem (y := main_v26) (by decide),
   single_sub_of_mem (y := main_v27) (by decide),
   single_sub_of_mem (y := main_v28) (by decide),
   single_sub_of_mem (y := main_v29) (by decide),
   single_sub_of_mem (y := main_v30) (by decide),
   single_sub_of_mem (y := main_v31) (by decide),
   single_sub_of_mem (y := main_cst_5) (by decide),
   single_sub_of_mem (y := main_v32) (by decide),
   single_sub_of_mem (y := main_v33) (by decide),
   single_sub_of_mem (y := main_v34) (by decide),
   single_sub_of_mem (y := main_cst_6) (by decide),
   single_sub_of_mem (y := main_v35) (by decide),
   single_sub_of_mem (y := main_v36) (by decide),
   single_sub_of_mem (y := main_call1.v0.ref) (by decide),
   single_sub_of_mem (y := main_call1.cst.ref) (by decide),
   single_sub_of_mem (y := main_call1.v1.ref) (by decide),
   single_sub_of_mem (y := main_call1.v2.ref) (by decide),
   single_sub_of_mem (y := main_call1.v3.ref) (by decide),
   single_sub_of_mem (y := main_cst_7) (by decide),
   single_sub_of_mem (y := main_v38) (by decide),
   single_sub_of_mem (y := main_v39) (by decide),
   single_sub_of_mem (y := main_v40) (by decide),
   single_sub_of_mem (y := main_v41) (by decide),
   single_sub_of_mem (y := main_v42) (by decide),
   single_sub_of_mem (y := main_v43) (by decide),
   single_sub_of_mem (y := main_v44) (by decide),
   single_sub_of_mem (y := main_v45) (by decide),
   single_sub_of_mem (y := main_v46) (by decide),
   single_sub_of_mem (y := main_c_8) (by decide),
   single_sub_of_mem (y := main_v47) (by decide),
   single_sub_of_mem (y := main_v48) (by decide)⟩

/-- A buffer that window 0 does not write keeps its contents through it. -/
theorem ops_part0_keep (V : Valuation τ sig (Elt F)) (r : Ref sig .tc) (h : r ∉ ops_part0_W) :
    after ops_part0 V (Proc.devRef .tc r) = V (Proc.devRef .tc r) :=
  after_of_writes_sub ops_part0 V ops_part0_writes h

/-- The buffers that window 1's operations write: one result buffer each. -/
abbrev ops_part1_W : List (Ref sig .tc) :=
  [main_c_9, main_v49, main_v50, main_v51, main_v52, main_v53, main_v54, main_v55, main_cst_10, main_v56, main_v57, main_v58, main_cst_11, main_v59, main_v60, main_call2.v0.ref, main_call2.cst.ref, main_call2.v1.ref, main_call2.v2.ref, main_call2.v3.ref, main_cst_12, main_v62, main_v63, main_v64, main_v65, main_v66, main_v67, main_c_13, main_v68, main_v69, main_c_14, main_v70, main_v71, main_v72, main_v73, main_v74, main_v75, main_v76, main_cst_15, main_v77, main_v78, main_v79, main_cst_16, main_v80, main_v81, main_call3.v0.ref, main_call3.cst.ref, main_call3.v1.ref, main_call3.v2.ref, main_call3.v3.ref, main_cst_17, main_v83, main_v84, main_v85, main_v86, main_v87, main_v88, main_v89, main_v90, main_c_18, main_v91, main_v92, main_c_19, main_v93, main_v94, main_v95, main_v96, main_v97]

set_option maxRecDepth 8192 in
/-- Each operation of window 1 writes only its result buffer, which the list holds. -/
theorem ops_part1_writes : (ops_part1 : List (HloOp τ sig (Elt F))).Forall fun op =>
    op.writes ⊆ (ops_part1_W.map (Proc.devRef (τ := τ) .tc)).toFinset :=
  ⟨single_sub_of_mem (y := main_c_9) (by decide),
   single_sub_of_mem (y := main_v49) (by decide),
   single_sub_of_mem (y := main_v50) (by decide),
   single_sub_of_mem (y := main_v51) (by decide),
   single_sub_of_mem (y := main_v52) (by decide),
   single_sub_of_mem (y := main_v53) (by decide),
   single_sub_of_mem (y := main_v54) (by decide),
   single_sub_of_mem (y := main_v55) (by decide),
   single_sub_of_mem (y := main_cst_10) (by decide),
   single_sub_of_mem (y := main_v56) (by decide),
   single_sub_of_mem (y := main_v57) (by decide),
   single_sub_of_mem (y := main_v58) (by decide),
   single_sub_of_mem (y := main_cst_11) (by decide),
   single_sub_of_mem (y := main_v59) (by decide),
   single_sub_of_mem (y := main_v60) (by decide),
   single_sub_of_mem (y := main_call2.v0.ref) (by decide),
   single_sub_of_mem (y := main_call2.cst.ref) (by decide),
   single_sub_of_mem (y := main_call2.v1.ref) (by decide),
   single_sub_of_mem (y := main_call2.v2.ref) (by decide),
   single_sub_of_mem (y := main_call2.v3.ref) (by decide),
   single_sub_of_mem (y := main_cst_12) (by decide),
   single_sub_of_mem (y := main_v62) (by decide),
   single_sub_of_mem (y := main_v63) (by decide),
   single_sub_of_mem (y := main_v64) (by decide),
   single_sub_of_mem (y := main_v65) (by decide),
   single_sub_of_mem (y := main_v66) (by decide),
   single_sub_of_mem (y := main_v67) (by decide),
   single_sub_of_mem (y := main_c_13) (by decide),
   single_sub_of_mem (y := main_v68) (by decide),
   single_sub_of_mem (y := main_v69) (by decide),
   single_sub_of_mem (y := main_c_14) (by decide),
   single_sub_of_mem (y := main_v70) (by decide),
   single_sub_of_mem (y := main_v71) (by decide),
   single_sub_of_mem (y := main_v72) (by decide),
   single_sub_of_mem (y := main_v73) (by decide),
   single_sub_of_mem (y := main_v74) (by decide),
   single_sub_of_mem (y := main_v75) (by decide),
   single_sub_of_mem (y := main_v76) (by decide),
   single_sub_of_mem (y := main_cst_15) (by decide),
   single_sub_of_mem (y := main_v77) (by decide),
   single_sub_of_mem (y := main_v78) (by decide),
   single_sub_of_mem (y := main_v79) (by decide),
   single_sub_of_mem (y := main_cst_16) (by decide),
   single_sub_of_mem (y := main_v80) (by decide),
   single_sub_of_mem (y := main_v81) (by decide),
   single_sub_of_mem (y := main_call3.v0.ref) (by decide),
   single_sub_of_mem (y := main_call3.cst.ref) (by decide),
   single_sub_of_mem (y := main_call3.v1.ref) (by decide),
   single_sub_of_mem (y := main_call3.v2.ref) (by decide),
   single_sub_of_mem (y := main_call3.v3.ref) (by decide),
   single_sub_of_mem (y := main_cst_17) (by decide),
   single_sub_of_mem (y := main_v83) (by decide),
   single_sub_of_mem (y := main_v84) (by decide),
   single_sub_of_mem (y := main_v85) (by decide),
   single_sub_of_mem (y := main_v86) (by decide),
   single_sub_of_mem (y := main_v87) (by decide),
   single_sub_of_mem (y := main_v88) (by decide),
   single_sub_of_mem (y := main_v89) (by decide),
   single_sub_of_mem (y := main_v90) (by decide),
   single_sub_of_mem (y := main_c_18) (by decide),
   single_sub_of_mem (y := main_v91) (by decide),
   single_sub_of_mem (y := main_v92) (by decide),
   single_sub_of_mem (y := main_c_19) (by decide),
   single_sub_of_mem (y := main_v93) (by decide),
   single_sub_of_mem (y := main_v94) (by decide),
   single_sub_of_mem (y := main_v95) (by decide),
   single_sub_of_mem (y := main_v96) (by decide),
   single_sub_of_mem (y := main_v97) (by decide)⟩

/-- A buffer that window 1 does not write keeps its contents through it. -/
theorem ops_part1_keep (V : Valuation τ sig (Elt F)) (r : Ref sig .tc) (h : r ∉ ops_part1_W) :
    after ops_part1 V (Proc.devRef .tc r) = V (Proc.devRef .tc r) :=
  after_of_writes_sub ops_part1 V ops_part1_writes h

/-- The buffers that window 2's operations write: one result buffer each. -/
abbrev ops_part2_W : List (Ref sig .tc) :=
  [main_v98, main_v99, main_cst_20, main_v100, main_v101, main_v102, main_c_21, main_v103, main_v104, main_c_22, main_v105, main_v106, main_v107, main_v108, main_v109, main_c_23, main_v110, main_v111, main_c_24, main_v112, main_v113, main_v114, main_v115, main_v116, main_cst_25, main_v117, main_v118, main_v119, main_c_26, main_v120, main_v121, main_c_27, main_v122, main_v123, main_v124, main_v125, main_v126, main_cst_28, main_v127, main_v128, main_v129, main_v130, main_v131, main_v132, main_cst_29, main_v133, main_v134, main_v135, main_v136, main_v137, main_cst_30, main_v138, main_v139, main_v140, main_v141, main_v142, main_v143, main_v144, main_call4.v0.ref, main_call4.call0.cst.ref, main_call4.call0.v0.ref, main_call4.call0.v1.ref, main_call4.call0.v2.ref, main_call4.call0.v3.ref, main_call4.call0.v4.ref, main_call4.call0.v5.ref, main_call4.call0.v6.ref, main_call4.call0.v7.ref, main_call4.call0.v8.ref, main_call4.call0.v9.ref, main_call4.call0.v10.ref, main_call4.call0.v11.ref, main_call4.call0.v12.ref, main_call4.v2.ref, main_cst_31]

set_option maxRecDepth 8192 in
/-- Each operation of window 2 writes only its result buffer, which the list holds. -/
theorem ops_part2_writes : (ops_part2 : List (HloOp τ sig (Elt F))).Forall fun op =>
    op.writes ⊆ (ops_part2_W.map (Proc.devRef (τ := τ) .tc)).toFinset :=
  ⟨single_sub_of_mem (y := main_v98) (by decide),
   single_sub_of_mem (y := main_v99) (by decide),
   single_sub_of_mem (y := main_cst_20) (by decide),
   single_sub_of_mem (y := main_v100) (by decide),
   single_sub_of_mem (y := main_v101) (by decide),
   single_sub_of_mem (y := main_v102) (by decide),
   single_sub_of_mem (y := main_c_21) (by decide),
   single_sub_of_mem (y := main_v103) (by decide),
   single_sub_of_mem (y := main_v104) (by decide),
   single_sub_of_mem (y := main_c_22) (by decide),
   single_sub_of_mem (y := main_v105) (by decide),
   single_sub_of_mem (y := main_v106) (by decide),
   single_sub_of_mem (y := main_v107) (by decide),
   single_sub_of_mem (y := main_v108) (by decide),
   single_sub_of_mem (y := main_v109) (by decide),
   single_sub_of_mem (y := main_c_23) (by decide),
   single_sub_of_mem (y := main_v110) (by decide),
   single_sub_of_mem (y := main_v111) (by decide),
   single_sub_of_mem (y := main_c_24) (by decide),
   single_sub_of_mem (y := main_v112) (by decide),
   single_sub_of_mem (y := main_v113) (by decide),
   single_sub_of_mem (y := main_v114) (by decide),
   single_sub_of_mem (y := main_v115) (by decide),
   single_sub_of_mem (y := main_v116) (by decide),
   single_sub_of_mem (y := main_cst_25) (by decide),
   single_sub_of_mem (y := main_v117) (by decide),
   single_sub_of_mem (y := main_v118) (by decide),
   single_sub_of_mem (y := main_v119) (by decide),
   single_sub_of_mem (y := main_c_26) (by decide),
   single_sub_of_mem (y := main_v120) (by decide),
   single_sub_of_mem (y := main_v121) (by decide),
   single_sub_of_mem (y := main_c_27) (by decide),
   single_sub_of_mem (y := main_v122) (by decide),
   single_sub_of_mem (y := main_v123) (by decide),
   single_sub_of_mem (y := main_v124) (by decide),
   single_sub_of_mem (y := main_v125) (by decide),
   single_sub_of_mem (y := main_v126) (by decide),
   single_sub_of_mem (y := main_cst_28) (by decide),
   single_sub_of_mem (y := main_v127) (by decide),
   single_sub_of_mem (y := main_v128) (by decide),
   single_sub_of_mem (y := main_v129) (by decide),
   single_sub_of_mem (y := main_v130) (by decide),
   single_sub_of_mem (y := main_v131) (by decide),
   single_sub_of_mem (y := main_v132) (by decide),
   single_sub_of_mem (y := main_cst_29) (by decide),
   single_sub_of_mem (y := main_v133) (by decide),
   single_sub_of_mem (y := main_v134) (by decide),
   single_sub_of_mem (y := main_v135) (by decide),
   single_sub_of_mem (y := main_v136) (by decide),
   single_sub_of_mem (y := main_v137) (by decide),
   single_sub_of_mem (y := main_cst_30) (by decide),
   single_sub_of_mem (y := main_v138) (by decide),
   single_sub_of_mem (y := main_v139) (by decide),
   single_sub_of_mem (y := main_v140) (by decide),
   single_sub_of_mem (y := main_v141) (by decide),
   single_sub_of_mem (y := main_v142) (by decide),
   single_sub_of_mem (y := main_v143) (by decide),
   single_sub_of_mem (y := main_v144) (by decide),
   single_sub_of_mem (y := main_call4.v0.ref) (by decide),
   single_sub_of_mem (y := main_call4.call0.cst.ref) (by decide),
   single_sub_of_mem (y := main_call4.call0.v0.ref) (by decide),
   single_sub_of_mem (y := main_call4.call0.v1.ref) (by decide),
   single_sub_of_mem (y := main_call4.call0.v2.ref) (by decide),
   single_sub_of_mem (y := main_call4.call0.v3.ref) (by decide),
   single_sub_of_mem (y := main_call4.call0.v4.ref) (by decide),
   single_sub_of_mem (y := main_call4.call0.v5.ref) (by decide),
   single_sub_of_mem (y := main_call4.call0.v6.ref) (by decide),
   single_sub_of_mem (y := main_call4.call0.v7.ref) (by decide),
   single_sub_of_mem (y := main_call4.call0.v8.ref) (by decide),
   single_sub_of_mem (y := main_call4.call0.v9.ref) (by decide),
   single_sub_of_mem (y := main_call4.call0.v10.ref) (by decide),
   single_sub_of_mem (y := main_call4.call0.v11.ref) (by decide),
   single_sub_of_mem (y := main_call4.call0.v12.ref) (by decide),
   single_sub_of_mem (y := main_call4.v2.ref) (by decide),
   single_sub_of_mem (y := main_cst_31) (by decide)⟩

/-- A buffer that window 2 does not write keeps its contents through it. -/
theorem ops_part2_keep (V : Valuation τ sig (Elt F)) (r : Ref sig .tc) (h : r ∉ ops_part2_W) :
    after ops_part2 V (Proc.devRef .tc r) = V (Proc.devRef .tc r) :=
  after_of_writes_sub ops_part2 V ops_part2_writes h

/-- The buffers that window 3's operations write: one result buffer each. -/
abbrev ops_part3_W : List (Ref sig .tc) :=
  [main_v146, main_cst_32, main_v147, main_v148, main_v149, main_v150, main_v151, main_v152, main_call5.v0.ref, main_call5.cst.ref, main_call5.v1.ref, main_call5.v2.ref, main_call5.v3.ref, main_cst_33, main_v154, main_v155, main_v156, main_v157, main_call6.v0.ref, main_call6.cst.ref, main_call6.v1.ref, main_call6.v2.ref, main_call6.v3.ref, main_cst_34, main_v159, main_v160, main_v161, main_v162, main_v163, main_v164, main_cst_35, main_v165, main_cst_36, main_v166, main_cst_37, main_v167, main_call7.v0.ref, main_call7.cst.ref, main_call7.v1.ref, main_call7.v2.ref, main_call7.v3.ref, main_cst_38, main_v169, main_v170, main_v171, main_v172, main_v173, main_cst_39, main_v174, main_v175, main_v176, main_v177, main_v178, main_v179, main_v180, main_v181, main_cst_40, main_v182, main_v183, main_v184, main_cst_41, main_v185, main_v186, main_c_42, main_v187, main_call8.v0.ref, main_call8.c.ref, main_call8.v1.ref, main_call8.v2.ref, main_call8.v3.ref, main_call8.v4.ref, main_call8.c_0.ref, main_call8.v5.ref, main_call8.v6.ref, main_cst_43, main_v189, main_v190, main_v191, main_cst_44, main_call9.v0.ref, main_call9.v1.ref, main_call9.v2.ref]

set_option maxRecDepth 8192 in
/-- Each operation of window 3 writes only its result buffer, which the list holds. -/
theorem ops_part3_writes : (ops_part3 : List (HloOp τ sig (Elt F))).Forall fun op =>
    op.writes ⊆ (ops_part3_W.map (Proc.devRef (τ := τ) .tc)).toFinset :=
  ⟨single_sub_of_mem (y := main_v146) (by decide),
   single_sub_of_mem (y := main_cst_32) (by decide),
   single_sub_of_mem (y := main_v147) (by decide),
   single_sub_of_mem (y := main_v148) (by decide),
   single_sub_of_mem (y := main_v149) (by decide),
   single_sub_of_mem (y := main_v150) (by decide),
   single_sub_of_mem (y := main_v151) (by decide),
   single_sub_of_mem (y := main_v152) (by decide),
   single_sub_of_mem (y := main_call5.v0.ref) (by decide),
   single_sub_of_mem (y := main_call5.cst.ref) (by decide),
   single_sub_of_mem (y := main_call5.v1.ref) (by decide),
   single_sub_of_mem (y := main_call5.v2.ref) (by decide),
   single_sub_of_mem (y := main_call5.v3.ref) (by decide),
   single_sub_of_mem (y := main_cst_33) (by decide),
   single_sub_of_mem (y := main_v154) (by decide),
   single_sub_of_mem (y := main_v155) (by decide),
   single_sub_of_mem (y := main_v156) (by decide),
   single_sub_of_mem (y := main_v157) (by decide),
   single_sub_of_mem (y := main_call6.v0.ref) (by decide),
   single_sub_of_mem (y := main_call6.cst.ref) (by decide),
   single_sub_of_mem (y := main_call6.v1.ref) (by decide),
   single_sub_of_mem (y := main_call6.v2.ref) (by decide),
   single_sub_of_mem (y := main_call6.v3.ref) (by decide),
   single_sub_of_mem (y := main_cst_34) (by decide),
   single_sub_of_mem (y := main_v159) (by decide),
   single_sub_of_mem (y := main_v160) (by decide),
   single_sub_of_mem (y := main_v161) (by decide),
   single_sub_of_mem (y := main_v162) (by decide),
   single_sub_of_mem (y := main_v163) (by decide),
   single_sub_of_mem (y := main_v164) (by decide),
   single_sub_of_mem (y := main_cst_35) (by decide),
   single_sub_of_mem (y := main_v165) (by decide),
   single_sub_of_mem (y := main_cst_36) (by decide),
   single_sub_of_mem (y := main_v166) (by decide),
   single_sub_of_mem (y := main_cst_37) (by decide),
   single_sub_of_mem (y := main_v167) (by decide),
   single_sub_of_mem (y := main_call7.v0.ref) (by decide),
   single_sub_of_mem (y := main_call7.cst.ref) (by decide),
   single_sub_of_mem (y := main_call7.v1.ref) (by decide),
   single_sub_of_mem (y := main_call7.v2.ref) (by decide),
   single_sub_of_mem (y := main_call7.v3.ref) (by decide),
   single_sub_of_mem (y := main_cst_38) (by decide),
   single_sub_of_mem (y := main_v169) (by decide),
   single_sub_of_mem (y := main_v170) (by decide),
   single_sub_of_mem (y := main_v171) (by decide),
   single_sub_of_mem (y := main_v172) (by decide),
   single_sub_of_mem (y := main_v173) (by decide),
   single_sub_of_mem (y := main_cst_39) (by decide),
   single_sub_of_mem (y := main_v174) (by decide),
   single_sub_of_mem (y := main_v175) (by decide),
   single_sub_of_mem (y := main_v176) (by decide),
   single_sub_of_mem (y := main_v177) (by decide),
   single_sub_of_mem (y := main_v178) (by decide),
   single_sub_of_mem (y := main_v179) (by decide),
   single_sub_of_mem (y := main_v180) (by decide),
   single_sub_of_mem (y := main_v181) (by decide),
   single_sub_of_mem (y := main_cst_40) (by decide),
   single_sub_of_mem (y := main_v182) (by decide),
   single_sub_of_mem (y := main_v183) (by decide),
   single_sub_of_mem (y := main_v184) (by decide),
   single_sub_of_mem (y := main_cst_41) (by decide),
   single_sub_of_mem (y := main_v185) (by decide),
   single_sub_of_mem (y := main_v186) (by decide),
   single_sub_of_mem (y := main_c_42) (by decide),
   single_sub_of_mem (y := main_v187) (by decide),
   single_sub_of_mem (y := main_call8.v0.ref) (by decide),
   single_sub_of_mem (y := main_call8.c.ref) (by decide),
   single_sub_of_mem (y := main_call8.v1.ref) (by decide),
   single_sub_of_mem (y := main_call8.v2.ref) (by decide),
   single_sub_of_mem (y := main_call8.v3.ref) (by decide),
   single_sub_of_mem (y := main_call8.v4.ref) (by decide),
   single_sub_of_mem (y := main_call8.c_0.ref) (by decide),
   single_sub_of_mem (y := main_call8.v5.ref) (by decide),
   single_sub_of_mem (y := main_call8.v6.ref) (by decide),
   single_sub_of_mem (y := main_cst_43) (by decide),
   single_sub_of_mem (y := main_v189) (by decide),
   single_sub_of_mem (y := main_v190) (by decide),
   single_sub_of_mem (y := main_v191) (by decide),
   single_sub_of_mem (y := main_cst_44) (by decide),
   single_sub_of_mem (y := main_call9.v0.ref) (by decide),
   single_sub_of_mem (y := main_call9.v1.ref) (by decide),
   single_sub_of_mem (y := main_call9.v2.ref) (by decide)⟩

/-- A buffer that window 3 does not write keeps its contents through it. -/
theorem ops_part3_keep (V : Valuation τ sig (Elt F)) (r : Ref sig .tc) (h : r ∉ ops_part3_W) :
    after ops_part3 V (Proc.devRef .tc r) = V (Proc.devRef .tc r) :=
  after_of_writes_sub ops_part3 V ops_part3_writes h

/-- The buffers that window 4's operations write: one result buffer each. -/
abbrev ops_part4_W : List (Ref sig .tc) :=
  [main_cst_45, main_v193, main_cst_46, main_v194, main_v195, main_call10.v0.ref, main_call10.cst.ref, main_call10.v1.ref, main_call10.v2.ref, main_call10.v3.ref, main_cst_47, main_v197, main_v198, main_v199, main_v200, main_v201, main_cst_48, main_v202, main_v203, main_v204, main_v205, main_v206, main_v207, main_v208, main_v209, main_cst_49, main_v210, main_v211, main_v212, main_cst_50, main_v213, main_v214, main_c_51, main_v215, main_call11.v0.ref, main_call11.c.ref, main_call11.v1.ref, main_call11.v2.ref, main_call11.v3.ref, main_call11.v4.ref, main_call11.c_0.ref, main_call11.v5.ref, main_call11.v6.ref, main_cst_52, main_v217, main_v218, main_v219, main_cst_53, main_call12.v0.ref, main_call12.v1.ref, main_call12.v2.ref, main_cst_54, main_v221, main_cst_55, main_v222, main_v223, main_cst_56, main_v224, main_v225, main_v226, main_v227, main_c_57, main_v228, main_v229, main_c_58, main_v230, main_v231, main_v232, main_v233, main_v234, main_v235, main_c_59, main_v236, main_v237]

set_option maxRecDepth 8192 in
/-- Each operation of window 4 writes only its result buffer, which the list holds. -/
theorem ops_part4_writes : (ops_part4 : List (HloOp τ sig (Elt F))).Forall fun op =>
    op.writes ⊆ (ops_part4_W.map (Proc.devRef (τ := τ) .tc)).toFinset :=
  ⟨single_sub_of_mem (y := main_cst_45) (by decide),
   single_sub_of_mem (y := main_v193) (by decide),
   single_sub_of_mem (y := main_cst_46) (by decide),
   single_sub_of_mem (y := main_v194) (by decide),
   single_sub_of_mem (y := main_v195) (by decide),
   single_sub_of_mem (y := main_call10.v0.ref) (by decide),
   single_sub_of_mem (y := main_call10.cst.ref) (by decide),
   single_sub_of_mem (y := main_call10.v1.ref) (by decide),
   single_sub_of_mem (y := main_call10.v2.ref) (by decide),
   single_sub_of_mem (y := main_call10.v3.ref) (by decide),
   single_sub_of_mem (y := main_cst_47) (by decide),
   single_sub_of_mem (y := main_v197) (by decide),
   single_sub_of_mem (y := main_v198) (by decide),
   single_sub_of_mem (y := main_v199) (by decide),
   single_sub_of_mem (y := main_v200) (by decide),
   single_sub_of_mem (y := main_v201) (by decide),
   single_sub_of_mem (y := main_cst_48) (by decide),
   single_sub_of_mem (y := main_v202) (by decide),
   single_sub_of_mem (y := main_v203) (by decide),
   single_sub_of_mem (y := main_v204) (by decide),
   single_sub_of_mem (y := main_v205) (by decide),
   single_sub_of_mem (y := main_v206) (by decide),
   single_sub_of_mem (y := main_v207) (by decide),
   single_sub_of_mem (y := main_v208) (by decide),
   single_sub_of_mem (y := main_v209) (by decide),
   single_sub_of_mem (y := main_cst_49) (by decide),
   single_sub_of_mem (y := main_v210) (by decide),
   single_sub_of_mem (y := main_v211) (by decide),
   single_sub_of_mem (y := main_v212) (by decide),
   single_sub_of_mem (y := main_cst_50) (by decide),
   single_sub_of_mem (y := main_v213) (by decide),
   single_sub_of_mem (y := main_v214) (by decide),
   single_sub_of_mem (y := main_c_51) (by decide),
   single_sub_of_mem (y := main_v215) (by decide),
   single_sub_of_mem (y := main_call11.v0.ref) (by decide),
   single_sub_of_mem (y := main_call11.c.ref) (by decide),
   single_sub_of_mem (y := main_call11.v1.ref) (by decide),
   single_sub_of_mem (y := main_call11.v2.ref) (by decide),
   single_sub_of_mem (y := main_call11.v3.ref) (by decide),
   single_sub_of_mem (y := main_call11.v4.ref) (by decide),
   single_sub_of_mem (y := main_call11.c_0.ref) (by decide),
   single_sub_of_mem (y := main_call11.v5.ref) (by decide),
   single_sub_of_mem (y := main_call11.v6.ref) (by decide),
   single_sub_of_mem (y := main_cst_52) (by decide),
   single_sub_of_mem (y := main_v217) (by decide),
   single_sub_of_mem (y := main_v218) (by decide),
   single_sub_of_mem (y := main_v219) (by decide),
   single_sub_of_mem (y := main_cst_53) (by decide),
   single_sub_of_mem (y := main_call12.v0.ref) (by decide),
   single_sub_of_mem (y := main_call12.v1.ref) (by decide),
   single_sub_of_mem (y := main_call12.v2.ref) (by decide),
   single_sub_of_mem (y := main_cst_54) (by decide),
   single_sub_of_mem (y := main_v221) (by decide),
   single_sub_of_mem (y := main_cst_55) (by decide),
   single_sub_of_mem (y := main_v222) (by decide),
   single_sub_of_mem (y := main_v223) (by decide),
   single_sub_of_mem (y := main_cst_56) (by decide),
   single_sub_of_mem (y := main_v224) (by decide),
   single_sub_of_mem (y := main_v225) (by decide),
   single_sub_of_mem (y := main_v226) (by decide),
   single_sub_of_mem (y := main_v227) (by decide),
   single_sub_of_mem (y := main_c_57) (by decide),
   single_sub_of_mem (y := main_v228) (by decide),
   single_sub_of_mem (y := main_v229) (by decide),
   single_sub_of_mem (y := main_c_58) (by decide),
   single_sub_of_mem (y := main_v230) (by decide),
   single_sub_of_mem (y := main_v231) (by decide),
   single_sub_of_mem (y := main_v232) (by decide),
   single_sub_of_mem (y := main_v233) (by decide),
   single_sub_of_mem (y := main_v234) (by decide),
   single_sub_of_mem (y := main_v235) (by decide),
   single_sub_of_mem (y := main_c_59) (by decide),
   single_sub_of_mem (y := main_v236) (by decide),
   single_sub_of_mem (y := main_v237) (by decide)⟩

/-- A buffer that window 4 does not write keeps its contents through it. -/
theorem ops_part4_keep (V : Valuation τ sig (Elt F)) (r : Ref sig .tc) (h : r ∉ ops_part4_W) :
    after ops_part4 V (Proc.devRef .tc r) = V (Proc.devRef .tc r) :=
  after_of_writes_sub ops_part4 V ops_part4_writes h

/-- The buffers that window 5's operations write: one result buffer each. -/
abbrev ops_part5_W : List (Ref sig .tc) :=
  [main_c_60, main_v238, main_v239, main_v240, main_v241, main_v242, main_call13.v0.ref, main_call13.cst.ref, main_call13.v1.ref, main_call13.v2.ref, main_call13.v3.ref, main_cst_61, main_v244, main_v245, main_v246, main_v247, main_call14.v0.ref, main_call14.cst.ref, main_call14.v1.ref, main_call14.v2.ref, main_call14.v3.ref, main_cst_62, main_v249, main_v250, main_v251, main_v252, main_v253, main_v254, main_cst_63, main_v255, main_cst_64, main_v256, main_cst_65, main_v257, main_call15.v0.ref, main_call15.cst.ref, main_call15.v1.ref, main_call15.v2.ref, main_call15.v3.ref, main_cst_66, main_v259, main_v260, main_v261, main_v262, main_v263, main_cst_67, main_v264, main_v265, main_v266, main_v267, main_v268, main_v269, main_v270, main_v271, main_cst_68, main_v272, main_v273, main_v274, main_cst_69, main_v275, main_v276, main_c_70, main_v277, main_call16.v0.ref, main_call16.c.ref, main_call16.v1.ref, main_call16.v2.ref, main_call16.v3.ref, main_call16.v4.ref, main_call16.c_0.ref, main_call16.v5.ref, main_call16.v6.ref, main_cst_71, main_v279, main_v280, main_v281, main_cst_72, main_call17.v0.ref, main_call17.v1.ref, main_call17.v2.ref, main_cst_73, main_v283]

set_option maxRecDepth 8192 in
/-- Each operation of window 5 writes only its result buffer, which the list holds. -/
theorem ops_part5_writes : (ops_part5 : List (HloOp τ sig (Elt F))).Forall fun op =>
    op.writes ⊆ (ops_part5_W.map (Proc.devRef (τ := τ) .tc)).toFinset :=
  ⟨single_sub_of_mem (y := main_c_60) (by decide),
   single_sub_of_mem (y := main_v238) (by decide),
   single_sub_of_mem (y := main_v239) (by decide),
   single_sub_of_mem (y := main_v240) (by decide),
   single_sub_of_mem (y := main_v241) (by decide),
   single_sub_of_mem (y := main_v242) (by decide),
   single_sub_of_mem (y := main_call13.v0.ref) (by decide),
   single_sub_of_mem (y := main_call13.cst.ref) (by decide),
   single_sub_of_mem (y := main_call13.v1.ref) (by decide),
   single_sub_of_mem (y := main_call13.v2.ref) (by decide),
   single_sub_of_mem (y := main_call13.v3.ref) (by decide),
   single_sub_of_mem (y := main_cst_61) (by decide),
   single_sub_of_mem (y := main_v244) (by decide),
   single_sub_of_mem (y := main_v245) (by decide),
   single_sub_of_mem (y := main_v246) (by decide),
   single_sub_of_mem (y := main_v247) (by decide),
   single_sub_of_mem (y := main_call14.v0.ref) (by decide),
   single_sub_of_mem (y := main_call14.cst.ref) (by decide),
   single_sub_of_mem (y := main_call14.v1.ref) (by decide),
   single_sub_of_mem (y := main_call14.v2.ref) (by decide),
   single_sub_of_mem (y := main_call14.v3.ref) (by decide),
   single_sub_of_mem (y := main_cst_62) (by decide),
   single_sub_of_mem (y := main_v249) (by decide),
   single_sub_of_mem (y := main_v250) (by decide),
   single_sub_of_mem (y := main_v251) (by decide),
   single_sub_of_mem (y := main_v252) (by decide),
   single_sub_of_mem (y := main_v253) (by decide),
   single_sub_of_mem (y := main_v254) (by decide),
   single_sub_of_mem (y := main_cst_63) (by decide),
   single_sub_of_mem (y := main_v255) (by decide),
   single_sub_of_mem (y := main_cst_64) (by decide),
   single_sub_of_mem (y := main_v256) (by decide),
   single_sub_of_mem (y := main_cst_65) (by decide),
   single_sub_of_mem (y := main_v257) (by decide),
   single_sub_of_mem (y := main_call15.v0.ref) (by decide),
   single_sub_of_mem (y := main_call15.cst.ref) (by decide),
   single_sub_of_mem (y := main_call15.v1.ref) (by decide),
   single_sub_of_mem (y := main_call15.v2.ref) (by decide),
   single_sub_of_mem (y := main_call15.v3.ref) (by decide),
   single_sub_of_mem (y := main_cst_66) (by decide),
   single_sub_of_mem (y := main_v259) (by decide),
   single_sub_of_mem (y := main_v260) (by decide),
   single_sub_of_mem (y := main_v261) (by decide),
   single_sub_of_mem (y := main_v262) (by decide),
   single_sub_of_mem (y := main_v263) (by decide),
   single_sub_of_mem (y := main_cst_67) (by decide),
   single_sub_of_mem (y := main_v264) (by decide),
   single_sub_of_mem (y := main_v265) (by decide),
   single_sub_of_mem (y := main_v266) (by decide),
   single_sub_of_mem (y := main_v267) (by decide),
   single_sub_of_mem (y := main_v268) (by decide),
   single_sub_of_mem (y := main_v269) (by decide),
   single_sub_of_mem (y := main_v270) (by decide),
   single_sub_of_mem (y := main_v271) (by decide),
   single_sub_of_mem (y := main_cst_68) (by decide),
   single_sub_of_mem (y := main_v272) (by decide),
   single_sub_of_mem (y := main_v273) (by decide),
   single_sub_of_mem (y := main_v274) (by decide),
   single_sub_of_mem (y := main_cst_69) (by decide),
   single_sub_of_mem (y := main_v275) (by decide),
   single_sub_of_mem (y := main_v276) (by decide),
   single_sub_of_mem (y := main_c_70) (by decide),
   single_sub_of_mem (y := main_v277) (by decide),
   single_sub_of_mem (y := main_call16.v0.ref) (by decide),
   single_sub_of_mem (y := main_call16.c.ref) (by decide),
   single_sub_of_mem (y := main_call16.v1.ref) (by decide),
   single_sub_of_mem (y := main_call16.v2.ref) (by decide),
   single_sub_of_mem (y := main_call16.v3.ref) (by decide),
   single_sub_of_mem (y := main_call16.v4.ref) (by decide),
   single_sub_of_mem (y := main_call16.c_0.ref) (by decide),
   single_sub_of_mem (y := main_call16.v5.ref) (by decide),
   single_sub_of_mem (y := main_call16.v6.ref) (by decide),
   single_sub_of_mem (y := main_cst_71) (by decide),
   single_sub_of_mem (y := main_v279) (by decide),
   single_sub_of_mem (y := main_v280) (by decide),
   single_sub_of_mem (y := main_v281) (by decide),
   single_sub_of_mem (y := main_cst_72) (by decide),
   single_sub_of_mem (y := main_call17.v0.ref) (by decide),
   single_sub_of_mem (y := main_call17.v1.ref) (by decide),
   single_sub_of_mem (y := main_call17.v2.ref) (by decide),
   single_sub_of_mem (y := main_cst_73) (by decide),
   single_sub_of_mem (y := main_v283) (by decide)⟩

/-- A buffer that window 5 does not write keeps its contents through it. -/
theorem ops_part5_keep (V : Valuation τ sig (Elt F)) (r : Ref sig .tc) (h : r ∉ ops_part5_W) :
    after ops_part5 V (Proc.devRef .tc r) = V (Proc.devRef .tc r) :=
  after_of_writes_sub ops_part5 V ops_part5_writes h

/-- The buffers that window 6's operations write: one result buffer each. -/
abbrev ops_part6_W : List (Ref sig .tc) :=
  [main_cst_74, main_v284, main_v285, main_call18.v0.ref, main_call18.cst.ref, main_call18.v1.ref, main_call18.v2.ref, main_call18.v3.ref, main_cst_75, main_v287, main_v288, main_v289, main_v290, main_v291, main_cst_76, main_v292, main_v293, main_v294, main_v295, main_v296, main_v297, main_v298, main_v299, main_cst_77, main_v300, main_v301, main_v302, main_cst_78, main_v303, main_v304, main_c_79, main_v305, main_call19.v0.ref, main_call19.c.ref, main_call19.v1.ref, main_call19.v2.ref, main_call19.v3.ref, main_call19.v4.ref, main_call19.c_0.ref, main_call19.v5.ref, main_call19.v6.ref, main_cst_80, main_v307, main_v308, main_v309, main_cst_81, main_call20.v0.ref, main_call20.v1.ref, main_call20.v2.ref, main_cst_82, main_v311, main_cst_83, main_v312, main_v313, main_cst_84, main_v314, main_v315, main_v316, main_v317, main_cst_85, main_v318, main_v319, main_v320, main_v321]

set_option maxRecDepth 8192 in
/-- Each operation of window 6 writes only its result buffer, which the list holds. -/
theorem ops_part6_writes : (ops_part6 : List (HloOp τ sig (Elt F))).Forall fun op =>
    op.writes ⊆ (ops_part6_W.map (Proc.devRef (τ := τ) .tc)).toFinset :=
  ⟨single_sub_of_mem (y := main_cst_74) (by decide),
   single_sub_of_mem (y := main_v284) (by decide),
   single_sub_of_mem (y := main_v285) (by decide),
   single_sub_of_mem (y := main_call18.v0.ref) (by decide),
   single_sub_of_mem (y := main_call18.cst.ref) (by decide),
   single_sub_of_mem (y := main_call18.v1.ref) (by decide),
   single_sub_of_mem (y := main_call18.v2.ref) (by decide),
   single_sub_of_mem (y := main_call18.v3.ref) (by decide),
   single_sub_of_mem (y := main_cst_75) (by decide),
   single_sub_of_mem (y := main_v287) (by decide),
   single_sub_of_mem (y := main_v288) (by decide),
   single_sub_of_mem (y := main_v289) (by decide),
   single_sub_of_mem (y := main_v290) (by decide),
   single_sub_of_mem (y := main_v291) (by decide),
   single_sub_of_mem (y := main_cst_76) (by decide),
   single_sub_of_mem (y := main_v292) (by decide),
   single_sub_of_mem (y := main_v293) (by decide),
   single_sub_of_mem (y := main_v294) (by decide),
   single_sub_of_mem (y := main_v295) (by decide),
   single_sub_of_mem (y := main_v296) (by decide),
   single_sub_of_mem (y := main_v297) (by decide),
   single_sub_of_mem (y := main_v298) (by decide),
   single_sub_of_mem (y := main_v299) (by decide),
   single_sub_of_mem (y := main_cst_77) (by decide),
   single_sub_of_mem (y := main_v300) (by decide),
   single_sub_of_mem (y := main_v301) (by decide),
   single_sub_of_mem (y := main_v302) (by decide),
   single_sub_of_mem (y := main_cst_78) (by decide),
   single_sub_of_mem (y := main_v303) (by decide),
   single_sub_of_mem (y := main_v304) (by decide),
   single_sub_of_mem (y := main_c_79) (by decide),
   single_sub_of_mem (y := main_v305) (by decide),
   single_sub_of_mem (y := main_call19.v0.ref) (by decide),
   single_sub_of_mem (y := main_call19.c.ref) (by decide),
   single_sub_of_mem (y := main_call19.v1.ref) (by decide),
   single_sub_of_mem (y := main_call19.v2.ref) (by decide),
   single_sub_of_mem (y := main_call19.v3.ref) (by decide),
   single_sub_of_mem (y := main_call19.v4.ref) (by decide),
   single_sub_of_mem (y := main_call19.c_0.ref) (by decide),
   single_sub_of_mem (y := main_call19.v5.ref) (by decide),
   single_sub_of_mem (y := main_call19.v6.ref) (by decide),
   single_sub_of_mem (y := main_cst_80) (by decide),
   single_sub_of_mem (y := main_v307) (by decide),
   single_sub_of_mem (y := main_v308) (by decide),
   single_sub_of_mem (y := main_v309) (by decide),
   single_sub_of_mem (y := main_cst_81) (by decide),
   single_sub_of_mem (y := main_call20.v0.ref) (by decide),
   single_sub_of_mem (y := main_call20.v1.ref) (by decide),
   single_sub_of_mem (y := main_call20.v2.ref) (by decide),
   single_sub_of_mem (y := main_cst_82) (by decide),
   single_sub_of_mem (y := main_v311) (by decide),
   single_sub_of_mem (y := main_cst_83) (by decide),
   single_sub_of_mem (y := main_v312) (by decide),
   single_sub_of_mem (y := main_v313) (by decide),
   single_sub_of_mem (y := main_cst_84) (by decide),
   single_sub_of_mem (y := main_v314) (by decide),
   single_sub_of_mem (y := main_v315) (by decide),
   single_sub_of_mem (y := main_v316) (by decide),
   single_sub_of_mem (y := main_v317) (by decide),
   single_sub_of_mem (y := main_cst_85) (by decide),
   single_sub_of_mem (y := main_v318) (by decide),
   single_sub_of_mem (y := main_v319) (by decide),
   single_sub_of_mem (y := main_v320) (by decide),
   single_sub_of_mem (y := main_v321) (by decide)⟩

/-- A buffer that window 6 does not write keeps its contents through it. -/
theorem ops_part6_keep (V : Valuation τ sig (Elt F)) (r : Ref sig .tc) (h : r ∉ ops_part6_W) :
    after ops_part6 V (Proc.devRef .tc r) = V (Proc.devRef .tc r) :=
  after_of_writes_sub ops_part6 V ops_part6_writes h

/-- A buffer that no window writes keeps its contents through the whole program. -/
theorem ops_keep (V : Valuation τ sig (Elt F)) (r : Ref sig .tc)
    (h0 : r ∉ ops_part0_W) (h1 : r ∉ ops_part1_W) (h2 : r ∉ ops_part2_W) (h3 : r ∉ ops_part3_W) (h4 : r ∉ ops_part4_W) (h5 : r ∉ ops_part5_W) (h6 : r ∉ ops_part6_W) :
    after ops V (Proc.devRef .tc r) = V (Proc.devRef .tc r) := by
  simp only [ops, StableHlo.after_append]
  rw [ops_part6_keep _ r h6, ops_part5_keep _ r h5, ops_part4_keep _ r h4, ops_part3_keep _ r h3,
    ops_part2_keep _ r h2, ops_part1_keep _ r h1, ops_part0_keep _ r h0]

/-- Argument 0 is no operation's result buffer: it ends as it started. -/
theorem after_main_arg0 (V : Valuation τ sig (Elt F)) :
    after ops V (Proc.devRef .tc main_arg0) = V (Proc.devRef .tc main_arg0) :=
  ops_keep V main_arg0 (by decide) (by decide) (by decide) (by decide) (by decide) (by decide) (by decide)

/-- Argument 1 is no operation's result buffer: it ends as it started. -/
theorem after_main_arg1 (V : Valuation τ sig (Elt F)) :
    after ops V (Proc.devRef .tc main_arg1) = V (Proc.devRef .tc main_arg1) :=
  ops_keep V main_arg1 (by decide) (by decide) (by decide) (by decide) (by decide) (by decide) (by decide)

/-- Argument 2 is no operation's result buffer: it ends as it started. -/
theorem after_main_arg2 (V : Valuation τ sig (Elt F)) :
    after ops V (Proc.devRef .tc main_arg2) = V (Proc.devRef .tc main_arg2) :=
  ops_keep V main_arg2 (by decide) (by decide) (by decide) (by decide) (by decide) (by decide) (by decide)

/-- Argument 3 is no operation's result buffer: it ends as it started. -/
theorem after_main_arg3 (V : Valuation τ sig (Elt F)) :
    after ops V (Proc.devRef .tc main_arg3) = V (Proc.devRef .tc main_arg3) :=
  ops_keep V main_arg3 (by decide) (by decide) (by decide) (by decide) (by decide) (by decide) (by decide)

/-- Argument 4 is no operation's result buffer: it ends as it started. -/
theorem after_main_arg4 (V : Valuation τ sig (Elt F)) :
    after ops V (Proc.devRef .tc main_arg4) = V (Proc.devRef .tc main_arg4) :=
  ops_keep V main_arg4 (by decide) (by decide) (by decide) (by decide) (by decide) (by decide) (by decide)

/-- Argument 5 is no operation's result buffer: it ends as it started. -/
theorem after_main_arg5 (V : Valuation τ sig (Elt F)) :
    after ops V (Proc.devRef .tc main_arg5) = V (Proc.devRef .tc main_arg5) :=
  ops_keep V main_arg5 (by decide) (by decide) (by decide) (by decide) (by decide) (by decide) (by decide)

/-- Argument 6 is no operation's result buffer: it ends as it started. -/
theorem after_main_arg6 (V : Valuation τ sig (Elt F)) :
    after ops V (Proc.devRef .tc main_arg6) = V (Proc.devRef .tc main_arg6) :=
  ops_keep V main_arg6 (by decide) (by decide) (by decide) (by decide) (by decide) (by decide) (by decide)

/-- Argument 7 is no operation's result buffer: it ends as it started. -/
theorem after_main_arg7 (V : Valuation τ sig (Elt F)) :
    after ops V (Proc.devRef .tc main_arg7) = V (Proc.devRef .tc main_arg7) :=
  ops_keep V main_arg7 (by decide) (by decide) (by decide) (by decide) (by decide) (by decide) (by decide)

/-- Argument 8 is no operation's result buffer: it ends as it started. -/
theorem after_main_arg8 (V : Valuation τ sig (Elt F)) :
    after ops V (Proc.devRef .tc main_arg8) = V (Proc.devRef .tc main_arg8) :=
  ops_keep V main_arg8 (by decide) (by decide) (by decide) (by decide) (by decide) (by decide) (by decide)

/-- Argument 9 is no operation's result buffer: it ends as it started. -/
theorem after_main_arg9 (V : Valuation τ sig (Elt F)) :
    after ops V (Proc.devRef .tc main_arg9) = V (Proc.devRef .tc main_arg9) :=
  ops_keep V main_arg9 (by decide) (by decide) (by decide) (by decide) (by decide) (by decide) (by decide)

/-- Argument 10 is no operation's result buffer: it ends as it started. -/
theorem after_main_arg10 (V : Valuation τ sig (Elt F)) :
    after ops V (Proc.devRef .tc main_arg10) = V (Proc.devRef .tc main_arg10) :=
  ops_keep V main_arg10 (by decide) (by decide) (by decide) (by decide) (by decide) (by decide) (by decide)

/-- Argument 11 is no operation's result buffer: it ends as it started. -/
theorem after_main_arg11 (V : Valuation τ sig (Elt F)) :
    after ops V (Proc.devRef .tc main_arg11) = V (Proc.devRef .tc main_arg11) :=
  ops_keep V main_arg11 (by decide) (by decide) (by decide) (by decide) (by decide) (by decide) (by decide)

/-- Argument 12 is no operation's result buffer: it ends as it started. -/
theorem after_main_arg12 (V : Valuation τ sig (Elt F)) :
    after ops V (Proc.devRef .tc main_arg12) = V (Proc.devRef .tc main_arg12) :=
  ops_keep V main_arg12 (by decide) (by decide) (by decide) (by decide) (by decide) (by decide) (by decide)

/-- Argument 13 is no operation's result buffer: it ends as it started. -/
theorem after_main_arg13 (V : Valuation τ sig (Elt F)) :
    after ops V (Proc.devRef .tc main_arg13) = V (Proc.devRef .tc main_arg13) :=
  ops_keep V main_arg13 (by decide) (by decide) (by decide) (by decide) (by decide) (by decide) (by decide)

/-- Argument 14 is no operation's result buffer: it ends as it started. -/
theorem after_main_arg14 (V : Valuation τ sig (Elt F)) :
    after ops V (Proc.devRef .tc main_arg14) = V (Proc.devRef .tc main_arg14) :=
  ops_keep V main_arg14 (by decide) (by decide) (by decide) (by decide) (by decide) (by decide) (by decide)

/-- The reference runs — every weakly fair execution terminates, nothing faulting — and leaves its fifteen
    argument arrays as launched: the final memory is the operations' fold over the launch memory, and the
    fold at an argument buffer is the launch contents. -/
theorem frame [hPre_finite_inputs : Cert.Pre_finite_inputs.Facts] : Cert.frame_ReferenceIdeal := by
  intro m g _
  exact (θ_run defs _ _).mono (fun _ h c =>
    ⟨(h c main_arg0).trans (after_main_arg0 _),
     (h c main_arg1).trans (after_main_arg1 _),
     (h c main_arg2).trans (after_main_arg2 _),
     (h c main_arg3).trans (after_main_arg3 _),
     (h c main_arg4).trans (after_main_arg4 _),
     (h c main_arg5).trans (after_main_arg5 _),
     (h c main_arg6).trans (after_main_arg6 _),
     (h c main_arg7).trans (after_main_arg7 _),
     (h c main_arg8).trans (after_main_arg8 _),
     (h c main_arg9).trans (after_main_arg9 _),
     (h c main_arg10).trans (after_main_arg10 _),
     (h c main_arg11).trans (after_main_arg11 _),
     (h c main_arg12).trans (after_main_arg12 _),
     (h c main_arg13).trans (after_main_arg13 _),
     (h c main_arg14).trans (after_main_arg14 _)⟩)
    (run_fold m g)

end Cert.ReferenceIdeal.Hand

end
-- ==== Proof.Ref.Segs.lean ====
import proofs.«108982_j38147899523261_2_alg».proof.Proof.Ref.Run

/-! The reference's operation list cut into its stages.

The program is a sequence of stages (a sparse product, a layer update, a gather, a loss term, …), each a
contiguous run of operations. `seg<k>` is stage `k`'s run; `ops_eq_segs` says the whole list is their
concatenation in order. Every operation writes exactly one buffer; `seg<k>_W` lists the buffers stage `k`
writes, and `seg<k>_keep` says a buffer outside that list keeps its contents through the stage. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stage 0 (operations 0 … 16): the first affinity propagation: the stacked user/item table and its sparse product. -/
abbrev seg00 : List (HloOp τ sig (Elt F)) :=
  [ binary main_arg0 main_arg1 main_v0 ((fun a b => concatenate S300000x64 0 [⟨S100000x64, a⟩, ⟨S200000x64, b⟩] concatenates_S100000x64_S200000x64_S300000x64_d0) : (⟨S100000x64, .f32⟩ : BufTy).Contents (Elt F) → (⟨S200000x64, .f32⟩ : BufTy).Contents (Elt F) → (⟨S300000x64, .f32⟩ : BufTy).Contents (Elt F)),
    unary main_arg4 main_v1 (broadcastInDim S2000000x1 ![0] bcast_S2000000_S2000000x1_0 : (⟨S2000000, .f32⟩ : BufTy).Contents (Elt F) → (⟨S2000000x1, .f32⟩ : BufTy).Contents (Elt F)),
    nullary main_c (constantI S_ 32 0#32),
    unary main_c main_v2 (broadcastInDim S2000000 ![] bcast_S_S2000000 : (⟨S_, .i32⟩ : BufTy).Contents (Elt F) → (⟨S2000000, .i32⟩ : BufTy).Contents (Elt F)),
    binary main_arg10 main_v2 main_v3 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 300000#32),
    unary main_c_0 main_v4 (broadcastInDim S2000000 ![] bcast_S_S2000000 : (⟨S_, .i32⟩ : BufTy).Contents (Elt F) → (⟨S2000000, .i32⟩ : BufTy).Contents (Elt F)),
    binary main_arg10 main_v4 main_v5 (addi : (⟨S2000000, .i32⟩ : BufTy).Contents (Elt F) → (⟨S2000000, .i32⟩ : BufTy).Contents (Elt F) → (⟨S2000000, .i32⟩ : BufTy).Contents (Elt F)),
    ternary main_v3 main_v5 main_arg10 main_v6 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v6 main_v7 (broadcastInDim S2000000x1 ![0] bcast_S2000000_S2000000x1_0 : (⟨S2000000, .i32⟩ : BufTy).Contents (Elt F) → (⟨S2000000x1, .i32⟩ : BufTy).Contents (Elt F)),
    binary main_v0 main_v7 main_v8 ((fun x i => Host.gather gather_S300000x64_S2000000x1_S2000000x64_1_0_n_n_0_1_164 x i) : (⟨S300000x64, .f32⟩ : BufTy).Contents (Elt F) → (⟨S2000000x1, .i32⟩ : BufTy).Contents (Elt F) → (⟨S2000000x64, .f32⟩ : BufTy).Contents (Elt F)),
    unary main_v1 main_v9 (broadcastInDim S2000000x64 ![0, 1] bcast_S2000000x1_S2000000x64_0_1 : (⟨S2000000x1, .f32⟩ : BufTy).Contents (Elt F) → (⟨S2000000x64, .f32⟩ : BufTy).Contents (Elt F)),
    binary main_v9 main_v8 main_v10 (mulf : (⟨S2000000x64, .f32⟩ : BufTy).Contents (Elt F) → (⟨S2000000x64, .f32⟩ : BufTy).Contents (Elt F) → (⟨S2000000x64, .f32⟩ : BufTy).Contents (Elt F)),
    nullary main_cst (constant S_ .f32 0x00000000#32),
    unary main_cst main_v11 (broadcastInDim S300000x64 ![] bcast_S_S300000x64 : (⟨S_, .f32⟩ : BufTy).Contents (Elt F) → (⟨S300000x64, .f32⟩ : BufTy).Contents (Elt F)),
    unary main_arg9 main_v12 (broadcastInDim S2000000x1 ![0] bcast_S2000000_S2000000x1_0 : (⟨S2000000, .i32⟩ : BufTy).Contents (Elt F) → (⟨S2000000x1, .i32⟩ : BufTy).Contents (Elt F)),
    ternary main_v11 main_v12 main_v10 main_v13 ((fun x i u => Host.scatterAdd scatter_S300000x64_S2000000x1_S2000000x64_1_0_0_1 x i u) : (⟨S300000x64, .f32⟩ : BufTy).Contents (Elt F) → (⟨S2000000x1, .i32⟩ : BufTy).Contents (Elt F) → (⟨S2000000x64, .f32⟩ : BufTy).Contents (Elt F) → (⟨S300000x64, .f32⟩ : BufTy).Contents (Elt F)) ]

/-- The buffers stage 0 writes. -/
abbrev seg00_W : List (Ref sig .tc) := [main_v0, main_v1, main_c, main_v2, main_v3, main_c_0, main_v4, main_v5, main_v6, main_v7, main_v8, main_v9, main_v10, main_cst, main_v11, main_v12, main_v13]

theorem seg00_writes : (seg00 : List (HloOp τ sig (Elt F))).Forall fun op =>
    op.writes ⊆ (seg00_W.map (Proc.devRef (τ := τ) .tc)).toFinset :=
  ⟨single_sub_of_mem (y := main_v0) (by decide), single_sub_of_mem (y := main_v1) (by decide), single_sub_of_mem (y := main_c) (by decide), single_sub_of_mem (y := main_v2) (by decide), single_sub_of_mem (y := main_v3) (by decide), single_sub_of_mem (y := main_c_0) (by decide), single_sub_of_mem (y := main_v4) (by decide), single_sub_of_mem (y := main_v5) (by decide), single_sub_of_mem (y := main_v6) (by decide), single_sub_of_mem (y := main_v7) (by decide), single_sub_of_mem (y := main_v8) (by decide), single_sub_of_mem (y := main_v9) (by decide), single_sub_of_mem (y := main_v10) (by decide), single_sub_of_mem (y := main_cst) (by decide), single_sub_of_mem (y := main_v11) (by decide), single_sub_of_mem (y := main_v12) (by decide), single_sub_of_mem (y := main_v13) (by decide)⟩

/-- A buffer stage 0 does not write keeps its contents through it. -/
theorem seg00_keep (V : Valuation τ sig (Elt F)) (r : Ref sig .tc) (h : r ∉ seg00_W) :
    after seg00 V (Proc.devRef .tc r) = V (Proc.devRef .tc r) :=
  after_of_writes_sub seg00 V seg00_writes h

/-- Stage 1 (operations 17 … 30): the first affinity layer update: divide by 2, normalise rows, accumulate. -/
abbrev seg01 : List (HloOp τ sig (Elt F)) :=
  [ nullary main_cst_1 (constant S_ .f32 0x40000000#32),
    unary main_cst_1 main_v14 (broadcastInDim S300000x64 ![] bcast_S_S300000x64 : (⟨S_, .f32⟩ : BufTy).Contents (Elt F) → (⟨S300000x64, .f32⟩ : BufTy).Contents (Elt F)),
    binary main_v13 main_v14 main_v15 (Host.divf : (⟨S300000x64, .f32⟩ : BufTy).Contents (Elt F) → (⟨S300000x64, .f32⟩ : BufTy).Contents (Elt F) → (⟨S300000x64, .f32⟩ : BufTy).Contents (Elt F)),
    TRef.binary (.of main_v15) (.of main_v15) main_call0.v0 mulf,
    TRef.nullary main_call0.cst (constant S_ .f32 0x00000000#32),
    TRef.binary main_call0.v0 main_call0.cst main_call0.v1 (fun x v => Host.reduceAdd x v reducesTo_S300000x64_S300000_d1 h_S_),
    TRef.unary main_call0.v1 main_call0.v2 (broadcastInDim S300000x1 ![0] bcast_S300000_S300000x1_0),
    TRef.unary main_call0.v2 main_call0.v3 Host.sqrt,
    nullary main_cst_2 (constant S_ .f32 0x2B8CBCCC#32),
    unary main_cst_2 main_v17 (broadcastInDim S300000x1 ![] bcast_S_S300000x1 : (⟨S_, .f32⟩ : BufTy).Contents (Elt F) → (⟨S300000x1, .f32⟩ : BufTy).Contents (Elt F)),
    binary main_v16 main_v17 main_v18 (maximumf : (⟨S300000x1, .f32⟩ : BufTy).Contents (Elt F) → (⟨S300000x1, .f32⟩ : BufTy).Contents (Elt F) → (⟨S300000x1, .f32⟩ : BufTy).Contents (Elt F)),
    unary main_v18 main_v19 (broadcastInDim S300000x64 ![0, 1] bcast_S300000x1_S300000x64_0_1 : (⟨S300000x1, .f32⟩ : BufTy).Contents (Elt F) → (⟨S300000x64, .f32⟩ : BufTy).Contents (Elt F)),
    binary main_v15 main_v19 main_v20 (Host.divf : (⟨S300000x64, .f32⟩ : BufTy).Contents (Elt F) → (⟨S300000x64, .f32⟩ : BufTy).Contents (Elt F) → (⟨S300000x64, .f32⟩ : BufTy).Contents (Elt F)),
    binary main_v0 main_v20 main_v21 (addf : (⟨S300000x64, .f32⟩ : BufTy).Contents (Elt F) → (⟨S300000x64, .f32⟩ : BufTy).Contents (Elt F) → (⟨S300000x64, .f32⟩ : BufTy).Contents (Elt F)) ]

/-- The buffers stage 1 writes. -/
abbrev seg01_W : List (Ref sig .tc) := [main_cst_1, main_v14, main_v15, main_call0.v0.ref, main_call0.cst.ref, main_call0.v1.ref, main_call0.v2.ref, main_call0.v3.ref, main_cst_2, main_v17, main_v18, main_v19, main_v20, main_v21]

theorem seg01_writes : (seg01 : List (HloOp τ sig (Elt F))).Forall fun op =>
    op.writes ⊆ (seg01_W.map (Proc.devRef (τ := τ) .tc)).toFinset :=
  ⟨single_sub_of_mem (y := main_cst_1) (by decide), single_sub_of_mem (y := main_v14) (by decide), single_sub_of_mem (y := main_v15) (by decide), single_sub_of_mem (y := main_call0.v0.ref) (by decide), single_sub_of_mem (y := main_call0.cst.ref) (by decide), single_sub_of_mem (y := main_call0.v1.ref) (by decide), single_sub_of_mem (y := main_call0.v2.ref) (by decide), single_sub_of_mem (y := main_call0.v3.ref) (by decide), single_sub_of_mem (y := main_cst_2) (by decide), single_sub_of_mem (y := main_v17) (by decide), single_sub_of_mem (y := main_v18) (by decide), single_sub_of_mem (y := main_v19) (by decide), single_sub_of_mem (y := main_v20) (by decide), single_sub_of_mem (y := main_v21) (by decide)⟩

/-- A buffer stage 1 does not write keeps its contents through it. -/
theorem seg01_keep (V : Valuation τ sig (Elt F)) (r : Ref sig .tc) (h : r ∉ seg01_W) :
    after seg01 V (Proc.devRef .tc r) = V (Proc.devRef .tc r) :=
  after_of_writes_sub seg01 V seg01_writes h

/-- Stage 2 (operations 31 … 46): the second affinity sparse product. -/
abbrev seg02 : List (HloOp τ sig (Elt F)) :=
  [ unary main_arg4 main_v22 (broadcastInDim S2000000x1 ![0] bcast_S2000000_S2000000x1_0 : (⟨S2000000, .f32⟩ : BufTy).Contents (Elt F) → (⟨S2000000x1, .f32⟩ : BufTy).Contents (Elt F)),
    nullary main_c_3 (constantI S_ 32 0#32),
    unary main_c_3 main_v23 (broadcastInDim S2000000 ![] bcast_S_S2000000 : (⟨S_, .i32⟩ : BufTy).Contents (Elt F) → (⟨S2000000, .i32⟩ : BufTy).Contents (Elt F)),
    binary main_arg10 main_v23 main_v24 (cmpi .slt : (⟨S2000000, .i32⟩ : BufTy).Contents (Elt F) → (⟨S2000000, .i32⟩ : BufTy).Contents (Elt F) → (⟨S2000000, .i1⟩ : BufTy).Contents (Elt F)),
    nullary main_c_4 (constantI S_ 32 300000#32),
    unary main_c_4 main_v25 (broadcastInDim S2000000 ![] bcast_S_S2000000 : (⟨S_, .i32⟩ : BufTy).Contents (Elt F) → (⟨S2000000, .i32⟩ : BufTy).Contents (Elt F)),
    binary main_arg10 main_v25 main_v26 (addi : (⟨S2000000, .i32⟩ : BufTy).Contents (Elt F) → (⟨S2000000, .i32⟩ : BufTy).Contents (Elt F) → (⟨S2000000, .i32⟩ : BufTy).Contents (Elt F)),
    ternary main_v24 main_v26 main_arg10 main_v27 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v27 main_v28 (broadcastInDim S2000000x1 ![0] bcast_S2000000_S2000000x1_0 : (⟨S2000000, .i32⟩ : BufTy).Contents (Elt F) → (⟨S2000000x1, .i32⟩ : BufTy).Contents (Elt F)),
    binary main_v15 main_v28 main_v29 ((fun x i => Host.gather gather_S300000x64_S2000000x1_S2000000x64_1_0_n_n_0_1_164 x i) : (⟨S300000x64, .f32⟩ : BufTy).Contents (Elt F) → (⟨S2000000x1, .i32⟩ : BufTy).Contents (Elt F) → (⟨S2000000x64, .f32⟩ : BufTy).Contents (Elt F)),
    unary main_v22 main_v30 (broadcastInDim S2000000x64 ![0, 1] bcast_S2000000x1_S2000000x64_0_1 : (⟨S2000000x1, .f32⟩ : BufTy).Contents (Elt F) → (⟨S2000000x64, .f32⟩ : BufTy).Contents (Elt F)),
    binary main_v30 main_v29 main_v31 (mulf : (⟨S2000000x64, .f32⟩ : BufTy).Contents (Elt F) → (⟨S2000000x64, .f32⟩ : BufTy).Contents (Elt F) → (⟨S2000000x64, .f32⟩ : BufTy).Contents (Elt F)),
    nullary main_cst_5 (constant S_ .f32 0x00000000#32),
    unary main_cst_5 main_v32 (broadcastInDim S300000x64 ![] bcast_S_S300000x64 : (⟨S_, .f32⟩ : BufTy).Contents (Elt F) → (⟨S300000x64, .f32⟩ : BufTy).Contents (Elt F)),
    unary main_arg9 main_v33 (broadcastInDim S2000000x1 ![0] bcast_S2000000_S2000000x1_0 : (⟨S2000000, .i32⟩ : BufTy).Contents (Elt F) → (⟨S2000000x1, .i32⟩ : BufTy).Contents (Elt F)),
    ternary main_v32 main_v33 main_v31 main_v34 ((fun x i u => Host.scatterAdd scatter_S300000x64_S2000000x1_S2000000x64_1_0_0_1 x i u) : (⟨S300000x64, .f32⟩ : BufTy).Contents (Elt F) → (⟨S2000000x1, .i32⟩ : BufTy).Contents (Elt F) → (⟨S2000000x64, .f32⟩ : BufTy).Contents (Elt F) → (⟨S300000x64, .f32⟩ : BufTy).Contents (Elt F)) ]

/-- The buffers stage 2 writes. -/
abbrev seg02_W : List (Ref sig .tc) := [main_v22, main_c_3, main_v23, main_v24, main_c_4, main_v25, main_v26, main_v27, main_v28, main_v29, main_v30, main_v31, main_cst_5, main_v32, main_v33, main_v34]

theorem seg02_writes : (seg02 : List (HloOp τ sig (Elt F))).Forall fun op =>
    op.writes ⊆ (seg02_W.map (Proc.devRef (τ := τ) .tc)).toFinset :=
  ⟨single_sub_of_mem (y := main_v22) (by decide), single_sub_of_mem (y := main_c_3) (by decide), single_sub_of_mem (y := main_v23) (by decide), single_sub_of_mem (y := main_v24) (by decide), single_sub_of_mem (y := main_c_4) (by decide), single_sub_of_mem (y := main_v25) (by decide), single_sub_of_mem (y := main_v26) (by decide), single_sub_of_mem (y := main_v27) (by decide), single_sub_of_mem (y := main_v28) (by decide), single_sub_of_mem (y := main_v29) (by decide), single_sub_of_mem (y := main_v30) (by decide), single_sub_of_mem (y := main_v31) (by decide), single_sub_of_mem (y := main_cst_5) (by decide), single_sub_of_mem (y := main_v32) (by decide), single_sub_of_mem (y := main_v33) (by decide), single_sub_of_mem (y := main_v34) (by decide)⟩

/-- A buffer stage 2 does not write keeps its contents through it. -/
theorem seg02_keep (V : Valuation τ sig (Elt F)) (r : Ref sig .tc) (h : r ∉ seg02_W) :
    after seg02 V (Proc.devRef .tc r) = V (Proc.devRef .tc r) :=
  after_of_writes_sub seg02 V seg02_writes h

/-- Stage 3 (operations 47 … 60): the second affinity layer update: divide by 3, normalise rows, accumulate. -/
abbrev seg03 : List (HloOp τ sig (Elt F)) :=
  [ nullary main_cst_6 (constant S_ .f32 0x40400000#32),
    unary main_cst_6 main_v35 (broadcastInDim S300000x64 ![] bcast_S_S300000x64 : (⟨S_, .f32⟩ : BufTy).Contents (Elt F) → (⟨S300000x64, .f32⟩ : BufTy).Contents (Elt F)),
    binary main_v34 main_v35 main_v36 (Host.divf : (⟨S300000x64, .f32⟩ : BufTy).Contents (Elt F) → (⟨S300000x64, .f32⟩ : BufTy).Contents (Elt F) → (⟨S300000x64, .f32⟩ : BufTy).Contents (Elt F)),
    TRef.binary (.of main_v36) (.of main_v36) main_call1.v0 mulf,
    TRef.nullary main_call1.cst (constant S_ .f32 0x00000000#32),
    TRef.binary main_call1.v0 main_call1.cst main_call1.v1 (fun x v => Host.reduceAdd x v reducesTo_S300000x64_S300000_d1 h_S_),
    TRef.unary main_call1.v1 main_call1.v2 (broadcastInDim S300000x1 ![0] bcast_S300000_S300000x1_0),
    TRef.unary main_call1.v2 main_call1.v3 Host.sqrt,
    nullary main_cst_7 (constant S_ .f32 0x2B8CBCCC#32),
    unary main_cst_7 main_v38 (broadcastInDim S300000x1 ![] bcast_S_S300000x1 : (⟨S_, .f32⟩ : BufTy).Contents (Elt F) → (⟨S300000x1, .f32⟩ : BufTy).Contents (Elt F)),
    binary main_v37 main_v38 main_v39 (maximumf : (⟨S300000x1, .f32⟩ : BufTy).Contents (Elt F) → (⟨S300000x1, .f32⟩ : BufTy).Contents (Elt F) → (⟨S300000x1, .f32⟩ : BufTy).Contents (Elt F)),
    unary main_v39 main_v40 (broadcastInDim S300000x64 ![0, 1] bcast_S300000x1_S300000x64_0_1 : (⟨S300000x1, .f32⟩ : BufTy).Contents (Elt F) → (⟨S300000x64, .f32⟩ : BufTy).Contents (Elt F)),
    binary main_v36 main_v40 main_v41 (Host.divf : (⟨S300000x64, .f32⟩ : BufTy).Contents (Elt F) → (⟨S300000x64, .f32⟩ : BufTy).Contents (Elt F) → (⟨S300000x64, .f32⟩ : BufTy).Contents (Elt F)),
    binary main_v21 main_v41 main_v42 (addf : (⟨S300000x64, .f32⟩ : BufTy).Contents (Elt F) → (⟨S300000x64, .f32⟩ : BufTy).Contents (Elt F) → (⟨S300000x64, .f32⟩ : BufTy).Contents (Elt F)) ]

/-- The buffers stage 3 writes. -/
abbrev seg03_W : List (Ref sig .tc) := [main_cst_6, main_v35, main_v36, main_call1.v0.ref, main_call1.cst.ref, main_call1.v1.ref, main_call1.v2.ref, main_call1.v3.ref, main_cst_7, main_v38, main_v39, main_v40, main_v41, main_v42]

theorem seg03_writes : (seg03 : List (HloOp τ sig (Elt F))).Forall fun op =>
    op.writes ⊆ (seg03_W.map (Proc.devRef (τ := τ) .tc)).toFinset :=
  ⟨single_sub_of_mem (y := main_cst_6) (by decide), single_sub_of_mem (y := main_v35) (by decide), single_sub_of_mem (y := main_v36) (by decide), single_sub_of_mem (y := main_call1.v0.ref) (by decide), single_sub_of_mem (y := main_call1.cst.ref) (by decide), single_sub_of_mem (y := main_call1.v1.ref) (by decide), single_sub_of_mem (y := main_call1.v2.ref) (by decide), single_sub_of_mem (y := main_call1.v3.ref) (by decide), single_sub_of_mem (y := main_cst_7) (by decide), single_sub_of_mem (y := main_v38) (by decide), single_sub_of_mem (y := main_v39) (by decide), single_sub_of_mem (y := main_v40) (by decide), single_sub_of_mem (y := main_v41) (by decide), single_sub_of_mem (y := main_v42) (by decide)⟩

/-- A buffer stage 3 does not write keeps its contents through it. -/
theorem seg03_keep (V : Valuation τ sig (Elt F)) (r : Ref sig .tc) (h : r ∉ seg03_W) :
    after seg03 V (Proc.devRef .tc r) = V (Proc.devRef .tc r) :=
  after_of_writes_sub seg03 V seg03_writes h

/-- Stage 4 (operations 61 … 62): the accumulated affinity table cut into its user rows and item rows. -/
abbrev seg04 : List (HloOp τ sig (Elt F)) :=
  [ unary main_v42 main_v43 ((extractStridedSlice S100000x64 ![0, 0] · slices_S300000x64_S100000x64_0_0) : (⟨S300000x64, .f32⟩ : BufTy).Contents (Elt F) → (⟨S100000x64, .f32⟩ : BufTy).Contents (Elt F)),
    unary main_v42 main_v44 ((extractStridedSlice S200000x64 ![100000, 0] · slices_S300000x64_S200000x64_100000_0) : (⟨S300000x64, .f32⟩ : BufTy).Contents (Elt F) → (⟨S200000x64, .f32⟩ : BufTy).Contents (Elt F)) ]

/-- The buffers stage 4 writes. -/
abbrev seg04_W : List (Ref sig .tc) := [main_v43, main_v44]

theorem seg04_writes : (seg04 : List (HloOp τ sig (Elt F))).Forall fun op =>
    op.writes ⊆ (seg04_W.map (Proc.devRef (τ := τ) .tc)).toFinset :=
  ⟨single_sub_of_mem (y := main_v43) (by decide), single_sub_of_mem (y := main_v44) (by decide)⟩

/-- A buffer stage 4 does not write keeps its contents through it. -/
theorem seg04_keep (V : Valuation τ sig (Elt F)) (r : Ref sig .tc) (h : r ∉ seg04_W) :
    after seg04 V (Proc.devRef .tc r) = V (Proc.devRef .tc r) :=
  after_of_writes_sub seg04 V seg04_writes h

/-- Stage 5 (operations 63 … 79): the first history propagation: the stacked user/bundle table and its sparse product. -/
abbrev seg05 : List (HloOp τ sig (Elt F)) :=
  [ binary main_arg0 main_arg2 main_v45 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    unary main_arg5 main_v46 (broadcastInDim S1000000x1 ![0] bcast_S1000000_S1000000x1_0 : (⟨S1000000, .f32⟩ : BufTy).Contents (Elt F) → (⟨S1000000x1, .f32⟩ : BufTy).Contents (Elt F)),
    nullary main_c_8 (constantI S_ 32 0#32),
    unary main_c_8 main_v47 (broadcastInDim S1000000 ![] bcast_S_S1000000 : (⟨S_, .i32⟩ : BufTy).Contents (Elt F) → (⟨S1000000, .i32⟩ : BufTy).Contents (Elt F)),
    binary main_arg12 main_v47 main_v48 (cmpi .slt : (⟨S1000000, .i32⟩ : BufTy).Contents (Elt F) → (⟨S1000000, .i32⟩ : BufTy).Contents (Elt F) → (⟨S1000000, .i1⟩ : BufTy).Contents (Elt F)),
    nullary main_c_9 (constantI S_ 32 150000#32),
    unary main_c_9 main_v49 (broadcastInDim S1000000 ![] bcast_S_S1000000 : (⟨S_, .i32⟩ : BufTy).Contents (Elt F) → (⟨S1000000, .i32⟩ : BufTy).Contents (Elt F)),
    binary main_arg12 main_v49 main_v50 (addi : (⟨S1000000, .i32⟩ : BufTy).Contents (Elt F) → (⟨S1000000, .i32⟩ : BufTy).Contents (Elt F) → (⟨S1000000, .i32⟩ : BufTy).Contents (Elt F)),
    ternary main_v48 main_v50 main_arg12 main_v51 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v51 main_v52 (broadcastInDim S1000000x1 ![0] bcast_S1000000_S1000000x1_0 : (⟨S1000000, .i32⟩ : BufTy).Contents (Elt F) → (⟨S1000000x1, .i32⟩ : BufTy).Contents (Elt F)),
    binary main_v45 main_v52 main_v53 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v46 main_v54 (broadcastInDim S1000000x64 ![0, 1] bcast_S1000000x1_S1000000x64_0_1 : (⟨S1000000x1, .f32⟩ : BufTy).Contents (Elt F) → (⟨S1000000x64, .f32⟩ : BufTy).Contents (Elt F)),
    binary main_v54 main_v53 main_v55 (mulf : (⟨S1000000x64, .f32⟩ : BufTy).Contents (Elt F) → (⟨S1000000x64, .f32⟩ : BufTy).Contents (Elt F) → (⟨S1000000x64, .f32⟩ : BufTy).Contents (Elt F)),
    nullary main_cst_10 (constant S_ .f32 0x00000000#32),
    unary main_cst_10 main_v56 (broadcastInDim S150000x64 ![] bcast_S_S150000x64 : (⟨S_, .f32⟩ : BufTy).Contents (Elt F) → (⟨S150000x64, .f32⟩ : BufTy).Contents (Elt F)),
    unary main_arg11 main_v57 (broadcastInDim S1000000x1 ![0] bcast_S1000000_S1000000x1_0 : (⟨S1000000, .i32⟩ : BufTy).Contents (Elt F) → (⟨S1000000x1, .i32⟩ : BufTy).Contents (Elt F)),
    ternary main_v56 main_v57 main_v55 main_v58 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)) ]

/-- The buffers stage 5 writes. -/
abbrev seg05_W : List (Ref sig .tc) := [main_v45, main_v46, main_c_8, main_v47, main_v48, main_c_9, main_v49, main_v50, main_v51, main_v52, main_v53, main_v54, main_v55, main_cst_10, main_v56, main_v57, main_v58]

theorem seg05_writes : (seg05 : List (HloOp τ sig (Elt F))).Forall fun op =>
    op.writes ⊆ (seg05_W.map (Proc.devRef (τ := τ) .tc)).toFinset :=
  ⟨single_sub_of_mem (y := main_v45) (by decide), single_sub_of_mem (y := main_v46) (by decide), single_sub_of_mem (y := main_c_8) (by decide), single_sub_of_mem (y := main_v47) (by decide), single_sub_of_mem (y := main_v48) (by decide), single_sub_of_mem (y := main_c_9) (by decide), single_sub_of_mem (y := main_v49) (by decide), single_sub_of_mem (y := main_v50) (by decide), single_sub_of_mem (y := main_v51) (by decide), single_sub_of_mem (y := main_v52) (by decide), single_sub_of_mem (y := main_v53) (by decide), single_sub_of_mem (y := main_v54) (by decide), single_sub_of_mem (y := main_v55) (by decide), single_sub_of_mem (y := main_cst_10) (by decide), single_sub_of_mem (y := main_v56) (by decide), single_sub_of_mem (y := main_v57) (by decide), single_sub_of_mem (y := main_v58) (by decide)⟩

/-- A buffer stage 5 does not write keeps its contents through it. -/
theorem seg05_keep (V : Valuation τ sig (Elt F)) (r : Ref sig .tc) (h : r ∉ seg05_W) :
    after seg05 V (Proc.devRef .tc r) = V (Proc.devRef .tc r) :=
  after_of_writes_sub seg05 V seg05_writes h

/-- Stage 6 (operations 80 … 93): the first history layer update. -/
abbrev seg06 : List (HloOp τ sig (Elt F)) :=
  [ nullary main_cst_11 (constant S_ .f32 0x40000000#32),
    unary main_cst_11 main_v59 (broadcastInDim S150000x64 ![] bcast_S_S150000x64 : (⟨S_, .f32⟩ : BufTy).Contents (Elt F) → (⟨S150000x64, .f32⟩ : BufTy).Contents (Elt F)),
    binary main_v58 main_v59 main_v60 (Host.divf : (⟨S150000x64, .f32⟩ : BufTy).Contents (Elt F) → (⟨S150000x64, .f32⟩ : BufTy).Contents (Elt F) → (⟨S150000x64, .f32⟩ : BufTy).Contents (Elt F)),
    TRef.binary (.of main_v60) (.of main_v60) main_call2.v0 mulf,
    TRef.nullary main_call2.cst (constant S_ .f32 0x00000000#32),
    TRef.binary main_call2.v0 main_call2.cst main_call2.v1 (fun x v => Host.reduceAdd x v reducesTo_S150000x64_S150000_d1 h_S_),
    TRef.unary main_call2.v1 main_call2.v2 (broadcastInDim S150000x1 ![0] bcast_S150000_S150000x1_0),
    TRef.unary main_call2.v2 main_call2.v3 Host.sqrt,
    nullary main_cst_12 (constant S_ .f32 0x2B8CBCCC#32),
    unary main_cst_12 main_v62 (broadcastInDim S150000x1 ![] bcast_S_S150000x1 : (⟨S_, .f32⟩ : BufTy).Contents (Elt F) → (⟨S150000x1, .f32⟩ : BufTy).Contents (Elt F)),
    binary main_v61 main_v62 main_v63 (maximumf : (⟨S150000x1, .f32⟩ : BufTy).Contents (Elt F) → (⟨S150000x1, .f32⟩ : BufTy).Contents (Elt F) → (⟨S150000x1, .f32⟩ : BufTy).Contents (Elt F)),
    unary main_v63 main_v64 (broadcastInDim S150000x64 ![0, 1] bcast_S150000x1_S150000x64_0_1 : (⟨S150000x1, .f32⟩ : BufTy).Contents (Elt F) → (⟨S150000x64, .f32⟩ : BufTy).Contents (Elt F)),
    binary main_v60 main_v64 main_v65 (Host.divf : (⟨S150000x64, .f32⟩ : BufTy).Contents (Elt F) → (⟨S150000x64, .f32⟩ : BufTy).Contents (Elt F) → (⟨S150000x64, .f32⟩ : BufTy).Contents (Elt F)),
    binary main_v45 main_v65 main_v66 (addf : (⟨S150000x64, .f32⟩ : BufTy).Contents (Elt F) → (⟨S150000x64, .f32⟩ : BufTy).Contents (Elt F) → (⟨S150000x64, .f32⟩ : BufTy).Contents (Elt F)) ]

/-- The buffers stage 6 writes. -/
abbrev seg06_W : List (Ref sig .tc) := [main_cst_11, main_v59, main_v60, main_call2.v0.ref, main_call2.cst.ref, main_call2.v1.ref, main_call2.v2.ref, main_call2.v3.ref, main_cst_12, main_v62, main_v63, main_v64, main_v65, main_v66]

theorem seg06_writes : (seg06 : List (HloOp τ sig (Elt F))).Forall fun op =>
    op.writes ⊆ (seg06_W.map (Proc.devRef (τ := τ) .tc)).toFinset :=
  ⟨single_sub_of_mem (y := main_cst_11) (by decide), single_sub_of_mem (y := main_v59) (by decide), single_sub_of_mem (y := main_v60) (by decide), single_sub_of_mem (y := main_call2.v0.ref) (by decide), single_sub_of_mem (y := main_call2.cst.ref) (by decide), single_sub_of_mem (y := main_call2.v1.ref) (by decide), single_sub_of_mem (y := main_call2.v2.ref) (by decide), single_sub_of_mem (y := main_call2.v3.ref) (by decide), single_sub_of_mem (y := main_cst_12) (by decide), single_sub_of_mem (y := main_v62) (by decide), single_sub_of_mem (y := main_v63) (by decide), single_sub_of_mem (y := main_v64) (by decide), single_sub_of_mem (y := main_v65) (by decide), single_sub_of_mem (y := main_v66) (by decide)⟩

/-- A buffer stage 6 does not write keeps its contents through it. -/
theorem seg06_keep (V : Valuation τ sig (Elt F)) (r : Ref sig .tc) (h : r ∉ seg06_W) :
    after seg06 V (Proc.devRef .tc r) = V (Proc.devRef .tc r) :=
  after_of_writes_sub seg06 V seg06_writes h

/-- Stage 7 (operations 94 … 109): the second history sparse product. -/
abbrev seg07 : List (HloOp τ sig (Elt F)) :=
  [ unary main_arg5 main_v67 (broadcastInDim S1000000x1 ![0] bcast_S1000000_S1000000x1_0 : (⟨S1000000, .f32⟩ : BufTy).Contents (Elt F) → (⟨S1000000x1, .f32⟩ : BufTy).Contents (Elt F)),
    nullary main_c_13 (constantI S_ 32 0#32),
    unary main_c_13 main_v68 (broadcastInDim S1000000 ![] bcast_S_S1000000 : (⟨S_, .i32⟩ : BufTy).Contents (Elt F) → (⟨S1000000, .i32⟩ : BufTy).Contents (Elt F)),
    binary main_arg12 main_v68 main_v69 (cmpi .slt : (⟨S1000000, .i32⟩ : BufTy).Contents (Elt F) → (⟨S1000000, .i32⟩ : BufTy).Contents (Elt F) → (⟨S1000000, .i1⟩ : BufTy).Contents (Elt F)),
    nullary main_c_14 (constantI S_ 32 150000#32),
    unary main_c_14 main_v70 (broadcastInDim S1000000 ![] bcast_S_S1000000 : (⟨S_, .i32⟩ : BufTy).Contents (Elt F) → (⟨S1000000, .i32⟩ : BufTy).Contents (Elt F)),
    binary main_arg12 main_v70 main_v71 (addi : (⟨S1000000, .i32⟩ : BufTy).Contents (Elt F) → (⟨S1000000, .i32⟩ : BufTy).Contents (Elt F) → (⟨S1000000, .i32⟩ : BufTy).Contents (Elt F)),
    ternary main_v69 main_v71 main_arg12 main_v72 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v72 main_v73 (broadcastInDim S1000000x1 ![0] bcast_S1000000_S1000000x1_0 : (⟨S1000000, .i32⟩ : BufTy).Contents (Elt F) → (⟨S1000000x1, .i32⟩ : BufTy).Contents (Elt F)),
    binary main_v60 main_v73 main_v74 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v67 main_v75 (broadcastInDim S1000000x64 ![0, 1] bcast_S1000000x1_S1000000x64_0_1 : (⟨S1000000x1, .f32⟩ : BufTy).Contents (Elt F) → (⟨S1000000x64, .f32⟩ : BufTy).Contents (Elt F)),
    binary main_v75 main_v74 main_v76 (mulf : (⟨S1000000x64, .f32⟩ : BufTy).Contents (Elt F) → (⟨S1000000x64, .f32⟩ : BufTy).Contents (Elt F) → (⟨S1000000x64, .f32⟩ : BufTy).Contents (Elt F)),
    nullary main_cst_15 (constant S_ .f32 0x00000000#32),
    unary main_cst_15 main_v77 (broadcastInDim S150000x64 ![] bcast_S_S150000x64 : (⟨S_, .f32⟩ : BufTy).Contents (Elt F) → (⟨S150000x64, .f32⟩ : BufTy).Contents (Elt F)),
    unary main_arg11 main_v78 (broadcastInDim S1000000x1 ![0] bcast_S1000000_S1000000x1_0 : (⟨S1000000, .i32⟩ : BufTy).Contents (Elt F) → (⟨S1000000x1, .i32⟩ : BufTy).Contents (Elt F)),
    ternary main_v77 main_v78 main_v76 main_v79 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)) ]

/-- The buffers stage 7 writes. -/
abbrev seg07_W : List (Ref sig .tc) := [main_v67, main_c_13, main_v68, main_v69, main_c_14, main_v70, main_v71, main_v72, main_v73, main_v74, main_v75, main_v76, main_cst_15, main_v77, main_v78, main_v79]

theorem seg07_writes : (seg07 : List (HloOp τ sig (Elt F))).Forall fun op =>
    op.writes ⊆ (seg07_W.map (Proc.devRef (τ := τ) .tc)).toFinset :=
  ⟨single_sub_of_mem (y := main_v67) (by decide), single_sub_of_mem (y := main_c_13) (by decide), single_sub_of_mem (y := main_v68) (by decide), single_sub_of_mem (y := main_v69) (by decide), single_sub_of_mem (y := main_c_14) (by decide), single_sub_of_mem (y := main_v70) (by decide), single_sub_of_mem (y := main_v71) (by decide), single_sub_of_mem (y := main_v72) (by decide), single_sub_of_mem (y := main_v73) (by decide), single_sub_of_mem (y := main_v74) (by decide), single_sub_of_mem (y := main_v75) (by decide), single_sub_of_mem (y := main_v76) (by decide), single_sub_of_mem (y := main_cst_15) (by decide), single_sub_of_mem (y := main_v77) (by decide), single_sub_of_mem (y := main_v78) (by decide), single_sub_of_mem (y := main_v79) (by decide)⟩

/-- A buffer stage 7 does not write keeps its contents through it. -/
theorem seg07_keep (V : Valuation τ sig (Elt F)) (r : Ref sig .tc) (h : r ∉ seg07_W) :
    after seg07 V (Proc.devRef .tc r) = V (Proc.devRef .tc r) :=
  after_of_writes_sub seg07 V seg07_writes h

/-- Stage 8 (operations 110 … 123): the second history layer update. -/
abbrev seg08 : List (HloOp τ sig (Elt F)) :=
  [ nullary main_cst_16 (constant S_ .f32 0x40400000#32),
    unary main_cst_16 main_v80 (broadcastInDim S150000x64 ![] bcast_S_S150000x64 : (⟨S_, .f32⟩ : BufTy).Contents (Elt F) → (⟨S150000x64, .f32⟩ : BufTy).Contents (Elt F)),
    binary main_v79 main_v80 main_v81 (Host.divf : (⟨S150000x64, .f32⟩ : BufTy).Contents (Elt F) → (⟨S150000x64, .f32⟩ : BufTy).Contents (Elt F) → (⟨S150000x64, .f32⟩ : BufTy).Contents (Elt F)),
    TRef.binary (.of main_v81) (.of main_v81) main_call3.v0 mulf,
    TRef.nullary main_call3.cst (constant S_ .f32 0x00000000#32),
    TRef.binary main_call3.v0 main_call3.cst main_call3.v1 (fun x v => Host.reduceAdd x v reducesTo_S150000x64_S150000_d1 h_S_),
    TRef.unary main_call3.v1 main_call3.v2 (broadcastInDim S150000x1 ![0] bcast_S150000_S150000x1_0),
    TRef.unary main_call3.v2 main_call3.v3 Host.sqrt,
    nullary main_cst_17 (constant S_ .f32 0x2B8CBCCC#32),
    unary main_cst_17 main_v83 (broadcastInDim S150000x1 ![] bcast_S_S150000x1 : (⟨S_, .f32⟩ : BufTy).Contents (Elt F) → (⟨S150000x1, .f32⟩ : BufTy).Contents (Elt F)),
    binary main_v82 main_v83 main_v84 (maximumf : (⟨S150000x1, .f32⟩ : BufTy).Contents (Elt F) → (⟨S150000x1, .f32⟩ : BufTy).Contents (Elt F) → (⟨S150000x1, .f32⟩ : BufTy).Contents (Elt F)),
    unary main_v84 main_v85 (broadcastInDim S150000x64 ![0, 1] bcast_S150000x1_S150000x64_0_1 : (⟨S150000x1, .f32⟩ : BufTy).Contents (Elt F) → (⟨S150000x64, .f32⟩ : BufTy).Contents (Elt F)),
    binary main_v81 main_v85 main_v86 (Host.divf : (⟨S150000x64, .f32⟩ : BufTy).Contents (Elt F) → (⟨S150000x64, .f32⟩ : BufTy).Contents (Elt F) → (⟨S150000x64, .f32⟩ : BufTy).Contents (Elt F)),
    binary main_v66 main_v86 main_v87 (addf : (⟨S150000x64, .f32⟩ : BufTy).Contents (Elt F) → (⟨S150000x64, .f32⟩ : BufTy).Contents (Elt F) → (⟨S150000x64, .f32⟩ : BufTy).Contents (Elt F)) ]

/-- The buffers stage 8 writes. -/
abbrev seg08_W : List (Ref sig .tc) := [main_cst_16, main_v80, main_v81, main_call3.v0.ref, main_call3.cst.ref, main_call3.v1.ref, main_call3.v2.ref, main_call3.v3.ref, main_cst_17, main_v83, main_v84, main_v85, main_v86, main_v87]

theorem seg08_writes : (seg08 : List (HloOp τ sig (Elt F))).Forall fun op =>
    op.writes ⊆ (seg08_W.map (Proc.devRef (τ := τ) .tc)).toFinset :=
  ⟨single_sub_of_mem (y := main_cst_16) (by decide), single_sub_of_mem (y := main_v80) (by decide), single_sub_of_mem (y := main_v81) (by decide), single_sub_of_mem (y := main_call3.v0.ref) (by decide), single_sub_of_mem (y := main_call3.cst.ref) (by decide), single_sub_of_mem (y := main_call3.v1.ref) (by decide), single_sub_of_mem (y := main_call3.v2.ref) (by decide), single_sub_of_mem (y := main_call3.v3.ref) (by decide), single_sub_of_mem (y := main_cst_17) (by decide), single_sub_of_mem (y := main_v83) (by decide), single_sub_of_mem (y := main_v84) (by decide), single_sub_of_mem (y := main_v85) (by decide), single_sub_of_mem (y := main_v86) (by decide), single_sub_of_mem (y := main_v87) (by decide)⟩

/-- A buffer stage 8 does not write keeps its contents through it. -/
theorem seg08_keep (V : Valuation τ sig (Elt F)) (r : Ref sig .tc) (h : r ∉ seg08_W) :
    after seg08 V (Proc.devRef .tc r) = V (Proc.devRef .tc r) :=
  after_of_writes_sub seg08 V seg08_writes h

/-- Stage 9 (operations 124 … 125): the accumulated history table cut into its user rows and bundle rows. -/
abbrev seg09 : List (HloOp τ sig (Elt F)) :=
  [ unary main_v87 main_v88 ((extractStridedSlice S100000x64 ![0, 0] · slices_S150000x64_S100000x64_0_0) : (⟨S150000x64, .f32⟩ : BufTy).Contents (Elt F) → (⟨S100000x64, .f32⟩ : BufTy).Contents (Elt F)),
    unary main_v87 main_v89 ((extractStridedSlice S50000x64 ![100000, 0] · slices_S150000x64_S50000x64_100000_0) : (⟨S150000x64, .f32⟩ : BufTy).Contents (Elt F) → (⟨S50000x64, .f32⟩ : BufTy).Contents (Elt F)) ]

/-- The buffers stage 9 writes. -/
abbrev seg09_W : List (Ref sig .tc) := [main_v88, main_v89]

theorem seg09_writes : (seg09 : List (HloOp τ sig (Elt F))).Forall fun op =>
    op.writes ⊆ (seg09_W.map (Proc.devRef (τ := τ) .tc)).toFinset :=
  ⟨single_sub_of_mem (y := main_v88) (by decide), single_sub_of_mem (y := main_v89) (by decide)⟩

/-- A buffer stage 9 does not write keeps its contents through it. -/
theorem seg09_keep (V : Valuation τ sig (Elt F)) (r : Ref sig .tc) (h : r ∉ seg09_W) :
    after seg09 V (Proc.devRef .tc r) = V (Proc.devRef .tc r) :=
  after_of_writes_sub seg09 V seg09_writes h

/-- Stage 10 (operations 126 … 141): the bundle aggregation: the bundle-item graph applied to the item rows. -/
abbrev seg10 : List (HloOp τ sig (Elt F)) :=
  [ unary main_arg6 main_v90 (broadcastInDim S1000000x1 ![0] bcast_S1000000_S1000000x1_0 : (⟨S1000000, .f32⟩ : BufTy).Contents (Elt F) → (⟨S1000000x1, .f32⟩ : BufTy).Contents (Elt F)),
    nullary main_c_18 (constantI S_ 32 0#32),
    unary main_c_18 main_v91 (broadcastInDim S1000000 ![] bcast_S_S1000000 : (⟨S_, .i32⟩ : BufTy).Contents (Elt F) → (⟨S1000000, .i32⟩ : BufTy).Contents (Elt F)),
    binary main_arg14 main_v91 main_v92 (cmpi .slt : (⟨S1000000, .i32⟩ : BufTy).Contents (Elt F) → (⟨S1000000, .i32⟩ : BufTy).Contents (Elt F) → (⟨S1000000, .i1⟩ : BufTy).Contents (Elt F)),
    nullary main_c_19 (constantI S_ 32 200000#32),
    unary main_c_19 main_v93 (broadcastInDim S1000000 ![] bcast_S_S1000000 : (⟨S_, .i32⟩ : BufTy).Contents (Elt F) → (⟨S1000000, .i32⟩ : BufTy).Contents (Elt F)),
    binary main_arg14 main_v93 main_v94 (addi : (⟨S1000000, .i32⟩ : BufTy).Contents (Elt F) → (⟨S1000000, .i32⟩ : BufTy).Contents (Elt F) → (⟨S1000000, .i32⟩ : BufTy).Contents (Elt F)),
    ternary main_v92 main_v94 main_arg14 main_v95 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v95 main_v96 (broadcastInDim S1000000x1 ![0] bcast_S1000000_S1000000x1_0 : (⟨S1000000, .i32⟩ : BufTy).Contents (Elt F) → (⟨S1000000x1, .i32⟩ : BufTy).Contents (Elt F)),
    binary main_v44 main_v96 main_v97 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    unary main_v90 main_v98 (broadcastInDim S1000000x64 ![0, 1] bcast_S1000000x1_S1000000x64_0_1 : (⟨S1000000x1, .f32⟩ : BufTy).Contents (Elt F) → (⟨S1000000x64, .f32⟩ : BufTy).Contents (Elt F)),
    binary main_v98 main_v97 main_v99 (mulf : (⟨S1000000x64, .f32⟩ : BufTy).Contents (Elt F) → (⟨S1000000x64, .f32⟩ : BufTy).Contents (Elt F) → (⟨S1000000x64, .f32⟩ : BufTy).Contents (Elt F)),
    nullary main_cst_20 (constant S_ .f32 0x00000000#32),
    unary main_cst_20 main_v100 (broadcastInDim S50000x64 ![] bcast_S_S50000x64 : (⟨S_, .f32⟩ : BufTy).Contents (Elt F) → (⟨S50000x64, .f32⟩ : BufTy).Contents (Elt F)),
    unary main_arg13 main_v101 (broadcastInDim S1000000x1 ![0] bcast_S1000000_S1000000x1_0 : (⟨S1000000, .i32⟩ : BufTy).Contents (Elt F) → (⟨S1000000x1, .i32⟩ : BufTy).Contents (Elt F)),
    ternary main_v100 main_v101 main_v99 main_v102 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)) ]

/-- The buffers stage 10 writes. -/
abbrev seg10_W : List (Ref sig .tc) := [main_v90, main_c_18, main_v91, main_v92, main_c_19, main_v93, main_v94, main_v95, main_v96, main_v97, main_v98, main_v99, main_cst_20, main_v100, main_v101, main_v102]

theorem seg10_writes : (seg10 : List (HloOp τ sig (Elt F))).Forall fun op =>
    op.writes ⊆ (seg10_W.map (Proc.devRef (τ := τ) .tc)).toFinset :=
  ⟨single_sub_of_mem (y := main_v90) (by decide), single_sub_of_mem (y := main_c_18) (by decide), single_sub_of_mem (y := main_v91) (by decide), single_sub_of_mem (y := main_v92) (by decide), single_sub_of_mem (y := main_c_19) (by decide), single_sub_of_mem (y := main_v93) (by decide), single_sub_of_mem (y := main_v94) (by decide), single_sub_of_mem (y := main_v95) (by decide), single_sub_of_mem (y := main_v96) (by decide), single_sub_of_mem (y := main_v97) (by decide), single_sub_of_mem (y := main_v98) (by decide), single_sub_of_mem (y := main_v99) (by decide), single_sub_of_mem (y := main_cst_20) (by decide), single_sub_of_mem (y := main_v100) (by decide), single_sub_of_mem (y := main_v101) (by decide), single_sub_of_mem (y := main_v102) (by decide)⟩

/-- A buffer stage 10 does not write keeps its contents through it. -/
theorem seg10_keep (V : Valuation τ sig (Elt F)) (r : Ref sig .tc) (h : r ∉ seg10_W) :
    after seg10 V (Proc.devRef .tc r) = V (Proc.devRef .tc r) :=
  after_of_writes_sub seg10 V seg10_writes h

/-- Stage 11 (operations 142 … 150): the affinity bundle rows gathered for the batch. -/
abbrev seg11 : List (HloOp τ sig (Elt F)) :=
  [ nullary main_c_21 (constantI S_ 32 0#32),
    unary main_c_21 main_v103 (broadcastInDim S2048x2 ![] bcast_S_S2048x2 : (⟨S_, .i32⟩ : BufTy).Contents (Elt F) → (⟨S2048x2, .i32⟩ : BufTy).Contents (Elt F)),
    binary main_arg8 main_v103 main_v104 (cmpi .slt : (⟨S2048x2, .i32⟩ : BufTy).Contents (Elt F) → (⟨S2048x2, .i32⟩ : BufTy).Contents (Elt F) → (⟨S2048x2, .i1⟩ : BufTy).Contents (Elt F)),
    nullary main_c_22 (constantI S_ 32 50000#32),
    unary main_c_22 main_v105 (broadcastInDim S2048x2 ![] bcast_S_S2048x2 : (⟨S_, .i32⟩ : BufTy).Contents (Elt F) → (⟨S2048x2, .i32⟩ : BufTy).Contents (Elt F)),
    binary main_arg8 main_v105 main_v106 (addi : (⟨S2048x2, .i32⟩ : BufTy).Contents (Elt F) → (⟨S2048x2, .i32⟩ : BufTy).Contents (Elt F) → (⟨S2048x2, .i32⟩ : BufTy).Contents (Elt F)),
    ternary main_v104 main_v106 main_arg8 main_v107 (select : (⟨S2048x2, .i1⟩ : BufTy).Contents (Elt F) → (⟨S2048x2, .i32⟩ : BufTy).Contents (Elt F) → (⟨S2048x2, .i32⟩ : BufTy).Contents (Elt F) → (⟨S2048x2, .i32⟩ : BufTy).Contents (Elt F)),
    unary main_v107 main_v108 (broadcastInDim S2048x2x1 ![0, 1] bcast_S2048x2_S2048x2x1_0_1 : (⟨S2048x2, .i32⟩ : BufTy).Contents (Elt F) → (⟨S2048x2x1, .i32⟩ : BufTy).Contents (Elt F)),
    binary main_v102 main_v108 main_v109 ((fun x i => Host.gather gather_S50000x64_S2048x2x1_S2048x2x64_2_0_n_n_0_2_164 x i) : (⟨S50000x64, .f32⟩ : BufTy).Contents (Elt F) → (⟨S2048x2x1, .i32⟩ : BufTy).Contents (Elt F) → (⟨S2048x2x64, .f32⟩ : BufTy).Contents (Elt F)) ]

/-- The buffers stage 11 writes. -/
abbrev seg11_W : List (Ref sig .tc) := [main_c_21, main_v103, main_v104, main_c_22, main_v105, main_v106, main_v107, main_v108, main_v109]

theorem seg11_writes : (seg11 : List (HloOp τ sig (Elt F))).Forall fun op =>
    op.writes ⊆ (seg11_W.map (Proc.devRef (τ := τ) .tc)).toFinset :=
  ⟨single_sub_of_mem (y := main_c_21) (by decide), single_sub_of_mem (y := main_v103) (by decide), single_sub_of_mem (y := main_v104) (by decide), single_sub_of_mem (y := main_c_22) (by decide), single_sub_of_mem (y := main_v105) (by decide), single_sub_of_mem (y := main_v106) (by decide), single_sub_of_mem (y := main_v107) (by decide), single_sub_of_mem (y := main_v108) (by decide), single_sub_of_mem (y := main_v109) (by decide)⟩

/-- A buffer stage 11 does not write keeps its contents through it. -/
theorem seg11_keep (V : Valuation τ sig (Elt F)) (r : Ref sig .tc) (h : r ∉ seg11_W) :
    after seg11 V (Proc.devRef .tc r) = V (Proc.devRef .tc r) :=
  after_of_writes_sub seg11 V seg11_writes h

/-- Stage 12 (operations 151 … 159): the history bundle rows gathered for the batch. -/
abbrev seg12 : List (HloOp τ sig (Elt F)) :=
  [ nullary main_c_23 (constantI S_ 32 0#32),
    unary main_c_23 main_v110 (broadcastInDim S2048x2 ![] bcast_S_S2048x2 : (⟨S_, .i32⟩ : BufTy).Contents (Elt F) → (⟨S2048x2, .i32⟩ : BufTy).Contents (Elt F)),
    binary main_arg8 main_v110 main_v111 (cmpi .slt : (⟨S2048x2, .i32⟩ : BufTy).Contents (Elt F) → (⟨S2048x2, .i32⟩ : BufTy).Contents (Elt F) → (⟨S2048x2, .i1⟩ : BufTy).Contents (Elt F)),
    nullary main_c_24 (constantI S_ 32 50000#32),
    unary main_c_24 main_v112 (broadcastInDim S2048x2 ![] bcast_S_S2048x2 : (⟨S_, .i32⟩ : BufTy).Contents (Elt F) → (⟨S2048x2, .i32⟩ : BufTy).Contents (Elt F)),
    binary main_arg8 main_v112 main_v113 (addi : (⟨S2048x2, .i32⟩ : BufTy).Contents (Elt F) → (⟨S2048x2, .i32⟩ : BufTy).Contents (Elt F) → (⟨S2048x2, .i32⟩ : BufTy).Contents (Elt F)),
    ternary main_v111 main_v113 main_arg8 main_v114 (select : (⟨S2048x2, .i1⟩ : BufTy).Contents (Elt F) → (⟨S2048x2, .i32⟩ : BufTy).Contents (Elt F) → (⟨S2048x2, .i32⟩ : BufTy).Contents (Elt F) → (⟨S2048x2, .i32⟩ : BufTy).Contents (Elt F)),
    unary main_v114 main_v115 (broadcastInDim S2048x2x1 ![0, 1] bcast_S2048x2_S2048x2x1_0_1 : (⟨S2048x2, .i32⟩ : BufTy).Contents (Elt F) → (⟨S2048x2x1, .i32⟩ : BufTy).Contents (Elt F)),
    binary main_v89 main_v115 main_v116 ((fun x i => Host.gather gather_S50000x64_S2048x2x1_S2048x2x64_2_0_n_n_0_2_164 x i) : (⟨S50000x64, .f32⟩ : BufTy).Contents (Elt F) → (⟨S2048x2x1, .i32⟩ : BufTy).Contents (Elt F) → (⟨S2048x2x64, .f32⟩ : BufTy).Contents (Elt F)) ]

/-- The buffers stage 12 writes. -/
abbrev seg12_W : List (Ref sig .tc) := [main_c_23, main_v110, main_v111, main_c_24, main_v112, main_v113, main_v114, main_v115, main_v116]

theorem seg12_writes : (seg12 : List (HloOp τ sig (Elt F))).Forall fun op =>
    op.writes ⊆ (seg12_W.map (Proc.devRef (τ := τ) .tc)).toFinset :=
  ⟨single_sub_of_mem (y := main_c_23) (by decide), single_sub_of_mem (y := main_v110) (by decide), single_sub_of_mem (y := main_v111) (by decide), single_sub_of_mem (y := main_c_24) (by decide), single_sub_of_mem (y := main_v112) (by decide), single_sub_of_mem (y := main_v113) (by decide), single_sub_of_mem (y := main_v114) (by decide), single_sub_of_mem (y := main_v115) (by decide), single_sub_of_mem (y := main_v116) (by decide)⟩

/-- A buffer stage 12 does not write keeps its contents through it. -/
theorem seg12_keep (V : Valuation τ sig (Elt F)) (r : Ref sig .tc) (h : r ∉ seg12_W) :
    after seg12 V (Proc.devRef .tc r) = V (Proc.devRef .tc r) :=
  after_of_writes_sub seg12 V seg12_writes h

/-- Stage 13 (operations 160 … 172): the batch's mixing weights: tanh of the bundle frequencies, gathered. -/
abbrev seg13 : List (HloOp τ sig (Elt F)) :=
  [ nullary main_cst_25 (constant S_ .f32 0x3F800000#32),
    unary main_cst_25 main_v117 (broadcastInDim S50000 ![] bcast_S_S50000 : (⟨S_, .f32⟩ : BufTy).Contents (Elt F) → (⟨S50000, .f32⟩ : BufTy).Contents (Elt F)),
    binary main_arg3 main_v117 main_v118 (Host.divf : (⟨S50000, .f32⟩ : BufTy).Contents (Elt F) → (⟨S50000, .f32⟩ : BufTy).Contents (Elt F) → (⟨S50000, .f32⟩ : BufTy).Contents (Elt F)),
    unary main_v118 main_v119 (Host.tanh : (⟨S50000, .f32⟩ : BufTy).Contents (Elt F) → (⟨S50000, .f32⟩ : BufTy).Contents (Elt F)),
    nullary main_c_26 (constantI S_ 32 0#32),
    unary main_c_26 main_v120 (broadcastInDim S2048x2 ![] bcast_S_S2048x2 : (⟨S_, .i32⟩ : BufTy).Contents (Elt F) → (⟨S2048x2, .i32⟩ : BufTy).Contents (Elt F)),
    binary main_arg8 main_v120 main_v121 (cmpi .slt : (⟨S2048x2, .i32⟩ : BufTy).Contents (Elt F) → (⟨S2048x2, .i32⟩ : BufTy).Contents (Elt F) → (⟨S2048x2, .i1⟩ : BufTy).Contents (Elt F)),
    nullary main_c_27 (constantI S_ 32 50000#32),
    unary main_c_27 main_v122 (broadcastInDim S2048x2 ![] bcast_S_S2048x2 : (⟨S_, .i32⟩ : BufTy).Contents (Elt F) → (⟨S2048x2, .i32⟩ : BufTy).Contents (Elt F)),
    binary main_arg8 main_v122 main_v123 (addi : (⟨S2048x2, .i32⟩ : BufTy).Contents (Elt F) → (⟨S2048x2, .i32⟩ : BufTy).Contents (Elt F) → (⟨S2048x2, .i32⟩ : BufTy).Contents (Elt F)),
    ternary main_v121 main_v123 main_arg8 main_v124 (select : (⟨S2048x2, .i1⟩ : BufTy).Contents (Elt F) → (⟨S2048x2, .i32⟩ : BufTy).Contents (Elt F) → (⟨S2048x2, .i32⟩ : BufTy).Contents (Elt F) → (⟨S2048x2, .i32⟩ : BufTy).Contents (Elt F)),
    unary main_v124 main_v125 (broadcastInDim S2048x2x1 ![0, 1] bcast_S2048x2_S2048x2x1_0_1 : (⟨S2048x2, .i32⟩ : BufTy).Contents (Elt F) → (⟨S2048x2x1, .i32⟩ : BufTy).Contents (Elt F)),
    binary main_v119 main_v125 main_v126 ((fun x i => Host.gather gather_S50000_S2048x2x1_S2048x2_n_0_n_n_0_2_1 x i) : (⟨S50000, .f32⟩ : BufTy).Contents (Elt F) → (⟨S2048x2x1, .i32⟩ : BufTy).Contents (Elt F) → (⟨S2048x2, .f32⟩ : BufTy).Contents (Elt F)) ]

/-- The buffers stage 13 writes. -/
abbrev seg13_W : List (Ref sig .tc) := [main_cst_25, main_v117, main_v118, main_v119, main_c_26, main_v120, main_v121, main_c_27, main_v122, main_v123, main_v124, main_v125, main_v126]

theorem seg13_writes : (seg13 : List (HloOp τ sig (Elt F))).Forall fun op =>
    op.writes ⊆ (seg13_W.map (Proc.devRef (τ := τ) .tc)).toFinset :=
  ⟨single_sub_of_mem (y := main_cst_25) (by decide), single_sub_of_mem (y := main_v117) (by decide), single_sub_of_mem (y := main_v118) (by decide), single_sub_of_mem (y := main_v119) (by decide), single_sub_of_mem (y := main_c_26) (by decide), single_sub_of_mem (y := main_v120) (by decide), single_sub_of_mem (y := main_v121) (by decide), single_sub_of_mem (y := main_c_27) (by decide), single_sub_of_mem (y := main_v122) (by decide), single_sub_of_mem (y := main_v123) (by decide), single_sub_of_mem (y := main_v124) (by decide), single_sub_of_mem (y := main_v125) (by decide), single_sub_of_mem (y := main_v126) (by decide)⟩

/-- A buffer stage 13 does not write keeps its contents through it. -/
theorem seg13_keep (V : Valuation τ sig (Elt F)) (r : Ref sig .tc) (h : r ∉ seg13_W) :
    after seg13 V (Proc.devRef .tc r) = V (Proc.devRef .tc r) :=
  after_of_writes_sub seg13 V seg13_writes h

/-- Stage 14 (operations 173 … 188): the batch's two scores per sample. -/
abbrev seg14 : List (HloOp τ sig (Elt F)) :=
  [ nullary main_cst_28 (constant S_ .f32 0x3F800000#32),
    unary main_cst_28 main_v127 (broadcastInDim S2048x2 ![] bcast_S_S2048x2 : (⟨S_, .f32⟩ : BufTy).Contents (Elt F) → (⟨S2048x2, .f32⟩ : BufTy).Contents (Elt F)),
    binary main_v127 main_v126 main_v128 (subf : (⟨S2048x2, .f32⟩ : BufTy).Contents (Elt F) → (⟨S2048x2, .f32⟩ : BufTy).Contents (Elt F) → (⟨S2048x2, .f32⟩ : BufTy).Contents (Elt F)),
    unary main_v128 main_v129 (broadcastInDim S2048x2x1 ![0, 1] bcast_S2048x2_S2048x2x1_0_1 : (⟨S2048x2, .f32⟩ : BufTy).Contents (Elt F) → (⟨S2048x2x1, .f32⟩ : BufTy).Contents (Elt F)),
    unary main_v129 main_v130 (broadcastInDim S2048x2x64 ![0, 1, 2] bcast_S2048x2x1_S2048x2x64_0_1_2 : (⟨S2048x2x1, .f32⟩ : BufTy).Contents (Elt F) → (⟨S2048x2x64, .f32⟩ : BufTy).Contents (Elt F)),
    binary main_v109 main_v130 main_v131 (mulf : (⟨S2048x2x64, .f32⟩ : BufTy).Contents (Elt F) → (⟨S2048x2x64, .f32⟩ : BufTy).Contents (Elt F) → (⟨S2048x2x64, .f32⟩ : BufTy).Contents (Elt F)),
    binary main_v109 main_v131 main_v132 (mulf : (⟨S2048x2x64, .f32⟩ : BufTy).Contents (Elt F) → (⟨S2048x2x64, .f32⟩ : BufTy).Contents (Elt F) → (⟨S2048x2x64, .f32⟩ : BufTy).Contents (Elt F)),
    nullary main_cst_29 (constant S_ .f32 0x00000000#32),
    binary main_v132 main_cst_29 main_v133 ((fun x v => Host.reduceAdd x v reducesTo_S2048x2x64_S2048x2_d2 h_S_) : (⟨S2048x2x64, .f32⟩ : BufTy).Contents (Elt F) → (⟨S_, .f32⟩ : BufTy).Contents (Elt F) → (⟨S2048x2, .f32⟩ : BufTy).Contents (Elt F)),
    unary main_v126 main_v134 (broadcastInDim S2048x2x1 ![0, 1] bcast_S2048x2_S2048x2x1_0_1 : (⟨S2048x2, .f32⟩ : BufTy).Contents (Elt F) → (⟨S2048x2x1, .f32⟩ : BufTy).Contents (Elt F)),
    unary main_v134 main_v135 (broadcastInDim S2048x2x64 ![0, 1, 2] bcast_S2048x2x1_S2048x2x64_0_1_2 : (⟨S2048x2x1, .f32⟩ : BufTy).Contents (Elt F) → (⟨S2048x2x64, .f32⟩ : BufTy).Contents (Elt F)),
    binary main_v116 main_v135 main_v136 (mulf : (⟨S2048x2x64, .f32⟩ : BufTy).Contents (Elt F) → (⟨S2048x2x64, .f32⟩ : BufTy).Contents (Elt F) → (⟨S2048x2x64, .f32⟩ : BufTy).Contents (Elt F)),
    binary main_v116 main_v136 main_v137 (mulf : (⟨S2048x2x64, .f32⟩ : BufTy).Contents (Elt F) → (⟨S2048x2x64, .f32⟩ : BufTy).Contents (Elt F) → (⟨S2048x2x64, .f32⟩ : BufTy).Contents (Elt F)),
    nullary main_cst_30 (constant S_ .f32 0x00000000#32),
    binary main_v137 main_cst_30 main_v138 ((fun x v => Host.reduceAdd x v reducesTo_S2048x2x64_S2048x2_d2 h_S_) : (⟨S2048x2x64, .f32⟩ : BufTy).Contents (Elt F) → (⟨S_, .f32⟩ : BufTy).Contents (Elt F) → (⟨S2048x2, .f32⟩ : BufTy).Contents (Elt F)),
    binary main_v133 main_v138 main_v139 (addf : (⟨S2048x2, .f32⟩ : BufTy).Contents (Elt F) → (⟨S2048x2, .f32⟩ : BufTy).Contents (Elt F) → (⟨S2048x2, .f32⟩ : BufTy).Contents (Elt F)) ]

/-- The buffers stage 14 writes. -/
abbrev seg14_W : List (Ref sig .tc) := [main_cst_28, main_v127, main_v128, main_v129, main_v130, main_v131, main_v132, main_cst_29, main_v133, main_v134, main_v135, main_v136, main_v137, main_cst_30, main_v138, main_v139]

theorem seg14_writes : (seg14 : List (HloOp τ sig (Elt F))).Forall fun op =>
    op.writes ⊆ (seg14_W.map (Proc.devRef (τ := τ) .tc)).toFinset :=
  ⟨single_sub_of_mem (y := main_cst_28) (by decide), single_sub_of_mem (y := main_v127) (by decide), single_sub_of_mem (y := main_v128) (by decide), single_sub_of_mem (y := main_v129) (by decide), single_sub_of_mem (y := main_v130) (by decide), single_sub_of_mem (y := main_v131) (by decide), single_sub_of_mem (y := main_v132) (by decide), single_sub_of_mem (y := main_cst_29) (by decide), single_sub_of_mem (y := main_v133) (by decide), single_sub_of_mem (y := main_v134) (by decide), single_sub_of_mem (y := main_v135) (by decide), single_sub_of_mem (y := main_v136) (by decide), single_sub_of_mem (y := main_v137) (by decide), single_sub_of_mem (y := main_cst_30) (by decide), single_sub_of_mem (y := main_v138) (by decide), single_sub_of_mem (y := main_v139) (by decide)⟩

/-- A buffer stage 14 does not write keeps its contents through it. -/
theorem seg14_keep (V : Valuation τ sig (Elt F)) (r : Ref sig .tc) (h : r ∉ seg14_W) :
    after seg14 V (Proc.devRef .tc r) = V (Proc.devRef .tc r) :=
  after_of_writes_sub seg14 V seg14_writes h

/-- Stage 15 (operations 189 … 214): the ranking loss: minus the mean log-sigmoid of the score differences. -/
abbrev seg15 : List (HloOp τ sig (Elt F)) :=
  [ unary main_v139 main_v140 ((extractStridedSlice S2048x1 ![0, 0] · slices_S2048x2_S2048x1_0_0) : (⟨S2048x2, .f32⟩ : BufTy).Contents (Elt F) → (⟨S2048x1, .f32⟩ : BufTy).Contents (Elt F)),
    reshape main_v140 main_v141 rfl shapeCasts_S2048x1_S2048,
    unary main_v139 main_v142 ((extractStridedSlice S2048x1 ![0, 1] · slices_S2048x2_S2048x1_0_1) : (⟨S2048x2, .f32⟩ : BufTy).Contents (Elt F) → (⟨S2048x1, .f32⟩ : BufTy).Contents (Elt F)),
    reshape main_v142 main_v143 rfl shapeCasts_S2048x1_S2048,
    binary main_v141 main_v143 main_v144 (subf : (⟨S2048, .f32⟩ : BufTy).Contents (Elt F) → (⟨S2048, .f32⟩ : BufTy).Contents (Elt F) → (⟨S2048, .f32⟩ : BufTy).Contents (Elt F)),
    TRef.unary (.of main_v144) main_call4.v0 Host.negf,
    TRef.nullary main_call4.call0.cst (constant S_ .f32 0x00000000#32),
    TRef.unary main_call4.call0.cst main_call4.call0.v0 (broadcastInDim S2048 ![] bcast_S_S2048),
    TRef.binary main_call4.v0 main_call4.call0.v0 main_call4.call0.v1 maximumf,
    TRef.unary main_call4.call0.cst main_call4.call0.v2 (broadcastInDim S2048 ![] bcast_S_S2048),
    TRef.binary main_call4.v0 main_call4.call0.v2 main_call4.call0.v3 subf,
    TRef.binary main_call4.call0.v3 main_call4.call0.v3 main_call4.call0.v4 (cmpf .une),
    TRef.unary main_call4.call0.cst main_call4.call0.v5 (broadcastInDim S2048 ![] bcast_S_S2048),
    TRef.binary main_call4.v0 main_call4.call0.v5 main_call4.call0.v6 addf,
    TRef.unary main_call4.call0.v3 main_call4.call0.v7 Host.absf,
    TRef.unary main_call4.call0.v7 main_call4.call0.v8 Host.negf,
    TRef.unary main_call4.call0.v8 main_call4.call0.v9 Host.exp,
    TRef.unary main_call4.call0.v9 main_call4.call0.v10 Host.log1p,
    TRef.binary main_call4.call0.v1 main_call4.call0.v10 main_call4.call0.v11 addf,
    TRef.ternary main_call4.call0.v4 main_call4.call0.v6 main_call4.call0.v11 main_call4.call0.v12 select,
    TRef.unary main_call4.call0.v12 main_call4.v2 Host.negf,
    nullary main_cst_31 (constant S_ .f32 0x00000000#32),
    binary main_v145 main_cst_31 main_v146 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_32 (constant S_ .f32 0x45000000#32),
    binary main_v146 main_cst_32 main_v147 (Host.divf : (⟨S_, .f32⟩ : BufTy).Contents (Elt F) → (⟨S_, .f32⟩ : BufTy).Contents (Elt F) → (⟨S_, .f32⟩ : BufTy).Contents (Elt F)),
    unary main_v147 main_v148 (Host.negf : (⟨S_, .f32⟩ : BufTy).Contents (Elt F) → (⟨S_, .f32⟩ : BufTy).Contents (Elt F)) ]

/-- The buffers stage 15 writes. -/
abbrev seg15_W : List (Ref sig .tc) := [main_v140, main_v141, main_v142, main_v143, main_v144, main_call4.v0.ref, main_call4.call0.cst.ref, main_call4.call0.v0.ref, main_call4.call0.v1.ref, main_call4.call0.v2.ref, main_call4.call0.v3.ref, main_call4.call0.v4.ref, main_call4.call0.v5.ref, main_call4.call0.v6.ref, main_call4.call0.v7.ref, main_call4.call0.v8.ref, main_call4.call0.v9.ref, main_call4.call0.v10.ref, main_call4.call0.v11.ref, main_call4.call0.v12.ref, main_call4.v2.ref, main_cst_31, main_v146, main_cst_32, main_v147, main_v148]

theorem seg15_writes : (seg15 : List (HloOp τ sig (Elt F))).Forall fun op =>
    op.writes ⊆ (seg15_W.map (Proc.devRef (τ := τ) .tc)).toFinset :=
  ⟨single_sub_of_mem (y := main_v140) (by decide), single_sub_of_mem (y := main_v141) (by decide), single_sub_of_mem (y := main_v142) (by decide), single_sub_of_mem (y := main_v143) (by decide), single_sub_of_mem (y := main_v144) (by decide), single_sub_of_mem (y := main_call4.v0.ref) (by decide), single_sub_of_mem (y := main_call4.call0.cst.ref) (by decide), single_sub_of_mem (y := main_call4.call0.v0.ref) (by decide), single_sub_of_mem (y := main_call4.call0.v1.ref) (by decide), single_sub_of_mem (y := main_call4.call0.v2.ref) (by decide), single_sub_of_mem (y := main_call4.call0.v3.ref) (by decide), single_sub_of_mem (y := main_call4.call0.v4.ref) (by decide), single_sub_of_mem (y := main_call4.call0.v5.ref) (by decide), single_sub_of_mem (y := main_call4.call0.v6.ref) (by decide), single_sub_of_mem (y := main_call4.call0.v7.ref) (by decide), single_sub_of_mem (y := main_call4.call0.v8.ref) (by decide), single_sub_of_mem (y := main_call4.call0.v9.ref) (by decide), single_sub_of_mem (y := main_call4.call0.v10.ref) (by decide), single_sub_of_mem (y := main_call4.call0.v11.ref) (by decide), single_sub_of_mem (y := main_call4.call0.v12.ref) (by decide), single_sub_of_mem (y := main_call4.v2.ref) (by decide), single_sub_of_mem (y := main_cst_31) (by decide), single_sub_of_mem (y := main_v146) (by decide), single_sub_of_mem (y := main_cst_32) (by decide), single_sub_of_mem (y := main_v147) (by decide), single_sub_of_mem (y := main_v148) (by decide)⟩

/-- A buffer stage 15 does not write keeps its contents through it. -/
theorem seg15_keep (V : Valuation τ sig (Elt F)) (r : Ref sig .tc) (h : r ∉ seg15_W) :
    after seg15 V (Proc.devRef .tc r) = V (Proc.devRef .tc r) :=
  after_of_writes_sub seg15 V seg15_writes h

/-- Stage 16 (operations 215 … 218): the positive-bundle rows of the two gathered tables. -/
abbrev seg16 : List (HloOp τ sig (Elt F)) :=
  [ unary main_v109 main_v149 ((extractStridedSlice S2048x1x64 ![0, 0, 0] · slices_S2048x2x64_S2048x1x64_0_0_0) : (⟨S2048x2x64, .f32⟩ : BufTy).Contents (Elt F) → (⟨S2048x1x64, .f32⟩ : BufTy).Contents (Elt F)),
    reshape main_v149 main_v150 rfl shapeCasts_S2048x1x64_S2048x64,
    unary main_v116 main_v151 ((extractStridedSlice S2048x1x64 ![0, 0, 0] · slices_S2048x2x64_S2048x1x64_0_0_0) : (⟨S2048x2x64, .f32⟩ : BufTy).Contents (Elt F) → (⟨S2048x1x64, .f32⟩ : BufTy).Contents (Elt F)),
    reshape main_v151 main_v152 rfl shapeCasts_S2048x1x64_S2048x64 ]

/-- The buffers stage 16 writes. -/
abbrev seg16_W : List (Ref sig .tc) := [main_v149, main_v150, main_v151, main_v152]

theorem seg16_writes : (seg16 : List (HloOp τ sig (Elt F))).Forall fun op =>
    op.writes ⊆ (seg16_W.map (Proc.devRef (τ := τ) .tc)).toFinset :=
  ⟨single_sub_of_mem (y := main_v149) (by decide), single_sub_of_mem (y := main_v150) (by decide), single_sub_of_mem (y := main_v151) (by decide), single_sub_of_mem (y := main_v152) (by decide)⟩

/-- A buffer stage 16 does not write keeps its contents through it. -/
theorem seg16_keep (V : Valuation τ sig (Elt F)) (r : Ref sig .tc) (h : r ∉ seg16_W) :
    after seg16 V (Proc.devRef .tc r) = V (Proc.devRef .tc r) :=
  after_of_writes_sub seg16 V seg16_writes h

/-- Stage 17 (operations 219 … 246): the alignment loss of the two positive-bundle tables. -/
abbrev seg17 : List (HloOp τ sig (Elt F)) :=
  [ TRef.binary (.of main_v150) (.of main_v150) main_call5.v0 mulf,
    TRef.nullary main_call5.cst (constant S_ .f32 0x00000000#32),
    TRef.binary main_call5.v0 main_call5.cst main_call5.v1 (fun x v => Host.reduceAdd x v reducesTo_S2048x64_S2048_d1 h_S_),
    TRef.unary main_call5.v1 main_call5.v2 (broadcastInDim S2048x1 ![0] bcast_S2048_S2048x1_0),
    TRef.unary main_call5.v2 main_call5.v3 Host.sqrt,
    nullary main_cst_33 (constant S_ .f32 0x2B8CBCCC#32),
    unary main_cst_33 main_v154 (broadcastInDim S2048x1 ![] bcast_S_S2048x1 : (⟨S_, .f32⟩ : BufTy).Contents (Elt F) → (⟨S2048x1, .f32⟩ : BufTy).Contents (Elt F)),
    binary main_v153 main_v154 main_v155 (maximumf : (⟨S2048x1, .f32⟩ : BufTy).Contents (Elt F) → (⟨S2048x1, .f32⟩ : BufTy).Contents (Elt F) → (⟨S2048x1, .f32⟩ : BufTy).Contents (Elt F)),
    unary main_v155 main_v156 (broadcastInDim S2048x64 ![0, 1] bcast_S2048x1_S2048x64_0_1 : (⟨S2048x1, .f32⟩ : BufTy).Contents (Elt F) → (⟨S2048x64, .f32⟩ : BufTy).Contents (Elt F)),
    binary main_v150 main_v156 main_v157 (Host.divf : (⟨S2048x64, .f32⟩ : BufTy).Contents (Elt F) → (⟨S2048x64, .f32⟩ : BufTy).Contents (Elt F) → (⟨S2048x64, .f32⟩ : BufTy).Contents (Elt F)),
    TRef.binary (.of main_v152) (.of main_v152) main_call6.v0 mulf,
    TRef.nullary main_call6.cst (constant S_ .f32 0x00000000#32),
    TRef.binary main_call6.v0 main_call6.cst main_call6.v1 (fun x v => Host.reduceAdd x v reducesTo_S2048x64_S2048_d1 h_S_),
    TRef.unary main_call6.v1 main_call6.v2 (broadcastInDim S2048x1 ![0] bcast_S2048_S2048x1_0),
    TRef.unary main_call6.v2 main_call6.v3 Host.sqrt,
    nullary main_cst_34 (constant S_ .f32 0x2B8CBCCC#32),
    unary main_cst_34 main_v159 (broadcastInDim S2048x1 ![] bcast_S_S2048x1 : (⟨S_, .f32⟩ : BufTy).Contents (Elt F) → (⟨S2048x1, .f32⟩ : BufTy).Contents (Elt F)),
    binary main_v158 main_v159 main_v160 (maximumf : (⟨S2048x1, .f32⟩ : BufTy).Contents (Elt F) → (⟨S2048x1, .f32⟩ : BufTy).Contents (Elt F) → (⟨S2048x1, .f32⟩ : BufTy).Contents (Elt F)),
    unary main_v160 main_v161 (broadcastInDim S2048x64 ![0, 1] bcast_S2048x1_S2048x64_0_1 : (⟨S2048x1, .f32⟩ : BufTy).Contents (Elt F) → (⟨S2048x64, .f32⟩ : BufTy).Contents (Elt F)),
    binary main_v152 main_v161 main_v162 (Host.divf : (⟨S2048x64, .f32⟩ : BufTy).Contents (Elt F) → (⟨S2048x64, .f32⟩ : BufTy).Contents (Elt F) → (⟨S2048x64, .f32⟩ : BufTy).Contents (Elt F)),
    binary main_v157 main_v162 main_v163 (subf : (⟨S2048x64, .f32⟩ : BufTy).Contents (Elt F) → (⟨S2048x64, .f32⟩ : BufTy).Contents (Elt F) → (⟨S2048x64, .f32⟩ : BufTy).Contents (Elt F)),
    binary main_v163 main_v163 main_v164 (mulf : (⟨S2048x64, .f32⟩ : BufTy).Contents (Elt F) → (⟨S2048x64, .f32⟩ : BufTy).Contents (Elt F) → (⟨S2048x64, .f32⟩ : BufTy).Contents (Elt F)),
    nullary main_cst_35 (constant S_ .f32 0x00000000#32),
    binary main_v164 main_cst_35 main_v165 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    nullary main_cst_36 (constant S_ .f32 0x00000000#32),
    binary main_v165 main_cst_36 main_v166 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_37 (constant S_ .f32 0x45000000#32),
    binary main_v166 main_cst_37 main_v167 (Host.divf : (⟨S_, .f32⟩ : BufTy).Contents (Elt F) → (⟨S_, .f32⟩ : BufTy).Contents (Elt F) → (⟨S_, .f32⟩ : BufTy).Contents (Elt F)) ]

/-- The buffers stage 17 writes. -/
abbrev seg17_W : List (Ref sig .tc) := [main_call5.v0.ref, main_call5.cst.ref, main_call5.v1.ref, main_call5.v2.ref, main_call5.v3.ref, main_cst_33, main_v154, main_v155, main_v156, main_v157, main_call6.v0.ref, main_call6.cst.ref, main_call6.v1.ref, main_call6.v2.ref, main_call6.v3.ref, main_cst_34, main_v159, main_v160, main_v161, main_v162, main_v163, main_v164, main_cst_35, main_v165, main_cst_36, main_v166, main_cst_37, main_v167]

theorem seg17_writes : (seg17 : List (HloOp τ sig (Elt F))).Forall fun op =>
    op.writes ⊆ (seg17_W.map (Proc.devRef (τ := τ) .tc)).toFinset :=
  ⟨single_sub_of_mem (y := main_call5.v0.ref) (by decide), single_sub_of_mem (y := main_call5.cst.ref) (by decide), single_sub_of_mem (y := main_call5.v1.ref) (by decide), single_sub_of_mem (y := main_call5.v2.ref) (by decide), single_sub_of_mem (y := main_call5.v3.ref) (by decide), single_sub_of_mem (y := main_cst_33) (by decide), single_sub_of_mem (y := main_v154) (by decide), single_sub_of_mem (y := main_v155) (by decide), single_sub_of_mem (y := main_v156) (by decide), single_sub_of_mem (y := main_v157) (by decide), single_sub_of_mem (y := main_call6.v0.ref) (by decide), single_sub_of_mem (y := main_call6.cst.ref) (by decide), single_sub_of_mem (y := main_call6.v1.ref) (by decide), single_sub_of_mem (y := main_call6.v2.ref) (by decide), single_sub_of_mem (y := main_call6.v3.ref) (by decide), single_sub_of_mem (y := main_cst_34) (by decide), single_sub_of_mem (y := main_v159) (by decide), single_sub_of_mem (y := main_v160) (by decide), single_sub_of_mem (y := main_v161) (by decide), single_sub_of_mem (y := main_v162) (by decide), single_sub_of_mem (y := main_v163) (by decide), single_sub_of_mem (y := main_v164) (by decide), single_sub_of_mem (y := main_cst_35) (by decide), single_sub_of_mem (y := main_v165) (by decide), single_sub_of_mem (y := main_cst_36) (by decide), single_sub_of_mem (y := main_v166) (by decide), single_sub_of_mem (y := main_cst_37) (by decide), single_sub_of_mem (y := main_v167) (by decide)⟩

/-- A buffer stage 17 does not write keeps its contents through it. -/
theorem seg17_keep (V : Valuation τ sig (Elt F)) (r : Ref sig .tc) (h : r ∉ seg17_W) :
    after seg17 V (Proc.devRef .tc r) = V (Proc.devRef .tc r) :=
  after_of_writes_sub seg17 V seg17_writes h

/-- Stage 18 (operations 247 … 256): the affinity positive-bundle rows normalised. -/
abbrev seg18 : List (HloOp τ sig (Elt F)) :=
  [ TRef.binary (.of main_v150) (.of main_v150) main_call7.v0 mulf,
    TRef.nullary main_call7.cst (constant S_ .f32 0x00000000#32),
    TRef.binary main_call7.v0 main_call7.cst main_call7.v1 (fun x v => Host.reduceAdd x v reducesTo_S2048x64_S2048_d1 h_S_),
    TRef.unary main_call7.v1 main_call7.v2 (broadcastInDim S2048x1 ![0] bcast_S2048_S2048x1_0),
    TRef.unary main_call7.v2 main_call7.v3 Host.sqrt,
    nullary main_cst_38 (constant S_ .f32 0x2B8CBCCC#32),
    unary main_cst_38 main_v169 (broadcastInDim S2048x1 ![] bcast_S_S2048x1 : (⟨S_, .f32⟩ : BufTy).Contents (Elt F) → (⟨S2048x1, .f32⟩ : BufTy).Contents (Elt F)),
    binary main_v168 main_v169 main_v170 (maximumf : (⟨S2048x1, .f32⟩ : BufTy).Contents (Elt F) → (⟨S2048x1, .f32⟩ : BufTy).Contents (Elt F) → (⟨S2048x1, .f32⟩ : BufTy).Contents (Elt F)),
    unary main_v170 main_v171 (broadcastInDim S2048x64 ![0, 1] bcast_S2048x1_S2048x64_0_1 : (⟨S2048x1, .f32⟩ : BufTy).Contents (Elt F) → (⟨S2048x64, .f32⟩ : BufTy).Contents (Elt F)),
    binary main_v150 main_v171 main_v172 (Host.divf : (⟨S2048x64, .f32⟩ : BufTy).Contents (Elt F) → (⟨S2048x64, .f32⟩ : BufTy).Contents (Elt F) → (⟨S2048x64, .f32⟩ : BufTy).Contents (Elt F)) ]

/-- The buffers stage 18 writes. -/
abbrev seg18_W : List (Ref sig .tc) := [main_call7.v0.ref, main_call7.cst.ref, main_call7.v1.ref, main_call7.v2.ref, main_call7.v3.ref, main_cst_38, main_v169, main_v170, main_v171, main_v172]

theorem seg18_writes : (seg18 : List (HloOp τ sig (Elt F))).Forall fun op =>
    op.writes ⊆ (seg18_W.map (Proc.devRef (τ := τ) .tc)).toFinset :=
  ⟨single_sub_of_mem (y := main_call7.v0.ref) (by decide), single_sub_of_mem (y := main_call7.cst.ref) (by decide), single_sub_of_mem (y := main_call7.v1.ref) (by decide), single_sub_of_mem (y := main_call7.v2.ref) (by decide), single_sub_of_mem (y := main_call7.v3.ref) (by decide), single_sub_of_mem (y := main_cst_38) (by decide), single_sub_of_mem (y := main_v169) (by decide), single_sub_of_mem (y := main_v170) (by decide), single_sub_of_mem (y := main_v171) (by decide), single_sub_of_mem (y := main_v172) (by decide)⟩

/-- A buffer stage 18 does not write keeps its contents through it. -/
theorem seg18_keep (V : Valuation τ sig (Elt F)) (r : Ref sig .tc) (h : r ∉ seg18_W) :
    after seg18 V (Proc.devRef .tc r) = V (Proc.devRef .tc r) :=
  after_of_writes_sub seg18 V seg18_writes h

/-- Stage 19 (operations 257 … 297): the uniformity loss of the normalised affinity positive-bundle rows. -/
abbrev seg19 : List (HloOp τ sig (Elt F)) :=
  [ binary main_v172 main_v172 main_v173 (mulf : (⟨S2048x64, .f32⟩ : BufTy).Contents (Elt F) → (⟨S2048x64, .f32⟩ : BufTy).Contents (Elt F) → (⟨S2048x64, .f32⟩ : BufTy).Contents (Elt F)),
    nullary main_cst_39 (constant S_ .f32 0x00000000#32),
    binary main_v173 main_cst_39 main_v174 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v174 main_v175 (broadcastInDim S2048x1 ![0] bcast_S2048_S2048x1_0 : (⟨S2048, .f32⟩ : BufTy).Contents (Elt F) → (⟨S2048x1, .f32⟩ : BufTy).Contents (Elt F)),
    unary main_v174 main_v176 (broadcastInDim S1x2048 ![1] bcast_S2048_S1x2048_1 : (⟨S2048, .f32⟩ : BufTy).Contents (Elt F) → (⟨S1x2048, .f32⟩ : BufTy).Contents (Elt F)),
    unary main_v175 main_v177 (broadcastInDim S2048x2048 ![0, 1] bcast_S2048x1_S2048x2048_0_1 : (⟨S2048x1, .f32⟩ : BufTy).Contents (Elt F) → (⟨S2048x2048, .f32⟩ : BufTy).Contents (Elt F)),
    unary main_v176 main_v178 (broadcastInDim S2048x2048 ![0, 1] bcast_S1x2048_S2048x2048_0_1 : (⟨S1x2048, .f32⟩ : BufTy).Contents (Elt F) → (⟨S2048x2048, .f32⟩ : BufTy).Contents (Elt F)),
    binary main_v177 main_v178 main_v179 (addf : (⟨S2048x2048, .f32⟩ : BufTy).Contents (Elt F) → (⟨S2048x2048, .f32⟩ : BufTy).Contents (Elt F) → (⟨S2048x2048, .f32⟩ : BufTy).Contents (Elt F)),
    unary main_v172 main_v180 ((transpose S64x2048 [1, 0] · transposes_S2048x64_S64x2048_1_0) : (⟨S2048x64, .f32⟩ : BufTy).Contents (Elt F) → (⟨S64x2048, .f32⟩ : BufTy).Contents (Elt F)),
    binary main_v172 main_v180 main_v181 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_40 (constant S_ .f32 0x40000000#32),
    unary main_cst_40 main_v182 (broadcastInDim S2048x2048 ![] bcast_S_S2048x2048 : (⟨S_, .f32⟩ : BufTy).Contents (Elt F) → (⟨S2048x2048, .f32⟩ : BufTy).Contents (Elt F)),
    binary main_v182 main_v181 main_v183 (mulf : (⟨S2048x2048, .f32⟩ : BufTy).Contents (Elt F) → (⟨S2048x2048, .f32⟩ : BufTy).Contents (Elt F) → (⟨S2048x2048, .f32⟩ : BufTy).Contents (Elt F)),
    binary main_v179 main_v183 main_v184 (subf : (⟨S2048x2048, .f32⟩ : BufTy).Contents (Elt F) → (⟨S2048x2048, .f32⟩ : BufTy).Contents (Elt F) → (⟨S2048x2048, .f32⟩ : BufTy).Contents (Elt F)),
    nullary main_cst_41 (constant S_ .f32 0x00000000#32),
    unary main_cst_41 main_v185 (broadcastInDim S2048x2048 ![] bcast_S_S2048x2048 : (⟨S_, .f32⟩ : BufTy).Contents (Elt F) → (⟨S2048x2048, .f32⟩ : BufTy).Contents (Elt F)),
    binary main_v184 main_v185 main_v186 (maximumf : (⟨S2048x2048, .f32⟩ : BufTy).Contents (Elt F) → (⟨S2048x2048, .f32⟩ : BufTy).Contents (Elt F) → (⟨S2048x2048, .f32⟩ : BufTy).Contents (Elt F)),
    nullary main_c_42 (constantI S_ 1 1#1),
    unary main_c_42 main_v187 (broadcastInDim S2048x2048 ![] bcast_S_S2048x2048 : (⟨S_, .i1⟩ : BufTy).Contents (Elt F) → (⟨S2048x2048, .i1⟩ : BufTy).Contents (Elt F)),
    TRef.nullary main_call8.v0 (iotaInDim S2048x2048 32 0),
    TRef.nullary main_call8.c (constantI S_ 32 0#32),
    TRef.unary main_call8.c main_call8.v1 (broadcastInDim S2048x2048 ![] bcast_S_S2048x2048),
    TRef.binary main_call8.v0 main_call8.v1 main_call8.v2 addi,
    TRef.nullary main_call8.v3 (iotaInDim S2048x2048 32 1),
    TRef.binary main_call8.v2 main_call8.v3 main_call8.v4 (cmpi .sge),
    TRef.nullary main_call8.c_0 (constantI S_ 1 0#1),
    TRef.unary main_call8.c_0 main_call8.v5 (broadcastInDim S2048x2048 ![] bcast_S_S2048x2048),
    TRef.ternary main_call8.v4 main_call8.v5 (.of main_v187) main_call8.v6 select,
    nullary main_cst_43 (constant S_ .f32 0xC0000000#32),
    unary main_cst_43 main_v189 (broadcastInDim S2048x2048 ![] bcast_S_S2048x2048 : (⟨S_, .f32⟩ : BufTy).Contents (Elt F) → (⟨S2048x2048, .f32⟩ : BufTy).Contents (Elt F)),
    binary main_v189 main_v186 main_v190 (mulf : (⟨S2048x2048, .f32⟩ : BufTy).Contents (Elt F) → (⟨S2048x2048, .f32⟩ : BufTy).Contents (Elt F) → (⟨S2048x2048, .f32⟩ : BufTy).Contents (Elt F)),
    unary main_v190 main_v191 (Host.exp : (⟨S2048x2048, .f32⟩ : BufTy).Contents (Elt F) → (⟨S2048x2048, .f32⟩ : BufTy).Contents (Elt F)),
    nullary main_cst_44 (constant S_ .f32 0x00000000#32),
    TRef.unary (.of main_cst_44) main_call9.v0 id,
    TRef.unary main_call9.v0 main_call9.v1 (broadcastInDim S2048x2048 ![] bcast_S_S2048x2048),
    TRef.ternary (.of main_v188) (.of main_v191) main_call9.v1 main_call9.v2 select,
    nullary main_cst_45 (constant S_ .f32 0x00000000#32),
    binary main_v192 main_cst_45 main_v193 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    nullary main_cst_46 (constant S_ .f32 0x49FFE000#32),
    binary main_v193 main_cst_46 main_v194 (Host.divf : (⟨S_, .f32⟩ : BufTy).Contents (Elt F) → (⟨S_, .f32⟩ : BufTy).Contents (Elt F) → (⟨S_, .f32⟩ : BufTy).Contents (Elt F)),
    unary main_v194 main_v195 (Host.log : (⟨S_, .f32⟩ : BufTy).Contents (Elt F) → (⟨S_, .f32⟩ : BufTy).Contents (Elt F)) ]

/-- The buffers stage 19 writes. -/
abbrev seg19_W : List (Ref sig .tc) := [main_v173, main_cst_39, main_v174, main_v175, main_v176, main_v177, main_v178, main_v179, main_v180, main_v181, main_cst_40, main_v182, main_v183, main_v184, main_cst_41, main_v185, main_v186, main_c_42, main_v187, main_call8.v0.ref, main_call8.c.ref, main_call8.v1.ref, main_call8.v2.ref, main_call8.v3.ref, main_call8.v4.ref, main_call8.c_0.ref, main_call8.v5.ref, main_call8.v6.ref, main_cst_43, main_v189, main_v190, main_v191, main_cst_44, main_call9.v0.ref, main_call9.v1.ref, main_call9.v2.ref, main_cst_45, main_v193, main_cst_46, main_v194, main_v195]

theorem seg19_writes : (seg19 : List (HloOp τ sig (Elt F))).Forall fun op =>
    op.writes ⊆ (seg19_W.map (Proc.devRef (τ := τ) .tc)).toFinset :=
  ⟨single_sub_of_mem (y := main_v173) (by decide), single_sub_of_mem (y := main_cst_39) (by decide), single_sub_of_mem (y := main_v174) (by decide), single_sub_of_mem (y := main_v175) (by decide), single_sub_of_mem (y := main_v176) (by decide), single_sub_of_mem (y := main_v177) (by decide), single_sub_of_mem (y := main_v178) (by decide), single_sub_of_mem (y := main_v179) (by decide), single_sub_of_mem (y := main_v180) (by decide), single_sub_of_mem (y := main_v181) (by decide), single_sub_of_mem (y := main_cst_40) (by decide), single_sub_of_mem (y := main_v182) (by decide), single_sub_of_mem (y := main_v183) (by decide), single_sub_of_mem (y := main_v184) (by decide), single_sub_of_mem (y := main_cst_41) (by decide), single_sub_of_mem (y := main_v185) (by decide), single_sub_of_mem (y := main_v186) (by decide), single_sub_of_mem (y := main_c_42) (by decide), single_sub_of_mem (y := main_v187) (by decide), single_sub_of_mem (y := main_call8.v0.ref) (by decide), single_sub_of_mem (y := main_call8.c.ref) (by decide), single_sub_of_mem (y := main_call8.v1.ref) (by decide), single_sub_of_mem (y := main_call8.v2.ref) (by decide), single_sub_of_mem (y := main_call8.v3.ref) (by decide), single_sub_of_mem (y := main_call8.v4.ref) (by decide), single_sub_of_mem (y := main_call8.c_0.ref) (by decide), single_sub_of_mem (y := main_call8.v5.ref) (by decide), single_sub_of_mem (y := main_call8.v6.ref) (by decide), single_sub_of_mem (y := main_cst_43) (by decide), single_sub_of_mem (y := main_v189) (by decide), single_sub_of_mem (y := main_v190) (by decide), single_sub_of_mem (y := main_v191) (by decide), single_sub_of_mem (y := main_cst_44) (by decide), single_sub_of_mem (y := main_call9.v0.ref) (by decide), single_sub_of_mem (y := main_call9.v1.ref) (by decide), single_sub_of_mem (y := main_call9.v2.ref) (by decide), single_sub_of_mem (y := main_cst_45) (by decide), single_sub_of_mem (y := main_v193) (by decide), single_sub_of_mem (y := main_cst_46) (by decide), single_sub_of_mem (y := main_v194) (by decide), single_sub_of_mem (y := main_v195) (by decide)⟩

/-- A buffer stage 19 does not write keeps its contents through it. -/
theorem seg19_keep (V : Valuation τ sig (Elt F)) (r : Ref sig .tc) (h : r ∉ seg19_W) :
    after seg19 V (Proc.devRef .tc r) = V (Proc.devRef .tc r) :=
  after_of_writes_sub seg19 V seg19_writes h

/-- Stage 20 (operations 298 … 307): the history positive-bundle rows normalised. -/
abbrev seg20 : List (HloOp τ sig (Elt F)) :=
  [ TRef.binary (.of main_v152) (.of main_v152) main_call10.v0 mulf,
    TRef.nullary main_call10.cst (constant S_ .f32 0x00000000#32),
    TRef.binary main_call10.v0 main_call10.cst main_call10.v1 (fun x v => Host.reduceAdd x v reducesTo_S2048x64_S2048_d1 h_S_),
    TRef.unary main_call10.v1 main_call10.v2 (broadcastInDim S2048x1 ![0] bcast_S2048_S2048x1_0),
    TRef.unary main_call10.v2 main_call10.v3 Host.sqrt,
    nullary main_cst_47 (constant S_ .f32 0x2B8CBCCC#32),
    unary main_cst_47 main_v197 (broadcastInDim S2048x1 ![] bcast_S_S2048x1 : (⟨S_, .f32⟩ : BufTy).Contents (Elt F) → (⟨S2048x1, .f32⟩ : BufTy).Contents (Elt F)),
    binary main_v196 main_v197 main_v198 (maximumf : (⟨S2048x1, .f32⟩ : BufTy).Contents (Elt F) → (⟨S2048x1, .f32⟩ : BufTy).Contents (Elt F) → (⟨S2048x1, .f32⟩ : BufTy).Contents (Elt F)),
    unary main_v198 main_v199 (broadcastInDim S2048x64 ![0, 1] bcast_S2048x1_S2048x64_0_1 : (⟨S2048x1, .f32⟩ : BufTy).Contents (Elt F) → (⟨S2048x64, .f32⟩ : BufTy).Contents (Elt F)),
    binary main_v152 main_v199 main_v200 (Host.divf : (⟨S2048x64, .f32⟩ : BufTy).Contents (Elt F) → (⟨S2048x64, .f32⟩ : BufTy).Contents (Elt F) → (⟨S2048x64, .f32⟩ : BufTy).Contents (Elt F)) ]

/-- The buffers stage 20 writes. -/
abbrev seg20_W : List (Ref sig .tc) := [main_call10.v0.ref, main_call10.cst.ref, main_call10.v1.ref, main_call10.v2.ref, main_call10.v3.ref, main_cst_47, main_v197, main_v198, main_v199, main_v200]

theorem seg20_writes : (seg20 : List (HloOp τ sig (Elt F))).Forall fun op =>
    op.writes ⊆ (seg20_W.map (Proc.devRef (τ := τ) .tc)).toFinset :=
  ⟨single_sub_of_mem (y := main_call10.v0.ref) (by decide), single_sub_of_mem (y := main_call10.cst.ref) (by decide), single_sub_of_mem (y := main_call10.v1.ref) (by decide), single_sub_of_mem (y := main_call10.v2.ref) (by decide), single_sub_of_mem (y := main_call10.v3.ref) (by decide), single_sub_of_mem (y := main_cst_47) (by decide), single_sub_of_mem (y := main_v197) (by decide), single_sub_of_mem (y := main_v198) (by decide), single_sub_of_mem (y := main_v199) (by decide), single_sub_of_mem (y := main_v200) (by decide)⟩

/-- A buffer stage 20 does not write keeps its contents through it. -/
theorem seg20_keep (V : Valuation τ sig (Elt F)) (r : Ref sig .tc) (h : r ∉ seg20_W) :
    after seg20 V (Proc.devRef .tc r) = V (Proc.devRef .tc r) :=
  after_of_writes_sub seg20 V seg20_writes h

/-- Stage 21 (operations 308 … 348): the uniformity loss of the normalised history positive-bundle rows. -/
abbrev seg21 : List (HloOp τ sig (Elt F)) :=
  [ binary main_v200 main_v200 main_v201 (mulf : (⟨S2048x64, .f32⟩ : BufTy).Contents (Elt F) → (⟨S2048x64, .f32⟩ : BufTy).Contents (Elt F) → (⟨S2048x64, .f32⟩ : BufTy).Contents (Elt F)),
    nullary main_cst_48 (constant S_ .f32 0x00000000#32),
    binary main_v201 main_cst_48 main_v202 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v202 main_v203 (broadcastInDim S2048x1 ![0] bcast_S2048_S2048x1_0 : (⟨S2048, .f32⟩ : BufTy).Contents (Elt F) → (⟨S2048x1, .f32⟩ : BufTy).Contents (Elt F)),
    unary main_v202 main_v204 (broadcastInDim S1x2048 ![1] bcast_S2048_S1x2048_1 : (⟨S2048, .f32⟩ : BufTy).Contents (Elt F) → (⟨S1x2048, .f32⟩ : BufTy).Contents (Elt F)),
    unary main_v203 main_v205 (broadcastInDim S2048x2048 ![0, 1] bcast_S2048x1_S2048x2048_0_1 : (⟨S2048x1, .f32⟩ : BufTy).Contents (Elt F) → (⟨S2048x2048, .f32⟩ : BufTy).Contents (Elt F)),
    unary main_v204 main_v206 (broadcastInDim S2048x2048 ![0, 1] bcast_S1x2048_S2048x2048_0_1 : (⟨S1x2048, .f32⟩ : BufTy).Contents (Elt F) → (⟨S2048x2048, .f32⟩ : BufTy).Contents (Elt F)),
    binary main_v205 main_v206 main_v207 (addf : (⟨S2048x2048, .f32⟩ : BufTy).Contents (Elt F) → (⟨S2048x2048, .f32⟩ : BufTy).Contents (Elt F) → (⟨S2048x2048, .f32⟩ : BufTy).Contents (Elt F)),
    unary main_v200 main_v208 ((transpose S64x2048 [1, 0] · transposes_S2048x64_S64x2048_1_0) : (⟨S2048x64, .f32⟩ : BufTy).Contents (Elt F) → (⟨S64x2048, .f32⟩ : BufTy).Contents (Elt F)),
    binary main_v200 main_v208 main_v209 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_49 (constant S_ .f32 0x40000000#32),
    unary main_cst_49 main_v210 (broadcastInDim S2048x2048 ![] bcast_S_S2048x2048 : (⟨S_, .f32⟩ : BufTy).Contents (Elt F) → (⟨S2048x2048, .f32⟩ : BufTy).Contents (Elt F)),
    binary main_v210 main_v209 main_v211 (mulf : (⟨S2048x2048, .f32⟩ : BufTy).Contents (Elt F) → (⟨S2048x2048, .f32⟩ : BufTy).Contents (Elt F) → (⟨S2048x2048, .f32⟩ : BufTy).Contents (Elt F)),
    binary main_v207 main_v211 main_v212 (subf : (⟨S2048x2048, .f32⟩ : BufTy).Contents (Elt F) → (⟨S2048x2048, .f32⟩ : BufTy).Contents (Elt F) → (⟨S2048x2048, .f32⟩ : BufTy).Contents (Elt F)),
    nullary main_cst_50 (constant S_ .f32 0x00000000#32),
    unary main_cst_50 main_v213 (broadcastInDim S2048x2048 ![] bcast_S_S2048x2048 : (⟨S_, .f32⟩ : BufTy).Contents (Elt F) → (⟨S2048x2048, .f32⟩ : BufTy).Contents (Elt F)),
    binary main_v212 main_v213 main_v214 (maximumf : (⟨S2048x2048, .f32⟩ : BufTy).Contents (Elt F) → (⟨S2048x2048, .f32⟩ : BufTy).Contents (Elt F) → (⟨S2048x2048, .f32⟩ : BufTy).Contents (Elt F)),
    nullary main_c_51 (constantI S_ 1 1#1),
    unary main_c_51 main_v215 (broadcastInDim S2048x2048 ![] bcast_S_S2048x2048 : (⟨S_, .i1⟩ : BufTy).Contents (Elt F) → (⟨S2048x2048, .i1⟩ : BufTy).Contents (Elt F)),
    TRef.nullary main_call11.v0 (iotaInDim S2048x2048 32 0),
    TRef.nullary main_call11.c (constantI S_ 32 0#32),
    TRef.unary main_call11.c main_call11.v1 (broadcastInDim S2048x2048 ![] bcast_S_S2048x2048),
    TRef.binary main_call11.v0 main_call11.v1 main_call11.v2 addi,
    TRef.nullary main_call11.v3 (iotaInDim S2048x2048 32 1),
    TRef.binary main_call11.v2 main_call11.v3 main_call11.v4 (cmpi .sge),
    TRef.nullary main_call11.c_0 (constantI S_ 1 0#1),
    TRef.unary main_call11.c_0 main_call11.v5 (broadcastInDim S2048x2048 ![] bcast_S_S2048x2048),
    TRef.ternary main_call11.v4 main_call11.v5 (.of main_v215) main_call11.v6 select,
    nullary main_cst_52 (constant S_ .f32 0xC0000000#32),
    unary main_cst_52 main_v217 (broadcastInDim S2048x2048 ![] bcast_S_S2048x2048 : (⟨S_, .f32⟩ : BufTy).Contents (Elt F) → (⟨S2048x2048, .f32⟩ : BufTy).Contents (Elt F)),
    binary main_v217 main_v214 main_v218 (mulf : (⟨S2048x2048, .f32⟩ : BufTy).Contents (Elt F) → (⟨S2048x2048, .f32⟩ : BufTy).Contents (Elt F) → (⟨S2048x2048, .f32⟩ : BufTy).Contents (Elt F)),
    unary main_v218 main_v219 (Host.exp : (⟨S2048x2048, .f32⟩ : BufTy).Contents (Elt F) → (⟨S2048x2048, .f32⟩ : BufTy).Contents (Elt F)),
    nullary main_cst_53 (constant S_ .f32 0x00000000#32),
    TRef.unary (.of main_cst_53) main_call12.v0 id,
    TRef.unary main_call12.v0 main_call12.v1 (broadcastInDim S2048x2048 ![] bcast_S_S2048x2048),
    TRef.ternary (.of main_v216) (.of main_v219) main_call12.v1 main_call12.v2 select,
    nullary main_cst_54 (constant S_ .f32 0x00000000#32),
    binary main_v220 main_cst_54 main_v221 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    nullary main_cst_55 (constant S_ .f32 0x49FFE000#32),
    binary main_v221 main_cst_55 main_v222 (Host.divf : (⟨S_, .f32⟩ : BufTy).Contents (Elt F) → (⟨S_, .f32⟩ : BufTy).Contents (Elt F) → (⟨S_, .f32⟩ : BufTy).Contents (Elt F)),
    unary main_v222 main_v223 (Host.log : (⟨S_, .f32⟩ : BufTy).Contents (Elt F) → (⟨S_, .f32⟩ : BufTy).Contents (Elt F)) ]

/-- The buffers stage 21 writes. -/
abbrev seg21_W : List (Ref sig .tc) := [main_v201, main_cst_48, main_v202, main_v203, main_v204, main_v205, main_v206, main_v207, main_v208, main_v209, main_cst_49, main_v210, main_v211, main_v212, main_cst_50, main_v213, main_v214, main_c_51, main_v215, main_call11.v0.ref, main_call11.c.ref, main_call11.v1.ref, main_call11.v2.ref, main_call11.v3.ref, main_call11.v4.ref, main_call11.c_0.ref, main_call11.v5.ref, main_call11.v6.ref, main_cst_52, main_v217, main_v218, main_v219, main_cst_53, main_call12.v0.ref, main_call12.v1.ref, main_call12.v2.ref, main_cst_54, main_v221, main_cst_55, main_v222, main_v223]

theorem seg21_writes : (seg21 : List (HloOp τ sig (Elt F))).Forall fun op =>
    op.writes ⊆ (seg21_W.map (Proc.devRef (τ := τ) .tc)).toFinset :=
  ⟨single_sub_of_mem (y := main_v201) (by decide), single_sub_of_mem (y := main_cst_48) (by decide), single_sub_of_mem (y := main_v202) (by decide), single_sub_of_mem (y := main_v203) (by decide), single_sub_of_mem (y := main_v204) (by decide), single_sub_of_mem (y := main_v205) (by decide), single_sub_of_mem (y := main_v206) (by decide), single_sub_of_mem (y := main_v207) (by decide), single_sub_of_mem (y := main_v208) (by decide), single_sub_of_mem (y := main_v209) (by decide), single_sub_of_mem (y := main_cst_49) (by decide), single_sub_of_mem (y := main_v210) (by decide), single_sub_of_mem (y := main_v211) (by decide), single_sub_of_mem (y := main_v212) (by decide), single_sub_of_mem (y := main_cst_50) (by decide), single_sub_of_mem (y := main_v213) (by decide), single_sub_of_mem (y := main_v214) (by decide), single_sub_of_mem (y := main_c_51) (by decide), single_sub_of_mem (y := main_v215) (by decide), single_sub_of_mem (y := main_call11.v0.ref) (by decide), single_sub_of_mem (y := main_call11.c.ref) (by decide), single_sub_of_mem (y := main_call11.v1.ref) (by decide), single_sub_of_mem (y := main_call11.v2.ref) (by decide), single_sub_of_mem (y := main_call11.v3.ref) (by decide), single_sub_of_mem (y := main_call11.v4.ref) (by decide), single_sub_of_mem (y := main_call11.c_0.ref) (by decide), single_sub_of_mem (y := main_call11.v5.ref) (by decide), single_sub_of_mem (y := main_call11.v6.ref) (by decide), single_sub_of_mem (y := main_cst_52) (by decide), single_sub_of_mem (y := main_v217) (by decide), single_sub_of_mem (y := main_v218) (by decide), single_sub_of_mem (y := main_v219) (by decide), single_sub_of_mem (y := main_cst_53) (by decide), single_sub_of_mem (y := main_call12.v0.ref) (by decide), single_sub_of_mem (y := main_call12.v1.ref) (by decide), single_sub_of_mem (y := main_call12.v2.ref) (by decide), single_sub_of_mem (y := main_cst_54) (by decide), single_sub_of_mem (y := main_v221) (by decide), single_sub_of_mem (y := main_cst_55) (by decide), single_sub_of_mem (y := main_v222) (by decide), single_sub_of_mem (y := main_v223) (by decide)⟩

/-- A buffer stage 21 does not write keeps its contents through it. -/
theorem seg21_keep (V : Valuation τ sig (Elt F)) (r : Ref sig .tc) (h : r ∉ seg21_W) :
    after seg21 V (Proc.devRef .tc r) = V (Proc.devRef .tc r) :=
  after_of_writes_sub seg21 V seg21_writes h

/-- Stage 22 (operations 349 … 352): the bundle-side contrastive loss. -/
abbrev seg22 : List (HloOp τ sig (Elt F)) :=
  [ nullary main_cst_56 (constant S_ .f32 0x40000000#32),
    binary main_v223 main_cst_56 main_v224 (Host.divf : (⟨S_, .f32⟩ : BufTy).Contents (Elt F) → (⟨S_, .f32⟩ : BufTy).Contents (Elt F) → (⟨S_, .f32⟩ : BufTy).Contents (Elt F)),
    binary main_v195 main_v224 main_v225 (addf : (⟨S_, .f32⟩ : BufTy).Contents (Elt F) → (⟨S_, .f32⟩ : BufTy).Contents (Elt F) → (⟨S_, .f32⟩ : BufTy).Contents (Elt F)),
    binary main_v167 main_v225 main_v226 (addf : (⟨S_, .f32⟩ : BufTy).Contents (Elt F) → (⟨S_, .f32⟩ : BufTy).Contents (Elt F) → (⟨S_, .f32⟩ : BufTy).Contents (Elt F)) ]

/-- The buffers stage 22 writes. -/
abbrev seg22_W : List (Ref sig .tc) := [main_cst_56, main_v224, main_v225, main_v226]

theorem seg22_writes : (seg22 : List (HloOp τ sig (Elt F))).Forall fun op =>
    op.writes ⊆ (seg22_W.map (Proc.devRef (τ := τ) .tc)).toFinset :=
  ⟨single_sub_of_mem (y := main_cst_56) (by decide), single_sub_of_mem (y := main_v224) (by decide), single_sub_of_mem (y := main_v225) (by decide), single_sub_of_mem (y := main_v226) (by decide)⟩

/-- A buffer stage 22 does not write keeps its contents through it. -/
theorem seg22_keep (V : Valuation τ sig (Elt F)) (r : Ref sig .tc) (h : r ∉ seg22_W) :
    after seg22 V (Proc.devRef .tc r) = V (Proc.devRef .tc r) :=
  after_of_writes_sub seg22 V seg22_writes h

/-- Stage 23 (operations 353 … 362): the affinity user rows gathered for the batch. -/
abbrev seg23 : List (HloOp τ sig (Elt F)) :=
  [ reshape main_arg7 main_v227 rfl shapeCasts_S2048x1_S2048,
    nullary main_c_57 (constantI S_ 32 0#32),
    unary main_c_57 main_v228 (broadcastInDim S2048 ![] bcast_S_S2048 : (⟨S_, .i32⟩ : BufTy).Contents (Elt F) → (⟨S2048, .i32⟩ : BufTy).Contents (Elt F)),
    binary main_v227 main_v228 main_v229 (cmpi .slt : (⟨S2048, .i32⟩ : BufTy).Contents (Elt F) → (⟨S2048, .i32⟩ : BufTy).Contents (Elt F) → (⟨S2048, .i1⟩ : BufTy).Contents (Elt F)),
    nullary main_c_58 (constantI S_ 32 100000#32),
    unary main_c_58 main_v230 (broadcastInDim S2048 ![] bcast_S_S2048 : (⟨S_, .i32⟩ : BufTy).Contents (Elt F) → (⟨S2048, .i32⟩ : BufTy).Contents (Elt F)),
    binary main_v227 main_v230 main_v231 (addi : (⟨S2048, .i32⟩ : BufTy).Contents (Elt F) → (⟨S2048, .i32⟩ : BufTy).Contents (Elt F) → (⟨S2048, .i32⟩ : BufTy).Contents (Elt F)),
    ternary main_v229 main_v231 main_v227 main_v232 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v232 main_v233 (broadcastInDim S2048x1 ![0] bcast_S2048_S2048x1_0 : (⟨S2048, .i32⟩ : BufTy).Contents (Elt F) → (⟨S2048x1, .i32⟩ : BufTy).Contents (Elt F)),
    binary main_v43 main_v233 main_v234 ((fun x i => Host.gather gather_S100000x64_S2048x1_S2048x64_1_0_n_n_0_1_164 x i) : (⟨S100000x64, .f32⟩ : BufTy).Contents (Elt F) → (⟨S2048x1, .i32⟩ : BufTy).Contents (Elt F) → (⟨S2048x64, .f32⟩ : BufTy).Contents (Elt F)) ]

/-- The buffers stage 23 writes. -/
abbrev seg23_W : List (Ref sig .tc) := [main_v227, main_c_57, main_v228, main_v229, main_c_58, main_v230, main_v231, main_v232, main_v233, main_v234]

theorem seg23_writes : (seg23 : List (HloOp τ sig (Elt F))).Forall fun op =>
    op.writes ⊆ (seg23_W.map (Proc.devRef (τ := τ) .tc)).toFinset :=
  ⟨single_sub_of_mem (y := main_v227) (by decide), single_sub_of_mem (y := main_c_57) (by decide), single_sub_of_mem (y := main_v228) (by decide), single_sub_of_mem (y := main_v229) (by decide), single_sub_of_mem (y := main_c_58) (by decide), single_sub_of_mem (y := main_v230) (by decide), single_sub_of_mem (y := main_v231) (by decide), single_sub_of_mem (y := main_v232) (by decide), single_sub_of_mem (y := main_v233) (by decide), single_sub_of_mem (y := main_v234) (by decide)⟩

/-- A buffer stage 23 does not write keeps its contents through it. -/
theorem seg23_keep (V : Valuation τ sig (Elt F)) (r : Ref sig .tc) (h : r ∉ seg23_W) :
    after seg23 V (Proc.devRef .tc r) = V (Proc.devRef .tc r) :=
  after_of_writes_sub seg23 V seg23_writes h

/-- Stage 24 (operations 363 … 372): the history user rows gathered for the batch. -/
abbrev seg24 : List (HloOp τ sig (Elt F)) :=
  [ reshape main_arg7 main_v235 rfl shapeCasts_S2048x1_S2048,
    nullary main_c_59 (constantI S_ 32 0#32),
    unary main_c_59 main_v236 (broadcastInDim S2048 ![] bcast_S_S2048 : (⟨S_, .i32⟩ : BufTy).Contents (Elt F) → (⟨S2048, .i32⟩ : BufTy).Contents (Elt F)),
    binary main_v235 main_v236 main_v237 (cmpi .slt : (⟨S2048, .i32⟩ : BufTy).Contents (Elt F) → (⟨S2048, .i32⟩ : BufTy).Contents (Elt F) → (⟨S2048, .i1⟩ : BufTy).Contents (Elt F)),
    nullary main_c_60 (constantI S_ 32 100000#32),
    unary main_c_60 main_v238 (broadcastInDim S2048 ![] bcast_S_S2048 : (⟨S_, .i32⟩ : BufTy).Contents (Elt F) → (⟨S2048, .i32⟩ : BufTy).Contents (Elt F)),
    binary main_v235 main_v238 main_v239 (addi : (⟨S2048, .i32⟩ : BufTy).Contents (Elt F) → (⟨S2048, .i32⟩ : BufTy).Contents (Elt F) → (⟨S2048, .i32⟩ : BufTy).Contents (Elt F)),
    ternary main_v237 main_v239 main_v235 main_v240 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v240 main_v241 (broadcastInDim S2048x1 ![0] bcast_S2048_S2048x1_0 : (⟨S2048, .i32⟩ : BufTy).Contents (Elt F) → (⟨S2048x1, .i32⟩ : BufTy).Contents (Elt F)),
    binary main_v88 main_v241 main_v242 ((fun x i => Host.gather gather_S100000x64_S2048x1_S2048x64_1_0_n_n_0_1_164 x i) : (⟨S100000x64, .f32⟩ : BufTy).Contents (Elt F) → (⟨S2048x1, .i32⟩ : BufTy).Contents (Elt F) → (⟨S2048x64, .f32⟩ : BufTy).Contents (Elt F)) ]

/-- The buffers stage 24 writes. -/
abbrev seg24_W : List (Ref sig .tc) := [main_v235, main_c_59, main_v236, main_v237, main_c_60, main_v238, main_v239, main_v240, main_v241, main_v242]

theorem seg24_writes : (seg24 : List (HloOp τ sig (Elt F))).Forall fun op =>
    op.writes ⊆ (seg24_W.map (Proc.devRef (τ := τ) .tc)).toFinset :=
  ⟨single_sub_of_mem (y := main_v235) (by decide), single_sub_of_mem (y := main_c_59) (by decide), single_sub_of_mem (y := main_v236) (by decide), single_sub_of_mem (y := main_v237) (by decide), single_sub_of_mem (y := main_c_60) (by decide), single_sub_of_mem (y := main_v238) (by decide), single_sub_of_mem (y := main_v239) (by decide), single_sub_of_mem (y := main_v240) (by decide), single_sub_of_mem (y := main_v241) (by decide), single_sub_of_mem (y := main_v242) (by decide)⟩

/-- A buffer stage 24 does not write keeps its contents through it. -/
theorem seg24_keep (V : Valuation τ sig (Elt F)) (r : Ref sig .tc) (h : r ∉ seg24_W) :
    after seg24 V (Proc.devRef .tc r) = V (Proc.devRef .tc r) :=
  after_of_writes_sub seg24 V seg24_writes h

/-- Stage 25 (operations 373 … 400): the alignment loss of the two user tables. -/
abbrev seg25 : List (HloOp τ sig (Elt F)) :=
  [ TRef.binary (.of main_v234) (.of main_v234) main_call13.v0 mulf,
    TRef.nullary main_call13.cst (constant S_ .f32 0x00000000#32),
    TRef.binary main_call13.v0 main_call13.cst main_call13.v1 (fun x v => Host.reduceAdd x v reducesTo_S2048x64_S2048_d1 h_S_),
    TRef.unary main_call13.v1 main_call13.v2 (broadcastInDim S2048x1 ![0] bcast_S2048_S2048x1_0),
    TRef.unary main_call13.v2 main_call13.v3 Host.sqrt,
    nullary main_cst_61 (constant S_ .f32 0x2B8CBCCC#32),
    unary main_cst_61 main_v244 (broadcastInDim S2048x1 ![] bcast_S_S2048x1 : (⟨S_, .f32⟩ : BufTy).Contents (Elt F) → (⟨S2048x1, .f32⟩ : BufTy).Contents (Elt F)),
    binary main_v243 main_v244 main_v245 (maximumf : (⟨S2048x1, .f32⟩ : BufTy).Contents (Elt F) → (⟨S2048x1, .f32⟩ : BufTy).Contents (Elt F) → (⟨S2048x1, .f32⟩ : BufTy).Contents (Elt F)),
    unary main_v245 main_v246 (broadcastInDim S2048x64 ![0, 1] bcast_S2048x1_S2048x64_0_1 : (⟨S2048x1, .f32⟩ : BufTy).Contents (Elt F) → (⟨S2048x64, .f32⟩ : BufTy).Contents (Elt F)),
    binary main_v234 main_v246 main_v247 (Host.divf : (⟨S2048x64, .f32⟩ : BufTy).Contents (Elt F) → (⟨S2048x64, .f32⟩ : BufTy).Contents (Elt F) → (⟨S2048x64, .f32⟩ : BufTy).Contents (Elt F)),
    TRef.binary (.of main_v242) (.of main_v242) main_call14.v0 mulf,
    TRef.nullary main_call14.cst (constant S_ .f32 0x00000000#32),
    TRef.binary main_call14.v0 main_call14.cst main_call14.v1 (fun x v => Host.reduceAdd x v reducesTo_S2048x64_S2048_d1 h_S_),
    TRef.unary main_call14.v1 main_call14.v2 (broadcastInDim S2048x1 ![0] bcast_S2048_S2048x1_0),
    TRef.unary main_call14.v2 main_call14.v3 Host.sqrt,
    nullary main_cst_62 (constant S_ .f32 0x2B8CBCCC#32),
    unary main_cst_62 main_v249 (broadcastInDim S2048x1 ![] bcast_S_S2048x1 : (⟨S_, .f32⟩ : BufTy).Contents (Elt F) → (⟨S2048x1, .f32⟩ : BufTy).Contents (Elt F)),
    binary main_v248 main_v249 main_v250 (maximumf : (⟨S2048x1, .f32⟩ : BufTy).Contents (Elt F) → (⟨S2048x1, .f32⟩ : BufTy).Contents (Elt F) → (⟨S2048x1, .f32⟩ : BufTy).Contents (Elt F)),
    unary main_v250 main_v251 (broadcastInDim S2048x64 ![0, 1] bcast_S2048x1_S2048x64_0_1 : (⟨S2048x1, .f32⟩ : BufTy).Contents (Elt F) → (⟨S2048x64, .f32⟩ : BufTy).Contents (Elt F)),
    binary main_v242 main_v251 main_v252 (Host.divf : (⟨S2048x64, .f32⟩ : BufTy).Contents (Elt F) → (⟨S2048x64, .f32⟩ : BufTy).Contents (Elt F) → (⟨S2048x64, .f32⟩ : BufTy).Contents (Elt F)),
    binary main_v247 main_v252 main_v253 (subf : (⟨S2048x64, .f32⟩ : BufTy).Contents (Elt F) → (⟨S2048x64, .f32⟩ : BufTy).Contents (Elt F) → (⟨S2048x64, .f32⟩ : BufTy).Contents (Elt F)),
    binary main_v253 main_v253 main_v254 (mulf : (⟨S2048x64, .f32⟩ : BufTy).Contents (Elt F) → (⟨S2048x64, .f32⟩ : BufTy).Contents (Elt F) → (⟨S2048x64, .f32⟩ : BufTy).Contents (Elt F)),
    nullary main_cst_63 (constant S_ .f32 0x00000000#32),
    binary main_v254 main_cst_63 main_v255 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    nullary main_cst_64 (constant S_ .f32 0x00000000#32),
    binary main_v255 main_cst_64 main_v256 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_65 (constant S_ .f32 0x45000000#32),
    binary main_v256 main_cst_65 main_v257 (Host.divf : (⟨S_, .f32⟩ : BufTy).Contents (Elt F) → (⟨S_, .f32⟩ : BufTy).Contents (Elt F) → (⟨S_, .f32⟩ : BufTy).Contents (Elt F)) ]

/-- The buffers stage 25 writes. -/
abbrev seg25_W : List (Ref sig .tc) := [main_call13.v0.ref, main_call13.cst.ref, main_call13.v1.ref, main_call13.v2.ref, main_call13.v3.ref, main_cst_61, main_v244, main_v245, main_v246, main_v247, main_call14.v0.ref, main_call14.cst.ref, main_call14.v1.ref, main_call14.v2.ref, main_call14.v3.ref, main_cst_62, main_v249, main_v250, main_v251, main_v252, main_v253, main_v254, main_cst_63, main_v255, main_cst_64, main_v256, main_cst_65, main_v257]

theorem seg25_writes : (seg25 : List (HloOp τ sig (Elt F))).Forall fun op =>
    op.writes ⊆ (seg25_W.map (Proc.devRef (τ := τ) .tc)).toFinset :=
  ⟨single_sub_of_mem (y := main_call13.v0.ref) (by decide), single_sub_of_mem (y := main_call13.cst.ref) (by decide), single_sub_of_mem (y := main_call13.v1.ref) (by decide), single_sub_of_mem (y := main_call13.v2.ref) (by decide), single_sub_of_mem (y := main_call13.v3.ref) (by decide), single_sub_of_mem (y := main_cst_61) (by decide), single_sub_of_mem (y := main_v244) (by decide), single_sub_of_mem (y := main_v245) (by decide), single_sub_of_mem (y := main_v246) (by decide), single_sub_of_mem (y := main_v247) (by decide), single_sub_of_mem (y := main_call14.v0.ref) (by decide), single_sub_of_mem (y := main_call14.cst.ref) (by decide), single_sub_of_mem (y := main_call14.v1.ref) (by decide), single_sub_of_mem (y := main_call14.v2.ref) (by decide), single_sub_of_mem (y := main_call14.v3.ref) (by decide), single_sub_of_mem (y := main_cst_62) (by decide), single_sub_of_mem (y := main_v249) (by decide), single_sub_of_mem (y := main_v250) (by decide), single_sub_of_mem (y := main_v251) (by decide), single_sub_of_mem (y := main_v252) (by decide), single_sub_of_mem (y := main_v253) (by decide), single_sub_of_mem (y := main_v254) (by decide), single_sub_of_mem (y := main_cst_63) (by decide), single_sub_of_mem (y := main_v255) (by decide), single_sub_of_mem (y := main_cst_64) (by decide), single_sub_of_mem (y := main_v256) (by decide), single_sub_of_mem (y := main_cst_65) (by decide), single_sub_of_mem (y := main_v257) (by decide)⟩

/-- A buffer stage 25 does not write keeps its contents through it. -/
theorem seg25_keep (V : Valuation τ sig (Elt F)) (r : Ref sig .tc) (h : r ∉ seg25_W) :
    after seg25 V (Proc.devRef .tc r) = V (Proc.devRef .tc r) :=
  after_of_writes_sub seg25 V seg25_writes h

/-- Stage 26 (operations 401 … 410): the affinity user rows normalised. -/
abbrev seg26 : List (HloOp τ sig (Elt F)) :=
  [ TRef.binary (.of main_v234) (.of main_v234) main_call15.v0 mulf,
    TRef.nullary main_call15.cst (constant S_ .f32 0x00000000#32),
    TRef.binary main_call15.v0 main_call15.cst main_call15.v1 (fun x v => Host.reduceAdd x v reducesTo_S2048x64_S2048_d1 h_S_),
    TRef.unary main_call15.v1 main_call15.v2 (broadcastInDim S2048x1 ![0] bcast_S2048_S2048x1_0),
    TRef.unary main_call15.v2 main_call15.v3 Host.sqrt,
    nullary main_cst_66 (constant S_ .f32 0x2B8CBCCC#32),
    unary main_cst_66 main_v259 (broadcastInDim S2048x1 ![] bcast_S_S2048x1 : (⟨S_, .f32⟩ : BufTy).Contents (Elt F) → (⟨S2048x1, .f32⟩ : BufTy).Contents (Elt F)),
    binary main_v258 main_v259 main_v260 (maximumf : (⟨S2048x1, .f32⟩ : BufTy).Contents (Elt F) → (⟨S2048x1, .f32⟩ : BufTy).Contents (Elt F) → (⟨S2048x1, .f32⟩ : BufTy).Contents (Elt F)),
    unary main_v260 main_v261 (broadcastInDim S2048x64 ![0, 1] bcast_S2048x1_S2048x64_0_1 : (⟨S2048x1, .f32⟩ : BufTy).Contents (Elt F) → (⟨S2048x64, .f32⟩ : BufTy).Contents (Elt F)),
    binary main_v234 main_v261 main_v262 (Host.divf : (⟨S2048x64, .f32⟩ : BufTy).Contents (Elt F) → (⟨S2048x64, .f32⟩ : BufTy).Contents (Elt F) → (⟨S2048x64, .f32⟩ : BufTy).Contents (Elt F)) ]

/-- The buffers stage 26 writes. -/
abbrev seg26_W : List (Ref sig .tc) := [main_call15.v0.ref, main_call15.cst.ref, main_call15.v1.ref, main_call15.v2.ref, main_call15.v3.ref, main_cst_66, main_v259, main_v260, main_v261, main_v262]

theorem seg26_writes : (seg26 : List (HloOp τ sig (Elt F))).Forall fun op =>
    op.writes ⊆ (seg26_W.map (Proc.devRef (τ := τ) .tc)).toFinset :=
  ⟨single_sub_of_mem (y := main_call15.v0.ref) (by decide), single_sub_of_mem (y := main_call15.cst.ref) (by decide), single_sub_of_mem (y := main_call15.v1.ref) (by decide), single_sub_of_mem (y := main_call15.v2.ref) (by decide), single_sub_of_mem (y := main_call15.v3.ref) (by decide), single_sub_of_mem (y := main_cst_66) (by decide), single_sub_of_mem (y := main_v259) (by decide), single_sub_of_mem (y := main_v260) (by decide), single_sub_of_mem (y := main_v261) (by decide), single_sub_of_mem (y := main_v262) (by decide)⟩

/-- A buffer stage 26 does not write keeps its contents through it. -/
theorem seg26_keep (V : Valuation τ sig (Elt F)) (r : Ref sig .tc) (h : r ∉ seg26_W) :
    after seg26 V (Proc.devRef .tc r) = V (Proc.devRef .tc r) :=
  after_of_writes_sub seg26 V seg26_writes h

/-- Stage 27 (operations 411 … 451): the uniformity loss of the normalised affinity user rows. -/
abbrev seg27 : List (HloOp τ sig (Elt F)) :=
  [ binary main_v262 main_v262 main_v263 (mulf : (⟨S2048x64, .f32⟩ : BufTy).Contents (Elt F) → (⟨S2048x64, .f32⟩ : BufTy).Contents (Elt F) → (⟨S2048x64, .f32⟩ : BufTy).Contents (Elt F)),
    nullary main_cst_67 (constant S_ .f32 0x00000000#32),
    binary main_v263 main_cst_67 main_v264 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v264 main_v265 (broadcastInDim S2048x1 ![0] bcast_S2048_S2048x1_0 : (⟨S2048, .f32⟩ : BufTy).Contents (Elt F) → (⟨S2048x1, .f32⟩ : BufTy).Contents (Elt F)),
    unary main_v264 main_v266 (broadcastInDim S1x2048 ![1] bcast_S2048_S1x2048_1 : (⟨S2048, .f32⟩ : BufTy).Contents (Elt F) → (⟨S1x2048, .f32⟩ : BufTy).Contents (Elt F)),
    unary main_v265 main_v267 (broadcastInDim S2048x2048 ![0, 1] bcast_S2048x1_S2048x2048_0_1 : (⟨S2048x1, .f32⟩ : BufTy).Contents (Elt F) → (⟨S2048x2048, .f32⟩ : BufTy).Contents (Elt F)),
    unary main_v266 main_v268 (broadcastInDim S2048x2048 ![0, 1] bcast_S1x2048_S2048x2048_0_1 : (⟨S1x2048, .f32⟩ : BufTy).Contents (Elt F) → (⟨S2048x2048, .f32⟩ : BufTy).Contents (Elt F)),
    binary main_v267 main_v268 main_v269 (addf : (⟨S2048x2048, .f32⟩ : BufTy).Contents (Elt F) → (⟨S2048x2048, .f32⟩ : BufTy).Contents (Elt F) → (⟨S2048x2048, .f32⟩ : BufTy).Contents (Elt F)),
    unary main_v262 main_v270 ((transpose S64x2048 [1, 0] · transposes_S2048x64_S64x2048_1_0) : (⟨S2048x64, .f32⟩ : BufTy).Contents (Elt F) → (⟨S64x2048, .f32⟩ : BufTy).Contents (Elt F)),
    binary main_v262 main_v270 main_v271 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_68 (constant S_ .f32 0x40000000#32),
    unary main_cst_68 main_v272 (broadcastInDim S2048x2048 ![] bcast_S_S2048x2048 : (⟨S_, .f32⟩ : BufTy).Contents (Elt F) → (⟨S2048x2048, .f32⟩ : BufTy).Contents (Elt F)),
    binary main_v272 main_v271 main_v273 (mulf : (⟨S2048x2048, .f32⟩ : BufTy).Contents (Elt F) → (⟨S2048x2048, .f32⟩ : BufTy).Contents (Elt F) → (⟨S2048x2048, .f32⟩ : BufTy).Contents (Elt F)),
    binary main_v269 main_v273 main_v274 (subf : (⟨S2048x2048, .f32⟩ : BufTy).Contents (Elt F) → (⟨S2048x2048, .f32⟩ : BufTy).Contents (Elt F) → (⟨S2048x2048, .f32⟩ : BufTy).Contents (Elt F)),
    nullary main_cst_69 (constant S_ .f32 0x00000000#32),
    unary main_cst_69 main_v275 (broadcastInDim S2048x2048 ![] bcast_S_S2048x2048 : (⟨S_, .f32⟩ : BufTy).Contents (Elt F) → (⟨S2048x2048, .f32⟩ : BufTy).Contents (Elt F)),
    binary main_v274 main_v275 main_v276 (maximumf : (⟨S2048x2048, .f32⟩ : BufTy).Contents (Elt F) → (⟨S2048x2048, .f32⟩ : BufTy).Contents (Elt F) → (⟨S2048x2048, .f32⟩ : BufTy).Contents (Elt F)),
    nullary main_c_70 (constantI S_ 1 1#1),
    unary main_c_70 main_v277 (broadcastInDim S2048x2048 ![] bcast_S_S2048x2048 : (⟨S_, .i1⟩ : BufTy).Contents (Elt F) → (⟨S2048x2048, .i1⟩ : BufTy).Contents (Elt F)),
    TRef.nullary main_call16.v0 (iotaInDim S2048x2048 32 0),
    TRef.nullary main_call16.c (constantI S_ 32 0#32),
    TRef.unary main_call16.c main_call16.v1 (broadcastInDim S2048x2048 ![] bcast_S_S2048x2048),
    TRef.binary main_call16.v0 main_call16.v1 main_call16.v2 addi,
    TRef.nullary main_call16.v3 (iotaInDim S2048x2048 32 1),
    TRef.binary main_call16.v2 main_call16.v3 main_call16.v4 (cmpi .sge),
    TRef.nullary main_call16.c_0 (constantI S_ 1 0#1),
    TRef.unary main_call16.c_0 main_call16.v5 (broadcastInDim S2048x2048 ![] bcast_S_S2048x2048),
    TRef.ternary main_call16.v4 main_call16.v5 (.of main_v277) main_call16.v6 select,
    nullary main_cst_71 (constant S_ .f32 0xC0000000#32),
    unary main_cst_71 main_v279 (broadcastInDim S2048x2048 ![] bcast_S_S2048x2048 : (⟨S_, .f32⟩ : BufTy).Contents (Elt F) → (⟨S2048x2048, .f32⟩ : BufTy).Contents (Elt F)),
    binary main_v279 main_v276 main_v280 (mulf : (⟨S2048x2048, .f32⟩ : BufTy).Contents (Elt F) → (⟨S2048x2048, .f32⟩ : BufTy).Contents (Elt F) → (⟨S2048x2048, .f32⟩ : BufTy).Contents (Elt F)),
    unary main_v280 main_v281 (Host.exp : (⟨S2048x2048, .f32⟩ : BufTy).Contents (Elt F) → (⟨S2048x2048, .f32⟩ : BufTy).Contents (Elt F)),
    nullary main_cst_72 (constant S_ .f32 0x00000000#32),
    TRef.unary (.of main_cst_72) main_call17.v0 id,
    TRef.unary main_call17.v0 main_call17.v1 (broadcastInDim S2048x2048 ![] bcast_S_S2048x2048),
    TRef.ternary (.of main_v278) (.of main_v281) main_call17.v1 main_call17.v2 select,
    nullary main_cst_73 (constant S_ .f32 0x00000000#32),
    binary main_v282 main_cst_73 main_v283 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    nullary main_cst_74 (constant S_ .f32 0x49FFE000#32),
    binary main_v283 main_cst_74 main_v284 (Host.divf : (⟨S_, .f32⟩ : BufTy).Contents (Elt F) → (⟨S_, .f32⟩ : BufTy).Contents (Elt F) → (⟨S_, .f32⟩ : BufTy).Contents (Elt F)),
    unary main_v284 main_v285 (Host.log : (⟨S_, .f32⟩ : BufTy).Contents (Elt F) → (⟨S_, .f32⟩ : BufTy).Contents (Elt F)) ]

/-- The buffers stage 27 writes. -/
abbrev seg27_W : List (Ref sig .tc) := [main_v263, main_cst_67, main_v264, main_v265, main_v266, main_v267, main_v268, main_v269, main_v270, main_v271, main_cst_68, main_v272, main_v273, main_v274, main_cst_69, main_v275, main_v276, main_c_70, main_v277, main_call16.v0.ref, main_call16.c.ref, main_call16.v1.ref, main_call16.v2.ref, main_call16.v3.ref, main_call16.v4.ref, main_call16.c_0.ref, main_call16.v5.ref, main_call16.v6.ref, main_cst_71, main_v279, main_v280, main_v281, main_cst_72, main_call17.v0.ref, main_call17.v1.ref, main_call17.v2.ref, main_cst_73, main_v283, main_cst_74, main_v284, main_v285]

theorem seg27_writes : (seg27 : List (HloOp τ sig (Elt F))).Forall fun op =>
    op.writes ⊆ (seg27_W.map (Proc.devRef (τ := τ) .tc)).toFinset :=
  ⟨single_sub_of_mem (y := main_v263) (by decide), single_sub_of_mem (y := main_cst_67) (by decide), single_sub_of_mem (y := main_v264) (by decide), single_sub_of_mem (y := main_v265) (by decide), single_sub_of_mem (y := main_v266) (by decide), single_sub_of_mem (y := main_v267) (by decide), single_sub_of_mem (y := main_v268) (by decide), single_sub_of_mem (y := main_v269) (by decide), single_sub_of_mem (y := main_v270) (by decide), single_sub_of_mem (y := main_v271) (by decide), single_sub_of_mem (y := main_cst_68) (by decide), single_sub_of_mem (y := main_v272) (by decide), single_sub_of_mem (y := main_v273) (by decide), single_sub_of_mem (y := main_v274) (by decide), single_sub_of_mem (y := main_cst_69) (by decide), single_sub_of_mem (y := main_v275) (by decide), single_sub_of_mem (y := main_v276) (by decide), single_sub_of_mem (y := main_c_70) (by decide), single_sub_of_mem (y := main_v277) (by decide), single_sub_of_mem (y := main_call16.v0.ref) (by decide), single_sub_of_mem (y := main_call16.c.ref) (by decide), single_sub_of_mem (y := main_call16.v1.ref) (by decide), single_sub_of_mem (y := main_call16.v2.ref) (by decide), single_sub_of_mem (y := main_call16.v3.ref) (by decide), single_sub_of_mem (y := main_call16.v4.ref) (by decide), single_sub_of_mem (y := main_call16.c_0.ref) (by decide), single_sub_of_mem (y := main_call16.v5.ref) (by decide), single_sub_of_mem (y := main_call16.v6.ref) (by decide), single_sub_of_mem (y := main_cst_71) (by decide), single_sub_of_mem (y := main_v279) (by decide), single_sub_of_mem (y := main_v280) (by decide), single_sub_of_mem (y := main_v281) (by decide), single_sub_of_mem (y := main_cst_72) (by decide), single_sub_of_mem (y := main_call17.v0.ref) (by decide), single_sub_of_mem (y := main_call17.v1.ref) (by decide), single_sub_of_mem (y := main_call17.v2.ref) (by decide), single_sub_of_mem (y := main_cst_73) (by decide), single_sub_of_mem (y := main_v283) (by decide), single_sub_of_mem (y := main_cst_74) (by decide), single_sub_of_mem (y := main_v284) (by decide), single_sub_of_mem (y := main_v285) (by decide)⟩

/-- A buffer stage 27 does not write keeps its contents through it. -/
theorem seg27_keep (V : Valuation τ sig (Elt F)) (r : Ref sig .tc) (h : r ∉ seg27_W) :
    after seg27 V (Proc.devRef .tc r) = V (Proc.devRef .tc r) :=
  after_of_writes_sub seg27 V seg27_writes h

/-- Stage 28 (operations 452 … 461): the history user rows normalised. -/
abbrev seg28 : List (HloOp τ sig (Elt F)) :=
  [ TRef.binary (.of main_v242) (.of main_v242) main_call18.v0 mulf,
    TRef.nullary main_call18.cst (constant S_ .f32 0x00000000#32),
    TRef.binary main_call18.v0 main_call18.cst main_call18.v1 (fun x v => Host.reduceAdd x v reducesTo_S2048x64_S2048_d1 h_S_),
    TRef.unary main_call18.v1 main_call18.v2 (broadcastInDim S2048x1 ![0] bcast_S2048_S2048x1_0),
    TRef.unary main_call18.v2 main_call18.v3 Host.sqrt,
    nullary main_cst_75 (constant S_ .f32 0x2B8CBCCC#32),
    unary main_cst_75 main_v287 (broadcastInDim S2048x1 ![] bcast_S_S2048x1 : (⟨S_, .f32⟩ : BufTy).Contents (Elt F) → (⟨S2048x1, .f32⟩ : BufTy).Contents (Elt F)),
    binary main_v286 main_v287 main_v288 (maximumf : (⟨S2048x1, .f32⟩ : BufTy).Contents (Elt F) → (⟨S2048x1, .f32⟩ : BufTy).Contents (Elt F) → (⟨S2048x1, .f32⟩ : BufTy).Contents (Elt F)),
    unary main_v288 main_v289 (broadcastInDim S2048x64 ![0, 1] bcast_S2048x1_S2048x64_0_1 : (⟨S2048x1, .f32⟩ : BufTy).Contents (Elt F) → (⟨S2048x64, .f32⟩ : BufTy).Contents (Elt F)),
    binary main_v242 main_v289 main_v290 (Host.divf : (⟨S2048x64, .f32⟩ : BufTy).Contents (Elt F) → (⟨S2048x64, .f32⟩ : BufTy).Contents (Elt F) → (⟨S2048x64, .f32⟩ : BufTy).Contents (Elt F)) ]

/-- The buffers stage 28 writes. -/
abbrev seg28_W : List (Ref sig .tc) := [main_call18.v0.ref, main_call18.cst.ref, main_call18.v1.ref, main_call18.v2.ref, main_call18.v3.ref, main_cst_75, main_v287, main_v288, main_v289, main_v290]

theorem seg28_writes : (seg28 : List (HloOp τ sig (Elt F))).Forall fun op =>
    op.writes ⊆ (seg28_W.map (Proc.devRef (τ := τ) .tc)).toFinset :=
  ⟨single_sub_of_mem (y := main_call18.v0.ref) (by decide), single_sub_of_mem (y := main_call18.cst.ref) (by decide), single_sub_of_mem (y := main_call18.v1.ref) (by decide), single_sub_of_mem (y := main_call18.v2.ref) (by decide), single_sub_of_mem (y := main_call18.v3.ref) (by decide), single_sub_of_mem (y := main_cst_75) (by decide), single_sub_of_mem (y := main_v287) (by decide), single_sub_of_mem (y := main_v288) (by decide), single_sub_of_mem (y := main_v289) (by decide), single_sub_of_mem (y := main_v290) (by decide)⟩

/-- A buffer stage 28 does not write keeps its contents through it. -/
theorem seg28_keep (V : Valuation τ sig (Elt F)) (r : Ref sig .tc) (h : r ∉ seg28_W) :
    after seg28 V (Proc.devRef .tc r) = V (Proc.devRef .tc r) :=
  after_of_writes_sub seg28 V seg28_writes h

/-- Stage 29 (operations 462 … 502): the uniformity loss of the normalised history user rows. -/
abbrev seg29 : List (HloOp τ sig (Elt F)) :=
  [ binary main_v290 main_v290 main_v291 (mulf : (⟨S2048x64, .f32⟩ : BufTy).Contents (Elt F) → (⟨S2048x64, .f32⟩ : BufTy).Contents (Elt F) → (⟨S2048x64, .f32⟩ : BufTy).Contents (Elt F)),
    nullary main_cst_76 (constant S_ .f32 0x00000000#32),
    binary main_v291 main_cst_76 main_v292 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v292 main_v293 (broadcastInDim S2048x1 ![0] bcast_S2048_S2048x1_0 : (⟨S2048, .f32⟩ : BufTy).Contents (Elt F) → (⟨S2048x1, .f32⟩ : BufTy).Contents (Elt F)),
    unary main_v292 main_v294 (broadcastInDim S1x2048 ![1] bcast_S2048_S1x2048_1 : (⟨S2048, .f32⟩ : BufTy).Contents (Elt F) → (⟨S1x2048, .f32⟩ : BufTy).Contents (Elt F)),
    unary main_v293 main_v295 (broadcastInDim S2048x2048 ![0, 1] bcast_S2048x1_S2048x2048_0_1 : (⟨S2048x1, .f32⟩ : BufTy).Contents (Elt F) → (⟨S2048x2048, .f32⟩ : BufTy).Contents (Elt F)),
    unary main_v294 main_v296 (broadcastInDim S2048x2048 ![0, 1] bcast_S1x2048_S2048x2048_0_1 : (⟨S1x2048, .f32⟩ : BufTy).Contents (Elt F) → (⟨S2048x2048, .f32⟩ : BufTy).Contents (Elt F)),
    binary main_v295 main_v296 main_v297 (addf : (⟨S2048x2048, .f32⟩ : BufTy).Contents (Elt F) → (⟨S2048x2048, .f32⟩ : BufTy).Contents (Elt F) → (⟨S2048x2048, .f32⟩ : BufTy).Contents (Elt F)),
    unary main_v290 main_v298 ((transpose S64x2048 [1, 0] · transposes_S2048x64_S64x2048_1_0) : (⟨S2048x64, .f32⟩ : BufTy).Contents (Elt F) → (⟨S64x2048, .f32⟩ : BufTy).Contents (Elt F)),
    binary main_v290 main_v298 main_v299 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_77 (constant S_ .f32 0x40000000#32),
    unary main_cst_77 main_v300 (broadcastInDim S2048x2048 ![] bcast_S_S2048x2048 : (⟨S_, .f32⟩ : BufTy).Contents (Elt F) → (⟨S2048x2048, .f32⟩ : BufTy).Contents (Elt F)),
    binary main_v300 main_v299 main_v301 (mulf : (⟨S2048x2048, .f32⟩ : BufTy).Contents (Elt F) → (⟨S2048x2048, .f32⟩ : BufTy).Contents (Elt F) → (⟨S2048x2048, .f32⟩ : BufTy).Contents (Elt F)),
    binary main_v297 main_v301 main_v302 (subf : (⟨S2048x2048, .f32⟩ : BufTy).Contents (Elt F) → (⟨S2048x2048, .f32⟩ : BufTy).Contents (Elt F) → (⟨S2048x2048, .f32⟩ : BufTy).Contents (Elt F)),
    nullary main_cst_78 (constant S_ .f32 0x00000000#32),
    unary main_cst_78 main_v303 (broadcastInDim S2048x2048 ![] bcast_S_S2048x2048 : (⟨S_, .f32⟩ : BufTy).Contents (Elt F) → (⟨S2048x2048, .f32⟩ : BufTy).Contents (Elt F)),
    binary main_v302 main_v303 main_v304 (maximumf : (⟨S2048x2048, .f32⟩ : BufTy).Contents (Elt F) → (⟨S2048x2048, .f32⟩ : BufTy).Contents (Elt F) → (⟨S2048x2048, .f32⟩ : BufTy).Contents (Elt F)),
    nullary main_c_79 (constantI S_ 1 1#1),
    unary main_c_79 main_v305 (broadcastInDim S2048x2048 ![] bcast_S_S2048x2048 : (⟨S_, .i1⟩ : BufTy).Contents (Elt F) → (⟨S2048x2048, .i1⟩ : BufTy).Contents (Elt F)),
    TRef.nullary main_call19.v0 (iotaInDim S2048x2048 32 0),
    TRef.nullary main_call19.c (constantI S_ 32 0#32),
    TRef.unary main_call19.c main_call19.v1 (broadcastInDim S2048x2048 ![] bcast_S_S2048x2048),
    TRef.binary main_call19.v0 main_call19.v1 main_call19.v2 addi,
    TRef.nullary main_call19.v3 (iotaInDim S2048x2048 32 1),
    TRef.binary main_call19.v2 main_call19.v3 main_call19.v4 (cmpi .sge),
    TRef.nullary main_call19.c_0 (constantI S_ 1 0#1),
    TRef.unary main_call19.c_0 main_call19.v5 (broadcastInDim S2048x2048 ![] bcast_S_S2048x2048),
    TRef.ternary main_call19.v4 main_call19.v5 (.of main_v305) main_call19.v6 select,
    nullary main_cst_80 (constant S_ .f32 0xC0000000#32),
    unary main_cst_80 main_v307 (broadcastInDim S2048x2048 ![] bcast_S_S2048x2048 : (⟨S_, .f32⟩ : BufTy).Contents (Elt F) → (⟨S2048x2048, .f32⟩ : BufTy).Contents (Elt F)),
    binary main_v307 main_v304 main_v308 (mulf : (⟨S2048x2048, .f32⟩ : BufTy).Contents (Elt F) → (⟨S2048x2048, .f32⟩ : BufTy).Contents (Elt F) → (⟨S2048x2048, .f32⟩ : BufTy).Contents (Elt F)),
    unary main_v308 main_v309 (Host.exp : (⟨S2048x2048, .f32⟩ : BufTy).Contents (Elt F) → (⟨S2048x2048, .f32⟩ : BufTy).Contents (Elt F)),
    nullary main_cst_81 (constant S_ .f32 0x00000000#32),
    TRef.unary (.of main_cst_81) main_call20.v0 id,
    TRef.unary main_call20.v0 main_call20.v1 (broadcastInDim S2048x2048 ![] bcast_S_S2048x2048),
    TRef.ternary (.of main_v306) (.of main_v309) main_call20.v1 main_call20.v2 select,
    nullary main_cst_82 (constant S_ .f32 0x00000000#32),
    binary main_v310 main_cst_82 main_v311 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    nullary main_cst_83 (constant S_ .f32 0x49FFE000#32),
    binary main_v311 main_cst_83 main_v312 (Host.divf : (⟨S_, .f32⟩ : BufTy).Contents (Elt F) → (⟨S_, .f32⟩ : BufTy).Contents (Elt F) → (⟨S_, .f32⟩ : BufTy).Contents (Elt F)),
    unary main_v312 main_v313 (Host.log : (⟨S_, .f32⟩ : BufTy).Contents (Elt F) → (⟨S_, .f32⟩ : BufTy).Contents (Elt F)) ]

/-- The buffers stage 29 writes. -/
abbrev seg29_W : List (Ref sig .tc) := [main_v291, main_cst_76, main_v292, main_v293, main_v294, main_v295, main_v296, main_v297, main_v298, main_v299, main_cst_77, main_v300, main_v301, main_v302, main_cst_78, main_v303, main_v304, main_c_79, main_v305, main_call19.v0.ref, main_call19.c.ref, main_call19.v1.ref, main_call19.v2.ref, main_call19.v3.ref, main_call19.v4.ref, main_call19.c_0.ref, main_call19.v5.ref, main_call19.v6.ref, main_cst_80, main_v307, main_v308, main_v309, main_cst_81, main_call20.v0.ref, main_call20.v1.ref, main_call20.v2.ref, main_cst_82, main_v311, main_cst_83, main_v312, main_v313]

theorem seg29_writes : (seg29 : List (HloOp τ sig (Elt F))).Forall fun op =>
    op.writes ⊆ (seg29_W.map (Proc.devRef (τ := τ) .tc)).toFinset :=
  ⟨single_sub_of_mem (y := main_v291) (by decide), single_sub_of_mem (y := main_cst_76) (by decide), single_sub_of_mem (y := main_v292) (by decide), single_sub_of_mem (y := main_v293) (by decide), single_sub_of_mem (y := main_v294) (by decide), single_sub_of_mem (y := main_v295) (by decide), single_sub_of_mem (y := main_v296) (by decide), single_sub_of_mem (y := main_v297) (by decide), single_sub_of_mem (y := main_v298) (by decide), single_sub_of_mem (y := main_v299) (by decide), single_sub_of_mem (y := main_cst_77) (by decide), single_sub_of_mem (y := main_v300) (by decide), single_sub_of_mem (y := main_v301) (by decide), single_sub_of_mem (y := main_v302) (by decide), single_sub_of_mem (y := main_cst_78) (by decide), single_sub_of_mem (y := main_v303) (by decide), single_sub_of_mem (y := main_v304) (by decide), single_sub_of_mem (y := main_c_79) (by decide), single_sub_of_mem (y := main_v305) (by decide), single_sub_of_mem (y := main_call19.v0.ref) (by decide), single_sub_of_mem (y := main_call19.c.ref) (by decide), single_sub_of_mem (y := main_call19.v1.ref) (by decide), single_sub_of_mem (y := main_call19.v2.ref) (by decide), single_sub_of_mem (y := main_call19.v3.ref) (by decide), single_sub_of_mem (y := main_call19.v4.ref) (by decide), single_sub_of_mem (y := main_call19.c_0.ref) (by decide), single_sub_of_mem (y := main_call19.v5.ref) (by decide), single_sub_of_mem (y := main_call19.v6.ref) (by decide), single_sub_of_mem (y := main_cst_80) (by decide), single_sub_of_mem (y := main_v307) (by decide), single_sub_of_mem (y := main_v308) (by decide), single_sub_of_mem (y := main_v309) (by decide), single_sub_of_mem (y := main_cst_81) (by decide), single_sub_of_mem (y := main_call20.v0.ref) (by decide), single_sub_of_mem (y := main_call20.v1.ref) (by decide), single_sub_of_mem (y := main_call20.v2.ref) (by decide), single_sub_of_mem (y := main_cst_82) (by decide), single_sub_of_mem (y := main_v311) (by decide), single_sub_of_mem (y := main_cst_83) (by decide), single_sub_of_mem (y := main_v312) (by decide), single_sub_of_mem (y := main_v313) (by decide)⟩

/-- A buffer stage 29 does not write keeps its contents through it. -/
theorem seg29_keep (V : Valuation τ sig (Elt F)) (r : Ref sig .tc) (h : r ∉ seg29_W) :
    after seg29 V (Proc.devRef .tc r) = V (Proc.devRef .tc r) :=
  after_of_writes_sub seg29 V seg29_writes h

/-- Stage 30 (operations 503 … 512): the user-side contrastive loss, the average of the two sides, and the stacked result. -/
abbrev seg30 : List (HloOp τ sig (Elt F)) :=
  [ nullary main_cst_84 (constant S_ .f32 0x40000000#32),
    binary main_v313 main_cst_84 main_v314 (Host.divf : (⟨S_, .f32⟩ : BufTy).Contents (Elt F) → (⟨S_, .f32⟩ : BufTy).Contents (Elt F) → (⟨S_, .f32⟩ : BufTy).Contents (Elt F)),
    binary main_v285 main_v314 main_v315 (addf : (⟨S_, .f32⟩ : BufTy).Contents (Elt F) → (⟨S_, .f32⟩ : BufTy).Contents (Elt F) → (⟨S_, .f32⟩ : BufTy).Contents (Elt F)),
    binary main_v257 main_v315 main_v316 (addf : (⟨S_, .f32⟩ : BufTy).Contents (Elt F) → (⟨S_, .f32⟩ : BufTy).Contents (Elt F) → (⟨S_, .f32⟩ : BufTy).Contents (Elt F)),
    binary main_v226 main_v316 main_v317 (addf : (⟨S_, .f32⟩ : BufTy).Contents (Elt F) → (⟨S_, .f32⟩ : BufTy).Contents (Elt F) → (⟨S_, .f32⟩ : BufTy).Contents (Elt F)),
    nullary main_cst_85 (constant S_ .f32 0x40000000#32),
    binary main_v317 main_cst_85 main_v318 (Host.divf : (⟨S_, .f32⟩ : BufTy).Contents (Elt F) → (⟨S_, .f32⟩ : BufTy).Contents (Elt F) → (⟨S_, .f32⟩ : BufTy).Contents (Elt F)),
    unary main_v148 main_v319 (broadcastInDim S1 ![] bcast_S_S1 : (⟨S_, .f32⟩ : BufTy).Contents (Elt F) → (⟨S1, .f32⟩ : BufTy).Contents (Elt F)),
    unary main_v318 main_v320 (broadcastInDim S1 ![] bcast_S_S1 : (⟨S_, .f32⟩ : BufTy).Contents (Elt F) → (⟨S1, .f32⟩ : BufTy).Contents (Elt F)),
    binary main_v319 main_v320 main_v321 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) ]

/-- The buffers stage 30 writes. -/
abbrev seg30_W : List (Ref sig .tc) := [main_cst_84, main_v314, main_v315, main_v316, main_v317, main_cst_85, main_v318, main_v319, main_v320, main_v321]

theorem seg30_writes : (seg30 : List (HloOp τ sig (Elt F))).Forall fun op =>
    op.writes ⊆ (seg30_W.map (Proc.devRef (τ := τ) .tc)).toFinset :=
  ⟨single_sub_of_mem (y := main_cst_84) (by decide), single_sub_of_mem (y := main_v314) (by decide), single_sub_of_mem (y := main_v315) (by decide), single_sub_of_mem (y := main_v316) (by decide), single_sub_of_mem (y := main_v317) (by decide), single_sub_of_mem (y := main_cst_85) (by decide), single_sub_of_mem (y := main_v318) (by decide), single_sub_of_mem (y := main_v319) (by decide), single_sub_of_mem (y := main_v320) (by decide), single_sub_of_mem (y := main_v321) (by decide)⟩

/-- A buffer stage 30 does not write keeps its contents through it. -/
theorem seg30_keep (V : Valuation τ sig (Elt F)) (r : Ref sig .tc) (h : r ∉ seg30_W) :
    after seg30 V (Proc.devRef .tc r) = V (Proc.devRef .tc r) :=
  after_of_writes_sub seg30 V seg30_writes h

set_option maxRecDepth 16384 in
/-- The program is its stages in order (the same operations, grouped by stage instead of by window). -/
theorem ops_eq_segs : (ops : List (HloOp τ sig (Elt F))) =
    seg00 ++ (seg01 ++ (seg02 ++ (seg03 ++ (seg04 ++ (seg05 ++ (seg06 ++ (seg07 ++ (seg08 ++ (seg09 ++ (seg10 ++ (seg11 ++ (seg12 ++ (seg13 ++ (seg14 ++ (seg15 ++ (seg16 ++ (seg17 ++ (seg18 ++ (seg19 ++ (seg20 ++ (seg21 ++ (seg22 ++ (seg23 ++ (seg24 ++ (seg25 ++ (seg26 ++ (seg27 ++ (seg28 ++ (seg29 ++ (seg30)))))))))))))))))))))))))))))) := rfl

end Cert.ReferenceIdeal.Hand

end
-- ==== Proof.Ref.Stages.lean ====
import proofs.«108982_j38147899523261_2_alg».proof.Proof.Gen.ReferenceIdeal
import Idealize.ShloMosaic.Lib.StableHlo.Run

/-! The stage functions of the reference computation, over plain arrays.

The reference propagates two feature tables through two layers of a sparse graph product, each layer's
output divided by a constant, its rows scaled to unit length, and added to an accumulator; it aggregates
item rows into bundle rows, gathers the rows of a batch, scores the batch, and adds to the ranking loss a
contrastive loss made of an alignment term and a uniformity term (the logarithm of the mean of
`exp (-2 · squared distance)` over the pairs `i < j` of unit rows). Each function below is one of these
stages as a function of arrays, written with the same array operations the program applies, in the same
order, so that reading a stage off the program's run is a computation. They are stated for any float
instance; at the exact-real instance each operation is its textbook one. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Small pieces -/

/-- An index as `x[i]` reads it: a negative index counts from the end, `i < 0 ↦ i + n`. -/
def wrapIdx {s : Shape} (n : BitVec 32) (hb : S_.BroadcastsInDim s (![] : Fin 0 → Fin s.rank)) (i : IVec s 32) : IVec s 32 :=
  select (cmpi .slt i (broadcastInDim s ![] hb (constantI S_ 32 0#32)))
    (addi i (broadcastInDim s ![] hb (constantI S_ 32 n))) i

/-- Every element divided by the constant whose f32 pattern is `c`. -/
def divConst {s : Shape} (c : BitVec 32) (hb : S_.BroadcastsInDim s (![] : Fin 0 → Fin s.rank)) (x : FVec F s .f32) : FVec F s .f32 :=
  Host.divf x (broadcastInDim s ![] hb (constant S_ .f32 c))

/-- The users' rows stacked on the items' rows. -/
def stackAff (u : FVec F S100000x64 .f32) (i : FVec F S200000x64 .f32) : FVec F S300000x64 .f32 :=
  concatenate S300000x64 0 [⟨S100000x64, u⟩, ⟨S200000x64, i⟩] concatenates_S100000x64_S200000x64_S300000x64_d0

/-- The users' rows stacked on the bundles' rows. -/
def stackHist (u : FVec F S100000x64 .f32) (b : FVec F S50000x64 .f32) : FVec F S150000x64 .f32 :=
  concatenate S150000x64 0 [⟨S100000x64, u⟩, ⟨S50000x64, b⟩] concatenates_S100000x64_S50000x64_S150000x64_d0

/-! ## The sparse product

`out[r] = Σ_{e : rows e = r} vals e · feats[cols e]`: the rows `cols` names are gathered, each scaled by its
edge's value, and the scaled rows are summed into the rows `rows` names of a table of zeros. -/

/-- The sparse product of the user-item graph with the stacked user/item table. -/
def spmmAff (rows cols : IVec S2000000 32) (vals : FVec F S2000000 .f32) (feats : FVec F S300000x64 .f32) : FVec F S300000x64 .f32 :=
  Host.scatterAdd scatter_S300000x64_S2000000x1_S2000000x64_1_0_0_1
    (broadcastInDim S300000x64 ![] bcast_S_S300000x64 (constant S_ .f32 0x00000000#32))
    (broadcastInDim S2000000x1 ![0] bcast_S2000000_S2000000x1_0 rows)
    (mulf (broadcastInDim S2000000x64 ![0, 1] bcast_S2000000x1_S2000000x64_0_1 (broadcastInDim S2000000x1 ![0] bcast_S2000000_S2000000x1_0 vals))
      (Host.gather gather_S300000x64_S2000000x1_S2000000x64_1_0_n_n_0_1_164 feats
        (broadcastInDim S2000000x1 ![0] bcast_S2000000_S2000000x1_0 (wrapIdx 300000#32 bcast_S_S2000000 cols))))

/-- The sparse product of the user-bundle graph with the stacked user/bundle table. -/
def spmmHist (rows cols : IVec S1000000 32) (vals : FVec F S1000000 .f32) (feats : FVec F S150000x64 .f32) : FVec F S150000x64 .f32 :=
  Host.scatterAdd scatter_S150000x64_S1000000x1_S1000000x64_1_0_0_1
    (broadcastInDim S150000x64 ![] bcast_S_S150000x64 (constant S_ .f32 0x00000000#32))
    (broadcastInDim S1000000x1 ![0] bcast_S1000000_S1000000x1_0 rows)
    (mulf (broadcastInDim S1000000x64 ![0, 1] bcast_S1000000x1_S1000000x64_0_1 (broadcastInDim S1000000x1 ![0] bcast_S1000000_S1000000x1_0 vals))
      (Host.gather gather_S150000x64_S1000000x1_S1000000x64_1_0_n_n_0_1_164 feats
        (broadcastInDim S1000000x1 ![0] bcast_S1000000_S1000000x1_0 (wrapIdx 150000#32 bcast_S_S1000000 cols))))

/-- The sparse product of the bundle-item graph with the items' rows: each bundle's row is the weighted sum of its items' rows. -/
def spmmAgg (rows cols : IVec S1000000 32) (vals : FVec F S1000000 .f32) (feats : FVec F S200000x64 .f32) : FVec F S50000x64 .f32 :=
  Host.scatterAdd scatter_S50000x64_S1000000x1_S1000000x64_1_0_0_1
    (broadcastInDim S50000x64 ![] bcast_S_S50000x64 (constant S_ .f32 0x00000000#32))
    (broadcastInDim S1000000x1 ![0] bcast_S1000000_S1000000x1_0 rows)
    (mulf (broadcastInDim S1000000x64 ![0, 1] bcast_S1000000x1_S1000000x64_0_1 (broadcastInDim S1000000x1 ![0] bcast_S1000000_S1000000x1_0 vals))
      (Host.gather gather_S200000x64_S1000000x1_S1000000x64_1_0_n_n_0_1_164 feats
        (broadcastInDim S1000000x1 ![0] bcast_S1000000_S1000000x1_0 (wrapIdx 200000#32 bcast_S_S1000000 cols))))

/-! ## Row normalisation -/

/-- The Euclidean length of each of the 300000 rows, as a column. -/
def rowNorm300000 (x : FVec F S300000x64 .f32) : FVec F S300000x1 .f32 :=
  Host.sqrt (broadcastInDim S300000x1 ![0] bcast_S300000_S300000x1_0
    (Host.reduceAdd (mulf x x) (constant S_ .f32 0x00000000#32) reducesTo_S300000x64_S300000_d1 h_S_))

/-- Each of the 300000 rows divided by its length, the length taken at least `1e-12` (the f32 literal): a row
    of length above that bound becomes a unit row. -/
def rowNormalize300000 (x : FVec F S300000x64 .f32) : FVec F S300000x64 .f32 :=
  Host.divf x (broadcastInDim S300000x64 ![0, 1] bcast_S300000x1_S300000x64_0_1
    (maximumf (rowNorm300000 x) (broadcastInDim S300000x1 ![] bcast_S_S300000x1 (constant S_ .f32 0x2B8CBCCC#32))))

/-- The Euclidean length of each of the 150000 rows, as a column. -/
def rowNorm150000 (x : FVec F S150000x64 .f32) : FVec F S150000x1 .f32 :=
  Host.sqrt (broadcastInDim S150000x1 ![0] bcast_S150000_S150000x1_0
    (Host.reduceAdd (mulf x x) (constant S_ .f32 0x00000000#32) reducesTo_S150000x64_S150000_d1 h_S_))

/-- Each of the 150000 rows divided by its length, the length taken at least `1e-12` (the f32 literal): a row
    of length above that bound becomes a unit row. -/
def rowNormalize150000 (x : FVec F S150000x64 .f32) : FVec F S150000x64 .f32 :=
  Host.divf x (broadcastInDim S150000x64 ![0, 1] bcast_S150000x1_S150000x64_0_1
    (maximumf (rowNorm150000 x) (broadcastInDim S150000x1 ![] bcast_S_S150000x1 (constant S_ .f32 0x2B8CBCCC#32))))

/-- The Euclidean length of each of the 2048 rows, as a column. -/
def rowNorm2048 (x : FVec F S2048x64 .f32) : FVec F S2048x1 .f32 :=
  Host.sqrt (broadcastInDim S2048x1 ![0] bcast_S2048_S2048x1_0
    (Host.reduceAdd (mulf x x) (constant S_ .f32 0x00000000#32) reducesTo_S2048x64_S2048_d1 h_S_))

/-- Each of the 2048 rows divided by its length, the length taken at least `1e-12` (the f32 literal): a row
    of length above that bound becomes a unit row. -/
def rowNormalize2048 (x : FVec F S2048x64 .f32) : FVec F S2048x64 .f32 :=
  Host.divf x (broadcastInDim S2048x64 ![0, 1] bcast_S2048x1_S2048x64_0_1
    (maximumf (rowNorm2048 x) (broadcastInDim S2048x1 ![] bcast_S_S2048x1 (constant S_ .f32 0x2B8CBCCC#32))))

/-! ## The accumulated tables cut into their parts -/

/-- The users' rows (the first 100000) of the stacked user/item table. -/
def affUsers (t : FVec F S300000x64 .f32) : FVec F S100000x64 .f32 :=
  extractStridedSlice S100000x64 ![0, 0] t slices_S300000x64_S100000x64_0_0
/-- The items' rows (the last 200000) of the stacked user/item table. -/
def affItems (t : FVec F S300000x64 .f32) : FVec F S200000x64 .f32 :=
  extractStridedSlice S200000x64 ![100000, 0] t slices_S300000x64_S200000x64_100000_0
/-- The users' rows (the first 100000) of the stacked user/bundle table. -/
def histUsers (t : FVec F S150000x64 .f32) : FVec F S100000x64 .f32 :=
  extractStridedSlice S100000x64 ![0, 0] t slices_S150000x64_S100000x64_0_0
/-- The bundles' rows (the last 50000) of the stacked user/bundle table. -/
def histBundles (t : FVec F S150000x64 .f32) : FVec F S50000x64 .f32 :=
  extractStridedSlice S50000x64 ![100000, 0] t slices_S150000x64_S50000x64_100000_0

/-! ## The batch's rows and scores -/

/-- The batch's bundle indices (a positive and a negative bundle per sample), wrapped, as gather indices. -/
def bundleIdx (b : IVec S2048x2 32) : IVec S2048x2x1 32 :=
  broadcastInDim S2048x2x1 ![0, 1] bcast_S2048x2_S2048x2x1_0_1 (wrapIdx 50000#32 bcast_S_S2048x2 b)

/-- The rows of a bundle table at the batch's bundles. -/
def gatherBundleRows (table : FVec F S50000x64 .f32) (b : IVec S2048x2 32) : FVec F S2048x2x64 .f32 :=
  Host.gather gather_S50000x64_S2048x2x1_S2048x2x64_2_0_n_n_0_2_164 table (bundleIdx b)

/-- The batch's mixing weights: `tanh (freq / 1)` at the batch's bundles. -/
def gammaOf (freq : FVec F S50000 .f32) (b : IVec S2048x2 32) : FVec F S2048x2 .f32 :=
  Host.gather gather_S50000_S2048x2x1_S2048x2_n_0_n_n_0_2_1
    (Host.tanh (divConst 0x3F800000#32 bcast_S_S50000 freq)) (bundleIdx b)

/-- `Σ_d t[s, k, d] · (t[s, k, d] · w[s, k])`: a gathered table's squared rows, weighted per sample and bundle. -/
def weightedSq (t : FVec F S2048x2x64 .f32) (w : FVec F S2048x2 .f32) : FVec F S2048x2 .f32 :=
  Host.reduceAdd
    (mulf t (mulf t (broadcastInDim S2048x2x64 ![0, 1, 2] bcast_S2048x2x1_S2048x2x64_0_1_2
      (broadcastInDim S2048x2x1 ![0, 1] bcast_S2048x2_S2048x2x1_0_1 w))))
    (constant S_ .f32 0x00000000#32) reducesTo_S2048x2x64_S2048x2_d2 h_S_

/-- The batch's scores: the affinity rows weighted by `1 - γ` plus the history rows weighted by `γ`. -/
def predOf (affBe histBe : FVec F S2048x2x64 .f32) (g : FVec F S2048x2 .f32) : FVec F S2048x2 .f32 :=
  addf (weightedSq affBe (subf (broadcastInDim S2048x2 ![] bcast_S_S2048x2 (constant S_ .f32 0x3F800000#32)) g))
    (weightedSq histBe g)

/-- Column `k` of the scores, as a vector. -/
def scoreCol (k : Nat) (h : S2048x2.Slices ![0, k] S2048x1) (p : FVec F S2048x2 .f32) : FVec F S2048 .f32 :=
  shapeCast S2048 (extractStridedSlice S2048x1 ![0, k] p h) shapeCasts_S2048x1_S2048

/-- `softplus x = log (1 + exp x)`, in the numerically careful form the library function has:
    `max x 0 + log1p (exp (-|x|))`, and `x` itself where `x - 0` is not a number. -/
def softplus (x : FVec F S2048 .f32) : FVec F S2048 .f32 :=
  select (cmpf .une (subf x (broadcastInDim S2048 ![] bcast_S_S2048 (constant S_ .f32 0x00000000#32)))
                    (subf x (broadcastInDim S2048 ![] bcast_S_S2048 (constant S_ .f32 0x00000000#32))))
    (addf x (broadcastInDim S2048 ![] bcast_S_S2048 (constant S_ .f32 0x00000000#32)))
    (addf (maximumf x (broadcastInDim S2048 ![] bcast_S_S2048 (constant S_ .f32 0x00000000#32)))
      (Host.log1p (Host.exp (Host.negf (Host.absf
        (subf x (broadcastInDim S2048 ![] bcast_S_S2048 (constant S_ .f32 0x00000000#32))))))))

/-- `log_sigmoid x = -softplus (-x)`. -/
def logSigmoid (x : FVec F S2048 .f32) : FVec F S2048 .f32 := Host.negf (softplus (Host.negf x))

/-- The ranking loss: minus the mean over the 2048 samples of `log_sigmoid (score₀ - score₁)`. -/
def bprLoss (p : FVec F S2048x2 .f32) : FVec F S_ .f32 :=
  Host.negf (Host.divf
    (Host.reduceAdd (logSigmoid (subf (scoreCol 0 slices_S2048x2_S2048x1_0_0 p) (scoreCol 1 slices_S2048x2_S2048x1_0_1 p)))
      (constant S_ .f32 0x00000000#32) reducesTo_S2048_S_d0 h_S_)
    (constant S_ .f32 0x45000000#32))

/-- The positive bundle's row of each sample: `t[:, 0, :]`. -/
def firstCol (t : FVec F S2048x2x64 .f32) : FVec F S2048x64 .f32 :=
  shapeCast S2048x64 (extractStridedSlice S2048x1x64 ![0, 0, 0] t slices_S2048x2x64_S2048x1x64_0_0_0)
    shapeCasts_S2048x1x64_S2048x64

/-- The batch's user indices, wrapped, as gather indices. -/
def userIdx (u : IVec S2048x1 32) : IVec S2048x1 32 :=
  broadcastInDim S2048x1 ![0] bcast_S2048_S2048x1_0
    (wrapIdx 100000#32 bcast_S_S2048 (shapeCast S2048 u shapeCasts_S2048x1_S2048))

/-- The rows of a user table at the batch's users. -/
def gatherUserRows (table : FVec F S100000x64 .f32) (u : IVec S2048x1 32) : FVec F S2048x64 .f32 :=
  Host.gather gather_S100000x64_S2048x1_S2048x64_1_0_n_n_0_1_164 table (userIdx u)

/-! ## The contrastive loss -/

/-- The alignment loss: the mean over the rows of the squared distance between the two tables' normalised rows. -/
def aLoss (x y : FVec F S2048x64 .f32) : FVec F S_ .f32 :=
  Host.divf
    (Host.reduceAdd
      (Host.reduceAdd (mulf (subf (rowNormalize2048 x) (rowNormalize2048 y)) (subf (rowNormalize2048 x) (rowNormalize2048 y)))
        (constant S_ .f32 0x00000000#32) reducesTo_S2048x64_S2048_d1 h_S_)
      (constant S_ .f32 0x00000000#32) reducesTo_S2048_S_d0 h_S_)
    (constant S_ .f32 0x45000000#32)

/-- The squared length of each row. -/
def sqNorms (xn : FVec F S2048x64 .f32) : FVec F S2048 .f32 :=
  Host.reduceAdd (mulf xn xn) (constant S_ .f32 0x00000000#32) reducesTo_S2048x64_S2048_d1 h_S_

/-- The squared distances between all pairs of rows, `max (|xᵢ|² + |xⱼ|² - 2 xᵢ·xⱼ) 0`. -/
def pairDist2 (xn : FVec F S2048x64 .f32) : FVec F S2048x2048 .f32 :=
  maximumf
    (subf
      (addf
        (broadcastInDim S2048x2048 ![0, 1] bcast_S2048x1_S2048x2048_0_1 (broadcastInDim S2048x1 ![0] bcast_S2048_S2048x1_0 (sqNorms xn)))
        (broadcastInDim S2048x2048 ![0, 1] bcast_S1x2048_S2048x2048_0_1 (broadcastInDim S1x2048 ![1] bcast_S2048_S1x2048_1 (sqNorms xn))))
      (mulf (broadcastInDim S2048x2048 ![] bcast_S_S2048x2048 (constant S_ .f32 0x40000000#32))
        (Host.dotGeneral dot_S2048x64_S64x2048_S2048x2048_1_0_0_1_n_n none xn
          (transpose S64x2048 [1, 0] xn transposes_S2048x64_S64x2048_1_0))))
    (broadcastInDim S2048x2048 ![] bcast_S_S2048x2048 (constant S_ .f32 0x00000000#32))

/-- The strictly-upper-triangle mask: true exactly at the pairs `i < j` (all-true, cleared where `i ≥ j`). -/
def triuMask : IVec S2048x2048 1 :=
  select
    (cmpi .sge (addi (iotaInDim S2048x2048 32 0) (broadcastInDim S2048x2048 ![] bcast_S_S2048x2048 (constantI S_ 32 0#32)))
      (iotaInDim S2048x2048 32 1))
    (broadcastInDim S2048x2048 ![] bcast_S_S2048x2048 (constantI S_ 1 0#1))
    (broadcastInDim S2048x2048 ![] bcast_S_S2048x2048 (constantI S_ 1 1#1))

/-- The uniformity loss of rows already normalised: the logarithm of the mean, over the `2048 · 2047 / 2 = 2096128`
    pairs `i < j`, of `exp (-2 · squared distance)`. -/
def uLossN (xn : FVec F S2048x64 .f32) : FVec F S_ .f32 :=
  Host.log (Host.divf
    (Host.reduceAdd
      (select triuMask
        (Host.exp (mulf (broadcastInDim S2048x2048 ![] bcast_S_S2048x2048 (constant S_ .f32 0xC0000000#32)) (pairDist2 xn)))
        (broadcastInDim S2048x2048 ![] bcast_S_S2048x2048 (constant S_ .f32 0x00000000#32)))
      (constant S_ .f32 0x00000000#32) reducesTo_S2048x2048_S_d0_1 h_S_)
    (constant S_ .f32 0x49FFE000#32))

/-- The uniformity loss of a table: its rows normalised first. -/
def uLoss (x : FVec F S2048x64 .f32) : FVec F S_ .f32 := uLossN (rowNormalize2048 x)

/-- One side's contrastive loss from its three terms: `a + (u₁ + u₂ / 2)`. -/
def sideLoss (a u₁ u₂ : FVec F S_ .f32) : FVec F S_ .f32 :=
  addf a (addf u₁ (Host.divf u₂ (constant S_ .f32 0x40000000#32)))

/-- The result: the ranking loss and the average of the two sides' contrastive losses, stacked. -/
def stackOut (bpr bundleC userC : FVec F S_ .f32) : FVec F S2 .f32 :=
  concatenate S2 0
    [⟨S1, broadcastInDim S1 ![] bcast_S_S1 bpr⟩,
     ⟨S1, broadcastInDim S1 ![] bcast_S_S1 (Host.divf (addf bundleC userC) (constant S_ .f32 0x40000000#32))⟩]
    concatenates_S1_S1_S2_d0

end Cert.ReferenceIdeal.Hand

end
-- ==== Proof.Ref.StageLemmas.lean ====
import proofs.«108982_j38147899523261_2_alg».proof.Proof.Ref.Segs
import proofs.«108982_j38147899523261_2_alg».proof.Proof.Ref.Stages

/-! Each stage, run from any contents, computes its stage function.

For every stage `k` of the reference and every buffer `b` the later stages (or the caller) read from it:
from ANY buffer contents `W`, running the stage's operations leaves in `b` the stage function
(`Stages.lean`) of the contents `W` has at the stage's input buffers. Each proof is the same computation:
the fold over the stage's operations is read back at `b` — an operation's result at its own buffer is its
function of its operands' contents, at any other buffer what was there — and what is left is the stage
function's definition unfolded. Where the program calls an outlined function the callee's operations are in
the list, over typed references whose casts are identities at these literal references. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local notation "⟪" b "⟫" => (Proc.devRef (τ := τ) (sig := sig) Proc.tc b)

set_option maxRecDepth 8192 in
set_option maxHeartbeats 1000000 in
/-- From any contents, stage 0 leaves the stacked user/item table in its buffer: the stage function of the stage's inputs. -/
theorem seg00_v0 (W : Valuation τ sig (Elt F)) :
    after seg00 W ⟪main_v0⟫ = stackAff (W ⟪main_arg0⟫) (W ⟪main_arg1⟫) := by
  after_results_simp
  rfl

set_option maxRecDepth 8192 in
set_option maxHeartbeats 1000000 in
/-- From any contents, stage 0 leaves the first affinity sparse product in its buffer: the stage function of the stage's inputs. -/
theorem seg00_v13 (W : Valuation τ sig (Elt F)) :
    after seg00 W ⟪main_v13⟫ = spmmAff (W ⟪main_arg9⟫) (W ⟪main_arg10⟫) (W ⟪main_arg4⟫) (stackAff (W ⟪main_arg0⟫) (W ⟪main_arg1⟫)) := by
  after_results_simp
  rfl

set_option maxRecDepth 8192 in
set_option maxHeartbeats 1000000 in
/-- From any contents, stage 1 leaves the first affinity layer's table: the product divided by 2 in its buffer: the stage function of the stage's inputs. -/
theorem seg01_v15 (W : Valuation τ sig (Elt F)) :
    after seg01 W ⟪main_v15⟫ = divConst 0x40000000#32 bcast_S_S300000x64 (W ⟪main_v13⟫) := by
  after_results_simp
  rfl

set_option maxRecDepth 8192 in
set_option maxHeartbeats 1000000 in
/-- From any contents, stage 1 leaves the accumulator after the first affinity layer in its buffer: the stage function of the stage's inputs. -/
theorem seg01_v21 (W : Valuation τ sig (Elt F)) :
    after seg01 W ⟪main_v21⟫ = addf (W ⟪main_v0⟫) (rowNormalize300000 (divConst 0x40000000#32 bcast_S_S300000x64 (W ⟪main_v13⟫))) := by
  after_results_simp
  rfl

set_option maxRecDepth 8192 in
set_option maxHeartbeats 1000000 in
/-- From any contents, stage 2 leaves the second affinity sparse product in its buffer: the stage function of the stage's inputs. -/
theorem seg02_v34 (W : Valuation τ sig (Elt F)) :
    after seg02 W ⟪main_v34⟫ = spmmAff (W ⟪main_arg9⟫) (W ⟪main_arg10⟫) (W ⟪main_arg4⟫) (W ⟪main_v15⟫) := by
  after_results_simp
  rfl

set_option maxRecDepth 8192 in
set_option maxHeartbeats 1000000 in
/-- From any contents, stage 3 leaves the second affinity layer's table: the product divided by 3 in its buffer: the stage function of the stage's inputs. -/
theorem seg03_v36 (W : Valuation τ sig (Elt F)) :
    after seg03 W ⟪main_v36⟫ = divConst 0x40400000#32 bcast_S_S300000x64 (W ⟪main_v34⟫) := by
  after_results_simp
  rfl

set_option maxRecDepth 8192 in
set_option maxHeartbeats 1000000 in
/-- From any contents, stage 3 leaves the accumulator after the second affinity layer in its buffer: the stage function of the stage's inputs. -/
theorem seg03_v42 (W : Valuation τ sig (Elt F)) :
    after seg03 W ⟪main_v42⟫ = addf (W ⟪main_v21⟫) (rowNormalize300000 (divConst 0x40400000#32 bcast_S_S300000x64 (W ⟪main_v34⟫))) := by
  after_results_simp
  rfl

set_option maxRecDepth 8192 in
set_option maxHeartbeats 1000000 in
/-- From any contents, stage 4 leaves the users' rows of the affinity accumulator in its buffer: the stage function of the stage's inputs. -/
theorem seg04_v43 (W : Valuation τ sig (Elt F)) :
    after seg04 W ⟪main_v43⟫ = affUsers (W ⟪main_v42⟫) := by
  after_results_simp
  rfl

set_option maxRecDepth 8192 in
set_option maxHeartbeats 1000000 in
/-- From any contents, stage 4 leaves the items' rows of the affinity accumulator in its buffer: the stage function of the stage's inputs. -/
theorem seg04_v44 (W : Valuation τ sig (Elt F)) :
    after seg04 W ⟪main_v44⟫ = affItems (W ⟪main_v42⟫) := by
  after_results_simp
  rfl

set_option maxRecDepth 8192 in
set_option maxHeartbeats 1000000 in
/-- From any contents, stage 5 leaves the stacked user/bundle table in its buffer: the stage function of the stage's inputs. -/
theorem seg05_v45 (W : Valuation τ sig (Elt F)) :
    after seg05 W ⟪main_v45⟫ = stackHist (W ⟪main_arg0⟫) (W ⟪main_arg2⟫) := by
  after_results_simp
  rfl

set_option maxRecDepth 8192 in
set_option maxHeartbeats 1000000 in
/-- From any contents, stage 5 leaves the first history sparse product in its buffer: the stage function of the stage's inputs. -/
theorem seg05_v58 (W : Valuation τ sig (Elt F)) :
    after seg05 W ⟪main_v58⟫ = spmmHist (W ⟪main_arg11⟫) (W ⟪main_arg12⟫) (W ⟪main_arg5⟫) (stackHist (W ⟪main_arg0⟫) (W ⟪main_arg2⟫)) := by
  after_results_simp
  rfl

set_option maxRecDepth 8192 in
set_option maxHeartbeats 1000000 in
/-- From any contents, stage 6 leaves the first history layer's table in its buffer: the stage function of the stage's inputs. -/
theorem seg06_v60 (W : Valuation τ sig (Elt F)) :
    after seg06 W ⟪main_v60⟫ = divConst 0x40000000#32 bcast_S_S150000x64 (W ⟪main_v58⟫) := by
  after_results_simp
  rfl

set_option maxRecDepth 8192 in
set_option maxHeartbeats 1000000 in
/-- From any contents, stage 6 leaves the accumulator after the first history layer in its buffer: the stage function of the stage's inputs. -/
theorem seg06_v66 (W : Valuation τ sig (Elt F)) :
    after seg06 W ⟪main_v66⟫ = addf (W ⟪main_v45⟫) (rowNormalize150000 (divConst 0x40000000#32 bcast_S_S150000x64 (W ⟪main_v58⟫))) := by
  after_results_simp
  rfl

set_option maxRecDepth 8192 in
set_option maxHeartbeats 1000000 in
/-- From any contents, stage 7 leaves the second history sparse product in its buffer: the stage function of the stage's inputs. -/
theorem seg07_v79 (W : Valuation τ sig (Elt F)) :
    after seg07 W ⟪main_v79⟫ = spmmHist (W ⟪main_arg11⟫) (W ⟪main_arg12⟫) (W ⟪main_arg5⟫) (W ⟪main_v60⟫) := by
  after_results_simp
  rfl

set_option maxRecDepth 8192 in
set_option maxHeartbeats 1000000 in
/-- From any contents, stage 8 leaves the second history layer's table in its buffer: the stage function of the stage's inputs. -/
theorem seg08_v81 (W : Valuation τ sig (Elt F)) :
    after seg08 W ⟪main_v81⟫ = divConst 0x40400000#32 bcast_S_S150000x64 (W ⟪main_v79⟫) := by
  after_results_simp
  rfl

set_option maxRecDepth 8192 in
set_option maxHeartbeats 1000000 in
/-- From any contents, stage 8 leaves the accumulator after the second history layer in its buffer: the stage function of the stage's inputs. -/
theorem seg08_v87 (W : Valuation τ sig (Elt F)) :
    after seg08 W ⟪main_v87⟫ = addf (W ⟪main_v66⟫) (rowNormalize150000 (divConst 0x40400000#32 bcast_S_S150000x64 (W ⟪main_v79⟫))) := by
  after_results_simp
  rfl

set_option maxRecDepth 8192 in
set_option maxHeartbeats 1000000 in
/-- From any contents, stage 9 leaves the users' rows of the history accumulator in its buffer: the stage function of the stage's inputs. -/
theorem seg09_v88 (W : Valuation τ sig (Elt F)) :
    after seg09 W ⟪main_v88⟫ = histUsers (W ⟪main_v87⟫) := by
  after_results_simp
  rfl

set_option maxRecDepth 8192 in
set_option maxHeartbeats 1000000 in
/-- From any contents, stage 9 leaves the bundles' rows of the history accumulator in its buffer: the stage function of the stage's inputs. -/
theorem seg09_v89 (W : Valuation τ sig (Elt F)) :
    after seg09 W ⟪main_v89⟫ = histBundles (W ⟪main_v87⟫) := by
  after_results_simp
  rfl

set_option maxRecDepth 8192 in
set_option maxHeartbeats 1000000 in
/-- From any contents, stage 10 leaves the bundles' affinity rows in its buffer: the stage function of the stage's inputs. -/
theorem seg10_v102 (W : Valuation τ sig (Elt F)) :
    after seg10 W ⟪main_v102⟫ = spmmAgg (W ⟪main_arg13⟫) (W ⟪main_arg14⟫) (W ⟪main_arg6⟫) (W ⟪main_v44⟫) := by
  after_results_simp
  rfl

set_option maxRecDepth 8192 in
set_option maxHeartbeats 1000000 in
/-- From any contents, stage 11 leaves the batch's affinity bundle rows in its buffer: the stage function of the stage's inputs. -/
theorem seg11_v109 (W : Valuation τ sig (Elt F)) :
    after seg11 W ⟪main_v109⟫ = gatherBundleRows (W ⟪main_v102⟫) (W ⟪main_arg8⟫) := by
  after_results_simp
  rfl

set_option maxRecDepth 8192 in
set_option maxHeartbeats 1000000 in
/-- From any contents, stage 12 leaves the batch's history bundle rows in its buffer: the stage function of the stage's inputs. -/
theorem seg12_v116 (W : Valuation τ sig (Elt F)) :
    after seg12 W ⟪main_v116⟫ = gatherBundleRows (W ⟪main_v89⟫) (W ⟪main_arg8⟫) := by
  after_results_simp
  rfl

set_option maxRecDepth 8192 in
set_option maxHeartbeats 1000000 in
/-- From any contents, stage 13 leaves the batch's mixing weights in its buffer: the stage function of the stage's inputs. -/
theorem seg13_v126 (W : Valuation τ sig (Elt F)) :
    after seg13 W ⟪main_v126⟫ = gammaOf (W ⟪main_arg3⟫) (W ⟪main_arg8⟫) := by
  after_results_simp
  rfl

set_option maxRecDepth 8192 in
set_option maxHeartbeats 1000000 in
/-- From any contents, stage 14 leaves the batch's scores in its buffer: the stage function of the stage's inputs. -/
theorem seg14_v139 (W : Valuation τ sig (Elt F)) :
    after seg14 W ⟪main_v139⟫ = predOf (W ⟪main_v109⟫) (W ⟪main_v116⟫) (W ⟪main_v126⟫) := by
  after_results_simp
  rfl

set_option maxRecDepth 8192 in
set_option maxHeartbeats 1000000 in
/-- From any contents, stage 15 leaves the ranking loss in its buffer: the stage function of the stage's inputs. -/
theorem seg15_v148 (W : Valuation τ sig (Elt F)) :
    after seg15 W ⟪main_v148⟫ = bprLoss (W ⟪main_v139⟫) := by
  after_results_simp
  rfl

set_option maxRecDepth 8192 in
set_option maxHeartbeats 1000000 in
/-- From any contents, stage 16 leaves the positive bundles' affinity rows in its buffer: the stage function of the stage's inputs. -/
theorem seg16_v150 (W : Valuation τ sig (Elt F)) :
    after seg16 W ⟪main_v150⟫ = firstCol (W ⟪main_v109⟫) := by
  after_results_simp
  rfl

set_option maxRecDepth 8192 in
set_option maxHeartbeats 1000000 in
/-- From any contents, stage 16 leaves the positive bundles' history rows in its buffer: the stage function of the stage's inputs. -/
theorem seg16_v152 (W : Valuation τ sig (Elt F)) :
    after seg16 W ⟪main_v152⟫ = firstCol (W ⟪main_v116⟫) := by
  after_results_simp
  rfl

set_option maxRecDepth 8192 in
set_option maxHeartbeats 1000000 in
/-- From any contents, stage 17 leaves the bundle side's alignment loss in its buffer: the stage function of the stage's inputs. -/
theorem seg17_v167 (W : Valuation τ sig (Elt F)) :
    after seg17 W ⟪main_v167⟫ = aLoss (W ⟪main_v150⟫) (W ⟪main_v152⟫) := by
  after_results_simp
  rfl

set_option maxRecDepth 8192 in
set_option maxHeartbeats 1000000 in
/-- From any contents, stage 18 leaves the positive bundles' affinity rows, normalised in its buffer: the stage function of the stage's inputs. -/
theorem seg18_v172 (W : Valuation τ sig (Elt F)) :
    after seg18 W ⟪main_v172⟫ = rowNormalize2048 (W ⟪main_v150⟫) := by
  after_results_simp
  rfl

set_option maxRecDepth 8192 in
set_option maxHeartbeats 1000000 in
/-- From any contents, stage 19 leaves the uniformity loss of the positive bundles' affinity rows in its buffer: the stage function of the stage's inputs. -/
theorem seg19_v195 (W : Valuation τ sig (Elt F)) :
    after seg19 W ⟪main_v195⟫ = uLossN (W ⟪main_v172⟫) := by
  after_results_simp
  rfl

set_option maxRecDepth 8192 in
set_option maxHeartbeats 1000000 in
/-- From any contents, stage 20 leaves the positive bundles' history rows, normalised in its buffer: the stage function of the stage's inputs. -/
theorem seg20_v200 (W : Valuation τ sig (Elt F)) :
    after seg20 W ⟪main_v200⟫ = rowNormalize2048 (W ⟪main_v152⟫) := by
  after_results_simp
  rfl

set_option maxRecDepth 8192 in
set_option maxHeartbeats 1000000 in
/-- From any contents, stage 21 leaves the uniformity loss of the positive bundles' history rows in its buffer: the stage function of the stage's inputs. -/
theorem seg21_v223 (W : Valuation τ sig (Elt F)) :
    after seg21 W ⟪main_v223⟫ = uLossN (W ⟪main_v200⟫) := by
  after_results_simp
  rfl

set_option maxRecDepth 8192 in
set_option maxHeartbeats 1000000 in
/-- From any contents, stage 22 leaves the bundle side's contrastive loss in its buffer: the stage function of the stage's inputs. -/
theorem seg22_v226 (W : Valuation τ sig (Elt F)) :
    after seg22 W ⟪main_v226⟫ = sideLoss (W ⟪main_v167⟫) (W ⟪main_v195⟫) (W ⟪main_v223⟫) := by
  after_results_simp
  rfl

set_option maxRecDepth 8192 in
set_option maxHeartbeats 1000000 in
/-- From any contents, stage 23 leaves the batch's affinity user rows in its buffer: the stage function of the stage's inputs. -/
theorem seg23_v234 (W : Valuation τ sig (Elt F)) :
    after seg23 W ⟪main_v234⟫ = gatherUserRows (W ⟪main_v43⟫) (W ⟪main_arg7⟫) := by
  after_results_simp
  rfl

set_option maxRecDepth 8192 in
set_option maxHeartbeats 1000000 in
/-- From any contents, stage 24 leaves the batch's history user rows in its buffer: the stage function of the stage's inputs. -/
theorem seg24_v242 (W : Valuation τ sig (Elt F)) :
    after seg24 W ⟪main_v242⟫ = gatherUserRows (W ⟪main_v88⟫) (W ⟪main_arg7⟫) := by
  after_results_simp
  rfl

set_option maxRecDepth 8192 in
set_option maxHeartbeats 1000000 in
/-- From any contents, stage 25 leaves the user side's alignment loss in its buffer: the stage function of the stage's inputs. -/
theorem seg25_v257 (W : Valuation τ sig (Elt F)) :
    after seg25 W ⟪main_v257⟫ = aLoss (W ⟪main_v234⟫) (W ⟪main_v242⟫) := by
  after_results_simp
  rfl

set_option maxRecDepth 8192 in
set_option maxHeartbeats 1000000 in
/-- From any contents, stage 26 leaves the batch's affinity user rows, normalised in its buffer: the stage function of the stage's inputs. -/
theorem seg26_v262 (W : Valuation τ sig (Elt F)) :
    after seg26 W ⟪main_v262⟫ = rowNormalize2048 (W ⟪main_v234⟫) := by
  after_results_simp
  rfl

set_option maxRecDepth 8192 in
set_option maxHeartbeats 1000000 in
/-- From any contents, stage 27 leaves the uniformity loss of the batch's affinity user rows in its buffer: the stage function of the stage's inputs. -/
theorem seg27_v285 (W : Valuation τ sig (Elt F)) :
    after seg27 W ⟪main_v285⟫ = uLossN (W ⟪main_v262⟫) := by
  after_results_simp
  rfl

set_option maxRecDepth 8192 in
set_option maxHeartbeats 1000000 in
/-- From any contents, stage 28 leaves the batch's history user rows, normalised in its buffer: the stage function of the stage's inputs. -/
theorem seg28_v290 (W : Valuation τ sig (Elt F)) :
    after seg28 W ⟪main_v290⟫ = rowNormalize2048 (W ⟪main_v242⟫) := by
  after_results_simp
  rfl

set_option maxRecDepth 8192 in
set_option maxHeartbeats 1000000 in
/-- From any contents, stage 29 leaves the uniformity loss of the batch's history user rows in its buffer: the stage function of the stage's inputs. -/
theorem seg29_v313 (W : Valuation τ sig (Elt F)) :
    after seg29 W ⟪main_v313⟫ = uLossN (W ⟪main_v290⟫) := by
  after_results_simp
  rfl

set_option maxRecDepth 8192 in
set_option maxHeartbeats 1000000 in
/-- From any contents, stage 30 leaves the result in its buffer: the stage function of the stage's inputs. -/
theorem seg30_v321 (W : Valuation τ sig (Elt F)) :
    after seg30 W ⟪main_v321⟫ = stackOut (W ⟪main_v148⟫) (W ⟪main_v226⟫) (sideLoss (W ⟪main_v257⟫) (W ⟪main_v285⟫) (W ⟪main_v313⟫)) := by
  after_results_simp
  rfl

end Cert.ReferenceIdeal.Hand

end
-- ==== Proof.Ref.Split.lean ====
import proofs.«108982_j38147899523261_2_alg».proof.Proof.Ref.Segs

/-! Reading one stage off the whole run.

The program assigns every buffer once. So, with the operation list cut as `pre ++ (seg ++ post)` around a stage
`seg`: what the whole run leaves in a buffer the stage writes is what the stage leaves there, run from the
contents `pre` produced (`read_out`: `post` never writes it); and what `pre` leaves in a buffer that neither the stage nor
anything after it writes is what the whole run leaves there (`read_in`). Together they turn a stage's own
lemma — from ANY contents, the stage's output is its stage function of its inputs — into the same equation
between the buffers' FINAL contents. `pre<k>`, `tail<k>` are the operations before stage `k` and from stage `k` on;
`tail<k>_keep` says a buffer none of the stages `k, k+1, …` writes keeps its contents through all of them. -/

noncomputable section

namespace Cert.ReferenceIdeal.Hand

open Cert.ReferenceIdeal Cert.ReferenceIdeal.Gen Idealize.ShloMosaic Idealize.ShloMosaic.TcCoe Idealize.SL.Sem Idealize.ShloMosaic.StableHlo

section Generic
variable {τ : Topo} {sig : RefSig} {Val : EltTy → Type}

/-- A buffer that nothing after the stage writes ends as the stage leaves it. -/
theorem read_out {ops pre seg post : List (HloOp τ sig Val)} (h : ops = pre ++ (seg ++ post)) (V : Valuation τ sig Val)
    {b : DevRef τ sig} (hpost : ∀ W, after post W b = W b) : after ops V b = after seg (after pre V) b := by
  rw [h, StableHlo.after_append, StableHlo.after_append, hpost]

/-- A buffer that neither the stage nor anything after it writes already holds, when the stage starts, what it ends with. -/
theorem read_in {ops pre seg post : List (HloOp τ sig Val)} (h : ops = pre ++ (seg ++ post)) (V : Valuation τ sig Val)
    {b : DevRef τ sig} (hrest : ∀ W, after (seg ++ post) W b = W b) : after pre V b = after ops V b := by
  rw [h, StableHlo.after_append, hrest]

/-- The last stage: nothing comes after it. -/
theorem read_out_last {ops pre seg : List (HloOp τ sig Val)} (h : ops = pre ++ seg) (V : Valuation τ sig Val)
    (b : DevRef τ sig) : after ops V b = after seg (after pre V) b := by
  rw [h, StableHlo.after_append]

/-- A buffer the last stage does not write already holds, when it starts, what the run ends with. -/
theorem read_in_last {ops pre seg : List (HloOp τ sig Val)} (h : ops = pre ++ seg) (V : Valuation τ sig Val)
    {b : DevRef τ sig} (hrest : ∀ W, after seg W b = W b) : after pre V b = after ops V b := by
  rw [h, StableHlo.after_append, hrest]

end Generic

variable {F : FTy → Type} [FloatOps F]

/-! ## The operations from stage `k` on, and the buffers they write -/

/-- The operations of the stages 30, …, 30. -/
abbrev tail30 : List (HloOp τ sig (Elt F)) := seg30
/-- The buffers the stages 30, …, 30 write. -/
abbrev tail30_W : List (Ref sig .tc) := seg30_W
theorem tail30_keep (V : Valuation τ sig (Elt F)) (r : Ref sig .tc) (h : r ∉ tail30_W) :
    after tail30 V (Proc.devRef .tc r) = V (Proc.devRef .tc r) :=
  seg30_keep V r h

/-- The operations of the stages 29, …, 30. -/
abbrev tail29 : List (HloOp τ sig (Elt F)) := seg29 ++ tail30
/-- The buffers the stages 29, …, 30 write. -/
abbrev tail29_W : List (Ref sig .tc) := seg29_W ++ tail30_W
theorem tail29_keep (V : Valuation τ sig (Elt F)) (r : Ref sig .tc) (h : r ∉ tail29_W) :
    after tail29 V (Proc.devRef .tc r) = V (Proc.devRef .tc r) := by
  rw [StableHlo.after_append, tail30_keep _ r (fun hh => h (List.mem_append_right _ hh)),
    seg29_keep _ r (fun hh => h (List.mem_append_left _ hh))]

/-- The operations of the stages 28, …, 30. -/
abbrev tail28 : List (HloOp τ sig (Elt F)) := seg28 ++ tail29
/-- The buffers the stages 28, …, 30 write. -/
abbrev tail28_W : List (Ref sig .tc) := seg28_W ++ tail29_W
theorem tail28_keep (V : Valuation τ sig (Elt F)) (r : Ref sig .tc) (h : r ∉ tail28_W) :
    after tail28 V (Proc.devRef .tc r) = V (Proc.devRef .tc r) := by
  rw [StableHlo.after_append, tail29_keep _ r (fun hh => h (List.mem_append_right _ hh)),
    seg28_keep _ r (fun hh => h (List.mem_append_left _ hh))]

/-- The operations of the stages 27, …, 30. -/
abbrev tail27 : List (HloOp τ sig (Elt F)) := seg27 ++ tail28
/-- The buffers the stages 27, …, 30 write. -/
abbrev tail27_W : List (Ref sig .tc) := seg27_W ++ tail28_W
theorem tail27_keep (V : Valuation τ sig (Elt F)) (r : Ref sig .tc) (h : r ∉ tail27_W) :
    after tail27 V (Proc.devRef .tc r) = V (Proc.devRef .tc r) := by
  rw [StableHlo.after_append, tail28_keep _ r (fun hh => h (List.mem_append_right _ hh)),
    seg27_keep _ r (fun hh => h (List.mem_append_left _ hh))]

/-- The operations of the stages 26, …, 30. -/
abbrev tail26 : List (HloOp τ sig (Elt F)) := seg26 ++ tail27
/-- The buffers the stages 26, …, 30 write. -/
abbrev tail26_W : List (Ref sig .tc) := seg26_W ++ tail27_W
theorem tail26_keep (V : Valuation τ sig (Elt F)) (r : Ref sig .tc) (h : r ∉ tail26_W) :
    after tail26 V (Proc.devRef .tc r) = V (Proc.devRef .tc r) := by
  rw [StableHlo.after_append, tail27_keep _ r (fun hh => h (List.mem_append_right _ hh)),
    seg26_keep _ r (fun hh => h (List.mem_append_left _ hh))]

/-- The operations of the stages 25, …, 30. -/
abbrev tail25 : List (HloOp τ sig (Elt F)) := seg25 ++ tail26
/-- The buffers the stages 25, …, 30 write. -/
abbrev tail25_W : List (Ref sig .tc) := seg25_W ++ tail26_W
theorem tail25_keep (V : Valuation τ sig (Elt F)) (r : Ref sig .tc) (h : r ∉ tail25_W) :
    after tail25 V (Proc.devRef .tc r) = V (Proc.devRef .tc r) := by
  rw [StableHlo.after_append, tail26_keep _ r (fun hh => h (List.mem_append_right _ hh)),
    seg25_keep _ r (fun hh => h (List.mem_append_left _ hh))]

/-- The operations of the stages 24, …, 30. -/
abbrev tail24 : List (HloOp τ sig (Elt F)) := seg24 ++ tail25
/-- The buffers the stages 24, …, 30 write. -/
abbrev tail24_W : List (Ref sig .tc) := seg24_W ++ tail25_W
theorem tail24_keep (V : Valuation τ sig (Elt F)) (r : Ref sig .tc) (h : r ∉ tail24_W) :
    after tail24 V (Proc.devRef .tc r) = V (Proc.devRef .tc r) := by
  rw [StableHlo.after_append, tail25_keep _ r (fun hh => h (List.mem_append_right _ hh)),
    seg24_keep _ r (fun hh => h (List.mem_append_left _ hh))]

/-- The operations of the stages 23, …, 30. -/
abbrev tail23 : List (HloOp τ sig (Elt F)) := seg23 ++ tail24
/-- The buffers the stages 23, …, 30 write. -/
abbrev tail23_W : List (Ref sig .tc) := seg23_W ++ tail24_W
theorem tail23_keep (V : Valuation τ sig (Elt F)) (r : Ref sig .tc) (h : r ∉ tail23_W) :
    after tail23 V (Proc.devRef .tc r) = V (Proc.devRef .tc r) := by
  rw [StableHlo.after_append, tail24_keep _ r (fun hh => h (List.mem_append_right _ hh)),
    seg23_keep _ r (fun hh => h (List.mem_append_left _ hh))]

/-- The operations of the stages 22, …, 30. -/
abbrev tail22 : List (HloOp τ sig (Elt F)) := seg22 ++ tail23
/-- The buffers the stages 22, …, 30 write. -/
abbrev tail22_W : List (Ref sig .tc) := seg22_W ++ tail23_W
theorem tail22_keep (V : Valuation τ sig (Elt F)) (r : Ref sig .tc) (h : r ∉ tail22_W) :
    after tail22 V (Proc.devRef .tc r) = V (Proc.devRef .tc r) := by
  rw [StableHlo.after_append, tail23_keep _ r (fun hh => h (List.mem_append_right _ hh)),
    seg22_keep _ r (fun hh => h (List.mem_append_left _ hh))]

/-- The operations of the stages 21, …, 30. -/
abbrev tail21 : List (HloOp τ sig (Elt F)) := seg21 ++ tail22
/-- The buffers the stages 21, …, 30 write. -/
abbrev tail21_W : List (Ref sig .tc) := seg21_W ++ tail22_W
theorem tail21_keep (V : Valuation τ sig (Elt F)) (r : Ref sig .tc) (h : r ∉ tail21_W) :
    after tail21 V (Proc.devRef .tc r) = V (Proc.devRef .tc r) := by
  rw [StableHlo.after_append, tail22_keep _ r (fun hh => h (List.mem_append_right _ hh)),
    seg21_keep _ r (fun hh => h (List.mem_append_left _ hh))]

/-- The operations of the stages 20, …, 30. -/
abbrev tail20 : List (HloOp τ sig (Elt F)) := seg20 ++ tail21
/-- The buffers the stages 20, …, 30 write. -/
abbrev tail20_W : List (Ref sig .tc) := seg20_W ++ tail21_W
theorem tail20_keep (V : Valuation τ sig (Elt F)) (r : Ref sig .tc) (h : r ∉ tail20_W) :
    after tail20 V (Proc.devRef .tc r) = V (Proc.devRef .tc r) := by
  rw [StableHlo.after_append, tail21_keep _ r (fun hh => h (List.mem_append_right _ hh)),
    seg20_keep _ r (fun hh => h (List.mem_append_left _ hh))]

/-- The operations of the stages 19, …, 30. -/
abbrev tail19 : List (HloOp τ sig (Elt F)) := seg19 ++ tail20
/-- The buffers the stages 19, …, 30 write. -/
abbrev tail19_W : List (Ref sig .tc) := seg19_W ++ tail20_W
theorem tail19_keep (V : Valuation τ sig (Elt F)) (r : Ref sig .tc) (h : r ∉ tail19_W) :
    after tail19 V (Proc.devRef .tc r) = V (Proc.devRef .tc r) := by
  rw [StableHlo.after_append, tail20_keep _ r (fun hh => h (List.mem_append_right _ hh)),
    seg19_keep _ r (fun hh => h (List.mem_append_left _ hh))]

/-- The operations of the stages 18, …, 30. -/
abbrev tail18 : List (HloOp τ sig (Elt F)) := seg18 ++ tail19
/-- The buffers the stages 18, …, 30 write. -/
abbrev tail18_W : List (Ref sig .tc) := seg18_W ++ tail19_W
theorem tail18_keep (V : Valuation τ sig (Elt F)) (r : Ref sig .tc) (h : r ∉ tail18_W) :
    after tail18 V (Proc.devRef .tc r) = V (Proc.devRef .tc r) := by
  rw [StableHlo.after_append, tail19_keep _ r (fun hh => h (List.mem_append_right _ hh)),
    seg18_keep _ r (fun hh => h (List.mem_append_left _ hh))]

/-- The operations of the stages 17, …, 30. -/
abbrev tail17 : List (HloOp τ sig (Elt F)) := seg17 ++ tail18
/-- The buffers the stages 17, …, 30 write. -/
abbrev tail17_W : List (Ref sig .tc) := seg17_W ++ tail18_W
theorem tail17_keep (V : Valuation τ sig (Elt F)) (r : Ref sig .tc) (h : r ∉ tail17_W) :
    after tail17 V (Proc.devRef .tc r) = V (Proc.devRef .tc r) := by
  rw [StableHlo.after_append, tail18_keep _ r (fun hh => h (List.mem_append_right _ hh)),
    seg17_keep _ r (fun hh => h (List.mem_append_left _ hh))]

/-- The operations of the stages 16, …, 30. -/
abbrev tail16 : List (HloOp τ sig (Elt F)) := seg16 ++ tail17
/-- The buffers the stages 16, …, 30 write. -/
abbrev tail16_W : List (Ref sig .tc) := seg16_W ++ tail17_W
theorem tail16_keep (V : Valuation τ sig (Elt F)) (r : Ref sig .tc) (h : r ∉ tail16_W) :
    after tail16 V (Proc.devRef .tc r) = V (Proc.devRef .tc r) := by
  rw [StableHlo.after_append, tail17_keep _ r (fun hh => h (List.mem_append_right _ hh)),
    seg16_keep _ r (fun hh => h (List.mem_append_left _ hh))]

/-- The operations of the stages 15, …, 30. -/
abbrev tail15 : List (HloOp τ sig (Elt F)) := seg15 ++ tail16
/-- The buffers the stages 15, …, 30 write. -/
abbrev tail15_W : List (Ref sig .tc) := seg15_W ++ tail16_W
theorem tail15_keep (V : Valuation τ sig (Elt F)) (r : Ref sig .tc) (h : r ∉ tail15_W) :
    after tail15 V (Proc.devRef .tc r) = V (Proc.devRef .tc r) := by
  rw [StableHlo.after_append, tail16_keep _ r (fun hh => h (List.mem_append_right _ hh)),
    seg15_keep _ r (fun hh => h (List.mem_append_left _ hh))]

/-- The operations of the stages 14, …, 30. -/
abbrev tail14 : List (HloOp τ sig (Elt F)) := seg14 ++ tail15
/-- The buffers the stages 14, …, 30 write. -/
abbrev tail14_W : List (Ref sig .tc) := seg14_W ++ tail15_W
theorem tail14_keep (V : Valuation τ sig (Elt F)) (r : Ref sig .tc) (h : r ∉ tail14_W) :
    after tail14 V (Proc.devRef .tc r) = V (Proc.devRef .tc r) := by
  rw [StableHlo.after_append, tail15_keep _ r (fun hh => h (List.mem_append_right _ hh)),
    seg14_keep _ r (fun hh => h (List.mem_append_left _ hh))]

/-- The operations of the stages 13, …, 30. -/
abbrev tail13 : List (HloOp τ sig (Elt F)) := seg13 ++ tail14
/-- The buffers the stages 13, …, 30 write. -/
abbrev tail13_W : List (Ref sig .tc) := seg13_W ++ tail14_W
theorem tail13_keep (V : Valuation τ sig (Elt F)) (r : Ref sig .tc) (h : r ∉ tail13_W) :
    after tail13 V (Proc.devRef .tc r) = V (Proc.devRef .tc r) := by
  rw [StableHlo.after_append, tail14_keep _ r (fun hh => h (List.mem_append_right _ hh)),
    seg13_keep _ r (fun hh => h (List.mem_append_left _ hh))]

/-- The operations of the stages 12, …, 30. -/
abbrev tail12 : List (HloOp τ sig (Elt F)) := seg12 ++ tail13
/-- The buffers the stages 12, …, 30 write. -/
abbrev tail12_W : List (Ref sig .tc) := seg12_W ++ tail13_W
theorem tail12_keep (V : Valuation τ sig (Elt F)) (r : Ref sig .tc) (h : r ∉ tail12_W) :
    after tail12 V (Proc.devRef .tc r) = V (Proc.devRef .tc r) := by
  rw [StableHlo.after_append, tail13_keep _ r (fun hh => h (List.mem_append_right _ hh)),
    seg12_keep _ r (fun hh => h (List.mem_append_left _ hh))]

/-- The operations of the stages 11, …, 30. -/
abbrev tail11 : List (HloOp τ sig (Elt F)) := seg11 ++ tail12
/-- The buffers the stages 11, …, 30 write. -/
abbrev tail11_W : List (Ref sig .tc) := seg11_W ++ tail12_W
theorem tail11_keep (V : Valuation τ sig (Elt F)) (r : Ref sig .tc) (h : r ∉ tail11_W) :
    after tail11 V (Proc.devRef .tc r) = V (Proc.devRef .tc r) := by
  rw [StableHlo.after_append, tail12_keep _ r (fun hh => h (List.mem_append_right _ hh)),
    seg11_keep _ r (fun hh => h (List.mem_append_left _ hh))]

/-- The operations of the stages 10, …, 30. -/
abbrev tail10 : List (HloOp τ sig (Elt F)) := seg10 ++ tail11
/-- The buffers the stages 10, …, 30 write. -/
abbrev tail10_W : List (Ref sig .tc) := seg10_W ++ tail11_W
theorem tail10_keep (V : Valuation τ sig (Elt F)) (r : Ref sig .tc) (h : r ∉ tail10_W) :
    after tail10 V (Proc.devRef .tc r) = V (Proc.devRef .tc r) := by
  rw [StableHlo.after_append, tail11_keep _ r (fun hh => h (List.mem_append_right _ hh)),
    seg10_keep _ r (fun hh => h (List.mem_append_left _ hh))]

/-- The operations of the stages 9, …, 30. -/
abbrev tail09 : List (HloOp τ sig (Elt F)) := seg09 ++ tail10
/-- The buffers the stages 9, …, 30 write. -/
abbrev tail09_W : List (Ref sig .tc) := seg09_W ++ tail10_W
theorem tail09_keep (V : Valuation τ sig (Elt F)) (r : Ref sig .tc) (h : r ∉ tail09_W) :
    after tail09 V (Proc.devRef .tc r) = V (Proc.devRef .tc r) := by
  rw [StableHlo.after_append, tail10_keep _ r (fun hh => h (List.mem_append_right _ hh)),
    seg09_keep _ r (fun hh => h (List.mem_append_left _ hh))]

/-- The operations of the stages 8, …, 30. -/
abbrev tail08 : List (HloOp τ sig (Elt F)) := seg08 ++ tail09
/-- The buffers the stages 8, …, 30 write. -/
abbrev tail08_W : List (Ref sig .tc) := seg08_W ++ tail09_W
theorem tail08_keep (V : Valuation τ sig (Elt F)) (r : Ref sig .tc) (h : r ∉ tail08_W) :
    after tail08 V (Proc.devRef .tc r) = V (Proc.devRef .tc r) := by
  rw [StableHlo.after_append, tail09_keep _ r (fun hh => h (List.mem_append_right _ hh)),
    seg08_keep _ r (fun hh => h (List.mem_append_left _ hh))]

/-- The operations of the stages 7, …, 30. -/
abbrev tail07 : List (HloOp τ sig (Elt F)) := seg07 ++ tail08
/-- The buffers the stages 7, …, 30 write. -/
abbrev tail07_W : List (Ref sig .tc) := seg07_W ++ tail08_W
theorem tail07_keep (V : Valuation τ sig (Elt F)) (r : Ref sig .tc) (h : r ∉ tail07_W) :
    after tail07 V (Proc.devRef .tc r) = V (Proc.devRef .tc r) := by
  rw [StableHlo.after_append, tail08_keep _ r (fun hh => h (List.mem_append_right _ hh)),
    seg07_keep _ r (fun hh => h (List.mem_append_left _ hh))]

/-- The operations of the stages 6, …, 30. -/
abbrev tail06 : List (HloOp τ sig (Elt F)) := seg06 ++ tail07
/-- The buffers the stages 6, …, 30 write. -/
abbrev tail06_W : List (Ref sig .tc) := seg06_W ++ tail07_W
theorem tail06_keep (V : Valuation τ sig (Elt F)) (r : Ref sig .tc) (h : r ∉ tail06_W) :
    after tail06 V (Proc.devRef .tc r) = V (Proc.devRef .tc r) := by
  rw [StableHlo.after_append, tail07_keep _ r (fun hh => h (List.mem_append_right _ hh)),
    seg06_keep _ r (fun hh => h (List.mem_append_left _ hh))]

/-- The operations of the stages 5, …, 30. -/
abbrev tail05 : List (HloOp τ sig (Elt F)) := seg05 ++ tail06
/-- The buffers the stages 5, …, 30 write. -/
abbrev tail05_W : List (Ref sig .tc) := seg05_W ++ tail06_W
theorem tail05_keep (V : Valuation τ sig (Elt F)) (r : Ref sig .tc) (h : r ∉ tail05_W) :
    after tail05 V (Proc.devRef .tc r) = V (Proc.devRef .tc r) := by
  rw [StableHlo.after_append, tail06_keep _ r (fun hh => h (List.mem_append_right _ hh)),
    seg05_keep _ r (fun hh => h (List.mem_append_left _ hh))]

/-- The operations of the stages 4, …, 30. -/
abbrev tail04 : List (HloOp τ sig (Elt F)) := seg04 ++ tail05
/-- The buffers the stages 4, …, 30 write. -/
abbrev tail04_W : List (Ref sig .tc) := seg04_W ++ tail05_W
theorem tail04_keep (V : Valuation τ sig (Elt F)) (r : Ref sig .tc) (h : r ∉ tail04_W) :
    after tail04 V (Proc.devRef .tc r) = V (Proc.devRef .tc r) := by
  rw [StableHlo.after_append, tail05_keep _ r (fun hh => h (List.mem_append_right _ hh)),
    seg04_keep _ r (fun hh => h (List.mem_append_left _ hh))]

/-- The operations of the stages 3, …, 30. -/
abbrev tail03 : List (HloOp τ sig (Elt F)) := seg03 ++ tail04
/-- The buffers the stages 3, …, 30 write. -/
abbrev tail03_W : List (Ref sig .tc) := seg03_W ++ tail04_W
theorem tail03_keep (V : Valuation τ sig (Elt F)) (r : Ref sig .tc) (h : r ∉ tail03_W) :
    after tail03 V (Proc.devRef .tc r) = V (Proc.devRef .tc r) := by
  rw [StableHlo.after_append, tail04_keep _ r (fun hh => h (List.mem_append_right _ hh)),
    seg03_keep _ r (fun hh => h (List.mem_append_left _ hh))]

/-- The operations of the stages 2, …, 30. -/
abbrev tail02 : List (HloOp τ sig (Elt F)) := seg02 ++ tail03
/-- The buffers the stages 2, …, 30 write. -/
abbrev tail02_W : List (Ref sig .tc) := seg02_W ++ tail03_W
theorem tail02_keep (V : Valuation τ sig (Elt F)) (r : Ref sig .tc) (h : r ∉ tail02_W) :
    after tail02 V (Proc.devRef .tc r) = V (Proc.devRef .tc r) := by
  rw [StableHlo.after_append, tail03_keep _ r (fun hh => h (List.mem_append_right _ hh)),
    seg02_keep _ r (fun hh => h (List.mem_append_left _ hh))]

/-- The operations of the stages 1, …, 30. -/
abbrev tail01 : List (HloOp τ sig (Elt F)) := seg01 ++ tail02
/-- The buffers the stages 1, …, 30 write. -/
abbrev tail01_W : List (Ref sig .tc) := seg01_W ++ tail02_W
theorem tail01_keep (V : Valuation τ sig (Elt F)) (r : Ref sig .tc) (h : r ∉ tail01_W) :
    after tail01 V (Proc.devRef .tc r) = V (Proc.devRef .tc r) := by
  rw [StableHlo.after_append, tail02_keep _ r (fun hh => h (List.mem_append_right _ hh)),
    seg01_keep _ r (fun hh => h (List.mem_append_left _ hh))]

/-- The operations of the stages 0, …, 30. -/
abbrev tail00 : List (HloOp τ sig (Elt F)) := seg00 ++ tail01
/-- The buffers the stages 0, …, 30 write. -/
abbrev tail00_W : List (Ref sig .tc) := seg00_W ++ tail01_W
theorem tail00_keep (V : Valuation τ sig (Elt F)) (r : Ref sig .tc) (h : r ∉ tail00_W) :
    after tail00 V (Proc.devRef .tc r) = V (Proc.devRef .tc r) := by
  rw [StableHlo.after_append, tail01_keep _ r (fun hh => h (List.mem_append_right _ hh)),
    seg00_keep _ r (fun hh => h (List.mem_append_left _ hh))]

/-! ## The operations before stage `k`, and the program cut at stage `k` -/

/-- Nothing comes before stage 0. -/
abbrev pre00 : List (HloOp τ sig (Elt F)) := []
theorem cut00 : (ops : List (HloOp τ sig (Elt F))) = pre00 ++ tail00 := ops_eq_segs

/-- The operations of the stages 0, …, 0. -/
abbrev pre01 : List (HloOp τ sig (Elt F)) := pre00 ++ seg00
theorem cut01 : (ops : List (HloOp τ sig (Elt F))) = pre01 ++ tail01 := by
  rw [List.append_assoc]; exact cut00

/-- The operations of the stages 0, …, 1. -/
abbrev pre02 : List (HloOp τ sig (Elt F)) := pre01 ++ seg01
theorem cut02 : (ops : List (HloOp τ sig (Elt F))) = pre02 ++ tail02 := by
  rw [List.append_assoc]; exact cut01

/-- The operations of the stages 0, …, 2. -/
abbrev pre03 : List (HloOp τ sig (Elt F)) := pre02 ++ seg02
theorem cut03 : (ops : List (HloOp τ sig (Elt F))) = pre03 ++ tail03 := by
  rw [List.append_assoc]; exact cut02

/-- The operations of the stages 0, …, 3. -/
abbrev pre04 : List (HloOp τ sig (Elt F)) := pre03 ++ seg03
theorem cut04 : (ops : List (HloOp τ sig (Elt F))) = pre04 ++ tail04 := by
  rw [List.append_assoc]; exact cut03

/-- The operations of the stages 0, …, 4. -/
abbrev pre05 : List (HloOp τ sig (Elt F)) := pre04 ++ seg04
theorem cut05 : (ops : List (HloOp τ sig (Elt F))) = pre05 ++ tail05 := by
  rw [List.append_assoc]; exact cut04

/-- The operations of the stages 0, …, 5. -/
abbrev pre06 : List (HloOp τ sig (Elt F)) := pre05 ++ seg05
theorem cut06 : (ops : List (HloOp τ sig (Elt F))) = pre06 ++ tail06 := by
  rw [List.append_assoc]; exact cut05

/-- The operations of the stages 0, …, 6. -/
abbrev pre07 : List (HloOp τ sig (Elt F)) := pre06 ++ seg06
theorem cut07 : (ops : List (HloOp τ sig (Elt F))) = pre07 ++ tail07 := by
  rw [List.append_assoc]; exact cut06

/-- The operations of the stages 0, …, 7. -/
abbrev pre08 : List (HloOp τ sig (Elt F)) := pre07 ++ seg07
theorem cut08 : (ops : List (HloOp τ sig (Elt F))) = pre08 ++ tail08 := by
  rw [List.append_assoc]; exact cut07

/-- The operations of the stages 0, …, 8. -/
abbrev pre09 : List (HloOp τ sig (Elt F)) := pre08 ++ seg08
theorem cut09 : (ops : List (HloOp τ sig (Elt F))) = pre09 ++ tail09 := by
  rw [List.append_assoc]; exact cut08

/-- The operations of the stages 0, …, 9. -/
abbrev pre10 : List (HloOp τ sig (Elt F)) := pre09 ++ seg09
theorem cut10 : (ops : List (HloOp τ sig (Elt F))) = pre10 ++ tail10 := by
  rw [List.append_assoc]; exact cut09

/-- The operations of the stages 0, …, 10. -/
abbrev pre11 : List (HloOp τ sig (Elt F)) := pre10 ++ seg10
theorem cut11 : (ops : List (HloOp τ sig (Elt F))) = pre11 ++ tail11 := by
  rw [List.append_assoc]; exact cut10

/-- The operations of the stages 0, …, 11. -/
abbrev pre12 : List (HloOp τ sig (Elt F)) := pre11 ++ seg11
theorem cut12 : (ops : List (HloOp τ sig (Elt F))) = pre12 ++ tail12 := by
  rw [List.append_assoc]; exact cut11

/-- The operations of the stages 0, …, 12. -/
abbrev pre13 : List (HloOp τ sig (Elt F)) := pre12 ++ seg12
theorem cut13 : (ops : List (HloOp τ sig (Elt F))) = pre13 ++ tail13 := by
  rw [List.append_assoc]; exact cut12

/-- The operations of the stages 0, …, 13. -/
abbrev pre14 : List (HloOp τ sig (Elt F)) := pre13 ++ seg13
theorem cut14 : (ops : List (HloOp τ sig (Elt F))) = pre14 ++ tail14 := by
  rw [List.append_assoc]; exact cut13

/-- The operations of the stages 0, …, 14. -/
abbrev pre15 : List (HloOp τ sig (Elt F)) := pre14 ++ seg14
theorem cut15 : (ops : List (HloOp τ sig (Elt F))) = pre15 ++ tail15 := by
  rw [List.append_assoc]; exact cut14

/-- The operations of the stages 0, …, 15. -/
abbrev pre16 : List (HloOp τ sig (Elt F)) := pre15 ++ seg15
theorem cut16 : (ops : List (HloOp τ sig (Elt F))) = pre16 ++ tail16 := by
  rw [List.append_assoc]; exact cut15

/-- The operations of the stages 0, …, 16. -/
abbrev pre17 : List (HloOp τ sig (Elt F)) := pre16 ++ seg16
theorem cut17 : (ops : List (HloOp τ sig (Elt F))) = pre17 ++ tail17 := by
  rw [List.append_assoc]; exact cut16

/-- The operations of the stages 0, …, 17. -/
abbrev pre18 : List (HloOp τ sig (Elt F)) := pre17 ++ seg17
theorem cut18 : (ops : List (HloOp τ sig (Elt F))) = pre18 ++ tail18 := by
  rw [List.append_assoc]; exact cut17

/-- The operations of the stages 0, …, 18. -/
abbrev pre19 : List (HloOp τ sig (Elt F)) := pre18 ++ seg18
theorem cut19 : (ops : List (HloOp τ sig (Elt F))) = pre19 ++ tail19 := by
  rw [List.append_assoc]; exact cut18

/-- The operations of the stages 0, …, 19. -/
abbrev pre20 : List (HloOp τ sig (Elt F)) := pre19 ++ seg19
theorem cut20 : (ops : List (HloOp τ sig (Elt F))) = pre20 ++ tail20 := by
  rw [List.append_assoc]; exact cut19

/-- The operations of the stages 0, …, 20. -/
abbrev pre21 : List (HloOp τ sig (Elt F)) := pre20 ++ seg20
theorem cut21 : (ops : List (HloOp τ sig (Elt F))) = pre21 ++ tail21 := by
  rw [List.append_assoc]; exact cut20

/-- The operations of the stages 0, …, 21. -/
abbrev pre22 : List (HloOp τ sig (Elt F)) := pre21 ++ seg21
theorem cut22 : (ops : List (HloOp τ sig (Elt F))) = pre22 ++ tail22 := by
  rw [List.append_assoc]; exact cut21

/-- The operations of the stages 0, …, 22. -/
abbrev pre23 : List (HloOp τ sig (Elt F)) := pre22 ++ seg22
theorem cut23 : (ops : List (HloOp τ sig (Elt F))) = pre23 ++ tail23 := by
  rw [List.append_assoc]; exact cut22

/-- The operations of the stages 0, …, 23. -/
abbrev pre24 : List (HloOp τ sig (Elt F)) := pre23 ++ seg23
theorem cut24 : (ops : List (HloOp τ sig (Elt F))) = pre24 ++ tail24 := by
  rw [List.append_assoc]; exact cut23

/-- The operations of the stages 0, …, 24. -/
abbrev pre25 : List (HloOp τ sig (Elt F)) := pre24 ++ seg24
theorem cut25 : (ops : List (HloOp τ sig (Elt F))) = pre25 ++ tail25 := by
  rw [List.append_assoc]; exact cut24

/-- The operations of the stages 0, …, 25. -/
abbrev pre26 : List (HloOp τ sig (Elt F)) := pre25 ++ seg25
theorem cut26 : (ops : List (HloOp τ sig (Elt F))) = pre26 ++ tail26 := by
  rw [List.append_assoc]; exact cut25

/-- The operations of the stages 0, …, 26. -/
abbrev pre27 : List (HloOp τ sig (Elt F)) := pre26 ++ seg26
theorem cut27 : (ops : List (HloOp τ sig (Elt F))) = pre27 ++ tail27 := by
  rw [List.append_assoc]; exact cut26

/-- The operations of the stages 0, …, 27. -/
abbrev pre28 : List (HloOp τ sig (Elt F)) := pre27 ++ seg27
theorem cut28 : (ops : List (HloOp τ sig (Elt F))) = pre28 ++ tail28 := by
  rw [List.append_assoc]; exact cut27

/-- The operations of the stages 0, …, 28. -/
abbrev pre29 : List (HloOp τ sig (Elt F)) := pre28 ++ seg28
theorem cut29 : (ops : List (HloOp τ sig (Elt F))) = pre29 ++ tail29 := by
  rw [List.append_assoc]; exact cut28

/-- The operations of the stages 0, …, 29. -/
abbrev pre30 : List (HloOp τ sig (Elt F)) := pre29 ++ seg29
theorem cut30 : (ops : List (HloOp τ sig (Elt F))) = pre30 ++ tail30 := by
  rw [List.append_assoc]; exact cut29

end Cert.ReferenceIdeal.Hand

end
-- ==== Proof.Ref.Args.lean ====
import proofs.«108982_j38147899523261_2_alg».proof.Proof.Ref.Stages

/-! The reference as a function of its arguments.

`Args` packs the reference's fifteen argument arrays under the names the reference gives them; `argsOf` reads
them from a device's buffer contents. `Args.out`, and the named intermediates before it, compose the stage
functions (`Stages.lean`) exactly as the reference composes its stages: two propagations of two layers each
(sparse product, divide by the layer constant, normalise the rows, accumulate), the bundle aggregation, the
batch's gathers, the scores and the ranking loss, and for each of the two sides — positive bundles, users — the
contrastive loss `alignment + (uniformity₁ + uniformity₂ / 2)`; the result stacks the ranking loss on the
average of the two sides. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local notation "⟪" b "⟫" => (Proc.devRef (τ := τ) (sig := sig) Proc.tc b)

/-! ## The reference as a function of its arguments -/

/-- The reference's fifteen argument arrays, under the names the reference gives them. -/
structure Args (F : FTy → Type) where
  /-- the users' feature rows (argument 0) -/
  users_feat : FVec F S100000x64 .f32
  /-- the items' feature rows (argument 1) -/
  items_feat : FVec F S200000x64 .f32
  /-- the bundles' feature rows (argument 2) -/
  bundles_feat : FVec F S50000x64 .f32
  /-- each bundle's frequency (argument 3) -/
  bundle_freq : FVec F S50000 .f32
  /-- the user-item graph's edge values (argument 4) -/
  aff_vals : FVec F S2000000 .f32
  /-- the user-bundle graph's edge values (argument 5) -/
  hist_vals : FVec F S1000000 .f32
  /-- the bundle-item graph's edge values (argument 6) -/
  agg_vals : FVec F S1000000 .f32
  /-- the batch's users (argument 7) -/
  users : IVec S2048x1 32
  /-- the batch's bundles: a positive and a negative one per sample (argument 8) -/
  bundles : IVec S2048x2 32
  /-- the user-item graph's edge rows (argument 9) -/
  aff_rows : IVec S2000000 32
  /-- the user-item graph's edge columns (argument 10) -/
  aff_cols : IVec S2000000 32
  /-- the user-bundle graph's edge rows (argument 11) -/
  hist_rows : IVec S1000000 32
  /-- the user-bundle graph's edge columns (argument 12) -/
  hist_cols : IVec S1000000 32
  /-- the bundle-item graph's edge rows (bundles) (argument 13) -/
  agg_rows : IVec S1000000 32
  /-- the bundle-item graph's edge columns (items) (argument 14) -/
  agg_cols : IVec S1000000 32

/-- The argument arrays a device's buffers hold. -/
def argsOf (V : Valuation τ sig (Elt F)) : Args F where
  users_feat := V ⟪main_arg0⟫
  items_feat := V ⟪main_arg1⟫
  bundles_feat := V ⟪main_arg2⟫
  bundle_freq := V ⟪main_arg3⟫
  aff_vals := V ⟪main_arg4⟫
  hist_vals := V ⟪main_arg5⟫
  agg_vals := V ⟪main_arg6⟫
  users := V ⟪main_arg7⟫
  bundles := V ⟪main_arg8⟫
  aff_rows := V ⟪main_arg9⟫
  aff_cols := V ⟪main_arg10⟫
  hist_rows := V ⟪main_arg11⟫
  hist_cols := V ⟪main_arg12⟫
  agg_rows := V ⟪main_arg13⟫
  agg_cols := V ⟪main_arg14⟫

namespace Args

variable (x : Args F)

/-- The stacked user/item table the affinity propagation starts from. -/
def affTable0 : FVec F S300000x64 .f32 := stackAff x.users_feat x.items_feat
/-- The first affinity sparse product. -/
def affProp1 : FVec F S300000x64 .f32 := spmmAff x.aff_rows x.aff_cols x.aff_vals x.affTable0
/-- The first affinity layer's table: the product divided by 2. -/
def affLayer1 : FVec F S300000x64 .f32 := divConst 0x40000000#32 bcast_S_S300000x64 x.affProp1
/-- The affinity accumulator after the first layer: the start table plus the layer's normalised rows. -/
def affAcc1 : FVec F S300000x64 .f32 := addf x.affTable0 (rowNormalize300000 x.affLayer1)
/-- The second affinity sparse product, of the first layer's table. -/
def affProp2 : FVec F S300000x64 .f32 := spmmAff x.aff_rows x.aff_cols x.aff_vals x.affLayer1
/-- The second affinity layer's table: the product divided by 3. -/
def affLayer2 : FVec F S300000x64 .f32 := divConst 0x40400000#32 bcast_S_S300000x64 x.affProp2
/-- The affinity accumulator after the second layer. -/
def affAcc2 : FVec F S300000x64 .f32 := addf x.affAcc1 (rowNormalize300000 x.affLayer2)
/-- The propagated users' rows of the affinity view. -/
def affU : FVec F S100000x64 .f32 := affUsers x.affAcc2
/-- The propagated items' rows of the affinity view. -/
def affI : FVec F S200000x64 .f32 := affItems x.affAcc2

/-- The stacked user/bundle table the history propagation starts from. -/
def histTable0 : FVec F S150000x64 .f32 := stackHist x.users_feat x.bundles_feat
/-- The first history sparse product. -/
def histProp1 : FVec F S150000x64 .f32 := spmmHist x.hist_rows x.hist_cols x.hist_vals x.histTable0
/-- The first history layer's table: the product divided by 2. -/
def histLayer1 : FVec F S150000x64 .f32 := divConst 0x40000000#32 bcast_S_S150000x64 x.histProp1
/-- The history accumulator after the first layer. -/
def histAcc1 : FVec F S150000x64 .f32 := addf x.histTable0 (rowNormalize150000 x.histLayer1)
/-- The second history sparse product, of the first layer's table. -/
def histProp2 : FVec F S150000x64 .f32 := spmmHist x.hist_rows x.hist_cols x.hist_vals x.histLayer1
/-- The second history layer's table: the product divided by 3. -/
def histLayer2 : FVec F S150000x64 .f32 := divConst 0x40400000#32 bcast_S_S150000x64 x.histProp2
/-- The history accumulator after the second layer. -/
def histAcc2 : FVec F S150000x64 .f32 := addf x.histAcc1 (rowNormalize150000 x.histLayer2)
/-- The propagated users' rows of the history view. -/
def histU : FVec F S100000x64 .f32 := histUsers x.histAcc2
/-- The propagated bundles' rows of the history view. -/
def histB : FVec F S50000x64 .f32 := histBundles x.histAcc2

/-- The bundles' rows of the affinity view: each bundle the weighted sum of its items' propagated rows. -/
def affB : FVec F S50000x64 .f32 := spmmAgg x.agg_rows x.agg_cols x.agg_vals x.affI
/-- The batch's bundle rows, affinity view. -/
def affBe : FVec F S2048x2x64 .f32 := gatherBundleRows x.affB x.bundles
/-- The batch's bundle rows, history view. -/
def histBe : FVec F S2048x2x64 .f32 := gatherBundleRows x.histB x.bundles
/-- The batch's mixing weights. -/
def gamma : FVec F S2048x2 .f32 := gammaOf x.bundle_freq x.bundles
/-- The batch's scores. -/
def pred : FVec F S2048x2 .f32 := predOf x.affBe x.histBe x.gamma
/-- The ranking loss. -/
def bpr : FVec F S_ .f32 := bprLoss x.pred

/-- The positive bundles' rows, affinity view. -/
def ab : FVec F S2048x64 .f32 := firstCol x.affBe
/-- The positive bundles' rows, history view. -/
def hb : FVec F S2048x64 .f32 := firstCol x.histBe
/-- The bundle side's alignment loss. -/
def bundleA : FVec F S_ .f32 := aLoss x.ab x.hb
/-- The positive bundles' affinity rows, normalised. -/
def abN : FVec F S2048x64 .f32 := rowNormalize2048 x.ab
/-- The uniformity loss of the positive bundles' affinity rows. -/
def bundleU1 : FVec F S_ .f32 := uLossN x.abN
/-- The positive bundles' history rows, normalised. -/
def hbN : FVec F S2048x64 .f32 := rowNormalize2048 x.hb
/-- The uniformity loss of the positive bundles' history rows. -/
def bundleU2 : FVec F S_ .f32 := uLossN x.hbN
/-- The bundle side's contrastive loss. -/
def bundleC : FVec F S_ .f32 := sideLoss x.bundleA x.bundleU1 x.bundleU2

/-- The batch's user rows, affinity view. -/
def au : FVec F S2048x64 .f32 := gatherUserRows x.affU x.users
/-- The batch's user rows, history view. -/
def hu : FVec F S2048x64 .f32 := gatherUserRows x.histU x.users
/-- The user side's alignment loss. -/
def userA : FVec F S_ .f32 := aLoss x.au x.hu
/-- The batch's affinity user rows, normalised. -/
def auN : FVec F S2048x64 .f32 := rowNormalize2048 x.au
/-- The uniformity loss of the batch's affinity user rows. -/
def userU1 : FVec F S_ .f32 := uLossN x.auN
/-- The batch's history user rows, normalised. -/
def huN : FVec F S2048x64 .f32 := rowNormalize2048 x.hu
/-- The uniformity loss of the batch's history user rows. -/
def userU2 : FVec F S_ .f32 := uLossN x.huN
/-- The user side's contrastive loss. -/
def userC : FVec F S_ .f32 := sideLoss x.userA x.userU1 x.userU2

/-- The reference's result: the ranking loss and the averaged contrastive loss. -/
def out : FVec F S2 .f32 := stackOut x.bpr x.bundleC x.userC

end Args

end Cert.ReferenceIdeal.Hand

end
-- ==== Proof.Ref.Read.lean ====
import proofs.«108982_j38147899523261_2_alg».proof.Proof.Ref.StageLemmas
import proofs.«108982_j38147899523261_2_alg».proof.Proof.Ref.Split
import proofs.«108982_j38147899523261_2_alg».proof.Proof.Ref.Args

/-! The reference's result read back, stage by stage.

`R_<buffer>`: between the buffers' FINAL contents (after the whole program, from launch contents `V`) each stage's
equation holds — the stage's output buffer holds the stage function of what its input buffers hold — because the
program assigns every buffer once (`Split.lean`). `read_<buffer>`: each named intermediate of `Args.lean`, and
finally the result `main_v321`, is what its buffer holds after the run, as that function of the launch contents
of the arguments: each follows from its stage's equation and the `read_` facts of the stage's inputs. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local notation "⟪" b "⟫" => (Proc.devRef (τ := τ) (sig := sig) Proc.tc b)
/-! ## Each stage's equation between final contents -/

set_option maxRecDepth 16384 in
/-- After the whole run: the stacked user/item table, as the stage function of the final contents of the stage's inputs. -/
theorem R_v0 (V : Valuation τ sig (Elt F)) :
    after ops V ⟪main_v0⟫ = stackAff (after ops V ⟪main_arg0⟫) (after ops V ⟪main_arg1⟫) := by
  rw [read_out (pre := pre00) (seg := seg00) (post := tail01) cut00 V (fun W => tail01_keep W main_v0 (by decide)),
    seg00_v0,
    read_in (pre := pre00) (seg := seg00) (post := tail01) cut00 V (fun W => tail00_keep W main_arg0 (by decide)),
    read_in (pre := pre00) (seg := seg00) (post := tail01) cut00 V (fun W => tail00_keep W main_arg1 (by decide))]

set_option maxRecDepth 16384 in
/-- After the whole run: the first affinity sparse product, as the stage function of the final contents of the stage's inputs. -/
theorem R_v13 (V : Valuation τ sig (Elt F)) :
    after ops V ⟪main_v13⟫ = spmmAff (after ops V ⟪main_arg9⟫) (after ops V ⟪main_arg10⟫) (after ops V ⟪main_arg4⟫) (stackAff (after ops V ⟪main_arg0⟫) (after ops V ⟪main_arg1⟫)) := by
  rw [read_out (pre := pre00) (seg := seg00) (post := tail01) cut00 V (fun W => tail01_keep W main_v13 (by decide)),
    seg00_v13,
    read_in (pre := pre00) (seg := seg00) (post := tail01) cut00 V (fun W => tail00_keep W main_arg9 (by decide)),
    read_in (pre := pre00) (seg := seg00) (post := tail01) cut00 V (fun W => tail00_keep W main_arg10 (by decide)),
    read_in (pre := pre00) (seg := seg00) (post := tail01) cut00 V (fun W => tail00_keep W main_arg4 (by decide)),
    read_in (pre := pre00) (seg := seg00) (post := tail01) cut00 V (fun W => tail00_keep W main_arg0 (by decide)),
    read_in (pre := pre00) (seg := seg00) (post := tail01) cut00 V (fun W => tail00_keep W main_arg1 (by decide))]

set_option maxRecDepth 16384 in
/-- After the whole run: the first affinity layer's table: the product divided by 2, as the stage function of the final contents of the stage's inputs. -/
theorem R_v15 (V : Valuation τ sig (Elt F)) :
    after ops V ⟪main_v15⟫ = divConst 0x40000000#32 bcast_S_S300000x64 (after ops V ⟪main_v13⟫) := by
  rw [read_out (pre := pre01) (seg := seg01) (post := tail02) cut01 V (fun W => tail02_keep W main_v15 (by decide)),
    seg01_v15,
    read_in (pre := pre01) (seg := seg01) (post := tail02) cut01 V (fun W => tail01_keep W main_v13 (by decide))]

set_option maxRecDepth 16384 in
/-- After the whole run: the accumulator after the first affinity layer, as the stage function of the final contents of the stage's inputs. -/
theorem R_v21 (V : Valuation τ sig (Elt F)) :
    after ops V ⟪main_v21⟫ = addf (after ops V ⟪main_v0⟫) (rowNormalize300000 (divConst 0x40000000#32 bcast_S_S300000x64 (after ops V ⟪main_v13⟫))) := by
  rw [read_out (pre := pre01) (seg := seg01) (post := tail02) cut01 V (fun W => tail02_keep W main_v21 (by decide)),
    seg01_v21,
    read_in (pre := pre01) (seg := seg01) (post := tail02) cut01 V (fun W => tail01_keep W main_v0 (by decide)),
    read_in (pre := pre01) (seg := seg01) (post := tail02) cut01 V (fun W => tail01_keep W main_v13 (by decide))]

set_option maxRecDepth 16384 in
/-- After the whole run: the second affinity sparse product, as the stage function of the final contents of the stage's inputs. -/
theorem R_v34 (V : Valuation τ sig (Elt F)) :
    after ops V ⟪main_v34⟫ = spmmAff (after ops V ⟪main_arg9⟫) (after ops V ⟪main_arg10⟫) (after ops V ⟪main_arg4⟫) (after ops V ⟪main_v15⟫) := by
  rw [read_out (pre := pre02) (seg := seg02) (post := tail03) cut02 V (fun W => tail03_keep W main_v34 (by decide)),
    seg02_v34,
    read_in (pre := pre02) (seg := seg02) (post := tail03) cut02 V (fun W => tail02_keep W main_arg9 (by decide)),
    read_in (pre := pre02) (seg := seg02) (post := tail03) cut02 V (fun W => tail02_keep W main_arg10 (by decide)),
    read_in (pre := pre02) (seg := seg02) (post := tail03) cut02 V (fun W => tail02_keep W main_arg4 (by decide)),
    read_in (pre := pre02) (seg := seg02) (post := tail03) cut02 V (fun W => tail02_keep W main_v15 (by decide))]

set_option maxRecDepth 16384 in
/-- After the whole run: the second affinity layer's table: the product divided by 3, as the stage function of the final contents of the stage's inputs. -/
theorem R_v36 (V : Valuation τ sig (Elt F)) :
    after ops V ⟪main_v36⟫ = divConst 0x40400000#32 bcast_S_S300000x64 (after ops V ⟪main_v34⟫) := by
  rw [read_out (pre := pre03) (seg := seg03) (post := tail04) cut03 V (fun W => tail04_keep W main_v36 (by decide)),
    seg03_v36,
    read_in (pre := pre03) (seg := seg03) (post := tail04) cut03 V (fun W => tail03_keep W main_v34 (by decide))]

set_option maxRecDepth 16384 in
/-- After the whole run: the accumulator after the second affinity layer, as the stage function of the final contents of the stage's inputs. -/
theorem R_v42 (V : Valuation τ sig (Elt F)) :
    after ops V ⟪main_v42⟫ = addf (after ops V ⟪main_v21⟫) (rowNormalize300000 (divConst 0x40400000#32 bcast_S_S300000x64 (after ops V ⟪main_v34⟫))) := by
  rw [read_out (pre := pre03) (seg := seg03) (post := tail04) cut03 V (fun W => tail04_keep W main_v42 (by decide)),
    seg03_v42,
    read_in (pre := pre03) (seg := seg03) (post := tail04) cut03 V (fun W => tail03_keep W main_v21 (by decide)),
    read_in (pre := pre03) (seg := seg03) (post := tail04) cut03 V (fun W => tail03_keep W main_v34 (by decide))]

set_option maxRecDepth 16384 in
/-- After the whole run: the users' rows of the affinity accumulator, as the stage function of the final contents of the stage's inputs. -/
theorem R_v43 (V : Valuation τ sig (Elt F)) :
    after ops V ⟪main_v43⟫ = affUsers (after ops V ⟪main_v42⟫) := by
  rw [read_out (pre := pre04) (seg := seg04) (post := tail05) cut04 V (fun W => tail05_keep W main_v43 (by decide)),
    seg04_v43,
    read_in (pre := pre04) (seg := seg04) (post := tail05) cut04 V (fun W => tail04_keep W main_v42 (by decide))]

set_option maxRecDepth 16384 in
/-- After the whole run: the items' rows of the affinity accumulator, as the stage function of the final contents of the stage's inputs. -/
theorem R_v44 (V : Valuation τ sig (Elt F)) :
    after ops V ⟪main_v44⟫ = affItems (after ops V ⟪main_v42⟫) := by
  rw [read_out (pre := pre04) (seg := seg04) (post := tail05) cut04 V (fun W => tail05_keep W main_v44 (by decide)),
    seg04_v44,
    read_in (pre := pre04) (seg := seg04) (post := tail05) cut04 V (fun W => tail04_keep W main_v42 (by decide))]

set_option maxRecDepth 16384 in
/-- After the whole run: the stacked user/bundle table, as the stage function of the final contents of the stage's inputs. -/
theorem R_v45 (V : Valuation τ sig (Elt F)) :
    after ops V ⟪main_v45⟫ = stackHist (after ops V ⟪main_arg0⟫) (after ops V ⟪main_arg2⟫) := by
  rw [read_out (pre := pre05) (seg := seg05) (post := tail06) cut05 V (fun W => tail06_keep W main_v45 (by decide)),
    seg05_v45,
    read_in (pre := pre05) (seg := seg05) (post := tail06) cut05 V (fun W => tail05_keep W main_arg0 (by decide)),
    read_in (pre := pre05) (seg := seg05) (post := tail06) cut05 V (fun W => tail05_keep W main_arg2 (by decide))]

set_option maxRecDepth 16384 in
/-- After the whole run: the first history sparse product, as the stage function of the final contents of the stage's inputs. -/
theorem R_v58 (V : Valuation τ sig (Elt F)) :
    after ops V ⟪main_v58⟫ = spmmHist (after ops V ⟪main_arg11⟫) (after ops V ⟪main_arg12⟫) (after ops V ⟪main_arg5⟫) (stackHist (after ops V ⟪main_arg0⟫) (after ops V ⟪main_arg2⟫)) := by
  rw [read_out (pre := pre05) (seg := seg05) (post := tail06) cut05 V (fun W => tail06_keep W main_v58 (by decide)),
    seg05_v58,
    read_in (pre := pre05) (seg := seg05) (post := tail06) cut05 V (fun W => tail05_keep W main_arg11 (by decide)),
    read_in (pre := pre05) (seg := seg05) (post := tail06) cut05 V (fun W => tail05_keep W main_arg12 (by decide)),
    read_in (pre := pre05) (seg := seg05) (post := tail06) cut05 V (fun W => tail05_keep W main_arg5 (by decide)),
    read_in (pre := pre05) (seg := seg05) (post := tail06) cut05 V (fun W => tail05_keep W main_arg0 (by decide)),
    read_in (pre := pre05) (seg := seg05) (post := tail06) cut05 V (fun W => tail05_keep W main_arg2 (by decide))]

set_option maxRecDepth 16384 in
/-- After the whole run: the first history layer's table, as the stage function of the final contents of the stage's inputs. -/
theorem R_v60 (V : Valuation τ sig (Elt F)) :
    after ops V ⟪main_v60⟫ = divConst 0x40000000#32 bcast_S_S150000x64 (after ops V ⟪main_v58⟫) := by
  rw [read_out (pre := pre06) (seg := seg06) (post := tail07) cut06 V (fun W => tail07_keep W main_v60 (by decide)),
    seg06_v60,
    read_in (pre := pre06) (seg := seg06) (post := tail07) cut06 V (fun W => tail06_keep W main_v58 (by decide))]

set_option maxRecDepth 16384 in
/-- After the whole run: the accumulator after the first history layer, as the stage function of the final contents of the stage's inputs. -/
theorem R_v66 (V : Valuation τ sig (Elt F)) :
    after ops V ⟪main_v66⟫ = addf (after ops V ⟪main_v45⟫) (rowNormalize150000 (divConst 0x40000000#32 bcast_S_S150000x64 (after ops V ⟪main_v58⟫))) := by
  rw [read_out (pre := pre06) (seg := seg06) (post := tail07) cut06 V (fun W => tail07_keep W main_v66 (by decide)),
    seg06_v66,
    read_in (pre := pre06) (seg := seg06) (post := tail07) cut06 V (fun W => tail06_keep W main_v45 (by decide)),
    read_in (pre := pre06) (seg := seg06) (post := tail07) cut06 V (fun W => tail06_keep W main_v58 (by decide))]

set_option maxRecDepth 16384 in
/-- After the whole run: the second history sparse product, as the stage function of the final contents of the stage's inputs. -/
theorem R_v79 (V : Valuation τ sig (Elt F)) :
    after ops V ⟪main_v79⟫ = spmmHist (after ops V ⟪main_arg11⟫) (after ops V ⟪main_arg12⟫) (after ops V ⟪main_arg5⟫) (after ops V ⟪main_v60⟫) := by
  rw [read_out (pre := pre07) (seg := seg07) (post := tail08) cut07 V (fun W => tail08_keep W main_v79 (by decide)),
    seg07_v79,
    read_in (pre := pre07) (seg := seg07) (post := tail08) cut07 V (fun W => tail07_keep W main_arg11 (by decide)),
    read_in (pre := pre07) (seg := seg07) (post := tail08) cut07 V (fun W => tail07_keep W main_arg12 (by decide)),
    read_in (pre := pre07) (seg := seg07) (post := tail08) cut07 V (fun W => tail07_keep W main_arg5 (by decide)),
    read_in (pre := pre07) (seg := seg07) (post := tail08) cut07 V (fun W => tail07_keep W main_v60 (by decide))]

set_option maxRecDepth 16384 in
/-- After the whole run: the second history layer's table, as the stage function of the final contents of the stage's inputs. -/
theorem R_v81 (V : Valuation τ sig (Elt F)) :
    after ops V ⟪main_v81⟫ = divConst 0x40400000#32 bcast_S_S150000x64 (after ops V ⟪main_v79⟫) := by
  rw [read_out (pre := pre08) (seg := seg08) (post := tail09) cut08 V (fun W => tail09_keep W main_v81 (by decide)),
    seg08_v81,
    read_in (pre := pre08) (seg := seg08) (post := tail09) cut08 V (fun W => tail08_keep W main_v79 (by decide))]

set_option maxRecDepth 16384 in
/-- After the whole run: the accumulator after the second history layer, as the stage function of the final contents of the stage's inputs. -/
theorem R_v87 (V : Valuation τ sig (Elt F)) :
    after ops V ⟪main_v87⟫ = addf (after ops V ⟪main_v66⟫) (rowNormalize150000 (divConst 0x40400000#32 bcast_S_S150000x64 (after ops V ⟪main_v79⟫))) := by
  rw [read_out (pre := pre08) (seg := seg08) (post := tail09) cut08 V (fun W => tail09_keep W main_v87 (by decide)),
    seg08_v87,
    read_in (pre := pre08) (seg := seg08) (post := tail09) cut08 V (fun W => tail08_keep W main_v66 (by decide)),
    read_in (pre := pre08) (seg := seg08) (post := tail09) cut08 V (fun W => tail08_keep W main_v79 (by decide))]

set_option maxRecDepth 16384 in
/-- After the whole run: the users' rows of the history accumulator, as the stage function of the final contents of the stage's inputs. -/
theorem R_v88 (V : Valuation τ sig (Elt F)) :
    after ops V ⟪main_v88⟫ = histUsers (after ops V ⟪main_v87⟫) := by
  rw [read_out (pre := pre09) (seg := seg09) (post := tail10) cut09 V (fun W => tail10_keep W main_v88 (by decide)),
    seg09_v88,
    read_in (pre := pre09) (seg := seg09) (post := tail10) cut09 V (fun W => tail09_keep W main_v87 (by decide))]

set_option maxRecDepth 16384 in
/-- After the whole run: the bundles' rows of the history accumulator, as the stage function of the final contents of the stage's inputs. -/
theorem R_v89 (V : Valuation τ sig (Elt F)) :
    after ops V ⟪main_v89⟫ = histBundles (after ops V ⟪main_v87⟫) := by
  rw [read_out (pre := pre09) (seg := seg09) (post := tail10) cut09 V (fun W => tail10_keep W main_v89 (by decide)),
    seg09_v89,
    read_in (pre := pre09) (seg := seg09) (post := tail10) cut09 V (fun W => tail09_keep W main_v87 (by decide))]

set_option maxRecDepth 16384 in
/-- After the whole run: the bundles' affinity rows, as the stage function of the final contents of the stage's inputs. -/
theorem R_v102 (V : Valuation τ sig (Elt F)) :
    after ops V ⟪main_v102⟫ = spmmAgg (after ops V ⟪main_arg13⟫) (after ops V ⟪main_arg14⟫) (after ops V ⟪main_arg6⟫) (after ops V ⟪main_v44⟫) := by
  rw [read_out (pre := pre10) (seg := seg10) (post := tail11) cut10 V (fun W => tail11_keep W main_v102 (by decide)),
    seg10_v102,
    read_in (pre := pre10) (seg := seg10) (post := tail11) cut10 V (fun W => tail10_keep W main_arg13 (by decide)),
    read_in (pre := pre10) (seg := seg10) (post := tail11) cut10 V (fun W => tail10_keep W main_arg14 (by decide)),
    read_in (pre := pre10) (seg := seg10) (post := tail11) cut10 V (fun W => tail10_keep W main_arg6 (by decide)),
    read_in (pre := pre10) (seg := seg10) (post := tail11) cut10 V (fun W => tail10_keep W main_v44 (by decide))]

set_option maxRecDepth 16384 in
/-- After the whole run: the batch's affinity bundle rows, as the stage function of the final contents of the stage's inputs. -/
theorem R_v109 (V : Valuation τ sig (Elt F)) :
    after ops V ⟪main_v109⟫ = gatherBundleRows (after ops V ⟪main_v102⟫) (after ops V ⟪main_arg8⟫) := by
  rw [read_out (pre := pre11) (seg := seg11) (post := tail12) cut11 V (fun W => tail12_keep W main_v109 (by decide)),
    seg11_v109,
    read_in (pre := pre11) (seg := seg11) (post := tail12) cut11 V (fun W => tail11_keep W main_v102 (by decide)),
    read_in (pre := pre11) (seg := seg11) (post := tail12) cut11 V (fun W => tail11_keep W main_arg8 (by decide))]

set_option maxRecDepth 16384 in
/-- After the whole run: the batch's history bundle rows, as the stage function of the final contents of the stage's inputs. -/
theorem R_v116 (V : Valuation τ sig (Elt F)) :
    after ops V ⟪main_v116⟫ = gatherBundleRows (after ops V ⟪main_v89⟫) (after ops V ⟪main_arg8⟫) := by
  rw [read_out (pre := pre12) (seg := seg12) (post := tail13) cut12 V (fun W => tail13_keep W main_v116 (by decide)),
    seg12_v116,
    read_in (pre := pre12) (seg := seg12) (post := tail13) cut12 V (fun W => tail12_keep W main_v89 (by decide)),
    read_in (pre := pre12) (seg := seg12) (post := tail13) cut12 V (fun W => tail12_keep W main_arg8 (by decide))]

set_option maxRecDepth 16384 in
/-- After the whole run: the batch's mixing weights, as the stage function of the final contents of the stage's inputs. -/
theorem R_v126 (V : Valuation τ sig (Elt F)) :
    after ops V ⟪main_v126⟫ = gammaOf (after ops V ⟪main_arg3⟫) (after ops V ⟪main_arg8⟫) := by
  rw [read_out (pre := pre13) (seg := seg13) (post := tail14) cut13 V (fun W => tail14_keep W main_v126 (by decide)),
    seg13_v126,
    read_in (pre := pre13) (seg := seg13) (post := tail14) cut13 V (fun W => tail13_keep W main_arg3 (by decide)),
    read_in (pre := pre13) (seg := seg13) (post := tail14) cut13 V (fun W => tail13_keep W main_arg8 (by decide))]

set_option maxRecDepth 16384 in
/-- After the whole run: the batch's scores, as the stage function of the final contents of the stage's inputs. -/
theorem R_v139 (V : Valuation τ sig (Elt F)) :
    after ops V ⟪main_v139⟫ = predOf (after ops V ⟪main_v109⟫) (after ops V ⟪main_v116⟫) (after ops V ⟪main_v126⟫) := by
  rw [read_out (pre := pre14) (seg := seg14) (post := tail15) cut14 V (fun W => tail15_keep W main_v139 (by decide)),
    seg14_v139,
    read_in (pre := pre14) (seg := seg14) (post := tail15) cut14 V (fun W => tail14_keep W main_v109 (by decide)),
    read_in (pre := pre14) (seg := seg14) (post := tail15) cut14 V (fun W => tail14_keep W main_v116 (by decide)),
    read_in (pre := pre14) (seg := seg14) (post := tail15) cut14 V (fun W => tail14_keep W main_v126 (by decide))]

set_option maxRecDepth 16384 in
/-- After the whole run: the ranking loss, as the stage function of the final contents of the stage's inputs. -/
theorem R_v148 (V : Valuation τ sig (Elt F)) :
    after ops V ⟪main_v148⟫ = bprLoss (after ops V ⟪main_v139⟫) := by
  rw [read_out (pre := pre15) (seg := seg15) (post := tail16) cut15 V (fun W => tail16_keep W main_v148 (by decide)),
    seg15_v148,
    read_in (pre := pre15) (seg := seg15) (post := tail16) cut15 V (fun W => tail15_keep W main_v139 (by decide))]

set_option maxRecDepth 16384 in
/-- After the whole run: the positive bundles' affinity rows, as the stage function of the final contents of the stage's inputs. -/
theorem R_v150 (V : Valuation τ sig (Elt F)) :
    after ops V ⟪main_v150⟫ = firstCol (after ops V ⟪main_v109⟫) := by
  rw [read_out (pre := pre16) (seg := seg16) (post := tail17) cut16 V (fun W => tail17_keep W main_v150 (by decide)),
    seg16_v150,
    read_in (pre := pre16) (seg := seg16) (post := tail17) cut16 V (fun W => tail16_keep W main_v109 (by decide))]

set_option maxRecDepth 16384 in
/-- After the whole run: the positive bundles' history rows, as the stage function of the final contents of the stage's inputs. -/
theorem R_v152 (V : Valuation τ sig (Elt F)) :
    after ops V ⟪main_v152⟫ = firstCol (after ops V ⟪main_v116⟫) := by
  rw [read_out (pre := pre16) (seg := seg16) (post := tail17) cut16 V (fun W => tail17_keep W main_v152 (by decide)),
    seg16_v152,
    read_in (pre := pre16) (seg := seg16) (post := tail17) cut16 V (fun W => tail16_keep W main_v116 (by decide))]

set_option maxRecDepth 16384 in
/-- After the whole run: the bundle side's alignment loss, as the stage function of the final contents of the stage's inputs. -/
theorem R_v167 (V : Valuation τ sig (Elt F)) :
    after ops V ⟪main_v167⟫ = aLoss (after ops V ⟪main_v150⟫) (after ops V ⟪main_v152⟫) := by
  rw [read_out (pre := pre17) (seg := seg17) (post := tail18) cut17 V (fun W => tail18_keep W main_v167 (by decide)),
    seg17_v167,
    read_in (pre := pre17) (seg := seg17) (post := tail18) cut17 V (fun W => tail17_keep W main_v150 (by decide)),
    read_in (pre := pre17) (seg := seg17) (post := tail18) cut17 V (fun W => tail17_keep W main_v152 (by decide))]

set_option maxRecDepth 16384 in
/-- After the whole run: the positive bundles' affinity rows, normalised, as the stage function of the final contents of the stage's inputs. -/
theorem R_v172 (V : Valuation τ sig (Elt F)) :
    after ops V ⟪main_v172⟫ = rowNormalize2048 (after ops V ⟪main_v150⟫) := by
  rw [read_out (pre := pre18) (seg := seg18) (post := tail19) cut18 V (fun W => tail19_keep W main_v172 (by decide)),
    seg18_v172,
    read_in (pre := pre18) (seg := seg18) (post := tail19) cut18 V (fun W => tail18_keep W main_v150 (by decide))]

set_option maxRecDepth 16384 in
/-- After the whole run: the uniformity loss of the positive bundles' affinity rows, as the stage function of the final contents of the stage's inputs. -/
theorem R_v195 (V : Valuation τ sig (Elt F)) :
    after ops V ⟪main_v195⟫ = uLossN (after ops V ⟪main_v172⟫) := by
  rw [read_out (pre := pre19) (seg := seg19) (post := tail20) cut19 V (fun W => tail20_keep W main_v195 (by decide)),
    seg19_v195,
    read_in (pre := pre19) (seg := seg19) (post := tail20) cut19 V (fun W => tail19_keep W main_v172 (by decide))]

set_option maxRecDepth 16384 in
/-- After the whole run: the positive bundles' history rows, normalised, as the stage function of the final contents of the stage's inputs. -/
theorem R_v200 (V : Valuation τ sig (Elt F)) :
    after ops V ⟪main_v200⟫ = rowNormalize2048 (after ops V ⟪main_v152⟫) := by
  rw [read_out (pre := pre20) (seg := seg20) (post := tail21) cut20 V (fun W => tail21_keep W main_v200 (by decide)),
    seg20_v200,
    read_in (pre := pre20) (seg := seg20) (post := tail21) cut20 V (fun W => tail20_keep W main_v152 (by decide))]

set_option maxRecDepth 16384 in
/-- After the whole run: the uniformity loss of the positive bundles' history rows, as the stage function of the final contents of the stage's inputs. -/
theorem R_v223 (V : Valuation τ sig (Elt F)) :
    after ops V ⟪main_v223⟫ = uLossN (after ops V ⟪main_v200⟫) := by
  rw [read_out (pre := pre21) (seg := seg21) (post := tail22) cut21 V (fun W => tail22_keep W main_v223 (by decide)),
    seg21_v223,
    read_in (pre := pre21) (seg := seg21) (post := tail22) cut21 V (fun W => tail21_keep W main_v200 (by decide))]

set_option maxRecDepth 16384 in
/-- After the whole run: the bundle side's contrastive loss, as the stage function of the final contents of the stage's inputs. -/
theorem R_v226 (V : Valuation τ sig (Elt F)) :
    after ops V ⟪main_v226⟫ = sideLoss (after ops V ⟪main_v167⟫) (after ops V ⟪main_v195⟫) (after ops V ⟪main_v223⟫) := by
  rw [read_out (pre := pre22) (seg := seg22) (post := tail23) cut22 V (fun W => tail23_keep W main_v226 (by decide)),
    seg22_v226,
    read_in (pre := pre22) (seg := seg22) (post := tail23) cut22 V (fun W => tail22_keep W main_v167 (by decide)),
    read_in (pre := pre22) (seg := seg22) (post := tail23) cut22 V (fun W => tail22_keep W main_v195 (by decide)),
    read_in (pre := pre22) (seg := seg22) (post := tail23) cut22 V (fun W => tail22_keep W main_v223 (by decide))]

set_option maxRecDepth 16384 in
/-- After the whole run: the batch's affinity user rows, as the stage function of the final contents of the stage's inputs. -/
theorem R_v234 (V : Valuation τ sig (Elt F)) :
    after ops V ⟪main_v234⟫ = gatherUserRows (after ops V ⟪main_v43⟫) (after ops V ⟪main_arg7⟫) := by
  rw [read_out (pre := pre23) (seg := seg23) (post := tail24) cut23 V (fun W => tail24_keep W main_v234 (by decide)),
    seg23_v234,
    read_in (pre := pre23) (seg := seg23) (post := tail24) cut23 V (fun W => tail23_keep W main_v43 (by decide)),
    read_in (pre := pre23) (seg := seg23) (post := tail24) cut23 V (fun W => tail23_keep W main_arg7 (by decide))]

set_option maxRecDepth 16384 in
/-- After the whole run: the batch's history user rows, as the stage function of the final contents of the stage's inputs. -/
theorem R_v242 (V : Valuation τ sig (Elt F)) :
    after ops V ⟪main_v242⟫ = gatherUserRows (after ops V ⟪main_v88⟫) (after ops V ⟪main_arg7⟫) := by
  rw [read_out (pre := pre24) (seg := seg24) (post := tail25) cut24 V (fun W => tail25_keep W main_v242 (by decide)),
    seg24_v242,
    read_in (pre := pre24) (seg := seg24) (post := tail25) cut24 V (fun W => tail24_keep W main_v88 (by decide)),
    read_in (pre := pre24) (seg := seg24) (post := tail25) cut24 V (fun W => tail24_keep W main_arg7 (by decide))]

set_option maxRecDepth 16384 in
/-- After the whole run: the user side's alignment loss, as the stage function of the final contents of the stage's inputs. -/
theorem R_v257 (V : Valuation τ sig (Elt F)) :
    after ops V ⟪main_v257⟫ = aLoss (after ops V ⟪main_v234⟫) (after ops V ⟪main_v242⟫) := by
  rw [read_out (pre := pre25) (seg := seg25) (post := tail26) cut25 V (fun W => tail26_keep W main_v257 (by decide)),
    seg25_v257,
    read_in (pre := pre25) (seg := seg25) (post := tail26) cut25 V (fun W => tail25_keep W main_v234 (by decide)),
    read_in (pre := pre25) (seg := seg25) (post := tail26) cut25 V (fun W => tail25_keep W main_v242 (by decide))]

set_option maxRecDepth 16384 in
/-- After the whole run: the batch's affinity user rows, normalised, as the stage function of the final contents of the stage's inputs. -/
theorem R_v262 (V : Valuation τ sig (Elt F)) :
    after ops V ⟪main_v262⟫ = rowNormalize2048 (after ops V ⟪main_v234⟫) := by
  rw [read_out (pre := pre26) (seg := seg26) (post := tail27) cut26 V (fun W => tail27_keep W main_v262 (by decide)),
    seg26_v262,
    read_in (pre := pre26) (seg := seg26) (post := tail27) cut26 V (fun W => tail26_keep W main_v234 (by decide))]

set_option maxRecDepth 16384 in
/-- After the whole run: the uniformity loss of the batch's affinity user rows, as the stage function of the final contents of the stage's inputs. -/
theorem R_v285 (V : Valuation τ sig (Elt F)) :
    after ops V ⟪main_v285⟫ = uLossN (after ops V ⟪main_v262⟫) := by
  rw [read_out (pre := pre27) (seg := seg27) (post := tail28) cut27 V (fun W => tail28_keep W main_v285 (by decide)),
    seg27_v285,
    read_in (pre := pre27) (seg := seg27) (post := tail28) cut27 V (fun W => tail27_keep W main_v262 (by decide))]

set_option maxRecDepth 16384 in
/-- After the whole run: the batch's history user rows, normalised, as the stage function of the final contents of the stage's inputs. -/
theorem R_v290 (V : Valuation τ sig (Elt F)) :
    after ops V ⟪main_v290⟫ = rowNormalize2048 (after ops V ⟪main_v242⟫) := by
  rw [read_out (pre := pre28) (seg := seg28) (post := tail29) cut28 V (fun W => tail29_keep W main_v290 (by decide)),
    seg28_v290,
    read_in (pre := pre28) (seg := seg28) (post := tail29) cut28 V (fun W => tail28_keep W main_v242 (by decide))]

set_option maxRecDepth 16384 in
/-- After the whole run: the uniformity loss of the batch's history user rows, as the stage function of the final contents of the stage's inputs. -/
theorem R_v313 (V : Valuation τ sig (Elt F)) :
    after ops V ⟪main_v313⟫ = uLossN (after ops V ⟪main_v290⟫) := by
  rw [read_out (pre := pre29) (seg := seg29) (post := tail30) cut29 V (fun W => tail30_keep W main_v313 (by decide)),
    seg29_v313,
    read_in (pre := pre29) (seg := seg29) (post := tail30) cut29 V (fun W => tail29_keep W main_v290 (by decide))]

set_option maxRecDepth 16384 in
/-- After the whole run: the result, as the stage function of the final contents of the stage's inputs. -/
theorem R_v321 (V : Valuation τ sig (Elt F)) :
    after ops V ⟪main_v321⟫ = stackOut (after ops V ⟪main_v148⟫) (after ops V ⟪main_v226⟫) (sideLoss (after ops V ⟪main_v257⟫) (after ops V ⟪main_v285⟫) (after ops V ⟪main_v313⟫)) := by
  rw [read_out_last cut30 V ⟪main_v321⟫,
    seg30_v321,
    read_in_last cut30 V (fun W => tail30_keep W main_v148 (by decide)),
    read_in_last cut30 V (fun W => tail30_keep W main_v226 (by decide)),
    read_in_last cut30 V (fun W => tail30_keep W main_v257 (by decide)),
    read_in_last cut30 V (fun W => tail30_keep W main_v285 (by decide)),
    read_in_last cut30 V (fun W => tail30_keep W main_v313 (by decide))]

/-! ## Every named intermediate, and the result, as that function of the arguments -/

/-- After the whole run, `main_v0` holds the stacked user/item table, as a function of the arguments' launch contents. -/
theorem read_v0 (V : Valuation τ sig (Elt F)) : after ops V ⟪main_v0⟫ = (argsOf V).affTable0 := by
  rw [R_v0, after_main_arg0, after_main_arg1]
  rfl

/-- After the whole run, `main_v13` holds the first affinity sparse product, as a function of the arguments' launch contents. -/
theorem read_v13 (V : Valuation τ sig (Elt F)) : after ops V ⟪main_v13⟫ = (argsOf V).affProp1 := by
  rw [R_v13, after_main_arg9, after_main_arg10, after_main_arg4, after_main_arg0, after_main_arg1]
  rfl

/-- After the whole run, `main_v15` holds the first affinity layer's table: the product divided by 2, as a function of the arguments' launch contents. -/
theorem read_v15 (V : Valuation τ sig (Elt F)) : after ops V ⟪main_v15⟫ = (argsOf V).affLayer1 := by
  rw [R_v15, read_v13]
  rfl

/-- After the whole run, `main_v21` holds the accumulator after the first affinity layer, as a function of the arguments' launch contents. -/
theorem read_v21 (V : Valuation τ sig (Elt F)) : after ops V ⟪main_v21⟫ = (argsOf V).affAcc1 := by
  rw [R_v21, read_v0, read_v13]
  rfl

/-- After the whole run, `main_v34` holds the second affinity sparse product, as a function of the arguments' launch contents. -/
theorem read_v34 (V : Valuation τ sig (Elt F)) : after ops V ⟪main_v34⟫ = (argsOf V).affProp2 := by
  rw [R_v34, after_main_arg9, after_main_arg10, after_main_arg4, read_v15]
  rfl

/-- After the whole run, `main_v36` holds the second affinity layer's table: the product divided by 3, as a function of the arguments' launch contents. -/
theorem read_v36 (V : Valuation τ sig (Elt F)) : after ops V ⟪main_v36⟫ = (argsOf V).affLayer2 := by
  rw [R_v36, read_v34]
  rfl

/-- After the whole run, `main_v42` holds the accumulator after the second affinity layer, as a function of the arguments' launch contents. -/
theorem read_v42 (V : Valuation τ sig (Elt F)) : after ops V ⟪main_v42⟫ = (argsOf V).affAcc2 := by
  rw [R_v42, read_v21, read_v34]
  rfl

/-- After the whole run, `main_v43` holds the users' rows of the affinity accumulator, as a function of the arguments' launch contents. -/
theorem read_v43 (V : Valuation τ sig (Elt F)) : after ops V ⟪main_v43⟫ = (argsOf V).affU := by
  rw [R_v43, read_v42]
  rfl

/-- After the whole run, `main_v44` holds the items' rows of the affinity accumulator, as a function of the arguments' launch contents. -/
theorem read_v44 (V : Valuation τ sig (Elt F)) : after ops V ⟪main_v44⟫ = (argsOf V).affI := by
  rw [R_v44, read_v42]
  rfl

/-- After the whole run, `main_v45` holds the stacked user/bundle table, as a function of the arguments' launch contents. -/
theorem read_v45 (V : Valuation τ sig (Elt F)) : after ops V ⟪main_v45⟫ = (argsOf V).histTable0 := by
  rw [R_v45, after_main_arg0, after_main_arg2]
  rfl

/-- After the whole run, `main_v58` holds the first history sparse product, as a function of the arguments' launch contents. -/
theorem read_v58 (V : Valuation τ sig (Elt F)) : after ops V ⟪main_v58⟫ = (argsOf V).histProp1 := by
  rw [R_v58, after_main_arg11, after_main_arg12, after_main_arg5, after_main_arg0, after_main_arg2]
  rfl

/-- After the whole run, `main_v60` holds the first history layer's table, as a function of the arguments' launch contents. -/
theorem read_v60 (V : Valuation τ sig (Elt F)) : after ops V ⟪main_v60⟫ = (argsOf V).histLayer1 := by
  rw [R_v60, read_v58]
  rfl

/-- After the whole run, `main_v66` holds the accumulator after the first history layer, as a function of the arguments' launch contents. -/
theorem read_v66 (V : Valuation τ sig (Elt F)) : after ops V ⟪main_v66⟫ = (argsOf V).histAcc1 := by
  rw [R_v66, read_v45, read_v58]
  rfl

/-- After the whole run, `main_v79` holds the second history sparse product, as a function of the arguments' launch contents. -/
theorem read_v79 (V : Valuation τ sig (Elt F)) : after ops V ⟪main_v79⟫ = (argsOf V).histProp2 := by
  rw [R_v79, after_main_arg11, after_main_arg12, after_main_arg5, read_v60]
  rfl

/-- After the whole run, `main_v81` holds the second history layer's table, as a function of the arguments' launch contents. -/
theorem read_v81 (V : Valuation τ sig (Elt F)) : after ops V ⟪main_v81⟫ = (argsOf V).histLayer2 := by
  rw [R_v81, read_v79]
  rfl

/-- After the whole run, `main_v87` holds the accumulator after the second history layer, as a function of the arguments' launch contents. -/
theorem read_v87 (V : Valuation τ sig (Elt F)) : after ops V ⟪main_v87⟫ = (argsOf V).histAcc2 := by
  rw [R_v87, read_v66, read_v79]
  rfl

/-- After the whole run, `main_v88` holds the users' rows of the history accumulator, as a function of the arguments' launch contents. -/
theorem read_v88 (V : Valuation τ sig (Elt F)) : after ops V ⟪main_v88⟫ = (argsOf V).histU := by
  rw [R_v88, read_v87]
  rfl

/-- After the whole run, `main_v89` holds the bundles' rows of the history accumulator, as a function of the arguments' launch contents. -/
theorem read_v89 (V : Valuation τ sig (Elt F)) : after ops V ⟪main_v89⟫ = (argsOf V).histB := by
  rw [R_v89, read_v87]
  rfl

/-- After the whole run, `main_v102` holds the bundles' affinity rows, as a function of the arguments' launch contents. -/
theorem read_v102 (V : Valuation τ sig (Elt F)) : after ops V ⟪main_v102⟫ = (argsOf V).affB := by
  rw [R_v102, after_main_arg13, after_main_arg14, after_main_arg6, read_v44]
  rfl

/-- After the whole run, `main_v109` holds the batch's affinity bundle rows, as a function of the arguments' launch contents. -/
theorem read_v109 (V : Valuation τ sig (Elt F)) : after ops V ⟪main_v109⟫ = (argsOf V).affBe := by
  rw [R_v109, read_v102, after_main_arg8]
  rfl

/-- After the whole run, `main_v116` holds the batch's history bundle rows, as a function of the arguments' launch contents. -/
theorem read_v116 (V : Valuation τ sig (Elt F)) : after ops V ⟪main_v116⟫ = (argsOf V).histBe := by
  rw [R_v116, read_v89, after_main_arg8]
  rfl

/-- After the whole run, `main_v126` holds the batch's mixing weights, as a function of the arguments' launch contents. -/
theorem read_v126 (V : Valuation τ sig (Elt F)) : after ops V ⟪main_v126⟫ = (argsOf V).gamma := by
  rw [R_v126, after_main_arg3, after_main_arg8]
  rfl

/-- After the whole run, `main_v139` holds the batch's scores, as a function of the arguments' launch contents. -/
theorem read_v139 (V : Valuation τ sig (Elt F)) : after ops V ⟪main_v139⟫ = (argsOf V).pred := by
  rw [R_v139, read_v109, read_v116, read_v126]
  rfl

/-- After the whole run, `main_v148` holds the ranking loss, as a function of the arguments' launch contents. -/
theorem read_v148 (V : Valuation τ sig (Elt F)) : after ops V ⟪main_v148⟫ = (argsOf V).bpr := by
  rw [R_v148, read_v139]
  rfl

/-- After the whole run, `main_v150` holds the positive bundles' affinity rows, as a function of the arguments' launch contents. -/
theorem read_v150 (V : Valuation τ sig (Elt F)) : after ops V ⟪main_v150⟫ = (argsOf V).ab := by
  rw [R_v150, read_v109]
  rfl

/-- After the whole run, `main_v152` holds the positive bundles' history rows, as a function of the arguments' launch contents. -/
theorem read_v152 (V : Valuation τ sig (Elt F)) : after ops V ⟪main_v152⟫ = (argsOf V).hb := by
  rw [R_v152, read_v116]
  rfl

/-- After the whole run, `main_v167` holds the bundle side's alignment loss, as a function of the arguments' launch contents. -/
theorem read_v167 (V : Valuation τ sig (Elt F)) : after ops V ⟪main_v167⟫ = (argsOf V).bundleA := by
  rw [R_v167, read_v150, read_v152]
  rfl

/-- After the whole run, `main_v172` holds the positive bundles' affinity rows, normalised, as a function of the arguments' launch contents. -/
theorem read_v172 (V : Valuation τ sig (Elt F)) : after ops V ⟪main_v172⟫ = (argsOf V).abN := by
  rw [R_v172, read_v150]
  rfl

/-- After the whole run, `main_v195` holds the uniformity loss of the positive bundles' affinity rows, as a function of the arguments' launch contents. -/
theorem read_v195 (V : Valuation τ sig (Elt F)) : after ops V ⟪main_v195⟫ = (argsOf V).bundleU1 := by
  rw [R_v195, read_v172]
  rfl

/-- After the whole run, `main_v200` holds the positive bundles' history rows, normalised, as a function of the arguments' launch contents. -/
theorem read_v200 (V : Valuation τ sig (Elt F)) : after ops V ⟪main_v200⟫ = (argsOf V).hbN := by
  rw [R_v200, read_v152]
  rfl

/-- After the whole run, `main_v223` holds the uniformity loss of the positive bundles' history rows, as a function of the arguments' launch contents. -/
theorem read_v223 (V : Valuation τ sig (Elt F)) : after ops V ⟪main_v223⟫ = (argsOf V).bundleU2 := by
  rw [R_v223, read_v200]
  rfl

/-- After the whole run, `main_v226` holds the bundle side's contrastive loss, as a function of the arguments' launch contents. -/
theorem read_v226 (V : Valuation τ sig (Elt F)) : after ops V ⟪main_v226⟫ = (argsOf V).bundleC := by
  rw [R_v226, read_v167, read_v195, read_v223]
  rfl

/-- After the whole run, `main_v234` holds the batch's affinity user rows, as a function of the arguments' launch contents. -/
theorem read_v234 (V : Valuation τ sig (Elt F)) : after ops V ⟪main_v234⟫ = (argsOf V).au := by
  rw [R_v234, read_v43, after_main_arg7]
  rfl

/-- After the whole run, `main_v242` holds the batch's history user rows, as a function of the arguments' launch contents. -/
theorem read_v242 (V : Valuation τ sig (Elt F)) : after ops V ⟪main_v242⟫ = (argsOf V).hu := by
  rw [R_v242, read_v88, after_main_arg7]
  rfl

/-- After the whole run, `main_v257` holds the user side's alignment loss, as a function of the arguments' launch contents. -/
theorem read_v257 (V : Valuation τ sig (Elt F)) : after ops V ⟪main_v257⟫ = (argsOf V).userA := by
  rw [R_v257, read_v234, read_v242]
  rfl

/-- After the whole run, `main_v262` holds the batch's affinity user rows, normalised, as a function of the arguments' launch contents. -/
theorem read_v262 (V : Valuation τ sig (Elt F)) : after ops V ⟪main_v262⟫ = (argsOf V).auN := by
  rw [R_v262, read_v234]
  rfl

/-- After the whole run, `main_v285` holds the uniformity loss of the batch's affinity user rows, as a function of the arguments' launch contents. -/
theorem read_v285 (V : Valuation τ sig (Elt F)) : after ops V ⟪main_v285⟫ = (argsOf V).userU1 := by
  rw [R_v285, read_v262]
  rfl

/-- After the whole run, `main_v290` holds the batch's history user rows, normalised, as a function of the arguments' launch contents. -/
theorem read_v290 (V : Valuation τ sig (Elt F)) : after ops V ⟪main_v290⟫ = (argsOf V).huN := by
  rw [R_v290, read_v242]
  rfl

/-- After the whole run, `main_v313` holds the uniformity loss of the batch's history user rows, as a function of the arguments' launch contents. -/
theorem read_v313 (V : Valuation τ sig (Elt F)) : after ops V ⟪main_v313⟫ = (argsOf V).userU2 := by
  rw [R_v313, read_v290]
  rfl

/-- After the whole run, `main_v321` holds the result, as a function of the arguments' launch contents. -/
theorem read_v321 (V : Valuation τ sig (Elt F)) : after ops V ⟪main_v321⟫ = (argsOf V).out := by
  rw [R_v321, read_v148, read_v226, read_v257, read_v285, read_v313]
  rfl

/-- The reference's result is `Args.out` of the arguments' launch contents. -/
theorem read_out_main (V : Valuation τ sig (Elt F)) : after ops V ⟪main_v321⟫ = (argsOf V).out := read_v321 V

end Cert.ReferenceIdeal.Hand

end
-- ==== Proof.Ref.Value.lean ====
import proofs.«108982_j38147899523261_2_alg».proof.Proof.Ref.Read

/-! The reference's run with its result read back.

`run_value`: from any memory with zero counters, every weakly fair execution of the reference's `@main` terminates
without fault; on every device the result buffer `main_v321` then holds `Args.out` of the argument arrays the
device was launched with — the composition of the stage functions that `Args.lean` spells out — and the
fifteen argument arrays are as launched. It is `run_fold` (the final memory is the operations' fold over the
launch memory) read at the result buffer by `read_out_main` and at each argument by `after_main_arg<K>`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local notation "⟪" b "⟫" => (Proc.devRef (τ := τ) (sig := sig) Proc.tc b)

/-- The reference terminates with its result at `Args.out` of the launch contents of its arguments, and its
    arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v321) = (argsOf (launchContents m c)).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    ⟨(h c main_v321).trans (read_out_main _),
     (h c main_arg0).trans (after_main_arg0 _),
     (h c main_arg1).trans (after_main_arg1 _),
     (h c main_arg2).trans (after_main_arg2 _),
     (h c main_arg3).trans (after_main_arg3 _),
     (h c main_arg4).trans (after_main_arg4 _),
     (h c main_arg5).trans (after_main_arg5 _),
     (h c main_arg6).trans (after_main_arg6 _),
     (h c main_arg7).trans (after_main_arg7 _),
     (h c main_arg8).trans (after_main_arg8 _),
     (h c main_arg9).trans (after_main_arg9 _),
     (h c main_arg10).trans (after_main_arg10 _),
     (h c main_arg11).trans (after_main_arg11 _),
     (h c main_arg12).trans (after_main_arg12 _),
     (h c main_arg13).trans (after_main_arg13 _),
     (h c main_arg14).trans (after_main_arg14 _)⟩)
    (run_fold m ρ)

end Cert.ReferenceIdeal.Hand

end
-- ==== Proof.KV.StretchA.lean ====
import proofs.«108982_j38147899523261_2_alg».proof.Proof.Gen.KernelIdeal.Launch
import proofs.«108982_j38147899523261_2_alg».proof.Proof.Ref.Stages
import Idealize.ShloMosaic.Lib.StableHlo.Run

/-! The host stretches around the four layer-update kernels, read as stages.

The kernel program propagates the stacked user/item table and the stacked user/bundle table through two layers
each. Around every layer-update kernel its host side forms the sparse product of the graph with the current table and
re-reads the product and the accumulator row-major as 128-wide rows (two 64-wide rows per row) for the kernel, and
re-reads the kernel's results as 64-wide rows afterwards. Each lemma says what one buffer holds after a stretch, as
a stage function of what the stretch's input buffers held before it, for any contents of the buffers. -/

noncomputable section

namespace Cert.KernelIdeal.Value

open Cert.KernelIdeal Cert.KernelIdeal.Gen Idealize.ShloMosaic Idealize.ShloMosaic.TcCoe Idealize.SL.Sem Idealize.ShloMosaic.StableHlo
open Cert.ReferenceIdeal.Hand (wrapIdx stackAff stackHist spmmAff spmmHist spmmAgg affUsers affItems histUsers histBundles gatherBundleRows)

variable {F : FTy → Type} [FloatOps F] [Named F]
variable (W : Valuation τ sig (Elt F))

/-! ## Before the first kernel: the affinity view's first sparse product -/

/-- The first sparse product of the user-item graph, as 128-wide rows. -/
theorem stretch0_v14 : after main_part0_ops0 W main_v14
    = shapeCast S150000x128 (spmmAff (W main_arg9) (W main_arg10) (W main_arg4) (stackAff (W main_arg0) (W main_arg1)))
        shapeCasts_S300000x64_S150000x128 := by
  after_results_simp
  rfl

/-- The stacked user/item table, the accumulator's start, as 128-wide rows. -/
theorem stretch0_v15 : after main_part0_ops0 W main_v15
    = shapeCast S150000x128 (stackAff (W main_arg0) (W main_arg1)) shapeCasts_S300000x64_S150000x128 := by
  after_results_simp
  rfl

/-! ## Between the first and the second kernel: the second sparse product, of the first layer's table -/

/-- The second sparse product of the user-item graph, of the first kernel's table read as 64-wide rows. -/
theorem stretch2_v32 : after main_part0_ops1 W main_v32
    = shapeCast S150000x128 (spmmAff (W main_arg9) (W main_arg10) (W main_arg4)
        (shapeCast S300000x64 (W main_v16_0) shapeCasts_S150000x128_S300000x64)) shapeCasts_S300000x64_S150000x128 := by
  after_results_simp
  rfl

/-- The first kernel's accumulator, read as 64-wide rows and back as 128-wide rows. -/
theorem stretch2_v33 : after main_part0_ops1 W main_v33
    = shapeCast S150000x128 (shapeCast S300000x64 (W main_v16_1) shapeCasts_S150000x128_S300000x64)
        shapeCasts_S300000x64_S150000x128 := by
  after_results_simp
  rfl

/-! ## After the second kernel: the affinity view's rows, and the history view's first product begun -/

/-- The users' rows of the second kernel's accumulator. -/
theorem stretch4_v36 : after main_part0_ops2 W main_v36
    = affUsers (shapeCast S300000x64 (W main_v34) shapeCasts_S150000x128_S300000x64) := by
  after_results_simp
  rfl

/-- The items' rows of the second kernel's accumulator. -/
theorem stretch4_v37 : after main_part0_ops2 W main_v37
    = affItems (shapeCast S300000x64 (W main_v34) shapeCasts_S150000x128_S300000x64) := by
  after_results_simp
  rfl

/-- The stacked user/bundle table. -/
theorem stretch4_v38 : after main_part0_ops2 W main_v38 = stackHist (W main_arg0) (W main_arg2) := by
  after_results_simp
  rfl

/-- The user-bundle graph's scaled gathered rows: each edge's value times the row its column names. -/
theorem stretch4_v48 : after main_part0_ops2 W main_v48
    = mulf (broadcastInDim S1000000x64 ![0, 1] bcast_S1000000x1_S1000000x64_0_1 (broadcastInDim S1000000x1 ![0] bcast_S1000000_S1000000x1_0 (W main_arg5)))
        (Host.gather gather_S150000x64_S1000000x1_S1000000x64_1_0_n_n_0_1_164 (stackHist (W main_arg0) (W main_arg2))
          (broadcastInDim S1000000x1 ![0] bcast_S1000000_S1000000x1_0 (wrapIdx 150000#32 bcast_S_S1000000 (W main_arg12)))) := by
  after_results_simp
  rfl

/-- The table of zeros the scaled rows are summed into. -/
theorem stretch4_v49 : after main_part0_ops2 W main_v49
    = broadcastInDim S150000x64 ![] bcast_S_S150000x64 (constant S_ .f32 0x00000000#32) := by
  after_results_simp

/-- The user-bundle graph's edge rows, as scatter indices. -/
theorem stretch4_v50 : after main_part0_ops2 W main_v50
    = broadcastInDim S1000000x1 ![0] bcast_S1000000_S1000000x1_0 (W main_arg11) := by
  after_results_simp

/-! ## Before the third kernel: the history view's first sparse product finished -/

/-- The scaled rows summed into the rows the edges name, as 128-wide rows. -/
theorem stretch5_v52 : after main_part1_ops0 W main_v52
    = shapeCast S75000x128 (Host.scatterAdd scatter_S150000x64_S1000000x1_S1000000x64_1_0_0_1 (W main_v49) (W main_v50) (W main_v48))
        shapeCasts_S150000x64_S75000x128 := by
  after_results_simp
  rfl

/-- The stacked user/bundle table, the accumulator's start, as 128-wide rows. -/
theorem stretch5_v53 : after main_part1_ops0 W main_v53
    = shapeCast S75000x128 (W main_v38) shapeCasts_S150000x64_S75000x128 := by
  after_results_simp
  rfl

/-! ## Between the third and the fourth kernel -/

/-- The second sparse product of the user-bundle graph, of the third kernel's table read as 64-wide rows. -/
theorem stretch7_v70 : after main_part1_ops1 W main_v70
    = shapeCast S75000x128 (spmmHist (W main_arg11) (W main_arg12) (W main_arg5)
        (shapeCast S150000x64 (W main_v54_0) shapeCasts_S75000x128_S150000x64)) shapeCasts_S150000x64_S75000x128 := by
  after_results_simp
  rfl

/-- The third kernel's accumulator, read as 64-wide rows and back as 128-wide rows. -/
theorem stretch7_v71 : after main_part1_ops1 W main_v71
    = shapeCast S75000x128 (shapeCast S150000x64 (W main_v54_1) shapeCasts_S75000x128_S150000x64)
        shapeCasts_S150000x64_S75000x128 := by
  after_results_simp
  rfl

/-! ## After the fourth kernel: the history view's rows, the bundles' aggregated rows, the batch's bundle rows -/

/-- The users' rows of the fourth kernel's accumulator. -/
theorem stretch9_v74 : after main_part1_ops2 W main_v74
    = histUsers (shapeCast S150000x64 (W main_v72) shapeCasts_S75000x128_S150000x64) := by
  after_results_simp
  rfl

/-- The bundles' rows of the fourth kernel's accumulator. -/
theorem stretch9_v75 : after main_part1_ops2 W main_v75
    = histBundles (shapeCast S150000x64 (W main_v72) shapeCasts_S75000x128_S150000x64) := by
  after_results_simp
  rfl

/-- The batch's bundle rows of the affinity view: the items' rows aggregated per bundle, gathered at the batch. -/
theorem stretch9_v95 : after main_part1_ops2 W main_v95
    = gatherBundleRows (spmmAgg (W main_arg13) (W main_arg14) (W main_arg6) (W main_v37)) (W main_arg8) := by
  after_results_simp
  rfl

/-- The batch's bundle indices, wrapped. -/
theorem stretch9_v100 : after main_part1_ops2 W main_v100 = wrapIdx 50000#32 bcast_S_S2048x2 (W main_arg8) := by
  after_results_simp
  rfl

end Cert.KernelIdeal.Value

end
-- ==== Proof.KV.Pieces.lean ====
import proofs.«108982_j38147899523261_2_alg».proof.Proof.Gen.KernelIdeal
import proofs.«108982_j38147899523261_2_alg».proof.Proof.Ref.Stages

/-! Three pieces of the contrastive loss as the kernel program cuts them.

The kernel program computes a table's row lengths in one stretch of host operations and divides by them in the next,
and it hands the uniformity kernels the squared row lengths as one row of 2048 numbers; the alignment loss ends in a
mean over the rows. These are those pieces, over plain arrays, and the two facts that put a normalisation and an
alignment loss back together. -/

noncomputable section

namespace Cert.KernelIdeal.Value

open Cert.KernelIdeal Cert.KernelIdeal.Gen Idealize.ShloMosaic Idealize.SL.Sem
open Cert.ReferenceIdeal.Hand (rowNorm2048 rowNormalize2048 sqNorms aLoss)

variable {F : FTy → Type} [FloatOps F]

/-- A table's rows divided by given row lengths, each taken at least `1e-12` (the f32 literal). -/
def divByNorm (x : FVec F S2048x64 .f32) (n : FVec F S2048x1 .f32) : FVec F S2048x64 .f32 :=
  Host.divf x (broadcastInDim S2048x64 ![0, 1] bcast_S2048x1_S2048x64_0_1
    (maximumf n (broadcastInDim S2048x1 ![] bcast_S_S2048x1 (constant S_ .f32 0x2B8CBCCC#32))))

/-- Dividing a table's rows by its own row lengths normalises it. -/
theorem divByNorm_rowNorm (x : FVec F S2048x64 .f32) : divByNorm x (rowNorm2048 x) = rowNormalize2048 x := rfl

/-- The squared lengths of a table's rows, as one row of 2048 numbers. -/
def sqNormsRow (xn : FVec F S2048x64 .f32) : FVec F S1x2048 .f32 :=
  shapeCast S1x2048 (sqNorms xn) shapeCasts_S2048_S1x2048

/-- The sum of each row of a table, averaged over the 2048 rows. -/
def meanRowSum (sq : FVec F S2048x64 .f32) : FVec F S_ .f32 :=
  Host.divf
    (Host.reduceAdd (Host.reduceAdd sq (constant S_ .f32 0x00000000#32) reducesTo_S2048x64_S2048_d1 h_S_)
      (constant S_ .f32 0x00000000#32) reducesTo_S2048_S_d0 h_S_)
    (constant S_ .f32 0x45000000#32)

/-- The alignment loss is the mean over the rows of the squared distance between the two tables' normalised rows. -/
theorem meanRowSum_sq_diff (x y : FVec F S2048x64 .f32) :
    meanRowSum (mulf (subf (rowNormalize2048 x) (rowNormalize2048 y)) (subf (rowNormalize2048 x) (rowNormalize2048 y)))
      = aLoss x y := rfl

end Cert.KernelIdeal.Value

end
-- ==== Proof.KV.StretchB.lean ====
import proofs.«108982_j38147899523261_2_alg».proof.Proof.Gen.KernelIdeal.Launch
import proofs.«108982_j38147899523261_2_alg».proof.Proof.Ref.Stages
import proofs.«108982_j38147899523261_2_alg».proof.Proof.KV.Pieces
import Idealize.ShloMosaic.Lib.StableHlo.Run

/-! The host stretches between the layer updates and the first uniformity kernel, read as stages.

From the propagated tables the kernel program's host side gathers the batch's bundle rows, mixes the two views'
scores with the bundles' weights, forms the ranking loss, takes the positive bundles' rows of either view, and
forms the bundle side's alignment loss; then it normalises the affinity rows and their squared lengths for the
first uniformity kernel. Each lemma says what one buffer holds after a stretch, as a stage
function of what the stretch's input buffers held before it, for any contents of the buffers. -/

noncomputable section

namespace Cert.KernelIdeal.Value

open Cert.KernelIdeal Cert.KernelIdeal.Gen Idealize.ShloMosaic Idealize.ShloMosaic.TcCoe Idealize.SL.Sem Idealize.ShloMosaic.StableHlo
open Cert.ReferenceIdeal.Hand (wrapIdx gatherBundleRows bundleIdx gammaOf predOf scoreCol logSigmoid firstCol rowNorm2048 rowNormalize2048 sqNorms)

variable {F : FTy → Type} [FloatOps F] [Named F]
variable (W : Valuation τ sig (Elt F))

/-! ## The batch's rows, weights and scores -/

/-- The batch's bundle rows of the history view. -/
theorem stretch10_v102 : after main_part2_ops0 W main_v102
    = Host.gather gather_S50000x64_S2048x2x1_S2048x2x64_2_0_n_n_0_2_164 (W main_v75)
        (broadcastInDim S2048x2x1 ![0, 1] bcast_S2048x2_S2048x2x1_0_1 (W main_v100)) := by
  after_results_simp

/-- The difference of the two bundles' scores, per sample. -/
theorem stretch10_v130 : after main_part2_ops0 W main_v130
    = subf
        (scoreCol 0 slices_S2048x2_S2048x1_0_0 (predOf (W main_v95)
          (Host.gather gather_S50000x64_S2048x2x1_S2048x2x64_2_0_n_n_0_2_164 (W main_v75)
            (broadcastInDim S2048x2x1 ![0, 1] bcast_S2048x2_S2048x2x1_0_1 (W main_v100)))
          (gammaOf (W main_arg3) (W main_arg8))))
        (scoreCol 1 slices_S2048x2_S2048x1_0_1 (predOf (W main_v95)
          (Host.gather gather_S50000x64_S2048x2x1_S2048x2x64_2_0_n_n_0_2_164 (W main_v75)
            (broadcastInDim S2048x2x1 ![0, 1] bcast_S2048x2_S2048x2x1_0_1 (W main_v100)))
          (gammaOf (W main_arg3) (W main_arg8)))) := by
  after_results_simp
  rfl

/-- `log_sigmoid` of the score differences. -/
theorem stretch11_v131 : after main_part2_ops1 W main_v131 = logSigmoid (W main_v130) := by
  after_results_simp
  rfl

/-! ## The ranking loss and the positive bundles' rows -/

/-- The ranking loss: minus the mean of the 2048 `log_sigmoid` values. -/
theorem stretch12_v134 : after main_part2_ops2 W main_v134
    = Host.negf (Host.divf (Host.reduceAdd (W main_v131) (constant S_ .f32 0x00000000#32) reducesTo_S2048_S_d0 h_S_)
        (constant S_ .f32 0x45000000#32)) := by
  after_results_simp

/-- The positive bundles' rows, affinity view. -/
theorem stretch12_v136 : after main_part2_ops2 W main_v136 = firstCol (W main_v95) := by
  after_results_simp
  rfl

/-- The positive bundles' rows, history view. -/
theorem stretch12_v138 : after main_part2_ops2 W main_v138 = firstCol (W main_v102) := by
  after_results_simp
  rfl

/-! ## The bundle side's alignment loss -/

/-- The affinity rows' lengths. -/
theorem stretch13_v139 : after main_part2_ops3 W main_v139 = rowNorm2048 (W main_v136) := by
  after_results_simp
  rfl

/-- The affinity rows divided by those lengths. -/
theorem stretch14_v143 : after main_part2_ops4 W main_v143 = divByNorm (W main_v136) (W main_v139) := by
  after_results_simp
  rfl

/-- The history rows' lengths. -/
theorem stretch15_v144 : after main_part2_ops5 W main_v144 = rowNorm2048 (W main_v138) := by
  after_results_simp
  rfl

/-- The squared differences of the two views' normalised rows. -/
theorem stretch16_v150 : after main_part2_ops6 W main_v150
    = mulf (subf (W main_v143) (divByNorm (W main_v138) (W main_v144))) (subf (W main_v143) (divByNorm (W main_v138) (W main_v144))) := by
  after_results_simp
  rfl

/-- Their mean over the rows. -/
theorem stretch17_v153 : after main_part3_ops0 W main_v153 = meanRowSum (W main_v150) := by
  after_results_simp
  rfl

/-! ## The first uniformity kernel's inputs: the affinity rows normalised, and their squared lengths -/

/-- The affinity rows' lengths, once more. -/
theorem stretch18_v154 : after main_part3_ops1 W main_v154 = rowNorm2048 (W main_v136) := by
  after_results_simp
  rfl

/-- The affinity rows divided by those lengths. -/
theorem stretch19_v158 : after main_part3_ops2 W main_v158 = divByNorm (W main_v136) (W main_v154) := by
  after_results_simp
  rfl

/-- The squared lengths of the divided rows, as one row. -/
theorem stretch19_v161 : after main_part3_ops2 W main_v161 = sqNormsRow (divByNorm (W main_v136) (W main_v154)) := by
  after_results_simp
  rfl

end Cert.KernelIdeal.Value

end
-- ==== Proof.KV.StretchC.lean ====
import proofs.«108982_j38147899523261_2_alg».proof.Proof.Gen.KernelIdeal.Launch
import proofs.«108982_j38147899523261_2_alg».proof.Proof.Ref.Stages
import proofs.«108982_j38147899523261_2_alg».proof.Proof.KV.Pieces
import Idealize.ShloMosaic.Lib.StableHlo.Run

/-! The host stretches between the first and the third uniformity kernel, read as stages.

After the first uniformity kernel the kernel program's host side reads the kernel's one number, normalises the
positive bundles' history rows for the second kernel, joins the bundle side's three terms, gathers the batch's user
rows of either view, forms the user side's alignment loss, and normalises the affinity user rows for the third
kernel. Each lemma says what one buffer holds after a stretch, as a stage function of what the stretch's input
buffers held before it, for any contents of the buffers. -/

noncomputable section

namespace Cert.KernelIdeal.Value

open Cert.KernelIdeal Cert.KernelIdeal.Gen Idealize.ShloMosaic Idealize.ShloMosaic.TcCoe Idealize.SL.Sem Idealize.ShloMosaic.StableHlo
open Cert.ReferenceIdeal.Hand (gatherUserRows rowNorm2048 rowNormalize2048 sqNorms sideLoss)

variable {F : FTy → Type} [FloatOps F] [Named F]
variable (W : Valuation τ sig (Elt F))

/-! ## The bundle side -/

/-- The first uniformity kernel's number, as a scalar. -/
theorem stretch21_v163 : after main_part3_ops3 W main_v163 = shapeCast S_ (W main_v162) shapeCasts_S1x1_S_ := by
  after_results_simp
  rfl

/-- The history rows' lengths. -/
theorem stretch22_v164 : after main_part3_ops4 W main_v164 = rowNorm2048 (W main_v138) := by
  after_results_simp
  rfl

/-- The history rows divided by those lengths. -/
theorem stretch23_v168 : after main_part3_ops5 W main_v168 = divByNorm (W main_v138) (W main_v164) := by
  after_results_simp
  rfl

/-- The squared lengths of the divided rows, as one row. -/
theorem stretch23_v171 : after main_part3_ops5 W main_v171 = sqNormsRow (divByNorm (W main_v138) (W main_v164)) := by
  after_results_simp
  rfl

/-- The bundle side's contrastive loss: the alignment term plus the first uniformity term plus half the second. -/
theorem stretch25_v176 : after main_part3_ops6 W main_v176
    = sideLoss (W main_v153) (W main_v163) (shapeCast S_ (W main_v172) shapeCasts_S1x1_S_) := by
  after_results_simp
  rfl

/-! ## The user side -/

/-- The batch's user rows, affinity view. -/
theorem stretch25_v184 : after main_part3_ops6 W main_v184 = gatherUserRows (W main_v36) (W main_arg7) := by
  after_results_simp
  rfl

/-- The batch's user rows, history view. -/
theorem stretch25_v192 : after main_part3_ops6 W main_v192 = gatherUserRows (W main_v74) (W main_arg7) := by
  after_results_simp
  rfl

/-- The affinity user rows' lengths. -/
theorem stretch26_v193 : after main_part3_ops7 W main_v193 = rowNorm2048 (W main_v184) := by
  after_results_simp
  rfl

/-- The affinity user rows divided by those lengths. -/
theorem stretch27_v197 : after main_part3_ops8 W main_v197 = divByNorm (W main_v184) (W main_v193) := by
  after_results_simp
  rfl

/-- The history user rows' lengths. -/
theorem stretch28_v198 : after main_part4_ops0 W main_v198 = rowNorm2048 (W main_v192) := by
  after_results_simp
  rfl

/-- The user side's alignment loss: the mean over the rows of the squared differences of the two views' divided rows. -/
theorem stretch29_v207 : after main_part4_ops1 W main_v207
    = meanRowSum (mulf (subf (W main_v197) (divByNorm (W main_v192) (W main_v198))) (subf (W main_v197) (divByNorm (W main_v192) (W main_v198)))) := by
  after_results_simp
  rfl

/-- The affinity user rows' lengths, once more. -/
theorem stretch30_v208 : after main_part4_ops2 W main_v208 = rowNorm2048 (W main_v184) := by
  after_results_simp
  rfl

/-- The affinity user rows divided by those lengths. -/
theorem stretch31_v212 : after main_part4_ops3 W main_v212 = divByNorm (W main_v184) (W main_v208) := by
  after_results_simp
  rfl

/-- The squared lengths of the divided rows, as one row. -/
theorem stretch31_v215 : after main_part4_ops3 W main_v215 = sqNormsRow (divByNorm (W main_v184) (W main_v208)) := by
  after_results_simp
  rfl

end Cert.KernelIdeal.Value

end
-- ==== Proof.KV.StretchD.lean ====
import proofs.«108982_j38147899523261_2_alg».proof.Proof.Gen.KernelIdeal.Launch
import proofs.«108982_j38147899523261_2_alg».proof.Proof.Ref.Stages
import proofs.«108982_j38147899523261_2_alg».proof.Proof.KV.Pieces
import Idealize.ShloMosaic.Lib.StableHlo.Run

/-! The last host stretches of the kernel program, read as stages.

After the third uniformity kernel the kernel program's host side reads the kernel's one number, normalises the
history user rows for the fourth kernel, and after it joins the user side's three terms, averages the two sides and
stacks the ranking loss on the average. Each lemma says what one buffer holds after a stretch, as a stage function
of what the stretch's input buffers held before it, for any contents of the buffers. -/

noncomputable section

namespace Cert.KernelIdeal.Value

open Cert.KernelIdeal Cert.KernelIdeal.Gen Idealize.ShloMosaic Idealize.ShloMosaic.TcCoe Idealize.SL.Sem Idealize.ShloMosaic.StableHlo
open Cert.ReferenceIdeal.Hand (rowNorm2048 rowNormalize2048 sqNorms sideLoss stackOut)

variable {F : FTy → Type} [FloatOps F] [Named F]
variable (W : Valuation τ sig (Elt F))

/-- The third uniformity kernel's number, as a scalar. -/
theorem stretch33_v217 : after main_part4_ops4 W main_v217 = shapeCast S_ (W main_v216) shapeCasts_S1x1_S_ := by
  after_results_simp
  rfl

/-- The history user rows' lengths. -/
theorem stretch34_v218 : after main_part4_ops5 W main_v218 = rowNorm2048 (W main_v192) := by
  after_results_simp
  rfl

/-- The history user rows divided by those lengths. -/
theorem stretch35_v222 : after main_part4_ops6 W main_v222 = divByNorm (W main_v192) (W main_v218) := by
  after_results_simp
  rfl

/-- The squared lengths of the divided rows, as one row. -/
theorem stretch35_v225 : after main_part4_ops6 W main_v225 = sqNormsRow (divByNorm (W main_v192) (W main_v218)) := by
  after_results_simp
  rfl

/-- The result: the ranking loss stacked on the average of the bundle side's loss and the user side's loss, the latter
    the alignment term plus the third uniformity term plus half the fourth. -/
theorem stretch37_v235 : after main_part4_ops7 W main_v235
    = stackOut (W main_v134) (W main_v176) (sideLoss (W main_v207) (W main_v217) (shapeCast S_ (W main_v226) shapeCasts_S1x1_S_)) := by
  after_results_simp
  rfl

end Cert.KernelIdeal.Value

end
-- ==== Proof.KV.Read.lean ====
import proofs.«108982_j38147899523261_2_alg».proof.Proof.KI.Host
import proofs.«108982_j38147899523261_2_alg».proof.Proof.KV.StretchA
import proofs.«108982_j38147899523261_2_alg».proof.Proof.KV.StretchB
import proofs.«108982_j38147899523261_2_alg».proof.Proof.KV.StretchC
import proofs.«108982_j38147899523261_2_alg».proof.Proof.KV.StretchD

/-! The kernel program's buffers at the end of its run, each as a stage of earlier ones.

The program assigns every buffer once: a host stretch computes it from buffers computed before, or a kernel leaves it.
So at the end of the run, where `R` is what a core's buffers hold, every buffer a later item reads holds its stage
function of what its inputs hold — at the end, because the inputs are never written again either. Each lemma is that
sentence for one buffer, in three steps: the buffer is not written after the item that computes it; that item's
stretch computes it from the contents at the item's entry; and the inputs, written before the item, hold at its entry
what they hold at the end. A kernel's result arrays hold what the kernel leaves, a function of the contents at its
entry, and its input arrays hold at its entry what they hold at the end. -/

set_option maxRecDepth 16384

noncomputable section

namespace Cert.KernelIdeal.Value

open Cert.KernelIdeal Cert.KernelIdeal.Gen Cert.KernelIdeal.Hand Idealize.ShloMosaic Idealize.ShloMosaic.TcCoe Idealize.SL.Sem Idealize.ShloMosaic.StableHlo
open Cert.ReferenceIdeal.Hand (wrapIdx stackAff stackHist spmmAff spmmHist spmmAgg affUsers affItems histUsers histBundles
  gatherBundleRows gammaOf predOf scoreCol logSigmoid firstCol rowNorm2048 gatherUserRows sideLoss stackOut)

variable {F : FTy → Type} [FloatOps F] [Named F]
variable (m : (ℓ : Loc nD τ sig) → Buf (Elt F) ℓ) (outs : Outs F) (c : Dev nD)

/-- What core `c`'s buffers hold at the end of the run. -/
local notation "R" => B38 m outs c

/-! ## The layer updates' host side -/

/-- The first kernel's first input: the first sparse product of the user-item graph, as 128-wide rows. -/
theorem read_v14 : R main_v14 = shapeCast S150000x128 (spmmAff (R main_arg9) (R main_arg10) (R main_arg4) (stackAff (R main_arg0) (R main_arg1))) shapeCasts_S300000x64_S150000x128 := by
  have h0 : B0 m c main_arg9 = R main_arg9 := (from0 m outs c main_arg9 (by decide)).symm
  have h1 : B0 m c main_arg10 = R main_arg10 := (from0 m outs c main_arg10 (by decide)).symm
  have h2 : B0 m c main_arg4 = R main_arg4 := (from0 m outs c main_arg4 (by decide)).symm
  have h3 : B0 m c main_arg0 = R main_arg0 := (from0 m outs c main_arg0 (by decide)).symm
  have h4 : B0 m c main_arg1 = R main_arg1 := (from0 m outs c main_arg1 (by decide)).symm
  calc R main_v14 = B1 m c main_v14 := from1 m outs c main_v14 (by decide)
    _ = shapeCast S150000x128 (spmmAff (B0 m c main_arg9) (B0 m c main_arg10) (B0 m c main_arg4) (stackAff (B0 m c main_arg0) (B0 m c main_arg1))) shapeCasts_S300000x64_S150000x128 := stretch0_v14 (B0 m c)
    _ = shapeCast S150000x128 (spmmAff (R main_arg9) (R main_arg10) (R main_arg4) (stackAff (R main_arg0) (R main_arg1))) shapeCasts_S300000x64_S150000x128 := by rw [h0, h1, h2, h3, h4]

/-- The first kernel's second input: the stacked user/item table, as 128-wide rows. -/
theorem read_v15 : R main_v15 = shapeCast S150000x128 (stackAff (R main_arg0) (R main_arg1)) shapeCasts_S300000x64_S150000x128 := by
  have h0 : B0 m c main_arg0 = R main_arg0 := (from0 m outs c main_arg0 (by decide)).symm
  have h1 : B0 m c main_arg1 = R main_arg1 := (from0 m outs c main_arg1 (by decide)).symm
  calc R main_v15 = B1 m c main_v15 := from1 m outs c main_v15 (by decide)
    _ = shapeCast S150000x128 (stackAff (B0 m c main_arg0) (B0 m c main_arg1)) shapeCasts_S300000x64_S150000x128 := stretch0_v15 (B0 m c)
    _ = shapeCast S150000x128 (stackAff (R main_arg0) (R main_arg1)) shapeCasts_S300000x64_S150000x128 := by rw [h0, h1]

/-- The second kernel's first input: the sparse product of the first kernel's table, as 128-wide rows. -/
theorem read_v32 : R main_v32 = shapeCast S150000x128 (spmmAff (R main_arg9) (R main_arg10) (R main_arg4) (shapeCast S300000x64 (R main_v16_0) shapeCasts_S150000x128_S300000x64)) shapeCasts_S300000x64_S150000x128 := by
  have h0 : B2 m outs c main_arg9 = R main_arg9 := (from2 m outs c main_arg9 (by decide)).symm
  have h1 : B2 m outs c main_arg10 = R main_arg10 := (from2 m outs c main_arg10 (by decide)).symm
  have h2 : B2 m outs c main_arg4 = R main_arg4 := (from2 m outs c main_arg4 (by decide)).symm
  have h3 : B2 m outs c main_v16_0 = R main_v16_0 := (from2 m outs c main_v16_0 (by decide)).symm
  calc R main_v32 = B3 m outs c main_v32 := from3 m outs c main_v32 (by decide)
    _ = shapeCast S150000x128 (spmmAff (B2 m outs c main_arg9) (B2 m outs c main_arg10) (B2 m outs c main_arg4) (shapeCast S300000x64 (B2 m outs c main_v16_0) shapeCasts_S150000x128_S300000x64)) shapeCasts_S300000x64_S150000x128 := stretch2_v32 (B2 m outs c)
    _ = shapeCast S150000x128 (spmmAff (R main_arg9) (R main_arg10) (R main_arg4) (shapeCast S300000x64 (R main_v16_0) shapeCasts_S150000x128_S300000x64)) shapeCasts_S300000x64_S150000x128 := by rw [h0, h1, h2, h3]

/-- The second kernel's second input: the first kernel's accumulator. -/
theorem read_v33 : R main_v33 = shapeCast S150000x128 (shapeCast S300000x64 (R main_v16_1) shapeCasts_S150000x128_S300000x64) shapeCasts_S300000x64_S150000x128 := by
  have h0 : B2 m outs c main_v16_1 = R main_v16_1 := (from2 m outs c main_v16_1 (by decide)).symm
  calc R main_v33 = B3 m outs c main_v33 := from3 m outs c main_v33 (by decide)
    _ = shapeCast S150000x128 (shapeCast S300000x64 (B2 m outs c main_v16_1) shapeCasts_S150000x128_S300000x64) shapeCasts_S300000x64_S150000x128 := stretch2_v33 (B2 m outs c)
    _ = shapeCast S150000x128 (shapeCast S300000x64 (R main_v16_1) shapeCasts_S150000x128_S300000x64) shapeCasts_S300000x64_S150000x128 := by rw [h0]

/-- The propagated users' rows of the affinity view. -/
theorem read_v36 : R main_v36 = affUsers (shapeCast S300000x64 (R main_v34) shapeCasts_S150000x128_S300000x64) := by
  have h0 : B4 m outs c main_v34 = R main_v34 := (from4 m outs c main_v34 (by decide)).symm
  calc R main_v36 = B5 m outs c main_v36 := from5 m outs c main_v36 (by decide)
    _ = affUsers (shapeCast S300000x64 (B4 m outs c main_v34) shapeCasts_S150000x128_S300000x64) := stretch4_v36 (B4 m outs c)
    _ = affUsers (shapeCast S300000x64 (R main_v34) shapeCasts_S150000x128_S300000x64) := by rw [h0]

/-- The propagated items' rows of the affinity view. -/
theorem read_v37 : R main_v37 = affItems (shapeCast S300000x64 (R main_v34) shapeCasts_S150000x128_S300000x64) := by
  have h0 : B4 m outs c main_v34 = R main_v34 := (from4 m outs c main_v34 (by decide)).symm
  calc R main_v37 = B5 m outs c main_v37 := from5 m outs c main_v37 (by decide)
    _ = affItems (shapeCast S300000x64 (B4 m outs c main_v34) shapeCasts_S150000x128_S300000x64) := stretch4_v37 (B4 m outs c)
    _ = affItems (shapeCast S300000x64 (R main_v34) shapeCasts_S150000x128_S300000x64) := by rw [h0]

/-- The stacked user/bundle table. -/
theorem read_v38 : R main_v38 = stackHist (R main_arg0) (R main_arg2) := by
  have h0 : B4 m outs c main_arg0 = R main_arg0 := (from4 m outs c main_arg0 (by decide)).symm
  have h1 : B4 m outs c main_arg2 = R main_arg2 := (from4 m outs c main_arg2 (by decide)).symm
  calc R main_v38 = B5 m outs c main_v38 := from5 m outs c main_v38 (by decide)
    _ = stackHist (B4 m outs c main_arg0) (B4 m outs c main_arg2) := stretch4_v38 (B4 m outs c)
    _ = stackHist (R main_arg0) (R main_arg2) := by rw [h0, h1]

/-- The user-bundle graph's scaled gathered rows. -/
theorem read_v48 : R main_v48 = mulf (broadcastInDim S1000000x64 ![0, 1] bcast_S1000000x1_S1000000x64_0_1 (broadcastInDim S1000000x1 ![0] bcast_S1000000_S1000000x1_0 (R main_arg5)))
        (Host.gather gather_S150000x64_S1000000x1_S1000000x64_1_0_n_n_0_1_164 (stackHist (R main_arg0) (R main_arg2))
          (broadcastInDim S1000000x1 ![0] bcast_S1000000_S1000000x1_0 (wrapIdx 150000#32 bcast_S_S1000000 (R main_arg12)))) := by
  have h0 : B4 m outs c main_arg5 = R main_arg5 := (from4 m outs c main_arg5 (by decide)).symm
  have h1 : B4 m outs c main_arg0 = R main_arg0 := (from4 m outs c main_arg0 (by decide)).symm
  have h2 : B4 m outs c main_arg2 = R main_arg2 := (from4 m outs c main_arg2 (by decide)).symm
  have h3 : B4 m outs c main_arg12 = R main_arg12 := (from4 m outs c main_arg12 (by decide)).symm
  calc R main_v48 = B5 m outs c main_v48 := from5 m outs c main_v48 (by decide)
    _ = mulf (broadcastInDim S1000000x64 ![0, 1] bcast_S1000000x1_S1000000x64_0_1 (broadcastInDim S1000000x1 ![0] bcast_S1000000_S1000000x1_0 (B4 m outs c main_arg5)))
        (Host.gather gather_S150000x64_S1000000x1_S1000000x64_1_0_n_n_0_1_164 (stackHist (B4 m outs c main_arg0) (B4 m outs c main_arg2))
          (broadcastInDim S1000000x1 ![0] bcast_S1000000_S1000000x1_0 (wrapIdx 150000#32 bcast_S_S1000000 (B4 m outs c main_arg12)))) := stretch4_v48 (B4 m outs c)
    _ = mulf (broadcastInDim S1000000x64 ![0, 1] bcast_S1000000x1_S1000000x64_0_1 (broadcastInDim S1000000x1 ![0] bcast_S1000000_S1000000x1_0 (R main_arg5)))
        (Host.gather gather_S150000x64_S1000000x1_S1000000x64_1_0_n_n_0_1_164 (stackHist (R main_arg0) (R main_arg2))
          (broadcastInDim S1000000x1 ![0] bcast_S1000000_S1000000x1_0 (wrapIdx 150000#32 bcast_S_S1000000 (R main_arg12)))) := by rw [h0, h1, h2, h3]

/-- The user-bundle graph's edge rows, as scatter indices. -/
theorem read_v50 : R main_v50 = broadcastInDim S1000000x1 ![0] bcast_S1000000_S1000000x1_0 (R main_arg11) := by
  have h0 : B4 m outs c main_arg11 = R main_arg11 := (from4 m outs c main_arg11 (by decide)).symm
  calc R main_v50 = B5 m outs c main_v50 := from5 m outs c main_v50 (by decide)
    _ = broadcastInDim S1000000x1 ![0] bcast_S1000000_S1000000x1_0 (B4 m outs c main_arg11) := stretch4_v50 (B4 m outs c)
    _ = broadcastInDim S1000000x1 ![0] bcast_S1000000_S1000000x1_0 (R main_arg11) := by rw [h0]

/-- The third kernel's first input: the scaled rows summed into the rows the edges name, as 128-wide rows. -/
theorem read_v52 : R main_v52 = shapeCast S75000x128 (Host.scatterAdd scatter_S150000x64_S1000000x1_S1000000x64_1_0_0_1 (R main_v49) (R main_v50) (R main_v48)) shapeCasts_S150000x64_S75000x128 := by
  have h0 : B5 m outs c main_v49 = R main_v49 := (from5 m outs c main_v49 (by decide)).symm
  have h1 : B5 m outs c main_v50 = R main_v50 := (from5 m outs c main_v50 (by decide)).symm
  have h2 : B5 m outs c main_v48 = R main_v48 := (from5 m outs c main_v48 (by decide)).symm
  calc R main_v52 = B6 m outs c main_v52 := from6 m outs c main_v52 (by decide)
    _ = shapeCast S75000x128 (Host.scatterAdd scatter_S150000x64_S1000000x1_S1000000x64_1_0_0_1 (B5 m outs c main_v49) (B5 m outs c main_v50) (B5 m outs c main_v48)) shapeCasts_S150000x64_S75000x128 := stretch5_v52 (B5 m outs c)
    _ = shapeCast S75000x128 (Host.scatterAdd scatter_S150000x64_S1000000x1_S1000000x64_1_0_0_1 (R main_v49) (R main_v50) (R main_v48)) shapeCasts_S150000x64_S75000x128 := by rw [h0, h1, h2]

/-- The third kernel's second input: the stacked user/bundle table, as 128-wide rows. -/
theorem read_v53 : R main_v53 = shapeCast S75000x128 (R main_v38) shapeCasts_S150000x64_S75000x128 := by
  have h0 : B5 m outs c main_v38 = R main_v38 := (from5 m outs c main_v38 (by decide)).symm
  calc R main_v53 = B6 m outs c main_v53 := from6 m outs c main_v53 (by decide)
    _ = shapeCast S75000x128 (B5 m outs c main_v38) shapeCasts_S150000x64_S75000x128 := stretch5_v53 (B5 m outs c)
    _ = shapeCast S75000x128 (R main_v38) shapeCasts_S150000x64_S75000x128 := by rw [h0]

/-- The fourth kernel's first input: the sparse product of the third kernel's table, as 128-wide rows. -/
theorem read_v70 : R main_v70 = shapeCast S75000x128 (spmmHist (R main_arg11) (R main_arg12) (R main_arg5) (shapeCast S150000x64 (R main_v54_0) shapeCasts_S75000x128_S150000x64)) shapeCasts_S150000x64_S75000x128 := by
  have h0 : B7 m outs c main_arg11 = R main_arg11 := (from7 m outs c main_arg11 (by decide)).symm
  have h1 : B7 m outs c main_arg12 = R main_arg12 := (from7 m outs c main_arg12 (by decide)).symm
  have h2 : B7 m outs c main_arg5 = R main_arg5 := (from7 m outs c main_arg5 (by decide)).symm
  have h3 : B7 m outs c main_v54_0 = R main_v54_0 := (from7 m outs c main_v54_0 (by decide)).symm
  calc R main_v70 = B8 m outs c main_v70 := from8 m outs c main_v70 (by decide)
    _ = shapeCast S75000x128 (spmmHist (B7 m outs c main_arg11) (B7 m outs c main_arg12) (B7 m outs c main_arg5) (shapeCast S150000x64 (B7 m outs c main_v54_0) shapeCasts_S75000x128_S150000x64)) shapeCasts_S150000x64_S75000x128 := stretch7_v70 (B7 m outs c)
    _ = shapeCast S75000x128 (spmmHist (R main_arg11) (R main_arg12) (R main_arg5) (shapeCast S150000x64 (R main_v54_0) shapeCasts_S75000x128_S150000x64)) shapeCasts_S150000x64_S75000x128 := by rw [h0, h1, h2, h3]

/-- The fourth kernel's second input: the third kernel's accumulator. -/
theorem read_v71 : R main_v71 = shapeCast S75000x128 (shapeCast S150000x64 (R main_v54_1) shapeCasts_S75000x128_S150000x64) shapeCasts_S150000x64_S75000x128 := by
  have h0 : B7 m outs c main_v54_1 = R main_v54_1 := (from7 m outs c main_v54_1 (by decide)).symm
  calc R main_v71 = B8 m outs c main_v71 := from8 m outs c main_v71 (by decide)
    _ = shapeCast S75000x128 (shapeCast S150000x64 (B7 m outs c main_v54_1) shapeCasts_S75000x128_S150000x64) shapeCasts_S150000x64_S75000x128 := stretch7_v71 (B7 m outs c)
    _ = shapeCast S75000x128 (shapeCast S150000x64 (R main_v54_1) shapeCasts_S75000x128_S150000x64) shapeCasts_S150000x64_S75000x128 := by rw [h0]

/-- The propagated users' rows of the history view. -/
theorem read_v74 : R main_v74 = histUsers (shapeCast S150000x64 (R main_v72) shapeCasts_S75000x128_S150000x64) := by
  have h0 : B9 m outs c main_v72 = R main_v72 := (from9 m outs c main_v72 (by decide)).symm
  calc R main_v74 = B10 m outs c main_v74 := from10 m outs c main_v74 (by decide)
    _ = histUsers (shapeCast S150000x64 (B9 m outs c main_v72) shapeCasts_S75000x128_S150000x64) := stretch9_v74 (B9 m outs c)
    _ = histUsers (shapeCast S150000x64 (R main_v72) shapeCasts_S75000x128_S150000x64) := by rw [h0]

/-- The propagated bundles' rows of the history view. -/
theorem read_v75 : R main_v75 = histBundles (shapeCast S150000x64 (R main_v72) shapeCasts_S75000x128_S150000x64) := by
  have h0 : B9 m outs c main_v72 = R main_v72 := (from9 m outs c main_v72 (by decide)).symm
  calc R main_v75 = B10 m outs c main_v75 := from10 m outs c main_v75 (by decide)
    _ = histBundles (shapeCast S150000x64 (B9 m outs c main_v72) shapeCasts_S75000x128_S150000x64) := stretch9_v75 (B9 m outs c)
    _ = histBundles (shapeCast S150000x64 (R main_v72) shapeCasts_S75000x128_S150000x64) := by rw [h0]

/-- The batch's bundle rows, affinity view. -/
theorem read_v95 : R main_v95 = gatherBundleRows (spmmAgg (R main_arg13) (R main_arg14) (R main_arg6) (R main_v37)) (R main_arg8) := by
  have h0 : B9 m outs c main_arg13 = R main_arg13 := (from9 m outs c main_arg13 (by decide)).symm
  have h1 : B9 m outs c main_arg14 = R main_arg14 := (from9 m outs c main_arg14 (by decide)).symm
  have h2 : B9 m outs c main_arg6 = R main_arg6 := (from9 m outs c main_arg6 (by decide)).symm
  have h3 : B9 m outs c main_v37 = R main_v37 := (from9 m outs c main_v37 (by decide)).symm
  have h4 : B9 m outs c main_arg8 = R main_arg8 := (from9 m outs c main_arg8 (by decide)).symm
  calc R main_v95 = B10 m outs c main_v95 := from10 m outs c main_v95 (by decide)
    _ = gatherBundleRows (spmmAgg (B9 m outs c main_arg13) (B9 m outs c main_arg14) (B9 m outs c main_arg6) (B9 m outs c main_v37)) (B9 m outs c main_arg8) := stretch9_v95 (B9 m outs c)
    _ = gatherBundleRows (spmmAgg (R main_arg13) (R main_arg14) (R main_arg6) (R main_v37)) (R main_arg8) := by rw [h0, h1, h2, h3, h4]

/-- The batch's bundle indices, wrapped. -/
theorem read_v100 : R main_v100 = wrapIdx 50000#32 bcast_S_S2048x2 (R main_arg8) := by
  have h0 : B9 m outs c main_arg8 = R main_arg8 := (from9 m outs c main_arg8 (by decide)).symm
  calc R main_v100 = B10 m outs c main_v100 := from10 m outs c main_v100 (by decide)
    _ = wrapIdx 50000#32 bcast_S_S2048x2 (B9 m outs c main_arg8) := stretch9_v100 (B9 m outs c)
    _ = wrapIdx 50000#32 bcast_S_S2048x2 (R main_arg8) := by rw [h0]

/-- The table of zeros the user-bundle graph's scaled rows are summed into. -/
theorem read_v49 : R main_v49 = broadcastInDim S150000x64 ![] bcast_S_S150000x64 (constant S_ .f32 0x00000000#32) :=
  (from5 m outs c main_v49 (by decide)).trans (stretch4_v49 (B4 m outs c))

/-! ## The batch, the ranking loss and the bundle side -/

/-- The batch's bundle rows, history view. -/
theorem read_v102 : R main_v102 = Host.gather gather_S50000x64_S2048x2x1_S2048x2x64_2_0_n_n_0_2_164 (R main_v75) (broadcastInDim S2048x2x1 ![0, 1] bcast_S2048x2_S2048x2x1_0_1 (R main_v100)) := by
  have h0 : B10 m outs c main_v75 = R main_v75 := (from10 m outs c main_v75 (by decide)).symm
  have h1 : B10 m outs c main_v100 = R main_v100 := (from10 m outs c main_v100 (by decide)).symm
  calc R main_v102 = B11 m outs c main_v102 := from11 m outs c main_v102 (by decide)
    _ = Host.gather gather_S50000x64_S2048x2x1_S2048x2x64_2_0_n_n_0_2_164 (B10 m outs c main_v75) (broadcastInDim S2048x2x1 ![0, 1] bcast_S2048x2_S2048x2x1_0_1 (B10 m outs c main_v100)) := stretch10_v102 (B10 m outs c)
    _ = Host.gather gather_S50000x64_S2048x2x1_S2048x2x64_2_0_n_n_0_2_164 (R main_v75) (broadcastInDim S2048x2x1 ![0, 1] bcast_S2048x2_S2048x2x1_0_1 (R main_v100)) := by rw [h0, h1]

/-- The difference of the two bundles' scores, per sample. -/
theorem read_v130 : R main_v130 = subf (scoreCol 0 slices_S2048x2_S2048x1_0_0 (predOf (R main_v95) (Host.gather gather_S50000x64_S2048x2x1_S2048x2x64_2_0_n_n_0_2_164 (R main_v75) (broadcastInDim S2048x2x1 ![0, 1] bcast_S2048x2_S2048x2x1_0_1 (R main_v100))) (gammaOf (R main_arg3) (R main_arg8)))) (scoreCol 1 slices_S2048x2_S2048x1_0_1 (predOf (R main_v95) (Host.gather gather_S50000x64_S2048x2x1_S2048x2x64_2_0_n_n_0_2_164 (R main_v75) (broadcastInDim S2048x2x1 ![0, 1] bcast_S2048x2_S2048x2x1_0_1 (R main_v100))) (gammaOf (R main_arg3) (R main_arg8)))) := by
  have h0 : B10 m outs c main_v95 = R main_v95 := (from10 m outs c main_v95 (by decide)).symm
  have h1 : B10 m outs c main_v75 = R main_v75 := (from10 m outs c main_v75 (by decide)).symm
  have h2 : B10 m outs c main_v100 = R main_v100 := (from10 m outs c main_v100 (by decide)).symm
  have h3 : B10 m outs c main_arg3 = R main_arg3 := (from10 m outs c main_arg3 (by decide)).symm
  have h4 : B10 m outs c main_arg8 = R main_arg8 := (from10 m outs c main_arg8 (by decide)).symm
  calc R main_v130 = B11 m outs c main_v130 := from11 m outs c main_v130 (by decide)
    _ = subf (scoreCol 0 slices_S2048x2_S2048x1_0_0 (predOf (B10 m outs c main_v95) (Host.gather gather_S50000x64_S2048x2x1_S2048x2x64_2_0_n_n_0_2_164 (B10 m outs c main_v75) (broadcastInDim S2048x2x1 ![0, 1] bcast_S2048x2_S2048x2x1_0_1 (B10 m outs c main_v100))) (gammaOf (B10 m outs c main_arg3) (B10 m outs c main_arg8)))) (scoreCol 1 slices_S2048x2_S2048x1_0_1 (predOf (B10 m outs c main_v95) (Host.gather gather_S50000x64_S2048x2x1_S2048x2x64_2_0_n_n_0_2_164 (B10 m outs c main_v75) (broadcastInDim S2048x2x1 ![0, 1] bcast_S2048x2_S2048x2x1_0_1 (B10 m outs c main_v100))) (gammaOf (B10 m outs c main_arg3) (B10 m outs c main_arg8)))) := stretch10_v130 (B10 m outs c)
    _ = subf (scoreCol 0 slices_S2048x2_S2048x1_0_0 (predOf (R main_v95) (Host.gather gather_S50000x64_S2048x2x1_S2048x2x64_2_0_n_n_0_2_164 (R main_v75) (broadcastInDim S2048x2x1 ![0, 1] bcast_S2048x2_S2048x2x1_0_1 (R main_v100))) (gammaOf (R main_arg3) (R main_arg8)))) (scoreCol 1 slices_S2048x2_S2048x1_0_1 (predOf (R main_v95) (Host.gather gather_S50000x64_S2048x2x1_S2048x2x64_2_0_n_n_0_2_164 (R main_v75) (broadcastInDim S2048x2x1 ![0, 1] bcast_S2048x2_S2048x2x1_0_1 (R main_v100))) (gammaOf (R main_arg3) (R main_arg8)))) := by rw [h0, h1, h2, h3, h4]

/-- `log_sigmoid` of the score differences. -/
theorem read_v131 : R main_v131 = logSigmoid (R main_v130) := by
  have h0 : B11 m outs c main_v130 = R main_v130 := (from11 m outs c main_v130 (by decide)).symm
  calc R main_v131 = B12 m outs c main_v131 := from12 m outs c main_v131 (by decide)
    _ = logSigmoid (B11 m outs c main_v130) := stretch11_v131 (B11 m outs c)
    _ = logSigmoid (R main_v130) := by rw [h0]

/-- The ranking loss. -/
theorem read_v134 : R main_v134 = Host.negf (Host.divf (Host.reduceAdd (R main_v131) (constant S_ .f32 0x00000000#32) reducesTo_S2048_S_d0 h_S_) (constant S_ .f32 0x45000000#32)) := by
  have h0 : B12 m outs c main_v131 = R main_v131 := (from12 m outs c main_v131 (by decide)).symm
  calc R main_v134 = B13 m outs c main_v134 := from13 m outs c main_v134 (by decide)
    _ = Host.negf (Host.divf (Host.reduceAdd (B12 m outs c main_v131) (constant S_ .f32 0x00000000#32) reducesTo_S2048_S_d0 h_S_) (constant S_ .f32 0x45000000#32)) := stretch12_v134 (B12 m outs c)
    _ = Host.negf (Host.divf (Host.reduceAdd (R main_v131) (constant S_ .f32 0x00000000#32) reducesTo_S2048_S_d0 h_S_) (constant S_ .f32 0x45000000#32)) := by rw [h0]

/-- The positive bundles' rows, affinity view. -/
theorem read_v136 : R main_v136 = firstCol (R main_v95) := by
  have h0 : B12 m outs c main_v95 = R main_v95 := (from12 m outs c main_v95 (by decide)).symm
  calc R main_v136 = B13 m outs c main_v136 := from13 m outs c main_v136 (by decide)
    _ = firstCol (B12 m outs c main_v95) := stretch12_v136 (B12 m outs c)
    _ = firstCol (R main_v95) := by rw [h0]

/-- The positive bundles' rows, history view. -/
theorem read_v138 : R main_v138 = firstCol (R main_v102) := by
  have h0 : B12 m outs c main_v102 = R main_v102 := (from12 m outs c main_v102 (by decide)).symm
  calc R main_v138 = B13 m outs c main_v138 := from13 m outs c main_v138 (by decide)
    _ = firstCol (B12 m outs c main_v102) := stretch12_v138 (B12 m outs c)
    _ = firstCol (R main_v102) := by rw [h0]

/-- The positive bundles' affinity rows' lengths. -/
theorem read_v139 : R main_v139 = rowNorm2048 (R main_v136) := by
  have h0 : B13 m outs c main_v136 = R main_v136 := (from13 m outs c main_v136 (by decide)).symm
  calc R main_v139 = B14 m outs c main_v139 := from14 m outs c main_v139 (by decide)
    _ = rowNorm2048 (B13 m outs c main_v136) := stretch13_v139 (B13 m outs c)
    _ = rowNorm2048 (R main_v136) := by rw [h0]

/-- The positive bundles' affinity rows divided by their lengths. -/
theorem read_v143 : R main_v143 = divByNorm (R main_v136) (R main_v139) := by
  have h0 : B14 m outs c main_v136 = R main_v136 := (from14 m outs c main_v136 (by decide)).symm
  have h1 : B14 m outs c main_v139 = R main_v139 := (from14 m outs c main_v139 (by decide)).symm
  calc R main_v143 = B15 m outs c main_v143 := from15 m outs c main_v143 (by decide)
    _ = divByNorm (B14 m outs c main_v136) (B14 m outs c main_v139) := stretch14_v143 (B14 m outs c)
    _ = divByNorm (R main_v136) (R main_v139) := by rw [h0, h1]

/-- The positive bundles' history rows' lengths. -/
theorem read_v144 : R main_v144 = rowNorm2048 (R main_v138) := by
  have h0 : B15 m outs c main_v138 = R main_v138 := (from15 m outs c main_v138 (by decide)).symm
  calc R main_v144 = B16 m outs c main_v144 := from16 m outs c main_v144 (by decide)
    _ = rowNorm2048 (B15 m outs c main_v138) := stretch15_v144 (B15 m outs c)
    _ = rowNorm2048 (R main_v138) := by rw [h0]

/-- The squared differences of the two views' divided rows, bundle side. -/
theorem read_v150 : R main_v150 = mulf (subf (R main_v143) (divByNorm (R main_v138) (R main_v144))) (subf (R main_v143) (divByNorm (R main_v138) (R main_v144))) := by
  have h0 : B16 m outs c main_v143 = R main_v143 := (from16 m outs c main_v143 (by decide)).symm
  have h1 : B16 m outs c main_v138 = R main_v138 := (from16 m outs c main_v138 (by decide)).symm
  have h2 : B16 m outs c main_v144 = R main_v144 := (from16 m outs c main_v144 (by decide)).symm
  calc R main_v150 = B17 m outs c main_v150 := from17 m outs c main_v150 (by decide)
    _ = mulf (subf (B16 m outs c main_v143) (divByNorm (B16 m outs c main_v138) (B16 m outs c main_v144))) (subf (B16 m outs c main_v143) (divByNorm (B16 m outs c main_v138) (B16 m outs c main_v144))) := stretch16_v150 (B16 m outs c)
    _ = mulf (subf (R main_v143) (divByNorm (R main_v138) (R main_v144))) (subf (R main_v143) (divByNorm (R main_v138) (R main_v144))) := by rw [h0, h1, h2]

/-- The bundle side's alignment loss. -/
theorem read_v153 : R main_v153 = meanRowSum (R main_v150) := by
  have h0 : B17 m outs c main_v150 = R main_v150 := (from17 m outs c main_v150 (by decide)).symm
  calc R main_v153 = B18 m outs c main_v153 := from18 m outs c main_v153 (by decide)
    _ = meanRowSum (B17 m outs c main_v150) := stretch17_v153 (B17 m outs c)
    _ = meanRowSum (R main_v150) := by rw [h0]

/-- The positive bundles' affinity rows' lengths, once more. -/
theorem read_v154 : R main_v154 = rowNorm2048 (R main_v136) := by
  have h0 : B18 m outs c main_v136 = R main_v136 := (from18 m outs c main_v136 (by decide)).symm
  calc R main_v154 = B19 m outs c main_v154 := from19 m outs c main_v154 (by decide)
    _ = rowNorm2048 (B18 m outs c main_v136) := stretch18_v154 (B18 m outs c)
    _ = rowNorm2048 (R main_v136) := by rw [h0]

/-- The fifth kernel's rows: the positive bundles' affinity rows divided by their lengths. -/
theorem read_v158 : R main_v158 = divByNorm (R main_v136) (R main_v154) := by
  have h0 : B19 m outs c main_v136 = R main_v136 := (from19 m outs c main_v136 (by decide)).symm
  have h1 : B19 m outs c main_v154 = R main_v154 := (from19 m outs c main_v154 (by decide)).symm
  calc R main_v158 = B20 m outs c main_v158 := from20 m outs c main_v158 (by decide)
    _ = divByNorm (B19 m outs c main_v136) (B19 m outs c main_v154) := stretch19_v158 (B19 m outs c)
    _ = divByNorm (R main_v136) (R main_v154) := by rw [h0, h1]

/-- The fifth kernel's row of squared lengths. -/
theorem read_v161 : R main_v161 = sqNormsRow (divByNorm (R main_v136) (R main_v154)) := by
  have h0 : B19 m outs c main_v136 = R main_v136 := (from19 m outs c main_v136 (by decide)).symm
  have h1 : B19 m outs c main_v154 = R main_v154 := (from19 m outs c main_v154 (by decide)).symm
  calc R main_v161 = B20 m outs c main_v161 := from20 m outs c main_v161 (by decide)
    _ = sqNormsRow (divByNorm (B19 m outs c main_v136) (B19 m outs c main_v154)) := stretch19_v161 (B19 m outs c)
    _ = sqNormsRow (divByNorm (R main_v136) (R main_v154)) := by rw [h0, h1]

/-! ## The user side and the result -/

/-- The fifth kernel's number, as a scalar. -/
theorem read_v163 : R main_v163 = shapeCast S_ (R main_v162) shapeCasts_S1x1_S_ := by
  have h0 : B21 m outs c main_v162 = R main_v162 := (from21 m outs c main_v162 (by decide)).symm
  calc R main_v163 = B22 m outs c main_v163 := from22 m outs c main_v163 (by decide)
    _ = shapeCast S_ (B21 m outs c main_v162) shapeCasts_S1x1_S_ := stretch21_v163 (B21 m outs c)
    _ = shapeCast S_ (R main_v162) shapeCasts_S1x1_S_ := by rw [h0]

/-- The positive bundles' history rows' lengths, once more. -/
theorem read_v164 : R main_v164 = rowNorm2048 (R main_v138) := by
  have h0 : B22 m outs c main_v138 = R main_v138 := (from22 m outs c main_v138 (by decide)).symm
  calc R main_v164 = B23 m outs c main_v164 := from23 m outs c main_v164 (by decide)
    _ = rowNorm2048 (B22 m outs c main_v138) := stretch22_v164 (B22 m outs c)
    _ = rowNorm2048 (R main_v138) := by rw [h0]

/-- The sixth kernel's rows. -/
theorem read_v168 : R main_v168 = divByNorm (R main_v138) (R main_v164) := by
  have h0 : B23 m outs c main_v138 = R main_v138 := (from23 m outs c main_v138 (by decide)).symm
  have h1 : B23 m outs c main_v164 = R main_v164 := (from23 m outs c main_v164 (by decide)).symm
  calc R main_v168 = B24 m outs c main_v168 := from24 m outs c main_v168 (by decide)
    _ = divByNorm (B23 m outs c main_v138) (B23 m outs c main_v164) := stretch23_v168 (B23 m outs c)
    _ = divByNorm (R main_v138) (R main_v164) := by rw [h0, h1]

/-- The sixth kernel's row of squared lengths. -/
theorem read_v171 : R main_v171 = sqNormsRow (divByNorm (R main_v138) (R main_v164)) := by
  have h0 : B23 m outs c main_v138 = R main_v138 := (from23 m outs c main_v138 (by decide)).symm
  have h1 : B23 m outs c main_v164 = R main_v164 := (from23 m outs c main_v164 (by decide)).symm
  calc R main_v171 = B24 m outs c main_v171 := from24 m outs c main_v171 (by decide)
    _ = sqNormsRow (divByNorm (B23 m outs c main_v138) (B23 m outs c main_v164)) := stretch23_v171 (B23 m outs c)
    _ = sqNormsRow (divByNorm (R main_v138) (R main_v164)) := by rw [h0, h1]

/-- The bundle side's contrastive loss. -/
theorem read_v176 : R main_v176 = sideLoss (R main_v153) (R main_v163) (shapeCast S_ (R main_v172) shapeCasts_S1x1_S_) := by
  have h0 : B25 m outs c main_v153 = R main_v153 := (from25 m outs c main_v153 (by decide)).symm
  have h1 : B25 m outs c main_v163 = R main_v163 := (from25 m outs c main_v163 (by decide)).symm
  have h2 : B25 m outs c main_v172 = R main_v172 := (from25 m outs c main_v172 (by decide)).symm
  calc R main_v176 = B26 m outs c main_v176 := from26 m outs c main_v176 (by decide)
    _ = sideLoss (B25 m outs c main_v153) (B25 m outs c main_v163) (shapeCast S_ (B25 m outs c main_v172) shapeCasts_S1x1_S_) := stretch25_v176 (B25 m outs c)
    _ = sideLoss (R main_v153) (R main_v163) (shapeCast S_ (R main_v172) shapeCasts_S1x1_S_) := by rw [h0, h1, h2]

/-- The batch's user rows, affinity view. -/
theorem read_v184 : R main_v184 = gatherUserRows (R main_v36) (R main_arg7) := by
  have h0 : B25 m outs c main_v36 = R main_v36 := (from25 m outs c main_v36 (by decide)).symm
  have h1 : B25 m outs c main_arg7 = R main_arg7 := (from25 m outs c main_arg7 (by decide)).symm
  calc R main_v184 = B26 m outs c main_v184 := from26 m outs c main_v184 (by decide)
    _ = gatherUserRows (B25 m outs c main_v36) (B25 m outs c main_arg7) := stretch25_v184 (B25 m outs c)
    _ = gatherUserRows (R main_v36) (R main_arg7) := by rw [h0, h1]

/-- The batch's user rows, history view. -/
theorem read_v192 : R main_v192 = gatherUserRows (R main_v74) (R main_arg7) := by
  have h0 : B25 m outs c main_v74 = R main_v74 := (from25 m outs c main_v74 (by decide)).symm
  have h1 : B25 m outs c main_arg7 = R main_arg7 := (from25 m outs c main_arg7 (by decide)).symm
  calc R main_v192 = B26 m outs c main_v192 := from26 m outs c main_v192 (by decide)
    _ = gatherUserRows (B25 m outs c main_v74) (B25 m outs c main_arg7) := stretch25_v192 (B25 m outs c)
    _ = gatherUserRows (R main_v74) (R main_arg7) := by rw [h0, h1]

/-- The affinity user rows' lengths. -/
theorem read_v193 : R main_v193 = rowNorm2048 (R main_v184) := by
  have h0 : B26 m outs c main_v184 = R main_v184 := (from26 m outs c main_v184 (by decide)).symm
  calc R main_v193 = B27 m outs c main_v193 := from27 m outs c main_v193 (by decide)
    _ = rowNorm2048 (B26 m outs c main_v184) := stretch26_v193 (B26 m outs c)
    _ = rowNorm2048 (R main_v184) := by rw [h0]

/-- The affinity user rows divided by their lengths. -/
theorem read_v197 : R main_v197 = divByNorm (R main_v184) (R main_v193) := by
  have h0 : B27 m outs c main_v184 = R main_v184 := (from27 m outs c main_v184 (by decide)).symm
  have h1 : B27 m outs c main_v193 = R main_v193 := (from27 m outs c main_v193 (by decide)).symm
  calc R main_v197 = B28 m outs c main_v197 := from28 m outs c main_v197 (by decide)
    _ = divByNorm (B27 m outs c main_v184) (B27 m outs c main_v193) := stretch27_v197 (B27 m outs c)
    _ = divByNorm (R main_v184) (R main_v193) := by rw [h0, h1]

/-- The history user rows' lengths. -/
theorem read_v198 : R main_v198 = rowNorm2048 (R main_v192) := by
  have h0 : B28 m outs c main_v192 = R main_v192 := (from28 m outs c main_v192 (by decide)).symm
  calc R main_v198 = B29 m outs c main_v198 := from29 m outs c main_v198 (by decide)
    _ = rowNorm2048 (B28 m outs c main_v192) := stretch28_v198 (B28 m outs c)
    _ = rowNorm2048 (R main_v192) := by rw [h0]

/-- The user side's alignment loss. -/
theorem read_v207 : R main_v207 = meanRowSum (mulf (subf (R main_v197) (divByNorm (R main_v192) (R main_v198))) (subf (R main_v197) (divByNorm (R main_v192) (R main_v198)))) := by
  have h0 : B29 m outs c main_v197 = R main_v197 := (from29 m outs c main_v197 (by decide)).symm
  have h1 : B29 m outs c main_v192 = R main_v192 := (from29 m outs c main_v192 (by decide)).symm
  have h2 : B29 m outs c main_v198 = R main_v198 := (from29 m outs c main_v198 (by decide)).symm
  calc R main_v207 = B30 m outs c main_v207 := from30 m outs c main_v207 (by decide)
    _ = meanRowSum (mulf (subf (B29 m outs c main_v197) (divByNorm (B29 m outs c main_v192) (B29 m outs c main_v198))) (subf (B29 m outs c main_v197) (divByNorm (B29 m outs c main_v192) (B29 m outs c main_v198)))) := stretch29_v207 (B29 m outs c)
    _ = meanRowSum (mulf (subf (R main_v197) (divByNorm (R main_v192) (R main_v198))) (subf (R main_v197) (divByNorm (R main_v192) (R main_v198)))) := by rw [h0, h1, h2]

/-- The affinity user rows' lengths, once more. -/
theorem read_v208 : R main_v208 = rowNorm2048 (R main_v184) := by
  have h0 : B30 m outs c main_v184 = R main_v184 := (from30 m outs c main_v184 (by decide)).symm
  calc R main_v208 = B31 m outs c main_v208 := from31 m outs c main_v208 (by decide)
    _ = rowNorm2048 (B30 m outs c main_v184) := stretch30_v208 (B30 m outs c)
    _ = rowNorm2048 (R main_v184) := by rw [h0]

/-- The seventh kernel's rows. -/
theorem read_v212 : R main_v212 = divByNorm (R main_v184) (R main_v208) := by
  have h0 : B31 m outs c main_v184 = R main_v184 := (from31 m outs c main_v184 (by decide)).symm
  have h1 : B31 m outs c main_v208 = R main_v208 := (from31 m outs c main_v208 (by decide)).symm
  calc R main_v212 = B32 m outs c main_v212 := from32 m outs c main_v212 (by decide)
    _ = divByNorm (B31 m outs c main_v184) (B31 m outs c main_v208) := stretch31_v212 (B31 m outs c)
    _ = divByNorm (R main_v184) (R main_v208) := by rw [h0, h1]

/-- The seventh kernel's row of squared lengths. -/
theorem read_v215 : R main_v215 = sqNormsRow (divByNorm (R main_v184) (R main_v208)) := by
  have h0 : B31 m outs c main_v184 = R main_v184 := (from31 m outs c main_v184 (by decide)).symm
  have h1 : B31 m outs c main_v208 = R main_v208 := (from31 m outs c main_v208 (by decide)).symm
  calc R main_v215 = B32 m outs c main_v215 := from32 m outs c main_v215 (by decide)
    _ = sqNormsRow (divByNorm (B31 m outs c main_v184) (B31 m outs c main_v208)) := stretch31_v215 (B31 m outs c)
    _ = sqNormsRow (divByNorm (R main_v184) (R main_v208)) := by rw [h0, h1]

/-- The seventh kernel's number, as a scalar. -/
theorem read_v217 : R main_v217 = shapeCast S_ (R main_v216) shapeCasts_S1x1_S_ := by
  have h0 : B33 m outs c main_v216 = R main_v216 := (from33 m outs c main_v216 (by decide)).symm
  calc R main_v217 = B34 m outs c main_v217 := from34 m outs c main_v217 (by decide)
    _ = shapeCast S_ (B33 m outs c main_v216) shapeCasts_S1x1_S_ := stretch33_v217 (B33 m outs c)
    _ = shapeCast S_ (R main_v216) shapeCasts_S1x1_S_ := by rw [h0]

/-- The history user rows' lengths, once more. -/
theorem read_v218 : R main_v218 = rowNorm2048 (R main_v192) := by
  have h0 : B34 m outs c main_v192 = R main_v192 := (from34 m outs c main_v192 (by decide)).symm
  calc R main_v218 = B35 m outs c main_v218 := from35 m outs c main_v218 (by decide)
    _ = rowNorm2048 (B34 m outs c main_v192) := stretch34_v218 (B34 m outs c)
    _ = rowNorm2048 (R main_v192) := by rw [h0]

/-- The eighth kernel's rows. -/
theorem read_v222 : R main_v222 = divByNorm (R main_v192) (R main_v218) := by
  have h0 : B35 m outs c main_v192 = R main_v192 := (from35 m outs c main_v192 (by decide)).symm
  have h1 : B35 m outs c main_v218 = R main_v218 := (from35 m outs c main_v218 (by decide)).symm
  calc R main_v222 = B36 m outs c main_v222 := from36 m outs c main_v222 (by decide)
    _ = divByNorm (B35 m outs c main_v192) (B35 m outs c main_v218) := stretch35_v222 (B35 m outs c)
    _ = divByNorm (R main_v192) (R main_v218) := by rw [h0, h1]

/-- The eighth kernel's row of squared lengths. -/
theorem read_v225 : R main_v225 = sqNormsRow (divByNorm (R main_v192) (R main_v218)) := by
  have h0 : B35 m outs c main_v192 = R main_v192 := (from35 m outs c main_v192 (by decide)).symm
  have h1 : B35 m outs c main_v218 = R main_v218 := (from35 m outs c main_v218 (by decide)).symm
  calc R main_v225 = B36 m outs c main_v225 := from36 m outs c main_v225 (by decide)
    _ = sqNormsRow (divByNorm (B35 m outs c main_v192) (B35 m outs c main_v218)) := stretch35_v225 (B35 m outs c)
    _ = sqNormsRow (divByNorm (R main_v192) (R main_v218)) := by rw [h0, h1]

/-- The result. -/
theorem read_v235 : R main_v235 = stackOut (R main_v134) (R main_v176) (sideLoss (R main_v207) (R main_v217) (shapeCast S_ (R main_v226) shapeCasts_S1x1_S_)) := by
  have h0 : B37 m outs c main_v134 = R main_v134 := (from37 m outs c main_v134 (by decide)).symm
  have h1 : B37 m outs c main_v176 = R main_v176 := (from37 m outs c main_v176 (by decide)).symm
  have h2 : B37 m outs c main_v207 = R main_v207 := (from37 m outs c main_v207 (by decide)).symm
  have h3 : B37 m outs c main_v217 = R main_v217 := (from37 m outs c main_v217 (by decide)).symm
  have h4 : B37 m outs c main_v226 = R main_v226 := (from37 m outs c main_v226 (by decide)).symm
  calc R main_v235 = B38 m outs c main_v235 := rfl
    _ = stackOut (B37 m outs c main_v134) (B37 m outs c main_v176) (sideLoss (B37 m outs c main_v207) (B37 m outs c main_v217) (shapeCast S_ (B37 m outs c main_v226) shapeCasts_S1x1_S_)) := stretch37_v235 (B37 m outs c)
    _ = stackOut (R main_v134) (R main_v176) (sideLoss (R main_v207) (R main_v217) (shapeCast S_ (R main_v226) shapeCasts_S1x1_S_)) := by rw [h0, h1, h2, h3, h4]

/-! ## What the kernels leave, and what they are entered with -/

/-- The first kernel's table, as the kernel leaves it. -/
theorem read_v16_0 : R main_v16_0 = outs.v16_0 c (B1 m) := by
  refine (from2 m outs c main_v16_0 (by decide)).trans ?_
  show B2 m outs c main_v16_0 = _
  simp only [B2, Function.update_of_ne (StableHlo.devRef_ne_of_ne (by decide : main_v16_0 ≠ main_v16_1) : (Proc.devRef .tc main_v16_0 : DevRef τ sig) ≠ Proc.devRef .tc main_v16_1), Function.update_self]
/-- The first kernel's accumulator, as the kernel leaves it. -/
theorem read_v16_1 : R main_v16_1 = outs.v16_1 c (B1 m) := by
  refine (from2 m outs c main_v16_1 (by decide)).trans ?_
  show B2 m outs c main_v16_1 = _
  simp only [B2, Function.update_self]
/-- The second kernel's accumulator, as the kernel leaves it. -/
theorem read_v34 : R main_v34 = outs.v34 c (B3 m outs) := by
  refine (from4 m outs c main_v34 (by decide)).trans ?_
  show B4 m outs c main_v34 = _
  simp only [B4, Function.update_self]
/-- The third kernel's table, as the kernel leaves it. -/
theorem read_v54_0 : R main_v54_0 = outs.v54_0 c (B6 m outs) := by
  refine (from7 m outs c main_v54_0 (by decide)).trans ?_
  show B7 m outs c main_v54_0 = _
  simp only [B7, Function.update_of_ne (StableHlo.devRef_ne_of_ne (by decide : main_v54_0 ≠ main_v54_1) : (Proc.devRef .tc main_v54_0 : DevRef τ sig) ≠ Proc.devRef .tc main_v54_1), Function.update_self]
/-- The third kernel's accumulator, as the kernel leaves it. -/
theorem read_v54_1 : R main_v54_1 = outs.v54_1 c (B6 m outs) := by
  refine (from7 m outs c main_v54_1 (by decide)).trans ?_
  show B7 m outs c main_v54_1 = _
  simp only [B7, Function.update_self]
/-- The fourth kernel's accumulator, as the kernel leaves it. -/
theorem read_v72 : R main_v72 = outs.v72 c (B8 m outs) := by
  refine (from9 m outs c main_v72 (by decide)).trans ?_
  show B9 m outs c main_v72 = _
  simp only [B9, Function.update_self]
/-- The fifth kernel's number, as the kernel leaves it. -/
theorem read_v162 : R main_v162 = outs.v162 c (B20 m outs) := by
  refine (from21 m outs c main_v162 (by decide)).trans ?_
  show B21 m outs c main_v162 = _
  simp only [B21, Function.update_self]
/-- The sixth kernel's number, as the kernel leaves it. -/
theorem read_v172 : R main_v172 = outs.v172 c (B24 m outs) := by
  refine (from25 m outs c main_v172 (by decide)).trans ?_
  show B25 m outs c main_v172 = _
  simp only [B25, Function.update_self]
/-- The seventh kernel's number, as the kernel leaves it. -/
theorem read_v216 : R main_v216 = outs.v216 c (B32 m outs) := by
  refine (from33 m outs c main_v216 (by decide)).trans ?_
  show B33 m outs c main_v216 = _
  simp only [B33, Function.update_self]
/-- The eighth kernel's number, as the kernel leaves it. -/
theorem read_v226 : R main_v226 = outs.v226 c (B36 m outs) := by
  refine (from37 m outs c main_v226 (by decide)).trans ?_
  show B37 m outs c main_v226 = _
  simp only [B37, Function.update_self]

/-- A kernel is entered with its input arrays holding what they hold at the end. -/
theorem entry0 : B1 m c main_v14 = R main_v14 ∧ B1 m c main_v15 = R main_v15 :=
  ⟨(from1 m outs c main_v14 (by decide)).symm, (from1 m outs c main_v15 (by decide)).symm⟩
theorem entry1 : B3 m outs c main_v32 = R main_v32 ∧ B3 m outs c main_v33 = R main_v33 :=
  ⟨(from3 m outs c main_v32 (by decide)).symm, (from3 m outs c main_v33 (by decide)).symm⟩
theorem entry2 : B6 m outs c main_v52 = R main_v52 ∧ B6 m outs c main_v53 = R main_v53 :=
  ⟨(from6 m outs c main_v52 (by decide)).symm, (from6 m outs c main_v53 (by decide)).symm⟩
theorem entry3 : B8 m outs c main_v70 = R main_v70 ∧ B8 m outs c main_v71 = R main_v71 :=
  ⟨(from8 m outs c main_v70 (by decide)).symm, (from8 m outs c main_v71 (by decide)).symm⟩
theorem entry4 : B20 m outs c main_v158 = R main_v158 ∧ B20 m outs c main_v161 = R main_v161 :=
  ⟨(from20 m outs c main_v158 (by decide)).symm, (from20 m outs c main_v161 (by decide)).symm⟩
theorem entry5 : B24 m outs c main_v168 = R main_v168 ∧ B24 m outs c main_v171 = R main_v171 :=
  ⟨(from24 m outs c main_v168 (by decide)).symm, (from24 m outs c main_v171 (by decide)).symm⟩
theorem entry6 : B32 m outs c main_v212 = R main_v212 ∧ B32 m outs c main_v215 = R main_v215 :=
  ⟨(from32 m outs c main_v212 (by decide)).symm, (from32 m outs c main_v215 (by decide)).symm⟩
theorem entry7 : B36 m outs c main_v222 = R main_v222 ∧ B36 m outs c main_v225 = R main_v225 :=
  ⟨(from36 m outs c main_v222 (by decide)).symm, (from36 m outs c main_v225 (by decide)).symm⟩

/-- An argument array holds at the end what it held at launch: no item writes it. -/
theorem read_arg (r : Ref sig .tc) (h : r ∉ writtenFrom0) : R r = m ((c : Thread nD τ).loc r) :=
  kept m outs c r h

end Cert.KernelIdeal.Value

end
-- ==== Proof.KV.Bridge.lean ====
import proofs.«108982_j38147899523261_2_alg».proof.Proof.KV.Read
import proofs.«108982_j38147899523261_2_alg».proof.Proof.Ref.Args
import Idealize.ShloMosaic.Lib.Pipeline.Value

/-! The value of the kernel program's result, given what its eight kernels leave.

The kernel program and the reference compute the same stages in the same order, except that the kernel program
hands eight of them to kernels: the four layer updates (divide the sparse product by a constant, scale each row to
unit length, add to the accumulator), which it feeds and reads back through a row-major re-reading of the 64-wide
tables as 128-wide rows, and the four uniformity losses of rows its host side has normalised. `RegionSpec` says of
each kernel that, read back as the reference shapes its arrays, what it leaves is the reference's stage of what it
was given. Under that specification every buffer of the kernel program holds at the end of the run the reference's
named intermediate of the same stage, as a function of the fifteen argument arrays: the lemmas `at_…` walk the
program in order, each reading one buffer off the stretch that computes it and the buffers read before; the
re-reading there and back is the identity. The last of them is the result buffer, and it holds the reference's
result. -/

set_option maxRecDepth 16384

noncomputable section

namespace Cert.KernelIdeal.Value

open Cert.KernelIdeal Cert.KernelIdeal.Gen Cert.KernelIdeal.Hand Idealize.ShloMosaic Idealize.ShloMosaic.TcCoe Idealize.SL.Sem Idealize.ShloMosaic.StableHlo
open Cert.ReferenceIdeal.Hand (Args argsOf wrapIdx divConst rowNormalize300000 rowNormalize150000 rowNormalize2048 rowNorm2048
  scoreCol uLossN sideLoss stackOut)

variable {F : FTy → Type} [FloatOps F] [Named F]
variable (m : (ℓ : Loc nD τ sig) → Buf (Elt F) ℓ) (outs : Outs F) (c : Dev nD)

/-- What core `c`'s buffers hold at the end of the run. -/
local notation "R" => B38 m outs c

/-- The kernel program's fifteen argument arrays on core `c` at launch, under the reference's names. -/
def kargs : Args F where
  users_feat := m ((c : Thread nD τ).loc main_arg0)
  items_feat := m ((c : Thread nD τ).loc main_arg1)
  bundles_feat := m ((c : Thread nD τ).loc main_arg2)
  bundle_freq := m ((c : Thread nD τ).loc main_arg3)
  aff_vals := m ((c : Thread nD τ).loc main_arg4)
  hist_vals := m ((c : Thread nD τ).loc main_arg5)
  agg_vals := m ((c : Thread nD τ).loc main_arg6)
  users := m ((c : Thread nD τ).loc main_arg7)
  bundles := m ((c : Thread nD τ).loc main_arg8)
  aff_rows := m ((c : Thread nD τ).loc main_arg9)
  aff_cols := m ((c : Thread nD τ).loc main_arg10)
  hist_rows := m ((c : Thread nD τ).loc main_arg11)
  hist_cols := m ((c : Thread nD τ).loc main_arg12)
  agg_rows := m ((c : Thread nD τ).loc main_arg13)
  agg_cols := m ((c : Thread nD τ).loc main_arg14)

/-- What the eight kernels leave on core `c`, each as the reference's stage of what the kernel was entered with, for any
    contents `W` of the buffers at its entry. The layer updates' arrays are read as the 64-wide tables they hold; the
    uniformity kernels' one number is read as a scalar, and they are given the squared lengths of the very rows they
    are given. -/
structure RegionSpec : Prop where
  /-- The first kernel's table: the first affinity product divided by 2. -/
  feats0 : ∀ W : Dev nD → Valuation τ sig (Elt F), shapeCast S300000x64 (outs.v16_0 c W) shapeCasts_S150000x128_S300000x64
    = divConst 0x40000000#32 bcast_S_S300000x64 (shapeCast S300000x64 (W c main_v14) shapeCasts_S150000x128_S300000x64)
  /-- The first kernel's accumulator: the start table plus the normalised rows of the product divided by 2. -/
  acc0 : ∀ W : Dev nD → Valuation τ sig (Elt F), shapeCast S300000x64 (outs.v16_1 c W) shapeCasts_S150000x128_S300000x64
    = addf (shapeCast S300000x64 (W c main_v15) shapeCasts_S150000x128_S300000x64) (rowNormalize300000 (divConst 0x40000000#32 bcast_S_S300000x64 (shapeCast S300000x64 (W c main_v14) shapeCasts_S150000x128_S300000x64)))
  /-- The second kernel's accumulator: the first plus the normalised rows of the second product divided by 3. -/
  acc1 : ∀ W : Dev nD → Valuation τ sig (Elt F), shapeCast S300000x64 (outs.v34 c W) shapeCasts_S150000x128_S300000x64
    = addf (shapeCast S300000x64 (W c main_v33) shapeCasts_S150000x128_S300000x64) (rowNormalize300000 (divConst 0x40400000#32 bcast_S_S300000x64 (shapeCast S300000x64 (W c main_v32) shapeCasts_S150000x128_S300000x64)))
  /-- The third kernel's table: the first history product divided by 2. -/
  feats2 : ∀ W : Dev nD → Valuation τ sig (Elt F), shapeCast S150000x64 (outs.v54_0 c W) shapeCasts_S75000x128_S150000x64
    = divConst 0x40000000#32 bcast_S_S150000x64 (shapeCast S150000x64 (W c main_v52) shapeCasts_S75000x128_S150000x64)
  /-- The third kernel's accumulator. -/
  acc2 : ∀ W : Dev nD → Valuation τ sig (Elt F), shapeCast S150000x64 (outs.v54_1 c W) shapeCasts_S75000x128_S150000x64
    = addf (shapeCast S150000x64 (W c main_v53) shapeCasts_S75000x128_S150000x64) (rowNormalize150000 (divConst 0x40000000#32 bcast_S_S150000x64 (shapeCast S150000x64 (W c main_v52) shapeCasts_S75000x128_S150000x64)))
  /-- The fourth kernel's accumulator. -/
  acc3 : ∀ W : Dev nD → Valuation τ sig (Elt F), shapeCast S150000x64 (outs.v72 c W) shapeCasts_S75000x128_S150000x64
    = addf (shapeCast S150000x64 (W c main_v71) shapeCasts_S75000x128_S150000x64) (rowNormalize150000 (divConst 0x40400000#32 bcast_S_S150000x64 (shapeCast S150000x64 (W c main_v70) shapeCasts_S75000x128_S150000x64)))
  /-- The fifth kernel's number: the uniformity loss of the rows it is given. -/
  ul4 : ∀ W : Dev nD → Valuation τ sig (Elt F), W c main_v161 = sqNormsRow (W c main_v158) →
    shapeCast S_ (outs.v162 c W) shapeCasts_S1x1_S_ = uLossN (W c main_v158)
  /-- The sixth kernel's number. -/
  ul5 : ∀ W : Dev nD → Valuation τ sig (Elt F), W c main_v171 = sqNormsRow (W c main_v168) →
    shapeCast S_ (outs.v172 c W) shapeCasts_S1x1_S_ = uLossN (W c main_v168)
  /-- The seventh kernel's number. -/
  ul6 : ∀ W : Dev nD → Valuation τ sig (Elt F), W c main_v215 = sqNormsRow (W c main_v212) →
    shapeCast S_ (outs.v216 c W) shapeCasts_S1x1_S_ = uLossN (W c main_v212)
  /-- The eighth kernel's number. -/
  ul7 : ∀ W : Dev nD → Valuation τ sig (Elt F), W c main_v225 = sqNormsRow (W c main_v222) →
    shapeCast S_ (outs.v226 c W) shapeCasts_S1x1_S_ = uLossN (W c main_v222)

/-! ## The re-reading there and back -/

/-- A table of 300000 rows read as 128-wide rows and back as 64-wide rows is itself. -/
theorem unpack_pack_aff (x : FVec F S300000x64 .f32) : shapeCast S300000x64 (shapeCast S150000x128 (x) shapeCasts_S300000x64_S150000x128) shapeCasts_S150000x128_S300000x64 = x :=
  shapeCast_shapeCast x _ _
/-- A table of 150000 rows read as 128-wide rows and back as 64-wide rows is itself. -/
theorem unpack_pack_hist (x : FVec F S150000x64 .f32) : shapeCast S150000x64 (shapeCast S75000x128 (x) shapeCasts_S150000x64_S75000x128) shapeCasts_S75000x128_S150000x64 = x :=
  shapeCast_shapeCast x _ _

/-! ## The arguments -/

theorem at_arg0 : R main_arg0 = (kargs m c).users_feat := read_arg m outs c main_arg0 (by decide)
theorem at_arg1 : R main_arg1 = (kargs m c).items_feat := read_arg m outs c main_arg1 (by decide)
theorem at_arg2 : R main_arg2 = (kargs m c).bundles_feat := read_arg m outs c main_arg2 (by decide)
theorem at_arg3 : R main_arg3 = (kargs m c).bundle_freq := read_arg m outs c main_arg3 (by decide)
theorem at_arg4 : R main_arg4 = (kargs m c).aff_vals := read_arg m outs c main_arg4 (by decide)
theorem at_arg5 : R main_arg5 = (kargs m c).hist_vals := read_arg m outs c main_arg5 (by decide)
theorem at_arg6 : R main_arg6 = (kargs m c).agg_vals := read_arg m outs c main_arg6 (by decide)
theorem at_arg7 : R main_arg7 = (kargs m c).users := read_arg m outs c main_arg7 (by decide)
theorem at_arg8 : R main_arg8 = (kargs m c).bundles := read_arg m outs c main_arg8 (by decide)
theorem at_arg9 : R main_arg9 = (kargs m c).aff_rows := read_arg m outs c main_arg9 (by decide)
theorem at_arg10 : R main_arg10 = (kargs m c).aff_cols := read_arg m outs c main_arg10 (by decide)
theorem at_arg11 : R main_arg11 = (kargs m c).hist_rows := read_arg m outs c main_arg11 (by decide)
theorem at_arg12 : R main_arg12 = (kargs m c).hist_cols := read_arg m outs c main_arg12 (by decide)
theorem at_arg13 : R main_arg13 = (kargs m c).agg_rows := read_arg m outs c main_arg13 (by decide)
theorem at_arg14 : R main_arg14 = (kargs m c).agg_cols := read_arg m outs c main_arg14 (by decide)

variable (hs : RegionSpec outs c)

/-! ## The affinity view's two layers -/

theorem at_v14 : R main_v14 = shapeCast S150000x128 ((kargs m c).affProp1) shapeCasts_S300000x64_S150000x128 := by
  rw [read_v14 m outs c, at_arg9 m outs c, at_arg10 m outs c, at_arg4 m outs c, at_arg0 m outs c, at_arg1 m outs c]; rfl
theorem at_v15 : R main_v15 = shapeCast S150000x128 ((kargs m c).affTable0) shapeCasts_S300000x64_S150000x128 := by
  rw [read_v15 m outs c, at_arg0 m outs c, at_arg1 m outs c]; rfl
include hs
/-- The first layer's table, read as 64-wide rows. -/
theorem at_v16_0 : shapeCast S300000x64 (R main_v16_0) shapeCasts_S150000x128_S300000x64 = (kargs m c).affLayer1 := by
  rw [read_v16_0 m outs c, hs.feats0 (B1 m), (entry0 m outs c).1, at_v14 m outs c, unpack_pack_aff]; rfl
/-- The accumulator after the first layer, read as 64-wide rows. -/
theorem at_v16_1 : shapeCast S300000x64 (R main_v16_1) shapeCasts_S150000x128_S300000x64 = (kargs m c).affAcc1 := by
  rw [read_v16_1 m outs c, hs.acc0 (B1 m), (entry0 m outs c).1, (entry0 m outs c).2, at_v14 m outs c, at_v15 m outs c]
  simp only [unpack_pack_aff]; rfl
theorem at_v32 : R main_v32 = shapeCast S150000x128 ((kargs m c).affProp2) shapeCasts_S300000x64_S150000x128 := by
  rw [read_v32 m outs c, at_arg9 m outs c, at_arg10 m outs c, at_arg4 m outs c, at_v16_0 m outs c hs]; rfl
theorem at_v33 : R main_v33 = shapeCast S150000x128 ((kargs m c).affAcc1) shapeCasts_S300000x64_S150000x128 := by
  rw [read_v33 m outs c, at_v16_1 m outs c hs]
/-- The accumulator after the second layer, read as 64-wide rows. -/
theorem at_v34 : shapeCast S300000x64 (R main_v34) shapeCasts_S150000x128_S300000x64 = (kargs m c).affAcc2 := by
  rw [read_v34 m outs c, hs.acc1 (B3 m outs), (entry1 m outs c).1, (entry1 m outs c).2, at_v32 m outs c hs, at_v33 m outs c hs]
  simp only [unpack_pack_aff]; rfl
theorem at_v36 : R main_v36 = (kargs m c).affU := by rw [read_v36 m outs c, at_v34 m outs c hs]; rfl
theorem at_v37 : R main_v37 = (kargs m c).affI := by rw [read_v37 m outs c, at_v34 m outs c hs]; rfl

/-! ## The history view's two layers -/

omit hs in
theorem at_v38 : R main_v38 = (kargs m c).histTable0 := by rw [read_v38 m outs c, at_arg0 m outs c, at_arg2 m outs c]; rfl
omit hs in
theorem at_v52 : R main_v52 = shapeCast S75000x128 ((kargs m c).histProp1) shapeCasts_S150000x64_S75000x128 := by
  rw [read_v52 m outs c, read_v49 m outs c, read_v50 m outs c, read_v48 m outs c, at_arg11 m outs c, at_arg5 m outs c, at_arg0 m outs c, at_arg2 m outs c, at_arg12 m outs c]; rfl
omit hs in
theorem at_v53 : R main_v53 = shapeCast S75000x128 ((kargs m c).histTable0) shapeCasts_S150000x64_S75000x128 := by rw [read_v53 m outs c, at_v38 m outs c]
theorem at_v54_0 : shapeCast S150000x64 (R main_v54_0) shapeCasts_S75000x128_S150000x64 = (kargs m c).histLayer1 := by
  rw [read_v54_0 m outs c, hs.feats2 (B6 m outs), (entry2 m outs c).1, at_v52 m outs c, unpack_pack_hist]; rfl
theorem at_v54_1 : shapeCast S150000x64 (R main_v54_1) shapeCasts_S75000x128_S150000x64 = (kargs m c).histAcc1 := by
  rw [read_v54_1 m outs c, hs.acc2 (B6 m outs), (entry2 m outs c).1, (entry2 m outs c).2, at_v52 m outs c, at_v53 m outs c]
  simp only [unpack_pack_hist]; rfl
theorem at_v70 : R main_v70 = shapeCast S75000x128 ((kargs m c).histProp2) shapeCasts_S150000x64_S75000x128 := by
  rw [read_v70 m outs c, at_arg11 m outs c, at_arg12 m outs c, at_arg5 m outs c, at_v54_0 m outs c hs]; rfl
theorem at_v71 : R main_v71 = shapeCast S75000x128 ((kargs m c).histAcc1) shapeCasts_S150000x64_S75000x128 := by
  rw [read_v71 m outs c, at_v54_1 m outs c hs]
theorem at_v72 : shapeCast S150000x64 (R main_v72) shapeCasts_S75000x128_S150000x64 = (kargs m c).histAcc2 := by
  rw [read_v72 m outs c, hs.acc3 (B8 m outs), (entry3 m outs c).1, (entry3 m outs c).2, at_v70 m outs c hs, at_v71 m outs c hs]
  simp only [unpack_pack_hist]; rfl
theorem at_v74 : R main_v74 = (kargs m c).histU := by rw [read_v74 m outs c, at_v72 m outs c hs]; rfl
theorem at_v75 : R main_v75 = (kargs m c).histB := by rw [read_v75 m outs c, at_v72 m outs c hs]; rfl

/-! ## The batch and the ranking loss -/

theorem at_v95 : R main_v95 = (kargs m c).affBe := by
  rw [read_v95 m outs c, at_arg13 m outs c, at_arg14 m outs c, at_arg6 m outs c, at_v37 m outs c hs, at_arg8 m outs c]; rfl
omit hs in
theorem at_v100 : R main_v100 = wrapIdx 50000#32 bcast_S_S2048x2 (kargs m c).bundles := by
  rw [read_v100 m outs c, at_arg8 m outs c]
theorem at_v102 : R main_v102 = (kargs m c).histBe := by
  rw [read_v102 m outs c, at_v75 m outs c hs, at_v100 m outs c]; rfl
theorem at_v130 : R main_v130
    = subf (scoreCol 0 slices_S2048x2_S2048x1_0_0 (kargs m c).pred) (scoreCol 1 slices_S2048x2_S2048x1_0_1 (kargs m c).pred) := by
  rw [read_v130 m outs c, at_v95 m outs c hs, at_v75 m outs c hs, at_v100 m outs c, at_arg3 m outs c, at_arg8 m outs c]; rfl
theorem at_v134 : R main_v134 = (kargs m c).bpr := by
  rw [read_v134 m outs c, read_v131 m outs c, at_v130 m outs c hs]; rfl
theorem at_v136 : R main_v136 = (kargs m c).ab := by rw [read_v136 m outs c, at_v95 m outs c hs]; rfl
theorem at_v138 : R main_v138 = (kargs m c).hb := by rw [read_v138 m outs c, at_v102 m outs c hs]; rfl

/-! ## The bundle side's contrastive loss -/

theorem at_v143 : R main_v143 = rowNormalize2048 (kargs m c).ab := by
  rw [read_v143 m outs c, read_v139 m outs c, at_v136 m outs c hs]; rfl
theorem at_v153 : R main_v153 = (kargs m c).bundleA := by
  rw [read_v153 m outs c, read_v150 m outs c, at_v143 m outs c hs, read_v144 m outs c, at_v138 m outs c hs]; rfl
theorem at_v158 : R main_v158 = (kargs m c).abN := by
  rw [read_v158 m outs c, read_v154 m outs c, at_v136 m outs c hs]; rfl
theorem at_v161 : R main_v161 = sqNormsRow (kargs m c).abN := by
  rw [read_v161 m outs c, read_v154 m outs c, at_v136 m outs c hs]; rfl
theorem at_v163 : R main_v163 = (kargs m c).bundleU1 := by
  have hq : B20 m outs c main_v161 = sqNormsRow (B20 m outs c main_v158) := by
    rw [(entry4 m outs c).1, (entry4 m outs c).2, at_v161 m outs c hs, at_v158 m outs c hs]
  rw [read_v163 m outs c, read_v162 m outs c, hs.ul4 (B20 m outs) hq, (entry4 m outs c).1, at_v158 m outs c hs]; rfl
theorem at_v168 : R main_v168 = (kargs m c).hbN := by
  rw [read_v168 m outs c, read_v164 m outs c, at_v138 m outs c hs]; rfl
theorem at_v171 : R main_v171 = sqNormsRow (kargs m c).hbN := by
  rw [read_v171 m outs c, read_v164 m outs c, at_v138 m outs c hs]; rfl
theorem at_v172 : shapeCast S_ (R main_v172) shapeCasts_S1x1_S_ = (kargs m c).bundleU2 := by
  have hq : B24 m outs c main_v171 = sqNormsRow (B24 m outs c main_v168) := by
    rw [(entry5 m outs c).1, (entry5 m outs c).2, at_v171 m outs c hs, at_v168 m outs c hs]
  rw [read_v172 m outs c, hs.ul5 (B24 m outs) hq, (entry5 m outs c).1, at_v168 m outs c hs]; rfl
theorem at_v176 : R main_v176 = (kargs m c).bundleC := by
  rw [read_v176 m outs c, at_v153 m outs c hs, at_v163 m outs c hs, at_v172 m outs c hs]; rfl

/-! ## The user side's contrastive loss -/

theorem at_v184 : R main_v184 = (kargs m c).au := by rw [read_v184 m outs c, at_v36 m outs c hs, at_arg7 m outs c]; rfl
theorem at_v192 : R main_v192 = (kargs m c).hu := by rw [read_v192 m outs c, at_v74 m outs c hs, at_arg7 m outs c]; rfl
theorem at_v197 : R main_v197 = rowNormalize2048 (kargs m c).au := by
  rw [read_v197 m outs c, read_v193 m outs c, at_v184 m outs c hs]; rfl
theorem at_v207 : R main_v207 = (kargs m c).userA := by
  rw [read_v207 m outs c, at_v197 m outs c hs, read_v198 m outs c, at_v192 m outs c hs]; rfl
theorem at_v212 : R main_v212 = (kargs m c).auN := by
  rw [read_v212 m outs c, read_v208 m outs c, at_v184 m outs c hs]; rfl
theorem at_v215 : R main_v215 = sqNormsRow (kargs m c).auN := by
  rw [read_v215 m outs c, read_v208 m outs c, at_v184 m outs c hs]; rfl
theorem at_v217 : R main_v217 = (kargs m c).userU1 := by
  have hq : B32 m outs c main_v215 = sqNormsRow (B32 m outs c main_v212) := by
    rw [(entry6 m outs c).1, (entry6 m outs c).2, at_v215 m outs c hs, at_v212 m outs c hs]
  rw [read_v217 m outs c, read_v216 m outs c, hs.ul6 (B32 m outs) hq, (entry6 m outs c).1, at_v212 m outs c hs]; rfl
theorem at_v222 : R main_v222 = (kargs m c).huN := by
  rw [read_v222 m outs c, read_v218 m outs c, at_v192 m outs c hs]; rfl
theorem at_v225 : R main_v225 = sqNormsRow (kargs m c).huN := by
  rw [read_v225 m outs c, read_v218 m outs c, at_v192 m outs c hs]; rfl
theorem at_v226 : shapeCast S_ (R main_v226) shapeCasts_S1x1_S_ = (kargs m c).userU2 := by
  have hq : B36 m outs c main_v225 = sqNormsRow (B36 m outs c main_v222) := by
    rw [(entry7 m outs c).1, (entry7 m outs c).2, at_v225 m outs c hs, at_v222 m outs c hs]
  rw [read_v226 m outs c, hs.ul7 (B36 m outs) hq, (entry7 m outs c).1, at_v222 m outs c hs]; rfl

/-! ## The result -/

/-- THE KERNEL PROGRAM'S RESULT. Given what the eight kernels leave, the result buffer holds at the end of the run the
    reference's result as a function of the fifteen argument arrays. -/
theorem value_kernel : R main_v235 = (kargs m c).out := by
  rw [read_v235 m outs c, at_v134 m outs c hs, at_v176 m outs c hs, at_v207 m outs c hs, at_v217 m outs c hs, at_v226 m outs c hs]; rfl

end Cert.KernelIdeal.Value

end
-- ==== Proof.KV.Agree.lean ====
import proofs.«108982_j38147899523261_2_alg».proof.Proof.KV.Bridge

/-! The two programs launched with the same arguments.

`Agree m m'` says that the kernel program's memory `m` and the reference's memory `m'` hold the same fifteen argument
arrays on every core. Then the reference's argument record read off `m'` is the kernel program's argument record read
off `m`, and, its eight kernels meeting their specification, the kernel program's result buffer ends at the
reference's result function of the reference's own arguments. -/

noncomputable section

namespace Cert.KernelIdeal.Value

open Cert.KernelIdeal.Hand Idealize.ShloMosaic Idealize.ShloMosaic.TcCoe Idealize.SL.Sem Idealize.ShloMosaic.StableHlo
open Cert.ReferenceIdeal.Hand (argsOf)

/-- The two memories hold the same argument arrays, array by array, on every core. -/
def Agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

/-- The reference's argument record of buffers that hold, array by array, what the kernel program is launched with on
    core `c` is the kernel program's argument record. -/
theorem argsOf_eq_kargs {F : FTy → Type} [FloatOps F] [Named F]
    (m : (ℓ : Loc Cert.KernelIdeal.nD Cert.KernelIdeal.τ Cert.KernelIdeal.sig) → Buf (Elt F) ℓ) (c : Dev Cert.KernelIdeal.nD)
    (V' : Valuation Cert.ReferenceIdeal.τ Cert.ReferenceIdeal.sig (Elt F))
    (h0 : V' (Proc.devRef .tc Cert.ReferenceIdeal.main_arg0) = m ((c : Thread Cert.KernelIdeal.nD Cert.KernelIdeal.τ).loc Cert.KernelIdeal.main_arg0))
    (h1 : V' (Proc.devRef .tc Cert.ReferenceIdeal.main_arg1) = m ((c : Thread Cert.KernelIdeal.nD Cert.KernelIdeal.τ).loc Cert.KernelIdeal.main_arg1))
    (h2 : V' (Proc.devRef .tc Cert.ReferenceIdeal.main_arg2) = m ((c : Thread Cert.KernelIdeal.nD Cert.KernelIdeal.τ).loc Cert.KernelIdeal.main_arg2))
    (h3 : V' (Proc.devRef .tc Cert.ReferenceIdeal.main_arg3) = m ((c : Thread Cert.KernelIdeal.nD Cert.KernelIdeal.τ).loc Cert.KernelIdeal.main_arg3))
    (h4 : V' (Proc.devRef .tc Cert.ReferenceIdeal.main_arg4) = m ((c : Thread Cert.KernelIdeal.nD Cert.KernelIdeal.τ).loc Cert.KernelIdeal.main_arg4))
    (h5 : V' (Proc.devRef .tc Cert.ReferenceIdeal.main_arg5) = m ((c : Thread Cert.KernelIdeal.nD Cert.KernelIdeal.τ).loc Cert.KernelIdeal.main_arg5))
    (h6 : V' (Proc.devRef .tc Cert.ReferenceIdeal.main_arg6) = m ((c : Thread Cert.KernelIdeal.nD Cert.KernelIdeal.τ).loc Cert.KernelIdeal.main_arg6))
    (h7 : V' (Proc.devRef .tc Cert.ReferenceIdeal.main_arg7) = m ((c : Thread Cert.KernelIdeal.nD Cert.KernelIdeal.τ).loc Cert.KernelIdeal.main_arg7))
    (h8 : V' (Proc.devRef .tc Cert.ReferenceIdeal.main_arg8) = m ((c : Thread Cert.KernelIdeal.nD Cert.KernelIdeal.τ).loc Cert.KernelIdeal.main_arg8))
    (h9 : V' (Proc.devRef .tc Cert.ReferenceIdeal.main_arg9) = m ((c : Thread Cert.KernelIdeal.nD Cert.KernelIdeal.τ).loc Cert.KernelIdeal.main_arg9))
    (h10 : V' (Proc.devRef .tc Cert.ReferenceIdeal.main_arg10) = m ((c : Thread Cert.KernelIdeal.nD Cert.KernelIdeal.τ).loc Cert.KernelIdeal.main_arg10))
    (h11 : V' (Proc.devRef .tc Cert.ReferenceIdeal.main_arg11) = m ((c : Thread Cert.KernelIdeal.nD Cert.KernelIdeal.τ).loc Cert.KernelIdeal.main_arg11))
    (h12 : V' (Proc.devRef .tc Cert.ReferenceIdeal.main_arg12) = m ((c : Thread Cert.KernelIdeal.nD Cert.KernelIdeal.τ).loc Cert.KernelIdeal.main_arg12))
    (h13 : V' (Proc.devRef .tc Cert.ReferenceIdeal.main_arg13) = m ((c : Thread Cert.KernelIdeal.nD Cert.KernelIdeal.τ).loc Cert.KernelIdeal.main_arg13))
    (h14 : V' (Proc.devRef .tc Cert.ReferenceIdeal.main_arg14) = m ((c : Thread Cert.KernelIdeal.nD Cert.KernelIdeal.τ).loc Cert.KernelIdeal.main_arg14)) :
    argsOf V' = kargs m c := by
  unfold argsOf kargs
  rw [h0, h1, h2, h3, h4, h5, h6, h7, h8, h9, h10, h11, h12, h13, h14]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories that agree on the arguments, the reference's argument record on core `c` is the kernel program's. -/
theorem kargs_of_agree (hagree : Agree m m') (c : Dev Cert.KernelIdeal.nD) :
    argsOf (launchContents m' c) = kargs m c := by
  obtain ⟨h0, h1, h2, h3, h4, h5, h6, h7, h8, h9, h10, h11, h12, h13, h14⟩ := hagree c
  exact argsOf_eq_kargs m c (launchContents m' c) h0 h1 h2 h3 h4 h5 h6 h7 h8 h9 h10 h11 h12 h13 h14

/-- From memories that agree on the arguments, and kernels that meet their specification, the kernel program's result
    buffer ends, on core `c`, at the reference's result as a function of the reference's argument arrays at launch. -/
theorem result_of_spec (outs : Outs Ideal) (hs : ∀ c, RegionSpec outs c) (hagree : Agree m m')
    (c : Dev Cert.KernelIdeal.nD) :
    B38 (F := Ideal) m outs c Cert.KernelIdeal.main_v235 = (argsOf (launchContents m' c)).out := by
  rw [kargs_of_agree m m' hagree c]
  exact value_kernel m outs c (hs c)

end Cert.KernelIdeal.Value

end
-- ==== Proof.Upd.Spec.lean ====
/-
  The mathematics of one "layer update" step, stated with no program in sight.

  A table of 64-wide rows is divided by a constant, each row is divided by its Euclidean norm — floored at the
  constant `D` so that a zero row stays zero instead of dividing by zero — and the result is added to an accumulator.
  The kernel floors the SUM OF SQUARES at `D²` before taking the root, the reference floors the ROOT at `D`; because the
  square root is monotone on the extended reals these are the same number (`sqrt_max_sq`), for every extended real
  sum, finite or not, negative (where the root is the junk value `⊥`) or not.

  `D` is the real number the reference's literal `1e-12` denotes as a 32-bit float, `2305843 / 2^61` (`ofBits_D`); the
  kernel's literal `1e-24` is named, and the name denotes exactly `D²` (`eps_sq_eq`).

  Both programs pack or unpack rows, so the specification is given for ONE row (`normRow`), for a table of rows
  (`rowNormed`), and the two coordinate maps of the kernel's packing — a 128-lane row holds two 64-wide rows, lane `l`
  being feature `l % 64` (`feat`) of half `l / 64` (`half`) — are named here so that both sides speak of the same row.
-/
import Mathlib
import Idealize.ShloMosaic.PureOps.Ideal
import Idealize.ShloMosaic.Lib.ValueIdx

noncomputable section

open scoped BigOperators

namespace Cert.LayerUpdate

open Idealize.ShloMosaic

/-! ## The floor of the norm -/

/-- The floor of a row's norm: the real number the 32-bit float literal `1e-12` denotes. -/
def D : ℝ := 2305843 / 2 ^ 61

/-- The floor is not negative. -/
theorem D_nonneg : 0 ≤ D := by unfold D; positivity

/-- The pattern of the reference's `1e-12`: sign `0`, exponent field `87`, fraction field `834764`, that is
    `(2^23 + 834764) · 2^(87 - 127 - 23) = 9223372 · 2^-63 = 2305843 · 2^-61`. -/
theorem ofBits_D : Ideal.ofBits .f32 0x2B8CBCCC#32 = (D : EReal) := by
  simp [Ideal.ofBits, Ideal.ieee, -EReal.coe_mul, D]; norm_num

/-- The value the kernel's named `1e-24` denotes is the square of the floor: `2305843² = 5316911940649` and
    `(2^61)² = 2^122`. -/
theorem eps_sq_eq :
    ((5316911940649 / 5316911983139663491615228241121378304 : ℝ) : EReal) = ((D ^ 2 : ℝ) : EReal) := by
  congr 1; unfold D; norm_num

/-! ## Flooring under the root is flooring the root -/

/-- On the reals: the root of a maximum with a square is the maximum of the root with the squared number, when
    that number is not negative (the root is monotone, and undoes the square). -/
theorem real_sqrt_max_sq (r c : ℝ) (hc : 0 ≤ c) : Real.sqrt (max r (c ^ 2)) = max (Real.sqrt r) c := by
  rw [Real.sqrt_monotone.map_max, Real.sqrt_sq hc]

/-- On the extended reals, with the ideal instance's root (`⊤ ↦ ⊤`, a negative number and `⊥` to the junk value
    `⊥`): for `c ≥ 0`, `√(max s c²) = max (√s) c` at EVERY `s`.
    At `s = ⊤` both sides are `⊤`. At `s = ⊥` or `s` a negative real the left maximum is `c²`, whose root is `c`, and on the
    right `√s = ⊥` loses to `c`. At `s` a real that is not negative it is the law on the reals. -/
theorem sqrt_max_sq_of_nonneg (c : ℝ) (hc : 0 ≤ c) (s : EReal) :
    Ideal.sqrt (max s ((c ^ 2 : ℝ) : EReal)) = max (Ideal.sqrt s) (c : EReal) := by
  have hsq : Ideal.sqrt ((c ^ 2 : ℝ) : EReal) = (c : EReal) := by
    show (if c ^ 2 < 0 then (⊥ : EReal) else (Real.sqrt (c ^ 2) : EReal)) = _
    rw [if_neg (not_lt.mpr (sq_nonneg c)), Real.sqrt_sq hc]
  induction s using EReal.rec with
  | bot =>
    rw [max_eq_right bot_le, hsq]
    show (c : EReal) = max ⊥ (c : EReal)
    rw [max_eq_right bot_le]
  | top =>
    rw [max_eq_left le_top]
    show (⊤ : EReal) = max ⊤ (c : EReal)
    rw [max_eq_left le_top]
  | coe r =>
    by_cases hr : r < 0
    · have h1 : ((r : ℝ) : EReal) ≤ ((c ^ 2 : ℝ) : EReal) :=
        EReal.coe_le_coe_iff.mpr (le_trans hr.le (sq_nonneg c))
      rw [max_eq_right h1, hsq]
      show (c : EReal) = max (if r < 0 then (⊥ : EReal) else (Real.sqrt r : EReal)) (c : EReal)
      rw [if_pos hr, max_eq_right bot_le]
    · have hmax : max ((r : ℝ) : EReal) ((c ^ 2 : ℝ) : EReal) = ((max r (c ^ 2) : ℝ) : EReal) :=
        (EReal.coe_strictMono.monotone.map_max (a := r) (b := c ^ 2)).symm
      rw [hmax]
      show (if max r (c ^ 2) < 0 then (⊥ : EReal) else (Real.sqrt (max r (c ^ 2)) : EReal))
        = max (if r < 0 then (⊥ : EReal) else (Real.sqrt r : EReal)) (c : EReal)
      rw [if_neg hr, if_neg (not_lt.mpr (le_trans (sq_nonneg c) (le_max_right r (c ^ 2)))),
        real_sqrt_max_sq r c hc]
      exact EReal.coe_strictMono.monotone.map_max

/-- The law at the floor `D`: the kernel's `√(max s D²)` is the reference's `max (√s) D`. -/
theorem sqrt_max_sq (s : EReal) :
    Ideal.sqrt (max s ((D ^ 2 : ℝ) : EReal)) = max (Ideal.sqrt s) (D : EReal) :=
  sqrt_max_sq_of_nonneg D D_nonneg s

/-! ## The specification -/

/-- One 64-wide row `v`, divided by its Euclidean norm floored at `D`, at feature `k`:
    `v k / max (√(Σ_j (v j)²)) D`. -/
def normRow (v : Fin 64 → EReal) (k : Fin 64) : EReal :=
  Ideal.div (v k) (max (Ideal.sqrt (∑ j : Fin 64, v j * v j)) (D : EReal))

/-- A table of 64-wide rows, each normalised: entry `(i, k)` is row `i` normalised, at feature `k`. -/
def rowNormed {n : ℕ} (x : Fin n → Fin 64 → EReal) (i : Fin n) (k : Fin 64) : EReal :=
  normRow (x i) k

/-- The same number written with the floor under the root, as the kernel computes it. -/
theorem normRow_eq_floor_under_root (v : Fin 64 → EReal) (k : Fin 64) :
    Ideal.div (v k) (Ideal.sqrt (max (∑ j : Fin 64, v j * v j) ((D ^ 2 : ℝ) : EReal))) = normRow v k := by
  unfold normRow; rw [sqrt_max_sq]

/-! ## Two 64-wide rows in one 128-lane row -/

/-- Lane `j` of the half (lanes `0–63` or `64–127`) that lane `l` lies in. -/
def half (l : Fin 128) (j : Fin 64) : Fin 128 :=
  ⟨64 * (l.val / 64) + j.val, by have := l.isLt; have := j.isLt; omega⟩

/-- The feature a lane holds: its position inside its half. -/
def feat (l : Fin 128) : Fin 64 := ⟨l.val % 64, Nat.mod_lt _ (by decide)⟩

/-- A lane is its own feature's lane in its own half. -/
theorem half_feat (l : Fin 128) : half l (feat l) = l :=
  Fin.ext (by show 64 * (l.val / 64) + l.val % 64 = l.val; omega)

@[simp] theorem half_val (l : Fin 128) (j : Fin 64) : (half l j).val = 64 * (l.val / 64) + j.val := rfl
@[simp] theorem feat_val (l : Fin 128) : (feat l).val = l.val % 64 := rfl

end Cert.LayerUpdate

end
-- ==== Proof.Upd.RefStage.lean ====
/-
  The reference's layer-update stage, read at an index.

  On a table of `n` rows of 64 features the reference divides by a constant, takes each row's Euclidean norm (square,
  sum along the features, keep the sum as a column, root), floors the column at the constant `1e-12`, stretches it
  back along the features, divides, and adds the accumulator. Here that chain of host operations is one term,
  `refStage`, generic in the number of rows and in the divisor's 32-bit pattern, and `refStage_apply` reads it at row
  `i`, feature `k`:

      acc (i, k) + normRow (raw (i, ·) / d) k

  the specification's normalised row with the floor `D` on the root.
-/
import Idealize.ShloMosaic.PureOps.Ideal.Laws
import Idealize.ShloMosaic.Lib.ValueIdx
import Idealize.ShloMosaic.Lib.Pipeline.Value
import proofs.«108982_j38147899523261_2_alg».proof.Proof.Upd.Spec

noncomputable section

open scoped BigOperators

namespace Cert.LayerUpdate

open Idealize.ShloMosaic Idealize.ShloMosaic.ValueIdx

/-- A scalar. -/
abbrev S0 : Shape := ⟨0, ![]⟩
/-- A table of `n` rows of 64 features. -/
abbrev ST (n : ℕ) : Shape := ⟨2, ![n, 64]⟩
/-- One number per row. -/
abbrev SR (n : ℕ) : Shape := ⟨1, ![n]⟩
/-- One number per row, as a column. -/
abbrev SK (n : ℕ) : Shape := ⟨2, ![n, 1]⟩

/-! ## The host's layout operations at an index -/

variable {α : Type}

/-- A scalar stretched to any shape reads the scalar everywhere. -/
theorem bcast_scalar_apply {t : Shape} (h : S0.BroadcastsInDim t (![] : Fin 0 → Fin t.rank)) (x : S0.Idx → α) (j : t.Idx) :
    broadcastInDim t ![] h x j = x ix0 :=
  broadcastInDim_apply _ h x j ix0 fun a => a.elim0

/-- A vector of `n` numbers kept as a column reads, at `(i, u)`, the vector at `i`. -/
theorem bcast_vec_col_apply {n : ℕ} (h : (SR n).BroadcastsInDim (SK n) (![0] : Fin 1 → Fin (SK n).rank)) (v : (SR n).Idx → α)
    (i : Fin n) (u : Fin 1) : broadcastInDim (SK n) ![0] h v (ix2 i u) = v (ix1 i) := by
  refine broadcastInDim_apply _ h v (ix2 i u) (ix1 i) fun a => ?_
  match a with
  | ⟨0, _⟩ =>
    show i.val = if n = 1 then 0 else i.val
    split
    · have := i.isLt; omega
    · rfl

/-- A column stretched along the 64 features reads, at `(i, k)`, the column at row `i`. -/
theorem bcast_col_apply {n : ℕ} (h : (SK n).BroadcastsInDim (ST n) (![0, 1] : Fin 2 → Fin (ST n).rank)) (v : (SK n).Idx → α)
    (i : Fin n) (k : Fin 64) : broadcastInDim (ST n) ![0, 1] h v (ix2 i k) = v (ix2 i (0 : Fin 1)) := by
  refine broadcastInDim_apply _ h v (ix2 i k) (ix2 i (0 : Fin 1)) fun a => ?_
  match a with
  | ⟨0, _⟩ =>
    show i.val = if n = 1 then 0 else i.val
    split
    · have := i.isLt; omega
    · rfl
  | ⟨1, _⟩ => rfl

/-- The host's sum along the features from the zero scalar, at row `i`: the sum over the features. -/
theorem rowSum_apply {n : ℕ} (y : FVec Ideal (ST n) .f32) (hr : (ST n).ReducesTo [1] (SR n)) (hu : 0 < S0.numel) (i : Fin n) :
    Host.reduceAdd y (constant (F := Ideal) S0 .f32 0x00000000#32) hr hu (ix1 i) = ∑ j : Fin 64, y (ix2 i j) := by
  have hR : (ST n).Reduces [1] (SR n) := ⟨hr.1, Nat.one_pos, hr.2⟩
  show Ideal.hostReduceAdd hr y (Ideal.ofBits .f32 0x00000000#32) (ix1 i) = _
  rw [Ideal.hostReduceAdd_single hr hR, Ideal.ofBits_zero_f32, zero_add]
  show ∑ j : Fin 64, y (hR.lift (ix1 i) j) = _
  refine Finset.sum_congr rfl fun j _ => ?_
  exact congrArg y (funext fun a => Fin.ext (by match a with | ⟨0, _⟩ => rfl | ⟨1, _⟩ => rfl))

/-! ## The stage -/

/-- The reference's stage as one term of the raw table `raw`, the accumulator `acc` and the divisor's pattern `dw`. -/
def refStage {n : ℕ} (dw : BitVec 32)
    (hb : S0.BroadcastsInDim (ST n) (![] : Fin 0 → Fin (ST n).rank))
    (hr : (ST n).ReducesTo [1] (SR n)) (hu : 0 < S0.numel)
    (hc : (SR n).BroadcastsInDim (SK n) (![0] : Fin 1 → Fin (SK n).rank))
    (he : S0.BroadcastsInDim (SK n) (![] : Fin 0 → Fin (SK n).rank))
    (hm : (SK n).BroadcastsInDim (ST n) (![0, 1] : Fin 2 → Fin (ST n).rank))
    (raw acc : FVec Ideal (ST n) .f32) : FVec Ideal (ST n) .f32 :=
  addf acc
    (Host.divf (Host.divf raw (broadcastInDim (ST n) ![] hb (constant (F := Ideal) S0 .f32 dw)))
      (broadcastInDim (ST n) ![0, 1] hm
        (maximumf
          (Host.sqrt (broadcastInDim (SK n) ![0] hc
            (Host.reduceAdd
              (mulf (Host.divf raw (broadcastInDim (ST n) ![] hb (constant (F := Ideal) S0 .f32 dw)))
                (Host.divf raw (broadcastInDim (ST n) ![] hb (constant (F := Ideal) S0 .f32 dw))))
              (constant (F := Ideal) S0 .f32 0x00000000#32) hr hu)))
          (broadcastInDim (SK n) ![] he (constant (F := Ideal) S0 .f32 0x2B8CBCCC#32)))))

/-- The stage at row `i`, feature `k`: the accumulator there plus the specification's normalised row of the scaled
    table. -/
theorem refStage_apply {n : ℕ} (dw : BitVec 32)
    (hb : S0.BroadcastsInDim (ST n) (![] : Fin 0 → Fin (ST n).rank))
    (hr : (ST n).ReducesTo [1] (SR n)) (hu : 0 < S0.numel)
    (hc : (SR n).BroadcastsInDim (SK n) (![0] : Fin 1 → Fin (SK n).rank))
    (he : S0.BroadcastsInDim (SK n) (![] : Fin 0 → Fin (SK n).rank))
    (hm : (SK n).BroadcastsInDim (ST n) (![0, 1] : Fin 2 → Fin (ST n).rank))
    (raw acc : FVec Ideal (ST n) .f32) (i : Fin n) (k : Fin 64) :
    refStage dw hb hr hu hc he hm raw acc (ix2 i k)
      = acc (ix2 i k) + normRow (fun j => Ideal.div (raw (ix2 i j)) (Ideal.ofBits .f32 dw)) k := by
  have hdiv : ∀ (a b : FVec Ideal (ST n) .f32) (j : (ST n).Idx), Host.divf a b j = Ideal.div (a j) (b j) :=
    fun _ _ _ => rfl
  have hsqrt : ∀ (v : FVec Ideal (SK n) .f32) (j : (SK n).Idx), Host.sqrt v j = Ideal.sqrt (v j) := fun _ _ => rfl
  have hx : ∀ j : Fin 64, Host.divf raw (broadcastInDim (ST n) ![] hb (constant (F := Ideal) S0 .f32 dw)) (ix2 i j)
      = Ideal.div (raw (ix2 i j)) (Ideal.ofBits .f32 dw) := fun j => by
    rw [hdiv, bcast_scalar_apply, constant_apply]
  unfold refStage
  rw [addf_apply, hdiv, hx, bcast_col_apply, maximumf_apply, hsqrt, bcast_vec_col_apply, bcast_scalar_apply,
    rowSum_apply, constant_apply, ofBits_D]
  simp only [mulf_apply, hx]
  rfl

end Cert.LayerUpdate

end
-- ==== Proof.Upd.Join.lean ====
/-
  Packing two 64-wide rows into one 128-lane row, and the layer update, commute.

  The kernel works on the table recast row-major from `[n, 64]` to `[h, 128]` (`n = 2h`): packed row `R`, lane `l` is
  original row `2R + l / 64`, feature `l % 64`; the other way round, original row `i`, feature `k` is packed row
  `i / 2`, lane `64 (i % 2) + k`. Under this correspondence the half of a packed row that lane `l` lies in IS the
  original row, lane by lane (`half l j` is feature `j` of the same original row), and the lane's feature `feat l` is
  `k`. So the packed update read at `(R, l)` — accumulator plus the normalised half-row — is the reference's stage read
  at `(i, k)` — accumulator plus the normalised row (`join`, `unpack_packedStage`).
-/
import Idealize.ShloMosaic.Lib.ValueIdx
import Idealize.ShloMosaic.Lib.Pipeline.Value
import proofs.«108982_j38147899523261_2_alg».proof.Proof.Upd.Spec

noncomputable section

open scoped BigOperators

namespace Cert.LayerUpdate

open Idealize.ShloMosaic Idealize.ShloMosaic.ValueIdx

variable {α : Type}

/-! ## The recast at an index, both ways -/

/-- The table `[n, 64]` recast to `[h, 128]`, read at packed row `R`, lane `l`: the table at original row
    `i = 2R + l / 64`, feature `k = l % 64` (both have row-major position `128 R + l`). -/
theorem pack_apply {n h : ℕ} (x : (⟨2, ![n, 64]⟩ : Shape).Idx → α)
    (hc : (⟨2, ![n, 64]⟩ : Shape).ShapeCasts ⟨2, ![h, 128]⟩) (R : Fin h) (l : Fin 128) (i : Fin n) (k : Fin 64)
    (hi : i.val = 2 * R.val + l.val / 64) (hk : k.val = l.val % 64) :
    shapeCast ⟨2, ![h, 128]⟩ x hc (ix2 R l) = x (ix2 i k) :=
  shapeCast_apply x hc _ _ (by
    rw [Shape.rowMajor_val_two, Shape.rowMajor_val_two]
    show i.val * 64 + k.val = R.val * 128 + l.val
    omega)

/-- The packed table `[h, 128]` recast back to `[n, 64]`, read at original row `i`, feature `k`: the packed table at
    row `R = i / 2`, lane `l = 64 (i % 2) + k`. -/
theorem unpack_apply {n h : ℕ} (y : (⟨2, ![h, 128]⟩ : Shape).Idx → α)
    (hc : (⟨2, ![h, 128]⟩ : Shape).ShapeCasts ⟨2, ![n, 64]⟩) (i : Fin n) (k : Fin 64) (R : Fin h) (l : Fin 128)
    (hR : R.val = i.val / 2) (hl : l.val = 64 * (i.val % 2) + k.val) :
    shapeCast ⟨2, ![n, 64]⟩ y hc (ix2 i k) = y (ix2 R l) :=
  shapeCast_apply y hc _ _ (by
    rw [Shape.rowMajor_val_two, Shape.rowMajor_val_two]
    show R.val * 128 + l.val = i.val * 64 + k.val
    omega)

/-! ## The update on the packed table is the stage on the table -/

/-- At corresponding positions — packed row `R = i / 2`, lane `l = 64 (i % 2) + k` — the packed update of the recast
    tables is the reference's stage of the tables: the accumulators agree there, the half-row of lane `l` is row `i`,
    and the lane's feature is `k`. -/
theorem join {n h : ℕ} (w : EReal) (raw acc : (⟨2, ![n, 64]⟩ : Shape).Idx → EReal)
    (hc : (⟨2, ![n, 64]⟩ : Shape).ShapeCasts ⟨2, ![h, 128]⟩) (i : Fin n) (k : Fin 64) (R : Fin h) (l : Fin 128)
    (hR : R.val = i.val / 2) (hl : l.val = 64 * (i.val % 2) + k.val) :
    shapeCast ⟨2, ![h, 128]⟩ acc hc (ix2 R l)
        + normRow (fun j => Ideal.div (shapeCast ⟨2, ![h, 128]⟩ raw hc (ix2 R (half l j))) w) (feat l)
      = acc (ix2 i k) + normRow (fun j => Ideal.div (raw (ix2 i j)) w) k := by
  have hk : k.val < 64 := k.isLt
  have hfeat : feat l = k := Fin.ext (by show l.val % 64 = k.val; omega)
  have hacc : shapeCast ⟨2, ![h, 128]⟩ acc hc (ix2 R l) = acc (ix2 i k) :=
    pack_apply acc hc R l i k (by omega) (by omega)
  have hraw : ∀ j : Fin 64, shapeCast ⟨2, ![h, 128]⟩ raw hc (ix2 R (half l j)) = raw (ix2 i j) := fun j =>
    pack_apply raw hc R (half l j) i j
      (by have := j.isLt; show i.val = 2 * R.val + (64 * (l.val / 64) + j.val) / 64; omega)
      (by have := j.isLt; show j.val = (64 * (l.val / 64) + j.val) % 64; omega)
  rw [hacc, hfeat]
  simp only [hraw]

/-! ## The same for whole tables -/

/-- The packed update as a function on the packed table: at packed row `R`, lane `l`, the accumulator there plus the
    normalised half-row of the table divided by `w`, at the lane's feature. -/
def packedStage {h : ℕ} (w : EReal) (raw' acc' : (⟨2, ![h, 128]⟩ : Shape).Idx → EReal) :
    (⟨2, ![h, 128]⟩ : Shape).Idx → EReal :=
  fun I => acc' I + normRow (fun j => Ideal.div
    (raw' (ix2 (⟨(I 0).val, idx2_lt0 I⟩ : Fin h) (half ⟨(I 1).val, idx2_lt1 I⟩ j))) w) (feat ⟨(I 1).val, idx2_lt1 I⟩)

/-- `packedStage` at an index given by its coordinates. -/
theorem packedStage_ix2 {h : ℕ} (w : EReal) (raw' acc' : (⟨2, ![h, 128]⟩ : Shape).Idx → EReal) (R : Fin h) (l : Fin 128) :
    packedStage w raw' acc' (ix2 R l)
      = acc' (ix2 R l) + normRow (fun j => Ideal.div (raw' (ix2 R (half l j))) w) (feat l) := rfl

/-- The reference's stage as a function on the table: at row `i`, feature `k`, the accumulator there plus the
    normalised row of the table divided by `w`. -/
def tableStage {n : ℕ} (w : EReal) (raw acc : (⟨2, ![n, 64]⟩ : Shape).Idx → EReal) :
    (⟨2, ![n, 64]⟩ : Shape).Idx → EReal :=
  fun I => acc I + normRow (fun j => Ideal.div (raw (ix2 (⟨(I 0).val, idx2_lt0 I⟩ : Fin n) j)) w) ⟨(I 1).val, idx2_lt1 I⟩

/-- `tableStage` at an index given by its coordinates. -/
theorem tableStage_ix2 {n : ℕ} (w : EReal) (raw acc : (⟨2, ![n, 64]⟩ : Shape).Idx → EReal) (i : Fin n) (k : Fin 64) :
    tableStage w raw acc (ix2 i k) = acc (ix2 i k) + normRow (fun j => Ideal.div (raw (ix2 i j)) w) k := rfl

/-- Recast the tables, update the packed tables, recast back: the stage on the tables. -/
theorem unpack_packedStage {n h : ℕ} (hn : n = 2 * h) (w : EReal) (raw acc : (⟨2, ![n, 64]⟩ : Shape).Idx → EReal)
    (hc : (⟨2, ![n, 64]⟩ : Shape).ShapeCasts ⟨2, ![h, 128]⟩) (hc' : (⟨2, ![h, 128]⟩ : Shape).ShapeCasts ⟨2, ![n, 64]⟩) :
    shapeCast ⟨2, ![n, 64]⟩
        (packedStage w (shapeCast ⟨2, ![h, 128]⟩ raw hc) (shapeCast ⟨2, ![h, 128]⟩ acc hc)) hc'
      = tableStage w raw acc := by
  funext I
  obtain ⟨i, k, rfl⟩ : ∃ (i : Fin n) (k : Fin 64), I = ix2 i k := ⟨I 0, I 1, eq_ix2 I⟩
  have hi : i.val < n := i.isLt
  have hk : k.val < 64 := k.isLt
  rw [unpack_apply _ hc' i k ⟨i.val / 2, by omega⟩ ⟨64 * (i.val % 2) + k.val, by omega⟩ rfl rfl,
    packedStage_ix2, tableStage_ix2]
  exact join w raw acc hc i k _ _ rfl rfl

end Cert.LayerUpdate

end
-- ==== Proof.Upd.Bridge.lean ====
/-
  The two sides of a layer update, joined as whole tables.

  The kernels work on the packed table, the reference on the table itself. This module states the two facts the
  certificate uses, with the reference's printed operations on one side and the packed functions on the other:

  * the scaled features: dividing the packed table by a constant and unpacking is the reference's division of the
    table by the broadcast constant (a pointwise operation commutes with any recast);
  * the new accumulator: packing the tables, updating the packed tables (`packedStage`) and unpacking is the
    reference's stage (`refStage`), by the index correspondence of `join`.
-/
import proofs.«108982_j38147899523261_2_alg».proof.Proof.Upd.RefStage
import proofs.«108982_j38147899523261_2_alg».proof.Proof.Upd.Join

noncomputable section

namespace Cert.LayerUpdate

open Idealize.ShloMosaic Idealize.ShloMosaic.ValueIdx

/-! ## The scaled features -/

/-- The reference's division of the table by the broadcast constant of pattern `dw` is, entry by entry, the division
    by the number the pattern denotes. -/
theorem refScaled_eq {n : ℕ} (dw : BitVec 32) (hb : S0.BroadcastsInDim (ST n) (![] : Fin 0 → Fin (ST n).rank))
    (raw : FVec Ideal (ST n) .f32) :
    Host.divf raw (broadcastInDim (ST n) ![] hb (constant (F := Ideal) S0 .f32 dw))
      = fun I => Ideal.div (raw I) (Ideal.ofBits .f32 dw) := by
  funext I
  show Ideal.div (raw I) (broadcastInDim (ST n) ![] hb (constant (F := Ideal) S0 .f32 dw) I) = _
  rw [bcast_scalar_apply, constant_apply]

/-- Pack, divide every entry by `w`, unpack: divide every entry of the table by `w`. -/
theorem unpack_packedScaled {n h : ℕ} (w : EReal) (raw : (⟨2, ![n, 64]⟩ : Shape).Idx → EReal)
    (hc : (⟨2, ![n, 64]⟩ : Shape).ShapeCasts ⟨2, ![h, 128]⟩) (hc' : (⟨2, ![h, 128]⟩ : Shape).ShapeCasts ⟨2, ![n, 64]⟩) :
    shapeCast ⟨2, ![n, 64]⟩ (fun I => Ideal.div (shapeCast ⟨2, ![h, 128]⟩ raw hc I) w) hc'
      = fun I => Ideal.div (raw I) w := by
  show (fun J => Ideal.div (shapeCast ⟨2, ![n, 64]⟩ (shapeCast ⟨2, ![h, 128]⟩ raw hc) hc' J) w) = _
  rw [shapeCast_shapeCast]

/-! ## The new accumulator -/

/-- The reference's stage is the table function `tableStage` at the number the divisor's pattern denotes. -/
theorem refStage_eq_tableStage {n : ℕ} (dw : BitVec 32)
    (hb : S0.BroadcastsInDim (ST n) (![] : Fin 0 → Fin (ST n).rank))
    (hr : (ST n).ReducesTo [1] (SR n)) (hu : 0 < S0.numel)
    (hc : (SR n).BroadcastsInDim (SK n) (![0] : Fin 1 → Fin (SK n).rank))
    (he : S0.BroadcastsInDim (SK n) (![] : Fin 0 → Fin (SK n).rank))
    (hm : (SK n).BroadcastsInDim (ST n) (![0, 1] : Fin 2 → Fin (ST n).rank))
    (raw acc : FVec Ideal (ST n) .f32) :
    refStage dw hb hr hu hc he hm raw acc = tableStage (Ideal.ofBits .f32 dw) raw acc := by
  funext I
  obtain ⟨i, k, rfl⟩ : ∃ (i : Fin n) (k : Fin 64), I = ix2 i k := ⟨I 0, I 1, eq_ix2 I⟩
  rw [refStage_apply, tableStage_ix2]

/-- Pack the raw table and the accumulator, update the packed tables, unpack: the reference's stage. -/
theorem unpack_packedStage_eq_refStage {n h : ℕ} (hn : n = 2 * h) (dw : BitVec 32)
    (hb : S0.BroadcastsInDim (ST n) (![] : Fin 0 → Fin (ST n).rank))
    (hr : (ST n).ReducesTo [1] (SR n)) (hu : 0 < S0.numel)
    (hc : (SR n).BroadcastsInDim (SK n) (![0] : Fin 1 → Fin (SK n).rank))
    (he : S0.BroadcastsInDim (SK n) (![] : Fin 0 → Fin (SK n).rank))
    (hm : (SK n).BroadcastsInDim (ST n) (![0, 1] : Fin 2 → Fin (ST n).rank))
    (raw acc : FVec Ideal (ST n) .f32)
    (hp : (ST n).ShapeCasts ⟨2, ![h, 128]⟩) (hp' : (⟨2, ![h, 128]⟩ : Shape).ShapeCasts (ST n)) :
    shapeCast (ST n)
        (packedStage (Ideal.ofBits .f32 dw) (shapeCast ⟨2, ![h, 128]⟩ raw hp) (shapeCast ⟨2, ![h, 128]⟩ acc hp)) hp'
      = refStage dw hb hr hu hc he hm raw acc :=
  (unpack_packedStage hn _ raw acc hp hp').trans (refStage_eq_tableStage dw hb hr hu hc he hm raw acc).symm

end Cert.LayerUpdate

end
-- ==== Proof.KV.LayerSpec.lean ====
import proofs.«108982_j38147899523261_2_alg».proof.Proof.Upd.Bridge
import proofs.«108982_j38147899523261_2_alg».proof.Proof.Gen.KernelIdeal
import proofs.«108982_j38147899523261_2_alg».proof.Proof.Ref.Stages

/-! The layer-update kernels' results, read as the reference shapes its tables.

A layer-update kernel works on a 64-wide table read row-major as 128-wide rows, two rows per row. What it leaves
is known lane by lane: the packed raw table divided by the layer's constant, and the packed accumulator plus the
normalised half-row of that quotient. Read back as 64-wide rows these are the reference's own stages of the two
tables read as 64-wide rows: the re-reading commutes with the entry-by-entry division, and a half-row of a 128-wide
row is a row of the 64-wide table. The two lemmas below say so for the table of 300000 rows and for the table of
150000 rows, as equations between whole arrays. -/

noncomputable section

namespace Cert.KernelIdeal.Value

open Cert.KernelIdeal Cert.KernelIdeal.Gen Idealize.ShloMosaic Idealize.ShloMosaic.ValueIdx Idealize.SL.Sem
open Cert.LayerUpdate (normRow half feat packedStage packedStage_ix2 unpack_packedScaled refScaled_eq unpack_packedStage_eq_refStage refStage)
open Cert.ReferenceIdeal.Hand (divConst rowNormalize300000 rowNormalize150000)

/-- A packed table that holds, lane by lane, the packed raw table divided by the constant of pattern `dw` is, read as
    64-wide rows, the raw table read as 64-wide rows divided by that constant (300000 rows). -/
theorem feats_unpacked_aff (dw : BitVec 32) (A raw2 : FVec Ideal S150000x128 .f32)
    (h : ∀ (R : Fin 150000) (l : Fin 128), A (ix2 R l) = Ideal.div (raw2 (ix2 R l)) (Ideal.ofBits .f32 dw)) :
    shapeCast S300000x64 (A) shapeCasts_S150000x128_S300000x64 = divConst dw bcast_S_S300000x64 (shapeCast S300000x64 (raw2) shapeCasts_S150000x128_S300000x64) := by
  have hA : A = fun I => Ideal.div (raw2 I) (Ideal.ofBits .f32 dw) := by
    funext I
    obtain ⟨R, l, rfl⟩ : ∃ (R : Fin 150000) (l : Fin 128), I = ix2 R l := ⟨I 0, I 1, eq_ix2 I⟩
    exact h R l
  have e1 : shapeCast S150000x128 (shapeCast S300000x64 (raw2) shapeCasts_S150000x128_S300000x64) shapeCasts_S300000x64_S150000x128 = raw2 := shapeCast_shapeCast raw2 _ _
  calc shapeCast S300000x64 (A) shapeCasts_S150000x128_S300000x64
      = shapeCast S300000x64 (fun I => Ideal.div (shapeCast S150000x128 (shapeCast S300000x64 (raw2) shapeCasts_S150000x128_S300000x64) shapeCasts_S300000x64_S150000x128 I) (Ideal.ofBits .f32 dw)) shapeCasts_S150000x128_S300000x64 := by rw [hA, e1]
    _ = fun I => Ideal.div (shapeCast S300000x64 (raw2) shapeCasts_S150000x128_S300000x64 I) (Ideal.ofBits .f32 dw) :=
        unpack_packedScaled (n := 300000) (h := 150000) (Ideal.ofBits .f32 dw) (shapeCast S300000x64 (raw2) shapeCasts_S150000x128_S300000x64) shapeCasts_S300000x64_S150000x128 shapeCasts_S150000x128_S300000x64
    _ = divConst dw bcast_S_S300000x64 (shapeCast S300000x64 (raw2) shapeCasts_S150000x128_S300000x64) := (refScaled_eq (n := 300000) dw bcast_S_S300000x64 (shapeCast S300000x64 (raw2) shapeCasts_S150000x128_S300000x64)).symm

/-- A packed table that holds, lane by lane, the packed accumulator plus the normalised half-row of the packed raw table
    divided by the constant of pattern `dw` is, read as 64-wide rows, the reference's layer stage of the two tables read
    as 64-wide rows: the accumulator plus the normalised rows of the raw table divided by that constant (300000 rows). -/
theorem acc_unpacked_aff (dw : BitVec 32) (A raw2 acc2 : FVec Ideal S150000x128 .f32)
    (h : ∀ (R : Fin 150000) (l : Fin 128), A (ix2 R l)
      = acc2 (ix2 R l) + normRow (fun j => Ideal.div (raw2 (ix2 R (half l j))) (Ideal.ofBits .f32 dw)) (feat l)) :
    shapeCast S300000x64 (A) shapeCasts_S150000x128_S300000x64 = addf (shapeCast S300000x64 (acc2) shapeCasts_S150000x128_S300000x64) (rowNormalize300000 (divConst dw bcast_S_S300000x64 (shapeCast S300000x64 (raw2) shapeCasts_S150000x128_S300000x64))) := by
  have hA : A = packedStage (Ideal.ofBits .f32 dw) raw2 acc2 := by
    funext I
    obtain ⟨R, l, rfl⟩ : ∃ (R : Fin 150000) (l : Fin 128), I = ix2 R l := ⟨I 0, I 1, eq_ix2 I⟩
    rw [h R l, packedStage_ix2]
  have e1 : shapeCast S150000x128 (shapeCast S300000x64 (raw2) shapeCasts_S150000x128_S300000x64) shapeCasts_S300000x64_S150000x128 = raw2 := shapeCast_shapeCast raw2 _ _
  have e2 : shapeCast S150000x128 (shapeCast S300000x64 (acc2) shapeCasts_S150000x128_S300000x64) shapeCasts_S300000x64_S150000x128 = acc2 := shapeCast_shapeCast acc2 _ _
  calc shapeCast S300000x64 (A) shapeCasts_S150000x128_S300000x64
      = shapeCast S300000x64 (packedStage (Ideal.ofBits .f32 dw) (shapeCast S150000x128 (shapeCast S300000x64 (raw2) shapeCasts_S150000x128_S300000x64) shapeCasts_S300000x64_S150000x128) (shapeCast S150000x128 (shapeCast S300000x64 (acc2) shapeCasts_S150000x128_S300000x64) shapeCasts_S300000x64_S150000x128)) shapeCasts_S150000x128_S300000x64 := by rw [hA, e1, e2]
    _ = refStage dw bcast_S_S300000x64 Cert.ReferenceIdeal.Gen.reducesTo_S300000x64_S300000_d1 h_S_ Cert.ReferenceIdeal.Gen.bcast_S300000_S300000x1_0 Cert.ReferenceIdeal.Gen.bcast_S_S300000x1 Cert.ReferenceIdeal.Gen.bcast_S300000x1_S300000x64_0_1 (shapeCast S300000x64 (raw2) shapeCasts_S150000x128_S300000x64) (shapeCast S300000x64 (acc2) shapeCasts_S150000x128_S300000x64) :=
        unpack_packedStage_eq_refStage (n := 300000) (h := 150000) (by norm_num) dw bcast_S_S300000x64 Cert.ReferenceIdeal.Gen.reducesTo_S300000x64_S300000_d1 h_S_ Cert.ReferenceIdeal.Gen.bcast_S300000_S300000x1_0 Cert.ReferenceIdeal.Gen.bcast_S_S300000x1 Cert.ReferenceIdeal.Gen.bcast_S300000x1_S300000x64_0_1
          (shapeCast S300000x64 (raw2) shapeCasts_S150000x128_S300000x64) (shapeCast S300000x64 (acc2) shapeCasts_S150000x128_S300000x64) shapeCasts_S300000x64_S150000x128 shapeCasts_S150000x128_S300000x64
    _ = addf (shapeCast S300000x64 (acc2) shapeCasts_S150000x128_S300000x64) (rowNormalize300000 (divConst dw bcast_S_S300000x64 (shapeCast S300000x64 (raw2) shapeCasts_S150000x128_S300000x64))) := rfl

/-- A packed table that holds, lane by lane, the packed raw table divided by the constant of pattern `dw` is, read as
    64-wide rows, the raw table read as 64-wide rows divided by that constant (150000 rows). -/
theorem feats_unpacked_hist (dw : BitVec 32) (A raw2 : FVec Ideal S75000x128 .f32)
    (h : ∀ (R : Fin 75000) (l : Fin 128), A (ix2 R l) = Ideal.div (raw2 (ix2 R l)) (Ideal.ofBits .f32 dw)) :
    shapeCast S150000x64 (A) shapeCasts_S75000x128_S150000x64 = divConst dw bcast_S_S150000x64 (shapeCast S150000x64 (raw2) shapeCasts_S75000x128_S150000x64) := by
  have hA : A = fun I => Ideal.div (raw2 I) (Ideal.ofBits .f32 dw) := by
    funext I
    obtain ⟨R, l, rfl⟩ : ∃ (R : Fin 75000) (l : Fin 128), I = ix2 R l := ⟨I 0, I 1, eq_ix2 I⟩
    exact h R l
  have e1 : shapeCast S75000x128 (shapeCast S150000x64 (raw2) shapeCasts_S75000x128_S150000x64) shapeCasts_S150000x64_S75000x128 = raw2 := shapeCast_shapeCast raw2 _ _
  calc shapeCast S150000x64 (A) shapeCasts_S75000x128_S150000x64
      = shapeCast S150000x64 (fun I => Ideal.div (shapeCast S75000x128 (shapeCast S150000x64 (raw2) shapeCasts_S75000x128_S150000x64) shapeCasts_S150000x64_S75000x128 I) (Ideal.ofBits .f32 dw)) shapeCasts_S75000x128_S150000x64 := by rw [hA, e1]
    _ = fun I => Ideal.div (shapeCast S150000x64 (raw2) shapeCasts_S75000x128_S150000x64 I) (Ideal.ofBits .f32 dw) :=
        unpack_packedScaled (n := 150000) (h := 75000) (Ideal.ofBits .f32 dw) (shapeCast S150000x64 (raw2) shapeCasts_S75000x128_S150000x64) shapeCasts_S150000x64_S75000x128 shapeCasts_S75000x128_S150000x64
    _ = divConst dw bcast_S_S150000x64 (shapeCast S150000x64 (raw2) shapeCasts_S75000x128_S150000x64) := (refScaled_eq (n := 150000) dw bcast_S_S150000x64 (shapeCast S150000x64 (raw2) shapeCasts_S75000x128_S150000x64)).symm

/-- A packed table that holds, lane by lane, the packed accumulator plus the normalised half-row of the packed raw table
    divided by the constant of pattern `dw` is, read as 64-wide rows, the reference's layer stage of the two tables read
    as 64-wide rows: the accumulator plus the normalised rows of the raw table divided by that constant (150000 rows). -/
theorem acc_unpacked_hist (dw : BitVec 32) (A raw2 acc2 : FVec Ideal S75000x128 .f32)
    (h : ∀ (R : Fin 75000) (l : Fin 128), A (ix2 R l)
      = acc2 (ix2 R l) + normRow (fun j => Ideal.div (raw2 (ix2 R (half l j))) (Ideal.ofBits .f32 dw)) (feat l)) :
    shapeCast S150000x64 (A) shapeCasts_S75000x128_S150000x64 = addf (shapeCast S150000x64 (acc2) shapeCasts_S75000x128_S150000x64) (rowNormalize150000 (divConst dw bcast_S_S150000x64 (shapeCast S150000x64 (raw2) shapeCasts_S75000x128_S150000x64))) := by
  have hA : A = packedStage (Ideal.ofBits .f32 dw) raw2 acc2 := by
    funext I
    obtain ⟨R, l, rfl⟩ : ∃ (R : Fin 75000) (l : Fin 128), I = ix2 R l := ⟨I 0, I 1, eq_ix2 I⟩
    rw [h R l, packedStage_ix2]
  have e1 : shapeCast S75000x128 (shapeCast S150000x64 (raw2) shapeCasts_S75000x128_S150000x64) shapeCasts_S150000x64_S75000x128 = raw2 := shapeCast_shapeCast raw2 _ _
  have e2 : shapeCast S75000x128 (shapeCast S150000x64 (acc2) shapeCasts_S75000x128_S150000x64) shapeCasts_S150000x64_S75000x128 = acc2 := shapeCast_shapeCast acc2 _ _
  calc shapeCast S150000x64 (A) shapeCasts_S75000x128_S150000x64
      = shapeCast S150000x64 (packedStage (Ideal.ofBits .f32 dw) (shapeCast S75000x128 (shapeCast S150000x64 (raw2) shapeCasts_S75000x128_S150000x64) shapeCasts_S150000x64_S75000x128) (shapeCast S75000x128 (shapeCast S150000x64 (acc2) shapeCasts_S75000x128_S150000x64) shapeCasts_S150000x64_S75000x128)) shapeCasts_S75000x128_S150000x64 := by rw [hA, e1, e2]
    _ = refStage dw bcast_S_S150000x64 Cert.ReferenceIdeal.Gen.reducesTo_S150000x64_S150000_d1 h_S_ Cert.ReferenceIdeal.Gen.bcast_S150000_S150000x1_0 Cert.ReferenceIdeal.Gen.bcast_S_S150000x1 Cert.ReferenceIdeal.Gen.bcast_S150000x1_S150000x64_0_1 (shapeCast S150000x64 (raw2) shapeCasts_S75000x128_S150000x64) (shapeCast S150000x64 (acc2) shapeCasts_S75000x128_S150000x64) :=
        unpack_packedStage_eq_refStage (n := 150000) (h := 75000) (by norm_num) dw bcast_S_S150000x64 Cert.ReferenceIdeal.Gen.reducesTo_S150000x64_S150000_d1 h_S_ Cert.ReferenceIdeal.Gen.bcast_S150000_S150000x1_0 Cert.ReferenceIdeal.Gen.bcast_S_S150000x1 Cert.ReferenceIdeal.Gen.bcast_S150000x1_S150000x64_0_1
          (shapeCast S150000x64 (raw2) shapeCasts_S75000x128_S150000x64) (shapeCast S150000x64 (acc2) shapeCasts_S75000x128_S150000x64) shapeCasts_S150000x64_S75000x128 shapeCasts_S75000x128_S150000x64
    _ = addf (shapeCast S150000x64 (acc2) shapeCasts_S75000x128_S150000x64) (rowNormalize150000 (divConst dw bcast_S_S150000x64 (shapeCast S150000x64 (raw2) shapeCasts_S75000x128_S150000x64))) := rfl

end Cert.KernelIdeal.Value

end
-- ==== Proof.LibGcnBands.lean ====
/-
  A sum over a padded axis, accumulated block by block.

  A contraction over an axis of length nb * bs can be carried out in nb blocks of bs consecutive positions,
  adding each block's partial sum to a running total that starts at zero; and when the axis is a shorter one
  padded at its end, the padded positions contributing zero, the sum over the padded axis is the sum over the
  original one. Both facts hold in any commutative monoid, in particular on the extended reals where addition
  is commutative and associative with no finiteness hypothesis. (On the extended reals 0 * x = 0 for every x,
  so a zero coefficient at a padded position makes its term zero whatever the other factor is.)

  The general statements come first; then their instances for an axis of 10240 = 5 * 2048 positions padded
  from 10000, over the extended reals, with the positions spelt by the anonymous constructor of Fin 10240.
-/
import Mathlib.Data.EReal.Basic
import Mathlib.Algebra.BigOperators.Fin

noncomputable section

open scoped BigOperators

namespace Cert.LibGcnBands

/-! ## General statements -/

/-- Position k of block b, of nb blocks of bs positions each, lies below nb * bs. -/
theorem block_lt {nb bs : Nat} (b : Fin nb) (k : Fin bs) : b.val * bs + k.val < nb * bs :=
  calc b.val * bs + k.val < b.val * bs + bs := Nat.add_lt_add_left k.isLt _
    _ = (b.val + 1) * bs := (Nat.succ_mul _ _).symm
    _ ≤ nb * bs := Nat.mul_le_mul_right _ b.isLt

/-- A sum over nb * bs positions is the sum over the nb blocks of the sums over the bs positions of
    each block: the positions are in bijection with the pairs (block, position in the block). -/
theorem sum_blocks {M : Type*} [AddCommMonoid M] (nb bs : Nat) (g : Fin (nb * bs) → M) :
    ∑ j, g j = ∑ b : Fin nb, ∑ k : Fin bs, g ⟨b.val * bs + k.val, block_lt b k⟩ := by
  rw [← finProdFinEquiv.sum_comp, Fintype.sum_prod_type]
  refine Finset.sum_congr rfl fun b _ => Finset.sum_congr rfl fun k _ => congrArg g (Fin.ext ?_)
  show k.val + bs * b.val = b.val * bs + k.val
  rw [Nat.add_comm, Nat.mul_comm]

/-- The running total after n steps, started at zero: each step adds the next term on the right. -/
def accUpTo {M : Type*} [AddCommMonoid M] (d : Nat → M) : Nat → M
  | 0 => 0
  | k + 1 => accUpTo d k + d k

/-- The running total after n steps is the sum of the first n terms. -/
theorem accUpTo_eq_sum {M : Type*} [AddCommMonoid M] (d : Nat → M) (n : Nat) :
    accUpTo d n = ∑ k : Fin n, d k.val := by
  induction n with
  | zero => rw [Finset.univ_eq_empty, Finset.sum_empty]; rfl
  | succ n ih =>
    show accUpTo d n + d n = _
    rw [Fin.sum_univ_castSucc, ih]
    rfl

/-- Five terms added one after the other to a zero start are the sum of the five. -/
theorem fold_five {M : Type*} [AddCommMonoid M] (d : Fin 5 → M) :
    ((((0 + d 0) + d 1) + d 2) + d 3) + d 4 = ∑ b : Fin 5, d b := by
  rw [Fin.sum_univ_five, zero_add]

/-- A sum over an axis padded at its end with positions that contribute zero is the sum over the unpadded
    axis: split the range at n, and the second part is a sum of zeros. -/
theorem sum_padded_of_le {M : Type*} [AddCommMonoid M] {n m : Nat} (hnm : n ≤ m) (g : Fin m → M)
    (hz : ∀ j : Fin m, n ≤ j.val → g j = 0) :
    ∑ j, g j = ∑ j : Fin n, g ⟨j.val, Nat.lt_of_lt_of_le j.isLt hnm⟩ := by
  obtain ⟨p, rfl⟩ := Nat.exists_eq_add_of_le hnm
  have hpad : ∑ k : Fin p, g (Fin.natAdd n k) = 0 :=
    Finset.sum_eq_zero fun k _ => hz _ (Nat.le_add_right n k.val)
  rw [Fin.sum_univ_add, hpad, add_zero]
  rfl

/-! ## The instances for 10240 = 5 * 2048 positions padded from 10000 -/

/-- Five partial sums over consecutive blocks of 2048 positions, added one after the other to a zero start,
    are the sum over all 10240 positions. -/
theorem sum_bands (g : Fin 10240 → EReal) :
    ((((( (0 : EReal) + ∑ k : Fin 2048, g ⟨0 * 2048 + k.val, by omega⟩)
        + ∑ k : Fin 2048, g ⟨1 * 2048 + k.val, by omega⟩)
        + ∑ k : Fin 2048, g ⟨2 * 2048 + k.val, by omega⟩)
        + ∑ k : Fin 2048, g ⟨3 * 2048 + k.val, by omega⟩)
        + ∑ k : Fin 2048, g ⟨4 * 2048 + k.val, by omega⟩)
      = ∑ j : Fin 10240, g j := by
  rw [show (∑ j : Fin 10240, g j) = ∑ b : Fin 5, ∑ k : Fin 2048, g ⟨b.val * 2048 + k.val, block_lt b k⟩
        from sum_blocks 5 2048 g, ← fold_five]
  rfl

/-- The sum over the 10240 padded positions of terms that vanish from position 10000 on is the sum over
    the first 10000 positions. -/
theorem sum_padded (g : Fin 10240 → EReal) (hz : ∀ j : Fin 10240, 10000 ≤ j.val → g j = 0) :
    ∑ j : Fin 10240, g j = ∑ j : Fin 10000, g ⟨j.val, by omega⟩ :=
  sum_padded_of_le (by norm_num) g hz

end Cert.LibGcnBands

end
-- ==== Proof.UL.Spec.lean ====
/-
  The uniformity loss of 2048 unit rows, as one function of the rows, and its accumulation in eight bands.

  For a matrix x of 2048 rows of 64 entries, and a row q of 2048 squared norms, the loss is

      log ( (1 / N) * sum over pairs r < c of exp (-2 * d2 r c) ),
      d2 r c = max (|x r|^2 + q c - 2 * <x r, x c>) 0,

  where N = 2048 * 2047 / 2 is the number of pairs. The pair sum is written here as a double sum over all
  (r, c) of a term that is zero unless r < c. Everything is over the extended reals; the three float literals
  (2, -2 and N) are kept as the values of their 32-bit words, which nothing below ever evaluates.

  The sum over the 2048 rows may be taken in eight consecutive bands of 256 rows, each band's partial sum added
  to a running total that starts at zero: addition on the extended reals is commutative and associative, so
  the regrouping needs no finiteness of the terms.
-/
import Idealize.ShloMosaic.PureOps.Ideal.Laws
import Idealize.ShloMosaic.Lib.ValueIdx
import proofs.«108982_j38147899523261_2_alg».proof.Proof.LibGcnBands

noncomputable section

open scoped BigOperators

namespace Cert.ULoss

open Idealize.ShloMosaic

/-- The literal 2, as the value of its 32-bit word. -/
abbrev two : EReal := Ideal.ofBits .f32 0x40000000#32
/-- The literal -2, as the value of its 32-bit word. -/
abbrev negTwo : EReal := Ideal.ofBits .f32 0xC0000000#32
/-- The number of pairs, 2048 * 2047 / 2 = 2096128, as the value of its 32-bit word. -/
abbrev nPairs : EReal := Ideal.ofBits .f32 0x49FFE000#32

variable (x : Fin 2048 → Fin 64 → EReal) (q : Fin 2048 → EReal)

/-- The squared norm of row c. -/
def sqNorm (c : Fin 2048) : EReal := ∑ k : Fin 64, x c k * x c k

/-- The clamped squared distance of rows r and c, the second row's squared norm read from q. -/
def dist2 (r c : Fin 2048) : EReal :=
  max (sqNorm x r + q c - two * ∑ k : Fin 64, x r k * x c k) 0

/-- The pair (r, c)'s term: exp (-2 d2) above the diagonal, zero on and below it. -/
def term (r c : Fin 2048) : EReal :=
  if r.val < c.val then Ideal.exp (negTwo * dist2 x q r c) else 0

/-- The sum of all pairs' terms. -/
def total : EReal := ∑ r : Fin 2048, ∑ c : Fin 2048, term x q r c

/-- Row r of band t: bands are 256 consecutive rows. -/
def bandRow (t : Fin 8) (r : Fin 256) : Fin 2048 := ⟨256 * t.val + r.val, by omega⟩

/-- Band t's partial sum: the terms of its 256 rows against every column. -/
def band (t : Fin 8) : EReal := ∑ r : Fin 256, ∑ c : Fin 2048, term x q (bandRow t r) c

/-- Band n's partial sum for a step number n, zero past the eighth band. -/
def bandAt (n : Nat) : EReal := if h : n < 8 then band x q ⟨n, h⟩ else 0

/-- The running total after n bands, from zero, each band added on the right. -/
def accum : Nat → EReal := Cert.LibGcnBands.accUpTo (bandAt x q)

/-- The loss: the logarithm of the mean of the pair terms. -/
def loss : EReal := Ideal.log (Ideal.div (total x q) nPairs)

theorem accum_zero : accum x q 0 = 0 := rfl

/-- One more band: the running total plus that band's partial sum. -/
theorem accum_succ (t : Fin 8) : accum x q (t.val + 1) = accum x q t.val + band x q t := by
  show Cert.LibGcnBands.accUpTo (bandAt x q) t.val + bandAt x q t.val = _
  unfold bandAt
  rw [dif_pos t.isLt]
  rfl

/-- The sum over all 2048 rows is the sum of the eight bands' partial sums. -/
theorem total_eq_sum_bands : total x q = ∑ t : Fin 8, band x q t := by
  unfold total band
  refine (Cert.LibGcnBands.sum_blocks 8 256 fun r : Fin 2048 => ∑ c : Fin 2048, term x q r c).trans ?_
  refine Finset.sum_congr rfl fun t _ => Finset.sum_congr rfl fun r _ => ?_
  refine congrArg (fun j : Fin 2048 => ∑ c : Fin 2048, term x q j c) (Fin.ext ?_)
  show t.val * 256 + r.val = 256 * t.val + r.val
  rw [Nat.mul_comm]

/-- After the eight bands the running total is the sum of all pairs' terms. -/
theorem accum_eight : accum x q 8 = total x q := by
  rw [total_eq_sum_bands]
  refine (Cert.LibGcnBands.accUpTo_eq_sum (bandAt x q) 8).trans ?_
  refine Finset.sum_congr rfl fun t _ => ?_
  unfold bandAt
  rw [dif_pos t.isLt]

end Cert.ULoss

end
-- ==== Proof.LibMatmulFin.lean ====
/-
  A matrix product read at one entry, as a finite sum over a plain range.

  On the extended reals a matrix-unit product into a zero accumulator is, entry by entry, the sum
  over the contraction index of the products of the two operands' entries.  When one axis is
  contracted, of extent `K`, that index is just a number below `K`; the lemma below states the
  entry as a sum over `Fin K`, the caller naming which entry of each operand position `k` reads.
  It holds for any dimension numbers with a single contracted axis, whatever the operands' layout
  (either may be stored transposed).
-/
import Idealize.ShloMosaic.PureOps.Ideal.Laws
import Idealize.ShloMosaic.Lib.ValueIdx

noncomputable section

namespace Cert.LibMatmulFin

open Idealize.ShloMosaic Idealize.ShloMosaic.ValueIdx

/-- Two indices of a rank-two shape with equal coordinates are equal. -/
theorem idx2_ext {n0 n1 : Nat} (a b : (⟨2, ![n0, n1]⟩ : Shape).Idx)
    (h0 : (a 0).val = (b 0).val) (h1 : (a 1).val = (b 1).val) : a = b :=
  funext fun d => Fin.ext (by
    match d with
    | ⟨0, _⟩ => exact h0
    | ⟨1, _⟩ => exact h1)

/-- A product into the zero accumulator, contracted over ONE axis of extent `K`, read at the
    result index `j`: the sum over `k < K` of the left operand at `li k` times the right operand at
    `ri k`, where `li k` and `ri k` are the operand indices the dimension numbers assign to result
    index `j` and contraction position `k` (`hl`, `hri`). -/
theorem matmul_zero_apply_fin {sl sr so : Shape} {φ₁ φ₂ : FTy} (D : DotDims sl sr so) (K : Nat)
    (hr : D.contr.rank = 1) (hs : D.contr.size ⟨0, by omega⟩ = K) (prec : Option ContractPrecision)
    (A : FVec Ideal sl φ₁) (B : FVec Ideal sr φ₂) (j : so.Idx) (li : Fin K → sl.Idx) (ri : Fin K → sr.Idx)
    (hl : ∀ k, D.lhsIdx j ((contrEquiv1 D K hr hs).symm k) = li k)
    (hri : ∀ k, D.rhsIdx j ((contrEquiv1 D K hr hs).symm k) = ri k) :
    FloatOps.matmul D prec A B (constant so .f32 0x00000000#32) j = ∑ k : Fin K, A (li k) * B (ri k) := by
  rw [Ideal.matmul_constant_zero_apply, ← Equiv.sum_comp (contrEquiv1 D K hr hs).symm]
  exact Finset.sum_congr rfl fun k _ => by rw [hl k, hri k]

end Cert.LibMatmulFin

end
-- ==== Proof.UL.HostSide.lean ====
/-
  The two reshapes of the host program around a pairwise-distance kernel, read at an index.

  Before the kernel runs, the host squares the normalised matrix entrywise, sums each row, and recasts the 2048 row
  sums as a [1, 2048] row: at column c that row holds the squared norm of row c. After the kernel, the host recasts
  the [1, 1] result as a scalar: it holds the result's one entry.
-/
import proofs.«108982_j38147899523261_2_alg».proof.Proof.Gen.KernelIdeal
import proofs.«108982_j38147899523261_2_alg».proof.Proof.UL.Spec
import proofs.«108982_j38147899523261_2_alg».proof.Proof.LibMatmulFin
import Idealize.ShloMosaic.Lib.IdealHost
import Idealize.ShloMosaic.Lib.Pipeline.Value
import Idealize.ShloMosaic.Lib.ValueLayout

noncomputable section

open scoped BigOperators

namespace Cert.ULoss

open Idealize.ShloMosaic Idealize.ShloMosaic.ValueIdx Cert.KernelIdeal Cert.KernelIdeal.Gen Cert.LibMatmulFin

/-- The row sums of the entrywise square of x, recast as a [1, 2048] row, hold at column c the squared norm of row c
    of x (whatever proofs of the shape conditions the two operations carry). -/
theorem sqRow_apply (x : FVec Ideal S2048x64 .f32) (h1 : S2048x64.ReducesTo [1] S2048) (hu : 0 < S_.numel)
    (h2 : S2048.ShapeCasts S1x2048) (c : Fin 2048) :
    shapeCast S1x2048 (Host.reduceAdd (mulf x x) (constant (F := Ideal) S_ .f32 0x00000000#32) h1 hu) h2 (ix2 0 c)
      = sqNorm (fun r k => x (ix2 r k)) c := by
  unfold sqNorm
  refine (shapeCast_a_1a_apply _ h2 (0 : Fin 1) c).trans ?_
  have h : S2048x64.Reduces [1] S2048 := by decide
  refine (Ideal.hostReduceAdd_single h1 h (mulf x x) _ (ix1 c)).trans ?_
  show Ideal.ofBits .f32 0x00000000#32 + ∑ k : Fin 64, mulf x x (h.lift (ix1 c) k) = _
  rw [Ideal.ofBits_zero_f32, zero_add]
  refine Finset.sum_congr rfl fun k _ => ?_
  exact congrArg (mulf x x) (idx2_ext _ _ rfl rfl)

/-- The row of squared norms the host computes from the normalised matrix x and hands to the kernel. -/
def hostSqRow (x : FVec Ideal S2048x64 .f32) : FVec Ideal S1x2048 .f32 :=
  shapeCast S1x2048
    (Host.reduceAdd (mulf x x) (constant (F := Ideal) S_ .f32 0x00000000#32) reducesTo_S2048x64_S2048_d1 h_S_)
    shapeCasts_S2048_S1x2048

/-- At column c that row holds the squared norm of row c of x. -/
theorem hostSqRow_apply (x : FVec Ideal S2048x64 .f32) (c : Fin 2048) :
    hostSqRow x (ix2 0 c) = sqNorm (fun r k => x (ix2 r k)) c :=
  sqRow_apply x _ _ _ c

/-- A [1, 1] array recast as a scalar holds the array's one entry. -/
theorem scalarCast_apply {α : Type} (out : S1x1.Idx → α) (h : S1x1.ShapeCasts S_) (j : S_.Idx) :
    shapeCast S_ out h j = out (ix2 0 0) := by
  refine shapeCast_apply out h j (ix2 0 0) ?_
  have h1 := (S1x1.rowMajor (ix2 0 0)).isLt
  have h2 := (S_.rowMajor j).isLt
  have e1 : S1x1.numel = 1 := by decide
  have e2 : S_.numel = 1 := by decide
  omega

end Cert.ULoss

end
-- ==== Proof.UL.RefStage.lean ====
/-
  The reference's uniformity loss, as one function of the normalised matrix, read at its one entry.

  The reference computes, from a matrix x of 2048 rows of 64 entries: the squared row norms sq; the matrix
  d2 = max (sq r + sq c - 2 * <x r, x c>) 0 with the inner products taken as x times its transpose; the mask of
  the strict upper triangle (row counter + 0 >= column counter selects "false", everything else keeps "true");
  exp (-2 * d2) where the mask is set and 0 elsewhere; the sum of all 2048 * 2048 entries; that sum divided by
  the number of pairs; the logarithm. This module names that composition and shows that its value is the
  specification's loss of x, with the squared norms of x itself in the place of the row q.
-/
import proofs.«108982_j38147899523261_2_alg».proof.Proof.Gen.ReferenceIdeal
import proofs.«108982_j38147899523261_2_alg».proof.Proof.UL.Spec
import proofs.«108982_j38147899523261_2_alg».proof.Proof.LibMatmulFin
import Idealize.ShloMosaic.Lib.IdealHost
import Idealize.ShloMosaic.Lib.Pipeline.Value
import Idealize.ShloMosaic.Lib.ValueLayout

noncomputable section

open scoped BigOperators

namespace Cert.ULoss

open Idealize.ShloMosaic Idealize.ShloMosaic.ValueIdx Cert.ReferenceIdeal Cert.ReferenceIdeal.Gen Cert.LibMatmulFin

/-! ## The composition -/

/-- The squared row norms. -/
def refSq (x : FVec Ideal S2048x64 .f32) : FVec Ideal S2048 .f32 :=
  Host.reduceAdd (mulf x x) (constant (F := Ideal) S_ .f32 0x00000000#32) reducesTo_S2048x64_S2048_d1 h_S_

/-- The Gram matrix: x times its transpose. -/
def refGram (x : FVec Ideal S2048x64 .f32) : FVec Ideal S2048x2048 .f32 :=
  Host.dotGeneral dot_S2048x64_S64x2048_S2048x2048_1_0_0_1_n_n none x
    (transpose S64x2048 [1, 0] x transposes_S2048x64_S64x2048_1_0)

/-- The clamped squared distances. -/
def refD2 (x : FVec Ideal S2048x64 .f32) : FVec Ideal S2048x2048 .f32 :=
  maximumf
    (subf
      (addf
        (broadcastInDim S2048x2048 ![0, 1] bcast_S2048x1_S2048x2048_0_1
          (broadcastInDim S2048x1 ![0] bcast_S2048_S2048x1_0 (refSq x)))
        (broadcastInDim S2048x2048 ![0, 1] bcast_S1x2048_S2048x2048_0_1
          (broadcastInDim S1x2048 ![1] bcast_S2048_S1x2048_1 (refSq x))))
      (mulf (broadcastInDim S2048x2048 ![] bcast_S_S2048x2048 (constant (F := Ideal) S_ .f32 0x40000000#32)) (refGram x)))
    (broadcastInDim S2048x2048 ![] bcast_S_S2048x2048 (constant (F := Ideal) S_ .f32 0x00000000#32))

/-- The strict-upper-triangle mask. -/
def refMask : IVec S2048x2048 1 :=
  select
    (cmpi .sge
      (addi (iotaInDim S2048x2048 32 0) (broadcastInDim S2048x2048 ![] bcast_S_S2048x2048 (constantI S_ 32 0#32)))
      (iotaInDim S2048x2048 32 1))
    (broadcastInDim S2048x2048 ![] bcast_S_S2048x2048 (constantI S_ 1 0#1))
    (broadcastInDim S2048x2048 ![] bcast_S_S2048x2048 (constantI S_ 1 1#1))

/-- The masked exponentials. -/
def refTerms (x : FVec Ideal S2048x64 .f32) : FVec Ideal S2048x2048 .f32 :=
  select refMask
    (Host.exp (mulf (broadcastInDim S2048x2048 ![] bcast_S_S2048x2048 (constant (F := Ideal) S_ .f32 0xC0000000#32)) (refD2 x)))
    (broadcastInDim S2048x2048 ![] bcast_S_S2048x2048 (id (constant (F := Ideal) S_ .f32 0x00000000#32)))

/-- The reference's loss of the normalised matrix x. -/
def refULoss (x : FVec Ideal S2048x64 .f32) : FVec Ideal S_ .f32 :=
  Host.log (Host.divf
    (Host.reduceAdd (refTerms x) (constant (F := Ideal) S_ .f32 0x00000000#32) reducesTo_S2048x2048_S_d0_1 h_S_)
    (constant (F := Ideal) S_ .f32 0x49FFE000#32))

/-! ## Read entry by entry -/

/-- The squared norm of row r. -/
theorem refSq_apply (x : FVec Ideal S2048x64 .f32) (r : Fin 2048) :
    refSq x (ix1 r) = ∑ k : Fin 64, x (ix2 r k) * x (ix2 r k) := by
  unfold refSq
  have h : S2048x64.Reduces [1] S2048 := by decide
  refine (Ideal.hostReduceAdd_single reducesTo_S2048x64_S2048_d1 h (mulf x x) _ (ix1 r)).trans ?_
  show Ideal.ofBits .f32 0x00000000#32 + ∑ k : Fin 64, mulf x x (h.lift (ix1 r) k) = _
  rw [Ideal.ofBits_zero_f32, zero_add]
  refine Finset.sum_congr rfl fun k _ => ?_
  exact congrArg (mulf x x) (idx2_ext _ _ rfl rfl)

/-- The Gram matrix at (r, c): the inner product of rows r and c. -/
theorem refGram_apply (x : FVec Ideal S2048x64 .f32) (r c : Fin 2048) :
    refGram x (ix2 r c) = ∑ k : Fin 64, x (ix2 r k) * x (ix2 c k) := by
  unfold refGram
  refine (Ideal.dotGeneral_apply dot_S2048x64_S64x2048_S2048x2048_1_0_0_1_n_n none .single x _ (ix2 r c)).trans ?_
  rw [← Equiv.sum_comp (contrEquiv1 dot_S2048x64_S64x2048_S2048x2048_1_0_0_1_n_n 64 rfl rfl).symm]
  refine Finset.sum_congr rfl fun k _ => ?_
  have hl : dot_S2048x64_S64x2048_S2048x2048_1_0_0_1_n_n.lhsIdx (ix2 r c)
      ((contrEquiv1 dot_S2048x64_S64x2048_S2048x2048_1_0_0_1_n_n 64 rfl rfl).symm k) = ix2 r k := by
    refine idx2_ext _ _ ?_ ?_
    · first
        | rfl
        | (simp [DotDims.lhsIdx, dot_S2048x64_S64x2048_S2048x2048_1_0_0_1_n_n]; rfl)
    · exact (DotDims.lhsIdx_val_of_single _ (cl := 1) rfl _ _).trans (contrEquiv1_symm_val _ 64 rfl rfl k)
  have hr : dot_S2048x64_S64x2048_S2048x2048_1_0_0_1_n_n.rhsIdx (ix2 r c)
      ((contrEquiv1 dot_S2048x64_S64x2048_S2048x2048_1_0_0_1_n_n 64 rfl rfl).symm k) = ix2 k c := by
    refine idx2_ext _ _ ?_ ?_
    · exact (DotDims.rhsIdx_val_of_single _ (cr := 0) rfl _ _).trans (contrEquiv1_symm_val _ 64 rfl rfl k)
    · first
        | rfl
        | (simp [DotDims.rhsIdx, dot_S2048x64_S64x2048_S2048x2048_1_0_0_1_n_n]; rfl)
  rw [hl, hr, transpose_ix2_apply x transposes_S2048x64_S64x2048_1_0 k c]

/-- A number below 2^31, as a 32-bit word read signed, is itself. -/
theorem toInt_ofNat_lt (n : Nat) (hn : n < 2147483648) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- The mask at (r, c): set exactly above the diagonal. -/
theorem refMask_apply (r c : Fin 2048) : refMask (ix2 r c) = if r.val < c.val then 1#1 else 0#1 := by
  unfold refMask
  show Scalar.select (BitVec.ofBool ((BitVec.ofNat 32 c.val).sle (BitVec.ofNat 32 r.val + 0#32))) 0#1 1#1 = _
  have hr := r.isLt
  have hc := c.isLt
  rw [BitVec.add_zero, BitVec.sle_eq_decide, toInt_ofNat_lt _ (by omega), toInt_ofNat_lt _ (by omega)]
  by_cases hlt : r.val < c.val
  · rw [if_pos hlt, decide_eq_false (by omega)]; rfl
  · rw [if_neg hlt, decide_eq_true (by omega)]; rfl

/-- One masked exponential. -/
theorem refTerms_apply (x : FVec Ideal S2048x64 .f32) (r c : Fin 2048) :
    refTerms x (ix2 r c)
      = term (fun r k => x (ix2 r k)) (sqNorm fun r k => x (ix2 r k)) r c := by
  have hA : broadcastInDim S2048x2048 ![0, 1] bcast_S2048x1_S2048x2048_0_1
      (broadcastInDim S2048x1 ![0] bcast_S2048_S2048x1_0 (refSq x)) (ix2 r c) = refSq x (ix1 r) := by
    refine (broadcastInDim_apply _ _ _ (ix2 r c) (ix2 r (0 : Fin 1)) fun a => ?_).trans ?_
    · match a with
      | ⟨0, _⟩ => rfl
      | ⟨1, _⟩ => rfl
    · refine broadcastInDim_apply _ _ _ (ix2 r (0 : Fin 1)) (ix1 r) fun a => ?_
      match a with
      | ⟨0, _⟩ => rfl
  have hB : broadcastInDim S2048x2048 ![0, 1] bcast_S1x2048_S2048x2048_0_1
      (broadcastInDim S1x2048 ![1] bcast_S2048_S1x2048_1 (refSq x)) (ix2 r c) = refSq x (ix1 c) := by
    refine (broadcastInDim_apply _ _ _ (ix2 r c) (ix2 (0 : Fin 1) c) fun a => ?_).trans ?_
    · match a with
      | ⟨0, _⟩ => rfl
      | ⟨1, _⟩ => rfl
    · refine broadcastInDim_apply _ _ _ (ix2 (0 : Fin 1) c) (ix1 c) fun a => ?_
      match a with
      | ⟨0, _⟩ => rfl
  unfold refTerms refD2
  show Scalar.select (refMask (ix2 r c))
      (Ideal.exp (negTwo * max
        (broadcastInDim S2048x2048 ![0, 1] bcast_S2048x1_S2048x2048_0_1
            (broadcastInDim S2048x1 ![0] bcast_S2048_S2048x1_0 (refSq x)) (ix2 r c)
          + broadcastInDim S2048x2048 ![0, 1] bcast_S1x2048_S2048x2048_0_1
            (broadcastInDim S1x2048 ![1] bcast_S2048_S1x2048_1 (refSq x)) (ix2 r c)
          - two * refGram x (ix2 r c))
        (Ideal.ofBits .f32 0x00000000#32)))
      (Ideal.ofBits .f32 0x00000000#32) = _
  rw [hA, hB, refMask_apply, refSq_apply, refSq_apply, refGram_apply, Ideal.ofBits_zero_f32]
  unfold term dist2 sqNorm
  by_cases hlt : r.val < c.val
  · rw [if_pos hlt, if_pos hlt, select_one]
  · rw [if_neg hlt, if_neg hlt, select_zero]

/-- The reference's loss is the specification's loss of x with x's own squared norms. -/
theorem refULoss_apply (x : FVec Ideal S2048x64 .f32) (j : S_.Idx) :
    refULoss x j = loss (fun r k => x (ix2 r k)) (sqNorm fun r k => x (ix2 r k)) := by
  unfold refULoss loss
  show Ideal.log (Ideal.div
    (Ideal.hostReduceAdd reducesTo_S2048x2048_S_d0_1 (refTerms x) (Ideal.ofBits .f32 0x00000000#32) j) nPairs) = _
  rw [Ideal.hostReduceAdd_total reducesTo_S2048x2048_S_d0_1 (fun b => b.elim0) (refTerms x) _ j,
    Ideal.ofBits_zero_f32, zero_add]
  refine congrArg (fun s => Ideal.log (Ideal.div s nPairs)) ?_
  refine (sum_idx2 (refTerms x)).trans ?_
  unfold total
  exact Finset.sum_congr rfl fun r _ => Finset.sum_congr rfl fun c _ => refTerms_apply x r c

end Cert.ULoss

end
-- ==== Proof.UL.RefBridge.lean ====
/-
  The reference's uniformity loss of a normalised matrix, under its name among the reference's stage functions,
  is the specification's loss; and the stage function of the squared row norms, recast as a [1, 2048] row, holds at
  column j the squared norm of row j.
-/
import proofs.«108982_j38147899523261_2_alg».proof.Proof.UL.RefStage
import proofs.«108982_j38147899523261_2_alg».proof.Proof.Ref.Stages
import proofs.«108982_j38147899523261_2_alg».proof.Proof.UL.HostSide

noncomputable section

namespace Cert.ULoss

open Idealize.ShloMosaic Idealize.ShloMosaic.ValueIdx Cert.ReferenceIdeal Cert.ReferenceIdeal.Gen

/-- The composition named here is the stage function of the same operations. -/
theorem refULoss_eq_uLossN (x : FVec Ideal S2048x64 .f32) :
    refULoss x = Cert.ReferenceIdeal.Hand.uLossN (F := Ideal) x := rfl

/-- The stage function's value is the specification's loss of x with x's own squared norms. -/
theorem uLossN_apply (x : FVec Ideal S2048x64 .f32) (j : S_.Idx) :
    Cert.ReferenceIdeal.Hand.uLossN (F := Ideal) x j
      = loss (fun r k => x (ix2 r k)) (sqNorm fun r k => x (ix2 r k)) :=
  (congrFun (refULoss_eq_uLossN x).symm j).trans (refULoss_apply x j)

/-- The squared row norms of x under their stage-function name, recast as a [1, 2048] row: at column j the squared
    norm of row j of x. -/
theorem sqNorms_row_apply (x : FVec Ideal S2048x64 .f32) (h2 : S2048.ShapeCasts S1x2048) (j : Fin 2048) :
    shapeCast S1x2048 (Cert.ReferenceIdeal.Hand.sqNorms (F := Ideal) x) h2 (ix2 0 j)
      = sqNorm (fun r k => x (ix2 r k)) j :=
  sqRow_apply x reducesTo_S2048x64_S2048_d1 h_S_ h2 j

end Cert.ULoss

end
-- ==== Proof.KV.ULossSpec.lean ====
import proofs.«108982_j38147899523261_2_alg».proof.Proof.KV.Pieces
import proofs.«108982_j38147899523261_2_alg».proof.Proof.UL.HostSide
import proofs.«108982_j38147899523261_2_alg».proof.Proof.UL.RefBridge

/-! A uniformity kernel's number, read as the reference's uniformity loss.

A uniformity kernel is given 2048 rows and a row of 2048 numbers, and leaves one number in a `[1, 1]` array: the
logarithm of the mean over the pairs `i < j` of `exp (-2 · max (|xᵢ|² + qⱼ - 2 xᵢ·xⱼ) 0)`, the specification's loss
of the rows `x` and the numbers `q`. The host side hands it, as `q`, the squared lengths of the very rows it hands
it, and reads the one number as a scalar. With `q` the rows' squared lengths the specification's loss is the
reference's uniformity loss of the rows; so the scalar is that loss. -/

noncomputable section

namespace Cert.KernelIdeal.Value

open Cert.KernelIdeal Cert.KernelIdeal.Gen Idealize.ShloMosaic Idealize.ShloMosaic.ValueIdx Idealize.SL.Sem
open Cert.ReferenceIdeal.Hand (uLossN)

/-- If the `[1, 1]` array's one entry is the specification's loss of the rows `xs` with the numbers `qs`, and `qs` is the
    row of `xs`'s squared row lengths, then the array read as a scalar is the reference's uniformity loss of `xs`. -/
theorem ul_scalar (o : FVec Ideal S1x1 .f32) (xs : FVec Ideal S2048x64 .f32) (qs : FVec Ideal S1x2048 .f32)
    (hq : qs = sqNormsRow xs)
    (ho : o (ix2 0 0) = Cert.ULoss.loss (fun r k => xs (ix2 r k)) (fun j => qs (ix2 (0 : Fin 1) j))) :
    shapeCast S_ o shapeCasts_S1x1_S_ = uLossN xs := by
  funext j
  rw [Cert.ULoss.scalarCast_apply, ho, Cert.ULoss.uLossN_apply]
  refine congrArg (Cert.ULoss.loss fun r k => xs (ix2 r k)) (funext fun c' => ?_)
  rw [hq]
  exact Cert.ULoss.hostSqRow_apply xs c'

end Cert.KernelIdeal.Value

end
-- ==== Proof.KV.SpecOf.lean ====
import proofs.«108982_j38147899523261_2_alg».proof.Proof.KV.Bridge
import proofs.«108982_j38147899523261_2_alg».proof.Proof.KV.LayerSpec
import proofs.«108982_j38147899523261_2_alg».proof.Proof.KV.ULossSpec

/-! The kernels' specification from what they leave entry by entry.

Each of the eight kernels is known by what it leaves at every entry of its result array, as a function of what its
input arrays held when it was entered: a layer-update kernel leaves, lane by lane of the 128-wide rows, the raw
table divided by the layer's constant and the accumulator plus the normalised half-row of that quotient; a
uniformity kernel leaves in its one entry the specification's loss of the rows and the numbers it was given. Read
as the reference shapes its arrays these are the reference's stages (`LayerSpec`, `ULossSpec`), which is the
specification `RegionSpec` the value of the result is computed from. -/

noncomputable section

namespace Cert.KernelIdeal.Value

open Cert.KernelIdeal Cert.KernelIdeal.Gen Cert.KernelIdeal.Hand Idealize.ShloMosaic Idealize.ShloMosaic.TcCoe Idealize.ShloMosaic.ValueIdx Idealize.SL.Sem
open Cert.LayerUpdate (normRow half feat)

/-- An array of exact reals as the function of its index it is. -/
abbrev asF {s : Shape} (x : FVec Ideal s .f32) : s.Idx → EReal := x

variable (outs : Outs Ideal) (c : Dev nD)

/-- The eight kernels' entry-by-entry results give their specification. -/
theorem regionSpec_of
    (h0f : ∀ (W : Dev nD → Valuation τ sig (Elt Ideal)) (R : Fin 150000) (l : Fin 128),
      asF (s := S150000x128) (outs.v16_0 c W) (ix2 R l)
        = Ideal.div (asF (s := S150000x128) (W c main_v14) (ix2 R l)) (Ideal.ofBits .f32 0x40000000#32))
    (h0a : ∀ (W : Dev nD → Valuation τ sig (Elt Ideal)) (R : Fin 150000) (l : Fin 128),
      asF (s := S150000x128) (outs.v16_1 c W) (ix2 R l)
        = asF (s := S150000x128) (W c main_v15) (ix2 R l)
          + normRow (fun j => Ideal.div (asF (s := S150000x128) (W c main_v14) (ix2 R (half l j))) (Ideal.ofBits .f32 0x40000000#32)) (feat l))
    (h1a : ∀ (W : Dev nD → Valuation τ sig (Elt Ideal)) (R : Fin 150000) (l : Fin 128),
      asF (s := S150000x128) (outs.v34 c W) (ix2 R l)
        = asF (s := S150000x128) (W c main_v33) (ix2 R l)
          + normRow (fun j => Ideal.div (asF (s := S150000x128) (W c main_v32) (ix2 R (half l j))) (Ideal.ofBits .f32 0x40400000#32)) (feat l))
    (h2f : ∀ (W : Dev nD → Valuation τ sig (Elt Ideal)) (R : Fin 75000) (l : Fin 128),
      asF (s := S75000x128) (outs.v54_0 c W) (ix2 R l)
        = Ideal.div (asF (s := S75000x128) (W c main_v52) (ix2 R l)) (Ideal.ofBits .f32 0x40000000#32))
    (h2a : ∀ (W : Dev nD → Valuation τ sig (Elt Ideal)) (R : Fin 75000) (l : Fin 128),
      asF (s := S75000x128) (outs.v54_1 c W) (ix2 R l)
        = asF (s := S75000x128) (W c main_v53) (ix2 R l)
          + normRow (fun j => Ideal.div (asF (s := S75000x128) (W c main_v52) (ix2 R (half l j))) (Ideal.ofBits .f32 0x40000000#32)) (feat l))
    (h3a : ∀ (W : Dev nD → Valuation τ sig (Elt Ideal)) (R : Fin 75000) (l : Fin 128),
      asF (s := S75000x128) (outs.v72 c W) (ix2 R l)
        = asF (s := S75000x128) (W c main_v71) (ix2 R l)
          + normRow (fun j => Ideal.div (asF (s := S75000x128) (W c main_v70) (ix2 R (half l j))) (Ideal.ofBits .f32 0x40400000#32)) (feat l))
    (h4 : ∀ (W : Dev nD → Valuation τ sig (Elt Ideal)),
      asF (s := S1x1) (outs.v162 c W) (ix2 0 0)
        = Cert.ULoss.loss (fun r k => asF (s := S2048x64) (W c main_v158) (ix2 r k))
            (fun j => asF (s := S1x2048) (W c main_v161) (ix2 (0 : Fin 1) j)))
    (h5 : ∀ (W : Dev nD → Valuation τ sig (Elt Ideal)),
      asF (s := S1x1) (outs.v172 c W) (ix2 0 0)
        = Cert.ULoss.loss (fun r k => asF (s := S2048x64) (W c main_v168) (ix2 r k))
            (fun j => asF (s := S1x2048) (W c main_v171) (ix2 (0 : Fin 1) j)))
    (h6 : ∀ (W : Dev nD → Valuation τ sig (Elt Ideal)),
      asF (s := S1x1) (outs.v216 c W) (ix2 0 0)
        = Cert.ULoss.loss (fun r k => asF (s := S2048x64) (W c main_v212) (ix2 r k))
            (fun j => asF (s := S1x2048) (W c main_v215) (ix2 (0 : Fin 1) j)))
    (h7 : ∀ (W : Dev nD → Valuation τ sig (Elt Ideal)),
      asF (s := S1x1) (outs.v226 c W) (ix2 0 0)
        = Cert.ULoss.loss (fun r k => asF (s := S2048x64) (W c main_v222) (ix2 r k))
            (fun j => asF (s := S1x2048) (W c main_v225) (ix2 (0 : Fin 1) j))) :
    RegionSpec outs c where
  feats0 W := feats_unpacked_aff _ _ _ (h0f W)
  acc0 W := acc_unpacked_aff _ _ _ _ (h0a W)
  acc1 W := acc_unpacked_aff _ _ _ _ (h1a W)
  feats2 W := feats_unpacked_hist _ _ _ (h2f W)
  acc2 W := acc_unpacked_hist _ _ _ _ (h2a W)
  acc3 W := acc_unpacked_hist _ _ _ _ (h3a W)
  ul4 W hq := ul_scalar _ _ _ hq (h4 W)
  ul5 W hq := ul_scalar _ _ _ hq (h5 W)
  ul6 W hq := ul_scalar _ _ _ hq (h6 W)
  ul7 W hq := ul_scalar _ _ _ hq (h7 W)

end Cert.KernelIdeal.Value

end
-- ==== Proof.Upd.Rows.lean ====
import Idealize.ShloMosaic.Lib.ValueIdx

/-! Tables of 128-lane rows, cut into blocks of 5000 rows.

The layer-update kernels run over a table of `N` rows (150000 or 75000), 5000 rows at a grid point: point `q`
sees rows `5000 q … 5000 q + 4999`. A kernel body is a function `P` from the blocks it reads to the block it
writes. This module names the block of a table at a point (`rowBlock`) and the table that results from applying `P`
block by block (`tiled`), and proves the two coordinate facts every use needs: entry `(5000 q + r, l)` of the tiled
table is entry `(r, l)` of `P` of the `q`-th blocks (`tiled_at_block`), and entry `(R % 5000, l)` of block
`R / 5000` is entry `(R, l)` of the table (`rowBlock_div_mod`). Nothing here mentions a program. -/

namespace Cert.LayerUpdate

open Idealize.ShloMosaic Idealize.ShloMosaic.ValueIdx

/-- The shape of a table of `N` rows of 128 lanes. -/
abbrev Tbl (N : ℕ) : Shape := ⟨2, ![N, 128]⟩

variable {α : Type} {N : ℕ}

/-- Rows `5000 q … 5000 q + 4999` of a table, as a block of 5000 rows. -/
def rowBlock (a : (Tbl N).Idx → α) (q : ℕ) (hq : 5000 * q + 5000 ≤ N) : (Tbl 5000).Idx → α :=
  fun j => a (ix2 ⟨5000 * q + (j 0).val, by have := idx2_lt0 j; omega⟩ ⟨(j 1).val, idx2_lt1 j⟩)

/-- A block's entry `(r, l)` is the table's entry `(5000 q + r, l)`. -/
theorem rowBlock_apply (a : (Tbl N).Idx → α) (q : ℕ) (hq : 5000 * q + 5000 ≤ N) (r : Fin 5000) (l : Fin 128) :
    rowBlock a q hq (ix2 r l) = a (ix2 ⟨5000 * q + r.val, by have := r.isLt; omega⟩ l) := rfl

/-- When the blocks fill the table, every row lies in the block its quotient by 5000 names. -/
theorem block_le (hN : N % 5000 = 0) {R : ℕ} (hR : R < N) : 5000 * (R / 5000) + 5000 ≤ N := by omega

/-- Row `R` of the table is row `R % 5000` of block `R / 5000`. -/
theorem rowBlock_div_mod (hN : N % 5000 = 0) (a : (Tbl N).Idx → α) (R : Fin N) (l : Fin 128) :
    rowBlock a (R.val / 5000) (block_le hN R.isLt) (ix2 ⟨R.val % 5000, Nat.mod_lt _ (by decide)⟩ l) = a (ix2 R l) := by
  rw [rowBlock_apply]
  exact congrArg (fun R' : Fin N => a (ix2 R' l)) (Fin.ext (by show 5000 * (R.val / 5000) + R.val % 5000 = R.val; omega))

/-- The table obtained by applying a block function `P` block by block to two tables: its entry `(R, l)` is entry
    `(R % 5000, l)` of `P` of the two tables' blocks number `R / 5000`. -/
def tiled (hN : N % 5000 = 0) (P : ((Tbl 5000).Idx → α) → ((Tbl 5000).Idx → α) → (Tbl 5000).Idx → α)
    (a0 a1 : (Tbl N).Idx → α) : (Tbl N).Idx → α :=
  fun i => P (rowBlock a0 ((i 0).val / 5000) (block_le hN (idx2_lt0 i))) (rowBlock a1 ((i 0).val / 5000) (block_le hN (idx2_lt0 i)))
    (ix2 ⟨(i 0).val % 5000, Nat.mod_lt _ (by decide)⟩ ⟨(i 1).val, idx2_lt1 i⟩)

/-- The tiled table at an entry given by its row and lane. -/
theorem tiled_apply (hN : N % 5000 = 0) (P : ((Tbl 5000).Idx → α) → ((Tbl 5000).Idx → α) → (Tbl 5000).Idx → α)
    (a0 a1 : (Tbl N).Idx → α) (R : Fin N) (l : Fin 128) :
    tiled hN P a0 a1 (ix2 R l)
      = P (rowBlock a0 (R.val / 5000) (block_le hN R.isLt)) (rowBlock a1 (R.val / 5000) (block_le hN R.isLt))
          (ix2 ⟨R.val % 5000, Nat.mod_lt _ (by decide)⟩ l) := rfl

/-- The tiled table read through block `q`: the entry whose row is `5000 q + (j 0)` and whose lane is `j 1` is
    entry `j` of `P` of the `q`-th blocks. -/
theorem tiled_at_block (hN : N % 5000 = 0) (P : ((Tbl 5000).Idx → α) → ((Tbl 5000).Idx → α) → (Tbl 5000).Idx → α)
    (a0 a1 : (Tbl N).Idx → α) (q : ℕ) (hq : 5000 * q + 5000 ≤ N) (j : (Tbl 5000).Idx) (i : (Tbl N).Idx)
    (h0 : (i 0).val = 5000 * q + (j 0).val) (h1 : (i 1).val = (j 1).val) :
    tiled hN P a0 a1 i = P (rowBlock a0 q hq) (rowBlock a1 q hq) j := by
  have hj : (j 0).val < 5000 := idx2_lt0 j
  have e : (i 0).val / 5000 = q := by omega
  subst e
  unfold tiled
  refine congrArg (P _ _) ?_
  funext a
  match a with
  | ⟨0, _⟩ => exact Fin.ext (by show (i 0).val % 5000 = (j 0).val; omega)
  | ⟨1, _⟩ => exact Fin.ext h1

end Cert.LayerUpdate
-- ==== Proof.LibKeepdims.lean ====
/-
  Two layout operations read at an index, for a reduction that keeps its reduced axis as a unit axis
  (`sum(axis=-1, keepdims=True)`): a vector of length `a` recast as a column `[a, 1]`, and a column `[a, 1]` broadcast
  along its unit axis to `[a, b]`. Both read, at row `p`, the operand's entry for row `p`.
-/
import Idealize.ShloMosaic.Lib.Pipeline.Value
import Idealize.ShloMosaic.Lib.ValueIdx
import Idealize.ShloMosaic.Lib.ValueLayout

noncomputable section

namespace Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Upd.PackedNorm.lean ====
/-
  The kernel's normalisation of a packed block, read at one lane.

  A block of 5000 rows of 128 lanes holds two 64-wide rows per 128-lane row. The kernel squares the block, sums lanes
  0–63 and lanes 64–127 of each row separately, floors each sum at `eps`, takes the root, and divides every lane by the
  root of ITS half (a select on "lane < 64" between the two roots broadcast along the lanes); the quotient is added to an
  accumulator block. Here that chain of vector operations is one term, `packedUpdate`, of the scaled block `feats`, and
  `packedUpdate_apply` reads it at row `r`, lane `l`:

      acc (r, l) + feats (r, l) / √(max (Σ_j feats (r, half l j)²) eps)

  where `half l j` is lane `j` of the half that lane `l` lies in. With `eps = D²` this is the specification's
  `normRow` of that half-row, at feature `l % 64` (`packedUpdate_eq_normRow`).
-/
import Idealize.ShloMosaic.PureOps.Ideal.Laws
import Idealize.ShloMosaic.Lib.ValueIdx
import Idealize.ShloMosaic.Lib.ValueLayout
import Idealize.ShloMosaic.Lib.Pipeline.Value
import proofs.«108982_j38147899523261_2_alg».proof.Proof.LibKeepdims
import proofs.«108982_j38147899523261_2_alg».proof.Proof.Upd.Spec

noncomputable section

open scoped BigOperators

namespace Cert.LayerUpdate

open Idealize.ShloMosaic Idealize.ShloMosaic.ValueIdx

/-- A packed block: 5000 rows of 128 lanes. -/
abbrev SP : Shape := ⟨2, ![5000, 128]⟩
/-- One half of it: 5000 rows of 64 lanes. -/
abbrev SH : Shape := ⟨2, ![5000, 64]⟩
/-- One number per row. -/
abbrev SV : Shape := ⟨1, ![5000]⟩
/-- One number per row, as a column. -/
abbrev SC : Shape := ⟨2, ![5000, 1]⟩

/-! ## The sum of one half of a row -/

/-- The lanes `o … o+63` of a block, summed along the lanes, at row `r`: the sum over `j` of the block at `(r, o + j)`. -/
theorem halfSum_apply (o : Nat) (sq : FVec Ideal SP .f32) (hs : SP.Slices ![0, o] SH) (hr : SH.Reduces [1] SV)
    (hφ : FKind.Formats .f32) (hacc : (0x00000000#32 : BitVec 32) = 0x00000000#32) (r : Fin 5000) :
    multiReduction .add [1] SV (extractStridedSlice SH ![0, o] sq hs) 0x00000000#32 hr hφ hacc (ix1 r)
      = ∑ j : Fin 64, sq (ix2 r ⟨o + j.val, Nat.lt_of_lt_of_le (Nat.add_lt_add_left j.isLt o) (hs.2 1)⟩) := by
  refine (Ideal.multiReduction_add_single _ 0x00000000#32 hr hφ hacc (ix1 r)).trans ?_
  show ∑ j : Fin 64, extractStridedSlice SH ![0, o] sq hs (hr.lift (ix1 r) j) = _
  refine Finset.sum_congr rfl fun j _ => ?_
  have e : hr.lift (ix1 r) j = ix2 r j :=
    funext fun a => Fin.ext (by match a with | ⟨0, _⟩ => rfl | ⟨1, _⟩ => rfl)
  rw [e]
  exact slice2_axis1_eq o sq hs r j

/-- The root of the floored sum of squares of one half, kept as a column, at row `r`. -/
theorem halfNorm_apply (o : Nat) (eps : Ideal .f32) (feats : FVec Ideal SP .f32) (hs : SP.Slices ![0, o] SH)
    (hr : SH.Reduces [1] SV) (hVC : SV.ShapeCasts SC) (hCC : SC.ShapeCasts SC)
    (hφ : FKind.Formats .f32) (hacc : (0x00000000#32 : BitVec 32) = 0x00000000#32) (r : Fin 5000) (u : Fin 1) :
    shapeCast SC (sqrt (maximumf (shapeCast SC (multiReduction .add [1] SV
        (extractStridedSlice SH ![0, o] (mulf feats feats) hs) 0x00000000#32 hr hφ hacc) hVC) (broadcast SC eps))) hCC (ix2 r u)
      = Ideal.sqrt (max (∑ j : Fin 64,
            feats (ix2 r ⟨o + j.val, Nat.lt_of_lt_of_le (Nat.add_lt_add_left j.isLt o) (hs.2 1)⟩)
              * feats (ix2 r ⟨o + j.val, Nat.lt_of_lt_of_le (Nat.add_lt_add_left j.isLt o) (hs.2 1)⟩)) eps) := by
  rw [shapeCast_self]
  show Ideal.sqrt (max (shapeCast SC (multiReduction .add [1] SV
        (extractStridedSlice SH ![0, o] (mulf feats feats) hs) 0x00000000#32 hr hφ hacc) hVC (ix2 r u)) eps) = _
  rw [shapeCast_a_a1_apply, halfSum_apply]
  rfl

/-! ## Which half a lane lies in -/

/-- The comparison "lane < 64" on 32-bit words, for the 128 lanes. -/
theorem lane_lt_64 : ∀ l : Fin 128,
    IntOp.cmpi .slt (BitVec.ofNat 32 l.val) 64#32 = if l.val < 64 then 1#1 else 0#1 := by
  decide +kernel

/-! ## The scaled block -/

/-- The block divided by the constant whose 32-bit pattern is `dw`, as the kernel writes it. -/
def scaled (dw : BitVec 32) (raw : FVec Ideal SP .f32) (hPP : SP.ShapeCasts SP) : FVec Ideal SP .f32 :=
  divf (shapeCast SP raw hPP) (broadcast SP (Scalar.ofBits .f32 dw))

/-- At row `r`, lane `l` it is the block there divided by the number the pattern denotes. -/
theorem scaled_apply (dw : BitVec 32) (raw : FVec Ideal SP .f32) (hPP : SP.ShapeCasts SP) (r : Fin 5000) (l : Fin 128) :
    scaled dw raw hPP (ix2 r l) = Ideal.div (raw (ix2 r l)) (Ideal.ofBits .f32 dw) := by
  unfold scaled
  rw [shapeCast_self]
  rfl

/-! ## The whole update at a lane -/

/-- The kernel's accumulator update as one term of the scaled block `feats`, the accumulator block `acc` and the floor
    `eps` under the root. -/
def packedUpdate (eps : Ideal .f32) (feats acc : FVec Ideal SP .f32)
    (hPP : SP.ShapeCasts SP) (hs0 : SP.Slices ![0, 0] SH) (hs1 : SP.Slices ![0, 64] SH) (hr : SH.Reduces [1] SV)
    (hVC : SV.ShapeCasts SC) (hCC : SC.ShapeCasts SC) (hCP : SC.Broadcasts SP) (hi : SP.Iotas .tc 32 [1]) :
    FVec Ideal SP .f32 :=
  addf (shapeCast SP acc hPP)
    (divf feats
      (select (cmpi .slt (iota .tc SP 32 [1] hi) (broadcast SP 64#32))
        (broadcastTo SP (shapeCast SC (sqrt (maximumf (shapeCast SC (multiReduction .add [1] SV
          (extractStridedSlice SH ![0, 0] (mulf feats feats) hs0) 0x00000000#32 hr (.inl rfl) rfl) hVC) (broadcast SC eps))) hCC) hCP)
        (broadcastTo SP (shapeCast SC (sqrt (maximumf (shapeCast SC (multiReduction .add [1] SV
          (extractStridedSlice SH ![0, 64] (mulf feats feats) hs1) 0x00000000#32 hr (.inl rfl) rfl) hVC) (broadcast SC eps))) hCC) hCP)))

/-- The update at row `r`, lane `l`: the accumulator there, plus the scaled block there divided by the root of the
    floored sum of squares over the half-row the lane lies in. -/
theorem packedUpdate_apply (eps : Ideal .f32) (feats acc : FVec Ideal SP .f32)
    (hPP : SP.ShapeCasts SP) (hs0 : SP.Slices ![0, 0] SH) (hs1 : SP.Slices ![0, 64] SH) (hr : SH.Reduces [1] SV)
    (hVC : SV.ShapeCasts SC) (hCC : SC.ShapeCasts SC) (hCP : SC.Broadcasts SP) (hi : SP.Iotas .tc 32 [1])
    (r : Fin 5000) (l : Fin 128) :
    packedUpdate eps feats acc hPP hs0 hs1 hr hVC hCC hCP hi (ix2 r l)
      = acc (ix2 r l) + Ideal.div (feats (ix2 r l))
          (Ideal.sqrt (max (∑ j : Fin 64, feats (ix2 r (half l j)) * feats (ix2 r (half l j))) eps)) := by
  unfold packedUpdate
  rw [addf_apply, divf_apply, shapeCast_self, select_apply, broadcastTo_a1_ab_apply, broadcastTo_a1_ab_apply,
    halfNorm_apply, halfNorm_apply]
  show _ + Ideal.div _ (Scalar.select (IntOp.cmpi .slt (iota .tc SP 32 [1] hi (ix2 r l)) 64#32) _ _) = _
  rw [iota_single_apply, show ((ix2 r l : SP.Idx) (1 : Fin 2)).val = l.val from rfl, lane_lt_64 l]
  by_cases hl : l.val < 64
  · rw [if_pos hl, select_one]
    have e : ∀ j : Fin 64, (⟨0 + j.val, Nat.lt_of_lt_of_le (Nat.add_lt_add_left j.isLt 0) (hs0.2 1)⟩ : Fin 128) = half l j :=
      fun j => Fin.ext (by show 0 + j.val = 64 * (l.val / 64) + j.val; omega)
    simp only [e]
  · rw [if_neg hl, select_zero]
    have e : ∀ j : Fin 64, (⟨64 + j.val, Nat.lt_of_lt_of_le (Nat.add_lt_add_left j.isLt 64) (hs1.2 1)⟩ : Fin 128) = half l j :=
      fun j => Fin.ext (by show 64 + j.val = 64 * (l.val / 64) + j.val; have := l.isLt; omega)
    simp only [e]

/-- With the floor `D²` under the root, the update at row `r`, lane `l` is the accumulator plus the specification's
    normalised half-row at the lane's feature. -/
theorem packedUpdate_eq_normRow (eps : Ideal .f32) (heps : eps = ((D ^ 2 : ℝ) : EReal)) (feats acc : FVec Ideal SP .f32)
    (hPP : SP.ShapeCasts SP) (hs0 : SP.Slices ![0, 0] SH) (hs1 : SP.Slices ![0, 64] SH) (hr : SH.Reduces [1] SV)
    (hVC : SV.ShapeCasts SC) (hCC : SC.ShapeCasts SC) (hCP : SC.Broadcasts SP) (hi : SP.Iotas .tc 32 [1])
    (r : Fin 5000) (l : Fin 128) :
    packedUpdate eps feats acc hPP hs0 hs1 hr hVC hCC hCP hi (ix2 r l)
      = acc (ix2 r l) + normRow (fun j => feats (ix2 r (half l j))) (feat l) := by
  rw [packedUpdate_apply, heps, ← normRow_eq_floor_under_root, half_feat]

/-- The whole update of a raw block: divide by the constant of pattern `dw`, normalise each half-row with the floor
    `D`, add to the accumulator. At row `r`, lane `l` it is the accumulator there plus the specification's normalised
    half-row of the scaled block, at the lane's feature. -/
theorem packedUpdate_scaled_apply (dw : BitVec 32) (eps : Ideal .f32) (heps : eps = ((D ^ 2 : ℝ) : EReal))
    (raw acc : FVec Ideal SP .f32)
    (hPP : SP.ShapeCasts SP) (hs0 : SP.Slices ![0, 0] SH) (hs1 : SP.Slices ![0, 64] SH) (hr : SH.Reduces [1] SV)
    (hVC : SV.ShapeCasts SC) (hCC : SC.ShapeCasts SC) (hCP : SC.Broadcasts SP) (hi : SP.Iotas .tc 32 [1])
    (r : Fin 5000) (l : Fin 128) :
    packedUpdate eps (scaled dw raw hPP) acc hPP hs0 hs1 hr hVC hCC hCP hi (ix2 r l)
      = acc (ix2 r l) + normRow (fun j => Ideal.div (raw (ix2 r (half l j))) (Ideal.ofBits .f32 dw)) (feat l) := by
  rw [packedUpdate_eq_normRow eps heps]
  simp only [scaled_apply]

end Cert.LayerUpdate

end
-- ==== Proof.Upd.Payload.lean ====
/-
  What the four layer-update kernels store, read at one lane, at the exact-real instance.

  Each kernel loads a block `raw` of 5000 rows of 128 lanes — two 64-wide rows of the original table per 128-lane
  row — and an accumulator block `acc`. The first and third kernels divide by 2 and store both the scaled block
  (`k0_pay1`, `k2_pay1`) and the new accumulator (`k0_pay2`, `k2_pay2`); the second and fourth divide by 3 and store
  only the new accumulator (`k1_pay1`, `k3_pay1`). In every case the new accumulator at row `r`, lane `l` is

      acc (r, l) + normRow (raw (r, half l ·) / d) (l % 64)

  the accumulator plus the half-row the lane lies in, divided by `d` and then by its Euclidean norm floored at `D`.
  The named constant under the kernel's root denotes `D²` (`eps_sq_named`), which is what turns the kernel's
  "floor, then root" into the specification's "root, then floor".
  Each payload IS the common term `packedUpdate` of the common scaled block `scaled` (by unfolding), so the six
  statements are instances of one lemma.
-/
import proofs.«108982_j38147899523261_2_alg».proof.Proof.Gen.KernelIdeal.Skeleton
import proofs.«108982_j38147899523261_2_alg».proof.Proof.Upd.PackedNorm

noncomputable section

namespace Cert.LayerUpdate

open Idealize.ShloMosaic Idealize.ShloMosaic.ValueIdx

/-- The kernels' named floor under the root denotes the square of `D`. -/
theorem eps_sq_named :
    Named.named (F := Ideal) Cert.KernelIdeal.κ "eps_sq" (φ := .f32) 0x179ABE15#32 = ((D ^ 2 : ℝ) : EReal) :=
  (IdealRules.named_const.ideal_named_scalar _ _ _ _ rfl).trans eps_sq_eq

section
variable (raw acc : Vec Ideal Cert.KernelIdeal.S5000x128 .f32) (r : Fin 5000) (l : Fin 128)

/-! ## The payloads are the common terms -/

theorem k0_pay1_eq : Cert.KernelIdeal.Gen.k0_pay1 (F := Ideal) raw
    = scaled 0x40000000#32 raw Cert.KernelIdeal.Gen.shapeCasts_S5000x128_S5000x128 := rfl

theorem k2_pay1_eq : Cert.KernelIdeal.Gen.k2_pay1 (F := Ideal) raw
    = scaled 0x40000000#32 raw Cert.KernelIdeal.Gen.shapeCasts_S5000x128_S5000x128 := rfl

theorem k0_pay2_eq : Cert.KernelIdeal.Gen.k0_pay2 (F := Ideal) raw acc
    = packedUpdate (Named.named Cert.KernelIdeal.κ "eps_sq" 0x179ABE15#32)
        (scaled 0x40000000#32 raw Cert.KernelIdeal.Gen.shapeCasts_S5000x128_S5000x128) acc
        Cert.KernelIdeal.Gen.shapeCasts_S5000x128_S5000x128 Cert.KernelIdeal.Gen.slices_S5000x128_o0_0_S5000x64
        Cert.KernelIdeal.Gen.slices_S5000x128_o0_64_S5000x64 Cert.KernelIdeal.Gen.reduces_S5000x64_S5000
        Cert.KernelIdeal.Gen.shapeCasts_S5000_S5000x1 Cert.KernelIdeal.Gen.shapeCasts_S5000x1_S5000x1
        Cert.KernelIdeal.Gen.broadcasts_S5000x1_S5000x128 Cert.KernelIdeal.Gen.iota_S5000x128_d1_w32 := rfl

theorem k2_pay2_eq : Cert.KernelIdeal.Gen.k2_pay2 (F := Ideal) raw acc
    = packedUpdate (Named.named Cert.KernelIdeal.κ "eps_sq" 0x179ABE15#32)
        (scaled 0x40000000#32 raw Cert.KernelIdeal.Gen.shapeCasts_S5000x128_S5000x128) acc
        Cert.KernelIdeal.Gen.shapeCasts_S5000x128_S5000x128 Cert.KernelIdeal.Gen.slices_S5000x128_o0_0_S5000x64
        Cert.KernelIdeal.Gen.slices_S5000x128_o0_64_S5000x64 Cert.KernelIdeal.Gen.reduces_S5000x64_S5000
        Cert.KernelIdeal.Gen.shapeCasts_S5000_S5000x1 Cert.KernelIdeal.Gen.shapeCasts_S5000x1_S5000x1
        Cert.KernelIdeal.Gen.broadcasts_S5000x1_S5000x128 Cert.KernelIdeal.Gen.iota_S5000x128_d1_w32 := rfl

theorem k1_pay1_eq : Cert.KernelIdeal.Gen.k1_pay1 (F := Ideal) raw acc
    = packedUpdate (Named.named Cert.KernelIdeal.κ "eps_sq" 0x179ABE15#32)
        (scaled 0x40400000#32 raw Cert.KernelIdeal.Gen.shapeCasts_S5000x128_S5000x128) acc
        Cert.KernelIdeal.Gen.shapeCasts_S5000x128_S5000x128 Cert.KernelIdeal.Gen.slices_S5000x128_o0_0_S5000x64
        Cert.KernelIdeal.Gen.slices_S5000x128_o0_64_S5000x64 Cert.KernelIdeal.Gen.reduces_S5000x64_S5000
        Cert.KernelIdeal.Gen.shapeCasts_S5000_S5000x1 Cert.KernelIdeal.Gen.shapeCasts_S5000x1_S5000x1
        Cert.KernelIdeal.Gen.broadcasts_S5000x1_S5000x128 Cert.KernelIdeal.Gen.iota_S5000x128_d1_w32 := rfl

theorem k3_pay1_eq : Cert.KernelIdeal.Gen.k3_pay1 (F := Ideal) raw acc
    = packedUpdate (Named.named Cert.KernelIdeal.κ "eps_sq" 0x179ABE15#32)
        (scaled 0x40400000#32 raw Cert.KernelIdeal.Gen.shapeCasts_S5000x128_S5000x128) acc
        Cert.KernelIdeal.Gen.shapeCasts_S5000x128_S5000x128 Cert.KernelIdeal.Gen.slices_S5000x128_o0_0_S5000x64
        Cert.KernelIdeal.Gen.slices_S5000x128_o0_64_S5000x64 Cert.KernelIdeal.Gen.reduces_S5000x64_S5000
        Cert.KernelIdeal.Gen.shapeCasts_S5000_S5000x1 Cert.KernelIdeal.Gen.shapeCasts_S5000x1_S5000x1
        Cert.KernelIdeal.Gen.broadcasts_S5000x1_S5000x128 Cert.KernelIdeal.Gen.iota_S5000x128_d1_w32 := rfl

/-! ## The payloads at a lane -/

/-- The first kernel's scaled block: the raw block divided by the number `0x40000000` denotes (two). -/
theorem k0_pay1_apply : Cert.KernelIdeal.Gen.k0_pay1 (F := Ideal) raw (ix2 r l)
    = Ideal.div (raw (ix2 r l)) (Ideal.ofBits .f32 0x40000000#32) := by
  rw [k0_pay1_eq, scaled_apply]

/-- The third kernel's scaled block, likewise. -/
theorem k2_pay1_apply : Cert.KernelIdeal.Gen.k2_pay1 (F := Ideal) raw (ix2 r l)
    = Ideal.div (raw (ix2 r l)) (Ideal.ofBits .f32 0x40000000#32) := by
  rw [k2_pay1_eq, scaled_apply]

/-- The first kernel's new accumulator: the accumulator plus the normalised half-row of the block divided by two. -/
theorem k0_pay2_apply : Cert.KernelIdeal.Gen.k0_pay2 (F := Ideal) raw acc (ix2 r l)
    = acc (ix2 r l) + normRow (fun j => Ideal.div (raw (ix2 r (half l j))) (Ideal.ofBits .f32 0x40000000#32)) (feat l) := by
  rw [k0_pay2_eq, packedUpdate_scaled_apply _ _ eps_sq_named]

/-- The third kernel's new accumulator, likewise. -/
theorem k2_pay2_apply : Cert.KernelIdeal.Gen.k2_pay2 (F := Ideal) raw acc (ix2 r l)
    = acc (ix2 r l) + normRow (fun j => Ideal.div (raw (ix2 r (half l j))) (Ideal.ofBits .f32 0x40000000#32)) (feat l) := by
  rw [k2_pay2_eq, packedUpdate_scaled_apply _ _ eps_sq_named]

/-- The second kernel's new accumulator: the same with the block divided by the number `0x40400000` denotes (three). -/
theorem k1_pay1_apply : Cert.KernelIdeal.Gen.k1_pay1 (F := Ideal) raw acc (ix2 r l)
    = acc (ix2 r l) + normRow (fun j => Ideal.div (raw (ix2 r (half l j))) (Ideal.ofBits .f32 0x40400000#32)) (feat l) := by
  rw [k1_pay1_eq, packedUpdate_scaled_apply _ _ eps_sq_named]

/-- The fourth kernel's new accumulator, likewise. -/
theorem k3_pay1_apply : Cert.KernelIdeal.Gen.k3_pay1 (F := Ideal) raw acc (ix2 r l)
    = acc (ix2 r l) + normRow (fun j => Ideal.div (raw (ix2 r (half l j))) (Ideal.ofBits .f32 0x40400000#32)) (feat l) := by
  rw [k3_pay1_eq, packedUpdate_scaled_apply _ _ eps_sq_named]

end

end Cert.LayerUpdate

end
-- ==== Proof.Upd.Final0.lean ====
import proofs.«108982_j38147899523261_2_alg».proof.Proof.KI.Update0
import proofs.«108982_j38147899523261_2_alg».proof.Proof.Upd.Rows
import proofs.«108982_j38147899523261_2_alg».proof.Proof.Upd.Payload
import Idealize.ShloMosaic.Lib.Pipeline.Value

/-! The two arrays the first layer-update call writes, as functions of the two arrays it reads.

The call runs 30 grid points over tables of 150000 rows of 128 lanes; point `t` reads rows `5000 t … 5000 t + 4999`
of the raw table and of the accumulator and writes the same rows of the scaled table and of the new accumulator. What
the body leaves in an output buffer is its payload of the two input blocks (`feats0_eq`, `accum0_eq`), every
window's block at point `t` is block `t` of its table (`index0`), so what point `t` writes back is block `t` of the
payload applied block by block (`flushed0_feats`, `flushed0_acc`); the 30 blocks cover the table (`cover0_feats`,
`cover0_acc`), so after the call each output table IS the payload applied block by block to the input tables
(`final0_feats_tiled`, `final0_acc_tiled`), at any float instance. At the exact reals, where the payloads are known
entry by entry, this reads: the scaled table is the raw table divided by two, and the new accumulator is the old one
plus each 64-wide half-row of the scaled table divided by its floored norm (`final0_feats`, `final0_acc`). -/

noncomputable section

namespace Cert.LayerUpdate

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F] [Named F]
variable (V : (c : Dev nD) → (b : Ref sig .tc) → Buf (Elt F) ((c : Thread nD τ).loc b))

/-! ## What the body leaves is its payload -/

/-- The body's loads and stores are at offset zero on both axes. -/
theorem zero_offsets0 : (![0, 0] : Fin 2 → Nat) = fun _ => 0 := funext fun a => by fin_cases a <;> rfl

/-- One store of the whole block leaves its payload, and a load of the whole block reads the block: the
    scaled-features buffer after the body is the first payload of the raw block. -/
theorem feats0_eq (x0 : Vec F S5000x128 .f32) : feats0 x0 = k0_pay1 x0 := by
  unfold feats0; rw [View.canon_unit_zero zero_offsets0, View.ld_unit_zero zero_offsets0]

/-- Likewise the new-accumulator buffer after the body is the second payload of the two input blocks. -/
theorem accum0_eq (x0 x1 : Vec F S5000x128 .f32) : accum0 x0 x1 = k0_pay2 x0 x1 := by
  unfold accum0; rw [View.canon_unit_zero zero_offsets0, View.ld_unit_zero zero_offsets0, View.ld_unit_zero zero_offsets0]

/-! ## Every window's block at point `t` is block `t` of its table -/

/-- The 150000 rows are 30 blocks of 5000. -/
theorem rows0 : 150000 % 5000 = 0 := by decide

/-- Point `t`'s rows lie inside the table. -/
theorem point_le0 (t : Fin cfg0.N) : 5000 * t.val + 5000 ≤ 150000 := by
  have := t.isLt; have hN : cfg0.N = 30 := N_0; omega

/-- The four printed index maps, decided over the 30 grid points: block `(t, 0)`. -/
theorem index0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The raw table as the call finds it. -/
abbrev rawIn0 (c : Dev nD) : S150000x128.Idx → Elt F .f32 := V c main_v14

/-- The accumulator as the call finds it. -/
abbrev accIn0 (c : Dev nD) : S150000x128.Idx → Elt F .f32 := V c main_v15

/-- The raw window's block at point `t` is rows `5000 t …` of the raw table as the call finds it. -/
theorem iblk0_raw (c : Dev nD) (t : Fin cfg0.N) :
    (iblk0 V c 0 t : Vec F S5000x128 .f32) = rowBlock (rawIn0 V c) t.val (point_le0 t) := by
  funext j
  unfold iblk0
  rw [View.read_apply]
  show rawIn0 V c _ = rawIn0 V c _
  refine congrArg (rawIn0 V c) ?_
  funext a
  apply Fin.ext
  match a with
  | ⟨0, _⟩ => show win0_0.index t (0 : Fin 2) * 5000 + 1 * (j 0).val = 5000 * t.val + (j 0).val; rw [(index0 t).1.1]; omega
  | ⟨1, _⟩ => show win0_0.index t (1 : Fin 2) * 128 + 1 * (j 1).val = (j 1).val; rw [(index0 t).1.2]; omega

/-- The accumulator window's block at point `t` is rows `5000 t …` of the accumulator as the call finds it. -/
theorem iblk0_acc (c : Dev nD) (t : Fin cfg0.N) :
    (iblk0 V c 1 t : Vec F S5000x128 .f32) = rowBlock (accIn0 V c) t.val (point_le0 t) := by
  funext j
  unfold iblk0
  rw [View.read_apply]
  show accIn0 V c _ = accIn0 V c _
  refine congrArg (accIn0 V c) ?_
  funext a
  apply Fin.ext
  match a with
  | ⟨0, _⟩ => show win0_1.index t (0 : Fin 2) * 5000 + 1 * (j 0).val = 5000 * t.val + (j 0).val; rw [(index0 t).2.1.1]; omega
  | ⟨1, _⟩ => show win0_1.index t (1 : Fin 2) * 128 + 1 * (j 1).val = (j 1).val; rw [(index0 t).2.1.2]; omega

/-! ## What a point writes back -/

/-- The scaled table the call leaves: the first payload applied block by block to the raw table. -/
abbrev featsTable0 (c : Dev nD) : S150000x128.Idx → Elt F .f32 :=
  tiled rows0 (fun x0 _ => k0_pay1 x0) (rawIn0 V c) (accIn0 V c)

/-- The accumulator the call leaves: the second payload applied block by block to the raw table and the accumulator. -/
abbrev accTable0 (c : Dev nD) : S150000x128.Idx → Elt F .f32 :=
  tiled rows0 (fun x0 x1 => k0_pay2 x0 x1) (rawIn0 V c) (accIn0 V c)

/-- Point `t` writes block `t` of `featsTable0` to the scaled table. -/
theorem flushed0_feats (c : Dev nD) (t : Fin cfg0.N) :
    (dat0 V c).flushed 2 t = ((cfg0.win 2).blk t).view.read (Elt F) (featsTable0 V c) := by
  show (cfg0.win 2).cut (grid0.coords t) ((dat0 V c).after 2 t) = _
  rw [after0_2, feats0_eq, iblk0_raw]
  funext j
  show k0_pay1 (rowBlock (rawIn0 V c) t.val (point_le0 t)) j
    = featsTable0 V c (((cfg0.win 2).blk t).view.emb j)
  refine (tiled_at_block rows0 (fun x0 _ => k0_pay1 x0) _ (accIn0 V c) t.val (point_le0 t) j _ ?_ ?_).symm
  · show win0_2.index t (0 : Fin 2) * 5000 + 1 * (j 0).val = 5000 * t.val + (j 0).val; rw [(index0 t).2.2.1.1]; omega
  · show win0_2.index t (1 : Fin 2) * 128 + 1 * (j 1).val = (j 1).val; rw [(index0 t).2.2.1.2]; omega

/-- Point `t` writes block `t` of `accTable0` to the new accumulator. -/
theorem flushed0_acc (c : Dev nD) (t : Fin cfg0.N) :
    (dat0 V c).flushed 3 t = ((cfg0.win 3).blk t).view.read (Elt F) (accTable0 V c) := by
  show (cfg0.win 3).cut (grid0.coords t) ((dat0 V c).after 3 t) = _
  rw [after0_3, accum0_eq, iblk0_raw, iblk0_acc]
  funext j
  show k0_pay2 (rowBlock (rawIn0 V c) t.val (point_le0 t))
      (rowBlock (accIn0 V c) t.val (point_le0 t)) j
    = accTable0 V c (((cfg0.win 3).blk t).view.emb j)
  refine (tiled_at_block rows0 (fun x0 x1 => k0_pay2 x0 x1) _ _ t.val (point_le0 t) j _ ?_ ?_).symm
  · show win0_3.index t (0 : Fin 2) * 5000 + 1 * (j 0).val = 5000 * t.val + (j 0).val; rw [(index0 t).2.2.2.1]; omega
  · show win0_3.index t (1 : Fin 2) * 128 + 1 * (j 1).val = (j 1).val; rw [(index0 t).2.2.2.2]; omega

/-! ## The blocks cover the tables -/

/-- An entry of the scaled table is in point `t`'s block iff each coordinate is in the block's range on its axis. -/
theorem mem_blk0_feats (t : Fin cfg0.N) (i : S150000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v16_0).slice (win0_2.rect t)).set ↔ _
  rw [View.set_slice_whole, Rect.mem_set_unit]
  exact Iff.rfl

/-- The same for the new accumulator. -/
theorem mem_blk0_acc (t : Fin cfg0.N) (i : S150000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16_1).slice (win0_3.rect t)).set ↔ _
  rw [View.set_slice_whole, Rect.mem_set_unit]
  exact Iff.rfl

/-- Row `R` of the scaled table is written by point `R / 5000`. -/
theorem cover0_feats (i : S150000x128.Idx) :
    ∃ t : Fin cfg0.N, (cfg0.win 2).flush t = true ∧ i ∈ ((cfg0.win 2).blk t).view.set := by
  have hi0 : (i 0).val < 150000 := idx2_lt0 i
  have hi1 : (i 1).val < 128 := idx2_lt1 i
  have hN : cfg0.N = 30 := N_0
  have hN' : grid0.N = 30 := N_0
  refine ⟨⟨(i 0).val / 5000, by omega⟩, flush0_2 _, ?_⟩
  rw [mem_blk0_feats]
  have e0 : win0_2.index ⟨(i 0).val / 5000, by omega⟩ (0 : Fin 2) = (i 0).val / 5000 := (index0 _).2.2.1.1
  have e1 : win0_2.index ⟨(i 0).val / 5000, by omega⟩ (1 : Fin 2) = 0 := (index0 _).2.2.1.2
  intro a
  match a with
  | ⟨0, _⟩ => show win0_2.index _ (0 : Fin 2) * 5000 ≤ (i 0).val ∧ (i 0).val < win0_2.index _ (0 : Fin 2) * 5000 + 5000; rw [e0]; omega
  | ⟨1, _⟩ => show win0_2.index _ (1 : Fin 2) * 128 ≤ (i 1).val ∧ (i 1).val < win0_2.index _ (1 : Fin 2) * 128 + 128; rw [e1]; omega

/-- Row `R` of the new accumulator is written by point `R / 5000`. -/
theorem cover0_acc (i : S150000x128.Idx) :
    ∃ t : Fin cfg0.N, (cfg0.win 3).flush t = true ∧ i ∈ ((cfg0.win 3).blk t).view.set := by
  have hi0 : (i 0).val < 150000 := idx2_lt0 i
  have hi1 : (i 1).val < 128 := idx2_lt1 i
  have hN : cfg0.N = 30 := N_0
  have hN' : grid0.N = 30 := N_0
  refine ⟨⟨(i 0).val / 5000, by omega⟩, flush0_3 _, ?_⟩
  rw [mem_blk0_acc]
  have e0 : win0_3.index ⟨(i 0).val / 5000, by omega⟩ (0 : Fin 2) = (i 0).val / 5000 := (index0 _).2.2.2.1
  have e1 : win0_3.index ⟨(i 0).val / 5000, by omega⟩ (1 : Fin 2) = 0 := (index0 _).2.2.2.2
  intro a
  match a with
  | ⟨0, _⟩ => show win0_3.index _ (0 : Fin 2) * 5000 ≤ (i 0).val ∧ (i 0).val < win0_3.index _ (0 : Fin 2) * 5000 + 5000; rw [e0]; omega
  | ⟨1, _⟩ => show win0_3.index _ (1 : Fin 2) * 128 ≤ (i 1).val ∧ (i 1).val < win0_3.index _ (1 : Fin 2) * 128 + 128; rw [e1]; omega

/-! ## The tables after the call -/

/-- After the call the scaled table is the first payload applied block by block to the raw table. -/
theorem final0_feats_tiled (c : Dev nD) : (dat0 V c).arrAt 2 cfg0.N = featsTable0 V c :=
  (dat0 V c).arrAt_eq_of_cover 2 (featsTable0 V c) (fun t _ => flushed0_feats V c t) cover0_feats

/-- After the call the new accumulator is the second payload applied block by block to the raw table and the
    accumulator. -/
theorem final0_acc_tiled (c : Dev nD) : (dat0 V c).arrAt 3 cfg0.N = accTable0 V c :=
  (dat0 V c).arrAt_eq_of_cover 3 (accTable0 V c) (fun t _ => flushed0_acc V c t) cover0_acc

/-! ## The tables after the call, entry by entry -/

/-- Entry `(R, l)` of the scaled table after the call is entry `(R % 5000, l)` of the first payload of block
    `R / 5000` of the raw table. -/
theorem final0_feats_apply (c : Dev nD) (R : Fin 150000) (l : Fin 128) :
    (dat0 V c).arrAt 2 cfg0.N (ix2 R l)
      = k0_pay1 (rowBlock (rawIn0 V c) (R.val / 5000) (block_le rows0 R.isLt)) (ix2 ⟨R.val % 5000, Nat.mod_lt _ (by decide)⟩ l) :=
  (congrFun (final0_feats_tiled V c) (ix2 R l)).trans
    (tiled_apply rows0 (fun x0 _ => k0_pay1 x0) (rawIn0 V c) (accIn0 V c) R l)

/-- Entry `(R, l)` of the new accumulator after the call is entry `(R % 5000, l)` of the second payload of blocks
    `R / 5000` of the raw table and of the accumulator. -/
theorem final0_acc_apply (c : Dev nD) (R : Fin 150000) (l : Fin 128) :
    (dat0 V c).arrAt 3 cfg0.N (ix2 R l)
      = k0_pay2 (rowBlock (rawIn0 V c) (R.val / 5000) (block_le rows0 R.isLt))
          (rowBlock (accIn0 V c) (R.val / 5000) (block_le rows0 R.isLt)) (ix2 ⟨R.val % 5000, Nat.mod_lt _ (by decide)⟩ l) :=
  (congrFun (final0_acc_tiled V c) (ix2 R l)).trans
    (tiled_apply rows0 (fun x0 x1 => k0_pay2 x0 x1) (rawIn0 V c) (accIn0 V c) R l)

/-! ## At the exact reals -/

section Exact

variable (W : (c : Dev nD) → (b : Ref sig .tc) → Buf (Elt Ideal) ((c : Thread nD τ).loc b))

/-- After the call, at the exact reals, the scaled table is the raw table divided by the number the pattern
    `0x40000000` denotes (two). -/
theorem final0_feats (c : Dev nD) (R : Fin 150000) (l : Fin 128) :
    (dat0 (F := Ideal) W c).arrAt 2 cfg0.N (ix2 R l)
      = Ideal.div (rawIn0 W c (ix2 R l)) (Ideal.ofBits .f32 0x40000000#32) := by
  rw [final0_feats_apply, k0_pay1_apply, rowBlock_div_mod rows0]

/-- After the call, at the exact reals, the new accumulator is the old one plus, in each lane, the lane's 64-wide
    half-row of the raw table divided by that number and then by its Euclidean norm floored at `D`. -/
theorem final0_acc (c : Dev nD) (R : Fin 150000) (l : Fin 128) :
    (dat0 (F := Ideal) W c).arrAt 3 cfg0.N (ix2 R l)
      = accIn0 W c (ix2 R l)
        + normRow (fun j => Ideal.div (rawIn0 W c (ix2 R (half l j))) (Ideal.ofBits .f32 0x40000000#32)) (feat l) := by
  rw [final0_acc_apply, k0_pay2_apply, rowBlock_div_mod rows0]
  simp only [rowBlock_div_mod rows0]

end Exact

end Cert.LayerUpdate

end
-- ==== Proof.Upd.Final1.lean ====
import proofs.«108982_j38147899523261_2_alg».proof.Proof.KI.Update1
import proofs.«108982_j38147899523261_2_alg».proof.Proof.Upd.Rows
import proofs.«108982_j38147899523261_2_alg».proof.Proof.Upd.Payload
import Idealize.ShloMosaic.Lib.Pipeline.Value

/-! The array the second layer-update call writes, as a function of the two arrays it reads.

The call runs 30 grid points over tables of 150000 rows of 128 lanes; point `t` reads rows `5000 t … 5000 t + 4999`
of the raw table and of the accumulator and writes the same rows of the new accumulator. What the body leaves in the
output buffer is its payload of the two input blocks (`accum1_eq`), every window's block at point `t` is block `t` of
its table (`index1`), so what point `t` writes back is block `t` of the payload applied block by block
(`flushed1_acc`); the 30 blocks cover the table (`cover1_acc`), so after the call the output table IS the payload
applied block by block to the input tables (`final1_acc_tiled`), at any float instance. At the exact reals, where the
payload is known entry by entry, this reads: the new accumulator is the old one plus each 64-wide half-row of the raw
table divided by three and then by its floored norm (`final1_acc`). -/

noncomputable section

namespace Cert.LayerUpdate

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F] [Named F]
variable (V : (c : Dev nD) → (b : Ref sig .tc) → Buf (Elt F) ((c : Thread nD τ).loc b))

/-! ## What the body leaves is its payload -/

/-- The body's loads and stores are at offset zero on both axes. -/
theorem zero_offsets1 : (![0, 0] : Fin 2 → Nat) = fun _ => 0 := funext fun a => by fin_cases a <;> rfl

/-- One store of the whole block leaves its payload, and a load of the whole block reads the block: the
    new-accumulator buffer after the body is the payload of the two input blocks. -/
theorem accum1_eq (x0 x1 : Vec F S5000x128 .f32) : accum1 x0 x1 = k1_pay1 x0 x1 := by
  unfold accum1; rw [View.canon_unit_zero zero_offsets1, View.ld_unit_zero zero_offsets1, View.ld_unit_zero zero_offsets1]

/-! ## Every window's block at point `t` is block `t` of its table -/

/-- The 150000 rows are 30 blocks of 5000. -/
theorem rows1 : 150000 % 5000 = 0 := by decide

/-- Point `t`'s rows lie inside the table. -/
theorem point_le1 (t : Fin cfg1.N) : 5000 * t.val + 5000 ≤ 150000 := by
  have := t.isLt; have hN : cfg1.N = 30 := N_1; omega

/-- The three printed index maps, decided over the 30 grid points: block `(t, 0)`. -/
theorem index1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0) :=
  (by decide +kernel : ∀ t : Fin grid1.N, _)

/-- The raw table as the call finds it. -/
abbrev rawIn1 (c : Dev nD) : S150000x128.Idx → Elt F .f32 := V c main_v32

/-- The accumulator as the call finds it. -/
abbrev accIn1 (c : Dev nD) : S150000x128.Idx → Elt F .f32 := V c main_v33

/-- The raw window's block at point `t` is rows `5000 t …` of the raw table as the call finds it. -/
theorem iblk1_raw (c : Dev nD) (t : Fin cfg1.N) :
    (iblk1 V c 0 t : Vec F S5000x128 .f32) = rowBlock (rawIn1 V c) t.val (point_le1 t) := by
  funext j
  unfold iblk1
  rw [View.read_apply]
  show rawIn1 V c _ = rawIn1 V c _
  refine congrArg (rawIn1 V c) ?_
  funext a
  apply Fin.ext
  match a with
  | ⟨0, _⟩ => show win1_0.index t (0 : Fin 2) * 5000 + 1 * (j 0).val = 5000 * t.val + (j 0).val; rw [(index1 t).1.1]; omega
  | ⟨1, _⟩ => show win1_0.index t (1 : Fin 2) * 128 + 1 * (j 1).val = (j 1).val; rw [(index1 t).1.2]; omega

/-- The accumulator window's block at point `t` is rows `5000 t …` of the accumulator as the call finds it. -/
theorem iblk1_acc (c : Dev nD) (t : Fin cfg1.N) :
    (iblk1 V c 1 t : Vec F S5000x128 .f32) = rowBlock (accIn1 V c) t.val (point_le1 t) := by
  funext j
  unfold iblk1
  rw [View.read_apply]
  show accIn1 V c _ = accIn1 V c _
  refine congrArg (accIn1 V c) ?_
  funext a
  apply Fin.ext
  match a with
  | ⟨0, _⟩ => show win1_1.index t (0 : Fin 2) * 5000 + 1 * (j 0).val = 5000 * t.val + (j 0).val; rw [(index1 t).2.1.1]; omega
  | ⟨1, _⟩ => show win1_1.index t (1 : Fin 2) * 128 + 1 * (j 1).val = (j 1).val; rw [(index1 t).2.1.2]; omega

/-! ## What a point writes back -/

/-- The accumulator the call leaves: the payload applied block by block to the raw table and the accumulator. -/
abbrev accTable1 (c : Dev nD) : S150000x128.Idx → Elt F .f32 :=
  tiled rows1 (fun x0 x1 => k1_pay1 x0 x1) (rawIn1 V c) (accIn1 V c)

/-- Point `t` writes block `t` of `accTable1` to the new accumulator. -/
theorem flushed1_acc (c : Dev nD) (t : Fin cfg1.N) :
    (dat1 V c).flushed 2 t = ((cfg1.win 2).blk t).view.read (Elt F) (accTable1 V c) := by
  show (cfg1.win 2).cut (grid1.coords t) ((dat1 V c).after 2 t) = _
  rw [after1_2, accum1_eq, iblk1_raw, iblk1_acc]
  funext j
  show k1_pay1 (rowBlock (rawIn1 V c) t.val (point_le1 t))
      (rowBlock (accIn1 V c) t.val (point_le1 t)) j
    = accTable1 V c (((cfg1.win 2).blk t).view.emb j)
  refine (tiled_at_block rows1 (fun x0 x1 => k1_pay1 x0 x1) _ _ t.val (point_le1 t) j _ ?_ ?_).symm
  · show win1_2.index t (0 : Fin 2) * 5000 + 1 * (j 0).val = 5000 * t.val + (j 0).val; rw [(index1 t).2.2.1]; omega
  · show win1_2.index t (1 : Fin 2) * 128 + 1 * (j 1).val = (j 1).val; rw [(index1 t).2.2.2]; omega

/-! ## The blocks cover the table -/

/-- An entry of the new accumulator is in point `t`'s block iff each coordinate is in the block's range on its axis. -/
theorem mem_blk1_acc (t : Fin cfg1.N) (i : S150000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v34).slice (win1_2.rect t)).set ↔ _
  rw [View.set_slice_whole, Rect.mem_set_unit]
  exact Iff.rfl

/-- Row `R` of the new accumulator is written by point `R / 5000`. -/
theorem cover1_acc (i : S150000x128.Idx) :
    ∃ t : Fin cfg1.N, (cfg1.win 2).flush t = true ∧ i ∈ ((cfg1.win 2).blk t).view.set := by
  have hi0 : (i 0).val < 150000 := idx2_lt0 i
  have hi1 : (i 1).val < 128 := idx2_lt1 i
  have hN : cfg1.N = 30 := N_1
  have hN' : grid1.N = 30 := N_1
  refine ⟨⟨(i 0).val / 5000, by omega⟩, flush1_2 _, ?_⟩
  rw [mem_blk1_acc]
  have e0 : win1_2.index ⟨(i 0).val / 5000, by omega⟩ (0 : Fin 2) = (i 0).val / 5000 := (index1 _).2.2.1
  have e1 : win1_2.index ⟨(i 0).val / 5000, by omega⟩ (1 : Fin 2) = 0 := (index1 _).2.2.2
  intro a
  match a with
  | ⟨0, _⟩ => show win1_2.index _ (0 : Fin 2) * 5000 ≤ (i 0).val ∧ (i 0).val < win1_2.index _ (0 : Fin 2) * 5000 + 5000; rw [e0]; omega
  | ⟨1, _⟩ => show win1_2.index _ (1 : Fin 2) * 128 ≤ (i 1).val ∧ (i 1).val < win1_2.index _ (1 : Fin 2) * 128 + 128; rw [e1]; omega

/-! ## The table after the call -/

/-- After the call the new accumulator is the payload applied block by block to the raw table and the accumulator. -/
theorem final1_acc_tiled (c : Dev nD) : (dat1 V c).arrAt 2 cfg1.N = accTable1 V c :=
  (dat1 V c).arrAt_eq_of_cover 2 (accTable1 V c) (fun t _ => flushed1_acc V c t) cover1_acc

/-! ## The table after the call, entry by entry -/

/-- Entry `(R, l)` of the new accumulator after the call is entry `(R % 5000, l)` of the payload of blocks
    `R / 5000` of the raw table and of the accumulator. -/
theorem final1_acc_apply (c : Dev nD) (R : Fin 150000) (l : Fin 128) :
    (dat1 V c).arrAt 2 cfg1.N (ix2 R l)
      = k1_pay1 (rowBlock (rawIn1 V c) (R.val / 5000) (block_le rows1 R.isLt))
          (rowBlock (accIn1 V c) (R.val / 5000) (block_le rows1 R.isLt)) (ix2 ⟨R.val % 5000, Nat.mod_lt _ (by decide)⟩ l) :=
  (congrFun (final1_acc_tiled V c) (ix2 R l)).trans
    (tiled_apply rows1 (fun x0 x1 => k1_pay1 x0 x1) (rawIn1 V c) (accIn1 V c) R l)

/-! ## At the exact reals -/

section Exact

variable (W : (c : Dev nD) → (b : Ref sig .tc) → Buf (Elt Ideal) ((c : Thread nD τ).loc b))

/-- After the call, at the exact reals, the new accumulator is the old one plus, in each lane, the lane's 64-wide
    half-row of the raw table divided by the number the pattern `0x40400000` denotes (three) and then by its Euclidean
    norm floored at `D`. -/
theorem final1_acc (c : Dev nD) (R : Fin 150000) (l : Fin 128) :
    (dat1 (F := Ideal) W c).arrAt 2 cfg1.N (ix2 R l)
      = accIn1 W c (ix2 R l)
        + normRow (fun j => Ideal.div (rawIn1 W c (ix2 R (half l j))) (Ideal.ofBits .f32 0x40400000#32)) (feat l) := by
  rw [final1_acc_apply, k1_pay1_apply, rowBlock_div_mod rows1]
  simp only [rowBlock_div_mod rows1]

end Exact

end Cert.LayerUpdate

end
-- ==== Proof.Upd.Final2.lean ====
import proofs.«108982_j38147899523261_2_alg».proof.Proof.KI.Update2
import proofs.«108982_j38147899523261_2_alg».proof.Proof.Upd.Rows
import proofs.«108982_j38147899523261_2_alg».proof.Proof.Upd.Payload
import Idealize.ShloMosaic.Lib.Pipeline.Value

/-! The two arrays the third layer-update call writes, as functions of the two arrays it reads.

The call runs 15 grid points over tables of 75000 rows of 128 lanes; point `t` reads rows `5000 t … 5000 t + 4999`
of the raw table and of the accumulator and writes the same rows of the scaled table and of the new accumulator. What
the body leaves in an output buffer is its payload of the two input blocks (`feats2_eq`, `accum2_eq`), every
window's block at point `t` is block `t` of its table (`index2`), so what point `t` writes back is block `t` of the
payload applied block by block (`flushed2_feats`, `flushed2_acc`); the 15 blocks cover the table (`cover2_feats`,
`cover2_acc`), so after the call each output table IS the payload applied block by block to the input tables
(`final2_feats_tiled`, `final2_acc_tiled`), at any float instance. At the exact reals, where the payloads are known
entry by entry, this reads: the scaled table is the raw table divided by two, and the new accumulator is the old one
plus each 64-wide half-row of the scaled table divided by its floored norm (`final2_feats`, `final2_acc`). -/

noncomputable section

namespace Cert.LayerUpdate

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F] [Named F]
variable (V : (c : Dev nD) → (b : Ref sig .tc) → Buf (Elt F) ((c : Thread nD τ).loc b))

/-! ## What the body leaves is its payload -/

/-- The body's loads and stores are at offset zero on both axes. -/
theorem zero_offsets2 : (![0, 0] : Fin 2 → Nat) = fun _ => 0 := funext fun a => by fin_cases a <;> rfl

/-- One store of the whole block leaves its payload, and a load of the whole block reads the block: the
    scaled-features buffer after the body is the first payload of the raw block. -/
theorem feats2_eq (x0 : Vec F S5000x128 .f32) : feats2 x0 = k2_pay1 x0 := by
  unfold feats2; rw [View.canon_unit_zero zero_offsets2, View.ld_unit_zero zero_offsets2]

/-- Likewise the new-accumulator buffer after the body is the second payload of the two input blocks. -/
theorem accum2_eq (x0 x1 : Vec F S5000x128 .f32) : accum2 x0 x1 = k2_pay2 x0 x1 := by
  unfold accum2; rw [View.canon_unit_zero zero_offsets2, View.ld_unit_zero zero_offsets2, View.ld_unit_zero zero_offsets2]

/-! ## Every window's block at point `t` is block `t` of its table -/

/-- The 75000 rows are 15 blocks of 5000. -/
theorem rows2 : 75000 % 5000 = 0 := by decide

/-- Point `t`'s rows lie inside the table. -/
theorem point_le2 (t : Fin cfg2.N) : 5000 * t.val + 5000 ≤ 75000 := by
  have := t.isLt; have hN : cfg2.N = 15 := N_2; omega

/-- The four printed index maps, decided over the 15 grid points: block `(t, 0)`. -/
theorem index2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0) :=
  (by decide +kernel : ∀ t : Fin grid2.N, _)

/-- The raw table as the call finds it. -/
abbrev rawIn2 (c : Dev nD) : S75000x128.Idx → Elt F .f32 := V c main_v52

/-- The accumulator as the call finds it. -/
abbrev accIn2 (c : Dev nD) : S75000x128.Idx → Elt F .f32 := V c main_v53

/-- The raw window's block at point `t` is rows `5000 t …` of the raw table as the call finds it. -/
theorem iblk2_raw (c : Dev nD) (t : Fin cfg2.N) :
    (iblk2 V c 0 t : Vec F S5000x128 .f32) = rowBlock (rawIn2 V c) t.val (point_le2 t) := by
  funext j
  unfold iblk2
  rw [View.read_apply]
  show rawIn2 V c _ = rawIn2 V c _
  refine congrArg (rawIn2 V c) ?_
  funext a
  apply Fin.ext
  match a with
  | ⟨0, _⟩ => show win2_0.index t (0 : Fin 2) * 5000 + 1 * (j 0).val = 5000 * t.val + (j 0).val; rw [(index2 t).1.1]; omega
  | ⟨1, _⟩ => show win2_0.index t (1 : Fin 2) * 128 + 1 * (j 1).val = (j 1).val; rw [(index2 t).1.2]; omega

/-- The accumulator window's block at point `t` is rows `5000 t …` of the accumulator as the call finds it. -/
theorem iblk2_acc (c : Dev nD) (t : Fin cfg2.N) :
    (iblk2 V c 1 t : Vec F S5000x128 .f32) = rowBlock (accIn2 V c) t.val (point_le2 t) := by
  funext j
  unfold iblk2
  rw [View.read_apply]
  show accIn2 V c _ = accIn2 V c _
  refine congrArg (accIn2 V c) ?_
  funext a
  apply Fin.ext
  match a with
  | ⟨0, _⟩ => show win2_1.index t (0 : Fin 2) * 5000 + 1 * (j 0).val = 5000 * t.val + (j 0).val; rw [(index2 t).2.1.1]; omega
  | ⟨1, _⟩ => show win2_1.index t (1 : Fin 2) * 128 + 1 * (j 1).val = (j 1).val; rw [(index2 t).2.1.2]; omega

/-! ## What a point writes back -/

/-- The scaled table the call leaves: the first payload applied block by block to the raw table. -/
abbrev featsTable2 (c : Dev nD) : S75000x128.Idx → Elt F .f32 :=
  tiled rows2 (fun x0 _ => k2_pay1 x0) (rawIn2 V c) (accIn2 V c)

/-- The accumulator the call leaves: the second payload applied block by block to the raw table and the accumulator. -/
abbrev accTable2 (c : Dev nD) : S75000x128.Idx → Elt F .f32 :=
  tiled rows2 (fun x0 x1 => k2_pay2 x0 x1) (rawIn2 V c) (accIn2 V c)

/-- Point `t` writes block `t` of `featsTable2` to the scaled table. -/
theorem flushed2_feats (c : Dev nD) (t : Fin cfg2.N) :
    (dat2 V c).flushed 2 t = ((cfg2.win 2).blk t).view.read (Elt F) (featsTable2 V c) := by
  show (cfg2.win 2).cut (grid2.coords t) ((dat2 V c).after 2 t) = _
  rw [after2_2, feats2_eq, iblk2_raw]
  funext j
  show k2_pay1 (rowBlock (rawIn2 V c) t.val (point_le2 t)) j
    = featsTable2 V c (((cfg2.win 2).blk t).view.emb j)
  refine (tiled_at_block rows2 (fun x0 _ => k2_pay1 x0) _ (accIn2 V c) t.val (point_le2 t) j _ ?_ ?_).symm
  · show win2_2.index t (0 : Fin 2) * 5000 + 1 * (j 0).val = 5000 * t.val + (j 0).val; rw [(index2 t).2.2.1.1]; omega
  · show win2_2.index t (1 : Fin 2) * 128 + 1 * (j 1).val = (j 1).val; rw [(index2 t).2.2.1.2]; omega

/-- Point `t` writes block `t` of `accTable2` to the new accumulator. -/
theorem flushed2_acc (c : Dev nD) (t : Fin cfg2.N) :
    (dat2 V c).flushed 3 t = ((cfg2.win 3).blk t).view.read (Elt F) (accTable2 V c) := by
  show (cfg2.win 3).cut (grid2.coords t) ((dat2 V c).after 3 t) = _
  rw [after2_3, accum2_eq, iblk2_raw, iblk2_acc]
  funext j
  show k2_pay2 (rowBlock (rawIn2 V c) t.val (point_le2 t))
      (rowBlock (accIn2 V c) t.val (point_le2 t)) j
    = accTable2 V c (((cfg2.win 3).blk t).view.emb j)
  refine (tiled_at_block rows2 (fun x0 x1 => k2_pay2 x0 x1) _ _ t.val (point_le2 t) j _ ?_ ?_).symm
  · show win2_3.index t (0 : Fin 2) * 5000 + 1 * (j 0).val = 5000 * t.val + (j 0).val; rw [(index2 t).2.2.2.1]; omega
  · show win2_3.index t (1 : Fin 2) * 128 + 1 * (j 1).val = (j 1).val; rw [(index2 t).2.2.2.2]; omega

/-! ## The blocks cover the tables -/

/-- An entry of the scaled table is in point `t`'s block iff each coordinate is in the block's range on its axis. -/
theorem mem_blk2_feats (t : Fin cfg2.N) (i : S75000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v54_0).slice (win2_2.rect t)).set ↔ _
  rw [View.set_slice_whole, Rect.mem_set_unit]
  exact Iff.rfl

/-- The same for the new accumulator. -/
theorem mem_blk2_acc (t : Fin cfg2.N) (i : S75000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v54_1).slice (win2_3.rect t)).set ↔ _
  rw [View.set_slice_whole, Rect.mem_set_unit]
  exact Iff.rfl

/-- Row `R` of the scaled table is written by point `R / 5000`. -/
theorem cover2_feats (i : S75000x128.Idx) :
    ∃ t : Fin cfg2.N, (cfg2.win 2).flush t = true ∧ i ∈ ((cfg2.win 2).blk t).view.set := by
  have hi0 : (i 0).val < 75000 := idx2_lt0 i
  have hi1 : (i 1).val < 128 := idx2_lt1 i
  have hN : cfg2.N = 15 := N_2
  have hN' : grid2.N = 15 := N_2
  refine ⟨⟨(i 0).val / 5000, by omega⟩, flush2_2 _, ?_⟩
  rw [mem_blk2_feats]
  have e0 : win2_2.index ⟨(i 0).val / 5000, by omega⟩ (0 : Fin 2) = (i 0).val / 5000 := (index2 _).2.2.1.1
  have e1 : win2_2.index ⟨(i 0).val / 5000, by omega⟩ (1 : Fin 2) = 0 := (index2 _).2.2.1.2
  intro a
  match a with
  | ⟨0, _⟩ => show win2_2.index _ (0 : Fin 2) * 5000 ≤ (i 0).val ∧ (i 0).val < win2_2.index _ (0 : Fin 2) * 5000 + 5000; rw [e0]; omega
  | ⟨1, _⟩ => show win2_2.index _ (1 : Fin 2) * 128 ≤ (i 1).val ∧ (i 1).val < win2_2.index _ (1 : Fin 2) * 128 + 128; rw [e1]; omega

/-- Row `R` of the new accumulator is written by point `R / 5000`. -/
theorem cover2_acc (i : S75000x128.Idx) :
    ∃ t : Fin cfg2.N, (cfg2.win 3).flush t = true ∧ i ∈ ((cfg2.win 3).blk t).view.set := by
  have hi0 : (i 0).val < 75000 := idx2_lt0 i
  have hi1 : (i 1).val < 128 := idx2_lt1 i
  have hN : cfg2.N = 15 := N_2
  have hN' : grid2.N = 15 := N_2
  refine ⟨⟨(i 0).val / 5000, by omega⟩, flush2_3 _, ?_⟩
  rw [mem_blk2_acc]
  have e0 : win2_3.index ⟨(i 0).val / 5000, by omega⟩ (0 : Fin 2) = (i 0).val / 5000 := (index2 _).2.2.2.1
  have e1 : win2_3.index ⟨(i 0).val / 5000, by omega⟩ (1 : Fin 2) = 0 := (index2 _).2.2.2.2
  intro a
  match a with
  | ⟨0, _⟩ => show win2_3.index _ (0 : Fin 2) * 5000 ≤ (i 0).val ∧ (i 0).val < win2_3.index _ (0 : Fin 2) * 5000 + 5000; rw [e0]; omega
  | ⟨1, _⟩ => show win2_3.index _ (1 : Fin 2) * 128 ≤ (i 1).val ∧ (i 1).val < win2_3.index _ (1 : Fin 2) * 128 + 128; rw [e1]; omega

/-! ## The tables after the call -/

/-- After the call the scaled table is the first payload applied block by block to the raw table. -/
theorem final2_feats_tiled (c : Dev nD) : (dat2 V c).arrAt 2 cfg2.N = featsTable2 V c :=
  (dat2 V c).arrAt_eq_of_cover 2 (featsTable2 V c) (fun t _ => flushed2_feats V c t) cover2_feats

/-- After the call the new accumulator is the second payload applied block by block to the raw table and the
    accumulator. -/
theorem final2_acc_tiled (c : Dev nD) : (dat2 V c).arrAt 3 cfg2.N = accTable2 V c :=
  (dat2 V c).arrAt_eq_of_cover 3 (accTable2 V c) (fun t _ => flushed2_acc V c t) cover2_acc

/-! ## The tables after the call, entry by entry -/

/-- Entry `(R, l)` of the scaled table after the call is entry `(R % 5000, l)` of the first payload of block
    `R / 5000` of the raw table. -/
theorem final2_feats_apply (c : Dev nD) (R : Fin 75000) (l : Fin 128) :
    (dat2 V c).arrAt 2 cfg2.N (ix2 R l)
      = k2_pay1 (rowBlock (rawIn2 V c) (R.val / 5000) (block_le rows2 R.isLt)) (ix2 ⟨R.val % 5000, Nat.mod_lt _ (by decide)⟩ l) :=
  (congrFun (final2_feats_tiled V c) (ix2 R l)).trans
    (tiled_apply rows2 (fun x0 _ => k2_pay1 x0) (rawIn2 V c) (accIn2 V c) R l)

/-- Entry `(R, l)` of the new accumulator after the call is entry `(R % 5000, l)` of the second payload of blocks
    `R / 5000` of the raw table and of the accumulator. -/
theorem final2_acc_apply (c : Dev nD) (R : Fin 75000) (l : Fin 128) :
    (dat2 V c).arrAt 3 cfg2.N (ix2 R l)
      = k2_pay2 (rowBlock (rawIn2 V c) (R.val / 5000) (block_le rows2 R.isLt))
          (rowBlock (accIn2 V c) (R.val / 5000) (block_le rows2 R.isLt)) (ix2 ⟨R.val % 5000, Nat.mod_lt _ (by decide)⟩ l) :=
  (congrFun (final2_acc_tiled V c) (ix2 R l)).trans
    (tiled_apply rows2 (fun x0 x1 => k2_pay2 x0 x1) (rawIn2 V c) (accIn2 V c) R l)

/-! ## At the exact reals -/

section Exact

variable (W : (c : Dev nD) → (b : Ref sig .tc) → Buf (Elt Ideal) ((c : Thread nD τ).loc b))

/-- After the call, at the exact reals, the scaled table is the raw table divided by the number the pattern
    `0x40000000` denotes (two). -/
theorem final2_feats (c : Dev nD) (R : Fin 75000) (l : Fin 128) :
    (dat2 (F := Ideal) W c).arrAt 2 cfg2.N (ix2 R l)
      = Ideal.div (rawIn2 W c (ix2 R l)) (Ideal.ofBits .f32 0x40000000#32) := by
  rw [final2_feats_apply, k2_pay1_apply, rowBlock_div_mod rows2]

/-- After the call, at the exact reals, the new accumulator is the old one plus, in each lane, the lane's 64-wide
    half-row of the raw table divided by that number and then by its Euclidean norm floored at `D`. -/
theorem final2_acc (c : Dev nD) (R : Fin 75000) (l : Fin 128) :
    (dat2 (F := Ideal) W c).arrAt 3 cfg2.N (ix2 R l)
      = accIn2 W c (ix2 R l)
        + normRow (fun j => Ideal.div (rawIn2 W c (ix2 R (half l j))) (Ideal.ofBits .f32 0x40000000#32)) (feat l) := by
  rw [final2_acc_apply, k2_pay2_apply, rowBlock_div_mod rows2]
  simp only [rowBlock_div_mod rows2]

end Exact

end Cert.LayerUpdate

end
-- ==== Proof.Upd.Final3.lean ====
import proofs.«108982_j38147899523261_2_alg».proof.Proof.KI.Update3
import proofs.«108982_j38147899523261_2_alg».proof.Proof.Upd.Rows
import proofs.«108982_j38147899523261_2_alg».proof.Proof.Upd.Payload
import Idealize.ShloMosaic.Lib.Pipeline.Value

/-! The array the fourth layer-update call writes, as a function of the two arrays it reads.

The call runs 15 grid points over tables of 75000 rows of 128 lanes; point `t` reads rows `5000 t … 5000 t + 4999`
of the raw table and of the accumulator and writes the same rows of the new accumulator. What the body leaves in the
output buffer is its payload of the two input blocks (`accum3_eq`), every window's block at point `t` is block `t` of
its table (`index3`), so what point `t` writes back is block `t` of the payload applied block by block
(`flushed3_acc`); the 15 blocks cover the table (`cover3_acc`), so after the call the output table IS the payload
applied block by block to the input tables (`final3_acc_tiled`), at any float instance. At the exact reals, where the
payload is known entry by entry, this reads: the new accumulator is the old one plus each 64-wide half-row of the raw
table divided by three and then by its floored norm (`final3_acc`). -/

noncomputable section

namespace Cert.LayerUpdate

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F] [Named F]
variable (V : (c : Dev nD) → (b : Ref sig .tc) → Buf (Elt F) ((c : Thread nD τ).loc b))

/-! ## What the body leaves is its payload -/

/-- The body's loads and stores are at offset zero on both axes. -/
theorem zero_offsets3 : (![0, 0] : Fin 2 → Nat) = fun _ => 0 := funext fun a => by fin_cases a <;> rfl

/-- One store of the whole block leaves its payload, and a load of the whole block reads the block: the
    new-accumulator buffer after the body is the payload of the two input blocks. -/
theorem accum3_eq (x0 x1 : Vec F S5000x128 .f32) : accum3 x0 x1 = k3_pay1 x0 x1 := by
  unfold accum3; rw [View.canon_unit_zero zero_offsets3, View.ld_unit_zero zero_offsets3, View.ld_unit_zero zero_offsets3]

/-! ## Every window's block at point `t` is block `t` of its table -/

/-- The 75000 rows are 15 blocks of 5000. -/
theorem rows3 : 75000 % 5000 = 0 := by decide

/-- Point `t`'s rows lie inside the table. -/
theorem point_le3 (t : Fin cfg3.N) : 5000 * t.val + 5000 ≤ 75000 := by
  have := t.isLt; have hN : cfg3.N = 15 := N_3; omega

/-- The three printed index maps, decided over the 15 grid points: block `(t, 0)`. -/
theorem index3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0) :=
  (by decide +kernel : ∀ t : Fin grid3.N, _)

/-- The raw table as the call finds it. -/
abbrev rawIn3 (c : Dev nD) : S75000x128.Idx → Elt F .f32 := V c main_v70

/-- The accumulator as the call finds it. -/
abbrev accIn3 (c : Dev nD) : S75000x128.Idx → Elt F .f32 := V c main_v71

/-- The raw window's block at point `t` is rows `5000 t …` of the raw table as the call finds it. -/
theorem iblk3_raw (c : Dev nD) (t : Fin cfg3.N) :
    (iblk3 V c 0 t : Vec F S5000x128 .f32) = rowBlock (rawIn3 V c) t.val (point_le3 t) := by
  funext j
  unfold iblk3
  rw [View.read_apply]
  show rawIn3 V c _ = rawIn3 V c _
  refine congrArg (rawIn3 V c) ?_
  funext a
  apply Fin.ext
  match a with
  | ⟨0, _⟩ => show win3_0.index t (0 : Fin 2) * 5000 + 1 * (j 0).val = 5000 * t.val + (j 0).val; rw [(index3 t).1.1]; omega
  | ⟨1, _⟩ => show win3_0.index t (1 : Fin 2) * 128 + 1 * (j 1).val = (j 1).val; rw [(index3 t).1.2]; omega

/-- The accumulator window's block at point `t` is rows `5000 t …` of the accumulator as the call finds it. -/
theorem iblk3_acc (c : Dev nD) (t : Fin cfg3.N) :
    (iblk3 V c 1 t : Vec F S5000x128 .f32) = rowBlock (accIn3 V c) t.val (point_le3 t) := by
  funext j
  unfold iblk3
  rw [View.read_apply]
  show accIn3 V c _ = accIn3 V c _
  refine congrArg (accIn3 V c) ?_
  funext a
  apply Fin.ext
  match a with
  | ⟨0, _⟩ => show win3_1.index t (0 : Fin 2) * 5000 + 1 * (j 0).val = 5000 * t.val + (j 0).val; rw [(index3 t).2.1.1]; omega
  | ⟨1, _⟩ => show win3_1.index t (1 : Fin 2) * 128 + 1 * (j 1).val = (j 1).val; rw [(index3 t).2.1.2]; omega

/-! ## What a point writes back -/

/-- The accumulator the call leaves: the payload applied block by block to the raw table and the accumulator. -/
abbrev accTable3 (c : Dev nD) : S75000x128.Idx → Elt F .f32 :=
  tiled rows3 (fun x0 x1 => k3_pay1 x0 x1) (rawIn3 V c) (accIn3 V c)

/-- Point `t` writes block `t` of `accTable3` to the new accumulator. -/
theorem flushed3_acc (c : Dev nD) (t : Fin cfg3.N) :
    (dat3 V c).flushed 2 t = ((cfg3.win 2).blk t).view.read (Elt F) (accTable3 V c) := by
  show (cfg3.win 2).cut (grid3.coords t) ((dat3 V c).after 2 t) = _
  rw [after3_2, accum3_eq, iblk3_raw, iblk3_acc]
  funext j
  show k3_pay1 (rowBlock (rawIn3 V c) t.val (point_le3 t))
      (rowBlock (accIn3 V c) t.val (point_le3 t)) j
    = accTable3 V c (((cfg3.win 2).blk t).view.emb j)
  refine (tiled_at_block rows3 (fun x0 x1 => k3_pay1 x0 x1) _ _ t.val (point_le3 t) j _ ?_ ?_).symm
  · show win3_2.index t (0 : Fin 2) * 5000 + 1 * (j 0).val = 5000 * t.val + (j 0).val; rw [(index3 t).2.2.1]; omega
  · show win3_2.index t (1 : Fin 2) * 128 + 1 * (j 1).val = (j 1).val; rw [(index3 t).2.2.2]; omega

/-! ## The blocks cover the table -/

/-- An entry of the new accumulator is in point `t`'s block iff each coordinate is in the block's range on its axis. -/
theorem mem_blk3_acc (t : Fin cfg3.N) (i : S75000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v72).slice (win3_2.rect t)).set ↔ _
  rw [View.set_slice_whole, Rect.mem_set_unit]
  exact Iff.rfl

/-- Row `R` of the new accumulator is written by point `R / 5000`. -/
theorem cover3_acc (i : S75000x128.Idx) :
    ∃ t : Fin cfg3.N, (cfg3.win 2).flush t = true ∧ i ∈ ((cfg3.win 2).blk t).view.set := by
  have hi0 : (i 0).val < 75000 := idx2_lt0 i
  have hi1 : (i 1).val < 128 := idx2_lt1 i
  have hN : cfg3.N = 15 := N_3
  have hN' : grid3.N = 15 := N_3
  refine ⟨⟨(i 0).val / 5000, by omega⟩, flush3_2 _, ?_⟩
  rw [mem_blk3_acc]
  have e0 : win3_2.index ⟨(i 0).val / 5000, by omega⟩ (0 : Fin 2) = (i 0).val / 5000 := (index3 _).2.2.1
  have e1 : win3_2.index ⟨(i 0).val / 5000, by omega⟩ (1 : Fin 2) = 0 := (index3 _).2.2.2
  intro a
  match a with
  | ⟨0, _⟩ => show win3_2.index _ (0 : Fin 2) * 5000 ≤ (i 0).val ∧ (i 0).val < win3_2.index _ (0 : Fin 2) * 5000 + 5000; rw [e0]; omega
  | ⟨1, _⟩ => show win3_2.index _ (1 : Fin 2) * 128 ≤ (i 1).val ∧ (i 1).val < win3_2.index _ (1 : Fin 2) * 128 + 128; rw [e1]; omega

/-! ## The table after the call -/

/-- After the call the new accumulator is the payload applied block by block to the raw table and the accumulator. -/
theorem final3_acc_tiled (c : Dev nD) : (dat3 V c).arrAt 2 cfg3.N = accTable3 V c :=
  (dat3 V c).arrAt_eq_of_cover 2 (accTable3 V c) (fun t _ => flushed3_acc V c t) cover3_acc

/-! ## The table after the call, entry by entry -/

/-- Entry `(R, l)` of the new accumulator after the call is entry `(R % 5000, l)` of the payload of blocks
    `R / 5000` of the raw table and of the accumulator. -/
theorem final3_acc_apply (c : Dev nD) (R : Fin 75000) (l : Fin 128) :
    (dat3 V c).arrAt 2 cfg3.N (ix2 R l)
      = k3_pay1 (rowBlock (rawIn3 V c) (R.val / 5000) (block_le rows3 R.isLt))
          (rowBlock (accIn3 V c) (R.val / 5000) (block_le rows3 R.isLt)) (ix2 ⟨R.val % 5000, Nat.mod_lt _ (by decide)⟩ l) :=
  (congrFun (final3_acc_tiled V c) (ix2 R l)).trans
    (tiled_apply rows3 (fun x0 x1 => k3_pay1 x0 x1) (rawIn3 V c) (accIn3 V c) R l)

/-! ## At the exact reals -/

section Exact

variable (W : (c : Dev nD) → (b : Ref sig .tc) → Buf (Elt Ideal) ((c : Thread nD τ).loc b))

/-- After the call, at the exact reals, the new accumulator is the old one plus, in each lane, the lane's 64-wide
    half-row of the raw table divided by the number the pattern `0x40400000` denotes (three) and then by its Euclidean
    norm floored at `D`. -/
theorem final3_acc (c : Dev nD) (R : Fin 75000) (l : Fin 128) :
    (dat3 (F := Ideal) W c).arrAt 2 cfg3.N (ix2 R l)
      = accIn3 W c (ix2 R l)
        + normRow (fun j => Ideal.div (rawIn3 W c (ix2 R (half l j))) (Ideal.ofBits .f32 0x40400000#32)) (feat l) := by
  rw [final3_acc_apply, k3_pay1_apply, rowBlock_div_mod rows3]
  simp only [rowBlock_div_mod rows3]

end Exact

end Cert.LayerUpdate

end
-- ==== Proof.UL.Payload.lean ====
/-
  What the pairwise-distance kernels compute, read at their one output entry.

  One grid point of such a kernel takes a block xi of 256 rows, the whole matrix xf of 2048 rows, the row sqf
  of the 2048 squared norms, and the running total a; it forms, for each row r of the block and each column c,

      exp (-2 * max (|xi r|^2 + sqf c - 2 * <xi r, xf c>) 0)   where  c > 256 * n + r,   and 0 elsewhere

  (n the grid point's number, so that 256 * n + r is the row's number in the whole matrix), sums these over
  the columns and then over the rows, and adds the result to a. This module reads that value entry by entry:
  the Gram product as a sum over the 64 features, the two norm terms through their broadcasts, the triangle
  mask from the two 32-bit counters (no wrap-around: every row number is below 2048), and the two reductions
  as one double sum. The first grid point starts the total at zero, and the last one stores the logarithm of the
  total divided by the number of pairs.
-/
import proofs.«108982_j38147899523261_2_alg».proof.Proof.Gen.KernelIdeal.Skeleton
import proofs.«108982_j38147899523261_2_alg».proof.Proof.UL.Spec
import proofs.«108982_j38147899523261_2_alg».proof.Proof.LibMatmulFin
import proofs.«108982_j38147899523261_2_alg».proof.Proof.LibKeepdims

noncomputable section

open scoped BigOperators

namespace Cert.ULoss

open Idealize.ShloMosaic Idealize.ShloMosaic.ValueIdx Cert.KernelIdeal Cert.KernelIdeal.Gen Cert.LibMatmulFin

/-! ## Sums along one axis of a matrix -/

/-- The sum along the rows of an [a, b] matrix, at row r: the sum of that row's b entries. -/
theorem rowReduce_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v _ h hφ hacc (ix1 r)).trans ?_
  show ∑ k : Fin b, v (h.lift (ix1 r) k) = _
  refine Finset.sum_congr rfl fun k _ => congrArg v ?_
  exact idx2_ext _ _ rfl rfl

/-- The sum down an [a, 1] column: the sum of its a entries. -/
theorem colReduce_apply {a : ℕ} (v : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) :
    multiReduction .add [0] ⟨1, ![1]⟩ v 0x00000000#32 h hφ hacc (ix1 0) = ∑ r : Fin a, v (ix2 r 0) := by
  refine (Ideal.multiReduction_add_single v _ h hφ hacc (ix1 0)).trans ?_
  show ∑ r : Fin a, v (h.lift (ix1 0) r) = _
  refine Finset.sum_congr rfl fun r _ => congrArg v ?_
  exact idx2_ext _ _ rfl rfl

/-- Summing a [256, 2048] matrix along its rows, keeping the column of row sums, and then summing that column,
    gives at the one remaining entry the double sum over rows and columns. -/
theorem sumAll_apply (v : FVec Ideal S256x2048 .f32)
    (h1 : S256x2048.Reduces [1] S256) (h0 : S256x1.Reduces [0] S1) (hφ hφ' : FKind.Formats .f32)
    (hacc : (0x00000000#32 : BitVec 32) = FKind.add.neutral .f32 hφ)
    (hacc' : (0x00000000#32 : BitVec 32) = FKind.add.neutral .f32 hφ')
    (c1 : S256.ShapeCasts S256x1) (c0 : S1.ShapeCasts S1x1) :
    shapeCast S1x1 (multiReduction .add [0] S1
        (shapeCast S256x1 (multiReduction .add [1] S256 v 0x00000000#32 h1 hφ hacc) c1) 0x00000000#32 h0 hφ' hacc') c0
        (ix2 0 0)
      = ∑ r : Fin 256, ∑ c : Fin 2048, v (ix2 r c) := by
  refine (shapeCast_a_a1_apply _ c0 (0 : Fin 1) (0 : Fin 1)).trans ?_
  refine (colReduce_apply _ h0 hφ' hacc').trans ?_
  refine Finset.sum_congr rfl fun r _ => ?_
  refine (shapeCast_a_a1_apply _ c1 r (0 : Fin 1)).trans ?_
  exact rowReduce_apply v h1 hφ hacc r

/-! ## The triangle mask -/

/-- A number below 2^31, as a 32-bit word read signed, is itself. -/
theorem toInt_ofNat_small (n : Nat) (hn : n < 2147483648) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- The mask bit at row r of block n and column c: the signed comparison "column > 256 * n + r" on 32-bit
    words is the comparison of the numbers, every one of them being below 2048. -/
theorem mask_bit (n r c : Nat) (hn : n < 8) (hr : r < 256) (hc : c < 2048) :
    IntOp.cmpi .sgt (BitVec.ofNat 32 c) (IntOp.addi (Scalar.muli (BitVec.ofNat 32 n) 256#32) (BitVec.ofNat 32 r))
      = if 256 * n + r < c then 1#1 else 0#1 := by
  have e : IntOp.addi (Scalar.muli (BitVec.ofNat 32 n) 256#32) (BitVec.ofNat 32 r) = BitVec.ofNat 32 (256 * n + r) := by
    show BitVec.ofNat 32 n * 256#32 + BitVec.ofNat 32 r = _
    bv_omega
  rw [e]
  show BitVec.ofBool ((BitVec.ofNat 32 (256 * n + r)).slt (BitVec.ofNat 32 c)) = _
  rw [BitVec.slt_eq_decide, toInt_ofNat_small _ (by omega), toInt_ofNat_small _ (by omega)]
  by_cases hlt : 256 * n + r < c
  · rw [if_pos hlt, decide_eq_true (by omega)]; rfl
  · rw [if_neg hlt, decide_eq_false (by omega)]; rfl

/-! ## The pieces of one grid point's value -/

/-- The block's squared row norms, spread over the columns. -/
def rowNormsB (xi : FVec Ideal S256x64 .f32) : FVec Ideal S256x2048 .f32 :=
  broadcastTo S256x2048
    (shapeCast S256x1 (multiReduction .add [1] S256 (mulf xi xi) 0x00000000#32 reduces_S256x64_S256 (.inl rfl) rfl)
      shapeCasts_S256_S256x1) broadcasts_S256x1_S256x2048

/-- The given row of squared norms, spread over the block's rows. -/
def colNormsB (sqf : FVec Ideal S1x2048 .f32) : FVec Ideal S256x2048 .f32 :=
  broadcastTo S256x2048 sqf broadcasts_S1x2048_S256x2048

/-- The Gram block: the block's rows against all rows, contracted over the 64 features, into a zero accumulator. -/
def gram (xi : FVec Ideal S256x64 .f32) (xf : FVec Ideal S2048x64 .f32) : FVec Ideal S256x2048 .f32 :=
  matmul dot_S256x64_S2048x64_S256x2048_1_1_0_0_n_n none xi xf (constant S256x2048 .f32 0x00000000#32)

/-- The strict-upper-triangle mask of block n: column counter > 256 * n + row counter. -/
def upper (n : Nat) : IVec S256x2048 1 :=
  cmpi .sgt (iota .tc S256x2048 32 [1] iota_S256x2048_d1_w32)
    (addi (broadcast S256x2048 (Scalar.muli (BitVec.ofNat 32 n) 256#32)) (iota .tc S256x2048 32 [0] iota_S256x2048_d0_w32))

/-- The masked exponentials of block n. -/
def blockTerms (n : Nat) (xi : FVec Ideal S256x64 .f32) (xf : FVec Ideal S2048x64 .f32) (sqf : FVec Ideal S1x2048 .f32) :
    FVec Ideal S256x2048 .f32 :=
  select (upper n)
    (exp (mulf (broadcast S256x2048 (Scalar.ofBits .f32 0xC0000000#32))
      (maximumf
        (subf (addf (rowNormsB xi) (colNormsB sqf))
          (mulf (broadcast S256x2048 (Scalar.ofBits .f32 0x40000000#32)) (gram xi xf)))
        (broadcast S256x2048 (Scalar.ofBits .f32 0x00000000#32)))))
    (broadcast S256x2048 (Scalar.ofBits .f32 0x00000000#32))

/-- Block n's partial sum, as the [1, 1] vector the kernel adds to its running total. -/
def blockSum (n : Nat) (xi : FVec Ideal S256x64 .f32) (xf : FVec Ideal S2048x64 .f32) (sqf : FVec Ideal S1x2048 .f32) :
    FVec Ideal S1x1 .f32 :=
  shapeCast S1x1 (multiReduction .add [0] S1
    (shapeCast S256x1 (multiReduction .add [1] S256 (blockTerms n xi xf sqf) 0x00000000#32 reduces_S256x2048_S256 (.inl rfl) rfl)
      shapeCasts_S256_S256x1) 0x00000000#32 reduces_S256x1_S1 (.inl rfl) rfl) shapeCasts_S1_S1x1

/-- The squared norm of the block's row r, at any column. -/
theorem rowNormsB_apply (xi : FVec Ideal S256x64 .f32) (r : Fin 256) (c : Fin 2048) :
    rowNormsB xi (ix2 r c) = ∑ k : Fin 64, xi (ix2 r k) * xi (ix2 r k) := by
  unfold rowNormsB
  refine (broadcastTo_a1_ab_apply _ broadcasts_S256x1_S256x2048 r c).trans ?_
  refine (shapeCast_a_a1_apply _ shapeCasts_S256_S256x1 r (0 : Fin 1)).trans ?_
  exact rowReduce_apply (mulf xi xi) reduces_S256x64_S256 (.inl rfl) rfl r

/-- The given squared norm of column c, at any row. -/
theorem colNormsB_apply (sqf : FVec Ideal S1x2048 .f32) (r : Fin 256) (c : Fin 2048) :
    colNormsB sqf (ix2 r c) = sqf (ix2 0 c) := by
  unfold colNormsB
  exact broadcastTo_1b_ab_apply sqf broadcasts_S1x2048_S256x2048 r c

/-- The Gram block at (r, c): the inner product of the block's row r and row c of the whole matrix. -/
theorem gram_apply (xi : FVec Ideal S256x64 .f32) (xf : FVec Ideal S2048x64 .f32) (r : Fin 256) (c : Fin 2048) :
    gram xi xf (ix2 r c) = ∑ k : Fin 64, xi (ix2 r k) * xf (ix2 c k) := by
  unfold gram
  refine matmul_zero_apply_fin dot_S256x64_S2048x64_S256x2048_1_1_0_0_n_n 64 rfl rfl none xi xf (ix2 r c)
    (fun k => ix2 r k) (fun k => ix2 c k) (fun k => ?_) (fun k => ?_)
  · refine idx2_ext _ _ ?_ ?_
    · first
        | rfl
        | (simp [DotDims.lhsIdx, dot_S256x64_S2048x64_S256x2048_1_1_0_0_n_n]; rfl)
    · exact (DotDims.lhsIdx_val_of_single _ (cl := 1) rfl _ _).trans (contrEquiv1_symm_val _ 64 rfl rfl k)
  · refine idx2_ext _ _ ?_ ?_
    · first
        | rfl
        | (simp [DotDims.rhsIdx, dot_S256x64_S2048x64_S256x2048_1_1_0_0_n_n]; rfl)
    · exact (DotDims.rhsIdx_val_of_single _ (cr := 1) rfl _ _).trans (contrEquiv1_symm_val _ 64 rfl rfl k)

/-- The mask of block n at (r, c): set exactly when 256 * n + r < c. -/
theorem upper_apply (n : Nat) (hn : n < 8) (r : Fin 256) (c : Fin 2048) :
    upper n (ix2 r c) = if 256 * n + r.val < c.val then 1#1 else 0#1 := by
  unfold upper
  show IntOp.cmpi .sgt (iota .tc S256x2048 32 [1] iota_S256x2048_d1_w32 (ix2 r c))
      (IntOp.addi (Scalar.muli (BitVec.ofNat 32 n) 256#32) (iota .tc S256x2048 32 [0] iota_S256x2048_d0_w32 (ix2 r c))) = _
  rw [iota_single_apply, iota_single_apply]
  exact mask_bit n r.val c.val hn r.isLt c.isLt

/-- One masked exponential of block n. -/
theorem blockTerms_apply (n : Nat) (hn : n < 8) (xi : FVec Ideal S256x64 .f32) (xf : FVec Ideal S2048x64 .f32)
    (sqf : FVec Ideal S1x2048 .f32) (r : Fin 256) (c : Fin 2048) :
    blockTerms n xi xf sqf (ix2 r c)
      = if 256 * n + r.val < c.val then
          Ideal.exp (negTwo * max ((∑ k : Fin 64, xi (ix2 r k) * xi (ix2 r k)) + sqf (ix2 0 c)
            - two * ∑ k : Fin 64, xi (ix2 r k) * xf (ix2 c k)) 0)
        else 0 := by
  unfold blockTerms
  show Scalar.select (upper n (ix2 r c))
      (Ideal.exp (negTwo * max (rowNormsB xi (ix2 r c) + colNormsB sqf (ix2 r c) - two * gram xi xf (ix2 r c))
        (Ideal.ofBits .f32 0x00000000#32)))
      (Ideal.ofBits .f32 0x00000000#32) = _
  rw [upper_apply n hn r c, rowNormsB_apply, colNormsB_apply, gram_apply, Ideal.ofBits_zero_f32]
  by_cases hlt : 256 * n + r.val < c.val
  · rw [if_pos hlt, if_pos hlt, select_one]
  · rw [if_neg hlt, if_neg hlt, select_zero]

/-- Block n's partial sum at its one entry: the double sum of its masked exponentials. -/
theorem blockSum_apply (n : Nat) (hn : n < 8) (xi : FVec Ideal S256x64 .f32) (xf : FVec Ideal S2048x64 .f32)
    (sqf : FVec Ideal S1x2048 .f32) :
    blockSum n xi xf sqf (ix2 0 0)
      = ∑ r : Fin 256, ∑ c : Fin 2048,
          (if 256 * n + r.val < c.val then
            Ideal.exp (negTwo * max ((∑ k : Fin 64, xi (ix2 r k) * xi (ix2 r k)) + sqf (ix2 0 c)
              - two * ∑ k : Fin 64, xi (ix2 r k) * xf (ix2 c k)) 0)
          else 0) := by
  unfold blockSum
  refine (sumAll_apply _ reduces_S256x2048_S256 reduces_S256x1_S1 (.inl rfl) (.inl rfl) rfl rfl
    shapeCasts_S256_S256x1 shapeCasts_S1_S1x1).trans ?_
  exact Finset.sum_congr rfl fun r _ => Finset.sum_congr rfl fun c _ => blockTerms_apply n hn xi xf sqf r c

/-- When the block is band t of one matrix x, the full matrix is x and the row of norms is q, block t's partial sum
    is band t's partial sum of the specification. -/
theorem blockSum_band (t : Fin 8) (xi : FVec Ideal S256x64 .f32) (xf : FVec Ideal S2048x64 .f32)
    (sqf : FVec Ideal S1x2048 .f32) (x : Fin 2048 → Fin 64 → EReal) (q : Fin 2048 → EReal)
    (hxi : ∀ (r : Fin 256) (k : Fin 64), xi (ix2 r k) = x (bandRow t r) k)
    (hxf : ∀ (c : Fin 2048) (k : Fin 64), xf (ix2 c k) = x c k)
    (hq : ∀ c : Fin 2048, sqf (ix2 0 c) = q c) :
    blockSum t.val xi xf sqf (ix2 0 0) = band x q t := by
  rw [blockSum_apply t.val t.isLt]
  unfold band term dist2 sqNorm
  refine Finset.sum_congr rfl fun r _ => Finset.sum_congr rfl fun c _ => ?_
  rw [hq c]
  simp only [hxi, hxf]
  rfl

/-! ## Kernel 4's four stored values -/

/-- Grid point i's new running total is the old one plus block (i 0)'s partial sum (the three identity casts of the
    loaded operands dropped). -/
theorem k4_pay4_eq (i : grid4.Coords) (xi : Vec Ideal S256x64 .f32) (xf : Vec Ideal S2048x64 .f32)
    (sqf : Vec Ideal S1x2048 .f32) (a : Vec Ideal S1x1 .f32) :
    k4_pay4 (F := Ideal) i xi xf sqf a = addf a (blockSum (i 0).val xi xf sqf) := by
  have e : k4_pay4 (F := Ideal) i xi xf sqf a
      = addf a (blockSum (i 0).val (shapeCast S256x64 xi shapeCasts_S256x64_S256x64)
          (shapeCast S2048x64 xf shapeCasts_S2048x64_S2048x64) (shapeCast S1x2048 sqf shapeCasts_S1x2048_S1x2048)) := rfl
  rw [e, shapeCast_self, shapeCast_self, shapeCast_self]

/-- The value the first grid point starts the running total at: zero. -/
theorem k4_pay3_apply : k4_pay3 (F := Ideal) (ix2 0 0) = 0 := by
  have e : k4_pay3 (F := Ideal)
      = shapeCast S1x1 (broadcast S1x1 (Scalar.ofBits (F := Ideal) .f32 0x00000000#32)) shapeCasts_S1x1_S1x1 := rfl
  rw [e, shapeCast_self]
  exact Ideal.ofBits_zero_f32

/-- The value stored back to the running total is the new total itself. -/
theorem k4_pay1_apply (v : FVec Ideal S1x1 .f32) : k4_pay1 v (ix2 0 0) = v (ix2 0 0) := by
  have e : k4_pay1 v = shapeCast S1x1 v shapeCasts_S1x1_S1x1 := rfl
  rw [e, shapeCast_self]

/-- The value the last grid point stores to the output: the logarithm of the total over the number of pairs. -/
theorem k4_pay2_apply (v : Vec Ideal S1x1 .f32) :
    k4_pay2 (F := Ideal) v (ix2 0 0) = Ideal.log (Ideal.div (v (ix2 0 0)) nPairs) := rfl

/-- Grid point i's new running total at its one entry, spelt out. -/
theorem k4_pay4_apply (i : grid4.Coords) (xi : Vec Ideal S256x64 .f32) (xf : Vec Ideal S2048x64 .f32)
    (sqf : Vec Ideal S1x2048 .f32) (a : Vec Ideal S1x1 .f32) :
    k4_pay4 (F := Ideal) i xi xf sqf a (ix2 0 0)
      = a (ix2 0 0) + ∑ r : Fin 256, ∑ c : Fin 2048,
          (if 256 * (i 0).val + r.val < c.val then
            Ideal.exp (negTwo * max ((∑ k : Fin 64, xi (ix2 r k) * xi (ix2 r k)) + sqf (ix2 0 c)
              - two * ∑ k : Fin 64, xi (ix2 r k) * xf (ix2 c k)) 0)
          else 0) := by
  have h8 : (i 0).val < 8 := (i 0).isLt
  rw [k4_pay4_eq]
  show a (ix2 0 0) + blockSum (i 0).val xi xf sqf (ix2 0 0) = _
  rw [blockSum_apply _ h8]

/-- Grid point i = t, fed band t of the matrix x, the whole of x and the row q, adds band t's partial sum. -/
theorem k4_pay4_band (i : grid4.Coords) (t : Fin 8) (ht : (i 0).val = t.val) (xi : Vec Ideal S256x64 .f32)
    (xf : Vec Ideal S2048x64 .f32) (sqf : Vec Ideal S1x2048 .f32) (a : Vec Ideal S1x1 .f32)
    (x : Fin 2048 → Fin 64 → EReal) (q : Fin 2048 → EReal)
    (hxi : ∀ (r : Fin 256) (k : Fin 64), xi (ix2 r k) = x (bandRow t r) k)
    (hxf : ∀ (c : Fin 2048) (k : Fin 64), xf (ix2 c k) = x c k)
    (hq : ∀ c : Fin 2048, sqf (ix2 0 c) = q c) :
    k4_pay4 (F := Ideal) i xi xf sqf a (ix2 0 0) = a (ix2 0 0) + band x q t := by
  rw [k4_pay4_eq, ht]
  show a (ix2 0 0) + blockSum t.val xi xf sqf (ix2 0 0) = _
  rw [blockSum_band t xi xf sqf x q hxi hxf hq]

/-! ## Kernel 5's four stored values -/

/-- Grid point i's new running total is the old one plus block (i 0)'s partial sum (the three identity casts of the
    loaded operands dropped). -/
theorem k5_pay4_eq (i : grid5.Coords) (xi : Vec Ideal S256x64 .f32) (xf : Vec Ideal S2048x64 .f32)
    (sqf : Vec Ideal S1x2048 .f32) (a : Vec Ideal S1x1 .f32) :
    k5_pay4 (F := Ideal) i xi xf sqf a = addf a (blockSum (i 0).val xi xf sqf) := by
  have e : k5_pay4 (F := Ideal) i xi xf sqf a
      = addf a (blockSum (i 0).val (shapeCast S256x64 xi shapeCasts_S256x64_S256x64)
          (shapeCast S2048x64 xf shapeCasts_S2048x64_S2048x64) (shapeCast S1x2048 sqf shapeCasts_S1x2048_S1x2048)) := rfl
  rw [e, shapeCast_self, shapeCast_self, shapeCast_self]

/-- The value the first grid point starts the running total at: zero. -/
theorem k5_pay3_apply : k5_pay3 (F := Ideal) (ix2 0 0) = 0 := by
  have e : k5_pay3 (F := Ideal)
      = shapeCast S1x1 (broadcast S1x1 (Scalar.ofBits (F := Ideal) .f32 0x00000000#32)) shapeCasts_S1x1_S1x1 := rfl
  rw [e, shapeCast_self]
  exact Ideal.ofBits_zero_f32

/-- The value stored back to the running total is the new total itself. -/
theorem k5_pay1_apply (v : FVec Ideal S1x1 .f32) : k5_pay1 v (ix2 0 0) = v (ix2 0 0) := by
  have e : k5_pay1 v = shapeCast S1x1 v shapeCasts_S1x1_S1x1 := rfl
  rw [e, shapeCast_self]

/-- The value the last grid point stores to the output: the logarithm of the total over the number of pairs. -/
theorem k5_pay2_apply (v : Vec Ideal S1x1 .f32) :
    k5_pay2 (F := Ideal) v (ix2 0 0) = Ideal.log (Ideal.div (v (ix2 0 0)) nPairs) := rfl

/-- Grid point i's new running total at its one entry, spelt out. -/
theorem k5_pay4_apply (i : grid5.Coords) (xi : Vec Ideal S256x64 .f32) (xf : Vec Ideal S2048x64 .f32)
    (sqf : Vec Ideal S1x2048 .f32) (a : Vec Ideal S1x1 .f32) :
    k5_pay4 (F := Ideal) i xi xf sqf a (ix2 0 0)
      = a (ix2 0 0) + ∑ r : Fin 256, ∑ c : Fin 2048,
          (if 256 * (i 0).val + r.val < c.val then
            Ideal.exp (negTwo * max ((∑ k : Fin 64, xi (ix2 r k) * xi (ix2 r k)) + sqf (ix2 0 c)
              - two * ∑ k : Fin 64, xi (ix2 r k) * xf (ix2 c k)) 0)
          else 0) := by
  have h8 : (i 0).val < 8 := (i 0).isLt
  rw [k5_pay4_eq]
  show a (ix2 0 0) + blockSum (i 0).val xi xf sqf (ix2 0 0) = _
  rw [blockSum_apply _ h8]

/-- Grid point i = t, fed band t of the matrix x, the whole of x and the row q, adds band t's partial sum. -/
theorem k5_pay4_band (i : grid5.Coords) (t : Fin 8) (ht : (i 0).val = t.val) (xi : Vec Ideal S256x64 .f32)
    (xf : Vec Ideal S2048x64 .f32) (sqf : Vec Ideal S1x2048 .f32) (a : Vec Ideal S1x1 .f32)
    (x : Fin 2048 → Fin 64 → EReal) (q : Fin 2048 → EReal)
    (hxi : ∀ (r : Fin 256) (k : Fin 64), xi (ix2 r k) = x (bandRow t r) k)
    (hxf : ∀ (c : Fin 2048) (k : Fin 64), xf (ix2 c k) = x c k)
    (hq : ∀ c : Fin 2048, sqf (ix2 0 c) = q c) :
    k5_pay4 (F := Ideal) i xi xf sqf a (ix2 0 0) = a (ix2 0 0) + band x q t := by
  rw [k5_pay4_eq, ht]
  show a (ix2 0 0) + blockSum t.val xi xf sqf (ix2 0 0) = _
  rw [blockSum_band t xi xf sqf x q hxi hxf hq]

/-! ## Kernel 6's four stored values -/

/-- Grid point i's new running total is the old one plus block (i 0)'s partial sum (the three identity casts of the
    loaded operands dropped). -/
theorem k6_pay4_eq (i : grid6.Coords) (xi : Vec Ideal S256x64 .f32) (xf : Vec Ideal S2048x64 .f32)
    (sqf : Vec Ideal S1x2048 .f32) (a : Vec Ideal S1x1 .f32) :
    k6_pay4 (F := Ideal) i xi xf sqf a = addf a (blockSum (i 0).val xi xf sqf) := by
  have e : k6_pay4 (F := Ideal) i xi xf sqf a
      = addf a (blockSum (i 0).val (shapeCast S256x64 xi shapeCasts_S256x64_S256x64)
          (shapeCast S2048x64 xf shapeCasts_S2048x64_S2048x64) (shapeCast S1x2048 sqf shapeCasts_S1x2048_S1x2048)) := rfl
  rw [e, shapeCast_self, shapeCast_self, shapeCast_self]

/-- The value the first grid point starts the running total at: zero. -/
theorem k6_pay3_apply : k6_pay3 (F := Ideal) (ix2 0 0) = 0 := by
  have e : k6_pay3 (F := Ideal)
      = shapeCast S1x1 (broadcast S1x1 (Scalar.ofBits (F := Ideal) .f32 0x00000000#32)) shapeCasts_S1x1_S1x1 := rfl
  rw [e, shapeCast_self]
  exact Ideal.ofBits_zero_f32

/-- The value stored back to the running total is the new total itself. -/
theorem k6_pay1_apply (v : FVec Ideal S1x1 .f32) : k6_pay1 v (ix2 0 0) = v (ix2 0 0) := by
  have e : k6_pay1 v = shapeCast S1x1 v shapeCasts_S1x1_S1x1 := rfl
  rw [e, shapeCast_self]

/-- The value the last grid point stores to the output: the logarithm of the total over the number of pairs. -/
theorem k6_pay2_apply (v : Vec Ideal S1x1 .f32) :
    k6_pay2 (F := Ideal) v (ix2 0 0) = Ideal.log (Ideal.div (v (ix2 0 0)) nPairs) := rfl

/-- Grid point i's new running total at its one entry, spelt out. -/
theorem k6_pay4_apply (i : grid6.Coords) (xi : Vec Ideal S256x64 .f32) (xf : Vec Ideal S2048x64 .f32)
    (sqf : Vec Ideal S1x2048 .f32) (a : Vec Ideal S1x1 .f32) :
    k6_pay4 (F := Ideal) i xi xf sqf a (ix2 0 0)
      = a (ix2 0 0) + ∑ r : Fin 256, ∑ c : Fin 2048,
          (if 256 * (i 0).val + r.val < c.val then
            Ideal.exp (negTwo * max ((∑ k : Fin 64, xi (ix2 r k) * xi (ix2 r k)) + sqf (ix2 0 c)
              - two * ∑ k : Fin 64, xi (ix2 r k) * xf (ix2 c k)) 0)
          else 0) := by
  have h8 : (i 0).val < 8 := (i 0).isLt
  rw [k6_pay4_eq]
  show a (ix2 0 0) + blockSum (i 0).val xi xf sqf (ix2 0 0) = _
  rw [blockSum_apply _ h8]

/-- Grid point i = t, fed band t of the matrix x, the whole of x and the row q, adds band t's partial sum. -/
theorem k6_pay4_band (i : grid6.Coords) (t : Fin 8) (ht : (i 0).val = t.val) (xi : Vec Ideal S256x64 .f32)
    (xf : Vec Ideal S2048x64 .f32) (sqf : Vec Ideal S1x2048 .f32) (a : Vec Ideal S1x1 .f32)
    (x : Fin 2048 → Fin 64 → EReal) (q : Fin 2048 → EReal)
    (hxi : ∀ (r : Fin 256) (k : Fin 64), xi (ix2 r k) = x (bandRow t r) k)
    (hxf : ∀ (c : Fin 2048) (k : Fin 64), xf (ix2 c k) = x c k)
    (hq : ∀ c : Fin 2048, sqf (ix2 0 c) = q c) :
    k6_pay4 (F := Ideal) i xi xf sqf a (ix2 0 0) = a (ix2 0 0) + band x q t := by
  rw [k6_pay4_eq, ht]
  show a (ix2 0 0) + blockSum t.val xi xf sqf (ix2 0 0) = _
  rw [blockSum_band t xi xf sqf x q hxi hxf hq]

/-! ## Kernel 7's four stored values -/

/-- Grid point i's new running total is the old one plus block (i 0)'s partial sum (the three identity casts of the
    loaded operands dropped). -/
theorem k7_pay4_eq (i : grid7.Coords) (xi : Vec Ideal S256x64 .f32) (xf : Vec Ideal S2048x64 .f32)
    (sqf : Vec Ideal S1x2048 .f32) (a : Vec Ideal S1x1 .f32) :
    k7_pay4 (F := Ideal) i xi xf sqf a = addf a (blockSum (i 0).val xi xf sqf) := by
  have e : k7_pay4 (F := Ideal) i xi xf sqf a
      = addf a (blockSum (i 0).val (shapeCast S256x64 xi shapeCasts_S256x64_S256x64)
          (shapeCast S2048x64 xf shapeCasts_S2048x64_S2048x64) (shapeCast S1x2048 sqf shapeCasts_S1x2048_S1x2048)) := rfl
  rw [e, shapeCast_self, shapeCast_self, shapeCast_self]

/-- The value the first grid point starts the running total at: zero. -/
theorem k7_pay3_apply : k7_pay3 (F := Ideal) (ix2 0 0) = 0 := by
  have e : k7_pay3 (F := Ideal)
      = shapeCast S1x1 (broadcast S1x1 (Scalar.ofBits (F := Ideal) .f32 0x00000000#32)) shapeCasts_S1x1_S1x1 := rfl
  rw [e, shapeCast_self]
  exact Ideal.ofBits_zero_f32

/-- The value stored back to the running total is the new total itself. -/
theorem k7_pay1_apply (v : FVec Ideal S1x1 .f32) : k7_pay1 v (ix2 0 0) = v (ix2 0 0) := by
  have e : k7_pay1 v = shapeCast S1x1 v shapeCasts_S1x1_S1x1 := rfl
  rw [e, shapeCast_self]

/-- The value the last grid point stores to the output: the logarithm of the total over the number of pairs. -/
theorem k7_pay2_apply (v : Vec Ideal S1x1 .f32) :
    k7_pay2 (F := Ideal) v (ix2 0 0) = Ideal.log (Ideal.div (v (ix2 0 0)) nPairs) := rfl

/-- Grid point i's new running total at its one entry, spelt out. -/
theorem k7_pay4_apply (i : grid7.Coords) (xi : Vec Ideal S256x64 .f32) (xf : Vec Ideal S2048x64 .f32)
    (sqf : Vec Ideal S1x2048 .f32) (a : Vec Ideal S1x1 .f32) :
    k7_pay4 (F := Ideal) i xi xf sqf a (ix2 0 0)
      = a (ix2 0 0) + ∑ r : Fin 256, ∑ c : Fin 2048,
          (if 256 * (i 0).val + r.val < c.val then
            Ideal.exp (negTwo * max ((∑ k : Fin 64, xi (ix2 r k) * xi (ix2 r k)) + sqf (ix2 0 c)
              - two * ∑ k : Fin 64, xi (ix2 r k) * xf (ix2 c k)) 0)
          else 0) := by
  have h8 : (i 0).val < 8 := (i 0).isLt
  rw [k7_pay4_eq]
  show a (ix2 0 0) + blockSum (i 0).val xi xf sqf (ix2 0 0) = _
  rw [blockSum_apply _ h8]

/-- Grid point i = t, fed band t of the matrix x, the whole of x and the row q, adds band t's partial sum. -/
theorem k7_pay4_band (i : grid7.Coords) (t : Fin 8) (ht : (i 0).val = t.val) (xi : Vec Ideal S256x64 .f32)
    (xf : Vec Ideal S2048x64 .f32) (sqf : Vec Ideal S1x2048 .f32) (a : Vec Ideal S1x1 .f32)
    (x : Fin 2048 → Fin 64 → EReal) (q : Fin 2048 → EReal)
    (hxi : ∀ (r : Fin 256) (k : Fin 64), xi (ix2 r k) = x (bandRow t r) k)
    (hxf : ∀ (c : Fin 2048) (k : Fin 64), xf (ix2 c k) = x c k)
    (hq : ∀ c : Fin 2048, sqf (ix2 0 c) = q c) :
    k7_pay4 (F := Ideal) i xi xf sqf a (ix2 0 0) = a (ix2 0 0) + band x q t := by
  rw [k7_pay4_eq, ht]
  show a (ix2 0 0) + blockSum t.val xi xf sqf (ix2 0 0) = _
  rw [blockSum_band t xi xf sqf x q hxi hxf hq]

end Cert.ULoss

end
-- ==== Proof.UL.Accum.lean ====
/-
  The running total is determined by its two rules.

  Any sequence that starts at zero and whose step t + 1 adds band t's partial sum to step t is, for its first eight
  steps, the running total of the specification; so its eighth value is the sum of all pairs' terms, and the logarithm
  of that value over the number of pairs is the loss.
-/
import proofs.«108982_j38147899523261_2_alg».proof.Proof.UL.Spec

noncomputable section

open scoped BigOperators

namespace Cert.ULoss

open Idealize.ShloMosaic

variable (x : Fin 2048 → Fin 64 → EReal) (q : Fin 2048 → EReal)

/-- A sequence obeying the running total's two rules agrees with it up to the eighth step. -/
theorem eq_accum_of_rules (A : Nat → EReal) (h0 : A 0 = 0)
    (hs : ∀ t : Fin 8, A (t.val + 1) = A t.val + band x q t) : ∀ n : Nat, n ≤ 8 → A n = accum x q n := by
  intro n
  induction n with
  | zero => intro _; rw [h0, accum_zero]
  | succ n ih =>
    intro hn
    have hlt : n < 8 := hn
    have e1 := hs ⟨n, hlt⟩
    have e2 := accum_succ x q ⟨n, hlt⟩
    show A (n + 1) = accum x q (n + 1)
    rw [show A (n + 1) = A n + band x q ⟨n, hlt⟩ from e1,
      show accum x q (n + 1) = accum x q n + band x q ⟨n, hlt⟩ from e2, ih (Nat.le_of_lt hlt)]

/-- Its eighth value is the sum of all pairs' terms. -/
theorem eighth_eq_total (A : Nat → EReal) (h0 : A 0 = 0)
    (hs : ∀ t : Fin 8, A (t.val + 1) = A t.val + band x q t) : A 8 = total x q :=
  (eq_accum_of_rules x q A h0 hs 8 (Nat.le_refl 8)).trans (accum_eight x q)

/-- The logarithm of its eighth value over the number of pairs is the loss. -/
theorem log_eighth_eq_loss (A : Nat → EReal) (h0 : A 0 = 0)
    (hs : ∀ t : Fin 8, A (t.val + 1) = A t.val + band x q t) :
    Ideal.log (Ideal.div (A 8) nPairs) = loss x q := by
  rw [eighth_eq_total x q A h0 hs]
  rfl

end Cert.ULoss

end
-- ==== Proof.UL.KernelLoss.lean ====
/-
  What a pairwise-distance kernel leaves in its output, from the rules its running total obeys.

  Over its eight grid points the kernel keeps one running total: reset at the first point, then at each point
  replaced by itself plus that point's block sum, and at the last point turned into the logarithm of the total over
  the number of pairs. When the point-t operands are band t of a matrix x, the whole of x and a row q, the block sums
  are the bands' partial sums of the specification, so the running total is the specification's, and the output is
  the loss of x and q.
-/
import proofs.«108982_j38147899523261_2_alg».proof.Proof.UL.Payload
import proofs.«108982_j38147899523261_2_alg».proof.Proof.UL.Accum

noncomputable section

open scoped BigOperators

namespace Cert.ULoss

open Idealize.ShloMosaic Idealize.ShloMosaic.ValueIdx Cert.KernelIdeal Cert.KernelIdeal.Gen

/-! ## Kernel 4 -/

/-- Grid point t of kernel 4's eight has first coordinate t. -/
theorem grid4_coords_val : ∀ t : Fin 8, ((grid4.coords t) 0).val = t.val := by decide +kernel

/-- The value kernel 4 stores at its last grid point, from the two rules of its running total: if the total starts at
    the reset value, each grid point t replaces it by the stored value of its sum payload over that point's three
    operands, and those operands are band t of the matrix x, the whole of x, and the row q, then the stored value
    is the loss of x and q. -/
theorem k4_loss (A : ℕ → Vec Ideal S1x1 .f32) (coords : Fin 8 → grid4.Coords)
    (b0 : Fin 8 → Vec Ideal S256x64 .f32) (b1 : Fin 8 → Vec Ideal S2048x64 .f32) (b2 : Fin 8 → Vec Ideal S1x2048 .f32)
    (hc : ∀ t : Fin 8, ((coords t) 0).val = t.val)
    (h0 : A 0 = k4_pay3 (F := Ideal))
    (hs : ∀ t : Fin 8, A (t.val + 1) = k4_pay1 (k4_pay4 (coords t) (b0 t) (b1 t) (b2 t) (A t.val)))
    (x : Fin 2048 → Fin 64 → EReal) (q : Fin 2048 → EReal)
    (hb0 : ∀ (t : Fin 8) (r : Fin 256) (k : Fin 64), b0 t (ix2 r k) = x (bandRow t r) k)
    (hb1 : ∀ (t : Fin 8) (c : Fin 2048) (k : Fin 64), b1 t (ix2 c k) = x c k)
    (hb2 : ∀ (t : Fin 8) (c : Fin 2048), b2 t (ix2 0 c) = q c) :
    k4_pay2 (F := Ideal) (A 8) (ix2 0 0) = loss x q := by
  rw [k4_pay2_apply]
  refine log_eighth_eq_loss x q (fun n => A n (ix2 0 0)) ?_ ?_
  · show A 0 (ix2 0 0) = 0
    rw [h0]
    exact k4_pay3_apply
  · intro t
    show A (t.val + 1) (ix2 0 0) = A t.val (ix2 0 0) + band x q t
    rw [hs t, k4_pay1_apply]
    exact k4_pay4_band (coords t) t (hc t) (b0 t) (b1 t) (b2 t) (A t.val) x q (hb0 t) (hb1 t) (hb2 t)

/-! ## Kernel 5 -/

/-- Grid point t of kernel 5's eight has first coordinate t. -/
theorem grid5_coords_val : ∀ t : Fin 8, ((grid5.coords t) 0).val = t.val := by decide +kernel

/-- The value kernel 5 stores at its last grid point, from the two rules of its running total: if the total starts at
    the reset value, each grid point t replaces it by the stored value of its sum payload over that point's three
    operands, and those operands are band t of the matrix x, the whole of x, and the row q, then the stored value
    is the loss of x and q. -/
theorem k5_loss (A : ℕ → Vec Ideal S1x1 .f32) (coords : Fin 8 → grid5.Coords)
    (b0 : Fin 8 → Vec Ideal S256x64 .f32) (b1 : Fin 8 → Vec Ideal S2048x64 .f32) (b2 : Fin 8 → Vec Ideal S1x2048 .f32)
    (hc : ∀ t : Fin 8, ((coords t) 0).val = t.val)
    (h0 : A 0 = k5_pay3 (F := Ideal))
    (hs : ∀ t : Fin 8, A (t.val + 1) = k5_pay1 (k5_pay4 (coords t) (b0 t) (b1 t) (b2 t) (A t.val)))
    (x : Fin 2048 → Fin 64 → EReal) (q : Fin 2048 → EReal)
    (hb0 : ∀ (t : Fin 8) (r : Fin 256) (k : Fin 64), b0 t (ix2 r k) = x (bandRow t r) k)
    (hb1 : ∀ (t : Fin 8) (c : Fin 2048) (k : Fin 64), b1 t (ix2 c k) = x c k)
    (hb2 : ∀ (t : Fin 8) (c : Fin 2048), b2 t (ix2 0 c) = q c) :
    k5_pay2 (F := Ideal) (A 8) (ix2 0 0) = loss x q := by
  rw [k5_pay2_apply]
  refine log_eighth_eq_loss x q (fun n => A n (ix2 0 0)) ?_ ?_
  · show A 0 (ix2 0 0) = 0
    rw [h0]
    exact k5_pay3_apply
  · intro t
    show A (t.val + 1) (ix2 0 0) = A t.val (ix2 0 0) + band x q t
    rw [hs t, k5_pay1_apply]
    exact k5_pay4_band (coords t) t (hc t) (b0 t) (b1 t) (b2 t) (A t.val) x q (hb0 t) (hb1 t) (hb2 t)

/-! ## Kernel 6 -/

/-- Grid point t of kernel 6's eight has first coordinate t. -/
theorem grid6_coords_val : ∀ t : Fin 8, ((grid6.coords t) 0).val = t.val := by decide +kernel

/-- The value kernel 6 stores at its last grid point, from the two rules of its running total: if the total starts at
    the reset value, each grid point t replaces it by the stored value of its sum payload over that point's three
    operands, and those operands are band t of the matrix x, the whole of x, and the row q, then the stored value
    is the loss of x and q. -/
theorem k6_loss (A : ℕ → Vec Ideal S1x1 .f32) (coords : Fin 8 → grid6.Coords)
    (b0 : Fin 8 → Vec Ideal S256x64 .f32) (b1 : Fin 8 → Vec Ideal S2048x64 .f32) (b2 : Fin 8 → Vec Ideal S1x2048 .f32)
    (hc : ∀ t : Fin 8, ((coords t) 0).val = t.val)
    (h0 : A 0 = k6_pay3 (F := Ideal))
    (hs : ∀ t : Fin 8, A (t.val + 1) = k6_pay1 (k6_pay4 (coords t) (b0 t) (b1 t) (b2 t) (A t.val)))
    (x : Fin 2048 → Fin 64 → EReal) (q : Fin 2048 → EReal)
    (hb0 : ∀ (t : Fin 8) (r : Fin 256) (k : Fin 64), b0 t (ix2 r k) = x (bandRow t r) k)
    (hb1 : ∀ (t : Fin 8) (c : Fin 2048) (k : Fin 64), b1 t (ix2 c k) = x c k)
    (hb2 : ∀ (t : Fin 8) (c : Fin 2048), b2 t (ix2 0 c) = q c) :
    k6_pay2 (F := Ideal) (A 8) (ix2 0 0) = loss x q := by
  rw [k6_pay2_apply]
  refine log_eighth_eq_loss x q (fun n => A n (ix2 0 0)) ?_ ?_
  · show A 0 (ix2 0 0) = 0
    rw [h0]
    exact k6_pay3_apply
  · intro t
    show A (t.val + 1) (ix2 0 0) = A t.val (ix2 0 0) + band x q t
    rw [hs t, k6_pay1_apply]
    exact k6_pay4_band (coords t) t (hc t) (b0 t) (b1 t) (b2 t) (A t.val) x q (hb0 t) (hb1 t) (hb2 t)

/-! ## Kernel 7 -/

/-- Grid point t of kernel 7's eight has first coordinate t. -/
theorem grid7_coords_val : ∀ t : Fin 8, ((grid7.coords t) 0).val = t.val := by decide +kernel

/-- The value kernel 7 stores at its last grid point, from the two rules of its running total: if the total starts at
    the reset value, each grid point t replaces it by the stored value of its sum payload over that point's three
    operands, and those operands are band t of the matrix x, the whole of x, and the row q, then the stored value
    is the loss of x and q. -/
theorem k7_loss (A : ℕ → Vec Ideal S1x1 .f32) (coords : Fin 8 → grid7.Coords)
    (b0 : Fin 8 → Vec Ideal S256x64 .f32) (b1 : Fin 8 → Vec Ideal S2048x64 .f32) (b2 : Fin 8 → Vec Ideal S1x2048 .f32)
    (hc : ∀ t : Fin 8, ((coords t) 0).val = t.val)
    (h0 : A 0 = k7_pay3 (F := Ideal))
    (hs : ∀ t : Fin 8, A (t.val + 1) = k7_pay1 (k7_pay4 (coords t) (b0 t) (b1 t) (b2 t) (A t.val)))
    (x : Fin 2048 → Fin 64 → EReal) (q : Fin 2048 → EReal)
    (hb0 : ∀ (t : Fin 8) (r : Fin 256) (k : Fin 64), b0 t (ix2 r k) = x (bandRow t r) k)
    (hb1 : ∀ (t : Fin 8) (c : Fin 2048) (k : Fin 64), b1 t (ix2 c k) = x c k)
    (hb2 : ∀ (t : Fin 8) (c : Fin 2048), b2 t (ix2 0 c) = q c) :
    k7_pay2 (F := Ideal) (A 8) (ix2 0 0) = loss x q := by
  rw [k7_pay2_apply]
  refine log_eighth_eq_loss x q (fun n => A n (ix2 0 0)) ?_ ?_
  · show A 0 (ix2 0 0) = 0
    rw [h0]
    exact k7_pay3_apply
  · intro t
    show A (t.val + 1) (ix2 0 0) = A t.val (ix2 0 0) + band x q t
    rw [hs t, k7_pay1_apply]
    exact k7_pay4_band (coords t) t (hc t) (b0 t) (b1 t) (b2 t) (A t.val) x q (hb0 t) (hb1 t) (hb2 t)

end Cert.ULoss

end
-- ==== Proof.UL.Region.lean ====
/-
  The pairwise-distance kernels as pipelines: what their windows hand them, and so what they leave in their output.

  Each of the four kernels runs over eight grid points. Its first window hands it, at point t, rows 256 t to
  256 t + 255 of the normalised matrix; its second window the whole matrix and its third the whole row of squared
  norms, at every point. With these reads the rules of the running total give the kernel's output as the loss of that
  matrix and that row.
-/
import proofs.«108982_j38147899523261_2_alg».proof.Proof.Gen.KernelIdeal.Launch
import proofs.«108982_j38147899523261_2_alg».proof.Proof.UL.KernelLoss
import Idealize.ShloMosaic.Lib.Pipeline.Value

noncomputable section

namespace Cert.ULoss

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-! ## Kernel 4: its input windows over the arrays main_v158 and main_v161 -/

/-- The block index maps of kernel 4's three input windows, over the eight grid points: window 0 moves one block of
    rows per point, windows 1 and 2 stay at their one block. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- Window 0's block at point t is band t of the matrix: its row r is row 256 t + r. -/
theorem blk4_0_read (c : Dev nD) (t : Fin cfg4.N) (t' : Fin 8) (ht : t.val = t'.val) (r : Fin 256) (k : Fin 64) :
    ((cfg4.win 0).blk t).view.read (Elt Ideal) (V c (Pipeline.arrRef spec4 0)) (ix2 r k)
      = V c main_v158 (ix2 (bandRow t' r) k) := by
  obtain ⟨e0, e1, -, -, -, -⟩ := idx4 t
  show V c main_v158 (((cfg4.win 0).blk t).view.emb (ix2 r k)) = _
  refine congrArg (V c main_v158) (funext fun a => Fin.ext ?_)
  match a with
  | ⟨0, _⟩ =>
    show win4_0.index t (0 : Fin 2) * 256 + 1 * r.val = 256 * t'.val + r.val
    omega
  | ⟨1, _⟩ =>
    show win4_0.index t (1 : Fin 2) * 64 + 1 * k.val = k.val
    omega

/-- Window 1's block at every point is the whole matrix. -/
theorem blk4_1_read (c : Dev nD) (t : Fin cfg4.N) (r : Fin 2048) (k : Fin 64) :
    ((cfg4.win 1).blk t).view.read (Elt Ideal) (V c (Pipeline.arrRef spec4 1)) (ix2 r k)
      = V c main_v158 (ix2 r k) := by
  obtain ⟨-, -, e2, e3, -, -⟩ := idx4 t
  show V c main_v158 (((cfg4.win 1).blk t).view.emb (ix2 r k)) = _
  refine congrArg (V c main_v158) (funext fun a => Fin.ext ?_)
  match a with
  | ⟨0, _⟩ =>
    show win4_1.index t (0 : Fin 2) * 2048 + 1 * r.val = r.val
    omega
  | ⟨1, _⟩ =>
    show win4_1.index t (1 : Fin 2) * 64 + 1 * k.val = k.val
    omega

/-- Window 2's block at every point is the whole row of squared norms. -/
theorem blk4_2_read (c : Dev nD) (t : Fin cfg4.N) (j : Fin 2048) :
    ((cfg4.win 2).blk t).view.read (Elt Ideal) (V c (Pipeline.arrRef spec4 2)) (ix2 (0 : Fin 1) j)
      = V c main_v161 (ix2 (0 : Fin 1) j) := by
  obtain ⟨-, -, -, -, e4, e5⟩ := idx4 t
  show V c main_v161 (((cfg4.win 2).blk t).view.emb (ix2 (0 : Fin 1) j)) = _
  refine congrArg (V c main_v161) (funext fun a => Fin.ext ?_)
  match a with
  | ⟨0, _⟩ =>
    show win4_2.index t (0 : Fin 2) * 1 + 1 * 0 = 0
    omega
  | ⟨1, _⟩ =>
    show win4_2.index t (1 : Fin 2) * 2048 + 1 * j.val = j.val
    omega

/-- Kernel 4's output from the rules of its running total over the windows' blocks: the loss of the matrix in
    main_v158 and the row in main_v161, as the region finds them. -/
theorem region4_loss (c : Dev nD) (A : ℕ → Vec Ideal S1x1 .f32)
    (h0 : A 0 = k4_pay3 (F := Ideal))
    (hs : ∀ t : Fin cfg4.N, A (t.val + 1) = k4_pay1 (k4_pay4 (grid4.coords t)
      (((cfg4.win 0).blk t).view.read (Elt Ideal) (V c (Pipeline.arrRef spec4 0)))
      (((cfg4.win 1).blk t).view.read (Elt Ideal) (V c (Pipeline.arrRef spec4 1)))
      (((cfg4.win 2).blk t).view.read (Elt Ideal) (V c (Pipeline.arrRef spec4 2))) (A t.val))) :
    k4_pay2 (F := Ideal) (A 8) (ix2 0 0)
      = loss (fun r k => V c main_v158 (ix2 r k)) (fun j => V c main_v161 (ix2 (0 : Fin 1) j)) :=
  k4_loss A (fun t => grid4.coords t)
    (fun t => ((cfg4.win 0).blk t).view.read (Elt Ideal) (V c (Pipeline.arrRef spec4 0)))
    (fun t => ((cfg4.win 1).blk t).view.read (Elt Ideal) (V c (Pipeline.arrRef spec4 1)))
    (fun t => ((cfg4.win 2).blk t).view.read (Elt Ideal) (V c (Pipeline.arrRef spec4 2)))
    grid4_coords_val h0 (fun t => hs t)
    (fun r k => V c main_v158 (ix2 r k)) (fun j => V c main_v161 (ix2 (0 : Fin 1) j))
    (fun t r k => blk4_0_read V c t t rfl r k) (fun t r k => blk4_1_read V c t r k)
    (fun t j => blk4_2_read V c t j)

/-! ## Kernel 5: its input windows over the arrays main_v168 and main_v171 -/

/-- The block index maps of kernel 5's three input windows, over the eight grid points: window 0 moves one block of
    rows per point, windows 1 and 2 stay at their one block. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- Window 0's block at point t is band t of the matrix: its row r is row 256 t + r. -/
theorem blk5_0_read (c : Dev nD) (t : Fin cfg5.N) (t' : Fin 8) (ht : t.val = t'.val) (r : Fin 256) (k : Fin 64) :
    ((cfg5.win 0).blk t).view.read (Elt Ideal) (V c (Pipeline.arrRef spec5 0)) (ix2 r k)
      = V c main_v168 (ix2 (bandRow t' r) k) := by
  obtain ⟨e0, e1, -, -, -, -⟩ := idx5 t
  show V c main_v168 (((cfg5.win 0).blk t).view.emb (ix2 r k)) = _
  refine congrArg (V c main_v168) (funext fun a => Fin.ext ?_)
  match a with
  | ⟨0, _⟩ =>
    show win5_0.index t (0 : Fin 2) * 256 + 1 * r.val = 256 * t'.val + r.val
    omega
  | ⟨1, _⟩ =>
    show win5_0.index t (1 : Fin 2) * 64 + 1 * k.val = k.val
    omega

/-- Window 1's block at every point is the whole matrix. -/
theorem blk5_1_read (c : Dev nD) (t : Fin cfg5.N) (r : Fin 2048) (k : Fin 64) :
    ((cfg5.win 1).blk t).view.read (Elt Ideal) (V c (Pipeline.arrRef spec5 1)) (ix2 r k)
      = V c main_v168 (ix2 r k) := by
  obtain ⟨-, -, e2, e3, -, -⟩ := idx5 t
  show V c main_v168 (((cfg5.win 1).blk t).view.emb (ix2 r k)) = _
  refine congrArg (V c main_v168) (funext fun a => Fin.ext ?_)
  match a with
  | ⟨0, _⟩ =>
    show win5_1.index t (0 : Fin 2) * 2048 + 1 * r.val = r.val
    omega
  | ⟨1, _⟩ =>
    show win5_1.index t (1 : Fin 2) * 64 + 1 * k.val = k.val
    omega

/-- Window 2's block at every point is the whole row of squared norms. -/
theorem blk5_2_read (c : Dev nD) (t : Fin cfg5.N) (j : Fin 2048) :
    ((cfg5.win 2).blk t).view.read (Elt Ideal) (V c (Pipeline.arrRef spec5 2)) (ix2 (0 : Fin 1) j)
      = V c main_v171 (ix2 (0 : Fin 1) j) := by
  obtain ⟨-, -, -, -, e4, e5⟩ := idx5 t
  show V c main_v171 (((cfg5.win 2).blk t).view.emb (ix2 (0 : Fin 1) j)) = _
  refine congrArg (V c main_v171) (funext fun a => Fin.ext ?_)
  match a with
  | ⟨0, _⟩ =>
    show win5_2.index t (0 : Fin 2) * 1 + 1 * 0 = 0
    omega
  | ⟨1, _⟩ =>
    show win5_2.index t (1 : Fin 2) * 2048 + 1 * j.val = j.val
    omega

/-- Kernel 5's output from the rules of its running total over the windows' blocks: the loss of the matrix in
    main_v168 and the row in main_v171, as the region finds them. -/
theorem region5_loss (c : Dev nD) (A : ℕ → Vec Ideal S1x1 .f32)
    (h0 : A 0 = k5_pay3 (F := Ideal))
    (hs : ∀ t : Fin cfg5.N, A (t.val + 1) = k5_pay1 (k5_pay4 (grid5.coords t)
      (((cfg5.win 0).blk t).view.read (Elt Ideal) (V c (Pipeline.arrRef spec5 0)))
      (((cfg5.win 1).blk t).view.read (Elt Ideal) (V c (Pipeline.arrRef spec5 1)))
      (((cfg5.win 2).blk t).view.read (Elt Ideal) (V c (Pipeline.arrRef spec5 2))) (A t.val))) :
    k5_pay2 (F := Ideal) (A 8) (ix2 0 0)
      = loss (fun r k => V c main_v168 (ix2 r k)) (fun j => V c main_v171 (ix2 (0 : Fin 1) j)) :=
  k5_loss A (fun t => grid5.coords t)
    (fun t => ((cfg5.win 0).blk t).view.read (Elt Ideal) (V c (Pipeline.arrRef spec5 0)))
    (fun t => ((cfg5.win 1).blk t).view.read (Elt Ideal) (V c (Pipeline.arrRef spec5 1)))
    (fun t => ((cfg5.win 2).blk t).view.read (Elt Ideal) (V c (Pipeline.arrRef spec5 2)))
    grid5_coords_val h0 (fun t => hs t)
    (fun r k => V c main_v168 (ix2 r k)) (fun j => V c main_v171 (ix2 (0 : Fin 1) j))
    (fun t r k => blk5_0_read V c t t rfl r k) (fun t r k => blk5_1_read V c t r k)
    (fun t j => blk5_2_read V c t j)

/-! ## Kernel 6: its input windows over the arrays main_v212 and main_v215 -/

/-- The block index maps of kernel 6's three input windows, over the eight grid points: window 0 moves one block of
    rows per point, windows 1 and 2 stay at their one block. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

/-- Window 0's block at point t is band t of the matrix: its row r is row 256 t + r. -/
theorem blk6_0_read (c : Dev nD) (t : Fin cfg6.N) (t' : Fin 8) (ht : t.val = t'.val) (r : Fin 256) (k : Fin 64) :
    ((cfg6.win 0).blk t).view.read (Elt Ideal) (V c (Pipeline.arrRef spec6 0)) (ix2 r k)
      = V c main_v212 (ix2 (bandRow t' r) k) := by
  obtain ⟨e0, e1, -, -, -, -⟩ := idx6 t
  show V c main_v212 (((cfg6.win 0).blk t).view.emb (ix2 r k)) = _
  refine congrArg (V c main_v212) (funext fun a => Fin.ext ?_)
  match a with
  | ⟨0, _⟩ =>
    show win6_0.index t (0 : Fin 2) * 256 + 1 * r.val = 256 * t'.val + r.val
    omega
  | ⟨1, _⟩ =>
    show win6_0.index t (1 : Fin 2) * 64 + 1 * k.val = k.val
    omega

/-- Window 1's block at every point is the whole matrix. -/
theorem blk6_1_read (c : Dev nD) (t : Fin cfg6.N) (r : Fin 2048) (k : Fin 64) :
    ((cfg6.win 1).blk t).view.read (Elt Ideal) (V c (Pipeline.arrRef spec6 1)) (ix2 r k)
      = V c main_v212 (ix2 r k) := by
  obtain ⟨-, -, e2, e3, -, -⟩ := idx6 t
  show V c main_v212 (((cfg6.win 1).blk t).view.emb (ix2 r k)) = _
  refine congrArg (V c main_v212) (funext fun a => Fin.ext ?_)
  match a with
  | ⟨0, _⟩ =>
    show win6_1.index t (0 : Fin 2) * 2048 + 1 * r.val = r.val
    omega
  | ⟨1, _⟩ =>
    show win6_1.index t (1 : Fin 2) * 64 + 1 * k.val = k.val
    omega

/-- Window 2's block at every point is the whole row of squared norms. -/
theorem blk6_2_read (c : Dev nD) (t : Fin cfg6.N) (j : Fin 2048) :
    ((cfg6.win 2).blk t).view.read (Elt Ideal) (V c (Pipeline.arrRef spec6 2)) (ix2 (0 : Fin 1) j)
      = V c main_v215 (ix2 (0 : Fin 1) j) := by
  obtain ⟨-, -, -, -, e4, e5⟩ := idx6 t
  show V c main_v215 (((cfg6.win 2).blk t).view.emb (ix2 (0 : Fin 1) j)) = _
  refine congrArg (V c main_v215) (funext fun a => Fin.ext ?_)
  match a with
  | ⟨0, _⟩ =>
    show win6_2.index t (0 : Fin 2) * 1 + 1 * 0 = 0
    omega
  | ⟨1, _⟩ =>
    show win6_2.index t (1 : Fin 2) * 2048 + 1 * j.val = j.val
    omega

/-- Kernel 6's output from the rules of its running total over the windows' blocks: the loss of the matrix in
    main_v212 and the row in main_v215, as the region finds them. -/
theorem region6_loss (c : Dev nD) (A : ℕ → Vec Ideal S1x1 .f32)
    (h0 : A 0 = k6_pay3 (F := Ideal))
    (hs : ∀ t : Fin cfg6.N, A (t.val + 1) = k6_pay1 (k6_pay4 (grid6.coords t)
      (((cfg6.win 0).blk t).view.read (Elt Ideal) (V c (Pipeline.arrRef spec6 0)))
      (((cfg6.win 1).blk t).view.read (Elt Ideal) (V c (Pipeline.arrRef spec6 1)))
      (((cfg6.win 2).blk t).view.read (Elt Ideal) (V c (Pipeline.arrRef spec6 2))) (A t.val))) :
    k6_pay2 (F := Ideal) (A 8) (ix2 0 0)
      = loss (fun r k => V c main_v212 (ix2 r k)) (fun j => V c main_v215 (ix2 (0 : Fin 1) j)) :=
  k6_loss A (fun t => grid6.coords t)
    (fun t => ((cfg6.win 0).blk t).view.read (Elt Ideal) (V c (Pipeline.arrRef spec6 0)))
    (fun t => ((cfg6.win 1).blk t).view.read (Elt Ideal) (V c (Pipeline.arrRef spec6 1)))
    (fun t => ((cfg6.win 2).blk t).view.read (Elt Ideal) (V c (Pipeline.arrRef spec6 2)))
    grid6_coords_val h0 (fun t => hs t)
    (fun r k => V c main_v212 (ix2 r k)) (fun j => V c main_v215 (ix2 (0 : Fin 1) j))
    (fun t r k => blk6_0_read V c t t rfl r k) (fun t r k => blk6_1_read V c t r k)
    (fun t j => blk6_2_read V c t j)

/-! ## Kernel 7: its input windows over the arrays main_v222 and main_v225 -/

/-- The block index maps of kernel 7's three input windows, over the eight grid points: window 0 moves one block of
    rows per point, windows 1 and 2 stay at their one block. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0 :=
  (by decide +kernel : ∀ t : Fin grid7.N, _)

/-- Window 0's block at point t is band t of the matrix: its row r is row 256 t + r. -/
theorem blk7_0_read (c : Dev nD) (t : Fin cfg7.N) (t' : Fin 8) (ht : t.val = t'.val) (r : Fin 256) (k : Fin 64) :
    ((cfg7.win 0).blk t).view.read (Elt Ideal) (V c (Pipeline.arrRef spec7 0)) (ix2 r k)
      = V c main_v222 (ix2 (bandRow t' r) k) := by
  obtain ⟨e0, e1, -, -, -, -⟩ := idx7 t
  show V c main_v222 (((cfg7.win 0).blk t).view.emb (ix2 r k)) = _
  refine congrArg (V c main_v222) (funext fun a => Fin.ext ?_)
  match a with
  | ⟨0, _⟩ =>
    show win7_0.index t (0 : Fin 2) * 256 + 1 * r.val = 256 * t'.val + r.val
    omega
  | ⟨1, _⟩ =>
    show win7_0.index t (1 : Fin 2) * 64 + 1 * k.val = k.val
    omega

/-- Window 1's block at every point is the whole matrix. -/
theorem blk7_1_read (c : Dev nD) (t : Fin cfg7.N) (r : Fin 2048) (k : Fin 64) :
    ((cfg7.win 1).blk t).view.read (Elt Ideal) (V c (Pipeline.arrRef spec7 1)) (ix2 r k)
      = V c main_v222 (ix2 r k) := by
  obtain ⟨-, -, e2, e3, -, -⟩ := idx7 t
  show V c main_v222 (((cfg7.win 1).blk t).view.emb (ix2 r k)) = _
  refine congrArg (V c main_v222) (funext fun a => Fin.ext ?_)
  match a with
  | ⟨0, _⟩ =>
    show win7_1.index t (0 : Fin 2) * 2048 + 1 * r.val = r.val
    omega
  | ⟨1, _⟩ =>
    show win7_1.index t (1 : Fin 2) * 64 + 1 * k.val = k.val
    omega

/-- Window 2's block at every point is the whole row of squared norms. -/
theorem blk7_2_read (c : Dev nD) (t : Fin cfg7.N) (j : Fin 2048) :
    ((cfg7.win 2).blk t).view.read (Elt Ideal) (V c (Pipeline.arrRef spec7 2)) (ix2 (0 : Fin 1) j)
      = V c main_v225 (ix2 (0 : Fin 1) j) := by
  obtain ⟨-, -, -, -, e4, e5⟩ := idx7 t
  show V c main_v225 (((cfg7.win 2).blk t).view.emb (ix2 (0 : Fin 1) j)) = _
  refine congrArg (V c main_v225) (funext fun a => Fin.ext ?_)
  match a with
  | ⟨0, _⟩ =>
    show win7_2.index t (0 : Fin 2) * 1 + 1 * 0 = 0
    omega
  | ⟨1, _⟩ =>
    show win7_2.index t (1 : Fin 2) * 2048 + 1 * j.val = j.val
    omega

/-- Kernel 7's output from the rules of its running total over the windows' blocks: the loss of the matrix in
    main_v222 and the row in main_v225, as the region finds them. -/
theorem region7_loss (c : Dev nD) (A : ℕ → Vec Ideal S1x1 .f32)
    (h0 : A 0 = k7_pay3 (F := Ideal))
    (hs : ∀ t : Fin cfg7.N, A (t.val + 1) = k7_pay1 (k7_pay4 (grid7.coords t)
      (((cfg7.win 0).blk t).view.read (Elt Ideal) (V c (Pipeline.arrRef spec7 0)))
      (((cfg7.win 1).blk t).view.read (Elt Ideal) (V c (Pipeline.arrRef spec7 1)))
      (((cfg7.win 2).blk t).view.read (Elt Ideal) (V c (Pipeline.arrRef spec7 2))) (A t.val))) :
    k7_pay2 (F := Ideal) (A 8) (ix2 0 0)
      = loss (fun r k => V c main_v222 (ix2 r k)) (fun j => V c main_v225 (ix2 (0 : Fin 1) j)) :=
  k7_loss A (fun t => grid7.coords t)
    (fun t => ((cfg7.win 0).blk t).view.read (Elt Ideal) (V c (Pipeline.arrRef spec7 0)))
    (fun t => ((cfg7.win 1).blk t).view.read (Elt Ideal) (V c (Pipeline.arrRef spec7 1)))
    (fun t => ((cfg7.win 2).blk t).view.read (Elt Ideal) (V c (Pipeline.arrRef spec7 2)))
    grid7_coords_val h0 (fun t => hs t)
    (fun r k => V c main_v222 (ix2 r k)) (fun j => V c main_v225 (ix2 (0 : Fin 1) j))
    (fun t r k => blk7_0_read V c t t rfl r k) (fun t r k => blk7_1_read V c t r k)
    (fun t j => blk7_2_read V c t j)

end Cert.ULoss

end
-- ==== Proof.KV.Regions.lean ====
import proofs.«108982_j38147899523261_2_alg».proof.Proof.KV.SpecOf
import proofs.«108982_j38147899523261_2_alg».proof.Proof.KI.Segs
import proofs.«108982_j38147899523261_2_alg».proof.Proof.Upd.Final0
import proofs.«108982_j38147899523261_2_alg».proof.Proof.Upd.Final1
import proofs.«108982_j38147899523261_2_alg».proof.Proof.Upd.Final2
import proofs.«108982_j38147899523261_2_alg».proof.Proof.Upd.Final3
import proofs.«108982_j38147899523261_2_alg».proof.Proof.UL.Region

/-! The eight kernels of the program meet their specification.

What each pallas_call leaves in its result arrays is read off its run: a layer-update kernel's arrays lane by lane,
a uniformity kernel's `[1, 1]` array through the one block its last grid point writes back, which holds the
logarithm of the running total after the eighth point over the number of pairs; the running total obeys the two
rules of the specification's, so that number is the specification's loss. These are the entry-by-entry facts the
specification `RegionSpec` follows from. -/

noncomputable section

namespace Cert.KernelIdeal.Value

open Cert.KernelIdeal Cert.KernelIdeal.Gen Cert.KernelIdeal.Hand Idealize.ShloMosaic Idealize.ShloMosaic.TcCoe Idealize.ShloMosaic.ValueIdx Idealize.SL.Sem
open Cert.LayerUpdate (normRow half feat final0_feats final0_acc final1_acc final2_feats final2_acc final3_acc)

/-- A `[1, 1]` array has one index. -/
theorem idx11_eq (i j : (⟨2, ![1, 1]⟩ : Shape).Idx) : i = j := by
  funext a
  have hi : (i a).val < (![1, 1] : Fin 2 → Nat) a := (i a).isLt
  have hj : (j a).val < (![1, 1] : Fin 2 → Nat) a := (j a).isLt
  have h1 : (![1, 1] : Fin 2 → Nat) a = 1 := by
    match a with
    | ⟨0, _⟩ => rfl
    | ⟨1, _⟩ => rfl
  exact Fin.ext (by omega)

/-- The one entry kernel 4 leaves: the specification's loss of the rows and the numbers it was entered with. -/
theorem entry_loss4 (W : Dev nD → Valuation τ sig (Elt Ideal)) (c : Dev nD) :
    ((dat4 (F := Ideal) (atTc W) c).arrAt 3 cfg4.N : FVec Ideal S1x1 .f32) (ix2 0 0)
      = Cert.ULoss.loss (fun r k => (W c main_v158 : FVec Ideal S2048x64 .f32) (ix2 r k))
          (fun j => (W c main_v161 : FVec Ideal S1x2048 .f32) (ix2 (0 : Fin 1) j)) := by
  have hr : (((cfg4.win 3).blk tl4).view.read (Elt Ideal) ((dat4 (F := Ideal) (atTc W) c).arrAt 3 cfg4.N)) (ix2 0 0)
      = ((dat4 (F := Ideal) (atTc W) c).arrAt 3 cfg4.N : FVec Ideal S1x1 .f32) (ix2 0 0) := by
    show ((dat4 (F := Ideal) (atTc W) c).arrAt 3 cfg4.N : FVec Ideal S1x1 .f32) (((cfg4.win 3).blk tl4).view.emb (ix2 0 0)) = _
    exact congrArg _ (idx11_eq _ _)
  calc ((dat4 (F := Ideal) (atTc W) c).arrAt 3 cfg4.N : FVec Ideal S1x1 .f32) (ix2 0 0)
      = out4 (atTc W) c (ix2 0 0) := hr.symm.trans (congrFun (final4 (atTc W) c) (ix2 0 0))
    _ = _ := Cert.ULoss.region4_loss (atTc W) c (acc4 (atTc W) c) (acc4_zero (atTc W) c) (acc4_succ (atTc W) c)

/-- The one entry kernel 5 leaves: the specification's loss of the rows and the numbers it was entered with. -/
theorem entry_loss5 (W : Dev nD → Valuation τ sig (Elt Ideal)) (c : Dev nD) :
    ((dat5 (F := Ideal) (atTc W) c).arrAt 3 cfg5.N : FVec Ideal S1x1 .f32) (ix2 0 0)
      = Cert.ULoss.loss (fun r k => (W c main_v168 : FVec Ideal S2048x64 .f32) (ix2 r k))
          (fun j => (W c main_v171 : FVec Ideal S1x2048 .f32) (ix2 (0 : Fin 1) j)) := by
  have hr : (((cfg5.win 3).blk tl5).view.read (Elt Ideal) ((dat5 (F := Ideal) (atTc W) c).arrAt 3 cfg5.N)) (ix2 0 0)
      = ((dat5 (F := Ideal) (atTc W) c).arrAt 3 cfg5.N : FVec Ideal S1x1 .f32) (ix2 0 0) := by
    show ((dat5 (F := Ideal) (atTc W) c).arrAt 3 cfg5.N : FVec Ideal S1x1 .f32) (((cfg5.win 3).blk tl5).view.emb (ix2 0 0)) = _
    exact congrArg _ (idx11_eq _ _)
  calc ((dat5 (F := Ideal) (atTc W) c).arrAt 3 cfg5.N : FVec Ideal S1x1 .f32) (ix2 0 0)
      = out5 (atTc W) c (ix2 0 0) := hr.symm.trans (congrFun (final5 (atTc W) c) (ix2 0 0))
    _ = _ := Cert.ULoss.region5_loss (atTc W) c (acc5 (atTc W) c) (acc5_zero (atTc W) c) (acc5_succ (atTc W) c)

/-- The one entry kernel 6 leaves: the specification's loss of the rows and the numbers it was entered with. -/
theorem entry_loss6 (W : Dev nD → Valuation τ sig (Elt Ideal)) (c : Dev nD) :
    ((dat6 (F := Ideal) (atTc W) c).arrAt 3 cfg6.N : FVec Ideal S1x1 .f32) (ix2 0 0)
      = Cert.ULoss.loss (fun r k => (W c main_v212 : FVec Ideal S2048x64 .f32) (ix2 r k))
          (fun j => (W c main_v215 : FVec Ideal S1x2048 .f32) (ix2 (0 : Fin 1) j)) := by
  have hr : (((cfg6.win 3).blk tl6).view.read (Elt Ideal) ((dat6 (F := Ideal) (atTc W) c).arrAt 3 cfg6.N)) (ix2 0 0)
      = ((dat6 (F := Ideal) (atTc W) c).arrAt 3 cfg6.N : FVec Ideal S1x1 .f32) (ix2 0 0) := by
    show ((dat6 (F := Ideal) (atTc W) c).arrAt 3 cfg6.N : FVec Ideal S1x1 .f32) (((cfg6.win 3).blk tl6).view.emb (ix2 0 0)) = _
    exact congrArg _ (idx11_eq _ _)
  calc ((dat6 (F := Ideal) (atTc W) c).arrAt 3 cfg6.N : FVec Ideal S1x1 .f32) (ix2 0 0)
      = out6 (atTc W) c (ix2 0 0) := hr.symm.trans (congrFun (final6 (atTc W) c) (ix2 0 0))
    _ = _ := Cert.ULoss.region6_loss (atTc W) c (acc6 (atTc W) c) (acc6_zero (atTc W) c) (acc6_succ (atTc W) c)

/-- The one entry kernel 7 leaves: the specification's loss of the rows and the numbers it was entered with. -/
theorem entry_loss7 (W : Dev nD → Valuation τ sig (Elt Ideal)) (c : Dev nD) :
    ((dat7 (F := Ideal) (atTc W) c).arrAt 3 cfg7.N : FVec Ideal S1x1 .f32) (ix2 0 0)
      = Cert.ULoss.loss (fun r k => (W c main_v222 : FVec Ideal S2048x64 .f32) (ix2 r k))
          (fun j => (W c main_v225 : FVec Ideal S1x2048 .f32) (ix2 (0 : Fin 1) j)) := by
  have hr : (((cfg7.win 3).blk tl7).view.read (Elt Ideal) ((dat7 (F := Ideal) (atTc W) c).arrAt 3 cfg7.N)) (ix2 0 0)
      = ((dat7 (F := Ideal) (atTc W) c).arrAt 3 cfg7.N : FVec Ideal S1x1 .f32) (ix2 0 0) := by
    show ((dat7 (F := Ideal) (atTc W) c).arrAt 3 cfg7.N : FVec Ideal S1x1 .f32) (((cfg7.win 3).blk tl7).view.emb (ix2 0 0)) = _
    exact congrArg _ (idx11_eq _ _)
  calc ((dat7 (F := Ideal) (atTc W) c).arrAt 3 cfg7.N : FVec Ideal S1x1 .f32) (ix2 0 0)
      = out7 (atTc W) c (ix2 0 0) := hr.symm.trans (congrFun (final7 (atTc W) c) (ix2 0 0))
    _ = _ := Cert.ULoss.region7_loss (atTc W) c (acc7 (atTc W) c) (acc7_zero (atTc W) c) (acc7_succ (atTc W) c)

/-- THE PROGRAM'S KERNELS MEET THEIR SPECIFICATION, on every core: each result array is, by name, the array its
    pallas_call's run leaves, and that array is known entry by entry. -/
theorem regionSpec_outs (c : Dev nD) : RegionSpec (F := Ideal) outs c := by
  refine regionSpec_of outs c ?_ ?_ ?_ ?_ ?_ ?_ ?_ ?_ ?_ ?_
  · intro W R l; dsimp only [outs]; exact final0_feats (atTc W) c R l
  · intro W R l; dsimp only [outs]; exact final0_acc (atTc W) c R l
  · intro W R l; dsimp only [outs]; exact final1_acc (atTc W) c R l
  · intro W R l; dsimp only [outs]; exact final2_feats (atTc W) c R l
  · intro W R l; dsimp only [outs]; exact final2_acc (atTc W) c R l
  · intro W R l; dsimp only [outs]; exact final3_acc (atTc W) c R l
  · intro W; dsimp only [outs]; exact entry_loss4 W c
  · intro W; dsimp only [outs]; exact entry_loss5 W c
  · intro W; dsimp only [outs]; exact entry_loss6 W c
  · intro W; dsimp only [outs]; exact entry_loss7 W c

end Cert.KernelIdeal.Value

end
-- ==== Proof.KV.Result.lean ====
import proofs.«108982_j38147899523261_2_alg».proof.Proof.KV.Agree
import proofs.«108982_j38147899523261_2_alg».proof.Proof.KV.Regions

/-! The kernel program's result is the reference's.

Launched from memories that agree on the fifteen argument arrays, the kernel program's result buffer holds at the
end of its run, on every core, the reference's result function of the reference's argument arrays: the kernel
program's buffers hold the reference's named intermediates of its own arguments, its eight kernels meeting their
specification, and the two programs' arguments are the same arrays. -/

noncomputable section

namespace Cert.KernelIdeal.Value

open Cert.KernelIdeal.Hand Idealize.ShloMosaic Idealize.ShloMosaic.TcCoe Idealize.SL.Sem Idealize.ShloMosaic.StableHlo
open Cert.ReferenceIdeal.Hand (argsOf)

/-- THE VALUE BRIDGE. From memories agreeing on the arguments, the kernel program's result buffer ends, on core `c`,
    at the reference's result as a function of the reference's argument arrays at launch. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : Agree m m') (c : Dev Cert.KernelIdeal.nD) :
    B38 (F := Ideal) m outs c Cert.KernelIdeal.main_v235 = (argsOf (launchContents m' c)).out :=
  result_of_spec m m' outs regionSpec_outs hagree c

end Cert.KernelIdeal.Value

end
-- ==== Proof.lean ====
/-
  The certificate of the kernel against its reference: `Cert.Claim`.

  The kernel program is eight Pallas regions among host operations: four layer updates (divide the propagated
  table by the layer's divisor, add to the accumulator each 64-wide row divided by its Euclidean norm floored at a small
  constant, on tables packed two rows to a 128-lane row) and four pairwise-distance terms (over 2048 normalised
  rows, the logarithm of the mean over the pairs r < c of exp(−2·‖x_r − x_c‖²), accumulated over eight bands of
  256 rows). The reference computes the same with plain host operations.

  * The three frames: each program runs to the end without fault and leaves its argument arrays as launched — the
    kernel programs through their thirty-eight items (host stretches and regions, `Hand.frame`), the reference as one
    sequence of host operations.
  * `preserves`: the idealized kernel differs from the word-level one in one literal, the floor under the square root,
    `1e-24` read as the exact square of the reference's floor `f32(1e-12)`; each of its eight sites is the named
    constant's statement.
  * `algebraic`: at the exact instance the two results are one function of the arguments. The kernel program's result is
    read at the end of its run stage by stage; a layer update on the packed table is the reference's stage on the
    unpacked one because the square root is monotone, so the root of the floored sum of squares is the floored root;
    a pairwise-distance region's eight accumulated bands are the reference's double sum regrouped, sums of extended
    reals being commutative and associative. No use is made of the inputs' finiteness.
-/
import proofs.«108982_j38147899523261_2_alg».proof.Defs
import proofs.«108982_j38147899523261_2_alg».proof.Proof.Gen.Kernel
import proofs.«108982_j38147899523261_2_alg».proof.Proof.Gen.KernelIdeal
import proofs.«108982_j38147899523261_2_alg».proof.Proof.Gen.ReferenceIdeal
import proofs.«108982_j38147899523261_2_alg».proof.Proof.Gen.Pre_finite_inputs
import proofs.«108982_j38147899523261_2_alg».proof.Proof.K.Segs
import proofs.«108982_j38147899523261_2_alg».proof.Proof.KI.Segs
import proofs.«108982_j38147899523261_2_alg».proof.Proof.Ref.Value
import proofs.«108982_j38147899523261_2_alg».proof.Proof.KV.Result
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments as launched. -/
theorem frame_kernel : Cert.frame_Kernel := fun m ρ _ => Cert.Kernel.Hand.frame (F := Bits) m ρ

/-- So does the idealized kernel program, at the exact instance. -/
theorem frame_kernelIdeal : Cert.frame_KernelIdeal := fun m ρ _ => Cert.KernelIdeal.Hand.frame (F := Ideal) m ρ

/-- And the reference. -/
theorem frame_referenceIdeal : Cert.frame_ReferenceIdeal :=
  Cert.ReferenceIdeal.Hand.frame (hPre_finite_inputs := Cert.Pre_finite_inputs.Gen.facts)

/-- The one rewrite of the ideal pass, at each of its eight sites: the literal `1e-24` under the square root is named, and the
    name denotes the rational the table gives it, the square of `2305843 / 2^61`. -/
theorem eps_sq_statement : IdealRules.named_const.Statement Cert.KernelIdeal.κ "eps_sq" .f32 0x179ABE15#32
    ((5316911940649 / 5316911983139663491615228241121378304 : ℝ) : EReal) :=
  IdealRules.named_const.statement Cert.KernelIdeal.κ "eps_sq" .f32 0x179ABE15#32
    ((5316911940649 / 5316911983139663491615228241121378304 : ℝ) : EReal) rfl

theorem preserves : Cert.preserves_Kernel_KernelIdeal :=
  ⟨eps_sq_statement, eps_sq_statement, eps_sq_statement, eps_sq_statement,
   eps_sq_statement, eps_sq_statement, eps_sq_statement, eps_sq_statement⟩

/-- At the exact instance, from memories agreeing on the arguments, both programs run, end with the same result —
    the kernel program's read at the end of its run, the reference's at the end of its operations, one function of the
    arguments — and leave their arguments as launched. -/
theorem algebraic : Cert.algebraic_KernelIdeal_ReferenceIdeal := by
  intro m ρ m' ρ' _ hagree
  refine ⟨fun c => Cert.KernelIdeal.Hand.B38 (F := Ideal) m Cert.KernelIdeal.Hand.outs c Cert.KernelIdeal.main_v235,
    Cert.KernelIdeal.Hand.run_result (F := Ideal) m ρ, ?_⟩
  refine (θ_run (Cert.ReferenceIdeal.defs (F := Ideal)) _ _).mono (fun _ h c => ⟨(h c).1.trans ?_, (h c).2⟩)
    (Cert.ReferenceIdeal.Hand.run_value (F := Ideal) m' ρ')
  exact (Cert.KernelIdeal.Value.result_eq m m' hagree c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
